-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S3276800 : Shape := ⟨1, ![3276800]⟩
abbrev S10x4 : Shape := ⟨2, ![10, 4]⟩
abbrev S5x4 : Shape := ⟨2, ![5, 4]⟩
abbrev S5 : Shape := ⟨1, ![5]⟩
abbrev S_ : Shape := ⟨0, ![]⟩

class Facts : Prop where
  bcast_S_S10x4 : S_.BroadcastsInDim S10x4 (![] : Fin 0 → Fin S10x4.rank)
  reducesTo_S10x4_S_d0_1 : S10x4.ReducesTo [0, 1] S_
  h_S_ : 0 < S_.numel
  bcast_S_S5x4 : S_.BroadcastsInDim S5x4 (![] : Fin 0 → Fin S5x4.rank)
  reducesTo_S5x4_S_d0_1 : S5x4.ReducesTo [0, 1] S_
  bcast_S_S5 : S_.BroadcastsInDim S5 (![] : Fin 0 → Fin S5.rank)
  reducesTo_S5_S_d0 : S5.ReducesTo [0] S_
  bcast_S_S16384x200 : S_.BroadcastsInDim S16384x200 (![] : Fin 0 → Fin S16384x200.rank)
  reducesTo_S16384x200_S_d0_1 : S16384x200.ReducesTo [0, 1] S_
  bcast_S_S3276800 : S_.BroadcastsInDim S3276800 (![] : Fin 0 → Fin S3276800.rank)
  reducesTo_S3276800_S_d0 : S3276800.ReducesTo [0] S_

variable [Facts]

def fn_part1 {F : FTy → Type} [FloatOps F] (main_arg0 : IVec S16384x200 32) (main_arg1 : IVec S3276800 32) (main_v13 : IVec S_ 1) (main_v15 : IVec S16384x200 1) (main_c_5 : IVec S_ 32) : IVec S_ 1 :=
  let main_v16 : IVec S16384x200 32 := broadcastInDim S16384x200 ![] bcast_S_S16384x200 main_c_5
  let main_v17 : IVec S16384x200 1 := cmpi .sle main_arg0 main_v16
  let main_v18 : IVec S16384x200 1 := andi main_v15 main_v17
  let main_c_6 : IVec S_ 1 := constantI S_ 1 1#1
  let main_v19 : IVec S_ 1 := (fun x v => Host.reduce IntOp.andi x v reducesTo_S16384x200_S_d0_1 h_S_) main_v18 main_c_6
  let main_v20 : IVec S_ 1 := andi main_v13 main_v19
  let main_c_7 : IVec S_ 32 := constantI S_ 32 0#32
  let main_v21 : IVec S3276800 32 := broadcastInDim S3276800 ![] bcast_S_S3276800 main_c_7
  let main_v22 : IVec S3276800 1 := cmpi .sge main_arg1 main_v21
  let main_c_8 : IVec S_ 32 := constantI S_ 32 4#32
  let main_v23 : IVec S3276800 32 := broadcastInDim S3276800 ![] bcast_S_S3276800 main_c_8
  let main_v24 : IVec S3276800 1 := cmpi .sle main_arg1 main_v23
  let main_v25 : IVec S3276800 1 := andi main_v22 main_v24
  let main_c_9 : IVec S_ 1 := constantI S_ 1 1#1
  let main_v26 : IVec S_ 1 := (fun x v => Host.reduce IntOp.andi x v reducesTo_S3276800_S_d0 h_S_) main_v25 main_c_9
  let main_v27 : IVec S_ 1 := andi main_v20 main_v26
  main_v27

def fn {F : FTy → Type} [FloatOps F] (main_arg0 : IVec S16384x200 32) (main_arg1 : IVec S3276800 32) (main_arg2 : FVec F S10x4 .f32) (main_arg3 : FVec F S5x4 .f32) (main_arg4 : FVec F S5 .f32) : IVec S_ 1 :=
  let main_v0 : FVec F S10x4 .f32 := Host.absf main_arg2
  let main_cst : FVec F S_ .f32 := constant S_ .f32 0x7F800000#32
  let main_v1 : FVec F S10x4 .f32 := broadcastInDim S10x4 ![] bcast_S_S10x4 main_cst
  let main_v2 : IVec S10x4 1 := cmpf .olt main_v0 main_v1
  let main_c : IVec S_ 1 := constantI S_ 1 1#1
  let main_v3 : IVec S_ 1 := (fun x v => Host.reduce IntOp.andi x v reducesTo_S10x4_S_d0_1 h_S_) main_v2 main_c
  let main_v4 : FVec F S5x4 .f32 := Host.absf main_arg3
  let main_cst_0 : FVec F S_ .f32 := constant S_ .f32 0x7F800000#32
  let main_v5 : FVec F S5x4 .f32 := broadcastInDim S5x4 ![] bcast_S_S5x4 main_cst_0
  let main_v6 : IVec S5x4 1 := cmpf .olt main_v4 main_v5
  let main_c_1 : IVec S_ 1 := constantI S_ 1 1#1
  let main_v7 : IVec S_ 1 := (fun x v => Host.reduce IntOp.andi x v reducesTo_S5x4_S_d0_1 h_S_) main_v6 main_c_1
  let main_v8 : IVec S_ 1 := andi main_v3 main_v7
  let main_v9 : FVec F S5 .f32 := Host.absf main_arg4
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_c_4 : IVec S_ 32 := constantI S_ 32 0#32
  let main_v14 : IVec S16384x200 32 := broadcastInDim S16384x200 ![] bcast_S_S16384x200 main_c_4
  let main_v15 : IVec S16384x200 1 := cmpi .sge main_arg0 main_v14
  let main_c_5 : IVec S_ 32 := constantI S_ 32 9#32
  fn_part1 (F := F) main_arg0 main_arg1 main_v13 main_v15 main_c_5
-- ==== Kernel.lean ====
abbrev S16384x200 : Shape := ⟨2, ![16384, 200]⟩
abbrev S3276800 : Shape := ⟨1, ![3276800]⟩
abbrev S10x4 : Shape := ⟨2, ![10, 4]⟩
abbrev S5x4 : Shape := ⟨2, ![5, 4]⟩
abbrev S5 : Shape := ⟨1, ![5]⟩
abbrev S10x5 : Shape := ⟨2, ![10, 5]⟩
abbrev S1x5 : Shape := ⟨2, ![1, 5]⟩
abbrev S10 : Shape := ⟨1, ![10]⟩
abbrev S10x1 : Shape := ⟨2, ![10, 1]⟩
abbrev S50 : Shape := ⟨1, ![50]⟩
abbrev S_ : Shape := ⟨0, ![]⟩
abbrev S64 : Shape := ⟨1, ![64]⟩
abbrev S512 : Shape := ⟨1, ![512]⟩
abbrev S64x200 : Shape := ⟨2, ![64, 200]⟩
abbrev S12800 : Shape := ⟨1, ![12800]⟩
abbrev S16 : Shape := ⟨1, ![16]⟩
abbrev S2 : Shape := ⟨1, ![2]⟩
abbrev S1 : Shape := ⟨1, ![1]⟩
abbrev S1x1 : Shape := ⟨2, ![1, 1]⟩
abbrev S1x512 : Shape := ⟨2, ![1, 512]⟩

abbrev nBuf : Table → Nat
  | .hbm => 13
  | .local .tc .vmem => 6
  | .local .scVector .vmem => 6
  | _ => 0

abbrev bufTy : (tb : Table) → Fin (nBuf tb) → BufTy
  | .hbm, ⟨0, _⟩ => ⟨S16384x200, .i32⟩
  | .hbm, ⟨1, _⟩ => ⟨S3276800, .i32⟩
  | .hbm, ⟨2, _⟩ => ⟨S10x4, .f32⟩
  | .hbm, ⟨3, _⟩ => ⟨S5x4, .f32⟩
  | .hbm, ⟨4, _⟩ => ⟨S5, .f32⟩
  | .hbm, ⟨5, _⟩ => ⟨S10x5, .f32⟩
  | .hbm, ⟨6, _⟩ => ⟨S50, .f32⟩
  | .hbm, ⟨7, _⟩ => ⟨S_, .i32⟩
  | .hbm, ⟨8, _⟩ => ⟨S_, .f32⟩
  | .hbm, ⟨9, _⟩ => ⟨S64, .f32⟩
  | .hbm, ⟨10, _⟩ => ⟨S512, .f32⟩
  | .hbm, ⟨11, _⟩ => ⟨S1x1, .f32⟩
  | .hbm, ⟨12, _⟩ => ⟨S_, .f32⟩
  | .local .tc .vmem, ⟨0, _⟩ => ⟨S10x4, .f32⟩
  | .local .tc .vmem, ⟨1, _⟩ => ⟨S5x4, .f32⟩
  | .local .tc .vmem, ⟨2, _⟩ => ⟨S5, .f32⟩
  | .local .tc .vmem, ⟨3, _⟩ => ⟨S10x5, .f32⟩
  | .local .tc .vmem, ⟨4, _⟩ => ⟨S512, .f32⟩
  | .local .tc .vmem, ⟨5, _⟩ => ⟨S1x1, .f32⟩
  | .local .scVector .vmem, ⟨0, _⟩ => ⟨S64, .f32⟩
  | .local .scVector .vmem, ⟨1, _⟩ => ⟨S64x200, .i32⟩
  | .local .scVector .vmem, ⟨2, _⟩ => ⟨S64x200, .i32⟩
  | .local .scVector .vmem, ⟨3, _⟩ => ⟨S12800, .i32⟩
  | .local .scVector .vmem, ⟨4, _⟩ => ⟨S12800, .i32⟩
  | .local .scVector .vmem, ⟨5, _⟩ => ⟨S16, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg0_scv : Ref sig .scVector := ⟨.hbm, 0, rfl⟩
abbrev main_arg1_scv : Ref sig .scVector := ⟨.hbm, 1, rfl⟩
abbrev main_v2_scv : Ref sig .scVector := ⟨.hbm, 9, rfl⟩
abbrev main_v3_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 10
abbrev cc2_sem1_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v15 : BitVec 32 := Scalar.addi v2 c0_i32
  let c0_i32_3 : BitVec 32 := 0#32
  ![v15.toNat, 0]
def k1_off2 (i : grid1.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v3 : BitVec 32 := Scalar.muli v1 c102400_i32
  let v20 : BitVec 32 := Scalar.addi v3 c0_i32_5
  ![v20.toNat]
@[reducible] def k1_t1_loop : Scf.Loop 32 :=
  let c0_i32_17 : BitVec 32 := 0#32
  let c32_i32 : BitVec 32 := 32#32
  let v47 : BitVec 32 := Scalar.addi c0_i32_17 c32_i32
  let c1_i32_18 : BitVec 32 := 1#32
  ⟨c0_i32_17, v47, c1_i32_18⟩

def k1_chk1 (v186 : IVec S16 32) (v188 : IVec S16 32) : Prop :=
  (∀ a x, ((![v186, v188] : Fin 2 → IVec S16 32) a x).toNat < S64x200.size a)
instance k1_chk1.dec : ∀ (v186 : IVec S16 32) (v188 : IVec S16 32), Decidable (k1_chk1 v186 v188) := fun v186 v188 => decidable_of_iff' _ (Iff.of_eq (k1_chk1.eq_1 v186 v188))
theorem k1_idx1_inb : ∀ (v186 : IVec S16 32) (v188 : IVec S16 32) (k1_hw1 : k1_chk1 v186 v188), ∀ a x, ((![v186, v188] : Fin 2 → IVec S16 32) a x).toNat < S64x200.size a := fun v186 v188 k1_hw1 => k1_hw1
def k1_off3 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32 : BitVec 32 := 400#32
  let v190 : BitVec 32 := Scalar.muli arg14 c400_i32
  let c0_i32_104 : BitVec 32 := 0#32
  let v191 : BitVec 32 := Scalar.addi v190 c0_i32_104
  let v192 : Index := Scalar.indexCast v191
  ![v192.toNat]

def k1_chk2 (v196 : IVec S16 32) : Prop :=
  (∀ a x, ((![v196] : Fin 1 → IVec S16 32) a x).toNat < S64.size a)
instance k1_chk2.dec : ∀ (v196 : IVec S16 32), Decidable (k1_chk2 v196) := fun v196 => decidable_of_iff' _ (Iff.of_eq (k1_chk2.eq_1 v196))
theorem k1_idx2_inb : ∀ (v196 : IVec S16 32) (k1_hw2 : k1_chk2 v196), ∀ a x, ((![v196] : Fin 1 → IVec S16 32) a x).toNat < S64.size a := fun v196 k1_hw2 => k1_hw2

def k1_chk3 (v200 : IVec S16 32) (v202 : IVec S16 32) : Prop :=
  (∀ a x, ((![v200, v202] : Fin 2 → IVec S16 32) a x).toNat < S64x200.size a)
instance k1_chk3.dec : ∀ (v200 : IVec S16 32) (v202 : IVec S16 32), Decidable (k1_chk3 v200 v202) := fun v200 v202 => decidable_of_iff' _ (Iff.of_eq (k1_chk3.eq_1 v200 v202))
theorem k1_idx3_inb : ∀ (v200 : IVec S16 32) (v202 : IVec S16 32) (k1_hw3 : k1_chk3 v200 v202), ∀ a x, ((![v200, v202] : Fin 2 → IVec S16 32) a x).toNat < S64x200.size a := fun v200 v202 k1_hw3 => k1_hw3
def k1_off4 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_107 : BitVec 32 := 400#32
  let v204 : BitVec 32 := Scalar.muli arg14 c400_i32_107
  let c16_i32_108 : BitVec 32 := 16#32
  let v205 : BitVec 32 := Scalar.addi v204 c16_i32_108
  let v206 : Index := Scalar.indexCast v205
  ![v206.toNat]

def k1_chk4 (v210 : IVec S16 32) : Prop :=
  (∀ a x, ((![v210] : Fin 1 → IVec S16 32) a x).toNat < S64.size a)
instance k1_chk4.dec : ∀ (v210 : IVec S16 32), Decidable (k1_chk4 v210) := fun v210 => decidable_of_iff' _ (Iff.of_eq (k1_chk4.eq_1 v210))
theorem k1_idx4_inb : ∀ (v210 : IVec S16 32) (k1_hw4 : k1_chk4 v210), ∀ a x, ((![v210] : Fin 1 → IVec S16 32) a x).toNat < S64.size a := fun v210 k1_hw4 => k1_hw4

def k1_chk5 (v214 : IVec S16 32) (v216 : IVec S16 32) : Prop :=
  (∀ a x, ((![v214, v216] : Fin 2 → IVec S16 32) a x).toNat < S64x200.size a)
instance k1_chk5.dec : ∀ (v214 : IVec S16 32) (v216 : IVec S16 32), Decidable (k1_chk5 v214 v216) := fun v214 v216 => decidable_of_iff' _ (Iff.of_eq (k1_chk5.eq_1 v214 v216))
theorem k1_idx5_inb : ∀ (v214 : IVec S16 32) (v216 : IVec S16 32) (k1_hw5 : k1_chk5 v214 v216), ∀ a x, ((![v214, v216] : Fin 2 → IVec S16 32) a x).toNat < S64x200.size a := fun v214 v216 k1_hw5 => k1_hw5
def k1_off5 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_112 : BitVec 32 := 400#32
  let v218 : BitVec 32 := Scalar.muli arg14 c400_i32_112
  let c32_i32_113 : BitVec 32 := 32#32
  let v219 : BitVec 32 := Scalar.addi v218 c32_i32_113
  let v220 : Index := Scalar.indexCast v219
  ![v220.toNat]

def k1_chk6 (v224 : IVec S16 32) : Prop :=
  (∀ a x, ((![v224] : Fin 1 → IVec S16 32) a x).toNat < S64.size a)
instance k1_chk6.dec : ∀ (v224 : IVec S16 32), Decidable (k1_chk6 v224) := fun v224 => decidable_of_iff' _ (Iff.of_eq (k1_chk6.eq_1 v224))
theorem k1_idx6_inb : ∀ (v224 : IVec S16 32) (k1_hw6 : k1_chk6 v224), ∀ a x, ((![v224] : Fin 1 → IVec S16 32) a x).toNat < S64.size a := fun v224 k1_hw6 => k1_hw6

def k1_chk7 (v228 : IVec S16 32) (v230 : IVec S16 32) : Prop :=
  (∀ a x, ((![v228, v230] : Fin 2 → IVec S16 32) a x).toNat < S64x200.size a)
instance k1_chk7.dec : ∀ (v228 : IVec S16 32) (v230 : IVec S16 32), Decidable (k1_chk7 v228 v230) := fun v228 v230 => decidable_of_iff' _ (Iff.of_eq (k1_chk7.eq_1 v228 v230))
theorem k1_idx7_inb : ∀ (v228 : IVec S16 32) (v230 : IVec S16 32) (k1_hw7 : k1_chk7 v228 v230), ∀ a x, ((![v228, v230] : Fin 2 → IVec S16 32) a x).toNat < S64x200.size a := fun v228 v230 k1_hw7 => k1_hw7
def k1_off6 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_116 : BitVec 32 := 400#32
  let v232 : BitVec 32 := Scalar.muli arg14 c400_i32_116
  let c48_i32_117 : BitVec 32 := 48#32
  let v233 : BitVec 32 := Scalar.addi v232 c48_i32_117
  let v234 : Index := Scalar.indexCast v233
  ![v234.toNat]

def k1_chk8 (v238 : IVec S16 32) : Prop :=
  (∀ a x, ((![v238] : Fin 1 → IVec S16 32) a x).toNat < S64.size a)
instance k1_chk8.dec : ∀ (v238 : IVec S16 32), Decidable (k1_chk8 v238) := fun v238 => decidable_of_iff' _ (Iff.of_eq (k1_chk8.eq_1 v238))
theorem k1_idx8_inb : ∀ (v238 : IVec S16 32) (k1_hw8 : k1_chk8 v238), ∀ a x, ((![v238] : Fin 1 → IVec S16 32) a x).toNat < S64.size a := fun v238 k1_hw8 => k1_hw8

def k1_chk9 (v242 : IVec S16 32) (v244 : IVec S16 32) : Prop :=
  (∀ a x, ((![v242, v244] : Fin 2 → IVec S16 32) a x).toNat < S64x200.size a)
instance k1_chk9.dec : ∀ (v242 : IVec S16 32) (v244 : IVec S16 32), Decidable (k1_chk9 v242 v244) := fun v242 v244 => decidable_of_iff' _ (Iff.of_eq (k1_chk9.eq_1 v242 v244))
theorem k1_idx9_inb : ∀ (v242 : IVec S16 32) (v244 : IVec S16 32) (k1_hw9 : k1_chk9 v242 v244), ∀ a x, ((![v242, v244] : Fin 2 → IVec S16 32) a x).toNat < S64x200.size a := fun v242 v244 k1_hw9 => k1_hw9
def k1_off7 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_121 : BitVec 32 := 400#32
  let v246 : BitVec 32 := Scalar.muli arg14 c400_i32_121
  let c64_i32_122 : BitVec 32 := 64#32
  let v247 : BitVec 32 := Scalar.addi v246 c64_i32_122
  let v248 : Index := Scalar.indexCast v247
  ![v248.toNat]

def k1_chk10 (v252 : IVec S16 32) : Prop :=
  (∀ a x, ((![v252] : Fin 1 → IVec S16 32) a x).toNat < S64.size a)
instance k1_chk10.dec : ∀ (v252 : IVec S16 32), Decidable (k1_chk10 v252) := fun v252 => decidable_of_iff' _ (Iff.of_eq (k1_chk10.eq_1 v252))
theorem k1_idx10_inb : ∀ (v252 : IVec S16 32) (k1_hw10 : k1_chk10 v252), ∀ a x, ((![v252] : Fin 1 → IVec S16 32) a x).toNat < S64.size a := fun v252 k1_hw10 => k1_hw10

def k1_chk11 (v256 : IVec S16 32) (v258 : IVec S16 32) : Prop :=
  (∀ a x, ((![v256, v258] : Fin 2 → IVec S16 32) a x).toNat < S64x200.size a)
instance k1_chk11.dec : ∀ (v256 : IVec S16 32) (v258 : IVec S16 32), Decidable (k1_chk11 v256 v258) := fun v256 v258 => decidable_of_iff' _ (Iff.of_eq (k1_chk11.eq_1 v256 v258))
theorem k1_idx11_inb : ∀ (v256 : IVec S16 32) (v258 : IVec S16 32) (k1_hw11 : k1_chk11 v256 v258), ∀ a x, ((![v256, v258] : Fin 2 → IVec S16 32) a x).toNat < S64x200.size a := fun v256 v258 k1_hw11 => k1_hw11
def k1_off8 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_125 : BitVec 32 := 400#32
  let v260 : BitVec 32 := Scalar.muli arg14 c400_i32_125
  let c80_i32_126 : BitVec 32 := 80#32
  let v261 : BitVec 32 := Scalar.addi v260 c80_i32_126
  let v262 : Index := Scalar.indexCast v261
  ![v262.toNat]

def k1_chk12 (v266 : IVec S16 32) : Prop :=
  (∀ a x, ((![v266] : Fin 1 → IVec S16 32) a x).toNat < S64.size a)
instance k1_chk12.dec : ∀ (v266 : IVec S16 32), Decidable (k1_chk12 v266) := fun v266 => decidable_of_iff' _ (Iff.of_eq (k1_chk12.eq_1 v266))
theorem k1_idx12_inb : ∀ (v266 : IVec S16 32) (k1_hw12 : k1_chk12 v266), ∀ a x, ((![v266] : Fin 1 → IVec S16 32) a x).toNat < S64.size a := fun v266 k1_hw12 => k1_hw12

def k1_chk13 (v270 : IVec S16 32) (v272 : IVec S16 32) : Prop :=
  (∀ a x, ((![v270, v272] : Fin 2 → IVec S16 32) a x).toNat < S64x200.size a)
instance k1_chk13.dec : ∀ (v270 : IVec S16 32) (v272 : IVec S16 32), Decidable (k1_chk13 v270 v272) := fun v270 v272 => decidable_of_iff' _ (Iff.of_eq (k1_chk13.eq_1 v270 v272))
theorem k1_idx13_inb : ∀ (v270 : IVec S16 32) (v272 : IVec S16 32) (k1_hw13 : k1_chk13 v270 v272), ∀ a x, ((![v270, v272] : Fin 2 → IVec S16 32) a x).toNat < S64x200.size a := fun v270 v272 k1_hw13 => k1_hw13
def k1_off9 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_129 : BitVec 32 := 400#32
  let v274 : BitVec 32 := Scalar.muli arg14 c400_i32_129
  let c96_i32_130 : BitVec 32 := 96#32
  let v275 : BitVec 32 := Scalar.addi v274 c96_i32_130
  let v276 : Index := Scalar.indexCast v275
  ![v276.toNat]

def k1_chk14 (v280 : IVec S16 32) : Prop :=
  (∀ a x, ((![v280] : Fin 1 → IVec S16 32) a x).toNat < S64.size a)
instance k1_chk14.dec : ∀ (v280 : IVec S16 32), Decidable (k1_chk14 v280) := fun v280 => decidable_of_iff' _ (Iff.of_eq (k1_chk14.eq_1 v280))
theorem k1_idx14_inb : ∀ (v280 : IVec S16 32) (k1_hw14 : k1_chk14 v280), ∀ a x, ((![v280] : Fin 1 → IVec S16 32) a x).toNat < S64.size a := fun v280 k1_hw14 => k1_hw14

def k1_chk15 (v284 : IVec S16 32) (v286 : IVec S16 32) : Prop :=
  (∀ a x, ((![v284, v286] : Fin 2 → IVec S16 32) a x).toNat < S64x200.size a)
instance k1_chk15.dec : ∀ (v284 : IVec S16 32) (v286 : IVec S16 32), Decidable (k1_chk15 v284 v286) := fun v284 v286 => decidable_of_iff' _ (Iff.of_eq (k1_chk15.eq_1 v284 v286))
theorem k1_idx15_inb : ∀ (v284 : IVec S16 32) (v286 : IVec S16 32) (k1_hw15 : k1_chk15 v284 v286), ∀ a x, ((![v284, v286] : Fin 2 → IVec S16 32) a x).toNat < S64x200.size a := fun v284 v286 k1_hw15 => k1_hw15
def k1_off10 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_133 : BitVec 32 := 400#32
  let v288 : BitVec 32 := Scalar.muli arg14 c400_i32_133
  let c112_i32_134 : BitVec 32 := 112#32
  let v289 : BitVec 32 := Scalar.addi v288 c112_i32_134
  let v290 : Index := Scalar.indexCast v289
  ![v290.toNat]

def k1_chk16 (v294 : IVec S16 32) : Prop :=
  (∀ a x, ((![v294] : Fin 1 → IVec S16 32) a x).toNat < S64.size a)
instance k1_chk16.dec : ∀ (v294 : IVec S16 32), Decidable (k1_chk16 v294) := fun v294 => decidable_of_iff' _ (Iff.of_eq (k1_chk16.eq_1 v294))
theorem k1_idx16_inb : ∀ (v294 : IVec S16 32) (k1_hw16 : k1_chk16 v294), ∀ a x, ((![v294] : Fin 1 → IVec S16 32) a x).toNat < S64.size a := fun v294 k1_hw16 => k1_hw16

def k1_chk17 (v298 : IVec S16 32) (v300 : IVec S16 32) : Prop :=
  (∀ a x, ((![v298, v300] : Fin 2 → IVec S16 32) a x).toNat < S64x200.size a)
instance k1_chk17.dec : ∀ (v298 : IVec S16 32) (v300 : IVec S16 32), Decidable (k1_chk17 v298 v300) := fun v298 v300 => decidable_of_iff' _ (Iff.of_eq (k1_chk17.eq_1 v298 v300))
theorem k1_idx17_inb : ∀ (v298 : IVec S16 32) (v300 : IVec S16 32) (k1_hw17 : k1_chk17 v298 v300), ∀ a x, ((![v298, v300] : Fin 2 → IVec S16 32) a x).toNat < S64x200.size a := fun v298 v300 k1_hw17 => k1_hw17
def k1_off11 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_138 : BitVec 32 := 400#32
  let v302 : BitVec 32 := Scalar.muli arg14 c400_i32_138
  let c128_i32_139 : BitVec 32 := 128#32
  let v303 : BitVec 32 := Scalar.addi v302 c128_i32_139
  let v304 : Index := Scalar.indexCast v303
  ![v304.toNat]

def k1_chk18 (v308 : IVec S16 32) : Prop :=
  (∀ a x, ((![v308] : Fin 1 → IVec S16 32) a x).toNat < S64.size a)
instance k1_chk18.dec : ∀ (v308 : IVec S16 32), Decidable (k1_chk18 v308) := fun v308 => decidable_of_iff' _ (Iff.of_eq (k1_chk18.eq_1 v308))
theorem k1_idx18_inb : ∀ (v308 : IVec S16 32) (k1_hw18 : k1_chk18 v308), ∀ a x, ((![v308] : Fin 1 → IVec S16 32) a x).toNat < S64.size a := fun v308 k1_hw18 => k1_hw18

def k1_chk19 (v312 : IVec S16 32) (v314 : IVec S16 32) : Prop :=
  (∀ a x, ((![v312, v314] : Fin 2 → IVec S16 32) a x).toNat < S64x200.size a)
instance k1_chk19.dec : ∀ (v312 : IVec S16 32) (v314 : IVec S16 32), Decidable (k1_chk19 v312 v314) := fun v312 v314 => decidable_of_iff' _ (Iff.of_eq (k1_chk19.eq_1 v312 v314))
theorem k1_idx19_inb : ∀ (v312 : IVec S16 32) (v314 : IVec S16 32) (k1_hw19 : k1_chk19 v312 v314), ∀ a x, ((![v312, v314] : Fin 2 → IVec S16 32) a x).toNat < S64x200.size a := fun v312 v314 k1_hw19 => k1_hw19
def k1_off12 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_142 : BitVec 32 := 400#32
  let v316 : BitVec 32 := Scalar.muli arg14 c400_i32_142
  let c144_i32_143 : BitVec 32 := 144#32
  let v317 : BitVec 32 := Scalar.addi v316 c144_i32_143
  let v318 : Index := Scalar.indexCast v317
  ![v318.toNat]

def k1_chk20 (v322 : IVec S16 32) : Prop :=
  (∀ a x, ((![v322] : Fin 1 → IVec S16 32) a x).toNat < S64.size a)
instance k1_chk20.dec : ∀ (v322 : IVec S16 32), Decidable (k1_chk20 v322) := fun v322 => decidable_of_iff' _ (Iff.of_eq (k1_chk20.eq_1 v322))
theorem k1_idx20_inb : ∀ (v322 : IVec S16 32) (k1_hw20 : k1_chk20 v322), ∀ a x, ((![v322] : Fin 1 → IVec S16 32) a x).toNat < S64.size a := fun v322 k1_hw20 => k1_hw20

def k1_chk21 (v326 : IVec S16 32) (v328 : IVec S16 32) : Prop :=
  (∀ a x, ((![v326, v328] : Fin 2 → IVec S16 32) a x).toNat < S64x200.size a)
instance k1_chk21.dec : ∀ (v326 : IVec S16 32) (v328 : IVec S16 32), Decidable (k1_chk21 v326 v328) := fun v326 v328 => decidable_of_iff' _ (Iff.of_eq (k1_chk21.eq_1 v326 v328))
theorem k1_idx21_inb : ∀ (v326 : IVec S16 32) (v328 : IVec S16 32) (k1_hw21 : k1_chk21 v326 v328), ∀ a x, ((![v326, v328] : Fin 2 → IVec S16 32) a x).toNat < S64x200.size a := fun v326 v328 k1_hw21 => k1_hw21
def k1_off13 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_146 : BitVec 32 := 400#32
  let v330 : BitVec 32 := Scalar.muli arg14 c400_i32_146
  let c160_i32_147 : BitVec 32 := 160#32
  let v331 : BitVec 32 := Scalar.addi v330 c160_i32_147
  let v332 : Index := Scalar.indexCast v331
  ![v332.toNat]

def k1_chk22 (v336 : IVec S16 32) : Prop :=
  (∀ a x, ((![v336] : Fin 1 → IVec S16 32) a x).toNat < S64.size a)
instance k1_chk22.dec : ∀ (v336 : IVec S16 32), Decidable (k1_chk22 v336) := fun v336 => decidable_of_iff' _ (Iff.of_eq (k1_chk22.eq_1 v336))
theorem k1_idx22_inb : ∀ (v336 : IVec S16 32) (k1_hw22 : k1_chk22 v336), ∀ a x, ((![v336] : Fin 1 → IVec S16 32) a x).toNat < S64.size a := fun v336 k1_hw22 => k1_hw22

def k1_chk23 (v340 : IVec S16 32) (v342 : IVec S16 32) : Prop :=
  (∀ a x, ((![v340, v342] : Fin 2 → IVec S16 32) a x).toNat < S64x200.size a)
instance k1_chk23.dec : ∀ (v340 : IVec S16 32) (v342 : IVec S16 32), Decidable (k1_chk23 v340 v342) := fun v340 v342 => decidable_of_iff' _ (Iff.of_eq (k1_chk23.eq_1 v340 v342))
theorem k1_idx23_inb : ∀ (v340 : IVec S16 32) (v342 : IVec S16 32) (k1_hw23 : k1_chk23 v340 v342), ∀ a x, ((![v340, v342] : Fin 2 → IVec S16 32) a x).toNat < S64x200.size a := fun v340 v342 k1_hw23 => k1_hw23
def k1_off14 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_150 : BitVec 32 := 400#32
  let v344 : BitVec 32 := Scalar.muli arg14 c400_i32_150
  let c176_i32_151 : BitVec 32 := 176#32
  let v345 : BitVec 32 := Scalar.addi v344 c176_i32_151
  let v346 : Index := Scalar.indexCast v345
  ![v346.toNat]

def k1_chk24 (v350 : IVec S16 32) : Prop :=
  (∀ a x, ((![v350] : Fin 1 → IVec S16 32) a x).toNat < S64.size a)
instance k1_chk24.dec : ∀ (v350 : IVec S16 32), Decidable (k1_chk24 v350) := fun v350 => decidable_of_iff' _ (Iff.of_eq (k1_chk24.eq_1 v350))
theorem k1_idx24_inb : ∀ (v350 : IVec S16 32) (k1_hw24 : k1_chk24 v350), ∀ a x, ((![v350] : Fin 1 → IVec S16 32) a x).toNat < S64.size a := fun v350 k1_hw24 => k1_hw24

def k1_chk25 (v14 : IVec S16 32) (v355 : IVec S16 32) : Prop :=
  (∀ a x, ((![v355, v14] : Fin 2 → IVec S16 32) a x).toNat < S64x200.size a)
instance k1_chk25.dec : ∀ (v14 : IVec S16 32) (v355 : IVec S16 32), Decidable (k1_chk25 v14 v355) := fun v14 v355 => decidable_of_iff' _ (Iff.of_eq (k1_chk25.eq_1 v14 v355))
theorem k1_idx25_inb : ∀ (v14 : IVec S16 32) (v355 : IVec S16 32) (k1_hw25 : k1_chk25 v14 v355), ∀ a x, ((![v355, v14] : Fin 2 → IVec S16 32) a x).toNat < S64x200.size a := fun v14 v355 k1_hw25 => k1_hw25
def k1_off15 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_154 : BitVec 32 := 400#32
  let v357 : BitVec 32 := Scalar.muli arg14 c400_i32_154
  let c192_i32_155 : BitVec 32 := 192#32
  let v358 : BitVec 32 := Scalar.addi v357 c192_i32_155
  let v359 : Index := Scalar.indexCast v358
  ![v359.toNat]

def k1_chk26 (v363 : IVec S16 32) : Prop :=
  (∀ a x, ((![v363] : Fin 1 → IVec S16 32) a x).toNat < S64.size a)
instance k1_chk26.dec : ∀ (v363 : IVec S16 32), Decidable (k1_chk26 v363) := fun v363 => decidable_of_iff' _ (Iff.of_eq (k1_chk26.eq_1 v363))
theorem k1_idx26_inb : ∀ (v363 : IVec S16 32) (k1_hw26 : k1_chk26 v363), ∀ a x, ((![v363] : Fin 1 → IVec S16 32) a x).toNat < S64.size a := fun v363 k1_hw26 => k1_hw26

def k1_chk27 (v367 : IVec S16 32) (v369 : IVec S16 32) : Prop :=
  (∀ a x, ((![v367, v369] : Fin 2 → IVec S16 32) a x).toNat < S64x200.size a)
instance k1_chk27.dec : ∀ (v367 : IVec S16 32) (v369 : IVec S16 32), Decidable (k1_chk27 v367 v369) := fun v367 v369 => decidable_of_iff' _ (Iff.of_eq (k1_chk27.eq_1 v367 v369))
theorem k1_idx27_inb : ∀ (v367 : IVec S16 32) (v369 : IVec S16 32) (k1_hw27 : k1_chk27 v367 v369), ∀ a x, ((![v367, v369] : Fin 2 → IVec S16 32) a x).toNat < S64x200.size a := fun v367 v369 k1_hw27 => k1_hw27
def k1_off16 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_159 : BitVec 32 := 400#32
  let v371 : BitVec 32 := Scalar.muli arg14 c400_i32_159
  let c208_i32 : BitVec 32 := 208#32
  let v372 : BitVec 32 := Scalar.addi v371 c208_i32
  let v373 : Index := Scalar.indexCast v372
  ![v373.toNat]

def k1_chk28 (v377 : IVec S16 32) : Prop :=
  (∀ a x, ((![v377] : Fin 1 → IVec S16 32) a x).toNat < S64.size a)
instance k1_chk28.dec : ∀ (v377 : IVec S16 32), Decidable (k1_chk28 v377) := fun v377 => decidable_of_iff' _ (Iff.of_eq (k1_chk28.eq_1 v377))
theorem k1_idx28_inb : ∀ (v377 : IVec S16 32) (k1_hw28 : k1_chk28 v377), ∀ a x, ((![v377] : Fin 1 → IVec S16 32) a x).toNat < S64.size a := fun v377 k1_hw28 => k1_hw28

def k1_chk29 (v381 : IVec S16 32) (v383 : IVec S16 32) : Prop :=
  (∀ a x, ((![v381, v383] : Fin 2 → IVec S16 32) a x).toNat < S64x200.size a)
instance k1_chk29.dec : ∀ (v381 : IVec S16 32) (v383 : IVec S16 32), Decidable (k1_chk29 v381 v383) := fun v381 v383 => decidable_of_iff' _ (Iff.of_eq (k1_chk29.eq_1 v381 v383))
theorem k1_idx29_inb : ∀ (v381 : IVec S16 32) (v383 : IVec S16 32) (k1_hw29 : k1_chk29 v381 v383), ∀ a x, ((![v381, v383] : Fin 2 → IVec S16 32) a x).toNat < S64x200.size a := fun v381 v383 k1_hw29 => k1_hw29
def k1_off17 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_162 : BitVec 32 := 400#32
  let v385 : BitVec 32 := Scalar.muli arg14 c400_i32_162
  let c224_i32 : BitVec 32 := 224#32
  let v386 : BitVec 32 := Scalar.addi v385 c224_i32
  let v387 : Index := Scalar.indexCast v386
  ![v387.toNat]

def k1_chk30 (v391 : IVec S16 32) : Prop :=
  (∀ a x, ((![v391] : Fin 1 → IVec S16 32) a x).toNat < S64.size a)
instance k1_chk30.dec : ∀ (v391 : IVec S16 32), Decidable (k1_chk30 v391) := fun v391 => decidable_of_iff' _ (Iff.of_eq (k1_chk30.eq_1 v391))
theorem k1_idx30_inb : ∀ (v391 : IVec S16 32) (k1_hw30 : k1_chk30 v391), ∀ a x, ((![v391] : Fin 1 → IVec S16 32) a x).toNat < S64.size a := fun v391 k1_hw30 => k1_hw30

def k1_chk31 (v395 : IVec S16 32) (v397 : IVec S16 32) : Prop :=
  (∀ a x, ((![v395, v397] : Fin 2 → IVec S16 32) a x).toNat < S64x200.size a)
instance k1_chk31.dec : ∀ (v395 : IVec S16 32) (v397 : IVec S16 32), Decidable (k1_chk31 v395 v397) := fun v395 v397 => decidable_of_iff' _ (Iff.of_eq (k1_chk31.eq_1 v395 v397))
theorem k1_idx31_inb : ∀ (v395 : IVec S16 32) (v397 : IVec S16 32) (k1_hw31 : k1_chk31 v395 v397), ∀ a x, ((![v395, v397] : Fin 2 → IVec S16 32) a x).toNat < S64x200.size a := fun v395 v397 k1_hw31 => k1_hw31
def k1_off18 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_165 : BitVec 32 := 400#32
  let v399 : BitVec 32 := Scalar.muli arg14 c400_i32_165
  let c240_i32 : BitVec 32 := 240#32
  let v400 : BitVec 32 := Scalar.addi v399 c240_i32
  let v401 : Index := Scalar.indexCast v400
  ![v401.toNat]

def k1_chk32 (v405 : IVec S16 32) : Prop :=
  (∀ a x, ((![v405] : Fin 1 → IVec S16 32) a x).toNat < S64.size a)
instance k1_chk32.dec : ∀ (v405 : IVec S16 32), Decidable (k1_chk32 v405) := fun v405 => decidable_of_iff' _ (Iff.of_eq (k1_chk32.eq_1 v405))
theorem k1_idx32_inb : ∀ (v405 : IVec S16 32) (k1_hw32 : k1_chk32 v405), ∀ a x, ((![v405] : Fin 1 → IVec S16 32) a x).toNat < S64.size a := fun v405 k1_hw32 => k1_hw32

def k1_chk33 (v409 : IVec S16 32) (v411 : IVec S16 32) : Prop :=
  (∀ a x, ((![v409, v411] : Fin 2 → IVec S16 32) a x).toNat < S64x200.size a)
instance k1_chk33.dec : ∀ (v409 : IVec S16 32) (v411 : IVec S16 32), Decidable (k1_chk33 v409 v411) := fun v409 v411 => decidable_of_iff' _ (Iff.of_eq (k1_chk33.eq_1 v409 v411))
theorem k1_idx33_inb : ∀ (v409 : IVec S16 32) (v411 : IVec S16 32) (k1_hw33 : k1_chk33 v409 v411), ∀ a x, ((![v409, v411] : Fin 2 → IVec S16 32) a x).toNat < S64x200.size a := fun v409 v411 k1_hw33 => k1_hw33
def k1_off19 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_168 : BitVec 32 := 400#32
  let v413 : BitVec 32 := Scalar.muli arg14 c400_i32_168
  let c256_i32_169 : BitVec 32 := 256#32
  let v414 : BitVec 32 := Scalar.addi v413 c256_i32_169
  let v415 : Index := Scalar.indexCast v414
  ![v415.toNat]

def k1_chk34 (v419 : IVec S16 32) : Prop :=
  (∀ a x, ((![v419] : Fin 1 → IVec S16 32) a x).toNat < S64.size a)
instance k1_chk34.dec : ∀ (v419 : IVec S16 32), Decidable (k1_chk34 v419) := fun v419 => decidable_of_iff' _ (Iff.of_eq (k1_chk34.eq_1 v419))
theorem k1_idx34_inb : ∀ (v419 : IVec S16 32) (k1_hw34 : k1_chk34 v419), ∀ a x, ((![v419] : Fin 1 → IVec S16 32) a x).toNat < S64.size a := fun v419 k1_hw34 => k1_hw34

def k1_chk35 (v423 : IVec S16 32) (v425 : IVec S16 32) : Prop :=
  (∀ a x, ((![v423, v425] : Fin 2 → IVec S16 32) a x).toNat < S64x200.size a)
instance k1_chk35.dec : ∀ (v423 : IVec S16 32) (v425 : IVec S16 32), Decidable (k1_chk35 v423 v425) := fun v423 v425 => decidable_of_iff' _ (Iff.of_eq (k1_chk35.eq_1 v423 v425))
theorem k1_idx35_inb : ∀ (v423 : IVec S16 32) (v425 : IVec S16 32) (k1_hw35 : k1_chk35 v423 v425), ∀ a x, ((![v423, v425] : Fin 2 → IVec S16 32) a x).toNat < S64x200.size a := fun v423 v425 k1_hw35 => k1_hw35
def k1_off20 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_172 : BitVec 32 := 400#32
  let v427 : BitVec 32 := Scalar.muli arg14 c400_i32_172
  let c272_i32 : BitVec 32 := 272#32
  let v428 : BitVec 32 := Scalar.addi v427 c272_i32
  let v429 : Index := Scalar.indexCast v428
  ![v429.toNat]

def k1_chk36 (v433 : IVec S16 32) : Prop :=
  (∀ a x, ((![v433] : Fin 1 → IVec S16 32) a x).toNat < S64.size a)
instance k1_chk36.dec : ∀ (v433 : IVec S16 32), Decidable (k1_chk36 v433) := fun v433 => decidable_of_iff' _ (Iff.of_eq (k1_chk36.eq_1 v433))
theorem k1_idx36_inb : ∀ (v433 : IVec S16 32) (k1_hw36 : k1_chk36 v433), ∀ a x, ((![v433] : Fin 1 → IVec S16 32) a x).toNat < S64.size a := fun v433 k1_hw36 => k1_hw36

def k1_chk37 (v437 : IVec S16 32) (v439 : IVec S16 32) : Prop :=
  (∀ a x, ((![v437, v439] : Fin 2 → IVec S16 32) a x).toNat < S64x200.size a)
instance k1_chk37.dec : ∀ (v437 : IVec S16 32) (v439 : IVec S16 32), Decidable (k1_chk37 v437 v439) := fun v437 v439 => decidable_of_iff' _ (Iff.of_eq (k1_chk37.eq_1 v437 v439))
theorem k1_idx37_inb : ∀ (v437 : IVec S16 32) (v439 : IVec S16 32) (k1_hw37 : k1_chk37 v437 v439), ∀ a x, ((![v437, v439] : Fin 2 → IVec S16 32) a x).toNat < S64x200.size a := fun v437 v439 k1_hw37 => k1_hw37
def k1_off21 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_175 : BitVec 32 := 400#32
  let v441 : BitVec 32 := Scalar.muli arg14 c400_i32_175
  let c288_i32 : BitVec 32 := 288#32
  let v442 : BitVec 32 := Scalar.addi v441 c288_i32
  let v443 : Index := Scalar.indexCast v442
  ![v443.toNat]

def k1_chk38 (v447 : IVec S16 32) : Prop :=
  (∀ a x, ((![v447] : Fin 1 → IVec S16 32) a x).toNat < S64.size a)
instance k1_chk38.dec : ∀ (v447 : IVec S16 32), Decidable (k1_chk38 v447) := fun v447 => decidable_of_iff' _ (Iff.of_eq (k1_chk38.eq_1 v447))
theorem k1_idx38_inb : ∀ (v447 : IVec S16 32) (k1_hw38 : k1_chk38 v447), ∀ a x, ((![v447] : Fin 1 → IVec S16 32) a x).toNat < S64.size a := fun v447 k1_hw38 => k1_hw38

def k1_chk39 (v451 : IVec S16 32) (v453 : IVec S16 32) : Prop :=
  (∀ a x, ((![v451, v453] : Fin 2 → IVec S16 32) a x).toNat < S64x200.size a)
instance k1_chk39.dec : ∀ (v451 : IVec S16 32) (v453 : IVec S16 32), Decidable (k1_chk39 v451 v453) := fun v451 v453 => decidable_of_iff' _ (Iff.of_eq (k1_chk39.eq_1 v451 v453))
theorem k1_idx39_inb : ∀ (v451 : IVec S16 32) (v453 : IVec S16 32) (k1_hw39 : k1_chk39 v451 v453), ∀ a x, ((![v451, v453] : Fin 2 → IVec S16 32) a x).toNat < S64x200.size a := fun v451 v453 k1_hw39 => k1_hw39
def k1_off22 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_178 : BitVec 32 := 400#32
  let v455 : BitVec 32 := Scalar.muli arg14 c400_i32_178
  let c304_i32 : BitVec 32 := 304#32
  let v456 : BitVec 32 := Scalar.addi v455 c304_i32
  let v457 : Index := Scalar.indexCast v456
  ![v457.toNat]

def k1_chk40 (v461 : IVec S16 32) : Prop :=
  (∀ a x, ((![v461] : Fin 1 → IVec S16 32) a x).toNat < S64.size a)
instance k1_chk40.dec : ∀ (v461 : IVec S16 32), Decidable (k1_chk40 v461) := fun v461 => decidable_of_iff' _ (Iff.of_eq (k1_chk40.eq_1 v461))
theorem k1_idx40_inb : ∀ (v461 : IVec S16 32) (k1_hw40 : k1_chk40 v461), ∀ a x, ((![v461] : Fin 1 → IVec S16 32) a x).toNat < S64.size a := fun v461 k1_hw40 => k1_hw40

def k1_chk41 (v465 : IVec S16 32) (v467 : IVec S16 32) : Prop :=
  (∀ a x, ((![v465, v467] : Fin 2 → IVec S16 32) a x).toNat < S64x200.size a)
instance k1_chk41.dec : ∀ (v465 : IVec S16 32) (v467 : IVec S16 32), Decidable (k1_chk41 v465 v467) := fun v465 v467 => decidable_of_iff' _ (Iff.of_eq (k1_chk41.eq_1 v465 v467))
theorem k1_idx41_inb : ∀ (v465 : IVec S16 32) (v467 : IVec S16 32) (k1_hw41 : k1_chk41 v465 v467), ∀ a x, ((![v465, v467] : Fin 2 → IVec S16 32) a x).toNat < S64x200.size a := fun v465 v467 k1_hw41 => k1_hw41
def k1_off23 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_181 : BitVec 32 := 400#32
  let v469 : BitVec 32 := Scalar.muli arg14 c400_i32_181
  let c320_i32_182 : BitVec 32 := 320#32
  let v470 : BitVec 32 := Scalar.addi v469 c320_i32_182
  let v471 : Index := Scalar.indexCast v470
  ![v471.toNat]

def k1_chk42 (v475 : IVec S16 32) : Prop :=
  (∀ a x, ((![v475] : Fin 1 → IVec S16 32) a x).toNat < S64.size a)
instance k1_chk42.dec : ∀ (v475 : IVec S16 32), Decidable (k1_chk42 v475) := fun v475 => decidable_of_iff' _ (Iff.of_eq (k1_chk42.eq_1 v475))
theorem k1_idx42_inb : ∀ (v475 : IVec S16 32) (k1_hw42 : k1_chk42 v475), ∀ a x, ((![v475] : Fin 1 → IVec S16 32) a x).toNat < S64.size a := fun v475 k1_hw42 => k1_hw42

def k1_chk43 (v479 : IVec S16 32) (v481 : IVec S16 32) : Prop :=
  (∀ a x, ((![v479, v481] : Fin 2 → IVec S16 32) a x).toNat < S64x200.size a)
instance k1_chk43.dec : ∀ (v479 : IVec S16 32) (v481 : IVec S16 32), Decidable (k1_chk43 v479 v481) := fun v479 v481 => decidable_of_iff' _ (Iff.of_eq (k1_chk43.eq_1 v479 v481))
theorem k1_idx43_inb : ∀ (v479 : IVec S16 32) (v481 : IVec S16 32) (k1_hw43 : k1_chk43 v479 v481), ∀ a x, ((![v479, v481] : Fin 2 → IVec S16 32) a x).toNat < S64x200.size a := fun v479 v481 k1_hw43 => k1_hw43
def k1_off24 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_185 : BitVec 32 := 400#32
  let v483 : BitVec 32 := Scalar.muli arg14 c400_i32_185
  let c336_i32 : BitVec 32 := 336#32
  let v484 : BitVec 32 := Scalar.addi v483 c336_i32
  let v485 : Index := Scalar.indexCast v484
  ![v485.toNat]

def k1_chk44 (v489 : IVec S16 32) : Prop :=
  (∀ a x, ((![v489] : Fin 1 → IVec S16 32) a x).toNat < S64.size a)
instance k1_chk44.dec : ∀ (v489 : IVec S16 32), Decidable (k1_chk44 v489) := fun v489 => decidable_of_iff' _ (Iff.of_eq (k1_chk44.eq_1 v489))
theorem k1_idx44_inb : ∀ (v489 : IVec S16 32) (k1_hw44 : k1_chk44 v489), ∀ a x, ((![v489] : Fin 1 → IVec S16 32) a x).toNat < S64.size a := fun v489 k1_hw44 => k1_hw44

def k1_chk45 (v493 : IVec S16 32) (v495 : IVec S16 32) : Prop :=
  (∀ a x, ((![v493, v495] : Fin 2 → IVec S16 32) a x).toNat < S64x200.size a)
instance k1_chk45.dec : ∀ (v493 : IVec S16 32) (v495 : IVec S16 32), Decidable (k1_chk45 v493 v495) := fun v493 v495 => decidable_of_iff' _ (Iff.of_eq (k1_chk45.eq_1 v493 v495))
theorem k1_idx45_inb : ∀ (v493 : IVec S16 32) (v495 : IVec S16 32) (k1_hw45 : k1_chk45 v493 v495), ∀ a x, ((![v493, v495] : Fin 2 → IVec S16 32) a x).toNat < S64x200.size a := fun v493 v495 k1_hw45 => k1_hw45
def k1_off25 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_188 : BitVec 32 := 400#32
  let v497 : BitVec 32 := Scalar.muli arg14 c400_i32_188
  let c352_i32 : BitVec 32 := 352#32
  let v498 : BitVec 32 := Scalar.addi v497 c352_i32
  let v499 : Index := Scalar.indexCast v498
  ![v499.toNat]

def k1_chk46 (v503 : IVec S16 32) : Prop :=
  (∀ a x, ((![v503] : Fin 1 → IVec S16 32) a x).toNat < S64.size a)
instance k1_chk46.dec : ∀ (v503 : IVec S16 32), Decidable (k1_chk46 v503) := fun v503 => decidable_of_iff' _ (Iff.of_eq (k1_chk46.eq_1 v503))
theorem k1_idx46_inb : ∀ (v503 : IVec S16 32) (k1_hw46 : k1_chk46 v503), ∀ a x, ((![v503] : Fin 1 → IVec S16 32) a x).toNat < S64.size a := fun v503 k1_hw46 => k1_hw46

def k1_chk47 (v507 : IVec S16 32) (v509 : IVec S16 32) : Prop :=
  (∀ a x, ((![v507, v509] : Fin 2 → IVec S16 32) a x).toNat < S64x200.size a)
instance k1_chk47.dec : ∀ (v507 : IVec S16 32) (v509 : IVec S16 32), Decidable (k1_chk47 v507 v509) := fun v507 v509 => decidable_of_iff' _ (Iff.of_eq (k1_chk47.eq_1 v507 v509))
theorem k1_idx47_inb : ∀ (v507 : IVec S16 32) (v509 : IVec S16 32) (k1_hw47 : k1_chk47 v507 v509), ∀ a x, ((![v507, v509] : Fin 2 → IVec S16 32) a x).toNat < S64x200.size a := fun v507 v509 k1_hw47 => k1_hw47
def k1_off26 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_191 : BitVec 32 := 400#32
  let v511 : BitVec 32 := Scalar.muli arg14 c400_i32_191
  let c368_i32 : BitVec 32 := 368#32
  let v512 : BitVec 32 := Scalar.addi v511 c368_i32
  let v513 : Index := Scalar.indexCast v512
  ![v513.toNat]

def k1_chk48 (v517 : IVec S16 32) : Prop :=
  (∀ a x, ((![v517] : Fin 1 → IVec S16 32) a x).toNat < S64.size a)
instance k1_chk48.dec : ∀ (v517 : IVec S16 32), Decidable (k1_chk48 v517) := fun v517 => decidable_of_iff' _ (Iff.of_eq (k1_chk48.eq_1 v517))
theorem k1_idx48_inb : ∀ (v517 : IVec S16 32) (k1_hw48 : k1_chk48 v517), ∀ a x, ((![v517] : Fin 1 → IVec S16 32) a x).toNat < S64.size a := fun v517 k1_hw48 => k1_hw48

def k1_chk49 (v521 : IVec S16 32) (v523 : IVec S16 32) : Prop :=
  (∀ a x, ((![v521, v523] : Fin 2 → IVec S16 32) a x).toNat < S64x200.size a)
instance k1_chk49.dec : ∀ (v521 : IVec S16 32) (v523 : IVec S16 32), Decidable (k1_chk49 v521 v523) := fun v521 v523 => decidable_of_iff' _ (Iff.of_eq (k1_chk49.eq_1 v521 v523))
theorem k1_idx49_inb : ∀ (v521 : IVec S16 32) (v523 : IVec S16 32) (k1_hw49 : k1_chk49 v521 v523), ∀ a x, ((![v521, v523] : Fin 2 → IVec S16 32) a x).toNat < S64x200.size a := fun v521 v523 k1_hw49 => k1_hw49
def k1_off27 (k1_t1 : Fin k1_t1_loop.trips) : Fin 1 → Nat :=
  let c0_i32_17 : BitVec 32 := 0#32
  let c1_i32_18 : BitVec 32 := 1#32
  let arg14 : BitVec 32 := Scf.iv c0_i32_17 c1_i32_18 k1_t1
  let c400_i32_194 : BitVec 32 := 400#32
  let v525 : BitVec 32 := Scalar.muli arg14 c400_i32_194
  let c384_i32_195 : BitVec 32 := 384#32
  let v526 : BitVec 32 := Scalar.addi v525 c384_i32_195
  let v527 : Index := Scalar.indexCast v526
  ![v527.toNat]

def k1_chk50 (v531 : IVec S16 32) : Prop :=
  (∀ a x, ((![v531] : Fin 1 → IVec S16 32) a x).toNat < S64.size a)
instance k1_chk50.dec : ∀ (v531 : IVec S16 32), Decidable (k1_chk50 v531) := fun v531 => decidable_of_iff' _ (Iff.of_eq (k1_chk50.eq_1 v531))
theorem k1_idx50_inb : ∀ (v531 : IVec S16 32) (k1_hw50 : k1_chk50 v531), ∀ a x, ((![v531] : Fin 1 → IVec S16 32) a x).toNat < S64.size a := fun v531 k1_hw50 => k1_hw50
def k1_off28 (i : grid1.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v49 : BitVec 32 := Scalar.addi v2 c128_i32
  let c0_i32_21 : BitVec 32 := 0#32
  ![v49.toNat, 0]
def k1_off29 (i : grid1.Coords) (c25600_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v3 : BitVec 32 := Scalar.muli v1 c102400_i32
  let v54 : BitVec 32 := Scalar.addi v3 c25600_i32
  ![v54.toNat]
@[reducible] def k1_t2_loop : Scf.Loop 32 :=
  let c0_i32_28 : BitVec 32 := 0#32
  let c32_i32_29 : BitVec 32 := 32#32
  let v67 : BitVec 32 := Scalar.addi c0_i32_28 c32_i32_29
  let c1_i32_30 : BitVec 32 := 1#32
  ⟨c0_i32_28, v67, c1_i32_30⟩

def k1_chk51 (v186 : IVec S16 32) (v188 : IVec S16 32) : Prop :=
  (∀ a x, ((![v186, v188] : Fin 2 → IVec S16 32) a x).toNat < S64x200.size a)
instance k1_chk51.dec : ∀ (v186 : IVec S16 32) (v188 : IVec S16 32), Decidable (k1_chk51 v186 v188) := fun v186 v188 => decidable_of_iff' _ (Iff.of_eq (k1_chk51.eq_1 v186 v188))
theorem k1_idx51_inb : ∀ (v186 : IVec S16 32) (v188 : IVec S16 32) (k1_hw51 : k1_chk51 v186 v188), ∀ a x, ((![v186, v188] : Fin 2 → IVec S16 32) a x).toNat < S64x200.size a := fun v186 v188 k1_hw51 => k1_hw51
def k1_off30 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32 : BitVec 32 := 400#32
  let v190 : BitVec 32 := Scalar.muli arg14 c400_i32
  let c0_i32_104 : BitVec 32 := 0#32
  let v191 : BitVec 32 := Scalar.addi v190 c0_i32_104
  let v192 : Index := Scalar.indexCast v191
  ![v192.toNat]

def k1_chk52 (v196 : IVec S16 32) : Prop :=
  (∀ a x, ((![v196] : Fin 1 → IVec S16 32) a x).toNat < S64.size a)
instance k1_chk52.dec : ∀ (v196 : IVec S16 32), Decidable (k1_chk52 v196) := fun v196 => decidable_of_iff' _ (Iff.of_eq (k1_chk52.eq_1 v196))
theorem k1_idx52_inb : ∀ (v196 : IVec S16 32) (k1_hw52 : k1_chk52 v196), ∀ a x, ((![v196] : Fin 1 → IVec S16 32) a x).toNat < S64.size a := fun v196 k1_hw52 => k1_hw52

def k1_chk53 (v200 : IVec S16 32) (v202 : IVec S16 32) : Prop :=
  (∀ a x, ((![v200, v202] : Fin 2 → IVec S16 32) a x).toNat < S64x200.size a)
instance k1_chk53.dec : ∀ (v200 : IVec S16 32) (v202 : IVec S16 32), Decidable (k1_chk53 v200 v202) := fun v200 v202 => decidable_of_iff' _ (Iff.of_eq (k1_chk53.eq_1 v200 v202))
theorem k1_idx53_inb : ∀ (v200 : IVec S16 32) (v202 : IVec S16 32) (k1_hw53 : k1_chk53 v200 v202), ∀ a x, ((![v200, v202] : Fin 2 → IVec S16 32) a x).toNat < S64x200.size a := fun v200 v202 k1_hw53 => k1_hw53
def k1_off31 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_107 : BitVec 32 := 400#32
  let v204 : BitVec 32 := Scalar.muli arg14 c400_i32_107
  let c16_i32_108 : BitVec 32 := 16#32
  let v205 : BitVec 32 := Scalar.addi v204 c16_i32_108
  let v206 : Index := Scalar.indexCast v205
  ![v206.toNat]

def k1_chk54 (v210 : IVec S16 32) : Prop :=
  (∀ a x, ((![v210] : Fin 1 → IVec S16 32) a x).toNat < S64.size a)
instance k1_chk54.dec : ∀ (v210 : IVec S16 32), Decidable (k1_chk54 v210) := fun v210 => decidable_of_iff' _ (Iff.of_eq (k1_chk54.eq_1 v210))
theorem k1_idx54_inb : ∀ (v210 : IVec S16 32) (k1_hw54 : k1_chk54 v210), ∀ a x, ((![v210] : Fin 1 → IVec S16 32) a x).toNat < S64.size a := fun v210 k1_hw54 => k1_hw54

def k1_chk55 (v214 : IVec S16 32) (v216 : IVec S16 32) : Prop :=
  (∀ a x, ((![v214, v216] : Fin 2 → IVec S16 32) a x).toNat < S64x200.size a)
instance k1_chk55.dec : ∀ (v214 : IVec S16 32) (v216 : IVec S16 32), Decidable (k1_chk55 v214 v216) := fun v214 v216 => decidable_of_iff' _ (Iff.of_eq (k1_chk55.eq_1 v214 v216))
theorem k1_idx55_inb : ∀ (v214 : IVec S16 32) (v216 : IVec S16 32) (k1_hw55 : k1_chk55 v214 v216), ∀ a x, ((![v214, v216] : Fin 2 → IVec S16 32) a x).toNat < S64x200.size a := fun v214 v216 k1_hw55 => k1_hw55
def k1_off32 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_112 : BitVec 32 := 400#32
  let v218 : BitVec 32 := Scalar.muli arg14 c400_i32_112
  let c32_i32_113 : BitVec 32 := 32#32
  let v219 : BitVec 32 := Scalar.addi v218 c32_i32_113
  let v220 : Index := Scalar.indexCast v219
  ![v220.toNat]

def k1_chk56 (v224 : IVec S16 32) : Prop :=
  (∀ a x, ((![v224] : Fin 1 → IVec S16 32) a x).toNat < S64.size a)
instance k1_chk56.dec : ∀ (v224 : IVec S16 32), Decidable (k1_chk56 v224) := fun v224 => decidable_of_iff' _ (Iff.of_eq (k1_chk56.eq_1 v224))
theorem k1_idx56_inb : ∀ (v224 : IVec S16 32) (k1_hw56 : k1_chk56 v224), ∀ a x, ((![v224] : Fin 1 → IVec S16 32) a x).toNat < S64.size a := fun v224 k1_hw56 => k1_hw56

def k1_chk57 (v228 : IVec S16 32) (v230 : IVec S16 32) : Prop :=
  (∀ a x, ((![v228, v230] : Fin 2 → IVec S16 32) a x).toNat < S64x200.size a)
instance k1_chk57.dec : ∀ (v228 : IVec S16 32) (v230 : IVec S16 32), Decidable (k1_chk57 v228 v230) := fun v228 v230 => decidable_of_iff' _ (Iff.of_eq (k1_chk57.eq_1 v228 v230))
theorem k1_idx57_inb : ∀ (v228 : IVec S16 32) (v230 : IVec S16 32) (k1_hw57 : k1_chk57 v228 v230), ∀ a x, ((![v228, v230] : Fin 2 → IVec S16 32) a x).toNat < S64x200.size a := fun v228 v230 k1_hw57 => k1_hw57
def k1_off33 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_116 : BitVec 32 := 400#32
  let v232 : BitVec 32 := Scalar.muli arg14 c400_i32_116
  let c48_i32_117 : BitVec 32 := 48#32
  let v233 : BitVec 32 := Scalar.addi v232 c48_i32_117
  let v234 : Index := Scalar.indexCast v233
  ![v234.toNat]

def k1_chk58 (v238 : IVec S16 32) : Prop :=
  (∀ a x, ((![v238] : Fin 1 → IVec S16 32) a x).toNat < S64.size a)
instance k1_chk58.dec : ∀ (v238 : IVec S16 32), Decidable (k1_chk58 v238) := fun v238 => decidable_of_iff' _ (Iff.of_eq (k1_chk58.eq_1 v238))
theorem k1_idx58_inb : ∀ (v238 : IVec S16 32) (k1_hw58 : k1_chk58 v238), ∀ a x, ((![v238] : Fin 1 → IVec S16 32) a x).toNat < S64.size a := fun v238 k1_hw58 => k1_hw58

def k1_chk59 (v242 : IVec S16 32) (v244 : IVec S16 32) : Prop :=
  (∀ a x, ((![v242, v244] : Fin 2 → IVec S16 32) a x).toNat < S64x200.size a)
instance k1_chk59.dec : ∀ (v242 : IVec S16 32) (v244 : IVec S16 32), Decidable (k1_chk59 v242 v244) := fun v242 v244 => decidable_of_iff' _ (Iff.of_eq (k1_chk59.eq_1 v242 v244))
theorem k1_idx59_inb : ∀ (v242 : IVec S16 32) (v244 : IVec S16 32) (k1_hw59 : k1_chk59 v242 v244), ∀ a x, ((![v242, v244] : Fin 2 → IVec S16 32) a x).toNat < S64x200.size a := fun v242 v244 k1_hw59 => k1_hw59
def k1_off34 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_121 : BitVec 32 := 400#32
  let v246 : BitVec 32 := Scalar.muli arg14 c400_i32_121
  let c64_i32_122 : BitVec 32 := 64#32
  let v247 : BitVec 32 := Scalar.addi v246 c64_i32_122
  let v248 : Index := Scalar.indexCast v247
  ![v248.toNat]

def k1_chk60 (v252 : IVec S16 32) : Prop :=
  (∀ a x, ((![v252] : Fin 1 → IVec S16 32) a x).toNat < S64.size a)
instance k1_chk60.dec : ∀ (v252 : IVec S16 32), Decidable (k1_chk60 v252) := fun v252 => decidable_of_iff' _ (Iff.of_eq (k1_chk60.eq_1 v252))
theorem k1_idx60_inb : ∀ (v252 : IVec S16 32) (k1_hw60 : k1_chk60 v252), ∀ a x, ((![v252] : Fin 1 → IVec S16 32) a x).toNat < S64.size a := fun v252 k1_hw60 => k1_hw60

def k1_chk61 (v256 : IVec S16 32) (v258 : IVec S16 32) : Prop :=
  (∀ a x, ((![v256, v258] : Fin 2 → IVec S16 32) a x).toNat < S64x200.size a)
instance k1_chk61.dec : ∀ (v256 : IVec S16 32) (v258 : IVec S16 32), Decidable (k1_chk61 v256 v258) := fun v256 v258 => decidable_of_iff' _ (Iff.of_eq (k1_chk61.eq_1 v256 v258))
theorem k1_idx61_inb : ∀ (v256 : IVec S16 32) (v258 : IVec S16 32) (k1_hw61 : k1_chk61 v256 v258), ∀ a x, ((![v256, v258] : Fin 2 → IVec S16 32) a x).toNat < S64x200.size a := fun v256 v258 k1_hw61 => k1_hw61
def k1_off35 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_125 : BitVec 32 := 400#32
  let v260 : BitVec 32 := Scalar.muli arg14 c400_i32_125
  let c80_i32_126 : BitVec 32 := 80#32
  let v261 : BitVec 32 := Scalar.addi v260 c80_i32_126
  let v262 : Index := Scalar.indexCast v261
  ![v262.toNat]

def k1_chk62 (v266 : IVec S16 32) : Prop :=
  (∀ a x, ((![v266] : Fin 1 → IVec S16 32) a x).toNat < S64.size a)
instance k1_chk62.dec : ∀ (v266 : IVec S16 32), Decidable (k1_chk62 v266) := fun v266 => decidable_of_iff' _ (Iff.of_eq (k1_chk62.eq_1 v266))
theorem k1_idx62_inb : ∀ (v266 : IVec S16 32) (k1_hw62 : k1_chk62 v266), ∀ a x, ((![v266] : Fin 1 → IVec S16 32) a x).toNat < S64.size a := fun v266 k1_hw62 => k1_hw62

def k1_chk63 (v270 : IVec S16 32) (v272 : IVec S16 32) : Prop :=
  (∀ a x, ((![v270, v272] : Fin 2 → IVec S16 32) a x).toNat < S64x200.size a)
instance k1_chk63.dec : ∀ (v270 : IVec S16 32) (v272 : IVec S16 32), Decidable (k1_chk63 v270 v272) := fun v270 v272 => decidable_of_iff' _ (Iff.of_eq (k1_chk63.eq_1 v270 v272))
theorem k1_idx63_inb : ∀ (v270 : IVec S16 32) (v272 : IVec S16 32) (k1_hw63 : k1_chk63 v270 v272), ∀ a x, ((![v270, v272] : Fin 2 → IVec S16 32) a x).toNat < S64x200.size a := fun v270 v272 k1_hw63 => k1_hw63
def k1_off36 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_129 : BitVec 32 := 400#32
  let v274 : BitVec 32 := Scalar.muli arg14 c400_i32_129
  let c96_i32_130 : BitVec 32 := 96#32
  let v275 : BitVec 32 := Scalar.addi v274 c96_i32_130
  let v276 : Index := Scalar.indexCast v275
  ![v276.toNat]

def k1_chk64 (v280 : IVec S16 32) : Prop :=
  (∀ a x, ((![v280] : Fin 1 → IVec S16 32) a x).toNat < S64.size a)
instance k1_chk64.dec : ∀ (v280 : IVec S16 32), Decidable (k1_chk64 v280) := fun v280 => decidable_of_iff' _ (Iff.of_eq (k1_chk64.eq_1 v280))
theorem k1_idx64_inb : ∀ (v280 : IVec S16 32) (k1_hw64 : k1_chk64 v280), ∀ a x, ((![v280] : Fin 1 → IVec S16 32) a x).toNat < S64.size a := fun v280 k1_hw64 => k1_hw64

def k1_chk65 (v284 : IVec S16 32) (v286 : IVec S16 32) : Prop :=
  (∀ a x, ((![v284, v286] : Fin 2 → IVec S16 32) a x).toNat < S64x200.size a)
instance k1_chk65.dec : ∀ (v284 : IVec S16 32) (v286 : IVec S16 32), Decidable (k1_chk65 v284 v286) := fun v284 v286 => decidable_of_iff' _ (Iff.of_eq (k1_chk65.eq_1 v284 v286))
theorem k1_idx65_inb : ∀ (v284 : IVec S16 32) (v286 : IVec S16 32) (k1_hw65 : k1_chk65 v284 v286), ∀ a x, ((![v284, v286] : Fin 2 → IVec S16 32) a x).toNat < S64x200.size a := fun v284 v286 k1_hw65 => k1_hw65
def k1_off37 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_133 : BitVec 32 := 400#32
  let v288 : BitVec 32 := Scalar.muli arg14 c400_i32_133
  let c112_i32_134 : BitVec 32 := 112#32
  let v289 : BitVec 32 := Scalar.addi v288 c112_i32_134
  let v290 : Index := Scalar.indexCast v289
  ![v290.toNat]

def k1_chk66 (v294 : IVec S16 32) : Prop :=
  (∀ a x, ((![v294] : Fin 1 → IVec S16 32) a x).toNat < S64.size a)
instance k1_chk66.dec : ∀ (v294 : IVec S16 32), Decidable (k1_chk66 v294) := fun v294 => decidable_of_iff' _ (Iff.of_eq (k1_chk66.eq_1 v294))
theorem k1_idx66_inb : ∀ (v294 : IVec S16 32) (k1_hw66 : k1_chk66 v294), ∀ a x, ((![v294] : Fin 1 → IVec S16 32) a x).toNat < S64.size a := fun v294 k1_hw66 => k1_hw66

def k1_chk67 (v298 : IVec S16 32) (v300 : IVec S16 32) : Prop :=
  (∀ a x, ((![v298, v300] : Fin 2 → IVec S16 32) a x).toNat < S64x200.size a)
instance k1_chk67.dec : ∀ (v298 : IVec S16 32) (v300 : IVec S16 32), Decidable (k1_chk67 v298 v300) := fun v298 v300 => decidable_of_iff' _ (Iff.of_eq (k1_chk67.eq_1 v298 v300))
theorem k1_idx67_inb : ∀ (v298 : IVec S16 32) (v300 : IVec S16 32) (k1_hw67 : k1_chk67 v298 v300), ∀ a x, ((![v298, v300] : Fin 2 → IVec S16 32) a x).toNat < S64x200.size a := fun v298 v300 k1_hw67 => k1_hw67
def k1_off38 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_138 : BitVec 32 := 400#32
  let v302 : BitVec 32 := Scalar.muli arg14 c400_i32_138
  let c128_i32_139 : BitVec 32 := 128#32
  let v303 : BitVec 32 := Scalar.addi v302 c128_i32_139
  let v304 : Index := Scalar.indexCast v303
  ![v304.toNat]

def k1_chk68 (v308 : IVec S16 32) : Prop :=
  (∀ a x, ((![v308] : Fin 1 → IVec S16 32) a x).toNat < S64.size a)
instance k1_chk68.dec : ∀ (v308 : IVec S16 32), Decidable (k1_chk68 v308) := fun v308 => decidable_of_iff' _ (Iff.of_eq (k1_chk68.eq_1 v308))
theorem k1_idx68_inb : ∀ (v308 : IVec S16 32) (k1_hw68 : k1_chk68 v308), ∀ a x, ((![v308] : Fin 1 → IVec S16 32) a x).toNat < S64.size a := fun v308 k1_hw68 => k1_hw68

def k1_chk69 (v312 : IVec S16 32) (v314 : IVec S16 32) : Prop :=
  (∀ a x, ((![v312, v314] : Fin 2 → IVec S16 32) a x).toNat < S64x200.size a)
instance k1_chk69.dec : ∀ (v312 : IVec S16 32) (v314 : IVec S16 32), Decidable (k1_chk69 v312 v314) := fun v312 v314 => decidable_of_iff' _ (Iff.of_eq (k1_chk69.eq_1 v312 v314))
theorem k1_idx69_inb : ∀ (v312 : IVec S16 32) (v314 : IVec S16 32) (k1_hw69 : k1_chk69 v312 v314), ∀ a x, ((![v312, v314] : Fin 2 → IVec S16 32) a x).toNat < S64x200.size a := fun v312 v314 k1_hw69 => k1_hw69
def k1_off39 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_142 : BitVec 32 := 400#32
  let v316 : BitVec 32 := Scalar.muli arg14 c400_i32_142
  let c144_i32_143 : BitVec 32 := 144#32
  let v317 : BitVec 32 := Scalar.addi v316 c144_i32_143
  let v318 : Index := Scalar.indexCast v317
  ![v318.toNat]

def k1_chk70 (v322 : IVec S16 32) : Prop :=
  (∀ a x, ((![v322] : Fin 1 → IVec S16 32) a x).toNat < S64.size a)
instance k1_chk70.dec : ∀ (v322 : IVec S16 32), Decidable (k1_chk70 v322) := fun v322 => decidable_of_iff' _ (Iff.of_eq (k1_chk70.eq_1 v322))
theorem k1_idx70_inb : ∀ (v322 : IVec S16 32) (k1_hw70 : k1_chk70 v322), ∀ a x, ((![v322] : Fin 1 → IVec S16 32) a x).toNat < S64.size a := fun v322 k1_hw70 => k1_hw70

def k1_chk71 (v326 : IVec S16 32) (v328 : IVec S16 32) : Prop :=
  (∀ a x, ((![v326, v328] : Fin 2 → IVec S16 32) a x).toNat < S64x200.size a)
instance k1_chk71.dec : ∀ (v326 : IVec S16 32) (v328 : IVec S16 32), Decidable (k1_chk71 v326 v328) := fun v326 v328 => decidable_of_iff' _ (Iff.of_eq (k1_chk71.eq_1 v326 v328))
theorem k1_idx71_inb : ∀ (v326 : IVec S16 32) (v328 : IVec S16 32) (k1_hw71 : k1_chk71 v326 v328), ∀ a x, ((![v326, v328] : Fin 2 → IVec S16 32) a x).toNat < S64x200.size a := fun v326 v328 k1_hw71 => k1_hw71
def k1_off40 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_146 : BitVec 32 := 400#32
  let v330 : BitVec 32 := Scalar.muli arg14 c400_i32_146
  let c160_i32_147 : BitVec 32 := 160#32
  let v331 : BitVec 32 := Scalar.addi v330 c160_i32_147
  let v332 : Index := Scalar.indexCast v331
  ![v332.toNat]

def k1_chk72 (v336 : IVec S16 32) : Prop :=
  (∀ a x, ((![v336] : Fin 1 → IVec S16 32) a x).toNat < S64.size a)
instance k1_chk72.dec : ∀ (v336 : IVec S16 32), Decidable (k1_chk72 v336) := fun v336 => decidable_of_iff' _ (Iff.of_eq (k1_chk72.eq_1 v336))
theorem k1_idx72_inb : ∀ (v336 : IVec S16 32) (k1_hw72 : k1_chk72 v336), ∀ a x, ((![v336] : Fin 1 → IVec S16 32) a x).toNat < S64.size a := fun v336 k1_hw72 => k1_hw72

def k1_chk73 (v340 : IVec S16 32) (v342 : IVec S16 32) : Prop :=
  (∀ a x, ((![v340, v342] : Fin 2 → IVec S16 32) a x).toNat < S64x200.size a)
instance k1_chk73.dec : ∀ (v340 : IVec S16 32) (v342 : IVec S16 32), Decidable (k1_chk73 v340 v342) := fun v340 v342 => decidable_of_iff' _ (Iff.of_eq (k1_chk73.eq_1 v340 v342))
theorem k1_idx73_inb : ∀ (v340 : IVec S16 32) (v342 : IVec S16 32) (k1_hw73 : k1_chk73 v340 v342), ∀ a x, ((![v340, v342] : Fin 2 → IVec S16 32) a x).toNat < S64x200.size a := fun v340 v342 k1_hw73 => k1_hw73
def k1_off41 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_150 : BitVec 32 := 400#32
  let v344 : BitVec 32 := Scalar.muli arg14 c400_i32_150
  let c176_i32_151 : BitVec 32 := 176#32
  let v345 : BitVec 32 := Scalar.addi v344 c176_i32_151
  let v346 : Index := Scalar.indexCast v345
  ![v346.toNat]

def k1_chk74 (v350 : IVec S16 32) : Prop :=
  (∀ a x, ((![v350] : Fin 1 → IVec S16 32) a x).toNat < S64.size a)
instance k1_chk74.dec : ∀ (v350 : IVec S16 32), Decidable (k1_chk74 v350) := fun v350 => decidable_of_iff' _ (Iff.of_eq (k1_chk74.eq_1 v350))
theorem k1_idx74_inb : ∀ (v350 : IVec S16 32) (k1_hw74 : k1_chk74 v350), ∀ a x, ((![v350] : Fin 1 → IVec S16 32) a x).toNat < S64.size a := fun v350 k1_hw74 => k1_hw74

def k1_chk75 (v14 : IVec S16 32) (v355 : IVec S16 32) : Prop :=
  (∀ a x, ((![v355, v14] : Fin 2 → IVec S16 32) a x).toNat < S64x200.size a)
instance k1_chk75.dec : ∀ (v14 : IVec S16 32) (v355 : IVec S16 32), Decidable (k1_chk75 v14 v355) := fun v14 v355 => decidable_of_iff' _ (Iff.of_eq (k1_chk75.eq_1 v14 v355))
theorem k1_idx75_inb : ∀ (v14 : IVec S16 32) (v355 : IVec S16 32) (k1_hw75 : k1_chk75 v14 v355), ∀ a x, ((![v355, v14] : Fin 2 → IVec S16 32) a x).toNat < S64x200.size a := fun v14 v355 k1_hw75 => k1_hw75
def k1_off42 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_154 : BitVec 32 := 400#32
  let v357 : BitVec 32 := Scalar.muli arg14 c400_i32_154
  let c192_i32_155 : BitVec 32 := 192#32
  let v358 : BitVec 32 := Scalar.addi v357 c192_i32_155
  let v359 : Index := Scalar.indexCast v358
  ![v359.toNat]

def k1_chk76 (v363 : IVec S16 32) : Prop :=
  (∀ a x, ((![v363] : Fin 1 → IVec S16 32) a x).toNat < S64.size a)
instance k1_chk76.dec : ∀ (v363 : IVec S16 32), Decidable (k1_chk76 v363) := fun v363 => decidable_of_iff' _ (Iff.of_eq (k1_chk76.eq_1 v363))
theorem k1_idx76_inb : ∀ (v363 : IVec S16 32) (k1_hw76 : k1_chk76 v363), ∀ a x, ((![v363] : Fin 1 → IVec S16 32) a x).toNat < S64.size a := fun v363 k1_hw76 => k1_hw76

def k1_chk77 (v367 : IVec S16 32) (v369 : IVec S16 32) : Prop :=
  (∀ a x, ((![v367, v369] : Fin 2 → IVec S16 32) a x).toNat < S64x200.size a)
instance k1_chk77.dec : ∀ (v367 : IVec S16 32) (v369 : IVec S16 32), Decidable (k1_chk77 v367 v369) := fun v367 v369 => decidable_of_iff' _ (Iff.of_eq (k1_chk77.eq_1 v367 v369))
theorem k1_idx77_inb : ∀ (v367 : IVec S16 32) (v369 : IVec S16 32) (k1_hw77 : k1_chk77 v367 v369), ∀ a x, ((![v367, v369] : Fin 2 → IVec S16 32) a x).toNat < S64x200.size a := fun v367 v369 k1_hw77 => k1_hw77
def k1_off43 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_159 : BitVec 32 := 400#32
  let v371 : BitVec 32 := Scalar.muli arg14 c400_i32_159
  let c208_i32 : BitVec 32 := 208#32
  let v372 : BitVec 32 := Scalar.addi v371 c208_i32
  let v373 : Index := Scalar.indexCast v372
  ![v373.toNat]

def k1_chk78 (v377 : IVec S16 32) : Prop :=
  (∀ a x, ((![v377] : Fin 1 → IVec S16 32) a x).toNat < S64.size a)
instance k1_chk78.dec : ∀ (v377 : IVec S16 32), Decidable (k1_chk78 v377) := fun v377 => decidable_of_iff' _ (Iff.of_eq (k1_chk78.eq_1 v377))
theorem k1_idx78_inb : ∀ (v377 : IVec S16 32) (k1_hw78 : k1_chk78 v377), ∀ a x, ((![v377] : Fin 1 → IVec S16 32) a x).toNat < S64.size a := fun v377 k1_hw78 => k1_hw78

def k1_chk79 (v381 : IVec S16 32) (v383 : IVec S16 32) : Prop :=
  (∀ a x, ((![v381, v383] : Fin 2 → IVec S16 32) a x).toNat < S64x200.size a)
instance k1_chk79.dec : ∀ (v381 : IVec S16 32) (v383 : IVec S16 32), Decidable (k1_chk79 v381 v383) := fun v381 v383 => decidable_of_iff' _ (Iff.of_eq (k1_chk79.eq_1 v381 v383))
theorem k1_idx79_inb : ∀ (v381 : IVec S16 32) (v383 : IVec S16 32) (k1_hw79 : k1_chk79 v381 v383), ∀ a x, ((![v381, v383] : Fin 2 → IVec S16 32) a x).toNat < S64x200.size a := fun v381 v383 k1_hw79 => k1_hw79
def k1_off44 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_162 : BitVec 32 := 400#32
  let v385 : BitVec 32 := Scalar.muli arg14 c400_i32_162
  let c224_i32 : BitVec 32 := 224#32
  let v386 : BitVec 32 := Scalar.addi v385 c224_i32
  let v387 : Index := Scalar.indexCast v386
  ![v387.toNat]

def k1_chk80 (v391 : IVec S16 32) : Prop :=
  (∀ a x, ((![v391] : Fin 1 → IVec S16 32) a x).toNat < S64.size a)
instance k1_chk80.dec : ∀ (v391 : IVec S16 32), Decidable (k1_chk80 v391) := fun v391 => decidable_of_iff' _ (Iff.of_eq (k1_chk80.eq_1 v391))
theorem k1_idx80_inb : ∀ (v391 : IVec S16 32) (k1_hw80 : k1_chk80 v391), ∀ a x, ((![v391] : Fin 1 → IVec S16 32) a x).toNat < S64.size a := fun v391 k1_hw80 => k1_hw80

def k1_chk81 (v395 : IVec S16 32) (v397 : IVec S16 32) : Prop :=
  (∀ a x, ((![v395, v397] : Fin 2 → IVec S16 32) a x).toNat < S64x200.size a)
instance k1_chk81.dec : ∀ (v395 : IVec S16 32) (v397 : IVec S16 32), Decidable (k1_chk81 v395 v397) := fun v395 v397 => decidable_of_iff' _ (Iff.of_eq (k1_chk81.eq_1 v395 v397))
theorem k1_idx81_inb : ∀ (v395 : IVec S16 32) (v397 : IVec S16 32) (k1_hw81 : k1_chk81 v395 v397), ∀ a x, ((![v395, v397] : Fin 2 → IVec S16 32) a x).toNat < S64x200.size a := fun v395 v397 k1_hw81 => k1_hw81
def k1_off45 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_165 : BitVec 32 := 400#32
  let v399 : BitVec 32 := Scalar.muli arg14 c400_i32_165
  let c240_i32 : BitVec 32 := 240#32
  let v400 : BitVec 32 := Scalar.addi v399 c240_i32
  let v401 : Index := Scalar.indexCast v400
  ![v401.toNat]

def k1_chk82 (v405 : IVec S16 32) : Prop :=
  (∀ a x, ((![v405] : Fin 1 → IVec S16 32) a x).toNat < S64.size a)
instance k1_chk82.dec : ∀ (v405 : IVec S16 32), Decidable (k1_chk82 v405) := fun v405 => decidable_of_iff' _ (Iff.of_eq (k1_chk82.eq_1 v405))
theorem k1_idx82_inb : ∀ (v405 : IVec S16 32) (k1_hw82 : k1_chk82 v405), ∀ a x, ((![v405] : Fin 1 → IVec S16 32) a x).toNat < S64.size a := fun v405 k1_hw82 => k1_hw82

def k1_chk83 (v409 : IVec S16 32) (v411 : IVec S16 32) : Prop :=
  (∀ a x, ((![v409, v411] : Fin 2 → IVec S16 32) a x).toNat < S64x200.size a)
instance k1_chk83.dec : ∀ (v409 : IVec S16 32) (v411 : IVec S16 32), Decidable (k1_chk83 v409 v411) := fun v409 v411 => decidable_of_iff' _ (Iff.of_eq (k1_chk83.eq_1 v409 v411))
theorem k1_idx83_inb : ∀ (v409 : IVec S16 32) (v411 : IVec S16 32) (k1_hw83 : k1_chk83 v409 v411), ∀ a x, ((![v409, v411] : Fin 2 → IVec S16 32) a x).toNat < S64x200.size a := fun v409 v411 k1_hw83 => k1_hw83
def k1_off46 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_168 : BitVec 32 := 400#32
  let v413 : BitVec 32 := Scalar.muli arg14 c400_i32_168
  let c256_i32_169 : BitVec 32 := 256#32
  let v414 : BitVec 32 := Scalar.addi v413 c256_i32_169
  let v415 : Index := Scalar.indexCast v414
  ![v415.toNat]

def k1_chk84 (v419 : IVec S16 32) : Prop :=
  (∀ a x, ((![v419] : Fin 1 → IVec S16 32) a x).toNat < S64.size a)
instance k1_chk84.dec : ∀ (v419 : IVec S16 32), Decidable (k1_chk84 v419) := fun v419 => decidable_of_iff' _ (Iff.of_eq (k1_chk84.eq_1 v419))
theorem k1_idx84_inb : ∀ (v419 : IVec S16 32) (k1_hw84 : k1_chk84 v419), ∀ a x, ((![v419] : Fin 1 → IVec S16 32) a x).toNat < S64.size a := fun v419 k1_hw84 => k1_hw84

def k1_chk85 (v423 : IVec S16 32) (v425 : IVec S16 32) : Prop :=
  (∀ a x, ((![v423, v425] : Fin 2 → IVec S16 32) a x).toNat < S64x200.size a)
instance k1_chk85.dec : ∀ (v423 : IVec S16 32) (v425 : IVec S16 32), Decidable (k1_chk85 v423 v425) := fun v423 v425 => decidable_of_iff' _ (Iff.of_eq (k1_chk85.eq_1 v423 v425))
theorem k1_idx85_inb : ∀ (v423 : IVec S16 32) (v425 : IVec S16 32) (k1_hw85 : k1_chk85 v423 v425), ∀ a x, ((![v423, v425] : Fin 2 → IVec S16 32) a x).toNat < S64x200.size a := fun v423 v425 k1_hw85 => k1_hw85
def k1_off47 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_172 : BitVec 32 := 400#32
  let v427 : BitVec 32 := Scalar.muli arg14 c400_i32_172
  let c272_i32 : BitVec 32 := 272#32
  let v428 : BitVec 32 := Scalar.addi v427 c272_i32
  let v429 : Index := Scalar.indexCast v428
  ![v429.toNat]

def k1_chk86 (v433 : IVec S16 32) : Prop :=
  (∀ a x, ((![v433] : Fin 1 → IVec S16 32) a x).toNat < S64.size a)
instance k1_chk86.dec : ∀ (v433 : IVec S16 32), Decidable (k1_chk86 v433) := fun v433 => decidable_of_iff' _ (Iff.of_eq (k1_chk86.eq_1 v433))
theorem k1_idx86_inb : ∀ (v433 : IVec S16 32) (k1_hw86 : k1_chk86 v433), ∀ a x, ((![v433] : Fin 1 → IVec S16 32) a x).toNat < S64.size a := fun v433 k1_hw86 => k1_hw86

def k1_chk87 (v437 : IVec S16 32) (v439 : IVec S16 32) : Prop :=
  (∀ a x, ((![v437, v439] : Fin 2 → IVec S16 32) a x).toNat < S64x200.size a)
instance k1_chk87.dec : ∀ (v437 : IVec S16 32) (v439 : IVec S16 32), Decidable (k1_chk87 v437 v439) := fun v437 v439 => decidable_of_iff' _ (Iff.of_eq (k1_chk87.eq_1 v437 v439))
theorem k1_idx87_inb : ∀ (v437 : IVec S16 32) (v439 : IVec S16 32) (k1_hw87 : k1_chk87 v437 v439), ∀ a x, ((![v437, v439] : Fin 2 → IVec S16 32) a x).toNat < S64x200.size a := fun v437 v439 k1_hw87 => k1_hw87
def k1_off48 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_175 : BitVec 32 := 400#32
  let v441 : BitVec 32 := Scalar.muli arg14 c400_i32_175
  let c288_i32 : BitVec 32 := 288#32
  let v442 : BitVec 32 := Scalar.addi v441 c288_i32
  let v443 : Index := Scalar.indexCast v442
  ![v443.toNat]

def k1_chk88 (v447 : IVec S16 32) : Prop :=
  (∀ a x, ((![v447] : Fin 1 → IVec S16 32) a x).toNat < S64.size a)
instance k1_chk88.dec : ∀ (v447 : IVec S16 32), Decidable (k1_chk88 v447) := fun v447 => decidable_of_iff' _ (Iff.of_eq (k1_chk88.eq_1 v447))
theorem k1_idx88_inb : ∀ (v447 : IVec S16 32) (k1_hw88 : k1_chk88 v447), ∀ a x, ((![v447] : Fin 1 → IVec S16 32) a x).toNat < S64.size a := fun v447 k1_hw88 => k1_hw88

def k1_chk89 (v451 : IVec S16 32) (v453 : IVec S16 32) : Prop :=
  (∀ a x, ((![v451, v453] : Fin 2 → IVec S16 32) a x).toNat < S64x200.size a)
instance k1_chk89.dec : ∀ (v451 : IVec S16 32) (v453 : IVec S16 32), Decidable (k1_chk89 v451 v453) := fun v451 v453 => decidable_of_iff' _ (Iff.of_eq (k1_chk89.eq_1 v451 v453))
theorem k1_idx89_inb : ∀ (v451 : IVec S16 32) (v453 : IVec S16 32) (k1_hw89 : k1_chk89 v451 v453), ∀ a x, ((![v451, v453] : Fin 2 → IVec S16 32) a x).toNat < S64x200.size a := fun v451 v453 k1_hw89 => k1_hw89
def k1_off49 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_178 : BitVec 32 := 400#32
  let v455 : BitVec 32 := Scalar.muli arg14 c400_i32_178
  let c304_i32 : BitVec 32 := 304#32
  let v456 : BitVec 32 := Scalar.addi v455 c304_i32
  let v457 : Index := Scalar.indexCast v456
  ![v457.toNat]

def k1_chk90 (v461 : IVec S16 32) : Prop :=
  (∀ a x, ((![v461] : Fin 1 → IVec S16 32) a x).toNat < S64.size a)
instance k1_chk90.dec : ∀ (v461 : IVec S16 32), Decidable (k1_chk90 v461) := fun v461 => decidable_of_iff' _ (Iff.of_eq (k1_chk90.eq_1 v461))
theorem k1_idx90_inb : ∀ (v461 : IVec S16 32) (k1_hw90 : k1_chk90 v461), ∀ a x, ((![v461] : Fin 1 → IVec S16 32) a x).toNat < S64.size a := fun v461 k1_hw90 => k1_hw90

def k1_chk91 (v465 : IVec S16 32) (v467 : IVec S16 32) : Prop :=
  (∀ a x, ((![v465, v467] : Fin 2 → IVec S16 32) a x).toNat < S64x200.size a)
instance k1_chk91.dec : ∀ (v465 : IVec S16 32) (v467 : IVec S16 32), Decidable (k1_chk91 v465 v467) := fun v465 v467 => decidable_of_iff' _ (Iff.of_eq (k1_chk91.eq_1 v465 v467))
theorem k1_idx91_inb : ∀ (v465 : IVec S16 32) (v467 : IVec S16 32) (k1_hw91 : k1_chk91 v465 v467), ∀ a x, ((![v465, v467] : Fin 2 → IVec S16 32) a x).toNat < S64x200.size a := fun v465 v467 k1_hw91 => k1_hw91
def k1_off50 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_181 : BitVec 32 := 400#32
  let v469 : BitVec 32 := Scalar.muli arg14 c400_i32_181
  let c320_i32_182 : BitVec 32 := 320#32
  let v470 : BitVec 32 := Scalar.addi v469 c320_i32_182
  let v471 : Index := Scalar.indexCast v470
  ![v471.toNat]

def k1_chk92 (v475 : IVec S16 32) : Prop :=
  (∀ a x, ((![v475] : Fin 1 → IVec S16 32) a x).toNat < S64.size a)
instance k1_chk92.dec : ∀ (v475 : IVec S16 32), Decidable (k1_chk92 v475) := fun v475 => decidable_of_iff' _ (Iff.of_eq (k1_chk92.eq_1 v475))
theorem k1_idx92_inb : ∀ (v475 : IVec S16 32) (k1_hw92 : k1_chk92 v475), ∀ a x, ((![v475] : Fin 1 → IVec S16 32) a x).toNat < S64.size a := fun v475 k1_hw92 => k1_hw92

def k1_chk93 (v479 : IVec S16 32) (v481 : IVec S16 32) : Prop :=
  (∀ a x, ((![v479, v481] : Fin 2 → IVec S16 32) a x).toNat < S64x200.size a)
instance k1_chk93.dec : ∀ (v479 : IVec S16 32) (v481 : IVec S16 32), Decidable (k1_chk93 v479 v481) := fun v479 v481 => decidable_of_iff' _ (Iff.of_eq (k1_chk93.eq_1 v479 v481))
theorem k1_idx93_inb : ∀ (v479 : IVec S16 32) (v481 : IVec S16 32) (k1_hw93 : k1_chk93 v479 v481), ∀ a x, ((![v479, v481] : Fin 2 → IVec S16 32) a x).toNat < S64x200.size a := fun v479 v481 k1_hw93 => k1_hw93
def k1_off51 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_185 : BitVec 32 := 400#32
  let v483 : BitVec 32 := Scalar.muli arg14 c400_i32_185
  let c336_i32 : BitVec 32 := 336#32
  let v484 : BitVec 32 := Scalar.addi v483 c336_i32
  let v485 : Index := Scalar.indexCast v484
  ![v485.toNat]

def k1_chk94 (v489 : IVec S16 32) : Prop :=
  (∀ a x, ((![v489] : Fin 1 → IVec S16 32) a x).toNat < S64.size a)
instance k1_chk94.dec : ∀ (v489 : IVec S16 32), Decidable (k1_chk94 v489) := fun v489 => decidable_of_iff' _ (Iff.of_eq (k1_chk94.eq_1 v489))
theorem k1_idx94_inb : ∀ (v489 : IVec S16 32) (k1_hw94 : k1_chk94 v489), ∀ a x, ((![v489] : Fin 1 → IVec S16 32) a x).toNat < S64.size a := fun v489 k1_hw94 => k1_hw94

def k1_chk95 (v493 : IVec S16 32) (v495 : IVec S16 32) : Prop :=
  (∀ a x, ((![v493, v495] : Fin 2 → IVec S16 32) a x).toNat < S64x200.size a)
instance k1_chk95.dec : ∀ (v493 : IVec S16 32) (v495 : IVec S16 32), Decidable (k1_chk95 v493 v495) := fun v493 v495 => decidable_of_iff' _ (Iff.of_eq (k1_chk95.eq_1 v493 v495))
theorem k1_idx95_inb : ∀ (v493 : IVec S16 32) (v495 : IVec S16 32) (k1_hw95 : k1_chk95 v493 v495), ∀ a x, ((![v493, v495] : Fin 2 → IVec S16 32) a x).toNat < S64x200.size a := fun v493 v495 k1_hw95 => k1_hw95
def k1_off52 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_188 : BitVec 32 := 400#32
  let v497 : BitVec 32 := Scalar.muli arg14 c400_i32_188
  let c352_i32 : BitVec 32 := 352#32
  let v498 : BitVec 32 := Scalar.addi v497 c352_i32
  let v499 : Index := Scalar.indexCast v498
  ![v499.toNat]

def k1_chk96 (v503 : IVec S16 32) : Prop :=
  (∀ a x, ((![v503] : Fin 1 → IVec S16 32) a x).toNat < S64.size a)
instance k1_chk96.dec : ∀ (v503 : IVec S16 32), Decidable (k1_chk96 v503) := fun v503 => decidable_of_iff' _ (Iff.of_eq (k1_chk96.eq_1 v503))
theorem k1_idx96_inb : ∀ (v503 : IVec S16 32) (k1_hw96 : k1_chk96 v503), ∀ a x, ((![v503] : Fin 1 → IVec S16 32) a x).toNat < S64.size a := fun v503 k1_hw96 => k1_hw96

def k1_chk97 (v507 : IVec S16 32) (v509 : IVec S16 32) : Prop :=
  (∀ a x, ((![v507, v509] : Fin 2 → IVec S16 32) a x).toNat < S64x200.size a)
instance k1_chk97.dec : ∀ (v507 : IVec S16 32) (v509 : IVec S16 32), Decidable (k1_chk97 v507 v509) := fun v507 v509 => decidable_of_iff' _ (Iff.of_eq (k1_chk97.eq_1 v507 v509))
theorem k1_idx97_inb : ∀ (v507 : IVec S16 32) (v509 : IVec S16 32) (k1_hw97 : k1_chk97 v507 v509), ∀ a x, ((![v507, v509] : Fin 2 → IVec S16 32) a x).toNat < S64x200.size a := fun v507 v509 k1_hw97 => k1_hw97
def k1_off53 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_191 : BitVec 32 := 400#32
  let v511 : BitVec 32 := Scalar.muli arg14 c400_i32_191
  let c368_i32 : BitVec 32 := 368#32
  let v512 : BitVec 32 := Scalar.addi v511 c368_i32
  let v513 : Index := Scalar.indexCast v512
  ![v513.toNat]

def k1_chk98 (v517 : IVec S16 32) : Prop :=
  (∀ a x, ((![v517] : Fin 1 → IVec S16 32) a x).toNat < S64.size a)
instance k1_chk98.dec : ∀ (v517 : IVec S16 32), Decidable (k1_chk98 v517) := fun v517 => decidable_of_iff' _ (Iff.of_eq (k1_chk98.eq_1 v517))
theorem k1_idx98_inb : ∀ (v517 : IVec S16 32) (k1_hw98 : k1_chk98 v517), ∀ a x, ((![v517] : Fin 1 → IVec S16 32) a x).toNat < S64.size a := fun v517 k1_hw98 => k1_hw98

def k1_chk99 (v521 : IVec S16 32) (v523 : IVec S16 32) : Prop :=
  (∀ a x, ((![v521, v523] : Fin 2 → IVec S16 32) a x).toNat < S64x200.size a)
instance k1_chk99.dec : ∀ (v521 : IVec S16 32) (v523 : IVec S16 32), Decidable (k1_chk99 v521 v523) := fun v521 v523 => decidable_of_iff' _ (Iff.of_eq (k1_chk99.eq_1 v521 v523))
theorem k1_idx99_inb : ∀ (v521 : IVec S16 32) (v523 : IVec S16 32) (k1_hw99 : k1_chk99 v521 v523), ∀ a x, ((![v521, v523] : Fin 2 → IVec S16 32) a x).toNat < S64x200.size a := fun v521 v523 k1_hw99 => k1_hw99
def k1_off54 (k1_t2 : Fin k1_t2_loop.trips) : Fin 1 → Nat :=
  let c0_i32_28 : BitVec 32 := 0#32
  let c1_i32_30 : BitVec 32 := 1#32
  let arg14 : BitVec 32 := Scf.iv c0_i32_28 c1_i32_30 k1_t2
  let c400_i32_194 : BitVec 32 := 400#32
  let v525 : BitVec 32 := Scalar.muli arg14 c400_i32_194
  let c384_i32_195 : BitVec 32 := 384#32
  let v526 : BitVec 32 := Scalar.addi v525 c384_i32_195
  let v527 : Index := Scalar.indexCast v526
  ![v527.toNat]

def k1_chk100 (v531 : IVec S16 32) : Prop :=
  (∀ a x, ((![v531] : Fin 1 → IVec S16 32) a x).toNat < S64.size a)
instance k1_chk100.dec : ∀ (v531 : IVec S16 32), Decidable (k1_chk100 v531) := fun v531 => decidable_of_iff' _ (Iff.of_eq (k1_chk100.eq_1 v531))
theorem k1_idx100_inb : ∀ (v531 : IVec S16 32) (k1_hw100 : k1_chk100 v531), ∀ a x, ((![v531] : Fin 1 → IVec S16 32) a x).toNat < S64.size a := fun v531 k1_hw100 => k1_hw100
@[reducible] def k1_t3_loop : Scf.Loop 32 :=
  let c0_i32_41 : BitVec 32 := 0#32
  let c32_i32_42 : BitVec 32 := 32#32
  let v87 : BitVec 32 := Scalar.addi c0_i32_41 c32_i32_42
  let c1_i32_43 : BitVec 32 := 1#32
  ⟨c0_i32_41, v87, c1_i32_43⟩

def k1_chk101 (v186 : IVec S16 32) (v188 : IVec S16 32) : Prop :=
  (∀ a x, ((![v186, v188] : Fin 2 → IVec S16 32) a x).toNat < S64x200.size a)
instance k1_chk101.dec : ∀ (v186 : IVec S16 32) (v188 : IVec S16 32), Decidable (k1_chk101 v186 v188) := fun v186 v188 => decidable_of_iff' _ (Iff.of_eq (k1_chk101.eq_1 v186 v188))
theorem k1_idx101_inb : ∀ (v186 : IVec S16 32) (v188 : IVec S16 32) (k1_hw101 : k1_chk101 v186 v188), ∀ a x, ((![v186, v188] : Fin 2 → IVec S16 32) a x).toNat < S64x200.size a := fun v186 v188 k1_hw101 => k1_hw101
def k1_off55 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32 : BitVec 32 := 400#32
  let v190 : BitVec 32 := Scalar.muli arg14 c400_i32
  let c0_i32_104 : BitVec 32 := 0#32
  let v191 : BitVec 32 := Scalar.addi v190 c0_i32_104
  let v192 : Index := Scalar.indexCast v191
  ![v192.toNat]

def k1_chk102 (v196 : IVec S16 32) : Prop :=
  (∀ a x, ((![v196] : Fin 1 → IVec S16 32) a x).toNat < S64.size a)
instance k1_chk102.dec : ∀ (v196 : IVec S16 32), Decidable (k1_chk102 v196) := fun v196 => decidable_of_iff' _ (Iff.of_eq (k1_chk102.eq_1 v196))
theorem k1_idx102_inb : ∀ (v196 : IVec S16 32) (k1_hw102 : k1_chk102 v196), ∀ a x, ((![v196] : Fin 1 → IVec S16 32) a x).toNat < S64.size a := fun v196 k1_hw102 => k1_hw102

def k1_chk103 (v200 : IVec S16 32) (v202 : IVec S16 32) : Prop :=
  (∀ a x, ((![v200, v202] : Fin 2 → IVec S16 32) a x).toNat < S64x200.size a)
instance k1_chk103.dec : ∀ (v200 : IVec S16 32) (v202 : IVec S16 32), Decidable (k1_chk103 v200 v202) := fun v200 v202 => decidable_of_iff' _ (Iff.of_eq (k1_chk103.eq_1 v200 v202))
theorem k1_idx103_inb : ∀ (v200 : IVec S16 32) (v202 : IVec S16 32) (k1_hw103 : k1_chk103 v200 v202), ∀ a x, ((![v200, v202] : Fin 2 → IVec S16 32) a x).toNat < S64x200.size a := fun v200 v202 k1_hw103 => k1_hw103
def k1_off56 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_107 : BitVec 32 := 400#32
  let v204 : BitVec 32 := Scalar.muli arg14 c400_i32_107
  let c16_i32_108 : BitVec 32 := 16#32
  let v205 : BitVec 32 := Scalar.addi v204 c16_i32_108
  let v206 : Index := Scalar.indexCast v205
  ![v206.toNat]

def k1_chk104 (v210 : IVec S16 32) : Prop :=
  (∀ a x, ((![v210] : Fin 1 → IVec S16 32) a x).toNat < S64.size a)
instance k1_chk104.dec : ∀ (v210 : IVec S16 32), Decidable (k1_chk104 v210) := fun v210 => decidable_of_iff' _ (Iff.of_eq (k1_chk104.eq_1 v210))
theorem k1_idx104_inb : ∀ (v210 : IVec S16 32) (k1_hw104 : k1_chk104 v210), ∀ a x, ((![v210] : Fin 1 → IVec S16 32) a x).toNat < S64.size a := fun v210 k1_hw104 => k1_hw104

def k1_chk105 (v214 : IVec S16 32) (v216 : IVec S16 32) : Prop :=
  (∀ a x, ((![v214, v216] : Fin 2 → IVec S16 32) a x).toNat < S64x200.size a)
instance k1_chk105.dec : ∀ (v214 : IVec S16 32) (v216 : IVec S16 32), Decidable (k1_chk105 v214 v216) := fun v214 v216 => decidable_of_iff' _ (Iff.of_eq (k1_chk105.eq_1 v214 v216))
theorem k1_idx105_inb : ∀ (v214 : IVec S16 32) (v216 : IVec S16 32) (k1_hw105 : k1_chk105 v214 v216), ∀ a x, ((![v214, v216] : Fin 2 → IVec S16 32) a x).toNat < S64x200.size a := fun v214 v216 k1_hw105 => k1_hw105
def k1_off57 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_112 : BitVec 32 := 400#32
  let v218 : BitVec 32 := Scalar.muli arg14 c400_i32_112
  let c32_i32_113 : BitVec 32 := 32#32
  let v219 : BitVec 32 := Scalar.addi v218 c32_i32_113
  let v220 : Index := Scalar.indexCast v219
  ![v220.toNat]

def k1_chk106 (v224 : IVec S16 32) : Prop :=
  (∀ a x, ((![v224] : Fin 1 → IVec S16 32) a x).toNat < S64.size a)
instance k1_chk106.dec : ∀ (v224 : IVec S16 32), Decidable (k1_chk106 v224) := fun v224 => decidable_of_iff' _ (Iff.of_eq (k1_chk106.eq_1 v224))
theorem k1_idx106_inb : ∀ (v224 : IVec S16 32) (k1_hw106 : k1_chk106 v224), ∀ a x, ((![v224] : Fin 1 → IVec S16 32) a x).toNat < S64.size a := fun v224 k1_hw106 => k1_hw106

def k1_chk107 (v228 : IVec S16 32) (v230 : IVec S16 32) : Prop :=
  (∀ a x, ((![v228, v230] : Fin 2 → IVec S16 32) a x).toNat < S64x200.size a)
instance k1_chk107.dec : ∀ (v228 : IVec S16 32) (v230 : IVec S16 32), Decidable (k1_chk107 v228 v230) := fun v228 v230 => decidable_of_iff' _ (Iff.of_eq (k1_chk107.eq_1 v228 v230))
theorem k1_idx107_inb : ∀ (v228 : IVec S16 32) (v230 : IVec S16 32) (k1_hw107 : k1_chk107 v228 v230), ∀ a x, ((![v228, v230] : Fin 2 → IVec S16 32) a x).toNat < S64x200.size a := fun v228 v230 k1_hw107 => k1_hw107
def k1_off58 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_116 : BitVec 32 := 400#32
  let v232 : BitVec 32 := Scalar.muli arg14 c400_i32_116
  let c48_i32_117 : BitVec 32 := 48#32
  let v233 : BitVec 32 := Scalar.addi v232 c48_i32_117
  let v234 : Index := Scalar.indexCast v233
  ![v234.toNat]

def k1_chk108 (v238 : IVec S16 32) : Prop :=
  (∀ a x, ((![v238] : Fin 1 → IVec S16 32) a x).toNat < S64.size a)
instance k1_chk108.dec : ∀ (v238 : IVec S16 32), Decidable (k1_chk108 v238) := fun v238 => decidable_of_iff' _ (Iff.of_eq (k1_chk108.eq_1 v238))
theorem k1_idx108_inb : ∀ (v238 : IVec S16 32) (k1_hw108 : k1_chk108 v238), ∀ a x, ((![v238] : Fin 1 → IVec S16 32) a x).toNat < S64.size a := fun v238 k1_hw108 => k1_hw108

def k1_chk109 (v242 : IVec S16 32) (v244 : IVec S16 32) : Prop :=
  (∀ a x, ((![v242, v244] : Fin 2 → IVec S16 32) a x).toNat < S64x200.size a)
instance k1_chk109.dec : ∀ (v242 : IVec S16 32) (v244 : IVec S16 32), Decidable (k1_chk109 v242 v244) := fun v242 v244 => decidable_of_iff' _ (Iff.of_eq (k1_chk109.eq_1 v242 v244))
theorem k1_idx109_inb : ∀ (v242 : IVec S16 32) (v244 : IVec S16 32) (k1_hw109 : k1_chk109 v242 v244), ∀ a x, ((![v242, v244] : Fin 2 → IVec S16 32) a x).toNat < S64x200.size a := fun v242 v244 k1_hw109 => k1_hw109
def k1_off59 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_121 : BitVec 32 := 400#32
  let v246 : BitVec 32 := Scalar.muli arg14 c400_i32_121
  let c64_i32_122 : BitVec 32 := 64#32
  let v247 : BitVec 32 := Scalar.addi v246 c64_i32_122
  let v248 : Index := Scalar.indexCast v247
  ![v248.toNat]

def k1_chk110 (v252 : IVec S16 32) : Prop :=
  (∀ a x, ((![v252] : Fin 1 → IVec S16 32) a x).toNat < S64.size a)
instance k1_chk110.dec : ∀ (v252 : IVec S16 32), Decidable (k1_chk110 v252) := fun v252 => decidable_of_iff' _ (Iff.of_eq (k1_chk110.eq_1 v252))
theorem k1_idx110_inb : ∀ (v252 : IVec S16 32) (k1_hw110 : k1_chk110 v252), ∀ a x, ((![v252] : Fin 1 → IVec S16 32) a x).toNat < S64.size a := fun v252 k1_hw110 => k1_hw110

def k1_chk111 (v256 : IVec S16 32) (v258 : IVec S16 32) : Prop :=
  (∀ a x, ((![v256, v258] : Fin 2 → IVec S16 32) a x).toNat < S64x200.size a)
instance k1_chk111.dec : ∀ (v256 : IVec S16 32) (v258 : IVec S16 32), Decidable (k1_chk111 v256 v258) := fun v256 v258 => decidable_of_iff' _ (Iff.of_eq (k1_chk111.eq_1 v256 v258))
theorem k1_idx111_inb : ∀ (v256 : IVec S16 32) (v258 : IVec S16 32) (k1_hw111 : k1_chk111 v256 v258), ∀ a x, ((![v256, v258] : Fin 2 → IVec S16 32) a x).toNat < S64x200.size a := fun v256 v258 k1_hw111 => k1_hw111
def k1_off60 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_125 : BitVec 32 := 400#32
  let v260 : BitVec 32 := Scalar.muli arg14 c400_i32_125
  let c80_i32_126 : BitVec 32 := 80#32
  let v261 : BitVec 32 := Scalar.addi v260 c80_i32_126
  let v262 : Index := Scalar.indexCast v261
  ![v262.toNat]

def k1_chk112 (v266 : IVec S16 32) : Prop :=
  (∀ a x, ((![v266] : Fin 1 → IVec S16 32) a x).toNat < S64.size a)
instance k1_chk112.dec : ∀ (v266 : IVec S16 32), Decidable (k1_chk112 v266) := fun v266 => decidable_of_iff' _ (Iff.of_eq (k1_chk112.eq_1 v266))
theorem k1_idx112_inb : ∀ (v266 : IVec S16 32) (k1_hw112 : k1_chk112 v266), ∀ a x, ((![v266] : Fin 1 → IVec S16 32) a x).toNat < S64.size a := fun v266 k1_hw112 => k1_hw112

def k1_chk113 (v270 : IVec S16 32) (v272 : IVec S16 32) : Prop :=
  (∀ a x, ((![v270, v272] : Fin 2 → IVec S16 32) a x).toNat < S64x200.size a)
instance k1_chk113.dec : ∀ (v270 : IVec S16 32) (v272 : IVec S16 32), Decidable (k1_chk113 v270 v272) := fun v270 v272 => decidable_of_iff' _ (Iff.of_eq (k1_chk113.eq_1 v270 v272))
theorem k1_idx113_inb : ∀ (v270 : IVec S16 32) (v272 : IVec S16 32) (k1_hw113 : k1_chk113 v270 v272), ∀ a x, ((![v270, v272] : Fin 2 → IVec S16 32) a x).toNat < S64x200.size a := fun v270 v272 k1_hw113 => k1_hw113
def k1_off61 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_129 : BitVec 32 := 400#32
  let v274 : BitVec 32 := Scalar.muli arg14 c400_i32_129
  let c96_i32_130 : BitVec 32 := 96#32
  let v275 : BitVec 32 := Scalar.addi v274 c96_i32_130
  let v276 : Index := Scalar.indexCast v275
  ![v276.toNat]

def k1_chk114 (v280 : IVec S16 32) : Prop :=
  (∀ a x, ((![v280] : Fin 1 → IVec S16 32) a x).toNat < S64.size a)
instance k1_chk114.dec : ∀ (v280 : IVec S16 32), Decidable (k1_chk114 v280) := fun v280 => decidable_of_iff' _ (Iff.of_eq (k1_chk114.eq_1 v280))
theorem k1_idx114_inb : ∀ (v280 : IVec S16 32) (k1_hw114 : k1_chk114 v280), ∀ a x, ((![v280] : Fin 1 → IVec S16 32) a x).toNat < S64.size a := fun v280 k1_hw114 => k1_hw114

def k1_chk115 (v284 : IVec S16 32) (v286 : IVec S16 32) : Prop :=
  (∀ a x, ((![v284, v286] : Fin 2 → IVec S16 32) a x).toNat < S64x200.size a)
instance k1_chk115.dec : ∀ (v284 : IVec S16 32) (v286 : IVec S16 32), Decidable (k1_chk115 v284 v286) := fun v284 v286 => decidable_of_iff' _ (Iff.of_eq (k1_chk115.eq_1 v284 v286))
theorem k1_idx115_inb : ∀ (v284 : IVec S16 32) (v286 : IVec S16 32) (k1_hw115 : k1_chk115 v284 v286), ∀ a x, ((![v284, v286] : Fin 2 → IVec S16 32) a x).toNat < S64x200.size a := fun v284 v286 k1_hw115 => k1_hw115
def k1_off62 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_133 : BitVec 32 := 400#32
  let v288 : BitVec 32 := Scalar.muli arg14 c400_i32_133
  let c112_i32_134 : BitVec 32 := 112#32
  let v289 : BitVec 32 := Scalar.addi v288 c112_i32_134
  let v290 : Index := Scalar.indexCast v289
  ![v290.toNat]

def k1_chk116 (v294 : IVec S16 32) : Prop :=
  (∀ a x, ((![v294] : Fin 1 → IVec S16 32) a x).toNat < S64.size a)
instance k1_chk116.dec : ∀ (v294 : IVec S16 32), Decidable (k1_chk116 v294) := fun v294 => decidable_of_iff' _ (Iff.of_eq (k1_chk116.eq_1 v294))
theorem k1_idx116_inb : ∀ (v294 : IVec S16 32) (k1_hw116 : k1_chk116 v294), ∀ a x, ((![v294] : Fin 1 → IVec S16 32) a x).toNat < S64.size a := fun v294 k1_hw116 => k1_hw116

def k1_chk117 (v298 : IVec S16 32) (v300 : IVec S16 32) : Prop :=
  (∀ a x, ((![v298, v300] : Fin 2 → IVec S16 32) a x).toNat < S64x200.size a)
instance k1_chk117.dec : ∀ (v298 : IVec S16 32) (v300 : IVec S16 32), Decidable (k1_chk117 v298 v300) := fun v298 v300 => decidable_of_iff' _ (Iff.of_eq (k1_chk117.eq_1 v298 v300))
theorem k1_idx117_inb : ∀ (v298 : IVec S16 32) (v300 : IVec S16 32) (k1_hw117 : k1_chk117 v298 v300), ∀ a x, ((![v298, v300] : Fin 2 → IVec S16 32) a x).toNat < S64x200.size a := fun v298 v300 k1_hw117 => k1_hw117
def k1_off63 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_138 : BitVec 32 := 400#32
  let v302 : BitVec 32 := Scalar.muli arg14 c400_i32_138
  let c128_i32_139 : BitVec 32 := 128#32
  let v303 : BitVec 32 := Scalar.addi v302 c128_i32_139
  let v304 : Index := Scalar.indexCast v303
  ![v304.toNat]

def k1_chk118 (v308 : IVec S16 32) : Prop :=
  (∀ a x, ((![v308] : Fin 1 → IVec S16 32) a x).toNat < S64.size a)
instance k1_chk118.dec : ∀ (v308 : IVec S16 32), Decidable (k1_chk118 v308) := fun v308 => decidable_of_iff' _ (Iff.of_eq (k1_chk118.eq_1 v308))
theorem k1_idx118_inb : ∀ (v308 : IVec S16 32) (k1_hw118 : k1_chk118 v308), ∀ a x, ((![v308] : Fin 1 → IVec S16 32) a x).toNat < S64.size a := fun v308 k1_hw118 => k1_hw118

def k1_chk119 (v312 : IVec S16 32) (v314 : IVec S16 32) : Prop :=
  (∀ a x, ((![v312, v314] : Fin 2 → IVec S16 32) a x).toNat < S64x200.size a)
instance k1_chk119.dec : ∀ (v312 : IVec S16 32) (v314 : IVec S16 32), Decidable (k1_chk119 v312 v314) := fun v312 v314 => decidable_of_iff' _ (Iff.of_eq (k1_chk119.eq_1 v312 v314))
theorem k1_idx119_inb : ∀ (v312 : IVec S16 32) (v314 : IVec S16 32) (k1_hw119 : k1_chk119 v312 v314), ∀ a x, ((![v312, v314] : Fin 2 → IVec S16 32) a x).toNat < S64x200.size a := fun v312 v314 k1_hw119 => k1_hw119
def k1_off64 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_142 : BitVec 32 := 400#32
  let v316 : BitVec 32 := Scalar.muli arg14 c400_i32_142
  let c144_i32_143 : BitVec 32 := 144#32
  let v317 : BitVec 32 := Scalar.addi v316 c144_i32_143
  let v318 : Index := Scalar.indexCast v317
  ![v318.toNat]

def k1_chk120 (v322 : IVec S16 32) : Prop :=
  (∀ a x, ((![v322] : Fin 1 → IVec S16 32) a x).toNat < S64.size a)
instance k1_chk120.dec : ∀ (v322 : IVec S16 32), Decidable (k1_chk120 v322) := fun v322 => decidable_of_iff' _ (Iff.of_eq (k1_chk120.eq_1 v322))
theorem k1_idx120_inb : ∀ (v322 : IVec S16 32) (k1_hw120 : k1_chk120 v322), ∀ a x, ((![v322] : Fin 1 → IVec S16 32) a x).toNat < S64.size a := fun v322 k1_hw120 => k1_hw120

def k1_chk121 (v326 : IVec S16 32) (v328 : IVec S16 32) : Prop :=
  (∀ a x, ((![v326, v328] : Fin 2 → IVec S16 32) a x).toNat < S64x200.size a)
instance k1_chk121.dec : ∀ (v326 : IVec S16 32) (v328 : IVec S16 32), Decidable (k1_chk121 v326 v328) := fun v326 v328 => decidable_of_iff' _ (Iff.of_eq (k1_chk121.eq_1 v326 v328))
theorem k1_idx121_inb : ∀ (v326 : IVec S16 32) (v328 : IVec S16 32) (k1_hw121 : k1_chk121 v326 v328), ∀ a x, ((![v326, v328] : Fin 2 → IVec S16 32) a x).toNat < S64x200.size a := fun v326 v328 k1_hw121 => k1_hw121
def k1_off65 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_146 : BitVec 32 := 400#32
  let v330 : BitVec 32 := Scalar.muli arg14 c400_i32_146
  let c160_i32_147 : BitVec 32 := 160#32
  let v331 : BitVec 32 := Scalar.addi v330 c160_i32_147
  let v332 : Index := Scalar.indexCast v331
  ![v332.toNat]

def k1_chk122 (v336 : IVec S16 32) : Prop :=
  (∀ a x, ((![v336] : Fin 1 → IVec S16 32) a x).toNat < S64.size a)
instance k1_chk122.dec : ∀ (v336 : IVec S16 32), Decidable (k1_chk122 v336) := fun v336 => decidable_of_iff' _ (Iff.of_eq (k1_chk122.eq_1 v336))
theorem k1_idx122_inb : ∀ (v336 : IVec S16 32) (k1_hw122 : k1_chk122 v336), ∀ a x, ((![v336] : Fin 1 → IVec S16 32) a x).toNat < S64.size a := fun v336 k1_hw122 => k1_hw122

def k1_chk123 (v340 : IVec S16 32) (v342 : IVec S16 32) : Prop :=
  (∀ a x, ((![v340, v342] : Fin 2 → IVec S16 32) a x).toNat < S64x200.size a)
instance k1_chk123.dec : ∀ (v340 : IVec S16 32) (v342 : IVec S16 32), Decidable (k1_chk123 v340 v342) := fun v340 v342 => decidable_of_iff' _ (Iff.of_eq (k1_chk123.eq_1 v340 v342))
theorem k1_idx123_inb : ∀ (v340 : IVec S16 32) (v342 : IVec S16 32) (k1_hw123 : k1_chk123 v340 v342), ∀ a x, ((![v340, v342] : Fin 2 → IVec S16 32) a x).toNat < S64x200.size a := fun v340 v342 k1_hw123 => k1_hw123
def k1_off66 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_150 : BitVec 32 := 400#32
  let v344 : BitVec 32 := Scalar.muli arg14 c400_i32_150
  let c176_i32_151 : BitVec 32 := 176#32
  let v345 : BitVec 32 := Scalar.addi v344 c176_i32_151
  let v346 : Index := Scalar.indexCast v345
  ![v346.toNat]

def k1_chk124 (v350 : IVec S16 32) : Prop :=
  (∀ a x, ((![v350] : Fin 1 → IVec S16 32) a x).toNat < S64.size a)
instance k1_chk124.dec : ∀ (v350 : IVec S16 32), Decidable (k1_chk124 v350) := fun v350 => decidable_of_iff' _ (Iff.of_eq (k1_chk124.eq_1 v350))
theorem k1_idx124_inb : ∀ (v350 : IVec S16 32) (k1_hw124 : k1_chk124 v350), ∀ a x, ((![v350] : Fin 1 → IVec S16 32) a x).toNat < S64.size a := fun v350 k1_hw124 => k1_hw124

def k1_chk125 (v14 : IVec S16 32) (v355 : IVec S16 32) : Prop :=
  (∀ a x, ((![v355, v14] : Fin 2 → IVec S16 32) a x).toNat < S64x200.size a)
instance k1_chk125.dec : ∀ (v14 : IVec S16 32) (v355 : IVec S16 32), Decidable (k1_chk125 v14 v355) := fun v14 v355 => decidable_of_iff' _ (Iff.of_eq (k1_chk125.eq_1 v14 v355))
theorem k1_idx125_inb : ∀ (v14 : IVec S16 32) (v355 : IVec S16 32) (k1_hw125 : k1_chk125 v14 v355), ∀ a x, ((![v355, v14] : Fin 2 → IVec S16 32) a x).toNat < S64x200.size a := fun v14 v355 k1_hw125 => k1_hw125
def k1_off67 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_154 : BitVec 32 := 400#32
  let v357 : BitVec 32 := Scalar.muli arg14 c400_i32_154
  let c192_i32_155 : BitVec 32 := 192#32
  let v358 : BitVec 32 := Scalar.addi v357 c192_i32_155
  let v359 : Index := Scalar.indexCast v358
  ![v359.toNat]

def k1_chk126 (v363 : IVec S16 32) : Prop :=
  (∀ a x, ((![v363] : Fin 1 → IVec S16 32) a x).toNat < S64.size a)
instance k1_chk126.dec : ∀ (v363 : IVec S16 32), Decidable (k1_chk126 v363) := fun v363 => decidable_of_iff' _ (Iff.of_eq (k1_chk126.eq_1 v363))
theorem k1_idx126_inb : ∀ (v363 : IVec S16 32) (k1_hw126 : k1_chk126 v363), ∀ a x, ((![v363] : Fin 1 → IVec S16 32) a x).toNat < S64.size a := fun v363 k1_hw126 => k1_hw126

def k1_chk127 (v367 : IVec S16 32) (v369 : IVec S16 32) : Prop :=
  (∀ a x, ((![v367, v369] : Fin 2 → IVec S16 32) a x).toNat < S64x200.size a)
instance k1_chk127.dec : ∀ (v367 : IVec S16 32) (v369 : IVec S16 32), Decidable (k1_chk127 v367 v369) := fun v367 v369 => decidable_of_iff' _ (Iff.of_eq (k1_chk127.eq_1 v367 v369))
theorem k1_idx127_inb : ∀ (v367 : IVec S16 32) (v369 : IVec S16 32) (k1_hw127 : k1_chk127 v367 v369), ∀ a x, ((![v367, v369] : Fin 2 → IVec S16 32) a x).toNat < S64x200.size a := fun v367 v369 k1_hw127 => k1_hw127
def k1_off68 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_159 : BitVec 32 := 400#32
  let v371 : BitVec 32 := Scalar.muli arg14 c400_i32_159
  let c208_i32 : BitVec 32 := 208#32
  let v372 : BitVec 32 := Scalar.addi v371 c208_i32
  let v373 : Index := Scalar.indexCast v372
  ![v373.toNat]

def k1_chk128 (v377 : IVec S16 32) : Prop :=
  (∀ a x, ((![v377] : Fin 1 → IVec S16 32) a x).toNat < S64.size a)
instance k1_chk128.dec : ∀ (v377 : IVec S16 32), Decidable (k1_chk128 v377) := fun v377 => decidable_of_iff' _ (Iff.of_eq (k1_chk128.eq_1 v377))
theorem k1_idx128_inb : ∀ (v377 : IVec S16 32) (k1_hw128 : k1_chk128 v377), ∀ a x, ((![v377] : Fin 1 → IVec S16 32) a x).toNat < S64.size a := fun v377 k1_hw128 => k1_hw128

def k1_chk129 (v381 : IVec S16 32) (v383 : IVec S16 32) : Prop :=
  (∀ a x, ((![v381, v383] : Fin 2 → IVec S16 32) a x).toNat < S64x200.size a)
instance k1_chk129.dec : ∀ (v381 : IVec S16 32) (v383 : IVec S16 32), Decidable (k1_chk129 v381 v383) := fun v381 v383 => decidable_of_iff' _ (Iff.of_eq (k1_chk129.eq_1 v381 v383))
theorem k1_idx129_inb : ∀ (v381 : IVec S16 32) (v383 : IVec S16 32) (k1_hw129 : k1_chk129 v381 v383), ∀ a x, ((![v381, v383] : Fin 2 → IVec S16 32) a x).toNat < S64x200.size a := fun v381 v383 k1_hw129 => k1_hw129
def k1_off69 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_162 : BitVec 32 := 400#32
  let v385 : BitVec 32 := Scalar.muli arg14 c400_i32_162
  let c224_i32 : BitVec 32 := 224#32
  let v386 : BitVec 32 := Scalar.addi v385 c224_i32
  let v387 : Index := Scalar.indexCast v386
  ![v387.toNat]

def k1_chk130 (v391 : IVec S16 32) : Prop :=
  (∀ a x, ((![v391] : Fin 1 → IVec S16 32) a x).toNat < S64.size a)
instance k1_chk130.dec : ∀ (v391 : IVec S16 32), Decidable (k1_chk130 v391) := fun v391 => decidable_of_iff' _ (Iff.of_eq (k1_chk130.eq_1 v391))
theorem k1_idx130_inb : ∀ (v391 : IVec S16 32) (k1_hw130 : k1_chk130 v391), ∀ a x, ((![v391] : Fin 1 → IVec S16 32) a x).toNat < S64.size a := fun v391 k1_hw130 => k1_hw130

def k1_chk131 (v395 : IVec S16 32) (v397 : IVec S16 32) : Prop :=
  (∀ a x, ((![v395, v397] : Fin 2 → IVec S16 32) a x).toNat < S64x200.size a)
instance k1_chk131.dec : ∀ (v395 : IVec S16 32) (v397 : IVec S16 32), Decidable (k1_chk131 v395 v397) := fun v395 v397 => decidable_of_iff' _ (Iff.of_eq (k1_chk131.eq_1 v395 v397))
theorem k1_idx131_inb : ∀ (v395 : IVec S16 32) (v397 : IVec S16 32) (k1_hw131 : k1_chk131 v395 v397), ∀ a x, ((![v395, v397] : Fin 2 → IVec S16 32) a x).toNat < S64x200.size a := fun v395 v397 k1_hw131 => k1_hw131
def k1_off70 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_165 : BitVec 32 := 400#32
  let v399 : BitVec 32 := Scalar.muli arg14 c400_i32_165
  let c240_i32 : BitVec 32 := 240#32
  let v400 : BitVec 32 := Scalar.addi v399 c240_i32
  let v401 : Index := Scalar.indexCast v400
  ![v401.toNat]

def k1_chk132 (v405 : IVec S16 32) : Prop :=
  (∀ a x, ((![v405] : Fin 1 → IVec S16 32) a x).toNat < S64.size a)
instance k1_chk132.dec : ∀ (v405 : IVec S16 32), Decidable (k1_chk132 v405) := fun v405 => decidable_of_iff' _ (Iff.of_eq (k1_chk132.eq_1 v405))
theorem k1_idx132_inb : ∀ (v405 : IVec S16 32) (k1_hw132 : k1_chk132 v405), ∀ a x, ((![v405] : Fin 1 → IVec S16 32) a x).toNat < S64.size a := fun v405 k1_hw132 => k1_hw132

def k1_chk133 (v409 : IVec S16 32) (v411 : IVec S16 32) : Prop :=
  (∀ a x, ((![v409, v411] : Fin 2 → IVec S16 32) a x).toNat < S64x200.size a)
instance k1_chk133.dec : ∀ (v409 : IVec S16 32) (v411 : IVec S16 32), Decidable (k1_chk133 v409 v411) := fun v409 v411 => decidable_of_iff' _ (Iff.of_eq (k1_chk133.eq_1 v409 v411))
theorem k1_idx133_inb : ∀ (v409 : IVec S16 32) (v411 : IVec S16 32) (k1_hw133 : k1_chk133 v409 v411), ∀ a x, ((![v409, v411] : Fin 2 → IVec S16 32) a x).toNat < S64x200.size a := fun v409 v411 k1_hw133 => k1_hw133
def k1_off71 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_168 : BitVec 32 := 400#32
  let v413 : BitVec 32 := Scalar.muli arg14 c400_i32_168
  let c256_i32_169 : BitVec 32 := 256#32
  let v414 : BitVec 32 := Scalar.addi v413 c256_i32_169
  let v415 : Index := Scalar.indexCast v414
  ![v415.toNat]

def k1_chk134 (v419 : IVec S16 32) : Prop :=
  (∀ a x, ((![v419] : Fin 1 → IVec S16 32) a x).toNat < S64.size a)
instance k1_chk134.dec : ∀ (v419 : IVec S16 32), Decidable (k1_chk134 v419) := fun v419 => decidable_of_iff' _ (Iff.of_eq (k1_chk134.eq_1 v419))
theorem k1_idx134_inb : ∀ (v419 : IVec S16 32) (k1_hw134 : k1_chk134 v419), ∀ a x, ((![v419] : Fin 1 → IVec S16 32) a x).toNat < S64.size a := fun v419 k1_hw134 => k1_hw134

def k1_chk135 (v423 : IVec S16 32) (v425 : IVec S16 32) : Prop :=
  (∀ a x, ((![v423, v425] : Fin 2 → IVec S16 32) a x).toNat < S64x200.size a)
instance k1_chk135.dec : ∀ (v423 : IVec S16 32) (v425 : IVec S16 32), Decidable (k1_chk135 v423 v425) := fun v423 v425 => decidable_of_iff' _ (Iff.of_eq (k1_chk135.eq_1 v423 v425))
theorem k1_idx135_inb : ∀ (v423 : IVec S16 32) (v425 : IVec S16 32) (k1_hw135 : k1_chk135 v423 v425), ∀ a x, ((![v423, v425] : Fin 2 → IVec S16 32) a x).toNat < S64x200.size a := fun v423 v425 k1_hw135 => k1_hw135
def k1_off72 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_172 : BitVec 32 := 400#32
  let v427 : BitVec 32 := Scalar.muli arg14 c400_i32_172
  let c272_i32 : BitVec 32 := 272#32
  let v428 : BitVec 32 := Scalar.addi v427 c272_i32
  let v429 : Index := Scalar.indexCast v428
  ![v429.toNat]

def k1_chk136 (v433 : IVec S16 32) : Prop :=
  (∀ a x, ((![v433] : Fin 1 → IVec S16 32) a x).toNat < S64.size a)
instance k1_chk136.dec : ∀ (v433 : IVec S16 32), Decidable (k1_chk136 v433) := fun v433 => decidable_of_iff' _ (Iff.of_eq (k1_chk136.eq_1 v433))
theorem k1_idx136_inb : ∀ (v433 : IVec S16 32) (k1_hw136 : k1_chk136 v433), ∀ a x, ((![v433] : Fin 1 → IVec S16 32) a x).toNat < S64.size a := fun v433 k1_hw136 => k1_hw136

def k1_chk137 (v437 : IVec S16 32) (v439 : IVec S16 32) : Prop :=
  (∀ a x, ((![v437, v439] : Fin 2 → IVec S16 32) a x).toNat < S64x200.size a)
instance k1_chk137.dec : ∀ (v437 : IVec S16 32) (v439 : IVec S16 32), Decidable (k1_chk137 v437 v439) := fun v437 v439 => decidable_of_iff' _ (Iff.of_eq (k1_chk137.eq_1 v437 v439))
theorem k1_idx137_inb : ∀ (v437 : IVec S16 32) (v439 : IVec S16 32) (k1_hw137 : k1_chk137 v437 v439), ∀ a x, ((![v437, v439] : Fin 2 → IVec S16 32) a x).toNat < S64x200.size a := fun v437 v439 k1_hw137 => k1_hw137
def k1_off73 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_175 : BitVec 32 := 400#32
  let v441 : BitVec 32 := Scalar.muli arg14 c400_i32_175
  let c288_i32 : BitVec 32 := 288#32
  let v442 : BitVec 32 := Scalar.addi v441 c288_i32
  let v443 : Index := Scalar.indexCast v442
  ![v443.toNat]

def k1_chk138 (v447 : IVec S16 32) : Prop :=
  (∀ a x, ((![v447] : Fin 1 → IVec S16 32) a x).toNat < S64.size a)
instance k1_chk138.dec : ∀ (v447 : IVec S16 32), Decidable (k1_chk138 v447) := fun v447 => decidable_of_iff' _ (Iff.of_eq (k1_chk138.eq_1 v447))
theorem k1_idx138_inb : ∀ (v447 : IVec S16 32) (k1_hw138 : k1_chk138 v447), ∀ a x, ((![v447] : Fin 1 → IVec S16 32) a x).toNat < S64.size a := fun v447 k1_hw138 => k1_hw138

def k1_chk139 (v451 : IVec S16 32) (v453 : IVec S16 32) : Prop :=
  (∀ a x, ((![v451, v453] : Fin 2 → IVec S16 32) a x).toNat < S64x200.size a)
instance k1_chk139.dec : ∀ (v451 : IVec S16 32) (v453 : IVec S16 32), Decidable (k1_chk139 v451 v453) := fun v451 v453 => decidable_of_iff' _ (Iff.of_eq (k1_chk139.eq_1 v451 v453))
theorem k1_idx139_inb : ∀ (v451 : IVec S16 32) (v453 : IVec S16 32) (k1_hw139 : k1_chk139 v451 v453), ∀ a x, ((![v451, v453] : Fin 2 → IVec S16 32) a x).toNat < S64x200.size a := fun v451 v453 k1_hw139 => k1_hw139
def k1_off74 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_178 : BitVec 32 := 400#32
  let v455 : BitVec 32 := Scalar.muli arg14 c400_i32_178
  let c304_i32 : BitVec 32 := 304#32
  let v456 : BitVec 32 := Scalar.addi v455 c304_i32
  let v457 : Index := Scalar.indexCast v456
  ![v457.toNat]

def k1_chk140 (v461 : IVec S16 32) : Prop :=
  (∀ a x, ((![v461] : Fin 1 → IVec S16 32) a x).toNat < S64.size a)
instance k1_chk140.dec : ∀ (v461 : IVec S16 32), Decidable (k1_chk140 v461) := fun v461 => decidable_of_iff' _ (Iff.of_eq (k1_chk140.eq_1 v461))
theorem k1_idx140_inb : ∀ (v461 : IVec S16 32) (k1_hw140 : k1_chk140 v461), ∀ a x, ((![v461] : Fin 1 → IVec S16 32) a x).toNat < S64.size a := fun v461 k1_hw140 => k1_hw140

def k1_chk141 (v465 : IVec S16 32) (v467 : IVec S16 32) : Prop :=
  (∀ a x, ((![v465, v467] : Fin 2 → IVec S16 32) a x).toNat < S64x200.size a)
instance k1_chk141.dec : ∀ (v465 : IVec S16 32) (v467 : IVec S16 32), Decidable (k1_chk141 v465 v467) := fun v465 v467 => decidable_of_iff' _ (Iff.of_eq (k1_chk141.eq_1 v465 v467))
theorem k1_idx141_inb : ∀ (v465 : IVec S16 32) (v467 : IVec S16 32) (k1_hw141 : k1_chk141 v465 v467), ∀ a x, ((![v465, v467] : Fin 2 → IVec S16 32) a x).toNat < S64x200.size a := fun v465 v467 k1_hw141 => k1_hw141
def k1_off75 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_181 : BitVec 32 := 400#32
  let v469 : BitVec 32 := Scalar.muli arg14 c400_i32_181
  let c320_i32_182 : BitVec 32 := 320#32
  let v470 : BitVec 32 := Scalar.addi v469 c320_i32_182
  let v471 : Index := Scalar.indexCast v470
  ![v471.toNat]

def k1_chk142 (v475 : IVec S16 32) : Prop :=
  (∀ a x, ((![v475] : Fin 1 → IVec S16 32) a x).toNat < S64.size a)
instance k1_chk142.dec : ∀ (v475 : IVec S16 32), Decidable (k1_chk142 v475) := fun v475 => decidable_of_iff' _ (Iff.of_eq (k1_chk142.eq_1 v475))
theorem k1_idx142_inb : ∀ (v475 : IVec S16 32) (k1_hw142 : k1_chk142 v475), ∀ a x, ((![v475] : Fin 1 → IVec S16 32) a x).toNat < S64.size a := fun v475 k1_hw142 => k1_hw142

def k1_chk143 (v479 : IVec S16 32) (v481 : IVec S16 32) : Prop :=
  (∀ a x, ((![v479, v481] : Fin 2 → IVec S16 32) a x).toNat < S64x200.size a)
instance k1_chk143.dec : ∀ (v479 : IVec S16 32) (v481 : IVec S16 32), Decidable (k1_chk143 v479 v481) := fun v479 v481 => decidable_of_iff' _ (Iff.of_eq (k1_chk143.eq_1 v479 v481))
theorem k1_idx143_inb : ∀ (v479 : IVec S16 32) (v481 : IVec S16 32) (k1_hw143 : k1_chk143 v479 v481), ∀ a x, ((![v479, v481] : Fin 2 → IVec S16 32) a x).toNat < S64x200.size a := fun v479 v481 k1_hw143 => k1_hw143
def k1_off76 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_185 : BitVec 32 := 400#32
  let v483 : BitVec 32 := Scalar.muli arg14 c400_i32_185
  let c336_i32 : BitVec 32 := 336#32
  let v484 : BitVec 32 := Scalar.addi v483 c336_i32
  let v485 : Index := Scalar.indexCast v484
  ![v485.toNat]

def k1_chk144 (v489 : IVec S16 32) : Prop :=
  (∀ a x, ((![v489] : Fin 1 → IVec S16 32) a x).toNat < S64.size a)
instance k1_chk144.dec : ∀ (v489 : IVec S16 32), Decidable (k1_chk144 v489) := fun v489 => decidable_of_iff' _ (Iff.of_eq (k1_chk144.eq_1 v489))
theorem k1_idx144_inb : ∀ (v489 : IVec S16 32) (k1_hw144 : k1_chk144 v489), ∀ a x, ((![v489] : Fin 1 → IVec S16 32) a x).toNat < S64.size a := fun v489 k1_hw144 => k1_hw144

def k1_chk145 (v493 : IVec S16 32) (v495 : IVec S16 32) : Prop :=
  (∀ a x, ((![v493, v495] : Fin 2 → IVec S16 32) a x).toNat < S64x200.size a)
instance k1_chk145.dec : ∀ (v493 : IVec S16 32) (v495 : IVec S16 32), Decidable (k1_chk145 v493 v495) := fun v493 v495 => decidable_of_iff' _ (Iff.of_eq (k1_chk145.eq_1 v493 v495))
theorem k1_idx145_inb : ∀ (v493 : IVec S16 32) (v495 : IVec S16 32) (k1_hw145 : k1_chk145 v493 v495), ∀ a x, ((![v493, v495] : Fin 2 → IVec S16 32) a x).toNat < S64x200.size a := fun v493 v495 k1_hw145 => k1_hw145
def k1_off77 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_188 : BitVec 32 := 400#32
  let v497 : BitVec 32 := Scalar.muli arg14 c400_i32_188
  let c352_i32 : BitVec 32 := 352#32
  let v498 : BitVec 32 := Scalar.addi v497 c352_i32
  let v499 : Index := Scalar.indexCast v498
  ![v499.toNat]

def k1_chk146 (v503 : IVec S16 32) : Prop :=
  (∀ a x, ((![v503] : Fin 1 → IVec S16 32) a x).toNat < S64.size a)
instance k1_chk146.dec : ∀ (v503 : IVec S16 32), Decidable (k1_chk146 v503) := fun v503 => decidable_of_iff' _ (Iff.of_eq (k1_chk146.eq_1 v503))
theorem k1_idx146_inb : ∀ (v503 : IVec S16 32) (k1_hw146 : k1_chk146 v503), ∀ a x, ((![v503] : Fin 1 → IVec S16 32) a x).toNat < S64.size a := fun v503 k1_hw146 => k1_hw146

def k1_chk147 (v507 : IVec S16 32) (v509 : IVec S16 32) : Prop :=
  (∀ a x, ((![v507, v509] : Fin 2 → IVec S16 32) a x).toNat < S64x200.size a)
instance k1_chk147.dec : ∀ (v507 : IVec S16 32) (v509 : IVec S16 32), Decidable (k1_chk147 v507 v509) := fun v507 v509 => decidable_of_iff' _ (Iff.of_eq (k1_chk147.eq_1 v507 v509))
theorem k1_idx147_inb : ∀ (v507 : IVec S16 32) (v509 : IVec S16 32) (k1_hw147 : k1_chk147 v507 v509), ∀ a x, ((![v507, v509] : Fin 2 → IVec S16 32) a x).toNat < S64x200.size a := fun v507 v509 k1_hw147 => k1_hw147
def k1_off78 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_191 : BitVec 32 := 400#32
  let v511 : BitVec 32 := Scalar.muli arg14 c400_i32_191
  let c368_i32 : BitVec 32 := 368#32
  let v512 : BitVec 32 := Scalar.addi v511 c368_i32
  let v513 : Index := Scalar.indexCast v512
  ![v513.toNat]

def k1_chk148 (v517 : IVec S16 32) : Prop :=
  (∀ a x, ((![v517] : Fin 1 → IVec S16 32) a x).toNat < S64.size a)
instance k1_chk148.dec : ∀ (v517 : IVec S16 32), Decidable (k1_chk148 v517) := fun v517 => decidable_of_iff' _ (Iff.of_eq (k1_chk148.eq_1 v517))
theorem k1_idx148_inb : ∀ (v517 : IVec S16 32) (k1_hw148 : k1_chk148 v517), ∀ a x, ((![v517] : Fin 1 → IVec S16 32) a x).toNat < S64.size a := fun v517 k1_hw148 => k1_hw148

def k1_chk149 (v521 : IVec S16 32) (v523 : IVec S16 32) : Prop :=
  (∀ a x, ((![v521, v523] : Fin 2 → IVec S16 32) a x).toNat < S64x200.size a)
instance k1_chk149.dec : ∀ (v521 : IVec S16 32) (v523 : IVec S16 32), Decidable (k1_chk149 v521 v523) := fun v521 v523 => decidable_of_iff' _ (Iff.of_eq (k1_chk149.eq_1 v521 v523))
theorem k1_idx149_inb : ∀ (v521 : IVec S16 32) (v523 : IVec S16 32) (k1_hw149 : k1_chk149 v521 v523), ∀ a x, ((![v521, v523] : Fin 2 → IVec S16 32) a x).toNat < S64x200.size a := fun v521 v523 k1_hw149 => k1_hw149
def k1_off79 (k1_t3 : Fin k1_t3_loop.trips) : Fin 1 → Nat :=
  let c0_i32_41 : BitVec 32 := 0#32
  let c1_i32_43 : BitVec 32 := 1#32
  let arg14 : BitVec 32 := Scf.iv c0_i32_41 c1_i32_43 k1_t3
  let c400_i32_194 : BitVec 32 := 400#32
  let v525 : BitVec 32 := Scalar.muli arg14 c400_i32_194
  let c384_i32_195 : BitVec 32 := 384#32
  let v526 : BitVec 32 := Scalar.addi v525 c384_i32_195
  let v527 : Index := Scalar.indexCast v526
  ![v527.toNat]

def k1_chk150 (v531 : IVec S16 32) : Prop :=
  (∀ a x, ((![v531] : Fin 1 → IVec S16 32) a x).toNat < S64.size a)
instance k1_chk150.dec : ∀ (v531 : IVec S16 32), Decidable (k1_chk150 v531) := fun v531 => decidable_of_iff' _ (Iff.of_eq (k1_chk150.eq_1 v531))
theorem k1_idx150_inb : ∀ (v531 : IVec S16 32) (k1_hw150 : k1_chk150 v531), ∀ a x, ((![v531] : Fin 1 → IVec S16 32) a x).toNat < S64.size a := fun v531 k1_hw150 => k1_hw150
@[reducible] def k1_t4_loop : Scf.Loop 32 :=
  let c0_i32_53 : BitVec 32 := 0#32
  let c32_i32_54 : BitVec 32 := 32#32
  let v107 : BitVec 32 := Scalar.addi c0_i32_53 c32_i32_54
  let c1_i32_55 : BitVec 32 := 1#32
  ⟨c0_i32_53, v107, c1_i32_55⟩

def k1_chk151 (v186 : IVec S16 32) (v188 : IVec S16 32) : Prop :=
  (∀ a x, ((![v186, v188] : Fin 2 → IVec S16 32) a x).toNat < S64x200.size a)
instance k1_chk151.dec : ∀ (v186 : IVec S16 32) (v188 : IVec S16 32), Decidable (k1_chk151 v186 v188) := fun v186 v188 => decidable_of_iff' _ (Iff.of_eq (k1_chk151.eq_1 v186 v188))
theorem k1_idx151_inb : ∀ (v186 : IVec S16 32) (v188 : IVec S16 32) (k1_hw151 : k1_chk151 v186 v188), ∀ a x, ((![v186, v188] : Fin 2 → IVec S16 32) a x).toNat < S64x200.size a := fun v186 v188 k1_hw151 => k1_hw151
def k1_off80 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32 : BitVec 32 := 400#32
  let v190 : BitVec 32 := Scalar.muli arg14 c400_i32
  let c0_i32_104 : BitVec 32 := 0#32
  let v191 : BitVec 32 := Scalar.addi v190 c0_i32_104
  let v192 : Index := Scalar.indexCast v191
  ![v192.toNat]

def k1_chk152 (v196 : IVec S16 32) : Prop :=
  (∀ a x, ((![v196] : Fin 1 → IVec S16 32) a x).toNat < S64.size a)
instance k1_chk152.dec : ∀ (v196 : IVec S16 32), Decidable (k1_chk152 v196) := fun v196 => decidable_of_iff' _ (Iff.of_eq (k1_chk152.eq_1 v196))
theorem k1_idx152_inb : ∀ (v196 : IVec S16 32) (k1_hw152 : k1_chk152 v196), ∀ a x, ((![v196] : Fin 1 → IVec S16 32) a x).toNat < S64.size a := fun v196 k1_hw152 => k1_hw152

def k1_chk153 (v200 : IVec S16 32) (v202 : IVec S16 32) : Prop :=
  (∀ a x, ((![v200, v202] : Fin 2 → IVec S16 32) a x).toNat < S64x200.size a)
instance k1_chk153.dec : ∀ (v200 : IVec S16 32) (v202 : IVec S16 32), Decidable (k1_chk153 v200 v202) := fun v200 v202 => decidable_of_iff' _ (Iff.of_eq (k1_chk153.eq_1 v200 v202))
theorem k1_idx153_inb : ∀ (v200 : IVec S16 32) (v202 : IVec S16 32) (k1_hw153 : k1_chk153 v200 v202), ∀ a x, ((![v200, v202] : Fin 2 → IVec S16 32) a x).toNat < S64x200.size a := fun v200 v202 k1_hw153 => k1_hw153
def k1_off81 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_107 : BitVec 32 := 400#32
  let v204 : BitVec 32 := Scalar.muli arg14 c400_i32_107
  let c16_i32_108 : BitVec 32 := 16#32
  let v205 : BitVec 32 := Scalar.addi v204 c16_i32_108
  let v206 : Index := Scalar.indexCast v205
  ![v206.toNat]

def k1_chk154 (v210 : IVec S16 32) : Prop :=
  (∀ a x, ((![v210] : Fin 1 → IVec S16 32) a x).toNat < S64.size a)
instance k1_chk154.dec : ∀ (v210 : IVec S16 32), Decidable (k1_chk154 v210) := fun v210 => decidable_of_iff' _ (Iff.of_eq (k1_chk154.eq_1 v210))
theorem k1_idx154_inb : ∀ (v210 : IVec S16 32) (k1_hw154 : k1_chk154 v210), ∀ a x, ((![v210] : Fin 1 → IVec S16 32) a x).toNat < S64.size a := fun v210 k1_hw154 => k1_hw154

def k1_chk155 (v214 : IVec S16 32) (v216 : IVec S16 32) : Prop :=
  (∀ a x, ((![v214, v216] : Fin 2 → IVec S16 32) a x).toNat < S64x200.size a)
instance k1_chk155.dec : ∀ (v214 : IVec S16 32) (v216 : IVec S16 32), Decidable (k1_chk155 v214 v216) := fun v214 v216 => decidable_of_iff' _ (Iff.of_eq (k1_chk155.eq_1 v214 v216))
theorem k1_idx155_inb : ∀ (v214 : IVec S16 32) (v216 : IVec S16 32) (k1_hw155 : k1_chk155 v214 v216), ∀ a x, ((![v214, v216] : Fin 2 → IVec S16 32) a x).toNat < S64x200.size a := fun v214 v216 k1_hw155 => k1_hw155
def k1_off82 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_112 : BitVec 32 := 400#32
  let v218 : BitVec 32 := Scalar.muli arg14 c400_i32_112
  let c32_i32_113 : BitVec 32 := 32#32
  let v219 : BitVec 32 := Scalar.addi v218 c32_i32_113
  let v220 : Index := Scalar.indexCast v219
  ![v220.toNat]

def k1_chk156 (v224 : IVec S16 32) : Prop :=
  (∀ a x, ((![v224] : Fin 1 → IVec S16 32) a x).toNat < S64.size a)
instance k1_chk156.dec : ∀ (v224 : IVec S16 32), Decidable (k1_chk156 v224) := fun v224 => decidable_of_iff' _ (Iff.of_eq (k1_chk156.eq_1 v224))
theorem k1_idx156_inb : ∀ (v224 : IVec S16 32) (k1_hw156 : k1_chk156 v224), ∀ a x, ((![v224] : Fin 1 → IVec S16 32) a x).toNat < S64.size a := fun v224 k1_hw156 => k1_hw156

def k1_chk157 (v228 : IVec S16 32) (v230 : IVec S16 32) : Prop :=
  (∀ a x, ((![v228, v230] : Fin 2 → IVec S16 32) a x).toNat < S64x200.size a)
instance k1_chk157.dec : ∀ (v228 : IVec S16 32) (v230 : IVec S16 32), Decidable (k1_chk157 v228 v230) := fun v228 v230 => decidable_of_iff' _ (Iff.of_eq (k1_chk157.eq_1 v228 v230))
theorem k1_idx157_inb : ∀ (v228 : IVec S16 32) (v230 : IVec S16 32) (k1_hw157 : k1_chk157 v228 v230), ∀ a x, ((![v228, v230] : Fin 2 → IVec S16 32) a x).toNat < S64x200.size a := fun v228 v230 k1_hw157 => k1_hw157
def k1_off83 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_116 : BitVec 32 := 400#32
  let v232 : BitVec 32 := Scalar.muli arg14 c400_i32_116
  let c48_i32_117 : BitVec 32 := 48#32
  let v233 : BitVec 32 := Scalar.addi v232 c48_i32_117
  let v234 : Index := Scalar.indexCast v233
  ![v234.toNat]

def k1_chk158 (v238 : IVec S16 32) : Prop :=
  (∀ a x, ((![v238] : Fin 1 → IVec S16 32) a x).toNat < S64.size a)
instance k1_chk158.dec : ∀ (v238 : IVec S16 32), Decidable (k1_chk158 v238) := fun v238 => decidable_of_iff' _ (Iff.of_eq (k1_chk158.eq_1 v238))
theorem k1_idx158_inb : ∀ (v238 : IVec S16 32) (k1_hw158 : k1_chk158 v238), ∀ a x, ((![v238] : Fin 1 → IVec S16 32) a x).toNat < S64.size a := fun v238 k1_hw158 => k1_hw158

def k1_chk159 (v242 : IVec S16 32) (v244 : IVec S16 32) : Prop :=
  (∀ a x, ((![v242, v244] : Fin 2 → IVec S16 32) a x).toNat < S64x200.size a)
instance k1_chk159.dec : ∀ (v242 : IVec S16 32) (v244 : IVec S16 32), Decidable (k1_chk159 v242 v244) := fun v242 v244 => decidable_of_iff' _ (Iff.of_eq (k1_chk159.eq_1 v242 v244))
theorem k1_idx159_inb : ∀ (v242 : IVec S16 32) (v244 : IVec S16 32) (k1_hw159 : k1_chk159 v242 v244), ∀ a x, ((![v242, v244] : Fin 2 → IVec S16 32) a x).toNat < S64x200.size a := fun v242 v244 k1_hw159 => k1_hw159
def k1_off84 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_121 : BitVec 32 := 400#32
  let v246 : BitVec 32 := Scalar.muli arg14 c400_i32_121
  let c64_i32_122 : BitVec 32 := 64#32
  let v247 : BitVec 32 := Scalar.addi v246 c64_i32_122
  let v248 : Index := Scalar.indexCast v247
  ![v248.toNat]

def k1_chk160 (v252 : IVec S16 32) : Prop :=
  (∀ a x, ((![v252] : Fin 1 → IVec S16 32) a x).toNat < S64.size a)
instance k1_chk160.dec : ∀ (v252 : IVec S16 32), Decidable (k1_chk160 v252) := fun v252 => decidable_of_iff' _ (Iff.of_eq (k1_chk160.eq_1 v252))
theorem k1_idx160_inb : ∀ (v252 : IVec S16 32) (k1_hw160 : k1_chk160 v252), ∀ a x, ((![v252] : Fin 1 → IVec S16 32) a x).toNat < S64.size a := fun v252 k1_hw160 => k1_hw160

def k1_chk161 (v256 : IVec S16 32) (v258 : IVec S16 32) : Prop :=
  (∀ a x, ((![v256, v258] : Fin 2 → IVec S16 32) a x).toNat < S64x200.size a)
instance k1_chk161.dec : ∀ (v256 : IVec S16 32) (v258 : IVec S16 32), Decidable (k1_chk161 v256 v258) := fun v256 v258 => decidable_of_iff' _ (Iff.of_eq (k1_chk161.eq_1 v256 v258))
theorem k1_idx161_inb : ∀ (v256 : IVec S16 32) (v258 : IVec S16 32) (k1_hw161 : k1_chk161 v256 v258), ∀ a x, ((![v256, v258] : Fin 2 → IVec S16 32) a x).toNat < S64x200.size a := fun v256 v258 k1_hw161 => k1_hw161
def k1_off85 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_125 : BitVec 32 := 400#32
  let v260 : BitVec 32 := Scalar.muli arg14 c400_i32_125
  let c80_i32_126 : BitVec 32 := 80#32
  let v261 : BitVec 32 := Scalar.addi v260 c80_i32_126
  let v262 : Index := Scalar.indexCast v261
  ![v262.toNat]

def k1_chk162 (v266 : IVec S16 32) : Prop :=
  (∀ a x, ((![v266] : Fin 1 → IVec S16 32) a x).toNat < S64.size a)
instance k1_chk162.dec : ∀ (v266 : IVec S16 32), Decidable (k1_chk162 v266) := fun v266 => decidable_of_iff' _ (Iff.of_eq (k1_chk162.eq_1 v266))
theorem k1_idx162_inb : ∀ (v266 : IVec S16 32) (k1_hw162 : k1_chk162 v266), ∀ a x, ((![v266] : Fin 1 → IVec S16 32) a x).toNat < S64.size a := fun v266 k1_hw162 => k1_hw162

def k1_chk163 (v270 : IVec S16 32) (v272 : IVec S16 32) : Prop :=
  (∀ a x, ((![v270, v272] : Fin 2 → IVec S16 32) a x).toNat < S64x200.size a)
instance k1_chk163.dec : ∀ (v270 : IVec S16 32) (v272 : IVec S16 32), Decidable (k1_chk163 v270 v272) := fun v270 v272 => decidable_of_iff' _ (Iff.of_eq (k1_chk163.eq_1 v270 v272))
theorem k1_idx163_inb : ∀ (v270 : IVec S16 32) (v272 : IVec S16 32) (k1_hw163 : k1_chk163 v270 v272), ∀ a x, ((![v270, v272] : Fin 2 → IVec S16 32) a x).toNat < S64x200.size a := fun v270 v272 k1_hw163 => k1_hw163
def k1_off86 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_129 : BitVec 32 := 400#32
  let v274 : BitVec 32 := Scalar.muli arg14 c400_i32_129
  let c96_i32_130 : BitVec 32 := 96#32
  let v275 : BitVec 32 := Scalar.addi v274 c96_i32_130
  let v276 : Index := Scalar.indexCast v275
  ![v276.toNat]

def k1_chk164 (v280 : IVec S16 32) : Prop :=
  (∀ a x, ((![v280] : Fin 1 → IVec S16 32) a x).toNat < S64.size a)
instance k1_chk164.dec : ∀ (v280 : IVec S16 32), Decidable (k1_chk164 v280) := fun v280 => decidable_of_iff' _ (Iff.of_eq (k1_chk164.eq_1 v280))
theorem k1_idx164_inb : ∀ (v280 : IVec S16 32) (k1_hw164 : k1_chk164 v280), ∀ a x, ((![v280] : Fin 1 → IVec S16 32) a x).toNat < S64.size a := fun v280 k1_hw164 => k1_hw164

def k1_chk165 (v284 : IVec S16 32) (v286 : IVec S16 32) : Prop :=
  (∀ a x, ((![v284, v286] : Fin 2 → IVec S16 32) a x).toNat < S64x200.size a)
instance k1_chk165.dec : ∀ (v284 : IVec S16 32) (v286 : IVec S16 32), Decidable (k1_chk165 v284 v286) := fun v284 v286 => decidable_of_iff' _ (Iff.of_eq (k1_chk165.eq_1 v284 v286))
theorem k1_idx165_inb : ∀ (v284 : IVec S16 32) (v286 : IVec S16 32) (k1_hw165 : k1_chk165 v284 v286), ∀ a x, ((![v284, v286] : Fin 2 → IVec S16 32) a x).toNat < S64x200.size a := fun v284 v286 k1_hw165 => k1_hw165
def k1_off87 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_133 : BitVec 32 := 400#32
  let v288 : BitVec 32 := Scalar.muli arg14 c400_i32_133
  let c112_i32_134 : BitVec 32 := 112#32
  let v289 : BitVec 32 := Scalar.addi v288 c112_i32_134
  let v290 : Index := Scalar.indexCast v289
  ![v290.toNat]

def k1_chk166 (v294 : IVec S16 32) : Prop :=
  (∀ a x, ((![v294] : Fin 1 → IVec S16 32) a x).toNat < S64.size a)
instance k1_chk166.dec : ∀ (v294 : IVec S16 32), Decidable (k1_chk166 v294) := fun v294 => decidable_of_iff' _ (Iff.of_eq (k1_chk166.eq_1 v294))
theorem k1_idx166_inb : ∀ (v294 : IVec S16 32) (k1_hw166 : k1_chk166 v294), ∀ a x, ((![v294] : Fin 1 → IVec S16 32) a x).toNat < S64.size a := fun v294 k1_hw166 => k1_hw166

def k1_chk167 (v298 : IVec S16 32) (v300 : IVec S16 32) : Prop :=
  (∀ a x, ((![v298, v300] : Fin 2 → IVec S16 32) a x).toNat < S64x200.size a)
instance k1_chk167.dec : ∀ (v298 : IVec S16 32) (v300 : IVec S16 32), Decidable (k1_chk167 v298 v300) := fun v298 v300 => decidable_of_iff' _ (Iff.of_eq (k1_chk167.eq_1 v298 v300))
theorem k1_idx167_inb : ∀ (v298 : IVec S16 32) (v300 : IVec S16 32) (k1_hw167 : k1_chk167 v298 v300), ∀ a x, ((![v298, v300] : Fin 2 → IVec S16 32) a x).toNat < S64x200.size a := fun v298 v300 k1_hw167 => k1_hw167
def k1_off88 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_138 : BitVec 32 := 400#32
  let v302 : BitVec 32 := Scalar.muli arg14 c400_i32_138
  let c128_i32_139 : BitVec 32 := 128#32
  let v303 : BitVec 32 := Scalar.addi v302 c128_i32_139
  let v304 : Index := Scalar.indexCast v303
  ![v304.toNat]

def k1_chk168 (v308 : IVec S16 32) : Prop :=
  (∀ a x, ((![v308] : Fin 1 → IVec S16 32) a x).toNat < S64.size a)
instance k1_chk168.dec : ∀ (v308 : IVec S16 32), Decidable (k1_chk168 v308) := fun v308 => decidable_of_iff' _ (Iff.of_eq (k1_chk168.eq_1 v308))
theorem k1_idx168_inb : ∀ (v308 : IVec S16 32) (k1_hw168 : k1_chk168 v308), ∀ a x, ((![v308] : Fin 1 → IVec S16 32) a x).toNat < S64.size a := fun v308 k1_hw168 => k1_hw168

def k1_chk169 (v312 : IVec S16 32) (v314 : IVec S16 32) : Prop :=
  (∀ a x, ((![v312, v314] : Fin 2 → IVec S16 32) a x).toNat < S64x200.size a)
instance k1_chk169.dec : ∀ (v312 : IVec S16 32) (v314 : IVec S16 32), Decidable (k1_chk169 v312 v314) := fun v312 v314 => decidable_of_iff' _ (Iff.of_eq (k1_chk169.eq_1 v312 v314))
theorem k1_idx169_inb : ∀ (v312 : IVec S16 32) (v314 : IVec S16 32) (k1_hw169 : k1_chk169 v312 v314), ∀ a x, ((![v312, v314] : Fin 2 → IVec S16 32) a x).toNat < S64x200.size a := fun v312 v314 k1_hw169 => k1_hw169
def k1_off89 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_142 : BitVec 32 := 400#32
  let v316 : BitVec 32 := Scalar.muli arg14 c400_i32_142
  let c144_i32_143 : BitVec 32 := 144#32
  let v317 : BitVec 32 := Scalar.addi v316 c144_i32_143
  let v318 : Index := Scalar.indexCast v317
  ![v318.toNat]

def k1_chk170 (v322 : IVec S16 32) : Prop :=
  (∀ a x, ((![v322] : Fin 1 → IVec S16 32) a x).toNat < S64.size a)
instance k1_chk170.dec : ∀ (v322 : IVec S16 32), Decidable (k1_chk170 v322) := fun v322 => decidable_of_iff' _ (Iff.of_eq (k1_chk170.eq_1 v322))
theorem k1_idx170_inb : ∀ (v322 : IVec S16 32) (k1_hw170 : k1_chk170 v322), ∀ a x, ((![v322] : Fin 1 → IVec S16 32) a x).toNat < S64.size a := fun v322 k1_hw170 => k1_hw170

def k1_chk171 (v326 : IVec S16 32) (v328 : IVec S16 32) : Prop :=
  (∀ a x, ((![v326, v328] : Fin 2 → IVec S16 32) a x).toNat < S64x200.size a)
instance k1_chk171.dec : ∀ (v326 : IVec S16 32) (v328 : IVec S16 32), Decidable (k1_chk171 v326 v328) := fun v326 v328 => decidable_of_iff' _ (Iff.of_eq (k1_chk171.eq_1 v326 v328))
theorem k1_idx171_inb : ∀ (v326 : IVec S16 32) (v328 : IVec S16 32) (k1_hw171 : k1_chk171 v326 v328), ∀ a x, ((![v326, v328] : Fin 2 → IVec S16 32) a x).toNat < S64x200.size a := fun v326 v328 k1_hw171 => k1_hw171
def k1_off90 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_146 : BitVec 32 := 400#32
  let v330 : BitVec 32 := Scalar.muli arg14 c400_i32_146
  let c160_i32_147 : BitVec 32 := 160#32
  let v331 : BitVec 32 := Scalar.addi v330 c160_i32_147
  let v332 : Index := Scalar.indexCast v331
  ![v332.toNat]

def k1_chk172 (v336 : IVec S16 32) : Prop :=
  (∀ a x, ((![v336] : Fin 1 → IVec S16 32) a x).toNat < S64.size a)
instance k1_chk172.dec : ∀ (v336 : IVec S16 32), Decidable (k1_chk172 v336) := fun v336 => decidable_of_iff' _ (Iff.of_eq (k1_chk172.eq_1 v336))
theorem k1_idx172_inb : ∀ (v336 : IVec S16 32) (k1_hw172 : k1_chk172 v336), ∀ a x, ((![v336] : Fin 1 → IVec S16 32) a x).toNat < S64.size a := fun v336 k1_hw172 => k1_hw172

def k1_chk173 (v340 : IVec S16 32) (v342 : IVec S16 32) : Prop :=
  (∀ a x, ((![v340, v342] : Fin 2 → IVec S16 32) a x).toNat < S64x200.size a)
instance k1_chk173.dec : ∀ (v340 : IVec S16 32) (v342 : IVec S16 32), Decidable (k1_chk173 v340 v342) := fun v340 v342 => decidable_of_iff' _ (Iff.of_eq (k1_chk173.eq_1 v340 v342))
theorem k1_idx173_inb : ∀ (v340 : IVec S16 32) (v342 : IVec S16 32) (k1_hw173 : k1_chk173 v340 v342), ∀ a x, ((![v340, v342] : Fin 2 → IVec S16 32) a x).toNat < S64x200.size a := fun v340 v342 k1_hw173 => k1_hw173
def k1_off91 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_150 : BitVec 32 := 400#32
  let v344 : BitVec 32 := Scalar.muli arg14 c400_i32_150
  let c176_i32_151 : BitVec 32 := 176#32
  let v345 : BitVec 32 := Scalar.addi v344 c176_i32_151
  let v346 : Index := Scalar.indexCast v345
  ![v346.toNat]

def k1_chk174 (v350 : IVec S16 32) : Prop :=
  (∀ a x, ((![v350] : Fin 1 → IVec S16 32) a x).toNat < S64.size a)
instance k1_chk174.dec : ∀ (v350 : IVec S16 32), Decidable (k1_chk174 v350) := fun v350 => decidable_of_iff' _ (Iff.of_eq (k1_chk174.eq_1 v350))
theorem k1_idx174_inb : ∀ (v350 : IVec S16 32) (k1_hw174 : k1_chk174 v350), ∀ a x, ((![v350] : Fin 1 → IVec S16 32) a x).toNat < S64.size a := fun v350 k1_hw174 => k1_hw174

def k1_chk175 (v14 : IVec S16 32) (v355 : IVec S16 32) : Prop :=
  (∀ a x, ((![v355, v14] : Fin 2 → IVec S16 32) a x).toNat < S64x200.size a)
instance k1_chk175.dec : ∀ (v14 : IVec S16 32) (v355 : IVec S16 32), Decidable (k1_chk175 v14 v355) := fun v14 v355 => decidable_of_iff' _ (Iff.of_eq (k1_chk175.eq_1 v14 v355))
theorem k1_idx175_inb : ∀ (v14 : IVec S16 32) (v355 : IVec S16 32) (k1_hw175 : k1_chk175 v14 v355), ∀ a x, ((![v355, v14] : Fin 2 → IVec S16 32) a x).toNat < S64x200.size a := fun v14 v355 k1_hw175 => k1_hw175
def k1_off92 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_154 : BitVec 32 := 400#32
  let v357 : BitVec 32 := Scalar.muli arg14 c400_i32_154
  let c192_i32_155 : BitVec 32 := 192#32
  let v358 : BitVec 32 := Scalar.addi v357 c192_i32_155
  let v359 : Index := Scalar.indexCast v358
  ![v359.toNat]

def k1_chk176 (v363 : IVec S16 32) : Prop :=
  (∀ a x, ((![v363] : Fin 1 → IVec S16 32) a x).toNat < S64.size a)
instance k1_chk176.dec : ∀ (v363 : IVec S16 32), Decidable (k1_chk176 v363) := fun v363 => decidable_of_iff' _ (Iff.of_eq (k1_chk176.eq_1 v363))
theorem k1_idx176_inb : ∀ (v363 : IVec S16 32) (k1_hw176 : k1_chk176 v363), ∀ a x, ((![v363] : Fin 1 → IVec S16 32) a x).toNat < S64.size a := fun v363 k1_hw176 => k1_hw176

def k1_chk177 (v367 : IVec S16 32) (v369 : IVec S16 32) : Prop :=
  (∀ a x, ((![v367, v369] : Fin 2 → IVec S16 32) a x).toNat < S64x200.size a)
instance k1_chk177.dec : ∀ (v367 : IVec S16 32) (v369 : IVec S16 32), Decidable (k1_chk177 v367 v369) := fun v367 v369 => decidable_of_iff' _ (Iff.of_eq (k1_chk177.eq_1 v367 v369))
theorem k1_idx177_inb : ∀ (v367 : IVec S16 32) (v369 : IVec S16 32) (k1_hw177 : k1_chk177 v367 v369), ∀ a x, ((![v367, v369] : Fin 2 → IVec S16 32) a x).toNat < S64x200.size a := fun v367 v369 k1_hw177 => k1_hw177
def k1_off93 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_159 : BitVec 32 := 400#32
  let v371 : BitVec 32 := Scalar.muli arg14 c400_i32_159
  let c208_i32 : BitVec 32 := 208#32
  let v372 : BitVec 32 := Scalar.addi v371 c208_i32
  let v373 : Index := Scalar.indexCast v372
  ![v373.toNat]

def k1_chk178 (v377 : IVec S16 32) : Prop :=
  (∀ a x, ((![v377] : Fin 1 → IVec S16 32) a x).toNat < S64.size a)
instance k1_chk178.dec : ∀ (v377 : IVec S16 32), Decidable (k1_chk178 v377) := fun v377 => decidable_of_iff' _ (Iff.of_eq (k1_chk178.eq_1 v377))
theorem k1_idx178_inb : ∀ (v377 : IVec S16 32) (k1_hw178 : k1_chk178 v377), ∀ a x, ((![v377] : Fin 1 → IVec S16 32) a x).toNat < S64.size a := fun v377 k1_hw178 => k1_hw178

def k1_chk179 (v381 : IVec S16 32) (v383 : IVec S16 32) : Prop :=
  (∀ a x, ((![v381, v383] : Fin 2 → IVec S16 32) a x).toNat < S64x200.size a)
instance k1_chk179.dec : ∀ (v381 : IVec S16 32) (v383 : IVec S16 32), Decidable (k1_chk179 v381 v383) := fun v381 v383 => decidable_of_iff' _ (Iff.of_eq (k1_chk179.eq_1 v381 v383))
theorem k1_idx179_inb : ∀ (v381 : IVec S16 32) (v383 : IVec S16 32) (k1_hw179 : k1_chk179 v381 v383), ∀ a x, ((![v381, v383] : Fin 2 → IVec S16 32) a x).toNat < S64x200.size a := fun v381 v383 k1_hw179 => k1_hw179
def k1_off94 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_162 : BitVec 32 := 400#32
  let v385 : BitVec 32 := Scalar.muli arg14 c400_i32_162
  let c224_i32 : BitVec 32 := 224#32
  let v386 : BitVec 32 := Scalar.addi v385 c224_i32
  let v387 : Index := Scalar.indexCast v386
  ![v387.toNat]

def k1_chk180 (v391 : IVec S16 32) : Prop :=
  (∀ a x, ((![v391] : Fin 1 → IVec S16 32) a x).toNat < S64.size a)
instance k1_chk180.dec : ∀ (v391 : IVec S16 32), Decidable (k1_chk180 v391) := fun v391 => decidable_of_iff' _ (Iff.of_eq (k1_chk180.eq_1 v391))
theorem k1_idx180_inb : ∀ (v391 : IVec S16 32) (k1_hw180 : k1_chk180 v391), ∀ a x, ((![v391] : Fin 1 → IVec S16 32) a x).toNat < S64.size a := fun v391 k1_hw180 => k1_hw180

def k1_chk181 (v395 : IVec S16 32) (v397 : IVec S16 32) : Prop :=
  (∀ a x, ((![v395, v397] : Fin 2 → IVec S16 32) a x).toNat < S64x200.size a)
instance k1_chk181.dec : ∀ (v395 : IVec S16 32) (v397 : IVec S16 32), Decidable (k1_chk181 v395 v397) := fun v395 v397 => decidable_of_iff' _ (Iff.of_eq (k1_chk181.eq_1 v395 v397))
theorem k1_idx181_inb : ∀ (v395 : IVec S16 32) (v397 : IVec S16 32) (k1_hw181 : k1_chk181 v395 v397), ∀ a x, ((![v395, v397] : Fin 2 → IVec S16 32) a x).toNat < S64x200.size a := fun v395 v397 k1_hw181 => k1_hw181
def k1_off95 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_165 : BitVec 32 := 400#32
  let v399 : BitVec 32 := Scalar.muli arg14 c400_i32_165
  let c240_i32 : BitVec 32 := 240#32
  let v400 : BitVec 32 := Scalar.addi v399 c240_i32
  let v401 : Index := Scalar.indexCast v400
  ![v401.toNat]

def k1_chk182 (v405 : IVec S16 32) : Prop :=
  (∀ a x, ((![v405] : Fin 1 → IVec S16 32) a x).toNat < S64.size a)
instance k1_chk182.dec : ∀ (v405 : IVec S16 32), Decidable (k1_chk182 v405) := fun v405 => decidable_of_iff' _ (Iff.of_eq (k1_chk182.eq_1 v405))
theorem k1_idx182_inb : ∀ (v405 : IVec S16 32) (k1_hw182 : k1_chk182 v405), ∀ a x, ((![v405] : Fin 1 → IVec S16 32) a x).toNat < S64.size a := fun v405 k1_hw182 => k1_hw182

def k1_chk183 (v409 : IVec S16 32) (v411 : IVec S16 32) : Prop :=
  (∀ a x, ((![v409, v411] : Fin 2 → IVec S16 32) a x).toNat < S64x200.size a)
instance k1_chk183.dec : ∀ (v409 : IVec S16 32) (v411 : IVec S16 32), Decidable (k1_chk183 v409 v411) := fun v409 v411 => decidable_of_iff' _ (Iff.of_eq (k1_chk183.eq_1 v409 v411))
theorem k1_idx183_inb : ∀ (v409 : IVec S16 32) (v411 : IVec S16 32) (k1_hw183 : k1_chk183 v409 v411), ∀ a x, ((![v409, v411] : Fin 2 → IVec S16 32) a x).toNat < S64x200.size a := fun v409 v411 k1_hw183 => k1_hw183
def k1_off96 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_168 : BitVec 32 := 400#32
  let v413 : BitVec 32 := Scalar.muli arg14 c400_i32_168
  let c256_i32_169 : BitVec 32 := 256#32
  let v414 : BitVec 32 := Scalar.addi v413 c256_i32_169
  let v415 : Index := Scalar.indexCast v414
  ![v415.toNat]

def k1_chk184 (v419 : IVec S16 32) : Prop :=
  (∀ a x, ((![v419] : Fin 1 → IVec S16 32) a x).toNat < S64.size a)
instance k1_chk184.dec : ∀ (v419 : IVec S16 32), Decidable (k1_chk184 v419) := fun v419 => decidable_of_iff' _ (Iff.of_eq (k1_chk184.eq_1 v419))
theorem k1_idx184_inb : ∀ (v419 : IVec S16 32) (k1_hw184 : k1_chk184 v419), ∀ a x, ((![v419] : Fin 1 → IVec S16 32) a x).toNat < S64.size a := fun v419 k1_hw184 => k1_hw184

def k1_chk185 (v423 : IVec S16 32) (v425 : IVec S16 32) : Prop :=
  (∀ a x, ((![v423, v425] : Fin 2 → IVec S16 32) a x).toNat < S64x200.size a)
instance k1_chk185.dec : ∀ (v423 : IVec S16 32) (v425 : IVec S16 32), Decidable (k1_chk185 v423 v425) := fun v423 v425 => decidable_of_iff' _ (Iff.of_eq (k1_chk185.eq_1 v423 v425))
theorem k1_idx185_inb : ∀ (v423 : IVec S16 32) (v425 : IVec S16 32) (k1_hw185 : k1_chk185 v423 v425), ∀ a x, ((![v423, v425] : Fin 2 → IVec S16 32) a x).toNat < S64x200.size a := fun v423 v425 k1_hw185 => k1_hw185
def k1_off97 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_172 : BitVec 32 := 400#32
  let v427 : BitVec 32 := Scalar.muli arg14 c400_i32_172
  let c272_i32 : BitVec 32 := 272#32
  let v428 : BitVec 32 := Scalar.addi v427 c272_i32
  let v429 : Index := Scalar.indexCast v428
  ![v429.toNat]

def k1_chk186 (v433 : IVec S16 32) : Prop :=
  (∀ a x, ((![v433] : Fin 1 → IVec S16 32) a x).toNat < S64.size a)
instance k1_chk186.dec : ∀ (v433 : IVec S16 32), Decidable (k1_chk186 v433) := fun v433 => decidable_of_iff' _ (Iff.of_eq (k1_chk186.eq_1 v433))
theorem k1_idx186_inb : ∀ (v433 : IVec S16 32) (k1_hw186 : k1_chk186 v433), ∀ a x, ((![v433] : Fin 1 → IVec S16 32) a x).toNat < S64.size a := fun v433 k1_hw186 => k1_hw186

def k1_chk187 (v437 : IVec S16 32) (v439 : IVec S16 32) : Prop :=
  (∀ a x, ((![v437, v439] : Fin 2 → IVec S16 32) a x).toNat < S64x200.size a)
instance k1_chk187.dec : ∀ (v437 : IVec S16 32) (v439 : IVec S16 32), Decidable (k1_chk187 v437 v439) := fun v437 v439 => decidable_of_iff' _ (Iff.of_eq (k1_chk187.eq_1 v437 v439))
theorem k1_idx187_inb : ∀ (v437 : IVec S16 32) (v439 : IVec S16 32) (k1_hw187 : k1_chk187 v437 v439), ∀ a x, ((![v437, v439] : Fin 2 → IVec S16 32) a x).toNat < S64x200.size a := fun v437 v439 k1_hw187 => k1_hw187
def k1_off98 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_175 : BitVec 32 := 400#32
  let v441 : BitVec 32 := Scalar.muli arg14 c400_i32_175
  let c288_i32 : BitVec 32 := 288#32
  let v442 : BitVec 32 := Scalar.addi v441 c288_i32
  let v443 : Index := Scalar.indexCast v442
  ![v443.toNat]

def k1_chk188 (v447 : IVec S16 32) : Prop :=
  (∀ a x, ((![v447] : Fin 1 → IVec S16 32) a x).toNat < S64.size a)
instance k1_chk188.dec : ∀ (v447 : IVec S16 32), Decidable (k1_chk188 v447) := fun v447 => decidable_of_iff' _ (Iff.of_eq (k1_chk188.eq_1 v447))
theorem k1_idx188_inb : ∀ (v447 : IVec S16 32) (k1_hw188 : k1_chk188 v447), ∀ a x, ((![v447] : Fin 1 → IVec S16 32) a x).toNat < S64.size a := fun v447 k1_hw188 => k1_hw188

def k1_chk189 (v451 : IVec S16 32) (v453 : IVec S16 32) : Prop :=
  (∀ a x, ((![v451, v453] : Fin 2 → IVec S16 32) a x).toNat < S64x200.size a)
instance k1_chk189.dec : ∀ (v451 : IVec S16 32) (v453 : IVec S16 32), Decidable (k1_chk189 v451 v453) := fun v451 v453 => decidable_of_iff' _ (Iff.of_eq (k1_chk189.eq_1 v451 v453))
theorem k1_idx189_inb : ∀ (v451 : IVec S16 32) (v453 : IVec S16 32) (k1_hw189 : k1_chk189 v451 v453), ∀ a x, ((![v451, v453] : Fin 2 → IVec S16 32) a x).toNat < S64x200.size a := fun v451 v453 k1_hw189 => k1_hw189
def k1_off99 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_178 : BitVec 32 := 400#32
  let v455 : BitVec 32 := Scalar.muli arg14 c400_i32_178
  let c304_i32 : BitVec 32 := 304#32
  let v456 : BitVec 32 := Scalar.addi v455 c304_i32
  let v457 : Index := Scalar.indexCast v456
  ![v457.toNat]

def k1_chk190 (v461 : IVec S16 32) : Prop :=
  (∀ a x, ((![v461] : Fin 1 → IVec S16 32) a x).toNat < S64.size a)
instance k1_chk190.dec : ∀ (v461 : IVec S16 32), Decidable (k1_chk190 v461) := fun v461 => decidable_of_iff' _ (Iff.of_eq (k1_chk190.eq_1 v461))
theorem k1_idx190_inb : ∀ (v461 : IVec S16 32) (k1_hw190 : k1_chk190 v461), ∀ a x, ((![v461] : Fin 1 → IVec S16 32) a x).toNat < S64.size a := fun v461 k1_hw190 => k1_hw190

def k1_chk191 (v465 : IVec S16 32) (v467 : IVec S16 32) : Prop :=
  (∀ a x, ((![v465, v467] : Fin 2 → IVec S16 32) a x).toNat < S64x200.size a)
instance k1_chk191.dec : ∀ (v465 : IVec S16 32) (v467 : IVec S16 32), Decidable (k1_chk191 v465 v467) := fun v465 v467 => decidable_of_iff' _ (Iff.of_eq (k1_chk191.eq_1 v465 v467))
theorem k1_idx191_inb : ∀ (v465 : IVec S16 32) (v467 : IVec S16 32) (k1_hw191 : k1_chk191 v465 v467), ∀ a x, ((![v465, v467] : Fin 2 → IVec S16 32) a x).toNat < S64x200.size a := fun v465 v467 k1_hw191 => k1_hw191
def k1_off100 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_181 : BitVec 32 := 400#32
  let v469 : BitVec 32 := Scalar.muli arg14 c400_i32_181
  let c320_i32_182 : BitVec 32 := 320#32
  let v470 : BitVec 32 := Scalar.addi v469 c320_i32_182
  let v471 : Index := Scalar.indexCast v470
  ![v471.toNat]

def k1_chk192 (v475 : IVec S16 32) : Prop :=
  (∀ a x, ((![v475] : Fin 1 → IVec S16 32) a x).toNat < S64.size a)
instance k1_chk192.dec : ∀ (v475 : IVec S16 32), Decidable (k1_chk192 v475) := fun v475 => decidable_of_iff' _ (Iff.of_eq (k1_chk192.eq_1 v475))
theorem k1_idx192_inb : ∀ (v475 : IVec S16 32) (k1_hw192 : k1_chk192 v475), ∀ a x, ((![v475] : Fin 1 → IVec S16 32) a x).toNat < S64.size a := fun v475 k1_hw192 => k1_hw192

def k1_chk193 (v479 : IVec S16 32) (v481 : IVec S16 32) : Prop :=
  (∀ a x, ((![v479, v481] : Fin 2 → IVec S16 32) a x).toNat < S64x200.size a)
instance k1_chk193.dec : ∀ (v479 : IVec S16 32) (v481 : IVec S16 32), Decidable (k1_chk193 v479 v481) := fun v479 v481 => decidable_of_iff' _ (Iff.of_eq (k1_chk193.eq_1 v479 v481))
theorem k1_idx193_inb : ∀ (v479 : IVec S16 32) (v481 : IVec S16 32) (k1_hw193 : k1_chk193 v479 v481), ∀ a x, ((![v479, v481] : Fin 2 → IVec S16 32) a x).toNat < S64x200.size a := fun v479 v481 k1_hw193 => k1_hw193
def k1_off101 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_185 : BitVec 32 := 400#32
  let v483 : BitVec 32 := Scalar.muli arg14 c400_i32_185
  let c336_i32 : BitVec 32 := 336#32
  let v484 : BitVec 32 := Scalar.addi v483 c336_i32
  let v485 : Index := Scalar.indexCast v484
  ![v485.toNat]

def k1_chk194 (v489 : IVec S16 32) : Prop :=
  (∀ a x, ((![v489] : Fin 1 → IVec S16 32) a x).toNat < S64.size a)
instance k1_chk194.dec : ∀ (v489 : IVec S16 32), Decidable (k1_chk194 v489) := fun v489 => decidable_of_iff' _ (Iff.of_eq (k1_chk194.eq_1 v489))
theorem k1_idx194_inb : ∀ (v489 : IVec S16 32) (k1_hw194 : k1_chk194 v489), ∀ a x, ((![v489] : Fin 1 → IVec S16 32) a x).toNat < S64.size a := fun v489 k1_hw194 => k1_hw194

def k1_chk195 (v493 : IVec S16 32) (v495 : IVec S16 32) : Prop :=
  (∀ a x, ((![v493, v495] : Fin 2 → IVec S16 32) a x).toNat < S64x200.size a)
instance k1_chk195.dec : ∀ (v493 : IVec S16 32) (v495 : IVec S16 32), Decidable (k1_chk195 v493 v495) := fun v493 v495 => decidable_of_iff' _ (Iff.of_eq (k1_chk195.eq_1 v493 v495))
theorem k1_idx195_inb : ∀ (v493 : IVec S16 32) (v495 : IVec S16 32) (k1_hw195 : k1_chk195 v493 v495), ∀ a x, ((![v493, v495] : Fin 2 → IVec S16 32) a x).toNat < S64x200.size a := fun v493 v495 k1_hw195 => k1_hw195
def k1_off102 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_188 : BitVec 32 := 400#32
  let v497 : BitVec 32 := Scalar.muli arg14 c400_i32_188
  let c352_i32 : BitVec 32 := 352#32
  let v498 : BitVec 32 := Scalar.addi v497 c352_i32
  let v499 : Index := Scalar.indexCast v498
  ![v499.toNat]

def k1_chk196 (v503 : IVec S16 32) : Prop :=
  (∀ a x, ((![v503] : Fin 1 → IVec S16 32) a x).toNat < S64.size a)
instance k1_chk196.dec : ∀ (v503 : IVec S16 32), Decidable (k1_chk196 v503) := fun v503 => decidable_of_iff' _ (Iff.of_eq (k1_chk196.eq_1 v503))
theorem k1_idx196_inb : ∀ (v503 : IVec S16 32) (k1_hw196 : k1_chk196 v503), ∀ a x, ((![v503] : Fin 1 → IVec S16 32) a x).toNat < S64.size a := fun v503 k1_hw196 => k1_hw196

def k1_chk197 (v507 : IVec S16 32) (v509 : IVec S16 32) : Prop :=
  (∀ a x, ((![v507, v509] : Fin 2 → IVec S16 32) a x).toNat < S64x200.size a)
instance k1_chk197.dec : ∀ (v507 : IVec S16 32) (v509 : IVec S16 32), Decidable (k1_chk197 v507 v509) := fun v507 v509 => decidable_of_iff' _ (Iff.of_eq (k1_chk197.eq_1 v507 v509))
theorem k1_idx197_inb : ∀ (v507 : IVec S16 32) (v509 : IVec S16 32) (k1_hw197 : k1_chk197 v507 v509), ∀ a x, ((![v507, v509] : Fin 2 → IVec S16 32) a x).toNat < S64x200.size a := fun v507 v509 k1_hw197 => k1_hw197
def k1_off103 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_191 : BitVec 32 := 400#32
  let v511 : BitVec 32 := Scalar.muli arg14 c400_i32_191
  let c368_i32 : BitVec 32 := 368#32
  let v512 : BitVec 32 := Scalar.addi v511 c368_i32
  let v513 : Index := Scalar.indexCast v512
  ![v513.toNat]

def k1_chk198 (v517 : IVec S16 32) : Prop :=
  (∀ a x, ((![v517] : Fin 1 → IVec S16 32) a x).toNat < S64.size a)
instance k1_chk198.dec : ∀ (v517 : IVec S16 32), Decidable (k1_chk198 v517) := fun v517 => decidable_of_iff' _ (Iff.of_eq (k1_chk198.eq_1 v517))
theorem k1_idx198_inb : ∀ (v517 : IVec S16 32) (k1_hw198 : k1_chk198 v517), ∀ a x, ((![v517] : Fin 1 → IVec S16 32) a x).toNat < S64.size a := fun v517 k1_hw198 => k1_hw198

def k1_chk199 (v521 : IVec S16 32) (v523 : IVec S16 32) : Prop :=
  (∀ a x, ((![v521, v523] : Fin 2 → IVec S16 32) a x).toNat < S64x200.size a)
instance k1_chk199.dec : ∀ (v521 : IVec S16 32) (v523 : IVec S16 32), Decidable (k1_chk199 v521 v523) := fun v521 v523 => decidable_of_iff' _ (Iff.of_eq (k1_chk199.eq_1 v521 v523))
theorem k1_idx199_inb : ∀ (v521 : IVec S16 32) (v523 : IVec S16 32) (k1_hw199 : k1_chk199 v521 v523), ∀ a x, ((![v521, v523] : Fin 2 → IVec S16 32) a x).toNat < S64x200.size a := fun v521 v523 k1_hw199 => k1_hw199
def k1_off104 (k1_t4 : Fin k1_t4_loop.trips) : Fin 1 → Nat :=
  let c0_i32_53 : BitVec 32 := 0#32
  let c1_i32_55 : BitVec 32 := 1#32
  let arg14 : BitVec 32 := Scf.iv c0_i32_53 c1_i32_55 k1_t4
  let c400_i32_194 : BitVec 32 := 400#32
  let v525 : BitVec 32 := Scalar.muli arg14 c400_i32_194
  let c384_i32_195 : BitVec 32 := 384#32
  let v526 : BitVec 32 := Scalar.addi v525 c384_i32_195
  let v527 : Index := Scalar.indexCast v526
  ![v527.toNat]

def k1_chk200 (v531 : IVec S16 32) : Prop :=
  (∀ a x, ((![v531] : Fin 1 → IVec S16 32) a x).toNat < S64.size a)
instance k1_chk200.dec : ∀ (v531 : IVec S16 32), Decidable (k1_chk200 v531) := fun v531 => decidable_of_iff' _ (Iff.of_eq (k1_chk200.eq_1 v531))
theorem k1_idx200_inb : ∀ (v531 : IVec S16 32) (k1_hw200 : k1_chk200 v531), ∀ a x, ((![v531] : Fin 1 → IVec S16 32) a x).toNat < S64.size a := fun v531 k1_hw200 => k1_hw200
@[reducible] def k1_t5_loop : Scf.Loop 32 :=
  let c0_i32_65 : BitVec 32 := 0#32
  let c32_i32_66 : BitVec 32 := 32#32
  let v127 : BitVec 32 := Scalar.addi c0_i32_65 c32_i32_66
  let c1_i32_67 : BitVec 32 := 1#32
  ⟨c0_i32_65, v127, c1_i32_67⟩

def k1_chk201 (v186 : IVec S16 32) (v188 : IVec S16 32) : Prop :=
  (∀ a x, ((![v186, v188] : Fin 2 → IVec S16 32) a x).toNat < S64x200.size a)
instance k1_chk201.dec : ∀ (v186 : IVec S16 32) (v188 : IVec S16 32), Decidable (k1_chk201 v186 v188) := fun v186 v188 => decidable_of_iff' _ (Iff.of_eq (k1_chk201.eq_1 v186 v188))
theorem k1_idx201_inb : ∀ (v186 : IVec S16 32) (v188 : IVec S16 32) (k1_hw201 : k1_chk201 v186 v188), ∀ a x, ((![v186, v188] : Fin 2 → IVec S16 32) a x).toNat < S64x200.size a := fun v186 v188 k1_hw201 => k1_hw201
def k1_off105 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32 : BitVec 32 := 400#32
  let v190 : BitVec 32 := Scalar.muli arg14 c400_i32
  let c0_i32_104 : BitVec 32 := 0#32
  let v191 : BitVec 32 := Scalar.addi v190 c0_i32_104
  let v192 : Index := Scalar.indexCast v191
  ![v192.toNat]

def k1_chk202 (v196 : IVec S16 32) : Prop :=
  (∀ a x, ((![v196] : Fin 1 → IVec S16 32) a x).toNat < S64.size a)
instance k1_chk202.dec : ∀ (v196 : IVec S16 32), Decidable (k1_chk202 v196) := fun v196 => decidable_of_iff' _ (Iff.of_eq (k1_chk202.eq_1 v196))
theorem k1_idx202_inb : ∀ (v196 : IVec S16 32) (k1_hw202 : k1_chk202 v196), ∀ a x, ((![v196] : Fin 1 → IVec S16 32) a x).toNat < S64.size a := fun v196 k1_hw202 => k1_hw202

def k1_chk203 (v200 : IVec S16 32) (v202 : IVec S16 32) : Prop :=
  (∀ a x, ((![v200, v202] : Fin 2 → IVec S16 32) a x).toNat < S64x200.size a)
instance k1_chk203.dec : ∀ (v200 : IVec S16 32) (v202 : IVec S16 32), Decidable (k1_chk203 v200 v202) := fun v200 v202 => decidable_of_iff' _ (Iff.of_eq (k1_chk203.eq_1 v200 v202))
theorem k1_idx203_inb : ∀ (v200 : IVec S16 32) (v202 : IVec S16 32) (k1_hw203 : k1_chk203 v200 v202), ∀ a x, ((![v200, v202] : Fin 2 → IVec S16 32) a x).toNat < S64x200.size a := fun v200 v202 k1_hw203 => k1_hw203
def k1_off106 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_107 : BitVec 32 := 400#32
  let v204 : BitVec 32 := Scalar.muli arg14 c400_i32_107
  let c16_i32_108 : BitVec 32 := 16#32
  let v205 : BitVec 32 := Scalar.addi v204 c16_i32_108
  let v206 : Index := Scalar.indexCast v205
  ![v206.toNat]

def k1_chk204 (v210 : IVec S16 32) : Prop :=
  (∀ a x, ((![v210] : Fin 1 → IVec S16 32) a x).toNat < S64.size a)
instance k1_chk204.dec : ∀ (v210 : IVec S16 32), Decidable (k1_chk204 v210) := fun v210 => decidable_of_iff' _ (Iff.of_eq (k1_chk204.eq_1 v210))
theorem k1_idx204_inb : ∀ (v210 : IVec S16 32) (k1_hw204 : k1_chk204 v210), ∀ a x, ((![v210] : Fin 1 → IVec S16 32) a x).toNat < S64.size a := fun v210 k1_hw204 => k1_hw204

def k1_chk205 (v214 : IVec S16 32) (v216 : IVec S16 32) : Prop :=
  (∀ a x, ((![v214, v216] : Fin 2 → IVec S16 32) a x).toNat < S64x200.size a)
instance k1_chk205.dec : ∀ (v214 : IVec S16 32) (v216 : IVec S16 32), Decidable (k1_chk205 v214 v216) := fun v214 v216 => decidable_of_iff' _ (Iff.of_eq (k1_chk205.eq_1 v214 v216))
theorem k1_idx205_inb : ∀ (v214 : IVec S16 32) (v216 : IVec S16 32) (k1_hw205 : k1_chk205 v214 v216), ∀ a x, ((![v214, v216] : Fin 2 → IVec S16 32) a x).toNat < S64x200.size a := fun v214 v216 k1_hw205 => k1_hw205
def k1_off107 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_112 : BitVec 32 := 400#32
  let v218 : BitVec 32 := Scalar.muli arg14 c400_i32_112
  let c32_i32_113 : BitVec 32 := 32#32
  let v219 : BitVec 32 := Scalar.addi v218 c32_i32_113
  let v220 : Index := Scalar.indexCast v219
  ![v220.toNat]

def k1_chk206 (v224 : IVec S16 32) : Prop :=
  (∀ a x, ((![v224] : Fin 1 → IVec S16 32) a x).toNat < S64.size a)
instance k1_chk206.dec : ∀ (v224 : IVec S16 32), Decidable (k1_chk206 v224) := fun v224 => decidable_of_iff' _ (Iff.of_eq (k1_chk206.eq_1 v224))
theorem k1_idx206_inb : ∀ (v224 : IVec S16 32) (k1_hw206 : k1_chk206 v224), ∀ a x, ((![v224] : Fin 1 → IVec S16 32) a x).toNat < S64.size a := fun v224 k1_hw206 => k1_hw206

def k1_chk207 (v228 : IVec S16 32) (v230 : IVec S16 32) : Prop :=
  (∀ a x, ((![v228, v230] : Fin 2 → IVec S16 32) a x).toNat < S64x200.size a)
instance k1_chk207.dec : ∀ (v228 : IVec S16 32) (v230 : IVec S16 32), Decidable (k1_chk207 v228 v230) := fun v228 v230 => decidable_of_iff' _ (Iff.of_eq (k1_chk207.eq_1 v228 v230))
theorem k1_idx207_inb : ∀ (v228 : IVec S16 32) (v230 : IVec S16 32) (k1_hw207 : k1_chk207 v228 v230), ∀ a x, ((![v228, v230] : Fin 2 → IVec S16 32) a x).toNat < S64x200.size a := fun v228 v230 k1_hw207 => k1_hw207
def k1_off108 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_116 : BitVec 32 := 400#32
  let v232 : BitVec 32 := Scalar.muli arg14 c400_i32_116
  let c48_i32_117 : BitVec 32 := 48#32
  let v233 : BitVec 32 := Scalar.addi v232 c48_i32_117
  let v234 : Index := Scalar.indexCast v233
  ![v234.toNat]

def k1_chk208 (v238 : IVec S16 32) : Prop :=
  (∀ a x, ((![v238] : Fin 1 → IVec S16 32) a x).toNat < S64.size a)
instance k1_chk208.dec : ∀ (v238 : IVec S16 32), Decidable (k1_chk208 v238) := fun v238 => decidable_of_iff' _ (Iff.of_eq (k1_chk208.eq_1 v238))
theorem k1_idx208_inb : ∀ (v238 : IVec S16 32) (k1_hw208 : k1_chk208 v238), ∀ a x, ((![v238] : Fin 1 → IVec S16 32) a x).toNat < S64.size a := fun v238 k1_hw208 => k1_hw208

def k1_chk209 (v242 : IVec S16 32) (v244 : IVec S16 32) : Prop :=
  (∀ a x, ((![v242, v244] : Fin 2 → IVec S16 32) a x).toNat < S64x200.size a)
instance k1_chk209.dec : ∀ (v242 : IVec S16 32) (v244 : IVec S16 32), Decidable (k1_chk209 v242 v244) := fun v242 v244 => decidable_of_iff' _ (Iff.of_eq (k1_chk209.eq_1 v242 v244))
theorem k1_idx209_inb : ∀ (v242 : IVec S16 32) (v244 : IVec S16 32) (k1_hw209 : k1_chk209 v242 v244), ∀ a x, ((![v242, v244] : Fin 2 → IVec S16 32) a x).toNat < S64x200.size a := fun v242 v244 k1_hw209 => k1_hw209
def k1_off109 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_121 : BitVec 32 := 400#32
  let v246 : BitVec 32 := Scalar.muli arg14 c400_i32_121
  let c64_i32_122 : BitVec 32 := 64#32
  let v247 : BitVec 32 := Scalar.addi v246 c64_i32_122
  let v248 : Index := Scalar.indexCast v247
  ![v248.toNat]

def k1_chk210 (v252 : IVec S16 32) : Prop :=
  (∀ a x, ((![v252] : Fin 1 → IVec S16 32) a x).toNat < S64.size a)
instance k1_chk210.dec : ∀ (v252 : IVec S16 32), Decidable (k1_chk210 v252) := fun v252 => decidable_of_iff' _ (Iff.of_eq (k1_chk210.eq_1 v252))
theorem k1_idx210_inb : ∀ (v252 : IVec S16 32) (k1_hw210 : k1_chk210 v252), ∀ a x, ((![v252] : Fin 1 → IVec S16 32) a x).toNat < S64.size a := fun v252 k1_hw210 => k1_hw210

def k1_chk211 (v256 : IVec S16 32) (v258 : IVec S16 32) : Prop :=
  (∀ a x, ((![v256, v258] : Fin 2 → IVec S16 32) a x).toNat < S64x200.size a)
instance k1_chk211.dec : ∀ (v256 : IVec S16 32) (v258 : IVec S16 32), Decidable (k1_chk211 v256 v258) := fun v256 v258 => decidable_of_iff' _ (Iff.of_eq (k1_chk211.eq_1 v256 v258))
theorem k1_idx211_inb : ∀ (v256 : IVec S16 32) (v258 : IVec S16 32) (k1_hw211 : k1_chk211 v256 v258), ∀ a x, ((![v256, v258] : Fin 2 → IVec S16 32) a x).toNat < S64x200.size a := fun v256 v258 k1_hw211 => k1_hw211
def k1_off110 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_125 : BitVec 32 := 400#32
  let v260 : BitVec 32 := Scalar.muli arg14 c400_i32_125
  let c80_i32_126 : BitVec 32 := 80#32
  let v261 : BitVec 32 := Scalar.addi v260 c80_i32_126
  let v262 : Index := Scalar.indexCast v261
  ![v262.toNat]

def k1_chk212 (v266 : IVec S16 32) : Prop :=
  (∀ a x, ((![v266] : Fin 1 → IVec S16 32) a x).toNat < S64.size a)
instance k1_chk212.dec : ∀ (v266 : IVec S16 32), Decidable (k1_chk212 v266) := fun v266 => decidable_of_iff' _ (Iff.of_eq (k1_chk212.eq_1 v266))
theorem k1_idx212_inb : ∀ (v266 : IVec S16 32) (k1_hw212 : k1_chk212 v266), ∀ a x, ((![v266] : Fin 1 → IVec S16 32) a x).toNat < S64.size a := fun v266 k1_hw212 => k1_hw212

def k1_chk213 (v270 : IVec S16 32) (v272 : IVec S16 32) : Prop :=
  (∀ a x, ((![v270, v272] : Fin 2 → IVec S16 32) a x).toNat < S64x200.size a)
instance k1_chk213.dec : ∀ (v270 : IVec S16 32) (v272 : IVec S16 32), Decidable (k1_chk213 v270 v272) := fun v270 v272 => decidable_of_iff' _ (Iff.of_eq (k1_chk213.eq_1 v270 v272))
theorem k1_idx213_inb : ∀ (v270 : IVec S16 32) (v272 : IVec S16 32) (k1_hw213 : k1_chk213 v270 v272), ∀ a x, ((![v270, v272] : Fin 2 → IVec S16 32) a x).toNat < S64x200.size a := fun v270 v272 k1_hw213 => k1_hw213
def k1_off111 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_129 : BitVec 32 := 400#32
  let v274 : BitVec 32 := Scalar.muli arg14 c400_i32_129
  let c96_i32_130 : BitVec 32 := 96#32
  let v275 : BitVec 32 := Scalar.addi v274 c96_i32_130
  let v276 : Index := Scalar.indexCast v275
  ![v276.toNat]

def k1_chk214 (v280 : IVec S16 32) : Prop :=
  (∀ a x, ((![v280] : Fin 1 → IVec S16 32) a x).toNat < S64.size a)
instance k1_chk214.dec : ∀ (v280 : IVec S16 32), Decidable (k1_chk214 v280) := fun v280 => decidable_of_iff' _ (Iff.of_eq (k1_chk214.eq_1 v280))
theorem k1_idx214_inb : ∀ (v280 : IVec S16 32) (k1_hw214 : k1_chk214 v280), ∀ a x, ((![v280] : Fin 1 → IVec S16 32) a x).toNat < S64.size a := fun v280 k1_hw214 => k1_hw214

def k1_chk215 (v284 : IVec S16 32) (v286 : IVec S16 32) : Prop :=
  (∀ a x, ((![v284, v286] : Fin 2 → IVec S16 32) a x).toNat < S64x200.size a)
instance k1_chk215.dec : ∀ (v284 : IVec S16 32) (v286 : IVec S16 32), Decidable (k1_chk215 v284 v286) := fun v284 v286 => decidable_of_iff' _ (Iff.of_eq (k1_chk215.eq_1 v284 v286))
theorem k1_idx215_inb : ∀ (v284 : IVec S16 32) (v286 : IVec S16 32) (k1_hw215 : k1_chk215 v284 v286), ∀ a x, ((![v284, v286] : Fin 2 → IVec S16 32) a x).toNat < S64x200.size a := fun v284 v286 k1_hw215 => k1_hw215
def k1_off112 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_133 : BitVec 32 := 400#32
  let v288 : BitVec 32 := Scalar.muli arg14 c400_i32_133
  let c112_i32_134 : BitVec 32 := 112#32
  let v289 : BitVec 32 := Scalar.addi v288 c112_i32_134
  let v290 : Index := Scalar.indexCast v289
  ![v290.toNat]

def k1_chk216 (v294 : IVec S16 32) : Prop :=
  (∀ a x, ((![v294] : Fin 1 → IVec S16 32) a x).toNat < S64.size a)
instance k1_chk216.dec : ∀ (v294 : IVec S16 32), Decidable (k1_chk216 v294) := fun v294 => decidable_of_iff' _ (Iff.of_eq (k1_chk216.eq_1 v294))
theorem k1_idx216_inb : ∀ (v294 : IVec S16 32) (k1_hw216 : k1_chk216 v294), ∀ a x, ((![v294] : Fin 1 → IVec S16 32) a x).toNat < S64.size a := fun v294 k1_hw216 => k1_hw216

def k1_chk217 (v298 : IVec S16 32) (v300 : IVec S16 32) : Prop :=
  (∀ a x, ((![v298, v300] : Fin 2 → IVec S16 32) a x).toNat < S64x200.size a)
instance k1_chk217.dec : ∀ (v298 : IVec S16 32) (v300 : IVec S16 32), Decidable (k1_chk217 v298 v300) := fun v298 v300 => decidable_of_iff' _ (Iff.of_eq (k1_chk217.eq_1 v298 v300))
theorem k1_idx217_inb : ∀ (v298 : IVec S16 32) (v300 : IVec S16 32) (k1_hw217 : k1_chk217 v298 v300), ∀ a x, ((![v298, v300] : Fin 2 → IVec S16 32) a x).toNat < S64x200.size a := fun v298 v300 k1_hw217 => k1_hw217
def k1_off113 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_138 : BitVec 32 := 400#32
  let v302 : BitVec 32 := Scalar.muli arg14 c400_i32_138
  let c128_i32_139 : BitVec 32 := 128#32
  let v303 : BitVec 32 := Scalar.addi v302 c128_i32_139
  let v304 : Index := Scalar.indexCast v303
  ![v304.toNat]

def k1_chk218 (v308 : IVec S16 32) : Prop :=
  (∀ a x, ((![v308] : Fin 1 → IVec S16 32) a x).toNat < S64.size a)
instance k1_chk218.dec : ∀ (v308 : IVec S16 32), Decidable (k1_chk218 v308) := fun v308 => decidable_of_iff' _ (Iff.of_eq (k1_chk218.eq_1 v308))
theorem k1_idx218_inb : ∀ (v308 : IVec S16 32) (k1_hw218 : k1_chk218 v308), ∀ a x, ((![v308] : Fin 1 → IVec S16 32) a x).toNat < S64.size a := fun v308 k1_hw218 => k1_hw218

def k1_chk219 (v312 : IVec S16 32) (v314 : IVec S16 32) : Prop :=
  (∀ a x, ((![v312, v314] : Fin 2 → IVec S16 32) a x).toNat < S64x200.size a)
instance k1_chk219.dec : ∀ (v312 : IVec S16 32) (v314 : IVec S16 32), Decidable (k1_chk219 v312 v314) := fun v312 v314 => decidable_of_iff' _ (Iff.of_eq (k1_chk219.eq_1 v312 v314))
theorem k1_idx219_inb : ∀ (v312 : IVec S16 32) (v314 : IVec S16 32) (k1_hw219 : k1_chk219 v312 v314), ∀ a x, ((![v312, v314] : Fin 2 → IVec S16 32) a x).toNat < S64x200.size a := fun v312 v314 k1_hw219 => k1_hw219
def k1_off114 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_142 : BitVec 32 := 400#32
  let v316 : BitVec 32 := Scalar.muli arg14 c400_i32_142
  let c144_i32_143 : BitVec 32 := 144#32
  let v317 : BitVec 32 := Scalar.addi v316 c144_i32_143
  let v318 : Index := Scalar.indexCast v317
  ![v318.toNat]

def k1_chk220 (v322 : IVec S16 32) : Prop :=
  (∀ a x, ((![v322] : Fin 1 → IVec S16 32) a x).toNat < S64.size a)
instance k1_chk220.dec : ∀ (v322 : IVec S16 32), Decidable (k1_chk220 v322) := fun v322 => decidable_of_iff' _ (Iff.of_eq (k1_chk220.eq_1 v322))
theorem k1_idx220_inb : ∀ (v322 : IVec S16 32) (k1_hw220 : k1_chk220 v322), ∀ a x, ((![v322] : Fin 1 → IVec S16 32) a x).toNat < S64.size a := fun v322 k1_hw220 => k1_hw220

def k1_chk221 (v326 : IVec S16 32) (v328 : IVec S16 32) : Prop :=
  (∀ a x, ((![v326, v328] : Fin 2 → IVec S16 32) a x).toNat < S64x200.size a)
instance k1_chk221.dec : ∀ (v326 : IVec S16 32) (v328 : IVec S16 32), Decidable (k1_chk221 v326 v328) := fun v326 v328 => decidable_of_iff' _ (Iff.of_eq (k1_chk221.eq_1 v326 v328))
theorem k1_idx221_inb : ∀ (v326 : IVec S16 32) (v328 : IVec S16 32) (k1_hw221 : k1_chk221 v326 v328), ∀ a x, ((![v326, v328] : Fin 2 → IVec S16 32) a x).toNat < S64x200.size a := fun v326 v328 k1_hw221 => k1_hw221
def k1_off115 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_146 : BitVec 32 := 400#32
  let v330 : BitVec 32 := Scalar.muli arg14 c400_i32_146
  let c160_i32_147 : BitVec 32 := 160#32
  let v331 : BitVec 32 := Scalar.addi v330 c160_i32_147
  let v332 : Index := Scalar.indexCast v331
  ![v332.toNat]

def k1_chk222 (v336 : IVec S16 32) : Prop :=
  (∀ a x, ((![v336] : Fin 1 → IVec S16 32) a x).toNat < S64.size a)
instance k1_chk222.dec : ∀ (v336 : IVec S16 32), Decidable (k1_chk222 v336) := fun v336 => decidable_of_iff' _ (Iff.of_eq (k1_chk222.eq_1 v336))
theorem k1_idx222_inb : ∀ (v336 : IVec S16 32) (k1_hw222 : k1_chk222 v336), ∀ a x, ((![v336] : Fin 1 → IVec S16 32) a x).toNat < S64.size a := fun v336 k1_hw222 => k1_hw222

def k1_chk223 (v340 : IVec S16 32) (v342 : IVec S16 32) : Prop :=
  (∀ a x, ((![v340, v342] : Fin 2 → IVec S16 32) a x).toNat < S64x200.size a)
instance k1_chk223.dec : ∀ (v340 : IVec S16 32) (v342 : IVec S16 32), Decidable (k1_chk223 v340 v342) := fun v340 v342 => decidable_of_iff' _ (Iff.of_eq (k1_chk223.eq_1 v340 v342))
theorem k1_idx223_inb : ∀ (v340 : IVec S16 32) (v342 : IVec S16 32) (k1_hw223 : k1_chk223 v340 v342), ∀ a x, ((![v340, v342] : Fin 2 → IVec S16 32) a x).toNat < S64x200.size a := fun v340 v342 k1_hw223 => k1_hw223
def k1_off116 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_150 : BitVec 32 := 400#32
  let v344 : BitVec 32 := Scalar.muli arg14 c400_i32_150
  let c176_i32_151 : BitVec 32 := 176#32
  let v345 : BitVec 32 := Scalar.addi v344 c176_i32_151
  let v346 : Index := Scalar.indexCast v345
  ![v346.toNat]

def k1_chk224 (v350 : IVec S16 32) : Prop :=
  (∀ a x, ((![v350] : Fin 1 → IVec S16 32) a x).toNat < S64.size a)
instance k1_chk224.dec : ∀ (v350 : IVec S16 32), Decidable (k1_chk224 v350) := fun v350 => decidable_of_iff' _ (Iff.of_eq (k1_chk224.eq_1 v350))
theorem k1_idx224_inb : ∀ (v350 : IVec S16 32) (k1_hw224 : k1_chk224 v350), ∀ a x, ((![v350] : Fin 1 → IVec S16 32) a x).toNat < S64.size a := fun v350 k1_hw224 => k1_hw224

def k1_chk225 (v14 : IVec S16 32) (v355 : IVec S16 32) : Prop :=
  (∀ a x, ((![v355, v14] : Fin 2 → IVec S16 32) a x).toNat < S64x200.size a)
instance k1_chk225.dec : ∀ (v14 : IVec S16 32) (v355 : IVec S16 32), Decidable (k1_chk225 v14 v355) := fun v14 v355 => decidable_of_iff' _ (Iff.of_eq (k1_chk225.eq_1 v14 v355))
theorem k1_idx225_inb : ∀ (v14 : IVec S16 32) (v355 : IVec S16 32) (k1_hw225 : k1_chk225 v14 v355), ∀ a x, ((![v355, v14] : Fin 2 → IVec S16 32) a x).toNat < S64x200.size a := fun v14 v355 k1_hw225 => k1_hw225
def k1_off117 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_154 : BitVec 32 := 400#32
  let v357 : BitVec 32 := Scalar.muli arg14 c400_i32_154
  let c192_i32_155 : BitVec 32 := 192#32
  let v358 : BitVec 32 := Scalar.addi v357 c192_i32_155
  let v359 : Index := Scalar.indexCast v358
  ![v359.toNat]

def k1_chk226 (v363 : IVec S16 32) : Prop :=
  (∀ a x, ((![v363] : Fin 1 → IVec S16 32) a x).toNat < S64.size a)
instance k1_chk226.dec : ∀ (v363 : IVec S16 32), Decidable (k1_chk226 v363) := fun v363 => decidable_of_iff' _ (Iff.of_eq (k1_chk226.eq_1 v363))
theorem k1_idx226_inb : ∀ (v363 : IVec S16 32) (k1_hw226 : k1_chk226 v363), ∀ a x, ((![v363] : Fin 1 → IVec S16 32) a x).toNat < S64.size a := fun v363 k1_hw226 => k1_hw226

def k1_chk227 (v367 : IVec S16 32) (v369 : IVec S16 32) : Prop :=
  (∀ a x, ((![v367, v369] : Fin 2 → IVec S16 32) a x).toNat < S64x200.size a)
instance k1_chk227.dec : ∀ (v367 : IVec S16 32) (v369 : IVec S16 32), Decidable (k1_chk227 v367 v369) := fun v367 v369 => decidable_of_iff' _ (Iff.of_eq (k1_chk227.eq_1 v367 v369))
theorem k1_idx227_inb : ∀ (v367 : IVec S16 32) (v369 : IVec S16 32) (k1_hw227 : k1_chk227 v367 v369), ∀ a x, ((![v367, v369] : Fin 2 → IVec S16 32) a x).toNat < S64x200.size a := fun v367 v369 k1_hw227 => k1_hw227
def k1_off118 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_159 : BitVec 32 := 400#32
  let v371 : BitVec 32 := Scalar.muli arg14 c400_i32_159
  let c208_i32 : BitVec 32 := 208#32
  let v372 : BitVec 32 := Scalar.addi v371 c208_i32
  let v373 : Index := Scalar.indexCast v372
  ![v373.toNat]

def k1_chk228 (v377 : IVec S16 32) : Prop :=
  (∀ a x, ((![v377] : Fin 1 → IVec S16 32) a x).toNat < S64.size a)
instance k1_chk228.dec : ∀ (v377 : IVec S16 32), Decidable (k1_chk228 v377) := fun v377 => decidable_of_iff' _ (Iff.of_eq (k1_chk228.eq_1 v377))
theorem k1_idx228_inb : ∀ (v377 : IVec S16 32) (k1_hw228 : k1_chk228 v377), ∀ a x, ((![v377] : Fin 1 → IVec S16 32) a x).toNat < S64.size a := fun v377 k1_hw228 => k1_hw228

def k1_chk229 (v381 : IVec S16 32) (v383 : IVec S16 32) : Prop :=
  (∀ a x, ((![v381, v383] : Fin 2 → IVec S16 32) a x).toNat < S64x200.size a)
instance k1_chk229.dec : ∀ (v381 : IVec S16 32) (v383 : IVec S16 32), Decidable (k1_chk229 v381 v383) := fun v381 v383 => decidable_of_iff' _ (Iff.of_eq (k1_chk229.eq_1 v381 v383))
theorem k1_idx229_inb : ∀ (v381 : IVec S16 32) (v383 : IVec S16 32) (k1_hw229 : k1_chk229 v381 v383), ∀ a x, ((![v381, v383] : Fin 2 → IVec S16 32) a x).toNat < S64x200.size a := fun v381 v383 k1_hw229 => k1_hw229
def k1_off119 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_162 : BitVec 32 := 400#32
  let v385 : BitVec 32 := Scalar.muli arg14 c400_i32_162
  let c224_i32 : BitVec 32 := 224#32
  let v386 : BitVec 32 := Scalar.addi v385 c224_i32
  let v387 : Index := Scalar.indexCast v386
  ![v387.toNat]

def k1_chk230 (v391 : IVec S16 32) : Prop :=
  (∀ a x, ((![v391] : Fin 1 → IVec S16 32) a x).toNat < S64.size a)
instance k1_chk230.dec : ∀ (v391 : IVec S16 32), Decidable (k1_chk230 v391) := fun v391 => decidable_of_iff' _ (Iff.of_eq (k1_chk230.eq_1 v391))
theorem k1_idx230_inb : ∀ (v391 : IVec S16 32) (k1_hw230 : k1_chk230 v391), ∀ a x, ((![v391] : Fin 1 → IVec S16 32) a x).toNat < S64.size a := fun v391 k1_hw230 => k1_hw230

def k1_chk231 (v395 : IVec S16 32) (v397 : IVec S16 32) : Prop :=
  (∀ a x, ((![v395, v397] : Fin 2 → IVec S16 32) a x).toNat < S64x200.size a)
instance k1_chk231.dec : ∀ (v395 : IVec S16 32) (v397 : IVec S16 32), Decidable (k1_chk231 v395 v397) := fun v395 v397 => decidable_of_iff' _ (Iff.of_eq (k1_chk231.eq_1 v395 v397))
theorem k1_idx231_inb : ∀ (v395 : IVec S16 32) (v397 : IVec S16 32) (k1_hw231 : k1_chk231 v395 v397), ∀ a x, ((![v395, v397] : Fin 2 → IVec S16 32) a x).toNat < S64x200.size a := fun v395 v397 k1_hw231 => k1_hw231
def k1_off120 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_165 : BitVec 32 := 400#32
  let v399 : BitVec 32 := Scalar.muli arg14 c400_i32_165
  let c240_i32 : BitVec 32 := 240#32
  let v400 : BitVec 32 := Scalar.addi v399 c240_i32
  let v401 : Index := Scalar.indexCast v400
  ![v401.toNat]

def k1_chk232 (v405 : IVec S16 32) : Prop :=
  (∀ a x, ((![v405] : Fin 1 → IVec S16 32) a x).toNat < S64.size a)
instance k1_chk232.dec : ∀ (v405 : IVec S16 32), Decidable (k1_chk232 v405) := fun v405 => decidable_of_iff' _ (Iff.of_eq (k1_chk232.eq_1 v405))
theorem k1_idx232_inb : ∀ (v405 : IVec S16 32) (k1_hw232 : k1_chk232 v405), ∀ a x, ((![v405] : Fin 1 → IVec S16 32) a x).toNat < S64.size a := fun v405 k1_hw232 => k1_hw232

def k1_chk233 (v409 : IVec S16 32) (v411 : IVec S16 32) : Prop :=
  (∀ a x, ((![v409, v411] : Fin 2 → IVec S16 32) a x).toNat < S64x200.size a)
instance k1_chk233.dec : ∀ (v409 : IVec S16 32) (v411 : IVec S16 32), Decidable (k1_chk233 v409 v411) := fun v409 v411 => decidable_of_iff' _ (Iff.of_eq (k1_chk233.eq_1 v409 v411))
theorem k1_idx233_inb : ∀ (v409 : IVec S16 32) (v411 : IVec S16 32) (k1_hw233 : k1_chk233 v409 v411), ∀ a x, ((![v409, v411] : Fin 2 → IVec S16 32) a x).toNat < S64x200.size a := fun v409 v411 k1_hw233 => k1_hw233
def k1_off121 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_168 : BitVec 32 := 400#32
  let v413 : BitVec 32 := Scalar.muli arg14 c400_i32_168
  let c256_i32_169 : BitVec 32 := 256#32
  let v414 : BitVec 32 := Scalar.addi v413 c256_i32_169
  let v415 : Index := Scalar.indexCast v414
  ![v415.toNat]

def k1_chk234 (v419 : IVec S16 32) : Prop :=
  (∀ a x, ((![v419] : Fin 1 → IVec S16 32) a x).toNat < S64.size a)
instance k1_chk234.dec : ∀ (v419 : IVec S16 32), Decidable (k1_chk234 v419) := fun v419 => decidable_of_iff' _ (Iff.of_eq (k1_chk234.eq_1 v419))
theorem k1_idx234_inb : ∀ (v419 : IVec S16 32) (k1_hw234 : k1_chk234 v419), ∀ a x, ((![v419] : Fin 1 → IVec S16 32) a x).toNat < S64.size a := fun v419 k1_hw234 => k1_hw234

def k1_chk235 (v423 : IVec S16 32) (v425 : IVec S16 32) : Prop :=
  (∀ a x, ((![v423, v425] : Fin 2 → IVec S16 32) a x).toNat < S64x200.size a)
instance k1_chk235.dec : ∀ (v423 : IVec S16 32) (v425 : IVec S16 32), Decidable (k1_chk235 v423 v425) := fun v423 v425 => decidable_of_iff' _ (Iff.of_eq (k1_chk235.eq_1 v423 v425))
theorem k1_idx235_inb : ∀ (v423 : IVec S16 32) (v425 : IVec S16 32) (k1_hw235 : k1_chk235 v423 v425), ∀ a x, ((![v423, v425] : Fin 2 → IVec S16 32) a x).toNat < S64x200.size a := fun v423 v425 k1_hw235 => k1_hw235
def k1_off122 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_172 : BitVec 32 := 400#32
  let v427 : BitVec 32 := Scalar.muli arg14 c400_i32_172
  let c272_i32 : BitVec 32 := 272#32
  let v428 : BitVec 32 := Scalar.addi v427 c272_i32
  let v429 : Index := Scalar.indexCast v428
  ![v429.toNat]

def k1_chk236 (v433 : IVec S16 32) : Prop :=
  (∀ a x, ((![v433] : Fin 1 → IVec S16 32) a x).toNat < S64.size a)
instance k1_chk236.dec : ∀ (v433 : IVec S16 32), Decidable (k1_chk236 v433) := fun v433 => decidable_of_iff' _ (Iff.of_eq (k1_chk236.eq_1 v433))
theorem k1_idx236_inb : ∀ (v433 : IVec S16 32) (k1_hw236 : k1_chk236 v433), ∀ a x, ((![v433] : Fin 1 → IVec S16 32) a x).toNat < S64.size a := fun v433 k1_hw236 => k1_hw236

def k1_chk237 (v437 : IVec S16 32) (v439 : IVec S16 32) : Prop :=
  (∀ a x, ((![v437, v439] : Fin 2 → IVec S16 32) a x).toNat < S64x200.size a)
instance k1_chk237.dec : ∀ (v437 : IVec S16 32) (v439 : IVec S16 32), Decidable (k1_chk237 v437 v439) := fun v437 v439 => decidable_of_iff' _ (Iff.of_eq (k1_chk237.eq_1 v437 v439))
theorem k1_idx237_inb : ∀ (v437 : IVec S16 32) (v439 : IVec S16 32) (k1_hw237 : k1_chk237 v437 v439), ∀ a x, ((![v437, v439] : Fin 2 → IVec S16 32) a x).toNat < S64x200.size a := fun v437 v439 k1_hw237 => k1_hw237
def k1_off123 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_175 : BitVec 32 := 400#32
  let v441 : BitVec 32 := Scalar.muli arg14 c400_i32_175
  let c288_i32 : BitVec 32 := 288#32
  let v442 : BitVec 32 := Scalar.addi v441 c288_i32
  let v443 : Index := Scalar.indexCast v442
  ![v443.toNat]

def k1_chk238 (v447 : IVec S16 32) : Prop :=
  (∀ a x, ((![v447] : Fin 1 → IVec S16 32) a x).toNat < S64.size a)
instance k1_chk238.dec : ∀ (v447 : IVec S16 32), Decidable (k1_chk238 v447) := fun v447 => decidable_of_iff' _ (Iff.of_eq (k1_chk238.eq_1 v447))
theorem k1_idx238_inb : ∀ (v447 : IVec S16 32) (k1_hw238 : k1_chk238 v447), ∀ a x, ((![v447] : Fin 1 → IVec S16 32) a x).toNat < S64.size a := fun v447 k1_hw238 => k1_hw238

def k1_chk239 (v451 : IVec S16 32) (v453 : IVec S16 32) : Prop :=
  (∀ a x, ((![v451, v453] : Fin 2 → IVec S16 32) a x).toNat < S64x200.size a)
instance k1_chk239.dec : ∀ (v451 : IVec S16 32) (v453 : IVec S16 32), Decidable (k1_chk239 v451 v453) := fun v451 v453 => decidable_of_iff' _ (Iff.of_eq (k1_chk239.eq_1 v451 v453))
theorem k1_idx239_inb : ∀ (v451 : IVec S16 32) (v453 : IVec S16 32) (k1_hw239 : k1_chk239 v451 v453), ∀ a x, ((![v451, v453] : Fin 2 → IVec S16 32) a x).toNat < S64x200.size a := fun v451 v453 k1_hw239 => k1_hw239
def k1_off124 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_178 : BitVec 32 := 400#32
  let v455 : BitVec 32 := Scalar.muli arg14 c400_i32_178
  let c304_i32 : BitVec 32 := 304#32
  let v456 : BitVec 32 := Scalar.addi v455 c304_i32
  let v457 : Index := Scalar.indexCast v456
  ![v457.toNat]

def k1_chk240 (v461 : IVec S16 32) : Prop :=
  (∀ a x, ((![v461] : Fin 1 → IVec S16 32) a x).toNat < S64.size a)
instance k1_chk240.dec : ∀ (v461 : IVec S16 32), Decidable (k1_chk240 v461) := fun v461 => decidable_of_iff' _ (Iff.of_eq (k1_chk240.eq_1 v461))
theorem k1_idx240_inb : ∀ (v461 : IVec S16 32) (k1_hw240 : k1_chk240 v461), ∀ a x, ((![v461] : Fin 1 → IVec S16 32) a x).toNat < S64.size a := fun v461 k1_hw240 => k1_hw240

def k1_chk241 (v465 : IVec S16 32) (v467 : IVec S16 32) : Prop :=
  (∀ a x, ((![v465, v467] : Fin 2 → IVec S16 32) a x).toNat < S64x200.size a)
instance k1_chk241.dec : ∀ (v465 : IVec S16 32) (v467 : IVec S16 32), Decidable (k1_chk241 v465 v467) := fun v465 v467 => decidable_of_iff' _ (Iff.of_eq (k1_chk241.eq_1 v465 v467))
theorem k1_idx241_inb : ∀ (v465 : IVec S16 32) (v467 : IVec S16 32) (k1_hw241 : k1_chk241 v465 v467), ∀ a x, ((![v465, v467] : Fin 2 → IVec S16 32) a x).toNat < S64x200.size a := fun v465 v467 k1_hw241 => k1_hw241
def k1_off125 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_181 : BitVec 32 := 400#32
  let v469 : BitVec 32 := Scalar.muli arg14 c400_i32_181
  let c320_i32_182 : BitVec 32 := 320#32
  let v470 : BitVec 32 := Scalar.addi v469 c320_i32_182
  let v471 : Index := Scalar.indexCast v470
  ![v471.toNat]

def k1_chk242 (v475 : IVec S16 32) : Prop :=
  (∀ a x, ((![v475] : Fin 1 → IVec S16 32) a x).toNat < S64.size a)
instance k1_chk242.dec : ∀ (v475 : IVec S16 32), Decidable (k1_chk242 v475) := fun v475 => decidable_of_iff' _ (Iff.of_eq (k1_chk242.eq_1 v475))
theorem k1_idx242_inb : ∀ (v475 : IVec S16 32) (k1_hw242 : k1_chk242 v475), ∀ a x, ((![v475] : Fin 1 → IVec S16 32) a x).toNat < S64.size a := fun v475 k1_hw242 => k1_hw242

def k1_chk243 (v479 : IVec S16 32) (v481 : IVec S16 32) : Prop :=
  (∀ a x, ((![v479, v481] : Fin 2 → IVec S16 32) a x).toNat < S64x200.size a)
instance k1_chk243.dec : ∀ (v479 : IVec S16 32) (v481 : IVec S16 32), Decidable (k1_chk243 v479 v481) := fun v479 v481 => decidable_of_iff' _ (Iff.of_eq (k1_chk243.eq_1 v479 v481))
theorem k1_idx243_inb : ∀ (v479 : IVec S16 32) (v481 : IVec S16 32) (k1_hw243 : k1_chk243 v479 v481), ∀ a x, ((![v479, v481] : Fin 2 → IVec S16 32) a x).toNat < S64x200.size a := fun v479 v481 k1_hw243 => k1_hw243
def k1_off126 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_185 : BitVec 32 := 400#32
  let v483 : BitVec 32 := Scalar.muli arg14 c400_i32_185
  let c336_i32 : BitVec 32 := 336#32
  let v484 : BitVec 32 := Scalar.addi v483 c336_i32
  let v485 : Index := Scalar.indexCast v484
  ![v485.toNat]

def k1_chk244 (v489 : IVec S16 32) : Prop :=
  (∀ a x, ((![v489] : Fin 1 → IVec S16 32) a x).toNat < S64.size a)
instance k1_chk244.dec : ∀ (v489 : IVec S16 32), Decidable (k1_chk244 v489) := fun v489 => decidable_of_iff' _ (Iff.of_eq (k1_chk244.eq_1 v489))
theorem k1_idx244_inb : ∀ (v489 : IVec S16 32) (k1_hw244 : k1_chk244 v489), ∀ a x, ((![v489] : Fin 1 → IVec S16 32) a x).toNat < S64.size a := fun v489 k1_hw244 => k1_hw244

def k1_chk245 (v493 : IVec S16 32) (v495 : IVec S16 32) : Prop :=
  (∀ a x, ((![v493, v495] : Fin 2 → IVec S16 32) a x).toNat < S64x200.size a)
instance k1_chk245.dec : ∀ (v493 : IVec S16 32) (v495 : IVec S16 32), Decidable (k1_chk245 v493 v495) := fun v493 v495 => decidable_of_iff' _ (Iff.of_eq (k1_chk245.eq_1 v493 v495))
theorem k1_idx245_inb : ∀ (v493 : IVec S16 32) (v495 : IVec S16 32) (k1_hw245 : k1_chk245 v493 v495), ∀ a x, ((![v493, v495] : Fin 2 → IVec S16 32) a x).toNat < S64x200.size a := fun v493 v495 k1_hw245 => k1_hw245
def k1_off127 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_188 : BitVec 32 := 400#32
  let v497 : BitVec 32 := Scalar.muli arg14 c400_i32_188
  let c352_i32 : BitVec 32 := 352#32
  let v498 : BitVec 32 := Scalar.addi v497 c352_i32
  let v499 : Index := Scalar.indexCast v498
  ![v499.toNat]

def k1_chk246 (v503 : IVec S16 32) : Prop :=
  (∀ a x, ((![v503] : Fin 1 → IVec S16 32) a x).toNat < S64.size a)
instance k1_chk246.dec : ∀ (v503 : IVec S16 32), Decidable (k1_chk246 v503) := fun v503 => decidable_of_iff' _ (Iff.of_eq (k1_chk246.eq_1 v503))
theorem k1_idx246_inb : ∀ (v503 : IVec S16 32) (k1_hw246 : k1_chk246 v503), ∀ a x, ((![v503] : Fin 1 → IVec S16 32) a x).toNat < S64.size a := fun v503 k1_hw246 => k1_hw246

def k1_chk247 (v507 : IVec S16 32) (v509 : IVec S16 32) : Prop :=
  (∀ a x, ((![v507, v509] : Fin 2 → IVec S16 32) a x).toNat < S64x200.size a)
instance k1_chk247.dec : ∀ (v507 : IVec S16 32) (v509 : IVec S16 32), Decidable (k1_chk247 v507 v509) := fun v507 v509 => decidable_of_iff' _ (Iff.of_eq (k1_chk247.eq_1 v507 v509))
theorem k1_idx247_inb : ∀ (v507 : IVec S16 32) (v509 : IVec S16 32) (k1_hw247 : k1_chk247 v507 v509), ∀ a x, ((![v507, v509] : Fin 2 → IVec S16 32) a x).toNat < S64x200.size a := fun v507 v509 k1_hw247 => k1_hw247
def k1_off128 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_191 : BitVec 32 := 400#32
  let v511 : BitVec 32 := Scalar.muli arg14 c400_i32_191
  let c368_i32 : BitVec 32 := 368#32
  let v512 : BitVec 32 := Scalar.addi v511 c368_i32
  let v513 : Index := Scalar.indexCast v512
  ![v513.toNat]

def k1_chk248 (v517 : IVec S16 32) : Prop :=
  (∀ a x, ((![v517] : Fin 1 → IVec S16 32) a x).toNat < S64.size a)
instance k1_chk248.dec : ∀ (v517 : IVec S16 32), Decidable (k1_chk248 v517) := fun v517 => decidable_of_iff' _ (Iff.of_eq (k1_chk248.eq_1 v517))
theorem k1_idx248_inb : ∀ (v517 : IVec S16 32) (k1_hw248 : k1_chk248 v517), ∀ a x, ((![v517] : Fin 1 → IVec S16 32) a x).toNat < S64.size a := fun v517 k1_hw248 => k1_hw248

def k1_chk249 (v521 : IVec S16 32) (v523 : IVec S16 32) : Prop :=
  (∀ a x, ((![v521, v523] : Fin 2 → IVec S16 32) a x).toNat < S64x200.size a)
instance k1_chk249.dec : ∀ (v521 : IVec S16 32) (v523 : IVec S16 32), Decidable (k1_chk249 v521 v523) := fun v521 v523 => decidable_of_iff' _ (Iff.of_eq (k1_chk249.eq_1 v521 v523))
theorem k1_idx249_inb : ∀ (v521 : IVec S16 32) (v523 : IVec S16 32) (k1_hw249 : k1_chk249 v521 v523), ∀ a x, ((![v521, v523] : Fin 2 → IVec S16 32) a x).toNat < S64x200.size a := fun v521 v523 k1_hw249 => k1_hw249
def k1_off129 (k1_t5 : Fin k1_t5_loop.trips) : Fin 1 → Nat :=
  let c0_i32_65 : BitVec 32 := 0#32
  let c1_i32_67 : BitVec 32 := 1#32
  let arg14 : BitVec 32 := Scf.iv c0_i32_65 c1_i32_67 k1_t5
  let c400_i32_194 : BitVec 32 := 400#32
  let v525 : BitVec 32 := Scalar.muli arg14 c400_i32_194
  let c384_i32_195 : BitVec 32 := 384#32
  let v526 : BitVec 32 := Scalar.addi v525 c384_i32_195
  let v527 : Index := Scalar.indexCast v526
  ![v527.toNat]

def k1_chk250 (v531 : IVec S16 32) : Prop :=
  (∀ a x, ((![v531] : Fin 1 → IVec S16 32) a x).toNat < S64.size a)
instance k1_chk250.dec : ∀ (v531 : IVec S16 32), Decidable (k1_chk250 v531) := fun v531 => decidable_of_iff' _ (Iff.of_eq (k1_chk250.eq_1 v531))
theorem k1_idx250_inb : ∀ (v531 : IVec S16 32) (k1_hw250 : k1_chk250 v531), ∀ a x, ((![v531] : Fin 1 → IVec S16 32) a x).toNat < S64.size a := fun v531 k1_hw250 => k1_hw250
@[reducible] def k1_t6_loop : Scf.Loop 32 :=
  let c0_i32_77 : BitVec 32 := 0#32
  let c32_i32_78 : BitVec 32 := 32#32
  let v147 : BitVec 32 := Scalar.addi c0_i32_77 c32_i32_78
  let c1_i32_79 : BitVec 32 := 1#32
  ⟨c0_i32_77, v147, c1_i32_79⟩

def k1_chk251 (v186 : IVec S16 32) (v188 : IVec S16 32) : Prop :=
  (∀ a x, ((![v186, v188] : Fin 2 → IVec S16 32) a x).toNat < S64x200.size a)
instance k1_chk251.dec : ∀ (v186 : IVec S16 32) (v188 : IVec S16 32), Decidable (k1_chk251 v186 v188) := fun v186 v188 => decidable_of_iff' _ (Iff.of_eq (k1_chk251.eq_1 v186 v188))
theorem k1_idx251_inb : ∀ (v186 : IVec S16 32) (v188 : IVec S16 32) (k1_hw251 : k1_chk251 v186 v188), ∀ a x, ((![v186, v188] : Fin 2 → IVec S16 32) a x).toNat < S64x200.size a := fun v186 v188 k1_hw251 => k1_hw251
def k1_off130 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32 : BitVec 32 := 400#32
  let v190 : BitVec 32 := Scalar.muli arg14 c400_i32
  let c0_i32_104 : BitVec 32 := 0#32
  let v191 : BitVec 32 := Scalar.addi v190 c0_i32_104
  let v192 : Index := Scalar.indexCast v191
  ![v192.toNat]

def k1_chk252 (v196 : IVec S16 32) : Prop :=
  (∀ a x, ((![v196] : Fin 1 → IVec S16 32) a x).toNat < S64.size a)
instance k1_chk252.dec : ∀ (v196 : IVec S16 32), Decidable (k1_chk252 v196) := fun v196 => decidable_of_iff' _ (Iff.of_eq (k1_chk252.eq_1 v196))
theorem k1_idx252_inb : ∀ (v196 : IVec S16 32) (k1_hw252 : k1_chk252 v196), ∀ a x, ((![v196] : Fin 1 → IVec S16 32) a x).toNat < S64.size a := fun v196 k1_hw252 => k1_hw252

def k1_chk253 (v200 : IVec S16 32) (v202 : IVec S16 32) : Prop :=
  (∀ a x, ((![v200, v202] : Fin 2 → IVec S16 32) a x).toNat < S64x200.size a)
instance k1_chk253.dec : ∀ (v200 : IVec S16 32) (v202 : IVec S16 32), Decidable (k1_chk253 v200 v202) := fun v200 v202 => decidable_of_iff' _ (Iff.of_eq (k1_chk253.eq_1 v200 v202))
theorem k1_idx253_inb : ∀ (v200 : IVec S16 32) (v202 : IVec S16 32) (k1_hw253 : k1_chk253 v200 v202), ∀ a x, ((![v200, v202] : Fin 2 → IVec S16 32) a x).toNat < S64x200.size a := fun v200 v202 k1_hw253 => k1_hw253
def k1_off131 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_107 : BitVec 32 := 400#32
  let v204 : BitVec 32 := Scalar.muli arg14 c400_i32_107
  let c16_i32_108 : BitVec 32 := 16#32
  let v205 : BitVec 32 := Scalar.addi v204 c16_i32_108
  let v206 : Index := Scalar.indexCast v205
  ![v206.toNat]

def k1_chk254 (v210 : IVec S16 32) : Prop :=
  (∀ a x, ((![v210] : Fin 1 → IVec S16 32) a x).toNat < S64.size a)
instance k1_chk254.dec : ∀ (v210 : IVec S16 32), Decidable (k1_chk254 v210) := fun v210 => decidable_of_iff' _ (Iff.of_eq (k1_chk254.eq_1 v210))
theorem k1_idx254_inb : ∀ (v210 : IVec S16 32) (k1_hw254 : k1_chk254 v210), ∀ a x, ((![v210] : Fin 1 → IVec S16 32) a x).toNat < S64.size a := fun v210 k1_hw254 => k1_hw254

def k1_chk255 (v214 : IVec S16 32) (v216 : IVec S16 32) : Prop :=
  (∀ a x, ((![v214, v216] : Fin 2 → IVec S16 32) a x).toNat < S64x200.size a)
instance k1_chk255.dec : ∀ (v214 : IVec S16 32) (v216 : IVec S16 32), Decidable (k1_chk255 v214 v216) := fun v214 v216 => decidable_of_iff' _ (Iff.of_eq (k1_chk255.eq_1 v214 v216))
theorem k1_idx255_inb : ∀ (v214 : IVec S16 32) (v216 : IVec S16 32) (k1_hw255 : k1_chk255 v214 v216), ∀ a x, ((![v214, v216] : Fin 2 → IVec S16 32) a x).toNat < S64x200.size a := fun v214 v216 k1_hw255 => k1_hw255
def k1_off132 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_112 : BitVec 32 := 400#32
  let v218 : BitVec 32 := Scalar.muli arg14 c400_i32_112
  let c32_i32_113 : BitVec 32 := 32#32
  let v219 : BitVec 32 := Scalar.addi v218 c32_i32_113
  let v220 : Index := Scalar.indexCast v219
  ![v220.toNat]

def k1_chk256 (v224 : IVec S16 32) : Prop :=
  (∀ a x, ((![v224] : Fin 1 → IVec S16 32) a x).toNat < S64.size a)
instance k1_chk256.dec : ∀ (v224 : IVec S16 32), Decidable (k1_chk256 v224) := fun v224 => decidable_of_iff' _ (Iff.of_eq (k1_chk256.eq_1 v224))
theorem k1_idx256_inb : ∀ (v224 : IVec S16 32) (k1_hw256 : k1_chk256 v224), ∀ a x, ((![v224] : Fin 1 → IVec S16 32) a x).toNat < S64.size a := fun v224 k1_hw256 => k1_hw256

def k1_chk257 (v228 : IVec S16 32) (v230 : IVec S16 32) : Prop :=
  (∀ a x, ((![v228, v230] : Fin 2 → IVec S16 32) a x).toNat < S64x200.size a)
instance k1_chk257.dec : ∀ (v228 : IVec S16 32) (v230 : IVec S16 32), Decidable (k1_chk257 v228 v230) := fun v228 v230 => decidable_of_iff' _ (Iff.of_eq (k1_chk257.eq_1 v228 v230))
theorem k1_idx257_inb : ∀ (v228 : IVec S16 32) (v230 : IVec S16 32) (k1_hw257 : k1_chk257 v228 v230), ∀ a x, ((![v228, v230] : Fin 2 → IVec S16 32) a x).toNat < S64x200.size a := fun v228 v230 k1_hw257 => k1_hw257
def k1_off133 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_116 : BitVec 32 := 400#32
  let v232 : BitVec 32 := Scalar.muli arg14 c400_i32_116
  let c48_i32_117 : BitVec 32 := 48#32
  let v233 : BitVec 32 := Scalar.addi v232 c48_i32_117
  let v234 : Index := Scalar.indexCast v233
  ![v234.toNat]

def k1_chk258 (v238 : IVec S16 32) : Prop :=
  (∀ a x, ((![v238] : Fin 1 → IVec S16 32) a x).toNat < S64.size a)
instance k1_chk258.dec : ∀ (v238 : IVec S16 32), Decidable (k1_chk258 v238) := fun v238 => decidable_of_iff' _ (Iff.of_eq (k1_chk258.eq_1 v238))
theorem k1_idx258_inb : ∀ (v238 : IVec S16 32) (k1_hw258 : k1_chk258 v238), ∀ a x, ((![v238] : Fin 1 → IVec S16 32) a x).toNat < S64.size a := fun v238 k1_hw258 => k1_hw258

def k1_chk259 (v242 : IVec S16 32) (v244 : IVec S16 32) : Prop :=
  (∀ a x, ((![v242, v244] : Fin 2 → IVec S16 32) a x).toNat < S64x200.size a)
instance k1_chk259.dec : ∀ (v242 : IVec S16 32) (v244 : IVec S16 32), Decidable (k1_chk259 v242 v244) := fun v242 v244 => decidable_of_iff' _ (Iff.of_eq (k1_chk259.eq_1 v242 v244))
theorem k1_idx259_inb : ∀ (v242 : IVec S16 32) (v244 : IVec S16 32) (k1_hw259 : k1_chk259 v242 v244), ∀ a x, ((![v242, v244] : Fin 2 → IVec S16 32) a x).toNat < S64x200.size a := fun v242 v244 k1_hw259 => k1_hw259
def k1_off134 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_121 : BitVec 32 := 400#32
  let v246 : BitVec 32 := Scalar.muli arg14 c400_i32_121
  let c64_i32_122 : BitVec 32 := 64#32
  let v247 : BitVec 32 := Scalar.addi v246 c64_i32_122
  let v248 : Index := Scalar.indexCast v247
  ![v248.toNat]

def k1_chk260 (v252 : IVec S16 32) : Prop :=
  (∀ a x, ((![v252] : Fin 1 → IVec S16 32) a x).toNat < S64.size a)
instance k1_chk260.dec : ∀ (v252 : IVec S16 32), Decidable (k1_chk260 v252) := fun v252 => decidable_of_iff' _ (Iff.of_eq (k1_chk260.eq_1 v252))
theorem k1_idx260_inb : ∀ (v252 : IVec S16 32) (k1_hw260 : k1_chk260 v252), ∀ a x, ((![v252] : Fin 1 → IVec S16 32) a x).toNat < S64.size a := fun v252 k1_hw260 => k1_hw260

def k1_chk261 (v256 : IVec S16 32) (v258 : IVec S16 32) : Prop :=
  (∀ a x, ((![v256, v258] : Fin 2 → IVec S16 32) a x).toNat < S64x200.size a)
instance k1_chk261.dec : ∀ (v256 : IVec S16 32) (v258 : IVec S16 32), Decidable (k1_chk261 v256 v258) := fun v256 v258 => decidable_of_iff' _ (Iff.of_eq (k1_chk261.eq_1 v256 v258))
theorem k1_idx261_inb : ∀ (v256 : IVec S16 32) (v258 : IVec S16 32) (k1_hw261 : k1_chk261 v256 v258), ∀ a x, ((![v256, v258] : Fin 2 → IVec S16 32) a x).toNat < S64x200.size a := fun v256 v258 k1_hw261 => k1_hw261
def k1_off135 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_125 : BitVec 32 := 400#32
  let v260 : BitVec 32 := Scalar.muli arg14 c400_i32_125
  let c80_i32_126 : BitVec 32 := 80#32
  let v261 : BitVec 32 := Scalar.addi v260 c80_i32_126
  let v262 : Index := Scalar.indexCast v261
  ![v262.toNat]

def k1_chk262 (v266 : IVec S16 32) : Prop :=
  (∀ a x, ((![v266] : Fin 1 → IVec S16 32) a x).toNat < S64.size a)
instance k1_chk262.dec : ∀ (v266 : IVec S16 32), Decidable (k1_chk262 v266) := fun v266 => decidable_of_iff' _ (Iff.of_eq (k1_chk262.eq_1 v266))
theorem k1_idx262_inb : ∀ (v266 : IVec S16 32) (k1_hw262 : k1_chk262 v266), ∀ a x, ((![v266] : Fin 1 → IVec S16 32) a x).toNat < S64.size a := fun v266 k1_hw262 => k1_hw262

def k1_chk263 (v270 : IVec S16 32) (v272 : IVec S16 32) : Prop :=
  (∀ a x, ((![v270, v272] : Fin 2 → IVec S16 32) a x).toNat < S64x200.size a)
instance k1_chk263.dec : ∀ (v270 : IVec S16 32) (v272 : IVec S16 32), Decidable (k1_chk263 v270 v272) := fun v270 v272 => decidable_of_iff' _ (Iff.of_eq (k1_chk263.eq_1 v270 v272))
theorem k1_idx263_inb : ∀ (v270 : IVec S16 32) (v272 : IVec S16 32) (k1_hw263 : k1_chk263 v270 v272), ∀ a x, ((![v270, v272] : Fin 2 → IVec S16 32) a x).toNat < S64x200.size a := fun v270 v272 k1_hw263 => k1_hw263
def k1_off136 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_129 : BitVec 32 := 400#32
  let v274 : BitVec 32 := Scalar.muli arg14 c400_i32_129
  let c96_i32_130 : BitVec 32 := 96#32
  let v275 : BitVec 32 := Scalar.addi v274 c96_i32_130
  let v276 : Index := Scalar.indexCast v275
  ![v276.toNat]

def k1_chk264 (v280 : IVec S16 32) : Prop :=
  (∀ a x, ((![v280] : Fin 1 → IVec S16 32) a x).toNat < S64.size a)
instance k1_chk264.dec : ∀ (v280 : IVec S16 32), Decidable (k1_chk264 v280) := fun v280 => decidable_of_iff' _ (Iff.of_eq (k1_chk264.eq_1 v280))
theorem k1_idx264_inb : ∀ (v280 : IVec S16 32) (k1_hw264 : k1_chk264 v280), ∀ a x, ((![v280] : Fin 1 → IVec S16 32) a x).toNat < S64.size a := fun v280 k1_hw264 => k1_hw264

def k1_chk265 (v284 : IVec S16 32) (v286 : IVec S16 32) : Prop :=
  (∀ a x, ((![v284, v286] : Fin 2 → IVec S16 32) a x).toNat < S64x200.size a)
instance k1_chk265.dec : ∀ (v284 : IVec S16 32) (v286 : IVec S16 32), Decidable (k1_chk265 v284 v286) := fun v284 v286 => decidable_of_iff' _ (Iff.of_eq (k1_chk265.eq_1 v284 v286))
theorem k1_idx265_inb : ∀ (v284 : IVec S16 32) (v286 : IVec S16 32) (k1_hw265 : k1_chk265 v284 v286), ∀ a x, ((![v284, v286] : Fin 2 → IVec S16 32) a x).toNat < S64x200.size a := fun v284 v286 k1_hw265 => k1_hw265
def k1_off137 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_133 : BitVec 32 := 400#32
  let v288 : BitVec 32 := Scalar.muli arg14 c400_i32_133
  let c112_i32_134 : BitVec 32 := 112#32
  let v289 : BitVec 32 := Scalar.addi v288 c112_i32_134
  let v290 : Index := Scalar.indexCast v289
  ![v290.toNat]

def k1_chk266 (v294 : IVec S16 32) : Prop :=
  (∀ a x, ((![v294] : Fin 1 → IVec S16 32) a x).toNat < S64.size a)
instance k1_chk266.dec : ∀ (v294 : IVec S16 32), Decidable (k1_chk266 v294) := fun v294 => decidable_of_iff' _ (Iff.of_eq (k1_chk266.eq_1 v294))
theorem k1_idx266_inb : ∀ (v294 : IVec S16 32) (k1_hw266 : k1_chk266 v294), ∀ a x, ((![v294] : Fin 1 → IVec S16 32) a x).toNat < S64.size a := fun v294 k1_hw266 => k1_hw266

def k1_chk267 (v298 : IVec S16 32) (v300 : IVec S16 32) : Prop :=
  (∀ a x, ((![v298, v300] : Fin 2 → IVec S16 32) a x).toNat < S64x200.size a)
instance k1_chk267.dec : ∀ (v298 : IVec S16 32) (v300 : IVec S16 32), Decidable (k1_chk267 v298 v300) := fun v298 v300 => decidable_of_iff' _ (Iff.of_eq (k1_chk267.eq_1 v298 v300))
theorem k1_idx267_inb : ∀ (v298 : IVec S16 32) (v300 : IVec S16 32) (k1_hw267 : k1_chk267 v298 v300), ∀ a x, ((![v298, v300] : Fin 2 → IVec S16 32) a x).toNat < S64x200.size a := fun v298 v300 k1_hw267 => k1_hw267
def k1_off138 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_138 : BitVec 32 := 400#32
  let v302 : BitVec 32 := Scalar.muli arg14 c400_i32_138
  let c128_i32_139 : BitVec 32 := 128#32
  let v303 : BitVec 32 := Scalar.addi v302 c128_i32_139
  let v304 : Index := Scalar.indexCast v303
  ![v304.toNat]

def k1_chk268 (v308 : IVec S16 32) : Prop :=
  (∀ a x, ((![v308] : Fin 1 → IVec S16 32) a x).toNat < S64.size a)
instance k1_chk268.dec : ∀ (v308 : IVec S16 32), Decidable (k1_chk268 v308) := fun v308 => decidable_of_iff' _ (Iff.of_eq (k1_chk268.eq_1 v308))
theorem k1_idx268_inb : ∀ (v308 : IVec S16 32) (k1_hw268 : k1_chk268 v308), ∀ a x, ((![v308] : Fin 1 → IVec S16 32) a x).toNat < S64.size a := fun v308 k1_hw268 => k1_hw268

def k1_chk269 (v312 : IVec S16 32) (v314 : IVec S16 32) : Prop :=
  (∀ a x, ((![v312, v314] : Fin 2 → IVec S16 32) a x).toNat < S64x200.size a)
instance k1_chk269.dec : ∀ (v312 : IVec S16 32) (v314 : IVec S16 32), Decidable (k1_chk269 v312 v314) := fun v312 v314 => decidable_of_iff' _ (Iff.of_eq (k1_chk269.eq_1 v312 v314))
theorem k1_idx269_inb : ∀ (v312 : IVec S16 32) (v314 : IVec S16 32) (k1_hw269 : k1_chk269 v312 v314), ∀ a x, ((![v312, v314] : Fin 2 → IVec S16 32) a x).toNat < S64x200.size a := fun v312 v314 k1_hw269 => k1_hw269
def k1_off139 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_142 : BitVec 32 := 400#32
  let v316 : BitVec 32 := Scalar.muli arg14 c400_i32_142
  let c144_i32_143 : BitVec 32 := 144#32
  let v317 : BitVec 32 := Scalar.addi v316 c144_i32_143
  let v318 : Index := Scalar.indexCast v317
  ![v318.toNat]

def k1_chk270 (v322 : IVec S16 32) : Prop :=
  (∀ a x, ((![v322] : Fin 1 → IVec S16 32) a x).toNat < S64.size a)
instance k1_chk270.dec : ∀ (v322 : IVec S16 32), Decidable (k1_chk270 v322) := fun v322 => decidable_of_iff' _ (Iff.of_eq (k1_chk270.eq_1 v322))
theorem k1_idx270_inb : ∀ (v322 : IVec S16 32) (k1_hw270 : k1_chk270 v322), ∀ a x, ((![v322] : Fin 1 → IVec S16 32) a x).toNat < S64.size a := fun v322 k1_hw270 => k1_hw270

def k1_chk271 (v326 : IVec S16 32) (v328 : IVec S16 32) : Prop :=
  (∀ a x, ((![v326, v328] : Fin 2 → IVec S16 32) a x).toNat < S64x200.size a)
instance k1_chk271.dec : ∀ (v326 : IVec S16 32) (v328 : IVec S16 32), Decidable (k1_chk271 v326 v328) := fun v326 v328 => decidable_of_iff' _ (Iff.of_eq (k1_chk271.eq_1 v326 v328))
theorem k1_idx271_inb : ∀ (v326 : IVec S16 32) (v328 : IVec S16 32) (k1_hw271 : k1_chk271 v326 v328), ∀ a x, ((![v326, v328] : Fin 2 → IVec S16 32) a x).toNat < S64x200.size a := fun v326 v328 k1_hw271 => k1_hw271
def k1_off140 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_146 : BitVec 32 := 400#32
  let v330 : BitVec 32 := Scalar.muli arg14 c400_i32_146
  let c160_i32_147 : BitVec 32 := 160#32
  let v331 : BitVec 32 := Scalar.addi v330 c160_i32_147
  let v332 : Index := Scalar.indexCast v331
  ![v332.toNat]

def k1_chk272 (v336 : IVec S16 32) : Prop :=
  (∀ a x, ((![v336] : Fin 1 → IVec S16 32) a x).toNat < S64.size a)
instance k1_chk272.dec : ∀ (v336 : IVec S16 32), Decidable (k1_chk272 v336) := fun v336 => decidable_of_iff' _ (Iff.of_eq (k1_chk272.eq_1 v336))
theorem k1_idx272_inb : ∀ (v336 : IVec S16 32) (k1_hw272 : k1_chk272 v336), ∀ a x, ((![v336] : Fin 1 → IVec S16 32) a x).toNat < S64.size a := fun v336 k1_hw272 => k1_hw272

def k1_chk273 (v340 : IVec S16 32) (v342 : IVec S16 32) : Prop :=
  (∀ a x, ((![v340, v342] : Fin 2 → IVec S16 32) a x).toNat < S64x200.size a)
instance k1_chk273.dec : ∀ (v340 : IVec S16 32) (v342 : IVec S16 32), Decidable (k1_chk273 v340 v342) := fun v340 v342 => decidable_of_iff' _ (Iff.of_eq (k1_chk273.eq_1 v340 v342))
theorem k1_idx273_inb : ∀ (v340 : IVec S16 32) (v342 : IVec S16 32) (k1_hw273 : k1_chk273 v340 v342), ∀ a x, ((![v340, v342] : Fin 2 → IVec S16 32) a x).toNat < S64x200.size a := fun v340 v342 k1_hw273 => k1_hw273
def k1_off141 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_150 : BitVec 32 := 400#32
  let v344 : BitVec 32 := Scalar.muli arg14 c400_i32_150
  let c176_i32_151 : BitVec 32 := 176#32
  let v345 : BitVec 32 := Scalar.addi v344 c176_i32_151
  let v346 : Index := Scalar.indexCast v345
  ![v346.toNat]

def k1_chk274 (v350 : IVec S16 32) : Prop :=
  (∀ a x, ((![v350] : Fin 1 → IVec S16 32) a x).toNat < S64.size a)
instance k1_chk274.dec : ∀ (v350 : IVec S16 32), Decidable (k1_chk274 v350) := fun v350 => decidable_of_iff' _ (Iff.of_eq (k1_chk274.eq_1 v350))
theorem k1_idx274_inb : ∀ (v350 : IVec S16 32) (k1_hw274 : k1_chk274 v350), ∀ a x, ((![v350] : Fin 1 → IVec S16 32) a x).toNat < S64.size a := fun v350 k1_hw274 => k1_hw274

def k1_chk275 (v14 : IVec S16 32) (v355 : IVec S16 32) : Prop :=
  (∀ a x, ((![v355, v14] : Fin 2 → IVec S16 32) a x).toNat < S64x200.size a)
instance k1_chk275.dec : ∀ (v14 : IVec S16 32) (v355 : IVec S16 32), Decidable (k1_chk275 v14 v355) := fun v14 v355 => decidable_of_iff' _ (Iff.of_eq (k1_chk275.eq_1 v14 v355))
theorem k1_idx275_inb : ∀ (v14 : IVec S16 32) (v355 : IVec S16 32) (k1_hw275 : k1_chk275 v14 v355), ∀ a x, ((![v355, v14] : Fin 2 → IVec S16 32) a x).toNat < S64x200.size a := fun v14 v355 k1_hw275 => k1_hw275
def k1_off142 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_154 : BitVec 32 := 400#32
  let v357 : BitVec 32 := Scalar.muli arg14 c400_i32_154
  let c192_i32_155 : BitVec 32 := 192#32
  let v358 : BitVec 32 := Scalar.addi v357 c192_i32_155
  let v359 : Index := Scalar.indexCast v358
  ![v359.toNat]

def k1_chk276 (v363 : IVec S16 32) : Prop :=
  (∀ a x, ((![v363] : Fin 1 → IVec S16 32) a x).toNat < S64.size a)
instance k1_chk276.dec : ∀ (v363 : IVec S16 32), Decidable (k1_chk276 v363) := fun v363 => decidable_of_iff' _ (Iff.of_eq (k1_chk276.eq_1 v363))
theorem k1_idx276_inb : ∀ (v363 : IVec S16 32) (k1_hw276 : k1_chk276 v363), ∀ a x, ((![v363] : Fin 1 → IVec S16 32) a x).toNat < S64.size a := fun v363 k1_hw276 => k1_hw276

def k1_chk277 (v367 : IVec S16 32) (v369 : IVec S16 32) : Prop :=
  (∀ a x, ((![v367, v369] : Fin 2 → IVec S16 32) a x).toNat < S64x200.size a)
instance k1_chk277.dec : ∀ (v367 : IVec S16 32) (v369 : IVec S16 32), Decidable (k1_chk277 v367 v369) := fun v367 v369 => decidable_of_iff' _ (Iff.of_eq (k1_chk277.eq_1 v367 v369))
theorem k1_idx277_inb : ∀ (v367 : IVec S16 32) (v369 : IVec S16 32) (k1_hw277 : k1_chk277 v367 v369), ∀ a x, ((![v367, v369] : Fin 2 → IVec S16 32) a x).toNat < S64x200.size a := fun v367 v369 k1_hw277 => k1_hw277
def k1_off143 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_159 : BitVec 32 := 400#32
  let v371 : BitVec 32 := Scalar.muli arg14 c400_i32_159
  let c208_i32 : BitVec 32 := 208#32
  let v372 : BitVec 32 := Scalar.addi v371 c208_i32
  let v373 : Index := Scalar.indexCast v372
  ![v373.toNat]

def k1_chk278 (v377 : IVec S16 32) : Prop :=
  (∀ a x, ((![v377] : Fin 1 → IVec S16 32) a x).toNat < S64.size a)
instance k1_chk278.dec : ∀ (v377 : IVec S16 32), Decidable (k1_chk278 v377) := fun v377 => decidable_of_iff' _ (Iff.of_eq (k1_chk278.eq_1 v377))
theorem k1_idx278_inb : ∀ (v377 : IVec S16 32) (k1_hw278 : k1_chk278 v377), ∀ a x, ((![v377] : Fin 1 → IVec S16 32) a x).toNat < S64.size a := fun v377 k1_hw278 => k1_hw278

def k1_chk279 (v381 : IVec S16 32) (v383 : IVec S16 32) : Prop :=
  (∀ a x, ((![v381, v383] : Fin 2 → IVec S16 32) a x).toNat < S64x200.size a)
instance k1_chk279.dec : ∀ (v381 : IVec S16 32) (v383 : IVec S16 32), Decidable (k1_chk279 v381 v383) := fun v381 v383 => decidable_of_iff' _ (Iff.of_eq (k1_chk279.eq_1 v381 v383))
theorem k1_idx279_inb : ∀ (v381 : IVec S16 32) (v383 : IVec S16 32) (k1_hw279 : k1_chk279 v381 v383), ∀ a x, ((![v381, v383] : Fin 2 → IVec S16 32) a x).toNat < S64x200.size a := fun v381 v383 k1_hw279 => k1_hw279
def k1_off144 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_162 : BitVec 32 := 400#32
  let v385 : BitVec 32 := Scalar.muli arg14 c400_i32_162
  let c224_i32 : BitVec 32 := 224#32
  let v386 : BitVec 32 := Scalar.addi v385 c224_i32
  let v387 : Index := Scalar.indexCast v386
  ![v387.toNat]

def k1_chk280 (v391 : IVec S16 32) : Prop :=
  (∀ a x, ((![v391] : Fin 1 → IVec S16 32) a x).toNat < S64.size a)
instance k1_chk280.dec : ∀ (v391 : IVec S16 32), Decidable (k1_chk280 v391) := fun v391 => decidable_of_iff' _ (Iff.of_eq (k1_chk280.eq_1 v391))
theorem k1_idx280_inb : ∀ (v391 : IVec S16 32) (k1_hw280 : k1_chk280 v391), ∀ a x, ((![v391] : Fin 1 → IVec S16 32) a x).toNat < S64.size a := fun v391 k1_hw280 => k1_hw280

def k1_chk281 (v395 : IVec S16 32) (v397 : IVec S16 32) : Prop :=
  (∀ a x, ((![v395, v397] : Fin 2 → IVec S16 32) a x).toNat < S64x200.size a)
instance k1_chk281.dec : ∀ (v395 : IVec S16 32) (v397 : IVec S16 32), Decidable (k1_chk281 v395 v397) := fun v395 v397 => decidable_of_iff' _ (Iff.of_eq (k1_chk281.eq_1 v395 v397))
theorem k1_idx281_inb : ∀ (v395 : IVec S16 32) (v397 : IVec S16 32) (k1_hw281 : k1_chk281 v395 v397), ∀ a x, ((![v395, v397] : Fin 2 → IVec S16 32) a x).toNat < S64x200.size a := fun v395 v397 k1_hw281 => k1_hw281
def k1_off145 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_165 : BitVec 32 := 400#32
  let v399 : BitVec 32 := Scalar.muli arg14 c400_i32_165
  let c240_i32 : BitVec 32 := 240#32
  let v400 : BitVec 32 := Scalar.addi v399 c240_i32
  let v401 : Index := Scalar.indexCast v400
  ![v401.toNat]

def k1_chk282 (v405 : IVec S16 32) : Prop :=
  (∀ a x, ((![v405] : Fin 1 → IVec S16 32) a x).toNat < S64.size a)
instance k1_chk282.dec : ∀ (v405 : IVec S16 32), Decidable (k1_chk282 v405) := fun v405 => decidable_of_iff' _ (Iff.of_eq (k1_chk282.eq_1 v405))
theorem k1_idx282_inb : ∀ (v405 : IVec S16 32) (k1_hw282 : k1_chk282 v405), ∀ a x, ((![v405] : Fin 1 → IVec S16 32) a x).toNat < S64.size a := fun v405 k1_hw282 => k1_hw282

def k1_chk283 (v409 : IVec S16 32) (v411 : IVec S16 32) : Prop :=
  (∀ a x, ((![v409, v411] : Fin 2 → IVec S16 32) a x).toNat < S64x200.size a)
instance k1_chk283.dec : ∀ (v409 : IVec S16 32) (v411 : IVec S16 32), Decidable (k1_chk283 v409 v411) := fun v409 v411 => decidable_of_iff' _ (Iff.of_eq (k1_chk283.eq_1 v409 v411))
theorem k1_idx283_inb : ∀ (v409 : IVec S16 32) (v411 : IVec S16 32) (k1_hw283 : k1_chk283 v409 v411), ∀ a x, ((![v409, v411] : Fin 2 → IVec S16 32) a x).toNat < S64x200.size a := fun v409 v411 k1_hw283 => k1_hw283
def k1_off146 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_168 : BitVec 32 := 400#32
  let v413 : BitVec 32 := Scalar.muli arg14 c400_i32_168
  let c256_i32_169 : BitVec 32 := 256#32
  let v414 : BitVec 32 := Scalar.addi v413 c256_i32_169
  let v415 : Index := Scalar.indexCast v414
  ![v415.toNat]

def k1_chk284 (v419 : IVec S16 32) : Prop :=
  (∀ a x, ((![v419] : Fin 1 → IVec S16 32) a x).toNat < S64.size a)
instance k1_chk284.dec : ∀ (v419 : IVec S16 32), Decidable (k1_chk284 v419) := fun v419 => decidable_of_iff' _ (Iff.of_eq (k1_chk284.eq_1 v419))
theorem k1_idx284_inb : ∀ (v419 : IVec S16 32) (k1_hw284 : k1_chk284 v419), ∀ a x, ((![v419] : Fin 1 → IVec S16 32) a x).toNat < S64.size a := fun v419 k1_hw284 => k1_hw284

def k1_chk285 (v423 : IVec S16 32) (v425 : IVec S16 32) : Prop :=
  (∀ a x, ((![v423, v425] : Fin 2 → IVec S16 32) a x).toNat < S64x200.size a)
instance k1_chk285.dec : ∀ (v423 : IVec S16 32) (v425 : IVec S16 32), Decidable (k1_chk285 v423 v425) := fun v423 v425 => decidable_of_iff' _ (Iff.of_eq (k1_chk285.eq_1 v423 v425))
theorem k1_idx285_inb : ∀ (v423 : IVec S16 32) (v425 : IVec S16 32) (k1_hw285 : k1_chk285 v423 v425), ∀ a x, ((![v423, v425] : Fin 2 → IVec S16 32) a x).toNat < S64x200.size a := fun v423 v425 k1_hw285 => k1_hw285
def k1_off147 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_172 : BitVec 32 := 400#32
  let v427 : BitVec 32 := Scalar.muli arg14 c400_i32_172
  let c272_i32 : BitVec 32 := 272#32
  let v428 : BitVec 32 := Scalar.addi v427 c272_i32
  let v429 : Index := Scalar.indexCast v428
  ![v429.toNat]

def k1_chk286 (v433 : IVec S16 32) : Prop :=
  (∀ a x, ((![v433] : Fin 1 → IVec S16 32) a x).toNat < S64.size a)
instance k1_chk286.dec : ∀ (v433 : IVec S16 32), Decidable (k1_chk286 v433) := fun v433 => decidable_of_iff' _ (Iff.of_eq (k1_chk286.eq_1 v433))
theorem k1_idx286_inb : ∀ (v433 : IVec S16 32) (k1_hw286 : k1_chk286 v433), ∀ a x, ((![v433] : Fin 1 → IVec S16 32) a x).toNat < S64.size a := fun v433 k1_hw286 => k1_hw286

def k1_chk287 (v437 : IVec S16 32) (v439 : IVec S16 32) : Prop :=
  (∀ a x, ((![v437, v439] : Fin 2 → IVec S16 32) a x).toNat < S64x200.size a)
instance k1_chk287.dec : ∀ (v437 : IVec S16 32) (v439 : IVec S16 32), Decidable (k1_chk287 v437 v439) := fun v437 v439 => decidable_of_iff' _ (Iff.of_eq (k1_chk287.eq_1 v437 v439))
theorem k1_idx287_inb : ∀ (v437 : IVec S16 32) (v439 : IVec S16 32) (k1_hw287 : k1_chk287 v437 v439), ∀ a x, ((![v437, v439] : Fin 2 → IVec S16 32) a x).toNat < S64x200.size a := fun v437 v439 k1_hw287 => k1_hw287
def k1_off148 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_175 : BitVec 32 := 400#32
  let v441 : BitVec 32 := Scalar.muli arg14 c400_i32_175
  let c288_i32 : BitVec 32 := 288#32
  let v442 : BitVec 32 := Scalar.addi v441 c288_i32
  let v443 : Index := Scalar.indexCast v442
  ![v443.toNat]

def k1_chk288 (v447 : IVec S16 32) : Prop :=
  (∀ a x, ((![v447] : Fin 1 → IVec S16 32) a x).toNat < S64.size a)
instance k1_chk288.dec : ∀ (v447 : IVec S16 32), Decidable (k1_chk288 v447) := fun v447 => decidable_of_iff' _ (Iff.of_eq (k1_chk288.eq_1 v447))
theorem k1_idx288_inb : ∀ (v447 : IVec S16 32) (k1_hw288 : k1_chk288 v447), ∀ a x, ((![v447] : Fin 1 → IVec S16 32) a x).toNat < S64.size a := fun v447 k1_hw288 => k1_hw288

def k1_chk289 (v451 : IVec S16 32) (v453 : IVec S16 32) : Prop :=
  (∀ a x, ((![v451, v453] : Fin 2 → IVec S16 32) a x).toNat < S64x200.size a)
instance k1_chk289.dec : ∀ (v451 : IVec S16 32) (v453 : IVec S16 32), Decidable (k1_chk289 v451 v453) := fun v451 v453 => decidable_of_iff' _ (Iff.of_eq (k1_chk289.eq_1 v451 v453))
theorem k1_idx289_inb : ∀ (v451 : IVec S16 32) (v453 : IVec S16 32) (k1_hw289 : k1_chk289 v451 v453), ∀ a x, ((![v451, v453] : Fin 2 → IVec S16 32) a x).toNat < S64x200.size a := fun v451 v453 k1_hw289 => k1_hw289
def k1_off149 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_178 : BitVec 32 := 400#32
  let v455 : BitVec 32 := Scalar.muli arg14 c400_i32_178
  let c304_i32 : BitVec 32 := 304#32
  let v456 : BitVec 32 := Scalar.addi v455 c304_i32
  let v457 : Index := Scalar.indexCast v456
  ![v457.toNat]

def k1_chk290 (v461 : IVec S16 32) : Prop :=
  (∀ a x, ((![v461] : Fin 1 → IVec S16 32) a x).toNat < S64.size a)
instance k1_chk290.dec : ∀ (v461 : IVec S16 32), Decidable (k1_chk290 v461) := fun v461 => decidable_of_iff' _ (Iff.of_eq (k1_chk290.eq_1 v461))
theorem k1_idx290_inb : ∀ (v461 : IVec S16 32) (k1_hw290 : k1_chk290 v461), ∀ a x, ((![v461] : Fin 1 → IVec S16 32) a x).toNat < S64.size a := fun v461 k1_hw290 => k1_hw290

def k1_chk291 (v465 : IVec S16 32) (v467 : IVec S16 32) : Prop :=
  (∀ a x, ((![v465, v467] : Fin 2 → IVec S16 32) a x).toNat < S64x200.size a)
instance k1_chk291.dec : ∀ (v465 : IVec S16 32) (v467 : IVec S16 32), Decidable (k1_chk291 v465 v467) := fun v465 v467 => decidable_of_iff' _ (Iff.of_eq (k1_chk291.eq_1 v465 v467))
theorem k1_idx291_inb : ∀ (v465 : IVec S16 32) (v467 : IVec S16 32) (k1_hw291 : k1_chk291 v465 v467), ∀ a x, ((![v465, v467] : Fin 2 → IVec S16 32) a x).toNat < S64x200.size a := fun v465 v467 k1_hw291 => k1_hw291
def k1_off150 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_181 : BitVec 32 := 400#32
  let v469 : BitVec 32 := Scalar.muli arg14 c400_i32_181
  let c320_i32_182 : BitVec 32 := 320#32
  let v470 : BitVec 32 := Scalar.addi v469 c320_i32_182
  let v471 : Index := Scalar.indexCast v470
  ![v471.toNat]

def k1_chk292 (v475 : IVec S16 32) : Prop :=
  (∀ a x, ((![v475] : Fin 1 → IVec S16 32) a x).toNat < S64.size a)
instance k1_chk292.dec : ∀ (v475 : IVec S16 32), Decidable (k1_chk292 v475) := fun v475 => decidable_of_iff' _ (Iff.of_eq (k1_chk292.eq_1 v475))
theorem k1_idx292_inb : ∀ (v475 : IVec S16 32) (k1_hw292 : k1_chk292 v475), ∀ a x, ((![v475] : Fin 1 → IVec S16 32) a x).toNat < S64.size a := fun v475 k1_hw292 => k1_hw292

def k1_chk293 (v479 : IVec S16 32) (v481 : IVec S16 32) : Prop :=
  (∀ a x, ((![v479, v481] : Fin 2 → IVec S16 32) a x).toNat < S64x200.size a)
instance k1_chk293.dec : ∀ (v479 : IVec S16 32) (v481 : IVec S16 32), Decidable (k1_chk293 v479 v481) := fun v479 v481 => decidable_of_iff' _ (Iff.of_eq (k1_chk293.eq_1 v479 v481))
theorem k1_idx293_inb : ∀ (v479 : IVec S16 32) (v481 : IVec S16 32) (k1_hw293 : k1_chk293 v479 v481), ∀ a x, ((![v479, v481] : Fin 2 → IVec S16 32) a x).toNat < S64x200.size a := fun v479 v481 k1_hw293 => k1_hw293
def k1_off151 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_185 : BitVec 32 := 400#32
  let v483 : BitVec 32 := Scalar.muli arg14 c400_i32_185
  let c336_i32 : BitVec 32 := 336#32
  let v484 : BitVec 32 := Scalar.addi v483 c336_i32
  let v485 : Index := Scalar.indexCast v484
  ![v485.toNat]

def k1_chk294 (v489 : IVec S16 32) : Prop :=
  (∀ a x, ((![v489] : Fin 1 → IVec S16 32) a x).toNat < S64.size a)
instance k1_chk294.dec : ∀ (v489 : IVec S16 32), Decidable (k1_chk294 v489) := fun v489 => decidable_of_iff' _ (Iff.of_eq (k1_chk294.eq_1 v489))
theorem k1_idx294_inb : ∀ (v489 : IVec S16 32) (k1_hw294 : k1_chk294 v489), ∀ a x, ((![v489] : Fin 1 → IVec S16 32) a x).toNat < S64.size a := fun v489 k1_hw294 => k1_hw294

def k1_chk295 (v493 : IVec S16 32) (v495 : IVec S16 32) : Prop :=
  (∀ a x, ((![v493, v495] : Fin 2 → IVec S16 32) a x).toNat < S64x200.size a)
instance k1_chk295.dec : ∀ (v493 : IVec S16 32) (v495 : IVec S16 32), Decidable (k1_chk295 v493 v495) := fun v493 v495 => decidable_of_iff' _ (Iff.of_eq (k1_chk295.eq_1 v493 v495))
theorem k1_idx295_inb : ∀ (v493 : IVec S16 32) (v495 : IVec S16 32) (k1_hw295 : k1_chk295 v493 v495), ∀ a x, ((![v493, v495] : Fin 2 → IVec S16 32) a x).toNat < S64x200.size a := fun v493 v495 k1_hw295 => k1_hw295
def k1_off152 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_188 : BitVec 32 := 400#32
  let v497 : BitVec 32 := Scalar.muli arg14 c400_i32_188
  let c352_i32 : BitVec 32 := 352#32
  let v498 : BitVec 32 := Scalar.addi v497 c352_i32
  let v499 : Index := Scalar.indexCast v498
  ![v499.toNat]

def k1_chk296 (v503 : IVec S16 32) : Prop :=
  (∀ a x, ((![v503] : Fin 1 → IVec S16 32) a x).toNat < S64.size a)
instance k1_chk296.dec : ∀ (v503 : IVec S16 32), Decidable (k1_chk296 v503) := fun v503 => decidable_of_iff' _ (Iff.of_eq (k1_chk296.eq_1 v503))
theorem k1_idx296_inb : ∀ (v503 : IVec S16 32) (k1_hw296 : k1_chk296 v503), ∀ a x, ((![v503] : Fin 1 → IVec S16 32) a x).toNat < S64.size a := fun v503 k1_hw296 => k1_hw296

def k1_chk297 (v507 : IVec S16 32) (v509 : IVec S16 32) : Prop :=
  (∀ a x, ((![v507, v509] : Fin 2 → IVec S16 32) a x).toNat < S64x200.size a)
instance k1_chk297.dec : ∀ (v507 : IVec S16 32) (v509 : IVec S16 32), Decidable (k1_chk297 v507 v509) := fun v507 v509 => decidable_of_iff' _ (Iff.of_eq (k1_chk297.eq_1 v507 v509))
theorem k1_idx297_inb : ∀ (v507 : IVec S16 32) (v509 : IVec S16 32) (k1_hw297 : k1_chk297 v507 v509), ∀ a x, ((![v507, v509] : Fin 2 → IVec S16 32) a x).toNat < S64x200.size a := fun v507 v509 k1_hw297 => k1_hw297
def k1_off153 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_191 : BitVec 32 := 400#32
  let v511 : BitVec 32 := Scalar.muli arg14 c400_i32_191
  let c368_i32 : BitVec 32 := 368#32
  let v512 : BitVec 32 := Scalar.addi v511 c368_i32
  let v513 : Index := Scalar.indexCast v512
  ![v513.toNat]

def k1_chk298 (v517 : IVec S16 32) : Prop :=
  (∀ a x, ((![v517] : Fin 1 → IVec S16 32) a x).toNat < S64.size a)
instance k1_chk298.dec : ∀ (v517 : IVec S16 32), Decidable (k1_chk298 v517) := fun v517 => decidable_of_iff' _ (Iff.of_eq (k1_chk298.eq_1 v517))
theorem k1_idx298_inb : ∀ (v517 : IVec S16 32) (k1_hw298 : k1_chk298 v517), ∀ a x, ((![v517] : Fin 1 → IVec S16 32) a x).toNat < S64.size a := fun v517 k1_hw298 => k1_hw298

def k1_chk299 (v521 : IVec S16 32) (v523 : IVec S16 32) : Prop :=
  (∀ a x, ((![v521, v523] : Fin 2 → IVec S16 32) a x).toNat < S64x200.size a)
instance k1_chk299.dec : ∀ (v521 : IVec S16 32) (v523 : IVec S16 32), Decidable (k1_chk299 v521 v523) := fun v521 v523 => decidable_of_iff' _ (Iff.of_eq (k1_chk299.eq_1 v521 v523))
theorem k1_idx299_inb : ∀ (v521 : IVec S16 32) (v523 : IVec S16 32) (k1_hw299 : k1_chk299 v521 v523), ∀ a x, ((![v521, v523] : Fin 2 → IVec S16 32) a x).toNat < S64x200.size a := fun v521 v523 k1_hw299 => k1_hw299
def k1_off154 (k1_t6 : Fin k1_t6_loop.trips) : Fin 1 → Nat :=
  let c0_i32_77 : BitVec 32 := 0#32
  let c1_i32_79 : BitVec 32 := 1#32
  let arg14 : BitVec 32 := Scf.iv c0_i32_77 c1_i32_79 k1_t6
  let c400_i32_194 : BitVec 32 := 400#32
  let v525 : BitVec 32 := Scalar.muli arg14 c400_i32_194
  let c384_i32_195 : BitVec 32 := 384#32
  let v526 : BitVec 32 := Scalar.addi v525 c384_i32_195
  let v527 : Index := Scalar.indexCast v526
  ![v527.toNat]

def k1_chk300 (v531 : IVec S16 32) : Prop :=
  (∀ a x, ((![v531] : Fin 1 → IVec S16 32) a x).toNat < S64.size a)
instance k1_chk300.dec : ∀ (v531 : IVec S16 32), Decidable (k1_chk300 v531) := fun v531 => decidable_of_iff' _ (Iff.of_eq (k1_chk300.eq_1 v531))
theorem k1_idx300_inb : ∀ (v531 : IVec S16 32) (k1_hw300 : k1_chk300 v531), ∀ a x, ((![v531] : Fin 1 → IVec S16 32) a x).toNat < S64.size a := fun v531 k1_hw300 => k1_hw300
@[reducible] def k1_t7_loop : Scf.Loop 32 :=
  let c0_i32_89 : BitVec 32 := 0#32
  let c32_i32_90 : BitVec 32 := 32#32
  let v167 : BitVec 32 := Scalar.addi c0_i32_89 c32_i32_90
  let c1_i32_91 : BitVec 32 := 1#32
  ⟨c0_i32_89, v167, c1_i32_91⟩

def k1_chk301 (v186 : IVec S16 32) (v188 : IVec S16 32) : Prop :=
  (∀ a x, ((![v186, v188] : Fin 2 → IVec S16 32) a x).toNat < S64x200.size a)
instance k1_chk301.dec : ∀ (v186 : IVec S16 32) (v188 : IVec S16 32), Decidable (k1_chk301 v186 v188) := fun v186 v188 => decidable_of_iff' _ (Iff.of_eq (k1_chk301.eq_1 v186 v188))
theorem k1_idx301_inb : ∀ (v186 : IVec S16 32) (v188 : IVec S16 32) (k1_hw301 : k1_chk301 v186 v188), ∀ a x, ((![v186, v188] : Fin 2 → IVec S16 32) a x).toNat < S64x200.size a := fun v186 v188 k1_hw301 => k1_hw301
def k1_off155 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32 : BitVec 32 := 400#32
  let v190 : BitVec 32 := Scalar.muli arg14 c400_i32
  let c0_i32_104 : BitVec 32 := 0#32
  let v191 : BitVec 32 := Scalar.addi v190 c0_i32_104
  let v192 : Index := Scalar.indexCast v191
  ![v192.toNat]

def k1_chk302 (v196 : IVec S16 32) : Prop :=
  (∀ a x, ((![v196] : Fin 1 → IVec S16 32) a x).toNat < S64.size a)
instance k1_chk302.dec : ∀ (v196 : IVec S16 32), Decidable (k1_chk302 v196) := fun v196 => decidable_of_iff' _ (Iff.of_eq (k1_chk302.eq_1 v196))
theorem k1_idx302_inb : ∀ (v196 : IVec S16 32) (k1_hw302 : k1_chk302 v196), ∀ a x, ((![v196] : Fin 1 → IVec S16 32) a x).toNat < S64.size a := fun v196 k1_hw302 => k1_hw302

def k1_chk303 (v200 : IVec S16 32) (v202 : IVec S16 32) : Prop :=
  (∀ a x, ((![v200, v202] : Fin 2 → IVec S16 32) a x).toNat < S64x200.size a)
instance k1_chk303.dec : ∀ (v200 : IVec S16 32) (v202 : IVec S16 32), Decidable (k1_chk303 v200 v202) := fun v200 v202 => decidable_of_iff' _ (Iff.of_eq (k1_chk303.eq_1 v200 v202))
theorem k1_idx303_inb : ∀ (v200 : IVec S16 32) (v202 : IVec S16 32) (k1_hw303 : k1_chk303 v200 v202), ∀ a x, ((![v200, v202] : Fin 2 → IVec S16 32) a x).toNat < S64x200.size a := fun v200 v202 k1_hw303 => k1_hw303
def k1_off156 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_107 : BitVec 32 := 400#32
  let v204 : BitVec 32 := Scalar.muli arg14 c400_i32_107
  let c16_i32_108 : BitVec 32 := 16#32
  let v205 : BitVec 32 := Scalar.addi v204 c16_i32_108
  let v206 : Index := Scalar.indexCast v205
  ![v206.toNat]

def k1_chk304 (v210 : IVec S16 32) : Prop :=
  (∀ a x, ((![v210] : Fin 1 → IVec S16 32) a x).toNat < S64.size a)
instance k1_chk304.dec : ∀ (v210 : IVec S16 32), Decidable (k1_chk304 v210) := fun v210 => decidable_of_iff' _ (Iff.of_eq (k1_chk304.eq_1 v210))
theorem k1_idx304_inb : ∀ (v210 : IVec S16 32) (k1_hw304 : k1_chk304 v210), ∀ a x, ((![v210] : Fin 1 → IVec S16 32) a x).toNat < S64.size a := fun v210 k1_hw304 => k1_hw304

def k1_chk305 (v214 : IVec S16 32) (v216 : IVec S16 32) : Prop :=
  (∀ a x, ((![v214, v216] : Fin 2 → IVec S16 32) a x).toNat < S64x200.size a)
instance k1_chk305.dec : ∀ (v214 : IVec S16 32) (v216 : IVec S16 32), Decidable (k1_chk305 v214 v216) := fun v214 v216 => decidable_of_iff' _ (Iff.of_eq (k1_chk305.eq_1 v214 v216))
theorem k1_idx305_inb : ∀ (v214 : IVec S16 32) (v216 : IVec S16 32) (k1_hw305 : k1_chk305 v214 v216), ∀ a x, ((![v214, v216] : Fin 2 → IVec S16 32) a x).toNat < S64x200.size a := fun v214 v216 k1_hw305 => k1_hw305
def k1_off157 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_112 : BitVec 32 := 400#32
  let v218 : BitVec 32 := Scalar.muli arg14 c400_i32_112
  let c32_i32_113 : BitVec 32 := 32#32
  let v219 : BitVec 32 := Scalar.addi v218 c32_i32_113
  let v220 : Index := Scalar.indexCast v219
  ![v220.toNat]

def k1_chk306 (v224 : IVec S16 32) : Prop :=
  (∀ a x, ((![v224] : Fin 1 → IVec S16 32) a x).toNat < S64.size a)
instance k1_chk306.dec : ∀ (v224 : IVec S16 32), Decidable (k1_chk306 v224) := fun v224 => decidable_of_iff' _ (Iff.of_eq (k1_chk306.eq_1 v224))
theorem k1_idx306_inb : ∀ (v224 : IVec S16 32) (k1_hw306 : k1_chk306 v224), ∀ a x, ((![v224] : Fin 1 → IVec S16 32) a x).toNat < S64.size a := fun v224 k1_hw306 => k1_hw306

def k1_chk307 (v228 : IVec S16 32) (v230 : IVec S16 32) : Prop :=
  (∀ a x, ((![v228, v230] : Fin 2 → IVec S16 32) a x).toNat < S64x200.size a)
instance k1_chk307.dec : ∀ (v228 : IVec S16 32) (v230 : IVec S16 32), Decidable (k1_chk307 v228 v230) := fun v228 v230 => decidable_of_iff' _ (Iff.of_eq (k1_chk307.eq_1 v228 v230))
theorem k1_idx307_inb : ∀ (v228 : IVec S16 32) (v230 : IVec S16 32) (k1_hw307 : k1_chk307 v228 v230), ∀ a x, ((![v228, v230] : Fin 2 → IVec S16 32) a x).toNat < S64x200.size a := fun v228 v230 k1_hw307 => k1_hw307
def k1_off158 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_116 : BitVec 32 := 400#32
  let v232 : BitVec 32 := Scalar.muli arg14 c400_i32_116
  let c48_i32_117 : BitVec 32 := 48#32
  let v233 : BitVec 32 := Scalar.addi v232 c48_i32_117
  let v234 : Index := Scalar.indexCast v233
  ![v234.toNat]

def k1_chk308 (v238 : IVec S16 32) : Prop :=
  (∀ a x, ((![v238] : Fin 1 → IVec S16 32) a x).toNat < S64.size a)
instance k1_chk308.dec : ∀ (v238 : IVec S16 32), Decidable (k1_chk308 v238) := fun v238 => decidable_of_iff' _ (Iff.of_eq (k1_chk308.eq_1 v238))
theorem k1_idx308_inb : ∀ (v238 : IVec S16 32) (k1_hw308 : k1_chk308 v238), ∀ a x, ((![v238] : Fin 1 → IVec S16 32) a x).toNat < S64.size a := fun v238 k1_hw308 => k1_hw308

def k1_chk309 (v242 : IVec S16 32) (v244 : IVec S16 32) : Prop :=
  (∀ a x, ((![v242, v244] : Fin 2 → IVec S16 32) a x).toNat < S64x200.size a)
instance k1_chk309.dec : ∀ (v242 : IVec S16 32) (v244 : IVec S16 32), Decidable (k1_chk309 v242 v244) := fun v242 v244 => decidable_of_iff' _ (Iff.of_eq (k1_chk309.eq_1 v242 v244))
theorem k1_idx309_inb : ∀ (v242 : IVec S16 32) (v244 : IVec S16 32) (k1_hw309 : k1_chk309 v242 v244), ∀ a x, ((![v242, v244] : Fin 2 → IVec S16 32) a x).toNat < S64x200.size a := fun v242 v244 k1_hw309 => k1_hw309
def k1_off159 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_121 : BitVec 32 := 400#32
  let v246 : BitVec 32 := Scalar.muli arg14 c400_i32_121
  let c64_i32_122 : BitVec 32 := 64#32
  let v247 : BitVec 32 := Scalar.addi v246 c64_i32_122
  let v248 : Index := Scalar.indexCast v247
  ![v248.toNat]

def k1_chk310 (v252 : IVec S16 32) : Prop :=
  (∀ a x, ((![v252] : Fin 1 → IVec S16 32) a x).toNat < S64.size a)
instance k1_chk310.dec : ∀ (v252 : IVec S16 32), Decidable (k1_chk310 v252) := fun v252 => decidable_of_iff' _ (Iff.of_eq (k1_chk310.eq_1 v252))
theorem k1_idx310_inb : ∀ (v252 : IVec S16 32) (k1_hw310 : k1_chk310 v252), ∀ a x, ((![v252] : Fin 1 → IVec S16 32) a x).toNat < S64.size a := fun v252 k1_hw310 => k1_hw310

def k1_chk311 (v256 : IVec S16 32) (v258 : IVec S16 32) : Prop :=
  (∀ a x, ((![v256, v258] : Fin 2 → IVec S16 32) a x).toNat < S64x200.size a)
instance k1_chk311.dec : ∀ (v256 : IVec S16 32) (v258 : IVec S16 32), Decidable (k1_chk311 v256 v258) := fun v256 v258 => decidable_of_iff' _ (Iff.of_eq (k1_chk311.eq_1 v256 v258))
theorem k1_idx311_inb : ∀ (v256 : IVec S16 32) (v258 : IVec S16 32) (k1_hw311 : k1_chk311 v256 v258), ∀ a x, ((![v256, v258] : Fin 2 → IVec S16 32) a x).toNat < S64x200.size a := fun v256 v258 k1_hw311 => k1_hw311
def k1_off160 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_125 : BitVec 32 := 400#32
  let v260 : BitVec 32 := Scalar.muli arg14 c400_i32_125
  let c80_i32_126 : BitVec 32 := 80#32
  let v261 : BitVec 32 := Scalar.addi v260 c80_i32_126
  let v262 : Index := Scalar.indexCast v261
  ![v262.toNat]

def k1_chk312 (v266 : IVec S16 32) : Prop :=
  (∀ a x, ((![v266] : Fin 1 → IVec S16 32) a x).toNat < S64.size a)
instance k1_chk312.dec : ∀ (v266 : IVec S16 32), Decidable (k1_chk312 v266) := fun v266 => decidable_of_iff' _ (Iff.of_eq (k1_chk312.eq_1 v266))
theorem k1_idx312_inb : ∀ (v266 : IVec S16 32) (k1_hw312 : k1_chk312 v266), ∀ a x, ((![v266] : Fin 1 → IVec S16 32) a x).toNat < S64.size a := fun v266 k1_hw312 => k1_hw312

def k1_chk313 (v270 : IVec S16 32) (v272 : IVec S16 32) : Prop :=
  (∀ a x, ((![v270, v272] : Fin 2 → IVec S16 32) a x).toNat < S64x200.size a)
instance k1_chk313.dec : ∀ (v270 : IVec S16 32) (v272 : IVec S16 32), Decidable (k1_chk313 v270 v272) := fun v270 v272 => decidable_of_iff' _ (Iff.of_eq (k1_chk313.eq_1 v270 v272))
theorem k1_idx313_inb : ∀ (v270 : IVec S16 32) (v272 : IVec S16 32) (k1_hw313 : k1_chk313 v270 v272), ∀ a x, ((![v270, v272] : Fin 2 → IVec S16 32) a x).toNat < S64x200.size a := fun v270 v272 k1_hw313 => k1_hw313
def k1_off161 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_129 : BitVec 32 := 400#32
  let v274 : BitVec 32 := Scalar.muli arg14 c400_i32_129
  let c96_i32_130 : BitVec 32 := 96#32
  let v275 : BitVec 32 := Scalar.addi v274 c96_i32_130
  let v276 : Index := Scalar.indexCast v275
  ![v276.toNat]

def k1_chk314 (v280 : IVec S16 32) : Prop :=
  (∀ a x, ((![v280] : Fin 1 → IVec S16 32) a x).toNat < S64.size a)
instance k1_chk314.dec : ∀ (v280 : IVec S16 32), Decidable (k1_chk314 v280) := fun v280 => decidable_of_iff' _ (Iff.of_eq (k1_chk314.eq_1 v280))
theorem k1_idx314_inb : ∀ (v280 : IVec S16 32) (k1_hw314 : k1_chk314 v280), ∀ a x, ((![v280] : Fin 1 → IVec S16 32) a x).toNat < S64.size a := fun v280 k1_hw314 => k1_hw314

def k1_chk315 (v284 : IVec S16 32) (v286 : IVec S16 32) : Prop :=
  (∀ a x, ((![v284, v286] : Fin 2 → IVec S16 32) a x).toNat < S64x200.size a)
instance k1_chk315.dec : ∀ (v284 : IVec S16 32) (v286 : IVec S16 32), Decidable (k1_chk315 v284 v286) := fun v284 v286 => decidable_of_iff' _ (Iff.of_eq (k1_chk315.eq_1 v284 v286))
theorem k1_idx315_inb : ∀ (v284 : IVec S16 32) (v286 : IVec S16 32) (k1_hw315 : k1_chk315 v284 v286), ∀ a x, ((![v284, v286] : Fin 2 → IVec S16 32) a x).toNat < S64x200.size a := fun v284 v286 k1_hw315 => k1_hw315
def k1_off162 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_133 : BitVec 32 := 400#32
  let v288 : BitVec 32 := Scalar.muli arg14 c400_i32_133
  let c112_i32_134 : BitVec 32 := 112#32
  let v289 : BitVec 32 := Scalar.addi v288 c112_i32_134
  let v290 : Index := Scalar.indexCast v289
  ![v290.toNat]

def k1_chk316 (v294 : IVec S16 32) : Prop :=
  (∀ a x, ((![v294] : Fin 1 → IVec S16 32) a x).toNat < S64.size a)
instance k1_chk316.dec : ∀ (v294 : IVec S16 32), Decidable (k1_chk316 v294) := fun v294 => decidable_of_iff' _ (Iff.of_eq (k1_chk316.eq_1 v294))
theorem k1_idx316_inb : ∀ (v294 : IVec S16 32) (k1_hw316 : k1_chk316 v294), ∀ a x, ((![v294] : Fin 1 → IVec S16 32) a x).toNat < S64.size a := fun v294 k1_hw316 => k1_hw316

def k1_chk317 (v298 : IVec S16 32) (v300 : IVec S16 32) : Prop :=
  (∀ a x, ((![v298, v300] : Fin 2 → IVec S16 32) a x).toNat < S64x200.size a)
instance k1_chk317.dec : ∀ (v298 : IVec S16 32) (v300 : IVec S16 32), Decidable (k1_chk317 v298 v300) := fun v298 v300 => decidable_of_iff' _ (Iff.of_eq (k1_chk317.eq_1 v298 v300))
theorem k1_idx317_inb : ∀ (v298 : IVec S16 32) (v300 : IVec S16 32) (k1_hw317 : k1_chk317 v298 v300), ∀ a x, ((![v298, v300] : Fin 2 → IVec S16 32) a x).toNat < S64x200.size a := fun v298 v300 k1_hw317 => k1_hw317
def k1_off163 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_138 : BitVec 32 := 400#32
  let v302 : BitVec 32 := Scalar.muli arg14 c400_i32_138
  let c128_i32_139 : BitVec 32 := 128#32
  let v303 : BitVec 32 := Scalar.addi v302 c128_i32_139
  let v304 : Index := Scalar.indexCast v303
  ![v304.toNat]

def k1_chk318 (v308 : IVec S16 32) : Prop :=
  (∀ a x, ((![v308] : Fin 1 → IVec S16 32) a x).toNat < S64.size a)
instance k1_chk318.dec : ∀ (v308 : IVec S16 32), Decidable (k1_chk318 v308) := fun v308 => decidable_of_iff' _ (Iff.of_eq (k1_chk318.eq_1 v308))
theorem k1_idx318_inb : ∀ (v308 : IVec S16 32) (k1_hw318 : k1_chk318 v308), ∀ a x, ((![v308] : Fin 1 → IVec S16 32) a x).toNat < S64.size a := fun v308 k1_hw318 => k1_hw318

def k1_chk319 (v312 : IVec S16 32) (v314 : IVec S16 32) : Prop :=
  (∀ a x, ((![v312, v314] : Fin 2 → IVec S16 32) a x).toNat < S64x200.size a)
instance k1_chk319.dec : ∀ (v312 : IVec S16 32) (v314 : IVec S16 32), Decidable (k1_chk319 v312 v314) := fun v312 v314 => decidable_of_iff' _ (Iff.of_eq (k1_chk319.eq_1 v312 v314))
theorem k1_idx319_inb : ∀ (v312 : IVec S16 32) (v314 : IVec S16 32) (k1_hw319 : k1_chk319 v312 v314), ∀ a x, ((![v312, v314] : Fin 2 → IVec S16 32) a x).toNat < S64x200.size a := fun v312 v314 k1_hw319 => k1_hw319
def k1_off164 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_142 : BitVec 32 := 400#32
  let v316 : BitVec 32 := Scalar.muli arg14 c400_i32_142
  let c144_i32_143 : BitVec 32 := 144#32
  let v317 : BitVec 32 := Scalar.addi v316 c144_i32_143
  let v318 : Index := Scalar.indexCast v317
  ![v318.toNat]

def k1_chk320 (v322 : IVec S16 32) : Prop :=
  (∀ a x, ((![v322] : Fin 1 → IVec S16 32) a x).toNat < S64.size a)
instance k1_chk320.dec : ∀ (v322 : IVec S16 32), Decidable (k1_chk320 v322) := fun v322 => decidable_of_iff' _ (Iff.of_eq (k1_chk320.eq_1 v322))
theorem k1_idx320_inb : ∀ (v322 : IVec S16 32) (k1_hw320 : k1_chk320 v322), ∀ a x, ((![v322] : Fin 1 → IVec S16 32) a x).toNat < S64.size a := fun v322 k1_hw320 => k1_hw320

def k1_chk321 (v326 : IVec S16 32) (v328 : IVec S16 32) : Prop :=
  (∀ a x, ((![v326, v328] : Fin 2 → IVec S16 32) a x).toNat < S64x200.size a)
instance k1_chk321.dec : ∀ (v326 : IVec S16 32) (v328 : IVec S16 32), Decidable (k1_chk321 v326 v328) := fun v326 v328 => decidable_of_iff' _ (Iff.of_eq (k1_chk321.eq_1 v326 v328))
theorem k1_idx321_inb : ∀ (v326 : IVec S16 32) (v328 : IVec S16 32) (k1_hw321 : k1_chk321 v326 v328), ∀ a x, ((![v326, v328] : Fin 2 → IVec S16 32) a x).toNat < S64x200.size a := fun v326 v328 k1_hw321 => k1_hw321
def k1_off165 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_146 : BitVec 32 := 400#32
  let v330 : BitVec 32 := Scalar.muli arg14 c400_i32_146
  let c160_i32_147 : BitVec 32 := 160#32
  let v331 : BitVec 32 := Scalar.addi v330 c160_i32_147
  let v332 : Index := Scalar.indexCast v331
  ![v332.toNat]

def k1_chk322 (v336 : IVec S16 32) : Prop :=
  (∀ a x, ((![v336] : Fin 1 → IVec S16 32) a x).toNat < S64.size a)
instance k1_chk322.dec : ∀ (v336 : IVec S16 32), Decidable (k1_chk322 v336) := fun v336 => decidable_of_iff' _ (Iff.of_eq (k1_chk322.eq_1 v336))
theorem k1_idx322_inb : ∀ (v336 : IVec S16 32) (k1_hw322 : k1_chk322 v336), ∀ a x, ((![v336] : Fin 1 → IVec S16 32) a x).toNat < S64.size a := fun v336 k1_hw322 => k1_hw322

def k1_chk323 (v340 : IVec S16 32) (v342 : IVec S16 32) : Prop :=
  (∀ a x, ((![v340, v342] : Fin 2 → IVec S16 32) a x).toNat < S64x200.size a)
instance k1_chk323.dec : ∀ (v340 : IVec S16 32) (v342 : IVec S16 32), Decidable (k1_chk323 v340 v342) := fun v340 v342 => decidable_of_iff' _ (Iff.of_eq (k1_chk323.eq_1 v340 v342))
theorem k1_idx323_inb : ∀ (v340 : IVec S16 32) (v342 : IVec S16 32) (k1_hw323 : k1_chk323 v340 v342), ∀ a x, ((![v340, v342] : Fin 2 → IVec S16 32) a x).toNat < S64x200.size a := fun v340 v342 k1_hw323 => k1_hw323
def k1_off166 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_150 : BitVec 32 := 400#32
  let v344 : BitVec 32 := Scalar.muli arg14 c400_i32_150
  let c176_i32_151 : BitVec 32 := 176#32
  let v345 : BitVec 32 := Scalar.addi v344 c176_i32_151
  let v346 : Index := Scalar.indexCast v345
  ![v346.toNat]

def k1_chk324 (v350 : IVec S16 32) : Prop :=
  (∀ a x, ((![v350] : Fin 1 → IVec S16 32) a x).toNat < S64.size a)
instance k1_chk324.dec : ∀ (v350 : IVec S16 32), Decidable (k1_chk324 v350) := fun v350 => decidable_of_iff' _ (Iff.of_eq (k1_chk324.eq_1 v350))
theorem k1_idx324_inb : ∀ (v350 : IVec S16 32) (k1_hw324 : k1_chk324 v350), ∀ a x, ((![v350] : Fin 1 → IVec S16 32) a x).toNat < S64.size a := fun v350 k1_hw324 => k1_hw324

def k1_chk325 (v14 : IVec S16 32) (v355 : IVec S16 32) : Prop :=
  (∀ a x, ((![v355, v14] : Fin 2 → IVec S16 32) a x).toNat < S64x200.size a)
instance k1_chk325.dec : ∀ (v14 : IVec S16 32) (v355 : IVec S16 32), Decidable (k1_chk325 v14 v355) := fun v14 v355 => decidable_of_iff' _ (Iff.of_eq (k1_chk325.eq_1 v14 v355))
theorem k1_idx325_inb : ∀ (v14 : IVec S16 32) (v355 : IVec S16 32) (k1_hw325 : k1_chk325 v14 v355), ∀ a x, ((![v355, v14] : Fin 2 → IVec S16 32) a x).toNat < S64x200.size a := fun v14 v355 k1_hw325 => k1_hw325
def k1_off167 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_154 : BitVec 32 := 400#32
  let v357 : BitVec 32 := Scalar.muli arg14 c400_i32_154
  let c192_i32_155 : BitVec 32 := 192#32
  let v358 : BitVec 32 := Scalar.addi v357 c192_i32_155
  let v359 : Index := Scalar.indexCast v358
  ![v359.toNat]

def k1_chk326 (v363 : IVec S16 32) : Prop :=
  (∀ a x, ((![v363] : Fin 1 → IVec S16 32) a x).toNat < S64.size a)
instance k1_chk326.dec : ∀ (v363 : IVec S16 32), Decidable (k1_chk326 v363) := fun v363 => decidable_of_iff' _ (Iff.of_eq (k1_chk326.eq_1 v363))
theorem k1_idx326_inb : ∀ (v363 : IVec S16 32) (k1_hw326 : k1_chk326 v363), ∀ a x, ((![v363] : Fin 1 → IVec S16 32) a x).toNat < S64.size a := fun v363 k1_hw326 => k1_hw326

def k1_chk327 (v367 : IVec S16 32) (v369 : IVec S16 32) : Prop :=
  (∀ a x, ((![v367, v369] : Fin 2 → IVec S16 32) a x).toNat < S64x200.size a)
instance k1_chk327.dec : ∀ (v367 : IVec S16 32) (v369 : IVec S16 32), Decidable (k1_chk327 v367 v369) := fun v367 v369 => decidable_of_iff' _ (Iff.of_eq (k1_chk327.eq_1 v367 v369))
theorem k1_idx327_inb : ∀ (v367 : IVec S16 32) (v369 : IVec S16 32) (k1_hw327 : k1_chk327 v367 v369), ∀ a x, ((![v367, v369] : Fin 2 → IVec S16 32) a x).toNat < S64x200.size a := fun v367 v369 k1_hw327 => k1_hw327
def k1_off168 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_159 : BitVec 32 := 400#32
  let v371 : BitVec 32 := Scalar.muli arg14 c400_i32_159
  let c208_i32 : BitVec 32 := 208#32
  let v372 : BitVec 32 := Scalar.addi v371 c208_i32
  let v373 : Index := Scalar.indexCast v372
  ![v373.toNat]

def k1_chk328 (v377 : IVec S16 32) : Prop :=
  (∀ a x, ((![v377] : Fin 1 → IVec S16 32) a x).toNat < S64.size a)
instance k1_chk328.dec : ∀ (v377 : IVec S16 32), Decidable (k1_chk328 v377) := fun v377 => decidable_of_iff' _ (Iff.of_eq (k1_chk328.eq_1 v377))
theorem k1_idx328_inb : ∀ (v377 : IVec S16 32) (k1_hw328 : k1_chk328 v377), ∀ a x, ((![v377] : Fin 1 → IVec S16 32) a x).toNat < S64.size a := fun v377 k1_hw328 => k1_hw328

def k1_chk329 (v381 : IVec S16 32) (v383 : IVec S16 32) : Prop :=
  (∀ a x, ((![v381, v383] : Fin 2 → IVec S16 32) a x).toNat < S64x200.size a)
instance k1_chk329.dec : ∀ (v381 : IVec S16 32) (v383 : IVec S16 32), Decidable (k1_chk329 v381 v383) := fun v381 v383 => decidable_of_iff' _ (Iff.of_eq (k1_chk329.eq_1 v381 v383))
theorem k1_idx329_inb : ∀ (v381 : IVec S16 32) (v383 : IVec S16 32) (k1_hw329 : k1_chk329 v381 v383), ∀ a x, ((![v381, v383] : Fin 2 → IVec S16 32) a x).toNat < S64x200.size a := fun v381 v383 k1_hw329 => k1_hw329
def k1_off169 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_162 : BitVec 32 := 400#32
  let v385 : BitVec 32 := Scalar.muli arg14 c400_i32_162
  let c224_i32 : BitVec 32 := 224#32
  let v386 : BitVec 32 := Scalar.addi v385 c224_i32
  let v387 : Index := Scalar.indexCast v386
  ![v387.toNat]

def k1_chk330 (v391 : IVec S16 32) : Prop :=
  (∀ a x, ((![v391] : Fin 1 → IVec S16 32) a x).toNat < S64.size a)
instance k1_chk330.dec : ∀ (v391 : IVec S16 32), Decidable (k1_chk330 v391) := fun v391 => decidable_of_iff' _ (Iff.of_eq (k1_chk330.eq_1 v391))
theorem k1_idx330_inb : ∀ (v391 : IVec S16 32) (k1_hw330 : k1_chk330 v391), ∀ a x, ((![v391] : Fin 1 → IVec S16 32) a x).toNat < S64.size a := fun v391 k1_hw330 => k1_hw330

def k1_chk331 (v395 : IVec S16 32) (v397 : IVec S16 32) : Prop :=
  (∀ a x, ((![v395, v397] : Fin 2 → IVec S16 32) a x).toNat < S64x200.size a)
instance k1_chk331.dec : ∀ (v395 : IVec S16 32) (v397 : IVec S16 32), Decidable (k1_chk331 v395 v397) := fun v395 v397 => decidable_of_iff' _ (Iff.of_eq (k1_chk331.eq_1 v395 v397))
theorem k1_idx331_inb : ∀ (v395 : IVec S16 32) (v397 : IVec S16 32) (k1_hw331 : k1_chk331 v395 v397), ∀ a x, ((![v395, v397] : Fin 2 → IVec S16 32) a x).toNat < S64x200.size a := fun v395 v397 k1_hw331 => k1_hw331
def k1_off170 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_165 : BitVec 32 := 400#32
  let v399 : BitVec 32 := Scalar.muli arg14 c400_i32_165
  let c240_i32 : BitVec 32 := 240#32
  let v400 : BitVec 32 := Scalar.addi v399 c240_i32
  let v401 : Index := Scalar.indexCast v400
  ![v401.toNat]

def k1_chk332 (v405 : IVec S16 32) : Prop :=
  (∀ a x, ((![v405] : Fin 1 → IVec S16 32) a x).toNat < S64.size a)
instance k1_chk332.dec : ∀ (v405 : IVec S16 32), Decidable (k1_chk332 v405) := fun v405 => decidable_of_iff' _ (Iff.of_eq (k1_chk332.eq_1 v405))
theorem k1_idx332_inb : ∀ (v405 : IVec S16 32) (k1_hw332 : k1_chk332 v405), ∀ a x, ((![v405] : Fin 1 → IVec S16 32) a x).toNat < S64.size a := fun v405 k1_hw332 => k1_hw332

def k1_chk333 (v409 : IVec S16 32) (v411 : IVec S16 32) : Prop :=
  (∀ a x, ((![v409, v411] : Fin 2 → IVec S16 32) a x).toNat < S64x200.size a)
instance k1_chk333.dec : ∀ (v409 : IVec S16 32) (v411 : IVec S16 32), Decidable (k1_chk333 v409 v411) := fun v409 v411 => decidable_of_iff' _ (Iff.of_eq (k1_chk333.eq_1 v409 v411))
theorem k1_idx333_inb : ∀ (v409 : IVec S16 32) (v411 : IVec S16 32) (k1_hw333 : k1_chk333 v409 v411), ∀ a x, ((![v409, v411] : Fin 2 → IVec S16 32) a x).toNat < S64x200.size a := fun v409 v411 k1_hw333 => k1_hw333
def k1_off171 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_168 : BitVec 32 := 400#32
  let v413 : BitVec 32 := Scalar.muli arg14 c400_i32_168
  let c256_i32_169 : BitVec 32 := 256#32
  let v414 : BitVec 32 := Scalar.addi v413 c256_i32_169
  let v415 : Index := Scalar.indexCast v414
  ![v415.toNat]

def k1_chk334 (v419 : IVec S16 32) : Prop :=
  (∀ a x, ((![v419] : Fin 1 → IVec S16 32) a x).toNat < S64.size a)
instance k1_chk334.dec : ∀ (v419 : IVec S16 32), Decidable (k1_chk334 v419) := fun v419 => decidable_of_iff' _ (Iff.of_eq (k1_chk334.eq_1 v419))
theorem k1_idx334_inb : ∀ (v419 : IVec S16 32) (k1_hw334 : k1_chk334 v419), ∀ a x, ((![v419] : Fin 1 → IVec S16 32) a x).toNat < S64.size a := fun v419 k1_hw334 => k1_hw334

def k1_chk335 (v423 : IVec S16 32) (v425 : IVec S16 32) : Prop :=
  (∀ a x, ((![v423, v425] : Fin 2 → IVec S16 32) a x).toNat < S64x200.size a)
instance k1_chk335.dec : ∀ (v423 : IVec S16 32) (v425 : IVec S16 32), Decidable (k1_chk335 v423 v425) := fun v423 v425 => decidable_of_iff' _ (Iff.of_eq (k1_chk335.eq_1 v423 v425))
theorem k1_idx335_inb : ∀ (v423 : IVec S16 32) (v425 : IVec S16 32) (k1_hw335 : k1_chk335 v423 v425), ∀ a x, ((![v423, v425] : Fin 2 → IVec S16 32) a x).toNat < S64x200.size a := fun v423 v425 k1_hw335 => k1_hw335
def k1_off172 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_172 : BitVec 32 := 400#32
  let v427 : BitVec 32 := Scalar.muli arg14 c400_i32_172
  let c272_i32 : BitVec 32 := 272#32
  let v428 : BitVec 32 := Scalar.addi v427 c272_i32
  let v429 : Index := Scalar.indexCast v428
  ![v429.toNat]

def k1_chk336 (v433 : IVec S16 32) : Prop :=
  (∀ a x, ((![v433] : Fin 1 → IVec S16 32) a x).toNat < S64.size a)
instance k1_chk336.dec : ∀ (v433 : IVec S16 32), Decidable (k1_chk336 v433) := fun v433 => decidable_of_iff' _ (Iff.of_eq (k1_chk336.eq_1 v433))
theorem k1_idx336_inb : ∀ (v433 : IVec S16 32) (k1_hw336 : k1_chk336 v433), ∀ a x, ((![v433] : Fin 1 → IVec S16 32) a x).toNat < S64.size a := fun v433 k1_hw336 => k1_hw336

def k1_chk337 (v437 : IVec S16 32) (v439 : IVec S16 32) : Prop :=
  (∀ a x, ((![v437, v439] : Fin 2 → IVec S16 32) a x).toNat < S64x200.size a)
instance k1_chk337.dec : ∀ (v437 : IVec S16 32) (v439 : IVec S16 32), Decidable (k1_chk337 v437 v439) := fun v437 v439 => decidable_of_iff' _ (Iff.of_eq (k1_chk337.eq_1 v437 v439))
theorem k1_idx337_inb : ∀ (v437 : IVec S16 32) (v439 : IVec S16 32) (k1_hw337 : k1_chk337 v437 v439), ∀ a x, ((![v437, v439] : Fin 2 → IVec S16 32) a x).toNat < S64x200.size a := fun v437 v439 k1_hw337 => k1_hw337
def k1_off173 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_175 : BitVec 32 := 400#32
  let v441 : BitVec 32 := Scalar.muli arg14 c400_i32_175
  let c288_i32 : BitVec 32 := 288#32
  let v442 : BitVec 32 := Scalar.addi v441 c288_i32
  let v443 : Index := Scalar.indexCast v442
  ![v443.toNat]

def k1_chk338 (v447 : IVec S16 32) : Prop :=
  (∀ a x, ((![v447] : Fin 1 → IVec S16 32) a x).toNat < S64.size a)
instance k1_chk338.dec : ∀ (v447 : IVec S16 32), Decidable (k1_chk338 v447) := fun v447 => decidable_of_iff' _ (Iff.of_eq (k1_chk338.eq_1 v447))
theorem k1_idx338_inb : ∀ (v447 : IVec S16 32) (k1_hw338 : k1_chk338 v447), ∀ a x, ((![v447] : Fin 1 → IVec S16 32) a x).toNat < S64.size a := fun v447 k1_hw338 => k1_hw338

def k1_chk339 (v451 : IVec S16 32) (v453 : IVec S16 32) : Prop :=
  (∀ a x, ((![v451, v453] : Fin 2 → IVec S16 32) a x).toNat < S64x200.size a)
instance k1_chk339.dec : ∀ (v451 : IVec S16 32) (v453 : IVec S16 32), Decidable (k1_chk339 v451 v453) := fun v451 v453 => decidable_of_iff' _ (Iff.of_eq (k1_chk339.eq_1 v451 v453))
theorem k1_idx339_inb : ∀ (v451 : IVec S16 32) (v453 : IVec S16 32) (k1_hw339 : k1_chk339 v451 v453), ∀ a x, ((![v451, v453] : Fin 2 → IVec S16 32) a x).toNat < S64x200.size a := fun v451 v453 k1_hw339 => k1_hw339
def k1_off174 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_178 : BitVec 32 := 400#32
  let v455 : BitVec 32 := Scalar.muli arg14 c400_i32_178
  let c304_i32 : BitVec 32 := 304#32
  let v456 : BitVec 32 := Scalar.addi v455 c304_i32
  let v457 : Index := Scalar.indexCast v456
  ![v457.toNat]

def k1_chk340 (v461 : IVec S16 32) : Prop :=
  (∀ a x, ((![v461] : Fin 1 → IVec S16 32) a x).toNat < S64.size a)
instance k1_chk340.dec : ∀ (v461 : IVec S16 32), Decidable (k1_chk340 v461) := fun v461 => decidable_of_iff' _ (Iff.of_eq (k1_chk340.eq_1 v461))
theorem k1_idx340_inb : ∀ (v461 : IVec S16 32) (k1_hw340 : k1_chk340 v461), ∀ a x, ((![v461] : Fin 1 → IVec S16 32) a x).toNat < S64.size a := fun v461 k1_hw340 => k1_hw340

def k1_chk341 (v465 : IVec S16 32) (v467 : IVec S16 32) : Prop :=
  (∀ a x, ((![v465, v467] : Fin 2 → IVec S16 32) a x).toNat < S64x200.size a)
instance k1_chk341.dec : ∀ (v465 : IVec S16 32) (v467 : IVec S16 32), Decidable (k1_chk341 v465 v467) := fun v465 v467 => decidable_of_iff' _ (Iff.of_eq (k1_chk341.eq_1 v465 v467))
theorem k1_idx341_inb : ∀ (v465 : IVec S16 32) (v467 : IVec S16 32) (k1_hw341 : k1_chk341 v465 v467), ∀ a x, ((![v465, v467] : Fin 2 → IVec S16 32) a x).toNat < S64x200.size a := fun v465 v467 k1_hw341 => k1_hw341
def k1_off175 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_181 : BitVec 32 := 400#32
  let v469 : BitVec 32 := Scalar.muli arg14 c400_i32_181
  let c320_i32_182 : BitVec 32 := 320#32
  let v470 : BitVec 32 := Scalar.addi v469 c320_i32_182
  let v471 : Index := Scalar.indexCast v470
  ![v471.toNat]

def k1_chk342 (v475 : IVec S16 32) : Prop :=
  (∀ a x, ((![v475] : Fin 1 → IVec S16 32) a x).toNat < S64.size a)
instance k1_chk342.dec : ∀ (v475 : IVec S16 32), Decidable (k1_chk342 v475) := fun v475 => decidable_of_iff' _ (Iff.of_eq (k1_chk342.eq_1 v475))
theorem k1_idx342_inb : ∀ (v475 : IVec S16 32) (k1_hw342 : k1_chk342 v475), ∀ a x, ((![v475] : Fin 1 → IVec S16 32) a x).toNat < S64.size a := fun v475 k1_hw342 => k1_hw342

def k1_chk343 (v479 : IVec S16 32) (v481 : IVec S16 32) : Prop :=
  (∀ a x, ((![v479, v481] : Fin 2 → IVec S16 32) a x).toNat < S64x200.size a)
instance k1_chk343.dec : ∀ (v479 : IVec S16 32) (v481 : IVec S16 32), Decidable (k1_chk343 v479 v481) := fun v479 v481 => decidable_of_iff' _ (Iff.of_eq (k1_chk343.eq_1 v479 v481))
theorem k1_idx343_inb : ∀ (v479 : IVec S16 32) (v481 : IVec S16 32) (k1_hw343 : k1_chk343 v479 v481), ∀ a x, ((![v479, v481] : Fin 2 → IVec S16 32) a x).toNat < S64x200.size a := fun v479 v481 k1_hw343 => k1_hw343
def k1_off176 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_185 : BitVec 32 := 400#32
  let v483 : BitVec 32 := Scalar.muli arg14 c400_i32_185
  let c336_i32 : BitVec 32 := 336#32
  let v484 : BitVec 32 := Scalar.addi v483 c336_i32
  let v485 : Index := Scalar.indexCast v484
  ![v485.toNat]

def k1_chk344 (v489 : IVec S16 32) : Prop :=
  (∀ a x, ((![v489] : Fin 1 → IVec S16 32) a x).toNat < S64.size a)
instance k1_chk344.dec : ∀ (v489 : IVec S16 32), Decidable (k1_chk344 v489) := fun v489 => decidable_of_iff' _ (Iff.of_eq (k1_chk344.eq_1 v489))
theorem k1_idx344_inb : ∀ (v489 : IVec S16 32) (k1_hw344 : k1_chk344 v489), ∀ a x, ((![v489] : Fin 1 → IVec S16 32) a x).toNat < S64.size a := fun v489 k1_hw344 => k1_hw344

def k1_chk345 (v493 : IVec S16 32) (v495 : IVec S16 32) : Prop :=
  (∀ a x, ((![v493, v495] : Fin 2 → IVec S16 32) a x).toNat < S64x200.size a)
instance k1_chk345.dec : ∀ (v493 : IVec S16 32) (v495 : IVec S16 32), Decidable (k1_chk345 v493 v495) := fun v493 v495 => decidable_of_iff' _ (Iff.of_eq (k1_chk345.eq_1 v493 v495))
theorem k1_idx345_inb : ∀ (v493 : IVec S16 32) (v495 : IVec S16 32) (k1_hw345 : k1_chk345 v493 v495), ∀ a x, ((![v493, v495] : Fin 2 → IVec S16 32) a x).toNat < S64x200.size a := fun v493 v495 k1_hw345 => k1_hw345
def k1_off177 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_188 : BitVec 32 := 400#32
  let v497 : BitVec 32 := Scalar.muli arg14 c400_i32_188
  let c352_i32 : BitVec 32 := 352#32
  let v498 : BitVec 32 := Scalar.addi v497 c352_i32
  let v499 : Index := Scalar.indexCast v498
  ![v499.toNat]

def k1_chk346 (v503 : IVec S16 32) : Prop :=
  (∀ a x, ((![v503] : Fin 1 → IVec S16 32) a x).toNat < S64.size a)
instance k1_chk346.dec : ∀ (v503 : IVec S16 32), Decidable (k1_chk346 v503) := fun v503 => decidable_of_iff' _ (Iff.of_eq (k1_chk346.eq_1 v503))
theorem k1_idx346_inb : ∀ (v503 : IVec S16 32) (k1_hw346 : k1_chk346 v503), ∀ a x, ((![v503] : Fin 1 → IVec S16 32) a x).toNat < S64.size a := fun v503 k1_hw346 => k1_hw346

def k1_chk347 (v507 : IVec S16 32) (v509 : IVec S16 32) : Prop :=
  (∀ a x, ((![v507, v509] : Fin 2 → IVec S16 32) a x).toNat < S64x200.size a)
instance k1_chk347.dec : ∀ (v507 : IVec S16 32) (v509 : IVec S16 32), Decidable (k1_chk347 v507 v509) := fun v507 v509 => decidable_of_iff' _ (Iff.of_eq (k1_chk347.eq_1 v507 v509))
theorem k1_idx347_inb : ∀ (v507 : IVec S16 32) (v509 : IVec S16 32) (k1_hw347 : k1_chk347 v507 v509), ∀ a x, ((![v507, v509] : Fin 2 → IVec S16 32) a x).toNat < S64x200.size a := fun v507 v509 k1_hw347 => k1_hw347
def k1_off178 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_191 : BitVec 32 := 400#32
  let v511 : BitVec 32 := Scalar.muli arg14 c400_i32_191
  let c368_i32 : BitVec 32 := 368#32
  let v512 : BitVec 32 := Scalar.addi v511 c368_i32
  let v513 : Index := Scalar.indexCast v512
  ![v513.toNat]

def k1_chk348 (v517 : IVec S16 32) : Prop :=
  (∀ a x, ((![v517] : Fin 1 → IVec S16 32) a x).toNat < S64.size a)
instance k1_chk348.dec : ∀ (v517 : IVec S16 32), Decidable (k1_chk348 v517) := fun v517 => decidable_of_iff' _ (Iff.of_eq (k1_chk348.eq_1 v517))
theorem k1_idx348_inb : ∀ (v517 : IVec S16 32) (k1_hw348 : k1_chk348 v517), ∀ a x, ((![v517] : Fin 1 → IVec S16 32) a x).toNat < S64.size a := fun v517 k1_hw348 => k1_hw348

def k1_chk349 (v521 : IVec S16 32) (v523 : IVec S16 32) : Prop :=
  (∀ a x, ((![v521, v523] : Fin 2 → IVec S16 32) a x).toNat < S64x200.size a)
instance k1_chk349.dec : ∀ (v521 : IVec S16 32) (v523 : IVec S16 32), Decidable (k1_chk349 v521 v523) := fun v521 v523 => decidable_of_iff' _ (Iff.of_eq (k1_chk349.eq_1 v521 v523))
theorem k1_idx349_inb : ∀ (v521 : IVec S16 32) (v523 : IVec S16 32) (k1_hw349 : k1_chk349 v521 v523), ∀ a x, ((![v521, v523] : Fin 2 → IVec S16 32) a x).toNat < S64x200.size a := fun v521 v523 k1_hw349 => k1_hw349
def k1_off179 (k1_t7 : Fin k1_t7_loop.trips) : Fin 1 → Nat :=
  let c0_i32_89 : BitVec 32 := 0#32
  let c1_i32_91 : BitVec 32 := 1#32
  let arg14 : BitVec 32 := Scf.iv c0_i32_89 c1_i32_91 k1_t7
  let c400_i32_194 : BitVec 32 := 400#32
  let v525 : BitVec 32 := Scalar.muli arg14 c400_i32_194
  let c384_i32_195 : BitVec 32 := 384#32
  let v526 : BitVec 32 := Scalar.addi v525 c384_i32_195
  let v527 : Index := Scalar.indexCast v526
  ![v527.toNat]

def k1_chk350 (v531 : IVec S16 32) : Prop :=
  (∀ a x, ((![v531] : Fin 1 → IVec S16 32) a x).toNat < S64.size a)
instance k1_chk350.dec : ∀ (v531 : IVec S16 32), Decidable (k1_chk350 v531) := fun v531 => decidable_of_iff' _ (Iff.of_eq (k1_chk350.eq_1 v531))
theorem k1_idx350_inb : ∀ (v531 : IVec S16 32) (k1_hw350 : k1_chk350 v531), ∀ a x, ((![v531] : Fin 1 → IVec S16 32) a x).toNat < S64.size a := fun v531 k1_hw350 => k1_hw350
@[reducible] def k1_t8_loop : Scf.Loop 32 :=
  let c0_i32_97 : BitVec 32 := 0#32
  let c32_i32_98 : BitVec 32 := 32#32
  let v177 : BitVec 32 := Scalar.addi c0_i32_97 c32_i32_98
  let c1_i32_99 : BitVec 32 := 1#32
  ⟨c0_i32_97, v177, c1_i32_99⟩

def k1_chk351 (v186 : IVec S16 32) (v188 : IVec S16 32) : Prop :=
  (∀ a x, ((![v186, v188] : Fin 2 → IVec S16 32) a x).toNat < S64x200.size a)
instance k1_chk351.dec : ∀ (v186 : IVec S16 32) (v188 : IVec S16 32), Decidable (k1_chk351 v186 v188) := fun v186 v188 => decidable_of_iff' _ (Iff.of_eq (k1_chk351.eq_1 v186 v188))
theorem k1_idx351_inb : ∀ (v186 : IVec S16 32) (v188 : IVec S16 32) (k1_hw351 : k1_chk351 v186 v188), ∀ a x, ((![v186, v188] : Fin 2 → IVec S16 32) a x).toNat < S64x200.size a := fun v186 v188 k1_hw351 => k1_hw351
def k1_off180 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32 : BitVec 32 := 400#32
  let v190 : BitVec 32 := Scalar.muli arg14 c400_i32
  let c0_i32_104 : BitVec 32 := 0#32
  let v191 : BitVec 32 := Scalar.addi v190 c0_i32_104
  let v192 : Index := Scalar.indexCast v191
  ![v192.toNat]

def k1_chk352 (v196 : IVec S16 32) : Prop :=
  (∀ a x, ((![v196] : Fin 1 → IVec S16 32) a x).toNat < S64.size a)
instance k1_chk352.dec : ∀ (v196 : IVec S16 32), Decidable (k1_chk352 v196) := fun v196 => decidable_of_iff' _ (Iff.of_eq (k1_chk352.eq_1 v196))
theorem k1_idx352_inb : ∀ (v196 : IVec S16 32) (k1_hw352 : k1_chk352 v196), ∀ a x, ((![v196] : Fin 1 → IVec S16 32) a x).toNat < S64.size a := fun v196 k1_hw352 => k1_hw352

def k1_chk353 (v200 : IVec S16 32) (v202 : IVec S16 32) : Prop :=
  (∀ a x, ((![v200, v202] : Fin 2 → IVec S16 32) a x).toNat < S64x200.size a)
instance k1_chk353.dec : ∀ (v200 : IVec S16 32) (v202 : IVec S16 32), Decidable (k1_chk353 v200 v202) := fun v200 v202 => decidable_of_iff' _ (Iff.of_eq (k1_chk353.eq_1 v200 v202))
theorem k1_idx353_inb : ∀ (v200 : IVec S16 32) (v202 : IVec S16 32) (k1_hw353 : k1_chk353 v200 v202), ∀ a x, ((![v200, v202] : Fin 2 → IVec S16 32) a x).toNat < S64x200.size a := fun v200 v202 k1_hw353 => k1_hw353
def k1_off181 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_107 : BitVec 32 := 400#32
  let v204 : BitVec 32 := Scalar.muli arg14 c400_i32_107
  let c16_i32_108 : BitVec 32 := 16#32
  let v205 : BitVec 32 := Scalar.addi v204 c16_i32_108
  let v206 : Index := Scalar.indexCast v205
  ![v206.toNat]

def k1_chk354 (v210 : IVec S16 32) : Prop :=
  (∀ a x, ((![v210] : Fin 1 → IVec S16 32) a x).toNat < S64.size a)
instance k1_chk354.dec : ∀ (v210 : IVec S16 32), Decidable (k1_chk354 v210) := fun v210 => decidable_of_iff' _ (Iff.of_eq (k1_chk354.eq_1 v210))
theorem k1_idx354_inb : ∀ (v210 : IVec S16 32) (k1_hw354 : k1_chk354 v210), ∀ a x, ((![v210] : Fin 1 → IVec S16 32) a x).toNat < S64.size a := fun v210 k1_hw354 => k1_hw354

def k1_chk355 (v214 : IVec S16 32) (v216 : IVec S16 32) : Prop :=
  (∀ a x, ((![v214, v216] : Fin 2 → IVec S16 32) a x).toNat < S64x200.size a)
instance k1_chk355.dec : ∀ (v214 : IVec S16 32) (v216 : IVec S16 32), Decidable (k1_chk355 v214 v216) := fun v214 v216 => decidable_of_iff' _ (Iff.of_eq (k1_chk355.eq_1 v214 v216))
theorem k1_idx355_inb : ∀ (v214 : IVec S16 32) (v216 : IVec S16 32) (k1_hw355 : k1_chk355 v214 v216), ∀ a x, ((![v214, v216] : Fin 2 → IVec S16 32) a x).toNat < S64x200.size a := fun v214 v216 k1_hw355 => k1_hw355
def k1_off182 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_112 : BitVec 32 := 400#32
  let v218 : BitVec 32 := Scalar.muli arg14 c400_i32_112
  let c32_i32_113 : BitVec 32 := 32#32
  let v219 : BitVec 32 := Scalar.addi v218 c32_i32_113
  let v220 : Index := Scalar.indexCast v219
  ![v220.toNat]

def k1_chk356 (v224 : IVec S16 32) : Prop :=
  (∀ a x, ((![v224] : Fin 1 → IVec S16 32) a x).toNat < S64.size a)
instance k1_chk356.dec : ∀ (v224 : IVec S16 32), Decidable (k1_chk356 v224) := fun v224 => decidable_of_iff' _ (Iff.of_eq (k1_chk356.eq_1 v224))
theorem k1_idx356_inb : ∀ (v224 : IVec S16 32) (k1_hw356 : k1_chk356 v224), ∀ a x, ((![v224] : Fin 1 → IVec S16 32) a x).toNat < S64.size a := fun v224 k1_hw356 => k1_hw356

def k1_chk357 (v228 : IVec S16 32) (v230 : IVec S16 32) : Prop :=
  (∀ a x, ((![v228, v230] : Fin 2 → IVec S16 32) a x).toNat < S64x200.size a)
instance k1_chk357.dec : ∀ (v228 : IVec S16 32) (v230 : IVec S16 32), Decidable (k1_chk357 v228 v230) := fun v228 v230 => decidable_of_iff' _ (Iff.of_eq (k1_chk357.eq_1 v228 v230))
theorem k1_idx357_inb : ∀ (v228 : IVec S16 32) (v230 : IVec S16 32) (k1_hw357 : k1_chk357 v228 v230), ∀ a x, ((![v228, v230] : Fin 2 → IVec S16 32) a x).toNat < S64x200.size a := fun v228 v230 k1_hw357 => k1_hw357
def k1_off183 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_116 : BitVec 32 := 400#32
  let v232 : BitVec 32 := Scalar.muli arg14 c400_i32_116
  let c48_i32_117 : BitVec 32 := 48#32
  let v233 : BitVec 32 := Scalar.addi v232 c48_i32_117
  let v234 : Index := Scalar.indexCast v233
  ![v234.toNat]

def k1_chk358 (v238 : IVec S16 32) : Prop :=
  (∀ a x, ((![v238] : Fin 1 → IVec S16 32) a x).toNat < S64.size a)
instance k1_chk358.dec : ∀ (v238 : IVec S16 32), Decidable (k1_chk358 v238) := fun v238 => decidable_of_iff' _ (Iff.of_eq (k1_chk358.eq_1 v238))
theorem k1_idx358_inb : ∀ (v238 : IVec S16 32) (k1_hw358 : k1_chk358 v238), ∀ a x, ((![v238] : Fin 1 → IVec S16 32) a x).toNat < S64.size a := fun v238 k1_hw358 => k1_hw358

def k1_chk359 (v242 : IVec S16 32) (v244 : IVec S16 32) : Prop :=
  (∀ a x, ((![v242, v244] : Fin 2 → IVec S16 32) a x).toNat < S64x200.size a)
instance k1_chk359.dec : ∀ (v242 : IVec S16 32) (v244 : IVec S16 32), Decidable (k1_chk359 v242 v244) := fun v242 v244 => decidable_of_iff' _ (Iff.of_eq (k1_chk359.eq_1 v242 v244))
theorem k1_idx359_inb : ∀ (v242 : IVec S16 32) (v244 : IVec S16 32) (k1_hw359 : k1_chk359 v242 v244), ∀ a x, ((![v242, v244] : Fin 2 → IVec S16 32) a x).toNat < S64x200.size a := fun v242 v244 k1_hw359 => k1_hw359
def k1_off184 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_121 : BitVec 32 := 400#32
  let v246 : BitVec 32 := Scalar.muli arg14 c400_i32_121
  let c64_i32_122 : BitVec 32 := 64#32
  let v247 : BitVec 32 := Scalar.addi v246 c64_i32_122
  let v248 : Index := Scalar.indexCast v247
  ![v248.toNat]

def k1_chk360 (v252 : IVec S16 32) : Prop :=
  (∀ a x, ((![v252] : Fin 1 → IVec S16 32) a x).toNat < S64.size a)
instance k1_chk360.dec : ∀ (v252 : IVec S16 32), Decidable (k1_chk360 v252) := fun v252 => decidable_of_iff' _ (Iff.of_eq (k1_chk360.eq_1 v252))
theorem k1_idx360_inb : ∀ (v252 : IVec S16 32) (k1_hw360 : k1_chk360 v252), ∀ a x, ((![v252] : Fin 1 → IVec S16 32) a x).toNat < S64.size a := fun v252 k1_hw360 => k1_hw360

def k1_chk361 (v256 : IVec S16 32) (v258 : IVec S16 32) : Prop :=
  (∀ a x, ((![v256, v258] : Fin 2 → IVec S16 32) a x).toNat < S64x200.size a)
instance k1_chk361.dec : ∀ (v256 : IVec S16 32) (v258 : IVec S16 32), Decidable (k1_chk361 v256 v258) := fun v256 v258 => decidable_of_iff' _ (Iff.of_eq (k1_chk361.eq_1 v256 v258))
theorem k1_idx361_inb : ∀ (v256 : IVec S16 32) (v258 : IVec S16 32) (k1_hw361 : k1_chk361 v256 v258), ∀ a x, ((![v256, v258] : Fin 2 → IVec S16 32) a x).toNat < S64x200.size a := fun v256 v258 k1_hw361 => k1_hw361
def k1_off185 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_125 : BitVec 32 := 400#32
  let v260 : BitVec 32 := Scalar.muli arg14 c400_i32_125
  let c80_i32_126 : BitVec 32 := 80#32
  let v261 : BitVec 32 := Scalar.addi v260 c80_i32_126
  let v262 : Index := Scalar.indexCast v261
  ![v262.toNat]

def k1_chk362 (v266 : IVec S16 32) : Prop :=
  (∀ a x, ((![v266] : Fin 1 → IVec S16 32) a x).toNat < S64.size a)
instance k1_chk362.dec : ∀ (v266 : IVec S16 32), Decidable (k1_chk362 v266) := fun v266 => decidable_of_iff' _ (Iff.of_eq (k1_chk362.eq_1 v266))
theorem k1_idx362_inb : ∀ (v266 : IVec S16 32) (k1_hw362 : k1_chk362 v266), ∀ a x, ((![v266] : Fin 1 → IVec S16 32) a x).toNat < S64.size a := fun v266 k1_hw362 => k1_hw362

def k1_chk363 (v270 : IVec S16 32) (v272 : IVec S16 32) : Prop :=
  (∀ a x, ((![v270, v272] : Fin 2 → IVec S16 32) a x).toNat < S64x200.size a)
instance k1_chk363.dec : ∀ (v270 : IVec S16 32) (v272 : IVec S16 32), Decidable (k1_chk363 v270 v272) := fun v270 v272 => decidable_of_iff' _ (Iff.of_eq (k1_chk363.eq_1 v270 v272))
theorem k1_idx363_inb : ∀ (v270 : IVec S16 32) (v272 : IVec S16 32) (k1_hw363 : k1_chk363 v270 v272), ∀ a x, ((![v270, v272] : Fin 2 → IVec S16 32) a x).toNat < S64x200.size a := fun v270 v272 k1_hw363 => k1_hw363
def k1_off186 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_129 : BitVec 32 := 400#32
  let v274 : BitVec 32 := Scalar.muli arg14 c400_i32_129
  let c96_i32_130 : BitVec 32 := 96#32
  let v275 : BitVec 32 := Scalar.addi v274 c96_i32_130
  let v276 : Index := Scalar.indexCast v275
  ![v276.toNat]

def k1_chk364 (v280 : IVec S16 32) : Prop :=
  (∀ a x, ((![v280] : Fin 1 → IVec S16 32) a x).toNat < S64.size a)
instance k1_chk364.dec : ∀ (v280 : IVec S16 32), Decidable (k1_chk364 v280) := fun v280 => decidable_of_iff' _ (Iff.of_eq (k1_chk364.eq_1 v280))
theorem k1_idx364_inb : ∀ (v280 : IVec S16 32) (k1_hw364 : k1_chk364 v280), ∀ a x, ((![v280] : Fin 1 → IVec S16 32) a x).toNat < S64.size a := fun v280 k1_hw364 => k1_hw364

def k1_chk365 (v284 : IVec S16 32) (v286 : IVec S16 32) : Prop :=
  (∀ a x, ((![v284, v286] : Fin 2 → IVec S16 32) a x).toNat < S64x200.size a)
instance k1_chk365.dec : ∀ (v284 : IVec S16 32) (v286 : IVec S16 32), Decidable (k1_chk365 v284 v286) := fun v284 v286 => decidable_of_iff' _ (Iff.of_eq (k1_chk365.eq_1 v284 v286))
theorem k1_idx365_inb : ∀ (v284 : IVec S16 32) (v286 : IVec S16 32) (k1_hw365 : k1_chk365 v284 v286), ∀ a x, ((![v284, v286] : Fin 2 → IVec S16 32) a x).toNat < S64x200.size a := fun v284 v286 k1_hw365 => k1_hw365
def k1_off187 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_133 : BitVec 32 := 400#32
  let v288 : BitVec 32 := Scalar.muli arg14 c400_i32_133
  let c112_i32_134 : BitVec 32 := 112#32
  let v289 : BitVec 32 := Scalar.addi v288 c112_i32_134
  let v290 : Index := Scalar.indexCast v289
  ![v290.toNat]

def k1_chk366 (v294 : IVec S16 32) : Prop :=
  (∀ a x, ((![v294] : Fin 1 → IVec S16 32) a x).toNat < S64.size a)
instance k1_chk366.dec : ∀ (v294 : IVec S16 32), Decidable (k1_chk366 v294) := fun v294 => decidable_of_iff' _ (Iff.of_eq (k1_chk366.eq_1 v294))
theorem k1_idx366_inb : ∀ (v294 : IVec S16 32) (k1_hw366 : k1_chk366 v294), ∀ a x, ((![v294] : Fin 1 → IVec S16 32) a x).toNat < S64.size a := fun v294 k1_hw366 => k1_hw366

def k1_chk367 (v298 : IVec S16 32) (v300 : IVec S16 32) : Prop :=
  (∀ a x, ((![v298, v300] : Fin 2 → IVec S16 32) a x).toNat < S64x200.size a)
instance k1_chk367.dec : ∀ (v298 : IVec S16 32) (v300 : IVec S16 32), Decidable (k1_chk367 v298 v300) := fun v298 v300 => decidable_of_iff' _ (Iff.of_eq (k1_chk367.eq_1 v298 v300))
theorem k1_idx367_inb : ∀ (v298 : IVec S16 32) (v300 : IVec S16 32) (k1_hw367 : k1_chk367 v298 v300), ∀ a x, ((![v298, v300] : Fin 2 → IVec S16 32) a x).toNat < S64x200.size a := fun v298 v300 k1_hw367 => k1_hw367
def k1_off188 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_138 : BitVec 32 := 400#32
  let v302 : BitVec 32 := Scalar.muli arg14 c400_i32_138
  let c128_i32_139 : BitVec 32 := 128#32
  let v303 : BitVec 32 := Scalar.addi v302 c128_i32_139
  let v304 : Index := Scalar.indexCast v303
  ![v304.toNat]

def k1_chk368 (v308 : IVec S16 32) : Prop :=
  (∀ a x, ((![v308] : Fin 1 → IVec S16 32) a x).toNat < S64.size a)
instance k1_chk368.dec : ∀ (v308 : IVec S16 32), Decidable (k1_chk368 v308) := fun v308 => decidable_of_iff' _ (Iff.of_eq (k1_chk368.eq_1 v308))
theorem k1_idx368_inb : ∀ (v308 : IVec S16 32) (k1_hw368 : k1_chk368 v308), ∀ a x, ((![v308] : Fin 1 → IVec S16 32) a x).toNat < S64.size a := fun v308 k1_hw368 => k1_hw368

def k1_chk369 (v312 : IVec S16 32) (v314 : IVec S16 32) : Prop :=
  (∀ a x, ((![v312, v314] : Fin 2 → IVec S16 32) a x).toNat < S64x200.size a)
instance k1_chk369.dec : ∀ (v312 : IVec S16 32) (v314 : IVec S16 32), Decidable (k1_chk369 v312 v314) := fun v312 v314 => decidable_of_iff' _ (Iff.of_eq (k1_chk369.eq_1 v312 v314))
theorem k1_idx369_inb : ∀ (v312 : IVec S16 32) (v314 : IVec S16 32) (k1_hw369 : k1_chk369 v312 v314), ∀ a x, ((![v312, v314] : Fin 2 → IVec S16 32) a x).toNat < S64x200.size a := fun v312 v314 k1_hw369 => k1_hw369
def k1_off189 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_142 : BitVec 32 := 400#32
  let v316 : BitVec 32 := Scalar.muli arg14 c400_i32_142
  let c144_i32_143 : BitVec 32 := 144#32
  let v317 : BitVec 32 := Scalar.addi v316 c144_i32_143
  let v318 : Index := Scalar.indexCast v317
  ![v318.toNat]

def k1_chk370 (v322 : IVec S16 32) : Prop :=
  (∀ a x, ((![v322] : Fin 1 → IVec S16 32) a x).toNat < S64.size a)
instance k1_chk370.dec : ∀ (v322 : IVec S16 32), Decidable (k1_chk370 v322) := fun v322 => decidable_of_iff' _ (Iff.of_eq (k1_chk370.eq_1 v322))
theorem k1_idx370_inb : ∀ (v322 : IVec S16 32) (k1_hw370 : k1_chk370 v322), ∀ a x, ((![v322] : Fin 1 → IVec S16 32) a x).toNat < S64.size a := fun v322 k1_hw370 => k1_hw370

def k1_chk371 (v326 : IVec S16 32) (v328 : IVec S16 32) : Prop :=
  (∀ a x, ((![v326, v328] : Fin 2 → IVec S16 32) a x).toNat < S64x200.size a)
instance k1_chk371.dec : ∀ (v326 : IVec S16 32) (v328 : IVec S16 32), Decidable (k1_chk371 v326 v328) := fun v326 v328 => decidable_of_iff' _ (Iff.of_eq (k1_chk371.eq_1 v326 v328))
theorem k1_idx371_inb : ∀ (v326 : IVec S16 32) (v328 : IVec S16 32) (k1_hw371 : k1_chk371 v326 v328), ∀ a x, ((![v326, v328] : Fin 2 → IVec S16 32) a x).toNat < S64x200.size a := fun v326 v328 k1_hw371 => k1_hw371
def k1_off190 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_146 : BitVec 32 := 400#32
  let v330 : BitVec 32 := Scalar.muli arg14 c400_i32_146
  let c160_i32_147 : BitVec 32 := 160#32
  let v331 : BitVec 32 := Scalar.addi v330 c160_i32_147
  let v332 : Index := Scalar.indexCast v331
  ![v332.toNat]

def k1_chk372 (v336 : IVec S16 32) : Prop :=
  (∀ a x, ((![v336] : Fin 1 → IVec S16 32) a x).toNat < S64.size a)
instance k1_chk372.dec : ∀ (v336 : IVec S16 32), Decidable (k1_chk372 v336) := fun v336 => decidable_of_iff' _ (Iff.of_eq (k1_chk372.eq_1 v336))
theorem k1_idx372_inb : ∀ (v336 : IVec S16 32) (k1_hw372 : k1_chk372 v336), ∀ a x, ((![v336] : Fin 1 → IVec S16 32) a x).toNat < S64.size a := fun v336 k1_hw372 => k1_hw372

def k1_chk373 (v340 : IVec S16 32) (v342 : IVec S16 32) : Prop :=
  (∀ a x, ((![v340, v342] : Fin 2 → IVec S16 32) a x).toNat < S64x200.size a)
instance k1_chk373.dec : ∀ (v340 : IVec S16 32) (v342 : IVec S16 32), Decidable (k1_chk373 v340 v342) := fun v340 v342 => decidable_of_iff' _ (Iff.of_eq (k1_chk373.eq_1 v340 v342))
theorem k1_idx373_inb : ∀ (v340 : IVec S16 32) (v342 : IVec S16 32) (k1_hw373 : k1_chk373 v340 v342), ∀ a x, ((![v340, v342] : Fin 2 → IVec S16 32) a x).toNat < S64x200.size a := fun v340 v342 k1_hw373 => k1_hw373
def k1_off191 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_150 : BitVec 32 := 400#32
  let v344 : BitVec 32 := Scalar.muli arg14 c400_i32_150
  let c176_i32_151 : BitVec 32 := 176#32
  let v345 : BitVec 32 := Scalar.addi v344 c176_i32_151
  let v346 : Index := Scalar.indexCast v345
  ![v346.toNat]

def k1_chk374 (v350 : IVec S16 32) : Prop :=
  (∀ a x, ((![v350] : Fin 1 → IVec S16 32) a x).toNat < S64.size a)
instance k1_chk374.dec : ∀ (v350 : IVec S16 32), Decidable (k1_chk374 v350) := fun v350 => decidable_of_iff' _ (Iff.of_eq (k1_chk374.eq_1 v350))
theorem k1_idx374_inb : ∀ (v350 : IVec S16 32) (k1_hw374 : k1_chk374 v350), ∀ a x, ((![v350] : Fin 1 → IVec S16 32) a x).toNat < S64.size a := fun v350 k1_hw374 => k1_hw374

def k1_chk375 (v14 : IVec S16 32) (v355 : IVec S16 32) : Prop :=
  (∀ a x, ((![v355, v14] : Fin 2 → IVec S16 32) a x).toNat < S64x200.size a)
instance k1_chk375.dec : ∀ (v14 : IVec S16 32) (v355 : IVec S16 32), Decidable (k1_chk375 v14 v355) := fun v14 v355 => decidable_of_iff' _ (Iff.of_eq (k1_chk375.eq_1 v14 v355))
theorem k1_idx375_inb : ∀ (v14 : IVec S16 32) (v355 : IVec S16 32) (k1_hw375 : k1_chk375 v14 v355), ∀ a x, ((![v355, v14] : Fin 2 → IVec S16 32) a x).toNat < S64x200.size a := fun v14 v355 k1_hw375 => k1_hw375
def k1_off192 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_154 : BitVec 32 := 400#32
  let v357 : BitVec 32 := Scalar.muli arg14 c400_i32_154
  let c192_i32_155 : BitVec 32 := 192#32
  let v358 : BitVec 32 := Scalar.addi v357 c192_i32_155
  let v359 : Index := Scalar.indexCast v358
  ![v359.toNat]

def k1_chk376 (v363 : IVec S16 32) : Prop :=
  (∀ a x, ((![v363] : Fin 1 → IVec S16 32) a x).toNat < S64.size a)
instance k1_chk376.dec : ∀ (v363 : IVec S16 32), Decidable (k1_chk376 v363) := fun v363 => decidable_of_iff' _ (Iff.of_eq (k1_chk376.eq_1 v363))
theorem k1_idx376_inb : ∀ (v363 : IVec S16 32) (k1_hw376 : k1_chk376 v363), ∀ a x, ((![v363] : Fin 1 → IVec S16 32) a x).toNat < S64.size a := fun v363 k1_hw376 => k1_hw376

def k1_chk377 (v367 : IVec S16 32) (v369 : IVec S16 32) : Prop :=
  (∀ a x, ((![v367, v369] : Fin 2 → IVec S16 32) a x).toNat < S64x200.size a)
instance k1_chk377.dec : ∀ (v367 : IVec S16 32) (v369 : IVec S16 32), Decidable (k1_chk377 v367 v369) := fun v367 v369 => decidable_of_iff' _ (Iff.of_eq (k1_chk377.eq_1 v367 v369))
theorem k1_idx377_inb : ∀ (v367 : IVec S16 32) (v369 : IVec S16 32) (k1_hw377 : k1_chk377 v367 v369), ∀ a x, ((![v367, v369] : Fin 2 → IVec S16 32) a x).toNat < S64x200.size a := fun v367 v369 k1_hw377 => k1_hw377
def k1_off193 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_159 : BitVec 32 := 400#32
  let v371 : BitVec 32 := Scalar.muli arg14 c400_i32_159
  let c208_i32 : BitVec 32 := 208#32
  let v372 : BitVec 32 := Scalar.addi v371 c208_i32
  let v373 : Index := Scalar.indexCast v372
  ![v373.toNat]

def k1_chk378 (v377 : IVec S16 32) : Prop :=
  (∀ a x, ((![v377] : Fin 1 → IVec S16 32) a x).toNat < S64.size a)
instance k1_chk378.dec : ∀ (v377 : IVec S16 32), Decidable (k1_chk378 v377) := fun v377 => decidable_of_iff' _ (Iff.of_eq (k1_chk378.eq_1 v377))
theorem k1_idx378_inb : ∀ (v377 : IVec S16 32) (k1_hw378 : k1_chk378 v377), ∀ a x, ((![v377] : Fin 1 → IVec S16 32) a x).toNat < S64.size a := fun v377 k1_hw378 => k1_hw378

def k1_chk379 (v381 : IVec S16 32) (v383 : IVec S16 32) : Prop :=
  (∀ a x, ((![v381, v383] : Fin 2 → IVec S16 32) a x).toNat < S64x200.size a)
instance k1_chk379.dec : ∀ (v381 : IVec S16 32) (v383 : IVec S16 32), Decidable (k1_chk379 v381 v383) := fun v381 v383 => decidable_of_iff' _ (Iff.of_eq (k1_chk379.eq_1 v381 v383))
theorem k1_idx379_inb : ∀ (v381 : IVec S16 32) (v383 : IVec S16 32) (k1_hw379 : k1_chk379 v381 v383), ∀ a x, ((![v381, v383] : Fin 2 → IVec S16 32) a x).toNat < S64x200.size a := fun v381 v383 k1_hw379 => k1_hw379
def k1_off194 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_162 : BitVec 32 := 400#32
  let v385 : BitVec 32 := Scalar.muli arg14 c400_i32_162
  let c224_i32 : BitVec 32 := 224#32
  let v386 : BitVec 32 := Scalar.addi v385 c224_i32
  let v387 : Index := Scalar.indexCast v386
  ![v387.toNat]

def k1_chk380 (v391 : IVec S16 32) : Prop :=
  (∀ a x, ((![v391] : Fin 1 → IVec S16 32) a x).toNat < S64.size a)
instance k1_chk380.dec : ∀ (v391 : IVec S16 32), Decidable (k1_chk380 v391) := fun v391 => decidable_of_iff' _ (Iff.of_eq (k1_chk380.eq_1 v391))
theorem k1_idx380_inb : ∀ (v391 : IVec S16 32) (k1_hw380 : k1_chk380 v391), ∀ a x, ((![v391] : Fin 1 → IVec S16 32) a x).toNat < S64.size a := fun v391 k1_hw380 => k1_hw380

def k1_chk381 (v395 : IVec S16 32) (v397 : IVec S16 32) : Prop :=
  (∀ a x, ((![v395, v397] : Fin 2 → IVec S16 32) a x).toNat < S64x200.size a)
instance k1_chk381.dec : ∀ (v395 : IVec S16 32) (v397 : IVec S16 32), Decidable (k1_chk381 v395 v397) := fun v395 v397 => decidable_of_iff' _ (Iff.of_eq (k1_chk381.eq_1 v395 v397))
theorem k1_idx381_inb : ∀ (v395 : IVec S16 32) (v397 : IVec S16 32) (k1_hw381 : k1_chk381 v395 v397), ∀ a x, ((![v395, v397] : Fin 2 → IVec S16 32) a x).toNat < S64x200.size a := fun v395 v397 k1_hw381 => k1_hw381
def k1_off195 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_165 : BitVec 32 := 400#32
  let v399 : BitVec 32 := Scalar.muli arg14 c400_i32_165
  let c240_i32 : BitVec 32 := 240#32
  let v400 : BitVec 32 := Scalar.addi v399 c240_i32
  let v401 : Index := Scalar.indexCast v400
  ![v401.toNat]

def k1_chk382 (v405 : IVec S16 32) : Prop :=
  (∀ a x, ((![v405] : Fin 1 → IVec S16 32) a x).toNat < S64.size a)
instance k1_chk382.dec : ∀ (v405 : IVec S16 32), Decidable (k1_chk382 v405) := fun v405 => decidable_of_iff' _ (Iff.of_eq (k1_chk382.eq_1 v405))
theorem k1_idx382_inb : ∀ (v405 : IVec S16 32) (k1_hw382 : k1_chk382 v405), ∀ a x, ((![v405] : Fin 1 → IVec S16 32) a x).toNat < S64.size a := fun v405 k1_hw382 => k1_hw382

def k1_chk383 (v409 : IVec S16 32) (v411 : IVec S16 32) : Prop :=
  (∀ a x, ((![v409, v411] : Fin 2 → IVec S16 32) a x).toNat < S64x200.size a)
instance k1_chk383.dec : ∀ (v409 : IVec S16 32) (v411 : IVec S16 32), Decidable (k1_chk383 v409 v411) := fun v409 v411 => decidable_of_iff' _ (Iff.of_eq (k1_chk383.eq_1 v409 v411))
theorem k1_idx383_inb : ∀ (v409 : IVec S16 32) (v411 : IVec S16 32) (k1_hw383 : k1_chk383 v409 v411), ∀ a x, ((![v409, v411] : Fin 2 → IVec S16 32) a x).toNat < S64x200.size a := fun v409 v411 k1_hw383 => k1_hw383
def k1_off196 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_168 : BitVec 32 := 400#32
  let v413 : BitVec 32 := Scalar.muli arg14 c400_i32_168
  let c256_i32_169 : BitVec 32 := 256#32
  let v414 : BitVec 32 := Scalar.addi v413 c256_i32_169
  let v415 : Index := Scalar.indexCast v414
  ![v415.toNat]

def k1_chk384 (v419 : IVec S16 32) : Prop :=
  (∀ a x, ((![v419] : Fin 1 → IVec S16 32) a x).toNat < S64.size a)
instance k1_chk384.dec : ∀ (v419 : IVec S16 32), Decidable (k1_chk384 v419) := fun v419 => decidable_of_iff' _ (Iff.of_eq (k1_chk384.eq_1 v419))
theorem k1_idx384_inb : ∀ (v419 : IVec S16 32) (k1_hw384 : k1_chk384 v419), ∀ a x, ((![v419] : Fin 1 → IVec S16 32) a x).toNat < S64.size a := fun v419 k1_hw384 => k1_hw384

def k1_chk385 (v423 : IVec S16 32) (v425 : IVec S16 32) : Prop :=
  (∀ a x, ((![v423, v425] : Fin 2 → IVec S16 32) a x).toNat < S64x200.size a)
instance k1_chk385.dec : ∀ (v423 : IVec S16 32) (v425 : IVec S16 32), Decidable (k1_chk385 v423 v425) := fun v423 v425 => decidable_of_iff' _ (Iff.of_eq (k1_chk385.eq_1 v423 v425))
theorem k1_idx385_inb : ∀ (v423 : IVec S16 32) (v425 : IVec S16 32) (k1_hw385 : k1_chk385 v423 v425), ∀ a x, ((![v423, v425] : Fin 2 → IVec S16 32) a x).toNat < S64x200.size a := fun v423 v425 k1_hw385 => k1_hw385
def k1_off197 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_172 : BitVec 32 := 400#32
  let v427 : BitVec 32 := Scalar.muli arg14 c400_i32_172
  let c272_i32 : BitVec 32 := 272#32
  let v428 : BitVec 32 := Scalar.addi v427 c272_i32
  let v429 : Index := Scalar.indexCast v428
  ![v429.toNat]

def k1_chk386 (v433 : IVec S16 32) : Prop :=
  (∀ a x, ((![v433] : Fin 1 → IVec S16 32) a x).toNat < S64.size a)
instance k1_chk386.dec : ∀ (v433 : IVec S16 32), Decidable (k1_chk386 v433) := fun v433 => decidable_of_iff' _ (Iff.of_eq (k1_chk386.eq_1 v433))
theorem k1_idx386_inb : ∀ (v433 : IVec S16 32) (k1_hw386 : k1_chk386 v433), ∀ a x, ((![v433] : Fin 1 → IVec S16 32) a x).toNat < S64.size a := fun v433 k1_hw386 => k1_hw386

def k1_chk387 (v437 : IVec S16 32) (v439 : IVec S16 32) : Prop :=
  (∀ a x, ((![v437, v439] : Fin 2 → IVec S16 32) a x).toNat < S64x200.size a)
instance k1_chk387.dec : ∀ (v437 : IVec S16 32) (v439 : IVec S16 32), Decidable (k1_chk387 v437 v439) := fun v437 v439 => decidable_of_iff' _ (Iff.of_eq (k1_chk387.eq_1 v437 v439))
theorem k1_idx387_inb : ∀ (v437 : IVec S16 32) (v439 : IVec S16 32) (k1_hw387 : k1_chk387 v437 v439), ∀ a x, ((![v437, v439] : Fin 2 → IVec S16 32) a x).toNat < S64x200.size a := fun v437 v439 k1_hw387 => k1_hw387
def k1_off198 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_175 : BitVec 32 := 400#32
  let v441 : BitVec 32 := Scalar.muli arg14 c400_i32_175
  let c288_i32 : BitVec 32 := 288#32
  let v442 : BitVec 32 := Scalar.addi v441 c288_i32
  let v443 : Index := Scalar.indexCast v442
  ![v443.toNat]

def k1_chk388 (v447 : IVec S16 32) : Prop :=
  (∀ a x, ((![v447] : Fin 1 → IVec S16 32) a x).toNat < S64.size a)
instance k1_chk388.dec : ∀ (v447 : IVec S16 32), Decidable (k1_chk388 v447) := fun v447 => decidable_of_iff' _ (Iff.of_eq (k1_chk388.eq_1 v447))
theorem k1_idx388_inb : ∀ (v447 : IVec S16 32) (k1_hw388 : k1_chk388 v447), ∀ a x, ((![v447] : Fin 1 → IVec S16 32) a x).toNat < S64.size a := fun v447 k1_hw388 => k1_hw388

def k1_chk389 (v451 : IVec S16 32) (v453 : IVec S16 32) : Prop :=
  (∀ a x, ((![v451, v453] : Fin 2 → IVec S16 32) a x).toNat < S64x200.size a)
instance k1_chk389.dec : ∀ (v451 : IVec S16 32) (v453 : IVec S16 32), Decidable (k1_chk389 v451 v453) := fun v451 v453 => decidable_of_iff' _ (Iff.of_eq (k1_chk389.eq_1 v451 v453))
theorem k1_idx389_inb : ∀ (v451 : IVec S16 32) (v453 : IVec S16 32) (k1_hw389 : k1_chk389 v451 v453), ∀ a x, ((![v451, v453] : Fin 2 → IVec S16 32) a x).toNat < S64x200.size a := fun v451 v453 k1_hw389 => k1_hw389
def k1_off199 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_178 : BitVec 32 := 400#32
  let v455 : BitVec 32 := Scalar.muli arg14 c400_i32_178
  let c304_i32 : BitVec 32 := 304#32
  let v456 : BitVec 32 := Scalar.addi v455 c304_i32
  let v457 : Index := Scalar.indexCast v456
  ![v457.toNat]

def k1_chk390 (v461 : IVec S16 32) : Prop :=
  (∀ a x, ((![v461] : Fin 1 → IVec S16 32) a x).toNat < S64.size a)
instance k1_chk390.dec : ∀ (v461 : IVec S16 32), Decidable (k1_chk390 v461) := fun v461 => decidable_of_iff' _ (Iff.of_eq (k1_chk390.eq_1 v461))
theorem k1_idx390_inb : ∀ (v461 : IVec S16 32) (k1_hw390 : k1_chk390 v461), ∀ a x, ((![v461] : Fin 1 → IVec S16 32) a x).toNat < S64.size a := fun v461 k1_hw390 => k1_hw390

def k1_chk391 (v465 : IVec S16 32) (v467 : IVec S16 32) : Prop :=
  (∀ a x, ((![v465, v467] : Fin 2 → IVec S16 32) a x).toNat < S64x200.size a)
instance k1_chk391.dec : ∀ (v465 : IVec S16 32) (v467 : IVec S16 32), Decidable (k1_chk391 v465 v467) := fun v465 v467 => decidable_of_iff' _ (Iff.of_eq (k1_chk391.eq_1 v465 v467))
theorem k1_idx391_inb : ∀ (v465 : IVec S16 32) (v467 : IVec S16 32) (k1_hw391 : k1_chk391 v465 v467), ∀ a x, ((![v465, v467] : Fin 2 → IVec S16 32) a x).toNat < S64x200.size a := fun v465 v467 k1_hw391 => k1_hw391
def k1_off200 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_181 : BitVec 32 := 400#32
  let v469 : BitVec 32 := Scalar.muli arg14 c400_i32_181
  let c320_i32_182 : BitVec 32 := 320#32
  let v470 : BitVec 32 := Scalar.addi v469 c320_i32_182
  let v471 : Index := Scalar.indexCast v470
  ![v471.toNat]

def k1_chk392 (v475 : IVec S16 32) : Prop :=
  (∀ a x, ((![v475] : Fin 1 → IVec S16 32) a x).toNat < S64.size a)
instance k1_chk392.dec : ∀ (v475 : IVec S16 32), Decidable (k1_chk392 v475) := fun v475 => decidable_of_iff' _ (Iff.of_eq (k1_chk392.eq_1 v475))
theorem k1_idx392_inb : ∀ (v475 : IVec S16 32) (k1_hw392 : k1_chk392 v475), ∀ a x, ((![v475] : Fin 1 → IVec S16 32) a x).toNat < S64.size a := fun v475 k1_hw392 => k1_hw392

def k1_chk393 (v479 : IVec S16 32) (v481 : IVec S16 32) : Prop :=
  (∀ a x, ((![v479, v481] : Fin 2 → IVec S16 32) a x).toNat < S64x200.size a)
instance k1_chk393.dec : ∀ (v479 : IVec S16 32) (v481 : IVec S16 32), Decidable (k1_chk393 v479 v481) := fun v479 v481 => decidable_of_iff' _ (Iff.of_eq (k1_chk393.eq_1 v479 v481))
theorem k1_idx393_inb : ∀ (v479 : IVec S16 32) (v481 : IVec S16 32) (k1_hw393 : k1_chk393 v479 v481), ∀ a x, ((![v479, v481] : Fin 2 → IVec S16 32) a x).toNat < S64x200.size a := fun v479 v481 k1_hw393 => k1_hw393
def k1_off201 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_185 : BitVec 32 := 400#32
  let v483 : BitVec 32 := Scalar.muli arg14 c400_i32_185
  let c336_i32 : BitVec 32 := 336#32
  let v484 : BitVec 32 := Scalar.addi v483 c336_i32
  let v485 : Index := Scalar.indexCast v484
  ![v485.toNat]

def k1_chk394 (v489 : IVec S16 32) : Prop :=
  (∀ a x, ((![v489] : Fin 1 → IVec S16 32) a x).toNat < S64.size a)
instance k1_chk394.dec : ∀ (v489 : IVec S16 32), Decidable (k1_chk394 v489) := fun v489 => decidable_of_iff' _ (Iff.of_eq (k1_chk394.eq_1 v489))
theorem k1_idx394_inb : ∀ (v489 : IVec S16 32) (k1_hw394 : k1_chk394 v489), ∀ a x, ((![v489] : Fin 1 → IVec S16 32) a x).toNat < S64.size a := fun v489 k1_hw394 => k1_hw394

def k1_chk395 (v493 : IVec S16 32) (v495 : IVec S16 32) : Prop :=
  (∀ a x, ((![v493, v495] : Fin 2 → IVec S16 32) a x).toNat < S64x200.size a)
instance k1_chk395.dec : ∀ (v493 : IVec S16 32) (v495 : IVec S16 32), Decidable (k1_chk395 v493 v495) := fun v493 v495 => decidable_of_iff' _ (Iff.of_eq (k1_chk395.eq_1 v493 v495))
theorem k1_idx395_inb : ∀ (v493 : IVec S16 32) (v495 : IVec S16 32) (k1_hw395 : k1_chk395 v493 v495), ∀ a x, ((![v493, v495] : Fin 2 → IVec S16 32) a x).toNat < S64x200.size a := fun v493 v495 k1_hw395 => k1_hw395
def k1_off202 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_188 : BitVec 32 := 400#32
  let v497 : BitVec 32 := Scalar.muli arg14 c400_i32_188
  let c352_i32 : BitVec 32 := 352#32
  let v498 : BitVec 32 := Scalar.addi v497 c352_i32
  let v499 : Index := Scalar.indexCast v498
  ![v499.toNat]

def k1_chk396 (v503 : IVec S16 32) : Prop :=
  (∀ a x, ((![v503] : Fin 1 → IVec S16 32) a x).toNat < S64.size a)
instance k1_chk396.dec : ∀ (v503 : IVec S16 32), Decidable (k1_chk396 v503) := fun v503 => decidable_of_iff' _ (Iff.of_eq (k1_chk396.eq_1 v503))
theorem k1_idx396_inb : ∀ (v503 : IVec S16 32) (k1_hw396 : k1_chk396 v503), ∀ a x, ((![v503] : Fin 1 → IVec S16 32) a x).toNat < S64.size a := fun v503 k1_hw396 => k1_hw396

def k1_chk397 (v507 : IVec S16 32) (v509 : IVec S16 32) : Prop :=
  (∀ a x, ((![v507, v509] : Fin 2 → IVec S16 32) a x).toNat < S64x200.size a)
instance k1_chk397.dec : ∀ (v507 : IVec S16 32) (v509 : IVec S16 32), Decidable (k1_chk397 v507 v509) := fun v507 v509 => decidable_of_iff' _ (Iff.of_eq (k1_chk397.eq_1 v507 v509))
theorem k1_idx397_inb : ∀ (v507 : IVec S16 32) (v509 : IVec S16 32) (k1_hw397 : k1_chk397 v507 v509), ∀ a x, ((![v507, v509] : Fin 2 → IVec S16 32) a x).toNat < S64x200.size a := fun v507 v509 k1_hw397 => k1_hw397
def k1_off203 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_191 : BitVec 32 := 400#32
  let v511 : BitVec 32 := Scalar.muli arg14 c400_i32_191
  let c368_i32 : BitVec 32 := 368#32
  let v512 : BitVec 32 := Scalar.addi v511 c368_i32
  let v513 : Index := Scalar.indexCast v512
  ![v513.toNat]

def k1_chk398 (v517 : IVec S16 32) : Prop :=
  (∀ a x, ((![v517] : Fin 1 → IVec S16 32) a x).toNat < S64.size a)
instance k1_chk398.dec : ∀ (v517 : IVec S16 32), Decidable (k1_chk398 v517) := fun v517 => decidable_of_iff' _ (Iff.of_eq (k1_chk398.eq_1 v517))
theorem k1_idx398_inb : ∀ (v517 : IVec S16 32) (k1_hw398 : k1_chk398 v517), ∀ a x, ((![v517] : Fin 1 → IVec S16 32) a x).toNat < S64.size a := fun v517 k1_hw398 => k1_hw398

def k1_chk399 (v521 : IVec S16 32) (v523 : IVec S16 32) : Prop :=
  (∀ a x, ((![v521, v523] : Fin 2 → IVec S16 32) a x).toNat < S64x200.size a)
instance k1_chk399.dec : ∀ (v521 : IVec S16 32) (v523 : IVec S16 32), Decidable (k1_chk399 v521 v523) := fun v521 v523 => decidable_of_iff' _ (Iff.of_eq (k1_chk399.eq_1 v521 v523))
theorem k1_idx399_inb : ∀ (v521 : IVec S16 32) (v523 : IVec S16 32) (k1_hw399 : k1_chk399 v521 v523), ∀ a x, ((![v521, v523] : Fin 2 → IVec S16 32) a x).toNat < S64x200.size a := fun v521 v523 k1_hw399 => k1_hw399
def k1_off204 (k1_t8 : Fin k1_t8_loop.trips) : Fin 1 → Nat :=
  let c0_i32_97 : BitVec 32 := 0#32
  let c1_i32_99 : BitVec 32 := 1#32
  let arg14 : BitVec 32 := Scf.iv c0_i32_97 c1_i32_99 k1_t8
  let c400_i32_194 : BitVec 32 := 400#32
  let v525 : BitVec 32 := Scalar.muli arg14 c400_i32_194
  let c384_i32_195 : BitVec 32 := 384#32
  let v526 : BitVec 32 := Scalar.addi v525 c384_i32_195
  let v527 : Index := Scalar.indexCast v526
  ![v527.toNat]

def k1_chk400 (v531 : IVec S16 32) : Prop :=
  (∀ a x, ((![v531] : Fin 1 → IVec S16 32) a x).toNat < S64.size a)
instance k1_chk400.dec : ∀ (v531 : IVec S16 32), Decidable (k1_chk400 v531) := fun v531 => decidable_of_iff' _ (Iff.of_eq (k1_chk400.eq_1 v531))
theorem k1_idx400_inb : ∀ (v531 : IVec S16 32) (k1_hw400 : k1_chk400 v531), ∀ a x, ((![v531] : Fin 1 → IVec S16 32) a x).toNat < S64.size a := fun v531 k1_hw400 => k1_hw400
def k1_off205 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v183 : BitVec 32 := Scalar.muli v1 c16_i32
  ![v183.toNat]
abbrev grid2 : Pipeline.Grid := .none

abbrev stage2_0 : Fin 1 → Memref sig .tc .vmem S512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S10x4_S10x4_0_0 : ∀ a, (![0, 0] : Fin 2 → Nat) a + S10x4.size a ≤ S10x4.size a
  h_S10x4 : 0 < S10x4.numel
  inb_S5x4_S5x4_0_0 : ∀ a, (![0, 0] : Fin 2 → Nat) a + S5x4.size a ≤ S5x4.size a
  h_S5x4 : 0 < S5x4.numel
  inb_S5_S5_0 : ∀ a, (![0] : Fin 1 → Nat) a + S5.size a ≤ S5.size a
  h_S5 : 0 < S5.numel
  shapeCasts_S5_S1x5 : S5.ShapeCasts S1x5
  broadcasts_S1x5_S10x5 : S1x5.Broadcasts S10x5
  reduces_S10x5_S10 : S10x5.Reduces [1] S10
  shapeCasts_S10_S10x1 : S10.ShapeCasts S10x1
  broadcasts_S10x1_S10x5 : S10x1.Broadcasts S10x5
  inb_S10x5_S10x5_0_0 : ∀ a, (![0, 0] : Fin 2 → Nat) a + S10x5.size a ≤ S10x5.size a
  h_S10x5 : 0 < S10x5.numel
  shapeCasts_S10x5_S50 : S10x5.ShapeCasts S50
  pads_S50_S64_0140 : S50.Pads (![0] : Fin 1 → Nat) ![14] ![0] S64
  h_S_ : 0 < S_.numel
  iota_S16_d0_w32_scVector : S16.Iotas .scVector 32 [0]
  natLt_1_32 : 1 < 32
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  h_S64x200 : 0 < S64x200.numel
  h_S16 : 0 < S16.numel
  h_S64 : 0 < S64.numel
  inb_S16_S16_0 : ∀ a, (![0] : Fin 1 → Nat) a + S16.size a ≤ S16.size a
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S10x4_S5x4_S10x5_1_1_0_0_n_n_wf : DotDims.WF S10x4 S5x4 S10x5 [1] [1] [0] [0] [] []
  hcc1_scratch6 : 4 + S2.numel ≤ 12
  hcc1_scratch7 : 6 + S2.numel ≤ 12
  hcc1_scoped0 : 8 + S_.numel ≤ 12
  hcc1_scoped1 : 9 + S_.numel ≤ 12
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_off1_inb : ∀ i : grid1.Coords, ∀ (r : Fin 2), ∀ a, (k1_off1 i (BitVec.ofNat 32 (64 * r.val))) a + S64x200.size a ≤ S16384x200.size a
  k1_off2_inb : ∀ i : grid1.Coords, ∀ (r : Fin 2), ∀ a, (k1_off2 i (BitVec.ofNat 32 (12800 * r.val))) a + S12800.size a ≤ S3276800.size a
  k1_t1_ok : k1_t1_loop.OK
  k1_off3_inb : ∀ k1_t1 : Fin k1_t1_loop.trips, ∀ a, (k1_off3 k1_t1) a + S16.size a ≤ S12800.size a
  k1_off4_inb : ∀ k1_t1 : Fin k1_t1_loop.trips, ∀ a, (k1_off4 k1_t1) a + S16.size a ≤ S12800.size a
  k1_off5_inb : ∀ k1_t1 : Fin k1_t1_loop.trips, ∀ a, (k1_off5 k1_t1) a + S16.size a ≤ S12800.size a
  k1_off6_inb : ∀ k1_t1 : Fin k1_t1_loop.trips, ∀ a, (k1_off6 k1_t1) a + S16.size a ≤ S12800.size a
  k1_off7_inb : ∀ k1_t1 : Fin k1_t1_loop.trips, ∀ a, (k1_off7 k1_t1) a + S16.size a ≤ S12800.size a
  k1_off8_inb : ∀ k1_t1 : Fin k1_t1_loop.trips, ∀ a, (k1_off8 k1_t1) a + S16.size a ≤ S12800.size a
  k1_off9_inb : ∀ k1_t1 : Fin k1_t1_loop.trips, ∀ a, (k1_off9 k1_t1) a + S16.size a ≤ S12800.size a
  k1_off10_inb : ∀ k1_t1 : Fin k1_t1_loop.trips, ∀ a, (k1_off10 k1_t1) a + S16.size a ≤ S12800.size a
  k1_off11_inb : ∀ k1_t1 : Fin k1_t1_loop.trips, ∀ a, (k1_off11 k1_t1) a + S16.size a ≤ S12800.size a
  k1_off12_inb : ∀ k1_t1 : Fin k1_t1_loop.trips, ∀ a, (k1_off12 k1_t1) a + S16.size a ≤ S12800.size a
  k1_off13_inb : ∀ k1_t1 : Fin k1_t1_loop.trips, ∀ a, (k1_off13 k1_t1) a + S16.size a ≤ S12800.size a
  k1_off14_inb : ∀ k1_t1 : Fin k1_t1_loop.trips, ∀ a, (k1_off14 k1_t1) a + S16.size a ≤ S12800.size a
  k1_off15_inb : ∀ k1_t1 : Fin k1_t1_loop.trips, ∀ a, (k1_off15 k1_t1) a + S16.size a ≤ S12800.size a
  k1_off16_inb : ∀ k1_t1 : Fin k1_t1_loop.trips, ∀ a, (k1_off16 k1_t1) a + S16.size a ≤ S12800.size a
  k1_off17_inb : ∀ k1_t1 : Fin k1_t1_loop.trips, ∀ a, (k1_off17 k1_t1) a + S16.size a ≤ S12800.size a
  k1_off18_inb : ∀ k1_t1 : Fin k1_t1_loop.trips, ∀ a, (k1_off18 k1_t1) a + S16.size a ≤ S12800.size a
  k1_off19_inb : ∀ k1_t1 : Fin k1_t1_loop.trips, ∀ a, (k1_off19 k1_t1) a + S16.size a ≤ S12800.size a
  k1_off20_inb : ∀ k1_t1 : Fin k1_t1_loop.trips, ∀ a, (k1_off20 k1_t1) a + S16.size a ≤ S12800.size a
  k1_off21_inb : ∀ k1_t1 : Fin k1_t1_loop.trips, ∀ a, (k1_off21 k1_t1) a + S16.size a ≤ S12800.size a
  k1_off22_inb : ∀ k1_t1 : Fin k1_t1_loop.trips, ∀ a, (k1_off22 k1_t1) a + S16.size a ≤ S12800.size a
  k1_off23_inb : ∀ k1_t1 : Fin k1_t1_loop.trips, ∀ a, (k1_off23 k1_t1) a + S16.size a ≤ S12800.size a
  k1_off24_inb : ∀ k1_t1 : Fin k1_t1_loop.trips, ∀ a, (k1_off24 k1_t1) a + S16.size a ≤ S12800.size a
  k1_off25_inb : ∀ k1_t1 : Fin k1_t1_loop.trips, ∀ a, (k1_off25 k1_t1) a + S16.size a ≤ S12800.size a
  k1_off26_inb : ∀ k1_t1 : Fin k1_t1_loop.trips, ∀ a, (k1_off26 k1_t1) a + S16.size a ≤ S12800.size a
  k1_off27_inb : ∀ k1_t1 : Fin k1_t1_loop.trips, ∀ a, (k1_off27 k1_t1) a + S16.size a ≤ S12800.size a
  k1_off28_inb : ∀ i : grid1.Coords, ∀ (r : Fin 7), ∀ a, (k1_off28 i (BitVec.ofNat 32 (64 + 64 * r.val))) a + S64x200.size a ≤ S16384x200.size a
  k1_off29_inb : ∀ i : grid1.Coords, ∀ (r : Fin 7), ∀ a, (k1_off29 i (BitVec.ofNat 32 (12800 + 12800 * r.val))) a + S12800.size a ≤ S3276800.size a
  k1_t2_ok : k1_t2_loop.OK
  k1_off30_inb : ∀ k1_t2 : Fin k1_t2_loop.trips, ∀ a, (k1_off30 k1_t2) a + S16.size a ≤ S12800.size a
  k1_off31_inb : ∀ k1_t2 : Fin k1_t2_loop.trips, ∀ a, (k1_off31 k1_t2) a + S16.size a ≤ S12800.size a
  k1_off32_inb : ∀ k1_t2 : Fin k1_t2_loop.trips, ∀ a, (k1_off32 k1_t2) a + S16.size a ≤ S12800.size a
  k1_off33_inb : ∀ k1_t2 : Fin k1_t2_loop.trips, ∀ a, (k1_off33 k1_t2) a + S16.size a ≤ S12800.size a
  k1_off34_inb : ∀ k1_t2 : Fin k1_t2_loop.trips, ∀ a, (k1_off34 k1_t2) a + S16.size a ≤ S12800.size a
  k1_off35_inb : ∀ k1_t2 : Fin k1_t2_loop.trips, ∀ a, (k1_off35 k1_t2) a + S16.size a ≤ S12800.size a
  k1_off36_inb : ∀ k1_t2 : Fin k1_t2_loop.trips, ∀ a, (k1_off36 k1_t2) a + S16.size a ≤ S12800.size a
  k1_off37_inb : ∀ k1_t2 : Fin k1_t2_loop.trips, ∀ a, (k1_off37 k1_t2) a + S16.size a ≤ S12800.size a
  k1_off38_inb : ∀ k1_t2 : Fin k1_t2_loop.trips, ∀ a, (k1_off38 k1_t2) a + S16.size a ≤ S12800.size a
  k1_off39_inb : ∀ k1_t2 : Fin k1_t2_loop.trips, ∀ a, (k1_off39 k1_t2) a + S16.size a ≤ S12800.size a
  k1_off40_inb : ∀ k1_t2 : Fin k1_t2_loop.trips, ∀ a, (k1_off40 k1_t2) a + S16.size a ≤ S12800.size a
  k1_off41_inb : ∀ k1_t2 : Fin k1_t2_loop.trips, ∀ a, (k1_off41 k1_t2) a + S16.size a ≤ S12800.size a
  k1_off42_inb : ∀ k1_t2 : Fin k1_t2_loop.trips, ∀ a, (k1_off42 k1_t2) a + S16.size a ≤ S12800.size a
  k1_off43_inb : ∀ k1_t2 : Fin k1_t2_loop.trips, ∀ a, (k1_off43 k1_t2) a + S16.size a ≤ S12800.size a
  k1_off44_inb : ∀ k1_t2 : Fin k1_t2_loop.trips, ∀ a, (k1_off44 k1_t2) a + S16.size a ≤ S12800.size a
  k1_off45_inb : ∀ k1_t2 : Fin k1_t2_loop.trips, ∀ a, (k1_off45 k1_t2) a + S16.size a ≤ S12800.size a
  k1_off46_inb : ∀ k1_t2 : Fin k1_t2_loop.trips, ∀ a, (k1_off46 k1_t2) a + S16.size a ≤ S12800.size a
  k1_off47_inb : ∀ k1_t2 : Fin k1_t2_loop.trips, ∀ a, (k1_off47 k1_t2) a + S16.size a ≤ S12800.size a
  k1_off48_inb : ∀ k1_t2 : Fin k1_t2_loop.trips, ∀ a, (k1_off48 k1_t2) a + S16.size a ≤ S12800.size a
  k1_off49_inb : ∀ k1_t2 : Fin k1_t2_loop.trips, ∀ a, (k1_off49 k1_t2) a + S16.size a ≤ S12800.size a
  k1_off50_inb : ∀ k1_t2 : Fin k1_t2_loop.trips, ∀ a, (k1_off50 k1_t2) a + S16.size a ≤ S12800.size a
  k1_off51_inb : ∀ k1_t2 : Fin k1_t2_loop.trips, ∀ a, (k1_off51 k1_t2) a + S16.size a ≤ S12800.size a
  k1_off52_inb : ∀ k1_t2 : Fin k1_t2_loop.trips, ∀ a, (k1_off52 k1_t2) a + S16.size a ≤ S12800.size a
  k1_off53_inb : ∀ k1_t2 : Fin k1_t2_loop.trips, ∀ a, (k1_off53 k1_t2) a + S16.size a ≤ S12800.size a
  k1_off54_inb : ∀ k1_t2 : Fin k1_t2_loop.trips, ∀ a, (k1_off54 k1_t2) a + S16.size a ≤ S12800.size a
  k1_t3_ok : k1_t3_loop.OK
  k1_off55_inb : ∀ k1_t3 : Fin k1_t3_loop.trips, ∀ a, (k1_off55 k1_t3) a + S16.size a ≤ S12800.size a
  k1_off56_inb : ∀ k1_t3 : Fin k1_t3_loop.trips, ∀ a, (k1_off56 k1_t3) a + S16.size a ≤ S12800.size a
  k1_off57_inb : ∀ k1_t3 : Fin k1_t3_loop.trips, ∀ a, (k1_off57 k1_t3) a + S16.size a ≤ S12800.size a
  k1_off58_inb : ∀ k1_t3 : Fin k1_t3_loop.trips, ∀ a, (k1_off58 k1_t3) a + S16.size a ≤ S12800.size a
  k1_off59_inb : ∀ k1_t3 : Fin k1_t3_loop.trips, ∀ a, (k1_off59 k1_t3) a + S16.size a ≤ S12800.size a
  k1_off60_inb : ∀ k1_t3 : Fin k1_t3_loop.trips, ∀ a, (k1_off60 k1_t3) a + S16.size a ≤ S12800.size a
  k1_off61_inb : ∀ k1_t3 : Fin k1_t3_loop.trips, ∀ a, (k1_off61 k1_t3) a + S16.size a ≤ S12800.size a
  k1_off62_inb : ∀ k1_t3 : Fin k1_t3_loop.trips, ∀ a, (k1_off62 k1_t3) a + S16.size a ≤ S12800.size a
  k1_off63_inb : ∀ k1_t3 : Fin k1_t3_loop.trips, ∀ a, (k1_off63 k1_t3) a + S16.size a ≤ S12800.size a
  k1_off64_inb : ∀ k1_t3 : Fin k1_t3_loop.trips, ∀ a, (k1_off64 k1_t3) a + S16.size a ≤ S12800.size a
  k1_off65_inb : ∀ k1_t3 : Fin k1_t3_loop.trips, ∀ a, (k1_off65 k1_t3) a + S16.size a ≤ S12800.size a
  k1_off66_inb : ∀ k1_t3 : Fin k1_t3_loop.trips, ∀ a, (k1_off66 k1_t3) a + S16.size a ≤ S12800.size a
  k1_off67_inb : ∀ k1_t3 : Fin k1_t3_loop.trips, ∀ a, (k1_off67 k1_t3) a + S16.size a ≤ S12800.size a
  k1_off68_inb : ∀ k1_t3 : Fin k1_t3_loop.trips, ∀ a, (k1_off68 k1_t3) a + S16.size a ≤ S12800.size a
  k1_off69_inb : ∀ k1_t3 : Fin k1_t3_loop.trips, ∀ a, (k1_off69 k1_t3) a + S16.size a ≤ S12800.size a
  k1_off70_inb : ∀ k1_t3 : Fin k1_t3_loop.trips, ∀ a, (k1_off70 k1_t3) a + S16.size a ≤ S12800.size a
  k1_off71_inb : ∀ k1_t3 : Fin k1_t3_loop.trips, ∀ a, (k1_off71 k1_t3) a + S16.size a ≤ S12800.size a
  k1_off72_inb : ∀ k1_t3 : Fin k1_t3_loop.trips, ∀ a, (k1_off72 k1_t3) a + S16.size a ≤ S12800.size a
  k1_off73_inb : ∀ k1_t3 : Fin k1_t3_loop.trips, ∀ a, (k1_off73 k1_t3) a + S16.size a ≤ S12800.size a
  k1_off74_inb : ∀ k1_t3 : Fin k1_t3_loop.trips, ∀ a, (k1_off74 k1_t3) a + S16.size a ≤ S12800.size a
  k1_off75_inb : ∀ k1_t3 : Fin k1_t3_loop.trips, ∀ a, (k1_off75 k1_t3) a + S16.size a ≤ S12800.size a
  k1_off76_inb : ∀ k1_t3 : Fin k1_t3_loop.trips, ∀ a, (k1_off76 k1_t3) a + S16.size a ≤ S12800.size a
  k1_off77_inb : ∀ k1_t3 : Fin k1_t3_loop.trips, ∀ a, (k1_off77 k1_t3) a + S16.size a ≤ S12800.size a
  k1_off78_inb : ∀ k1_t3 : Fin k1_t3_loop.trips, ∀ a, (k1_off78 k1_t3) a + S16.size a ≤ S12800.size a
  k1_off79_inb : ∀ k1_t3 : Fin k1_t3_loop.trips, ∀ a, (k1_off79 k1_t3) a + S16.size a ≤ S12800.size a
  k1_t4_ok : k1_t4_loop.OK
  k1_off80_inb : ∀ k1_t4 : Fin k1_t4_loop.trips, ∀ a, (k1_off80 k1_t4) a + S16.size a ≤ S12800.size a
  k1_off81_inb : ∀ k1_t4 : Fin k1_t4_loop.trips, ∀ a, (k1_off81 k1_t4) a + S16.size a ≤ S12800.size a
  k1_off82_inb : ∀ k1_t4 : Fin k1_t4_loop.trips, ∀ a, (k1_off82 k1_t4) a + S16.size a ≤ S12800.size a
  k1_off83_inb : ∀ k1_t4 : Fin k1_t4_loop.trips, ∀ a, (k1_off83 k1_t4) a + S16.size a ≤ S12800.size a
  k1_off84_inb : ∀ k1_t4 : Fin k1_t4_loop.trips, ∀ a, (k1_off84 k1_t4) a + S16.size a ≤ S12800.size a
  k1_off85_inb : ∀ k1_t4 : Fin k1_t4_loop.trips, ∀ a, (k1_off85 k1_t4) a + S16.size a ≤ S12800.size a
  k1_off86_inb : ∀ k1_t4 : Fin k1_t4_loop.trips, ∀ a, (k1_off86 k1_t4) a + S16.size a ≤ S12800.size a
  k1_off87_inb : ∀ k1_t4 : Fin k1_t4_loop.trips, ∀ a, (k1_off87 k1_t4) a + S16.size a ≤ S12800.size a
  k1_off88_inb : ∀ k1_t4 : Fin k1_t4_loop.trips, ∀ a, (k1_off88 k1_t4) a + S16.size a ≤ S12800.size a
  k1_off89_inb : ∀ k1_t4 : Fin k1_t4_loop.trips, ∀ a, (k1_off89 k1_t4) a + S16.size a ≤ S12800.size a
  k1_off90_inb : ∀ k1_t4 : Fin k1_t4_loop.trips, ∀ a, (k1_off90 k1_t4) a + S16.size a ≤ S12800.size a
  k1_off91_inb : ∀ k1_t4 : Fin k1_t4_loop.trips, ∀ a, (k1_off91 k1_t4) a + S16.size a ≤ S12800.size a
  k1_off92_inb : ∀ k1_t4 : Fin k1_t4_loop.trips, ∀ a, (k1_off92 k1_t4) a + S16.size a ≤ S12800.size a
  k1_off93_inb : ∀ k1_t4 : Fin k1_t4_loop.trips, ∀ a, (k1_off93 k1_t4) a + S16.size a ≤ S12800.size a
  k1_off94_inb : ∀ k1_t4 : Fin k1_t4_loop.trips, ∀ a, (k1_off94 k1_t4) a + S16.size a ≤ S12800.size a
  k1_off95_inb : ∀ k1_t4 : Fin k1_t4_loop.trips, ∀ a, (k1_off95 k1_t4) a + S16.size a ≤ S12800.size a
  k1_off96_inb : ∀ k1_t4 : Fin k1_t4_loop.trips, ∀ a, (k1_off96 k1_t4) a + S16.size a ≤ S12800.size a
  k1_off97_inb : ∀ k1_t4 : Fin k1_t4_loop.trips, ∀ a, (k1_off97 k1_t4) a + S16.size a ≤ S12800.size a
  k1_off98_inb : ∀ k1_t4 : Fin k1_t4_loop.trips, ∀ a, (k1_off98 k1_t4) a + S16.size a ≤ S12800.size a
  k1_off99_inb : ∀ k1_t4 : Fin k1_t4_loop.trips, ∀ a, (k1_off99 k1_t4) a + S16.size a ≤ S12800.size a
  k1_off100_inb : ∀ k1_t4 : Fin k1_t4_loop.trips, ∀ a, (k1_off100 k1_t4) a + S16.size a ≤ S12800.size a
  k1_off101_inb : ∀ k1_t4 : Fin k1_t4_loop.trips, ∀ a, (k1_off101 k1_t4) a + S16.size a ≤ S12800.size a
  k1_off102_inb : ∀ k1_t4 : Fin k1_t4_loop.trips, ∀ a, (k1_off102 k1_t4) a + S16.size a ≤ S12800.size a
  k1_off103_inb : ∀ k1_t4 : Fin k1_t4_loop.trips, ∀ a, (k1_off103 k1_t4) a + S16.size a ≤ S12800.size a
  k1_off104_inb : ∀ k1_t4 : Fin k1_t4_loop.trips, ∀ a, (k1_off104 k1_t4) a + S16.size a ≤ S12800.size a
  k1_t5_ok : k1_t5_loop.OK
  k1_off105_inb : ∀ k1_t5 : Fin k1_t5_loop.trips, ∀ a, (k1_off105 k1_t5) a + S16.size a ≤ S12800.size a
  k1_off106_inb : ∀ k1_t5 : Fin k1_t5_loop.trips, ∀ a, (k1_off106 k1_t5) a + S16.size a ≤ S12800.size a
  k1_off107_inb : ∀ k1_t5 : Fin k1_t5_loop.trips, ∀ a, (k1_off107 k1_t5) a + S16.size a ≤ S12800.size a
  k1_off108_inb : ∀ k1_t5 : Fin k1_t5_loop.trips, ∀ a, (k1_off108 k1_t5) a + S16.size a ≤ S12800.size a
  k1_off109_inb : ∀ k1_t5 : Fin k1_t5_loop.trips, ∀ a, (k1_off109 k1_t5) a + S16.size a ≤ S12800.size a
  k1_off110_inb : ∀ k1_t5 : Fin k1_t5_loop.trips, ∀ a, (k1_off110 k1_t5) a + S16.size a ≤ S12800.size a
  k1_off111_inb : ∀ k1_t5 : Fin k1_t5_loop.trips, ∀ a, (k1_off111 k1_t5) a + S16.size a ≤ S12800.size a
  k1_off112_inb : ∀ k1_t5 : Fin k1_t5_loop.trips, ∀ a, (k1_off112 k1_t5) a + S16.size a ≤ S12800.size a
  k1_off113_inb : ∀ k1_t5 : Fin k1_t5_loop.trips, ∀ a, (k1_off113 k1_t5) a + S16.size a ≤ S12800.size a
  k1_off114_inb : ∀ k1_t5 : Fin k1_t5_loop.trips, ∀ a, (k1_off114 k1_t5) a + S16.size a ≤ S12800.size a
  k1_off115_inb : ∀ k1_t5 : Fin k1_t5_loop.trips, ∀ a, (k1_off115 k1_t5) a + S16.size a ≤ S12800.size a
  k1_off116_inb : ∀ k1_t5 : Fin k1_t5_loop.trips, ∀ a, (k1_off116 k1_t5) a + S16.size a ≤ S12800.size a
  k1_off117_inb : ∀ k1_t5 : Fin k1_t5_loop.trips, ∀ a, (k1_off117 k1_t5) a + S16.size a ≤ S12800.size a
  k1_off118_inb : ∀ k1_t5 : Fin k1_t5_loop.trips, ∀ a, (k1_off118 k1_t5) a + S16.size a ≤ S12800.size a
  k1_off119_inb : ∀ k1_t5 : Fin k1_t5_loop.trips, ∀ a, (k1_off119 k1_t5) a + S16.size a ≤ S12800.size a
  k1_off120_inb : ∀ k1_t5 : Fin k1_t5_loop.trips, ∀ a, (k1_off120 k1_t5) a + S16.size a ≤ S12800.size a
  k1_off121_inb : ∀ k1_t5 : Fin k1_t5_loop.trips, ∀ a, (k1_off121 k1_t5) a + S16.size a ≤ S12800.size a
  k1_off122_inb : ∀ k1_t5 : Fin k1_t5_loop.trips, ∀ a, (k1_off122 k1_t5) a + S16.size a ≤ S12800.size a
  k1_off123_inb : ∀ k1_t5 : Fin k1_t5_loop.trips, ∀ a, (k1_off123 k1_t5) a + S16.size a ≤ S12800.size a
  k1_off124_inb : ∀ k1_t5 : Fin k1_t5_loop.trips, ∀ a, (k1_off124 k1_t5) a + S16.size a ≤ S12800.size a
  k1_off125_inb : ∀ k1_t5 : Fin k1_t5_loop.trips, ∀ a, (k1_off125 k1_t5) a + S16.size a ≤ S12800.size a
  k1_off126_inb : ∀ k1_t5 : Fin k1_t5_loop.trips, ∀ a, (k1_off126 k1_t5) a + S16.size a ≤ S12800.size a
  k1_off127_inb : ∀ k1_t5 : Fin k1_t5_loop.trips, ∀ a, (k1_off127 k1_t5) a + S16.size a ≤ S12800.size a
  k1_off128_inb : ∀ k1_t5 : Fin k1_t5_loop.trips, ∀ a, (k1_off128 k1_t5) a + S16.size a ≤ S12800.size a
  k1_off129_inb : ∀ k1_t5 : Fin k1_t5_loop.trips, ∀ a, (k1_off129 k1_t5) a + S16.size a ≤ S12800.size a
  k1_t6_ok : k1_t6_loop.OK
  k1_off130_inb : ∀ k1_t6 : Fin k1_t6_loop.trips, ∀ a, (k1_off130 k1_t6) a + S16.size a ≤ S12800.size a
  k1_off131_inb : ∀ k1_t6 : Fin k1_t6_loop.trips, ∀ a, (k1_off131 k1_t6) a + S16.size a ≤ S12800.size a
  k1_off132_inb : ∀ k1_t6 : Fin k1_t6_loop.trips, ∀ a, (k1_off132 k1_t6) a + S16.size a ≤ S12800.size a
  k1_off133_inb : ∀ k1_t6 : Fin k1_t6_loop.trips, ∀ a, (k1_off133 k1_t6) a + S16.size a ≤ S12800.size a
  k1_off134_inb : ∀ k1_t6 : Fin k1_t6_loop.trips, ∀ a, (k1_off134 k1_t6) a + S16.size a ≤ S12800.size a
  k1_off135_inb : ∀ k1_t6 : Fin k1_t6_loop.trips, ∀ a, (k1_off135 k1_t6) a + S16.size a ≤ S12800.size a
  k1_off136_inb : ∀ k1_t6 : Fin k1_t6_loop.trips, ∀ a, (k1_off136 k1_t6) a + S16.size a ≤ S12800.size a
  k1_off137_inb : ∀ k1_t6 : Fin k1_t6_loop.trips, ∀ a, (k1_off137 k1_t6) a + S16.size a ≤ S12800.size a
  k1_off138_inb : ∀ k1_t6 : Fin k1_t6_loop.trips, ∀ a, (k1_off138 k1_t6) a + S16.size a ≤ S12800.size a
  k1_off139_inb : ∀ k1_t6 : Fin k1_t6_loop.trips, ∀ a, (k1_off139 k1_t6) a + S16.size a ≤ S12800.size a
  k1_off140_inb : ∀ k1_t6 : Fin k1_t6_loop.trips, ∀ a, (k1_off140 k1_t6) a + S16.size a ≤ S12800.size a
  k1_off141_inb : ∀ k1_t6 : Fin k1_t6_loop.trips, ∀ a, (k1_off141 k1_t6) a + S16.size a ≤ S12800.size a
  k1_off142_inb : ∀ k1_t6 : Fin k1_t6_loop.trips, ∀ a, (k1_off142 k1_t6) a + S16.size a ≤ S12800.size a
  k1_off143_inb : ∀ k1_t6 : Fin k1_t6_loop.trips, ∀ a, (k1_off143 k1_t6) a + S16.size a ≤ S12800.size a
  k1_off144_inb : ∀ k1_t6 : Fin k1_t6_loop.trips, ∀ a, (k1_off144 k1_t6) a + S16.size a ≤ S12800.size a
  k1_off145_inb : ∀ k1_t6 : Fin k1_t6_loop.trips, ∀ a, (k1_off145 k1_t6) a + S16.size a ≤ S12800.size a
  k1_off146_inb : ∀ k1_t6 : Fin k1_t6_loop.trips, ∀ a, (k1_off146 k1_t6) a + S16.size a ≤ S12800.size a
  k1_off147_inb : ∀ k1_t6 : Fin k1_t6_loop.trips, ∀ a, (k1_off147 k1_t6) a + S16.size a ≤ S12800.size a
  k1_off148_inb : ∀ k1_t6 : Fin k1_t6_loop.trips, ∀ a, (k1_off148 k1_t6) a + S16.size a ≤ S12800.size a
  k1_off149_inb : ∀ k1_t6 : Fin k1_t6_loop.trips, ∀ a, (k1_off149 k1_t6) a + S16.size a ≤ S12800.size a
  k1_off150_inb : ∀ k1_t6 : Fin k1_t6_loop.trips, ∀ a, (k1_off150 k1_t6) a + S16.size a ≤ S12800.size a
  k1_off151_inb : ∀ k1_t6 : Fin k1_t6_loop.trips, ∀ a, (k1_off151 k1_t6) a + S16.size a ≤ S12800.size a
  k1_off152_inb : ∀ k1_t6 : Fin k1_t6_loop.trips, ∀ a, (k1_off152 k1_t6) a + S16.size a ≤ S12800.size a
  k1_off153_inb : ∀ k1_t6 : Fin k1_t6_loop.trips, ∀ a, (k1_off153 k1_t6) a + S16.size a ≤ S12800.size a
  k1_off154_inb : ∀ k1_t6 : Fin k1_t6_loop.trips, ∀ a, (k1_off154 k1_t6) a + S16.size a ≤ S12800.size a
  k1_t7_ok : k1_t7_loop.OK
  k1_off155_inb : ∀ k1_t7 : Fin k1_t7_loop.trips, ∀ a, (k1_off155 k1_t7) a + S16.size a ≤ S12800.size a
  k1_off156_inb : ∀ k1_t7 : Fin k1_t7_loop.trips, ∀ a, (k1_off156 k1_t7) a + S16.size a ≤ S12800.size a
  k1_off157_inb : ∀ k1_t7 : Fin k1_t7_loop.trips, ∀ a, (k1_off157 k1_t7) a + S16.size a ≤ S12800.size a
  k1_off158_inb : ∀ k1_t7 : Fin k1_t7_loop.trips, ∀ a, (k1_off158 k1_t7) a + S16.size a ≤ S12800.size a
  k1_off159_inb : ∀ k1_t7 : Fin k1_t7_loop.trips, ∀ a, (k1_off159 k1_t7) a + S16.size a ≤ S12800.size a
  k1_off160_inb : ∀ k1_t7 : Fin k1_t7_loop.trips, ∀ a, (k1_off160 k1_t7) a + S16.size a ≤ S12800.size a
  k1_off161_inb : ∀ k1_t7 : Fin k1_t7_loop.trips, ∀ a, (k1_off161 k1_t7) a + S16.size a ≤ S12800.size a
  k1_off162_inb : ∀ k1_t7 : Fin k1_t7_loop.trips, ∀ a, (k1_off162 k1_t7) a + S16.size a ≤ S12800.size a
  k1_off163_inb : ∀ k1_t7 : Fin k1_t7_loop.trips, ∀ a, (k1_off163 k1_t7) a + S16.size a ≤ S12800.size a
  k1_off164_inb : ∀ k1_t7 : Fin k1_t7_loop.trips, ∀ a, (k1_off164 k1_t7) a + S16.size a ≤ S12800.size a
  k1_off165_inb : ∀ k1_t7 : Fin k1_t7_loop.trips, ∀ a, (k1_off165 k1_t7) a + S16.size a ≤ S12800.size a
  k1_off166_inb : ∀ k1_t7 : Fin k1_t7_loop.trips, ∀ a, (k1_off166 k1_t7) a + S16.size a ≤ S12800.size a
  k1_off167_inb : ∀ k1_t7 : Fin k1_t7_loop.trips, ∀ a, (k1_off167 k1_t7) a + S16.size a ≤ S12800.size a
  k1_off168_inb : ∀ k1_t7 : Fin k1_t7_loop.trips, ∀ a, (k1_off168 k1_t7) a + S16.size a ≤ S12800.size a
  k1_off169_inb : ∀ k1_t7 : Fin k1_t7_loop.trips, ∀ a, (k1_off169 k1_t7) a + S16.size a ≤ S12800.size a
  k1_off170_inb : ∀ k1_t7 : Fin k1_t7_loop.trips, ∀ a, (k1_off170 k1_t7) a + S16.size a ≤ S12800.size a
  k1_off171_inb : ∀ k1_t7 : Fin k1_t7_loop.trips, ∀ a, (k1_off171 k1_t7) a + S16.size a ≤ S12800.size a
  k1_off172_inb : ∀ k1_t7 : Fin k1_t7_loop.trips, ∀ a, (k1_off172 k1_t7) a + S16.size a ≤ S12800.size a
  k1_off173_inb : ∀ k1_t7 : Fin k1_t7_loop.trips, ∀ a, (k1_off173 k1_t7) a + S16.size a ≤ S12800.size a
  k1_off174_inb : ∀ k1_t7 : Fin k1_t7_loop.trips, ∀ a, (k1_off174 k1_t7) a + S16.size a ≤ S12800.size a
  k1_off175_inb : ∀ k1_t7 : Fin k1_t7_loop.trips, ∀ a, (k1_off175 k1_t7) a + S16.size a ≤ S12800.size a
  k1_off176_inb : ∀ k1_t7 : Fin k1_t7_loop.trips, ∀ a, (k1_off176 k1_t7) a + S16.size a ≤ S12800.size a
  k1_off177_inb : ∀ k1_t7 : Fin k1_t7_loop.trips, ∀ a, (k1_off177 k1_t7) a + S16.size a ≤ S12800.size a
  k1_off178_inb : ∀ k1_t7 : Fin k1_t7_loop.trips, ∀ a, (k1_off178 k1_t7) a + S16.size a ≤ S12800.size a
  k1_off179_inb : ∀ k1_t7 : Fin k1_t7_loop.trips, ∀ a, (k1_off179 k1_t7) a + S16.size a ≤ S12800.size a
  k1_t8_ok : k1_t8_loop.OK
  k1_off180_inb : ∀ k1_t8 : Fin k1_t8_loop.trips, ∀ a, (k1_off180 k1_t8) a + S16.size a ≤ S12800.size a
  k1_off181_inb : ∀ k1_t8 : Fin k1_t8_loop.trips, ∀ a, (k1_off181 k1_t8) a + S16.size a ≤ S12800.size a
  k1_off182_inb : ∀ k1_t8 : Fin k1_t8_loop.trips, ∀ a, (k1_off182 k1_t8) a + S16.size a ≤ S12800.size a
  k1_off183_inb : ∀ k1_t8 : Fin k1_t8_loop.trips, ∀ a, (k1_off183 k1_t8) a + S16.size a ≤ S12800.size a
  k1_off184_inb : ∀ k1_t8 : Fin k1_t8_loop.trips, ∀ a, (k1_off184 k1_t8) a + S16.size a ≤ S12800.size a
  k1_off185_inb : ∀ k1_t8 : Fin k1_t8_loop.trips, ∀ a, (k1_off185 k1_t8) a + S16.size a ≤ S12800.size a
  k1_off186_inb : ∀ k1_t8 : Fin k1_t8_loop.trips, ∀ a, (k1_off186 k1_t8) a + S16.size a ≤ S12800.size a
  k1_off187_inb : ∀ k1_t8 : Fin k1_t8_loop.trips, ∀ a, (k1_off187 k1_t8) a + S16.size a ≤ S12800.size a
  k1_off188_inb : ∀ k1_t8 : Fin k1_t8_loop.trips, ∀ a, (k1_off188 k1_t8) a + S16.size a ≤ S12800.size a
  k1_off189_inb : ∀ k1_t8 : Fin k1_t8_loop.trips, ∀ a, (k1_off189 k1_t8) a + S16.size a ≤ S12800.size a
  k1_off190_inb : ∀ k1_t8 : Fin k1_t8_loop.trips, ∀ a, (k1_off190 k1_t8) a + S16.size a ≤ S12800.size a
  k1_off191_inb : ∀ k1_t8 : Fin k1_t8_loop.trips, ∀ a, (k1_off191 k1_t8) a + S16.size a ≤ S12800.size a
  k1_off192_inb : ∀ k1_t8 : Fin k1_t8_loop.trips, ∀ a, (k1_off192 k1_t8) a + S16.size a ≤ S12800.size a
  k1_off193_inb : ∀ k1_t8 : Fin k1_t8_loop.trips, ∀ a, (k1_off193 k1_t8) a + S16.size a ≤ S12800.size a
  k1_off194_inb : ∀ k1_t8 : Fin k1_t8_loop.trips, ∀ a, (k1_off194 k1_t8) a + S16.size a ≤ S12800.size a
  k1_off195_inb : ∀ k1_t8 : Fin k1_t8_loop.trips, ∀ a, (k1_off195 k1_t8) a + S16.size a ≤ S12800.size a
  k1_off196_inb : ∀ k1_t8 : Fin k1_t8_loop.trips, ∀ a, (k1_off196 k1_t8) a + S16.size a ≤ S12800.size a
  k1_off197_inb : ∀ k1_t8 : Fin k1_t8_loop.trips, ∀ a, (k1_off197 k1_t8) a + S16.size a ≤ S12800.size a
  k1_off198_inb : ∀ k1_t8 : Fin k1_t8_loop.trips, ∀ a, (k1_off198 k1_t8) a + S16.size a ≤ S12800.size a
  k1_off199_inb : ∀ k1_t8 : Fin k1_t8_loop.trips, ∀ a, (k1_off199 k1_t8) a + S16.size a ≤ S12800.size a
  k1_off200_inb : ∀ k1_t8 : Fin k1_t8_loop.trips, ∀ a, (k1_off200 k1_t8) a + S16.size a ≤ S12800.size a
  k1_off201_inb : ∀ k1_t8 : Fin k1_t8_loop.trips, ∀ a, (k1_off201 k1_t8) a + S16.size a ≤ S12800.size a
  k1_off202_inb : ∀ k1_t8 : Fin k1_t8_loop.trips, ∀ a, (k1_off202 k1_t8) a + S16.size a ≤ S12800.size a
  k1_off203_inb : ∀ k1_t8 : Fin k1_t8_loop.trips, ∀ a, (k1_off203 k1_t8) a + S16.size a ≤ S12800.size a
  k1_off204_inb : ∀ k1_t8 : Fin k1_t8_loop.trips, ∀ a, (k1_off204 k1_t8) a + S16.size a ≤ S12800.size a
  k1_off205_inb : ∀ i : grid1.Coords, ∀ a, (k1_off205 i) a + S16.size a ≤ S512.size a
  hstage2_0 : ∀ j, (stage2_0 j).IsWhole
  hstage2_1 : ∀ j, (stage2_1 j).IsWhole

variable [Facts₀]

abbrev cc1_scratch6 : DmaSems sig S2 := SemArray.consecutive 4 S2 hcc1_scratch6
abbrev cc1_scratch7 : DmaSems sig S2 := SemArray.consecutive 6 S2 hcc1_scratch7
abbrev cc1_scoped0 : DmaSems sig S_ := SemArray.consecutive 8 S_ hcc1_scoped0
abbrev cc1_scoped1 : DmaSems sig S_ := SemArray.consecutive 9 S_ hcc1_scoped1
def dot_S10x4_S5x4_S10x5_1_1_0_0_n_n : DotDims S10x4 S5x4 S10x5 where
  lhsContracting := [1]
  rhsContracting := [1]
  lhsNonContracting := [0]
  rhsNonContracting := [0]
  lhsBatch := []
  rhsBatch := []
  wf := dot_S10x4_S5x4_S10x5_1_1_0_0_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_v0) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win2_0 : Pipeline.Window sig grid2 :=
  Pipeline.Window.whole (Memref.whole main_v3) false false (stage2_0 0) (sem2_0 0) (Memref.isWhole_whole _) (hstage2_0 0)

abbrev win2_1 : Pipeline.Window sig grid2 :=
  Pipeline.Window.whole (Memref.whole main_v4) true false (stage2_1 0) (sem2_1 0) (Memref.isWhole_whole _) (hstage2_1 0)

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S16384x200 : Shape := ⟨2, ![16384, 200]⟩
abbrev S3276800 : Shape := ⟨1, ![3276800]⟩
abbrev S10x4 : Shape := ⟨2, ![10, 4]⟩
abbrev S5x4 : Shape := ⟨2, ![5, 4]⟩
abbrev S5 : Shape := ⟨1, ![5]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x4 : Shape := ⟨3, ![16384, 200, 4]⟩
abbrev S4x5 : Shape := ⟨2, ![4, 5]⟩
abbrev S16384x200x5 : Shape := ⟨3, ![16384, 200, 5]⟩
abbrev S1x1x5 : Shape := ⟨3, ![1, 1, 5]⟩
abbrev S3276800x5 : Shape := ⟨2, ![3276800, 5]⟩
abbrev S3276800x1 : Shape := ⟨2, ![3276800, 1]⟩
abbrev S3276800x1x1 : Shape := ⟨3, ![3276800, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S3276800, .i32⟩
  | .hbm, ⟨2, _⟩ => ⟨S10x4, .f32⟩
  | .hbm, ⟨3, _⟩ => ⟨S5x4, .f32⟩
  | .hbm, ⟨4, _⟩ => ⟨S5, .f32⟩
  | .hbm, ⟨5, _⟩ => ⟨S_, .i32⟩
  | .hbm, ⟨6, _⟩ => ⟨S16384x200, .i32⟩
  | .hbm, ⟨7, _⟩ => ⟨S16384x200, .i1⟩
  | .hbm, ⟨8, _⟩ => ⟨S_, .i32⟩
  | .hbm, ⟨9, _⟩ => ⟨S16384x200, .i32⟩
  | .hbm, ⟨10, _⟩ => ⟨S16384x200, .i32⟩
  | .hbm, ⟨11, _⟩ => ⟨S16384x200, .i32⟩
  | .hbm, ⟨12, _⟩ => ⟨S16384x200x1, .i32⟩
  | .hbm, ⟨13, _⟩ => ⟨S1, .i32⟩
  | .hbm, ⟨14, _⟩ => ⟨S_, .i32⟩
  | .hbm, ⟨15, _⟩ => ⟨S16384x200x1, .i32⟩
  | .hbm, ⟨16, _⟩ => ⟨S16384x200x1, .i1⟩
  | .hbm, ⟨17, _⟩ => ⟨S1x1x1, .i32⟩
  | .hbm, ⟨18, _⟩ => ⟨S16384x200x1, .i32⟩
  | .hbm, ⟨19, _⟩ => ⟨S16384x200x1, .i1⟩
  | .hbm, ⟨20, _⟩ => ⟨S16384x200x1, .i1⟩
  | .hbm, ⟨21, _⟩ => ⟨S_, .i1⟩
  | .hbm, ⟨22, _⟩ => ⟨S16384x200, .i1⟩
  | .hbm, ⟨23, _⟩ => ⟨S16384x200x4, .f32⟩
  | .hbm, ⟨24, _⟩ => ⟨S16384x200x4, .i1⟩
  | .hbm, ⟨25, _⟩ => ⟨S_, .f32⟩
  | .hbm, ⟨26, _⟩ => ⟨S16384x200x4, .f32⟩
  | .hbm, ⟨27, _⟩ => ⟨S16384x200x4, .f32⟩
  | .hbm, ⟨28, _⟩ => ⟨S4x5, .f32⟩
  | .hbm, ⟨29, _⟩ => ⟨S16384x200x5, .f32⟩
  | .hbm, ⟨30, _⟩ => ⟨S1x1x5, .f32⟩
  | .hbm, ⟨31, _⟩ => ⟨S16384x200x5, .f32⟩
  | .hbm, ⟨32, _⟩ => ⟨S16384x200x5, .f32⟩
  | .hbm, ⟨33, _⟩ => ⟨S_, .f32⟩
  | .hbm, ⟨34, _⟩ => ⟨S16384x200, .f32⟩
  | .hbm, ⟨35, _⟩ => ⟨S_, .f32⟩
  | .hbm, ⟨36, _⟩ => ⟨S16384x200, .f32⟩
  | .hbm, ⟨37, _⟩ => ⟨S16384x200, .f32⟩
  | .hbm, ⟨38, _⟩ => ⟨S16384x200x1, .f32⟩
  | .hbm, ⟨39, _⟩ => ⟨S16384x200x5, .f32⟩
  | .hbm, ⟨40, _⟩ => ⟨S16384x200x5, .f32⟩
  | .hbm, ⟨41, _⟩ => ⟨S16384x200x5, .f32⟩
  | .hbm, ⟨42, _⟩ => ⟨S_, .f32⟩
  | .hbm, ⟨43, _⟩ => ⟨S16384x200, .f32⟩
  | .hbm, ⟨44, _⟩ => ⟨S16384x200x1, .f32⟩
  | .hbm, ⟨45, _⟩ => ⟨S16384x200x5, .f32⟩
  | .hbm, ⟨46, _⟩ => ⟨S16384x200x5, .f32⟩
  | .hbm, ⟨47, _⟩ => ⟨S3276800x5, .f32⟩
  | .hbm, ⟨48, _⟩ => ⟨S_, .f32⟩
  | .hbm, ⟨49, _⟩ => ⟨S3276800, .f32⟩
  | .hbm, ⟨50, _⟩ => ⟨S_, .f32⟩
  | .hbm, ⟨51, _⟩ => ⟨S3276800, .f32⟩
  | .hbm, ⟨52, _⟩ => ⟨S3276800, .f32⟩
  | .hbm, ⟨53, _⟩ => ⟨S3276800x1, .f32⟩
  | .hbm, ⟨54, _⟩ => ⟨S3276800x5, .f32⟩
  | .hbm, ⟨55, _⟩ => ⟨S3276800x5, .f32⟩
  | .hbm, ⟨56, _⟩ => ⟨S3276800x5, .f32⟩
  | .hbm, ⟨57, _⟩ => ⟨S_, .f32⟩
  | .hbm, ⟨58, _⟩ => ⟨S3276800, .f32⟩
  | .hbm, ⟨59, _⟩ => ⟨S3276800x1, .f32⟩
  | .hbm, ⟨60, _⟩ => ⟨S3276800x1, .f32⟩
  | .hbm, ⟨61, _⟩ => ⟨S3276800x5, .f32⟩
  | .hbm, ⟨62, _⟩ => ⟨S3276800x5, .f32⟩
  | .hbm, ⟨63, _⟩ => ⟨S3276800x1, .i32⟩
  | .hbm, ⟨64, _⟩ => ⟨S_, .i32⟩
  | .hbm, ⟨65, _⟩ => ⟨S3276800x1, .i32⟩
  | .hbm, ⟨66, _⟩ => ⟨S3276800x1, .i1⟩
  | .hbm, ⟨67, _⟩ => ⟨S_, .i32⟩
  | .hbm, ⟨68, _⟩ => ⟨S3276800x1, .i32⟩
  | .hbm, ⟨69, _⟩ => ⟨S3276800x1, .i32⟩
  | .hbm, ⟨70, _⟩ => ⟨S3276800x1, .i32⟩
  | .hbm, ⟨71, _⟩ => ⟨S3276800x1x1, .i32⟩
  | .hbm, ⟨72, _⟩ => ⟨S1, .i32⟩
  | .hbm, ⟨73, _⟩ => ⟨S_, .i32⟩
  | .hbm, ⟨74, _⟩ => ⟨S3276800x1x1, .i32⟩
  | .hbm, ⟨75, _⟩ => ⟨S3276800x1x1, .i1⟩
  | .hbm, ⟨76, _⟩ => ⟨S1x1x1, .i32⟩
  | .hbm, ⟨77, _⟩ => ⟨S3276800x1x1, .i32⟩
  | .hbm, ⟨78, _⟩ => ⟨S3276800x1x1, .i1⟩
  | .hbm, ⟨79, _⟩ => ⟨S3276800x1x1, .i1⟩
  | .hbm, ⟨80, _⟩ => ⟨S_, .i1⟩
  | .hbm, ⟨81, _⟩ => ⟨S3276800x1, .i1⟩
  | .hbm, ⟨82, _⟩ => ⟨S3276800x1, .f32⟩
  | .hbm, ⟨83, _⟩ => ⟨S_, .f32⟩
  | .hbm, ⟨84, _⟩ => ⟨S3276800x1, .f32⟩
  | .hbm, ⟨85, _⟩ => ⟨S3276800x1, .f32⟩
  | .hbm, ⟨86, _⟩ => ⟨S3276800, .f32⟩
  | .hbm, ⟨87, _⟩ => ⟨S3276800, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_cst : Ref sig .tc := ⟨.hbm, 48, rfl⟩
abbrev main_call1_v0 : Ref sig .tc := ⟨.hbm, 49, rfl⟩
abbrev main_call1_cst_0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_cst_1 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_v18 : Ref sig .tc := ⟨.hbm, 62, rfl⟩
abbrev main_v19 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_cst_2 : Ref sig .tc := ⟨.hbm, 88, rfl⟩
abbrev main_v23 : Ref sig .tc := ⟨.hbm, 89, rfl⟩
abbrev main_cst_3 : Ref sig .tc := ⟨.hbm, 90, rfl⟩
abbrev main_v24 : Ref sig .tc := ⟨.hbm, 91, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x4_0_1 : S16384x200.BroadcastsInDim S16384x200x4 (![0, 1] : Fin 2 → Fin S16384x200x4.rank)
  bcast_S_S16384x200x4 : S_.BroadcastsInDim S16384x200x4 (![] : Fin 0 → Fin S16384x200x4.rank)
  transposes_S5x4_S4x5_1_0 : S5x4.Transposes [1, 0] S4x5
  bcast_S5_S1x1x5_2 : S5.BroadcastsInDim S1x1x5 (![2] : Fin 1 → Fin S1x1x5.rank)
  bcast_S1x1x5_S16384x200x5_0_1_2 : S1x1x5.BroadcastsInDim S16384x200x5 (![0, 1, 2] : Fin 3 → Fin S16384x200x5.rank)
  reducesTo_S16384x200x5_S16384x200_d2 : S16384x200x5.ReducesTo [2] S16384x200
  bcast_S16384x200x1_S16384x200x5_0_1_2 : S16384x200x1.BroadcastsInDim S16384x200x5 (![0, 1, 2] : Fin 3 → Fin S16384x200x5.rank)
  shapeCasts_S16384x200x5_S3276800x5 : S16384x200x5.ShapeCasts S3276800x5
  reducesTo_S3276800x5_S3276800_d1 : S3276800x5.ReducesTo [1] S3276800
  bcast_S_S3276800 : S_.BroadcastsInDim S3276800 (![] : Fin 0 → Fin S3276800.rank)
  bcast_S3276800_S3276800x1_0 : S3276800.BroadcastsInDim S3276800x1 (![0] : Fin 1 → Fin S3276800x1.rank)
  bcast_S3276800x1_S3276800x5_0_1 : S3276800x1.BroadcastsInDim S3276800x5 (![0, 1] : Fin 2 → Fin S3276800x5.rank)
  bcast_S_S3276800x1 : S_.BroadcastsInDim S3276800x1 (![] : Fin 0 → Fin S3276800x1.rank)
  shapeCasts_S3276800x1_S3276800x1x1 : S3276800x1.ShapeCasts S3276800x1x1
  bcast_S_S3276800x1x1 : S_.BroadcastsInDim S3276800x1x1 (![] : Fin 0 → Fin S3276800x1x1.rank)
  bcast_S1x1x1_S3276800x1x1_0_1_2 : S1x1x1.BroadcastsInDim S3276800x1x1 (![0, 1, 2] : Fin 3 → Fin S3276800x1x1.rank)
  reducesTo_S3276800x1x1_S3276800x1_d2 : S3276800x1x1.ReducesTo [2] S3276800x1
  shapeCasts_S3276800x1_S3276800 : S3276800x1.ShapeCasts S3276800
  reducesTo_S3276800_S_d0 : S3276800.ReducesTo [0] S_
  gather_S10x4_S16384x200x1_S16384x200x4_2_0_n_n_0_2_14_wf : GatherDims.WF S10x4 S16384x200x1 S16384x200x4 [2] [0] [] [0] [] 2 ![1, 4]
  dot_S16384x200x4_S4x5_S16384x200x5_2_0_01_1_n_n_wf : DotDims.WF S16384x200x4 S4x5 S16384x200x5 [2] [0] [0, 1] [1] [] []
  gather_S3276800x5_S3276800x1x1_S3276800x1_n_1_0_0_1_2_11_wf : GatherDims.WF S3276800x5 S3276800x1x1 S3276800x1 [] [1] [0] [1] [0] 2 ![1, 1]

variable [Facts₀]

def gather_S10x4_S16384x200x1_S16384x200x4_2_0_n_n_0_2_14 : GatherDims S10x4 S16384x200x1 S16384x200x4 where
  offsetDims := [2]
  collapsedSliceDims := [0]
  operandBatchingDims := []
  startIndicesBatchingDims := []
  startIndexMap := [0]
  indexVectorDim := 2
  sliceSizes := ![1, 4]
  wf := gather_S10x4_S16384x200x1_S16384x200x4_2_0_n_n_0_2_14_wf
def dot_S16384x200x4_S4x5_S16384x200x5_2_0_01_1_n_n : DotDims S16384x200x4 S4x5 S16384x200x5 where
  lhsContracting := [2]
  rhsContracting := [0]
  lhsNonContracting := [0, 1]
  rhsNonContracting := [1]
  lhsBatch := []
  rhsBatch := []
  wf := dot_S16384x200x4_S4x5_S16384x200x5_2_0_01_1_n_n_wf
def gather_S3276800x5_S3276800x1x1_S3276800x1_n_1_0_0_1_2_11 : GatherDims S3276800x5 S3276800x1x1 S3276800x1 where
  offsetDims := []
  collapsedSliceDims := [1]
  operandBatchingDims := [0]
  startIndicesBatchingDims := [0]
  startIndexMap := [1]
  indexVectorDim := 2
  sliceSizes := ![1, 1]
  wf := gather_S3276800x5_S3276800x1x1_S3276800x1_n_1_0_0_1_2_11_wf

class Facts : Prop extends Facts₀ where

variable [Facts]
-- ==== Proof.KI.Base.lean ====
/-
  The idealized kernel program as the SparseCore launch theorem sees it: its label signature with the two TensorCore
  pipelines, the ghost state (the launch handshakes' rounds, the pipelines' staging cells' rounds, the local
  transfers' counters), the arrays' names and the thirty-two blocks the tiles work on.
-/
import proofs.«205364_g71897752535391_cont_9to1_m_950_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic
import proofs.«205364_g71897752535391_cont_9to1_m_950_21_alg».proof.Proof.Gen.KernelIdeal
import proofs.«205364_g71897752535391_cont_9to1_m_950_21_alg».proof.Proof.Gen.KernelIdeal.Skeleton
import proofs.«205364_g71897752535391_cont_9to1_m_950_21_alg».proof.Proof.Gen.KernelIdeal.Launch
import proofs.«205364_g71897752535391_cont_9to1_m_950_21_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- No pipeline has a prefetched table. -/
abbrev adm : (p : Fin 2) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor; -/
abbrev EH : Emb UH (MT nD τ sig (HIx 1) (Elt F) ℕ UU ℕ) := embL
/-- the staging cells' rounds, the left of the right factor (the counters, its right, are found by instance). -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP embR; infer_instance

/-! ## The launch memory and the arrays -/

abbrev xLoc (d : Dev nD) : Loc nD τ sig := (SparseCore.T d).loc main_arg0
abbrev yLoc (d : Dev nD) : Loc nD τ sig := (SparseCore.T d).loc main_arg1
abbrev eLoc (d : Dev nD) : Loc nD τ sig := (SparseCore.T d).loc main_arg2
abbrev fLoc (d : Dev nD) : Loc nD τ sig := (SparseCore.T d).loc main_arg3
abbrev bLoc (d : Dev nD) : Loc nD τ sig := (SparseCore.T d).loc main_arg4
abbrev tLoc (d : Dev nD) : Loc nD τ sig := (SparseCore.T d).loc main_v0
abbrev wLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

theorem hdivx : 32 ∣ S16384x200.size 0 := ⟨512, rfl⟩
theorem hdivy : 32 ∣ S3276800.size 0 := ⟨102400, rfl⟩
theorem hdivo : 32 ∣ S512.size 0 := ⟨16, rfl⟩

/-- Block `k` of the thirty-two: 512 rows of x, 102400 words of y, 16 words of the result. -/
abbrev xBlk (k : Fin 32) : Finset S16384x200.Idx := (Rect.part (s := S16384x200) (a₀ := 0) hdivx k).set
abbrev yBlk (k : Fin 32) : Finset S3276800.Idx := (Rect.part (s := S3276800) (a₀ := 0) hdivy k).set
abbrev oBlk (k : Fin 32) : Finset S512.Idx := (Rect.part (s := S512) (a₀ := 0) hdivo k).set

/-- The number of tile `s` of SparseCore `c`: 2·s + c. -/
def wid (c : Fin 2) (s : Fin 16) : Fin 32 := ⟨2 * s.val + c.val, by omega⟩

/-! ## The two TensorCore calls' proof data -/

section Dats

variable [FloatOps F]
variable (d : Dev nD)

abbrev r0w : Rect S10x5 := Rect.unit (s := S10x5) ![0, 0] S10x5.size inb_S10x5_S10x5_0_0
abbrev r0e : Rect S10x4 := Rect.unit (s := S10x4) ![0, 0] S10x4.size inb_S10x4_S10x4_0_0
abbrev r0f : Rect S5x4 := Rect.unit (s := S5x4) ![0, 0] S5x4.size inb_S5x4_S5x4_0_0
abbrev r0b : Rect S5 := Rect.unit (s := S5) ![0] S5.size inb_S5_S5_0
abbrev r2p : Rect S512 := Rect.unit (s := S512) ![0] S512.size inb_S512_S512_0
abbrev r2r : Rect S1x1 := Rect.unit (s := S1x1) ![0, 0] S1x1.size inb_S1x1_S1x1_0_0

/-- The table's staging buffer after the first call's body: its one store over the three loads. -/
def outTab (x0 : Vec F S10x4 .f32) (x1 : Vec F S5x4 .f32) (x2 : Vec F S5 .f32) : Vec F S10x5 .f32 :=
  View.canon [⟨r0w, k0_pay1 (View.ld x0 r0e) (View.ld x1 r0f) (View.ld x2 r0b)⟩]
/-- The result's staging buffer after the last call's body. -/
def outRes (x0 : Vec F S512 .f32) : Vec F S1x1 .f32 :=
  View.canon [⟨r2r, k2_pay1 (View.ld x0 r2p)⟩]

end Dats

end Cert.Proof.KI

end
-- ==== Proof.KI.Region0.lean ====
/-
  The first TensorCore call (the table): its proof data on a core whose TensorCore still owes the SparseCore call's
  start signals, and the body's triple — three whole loads, one whole store of the table's payload.
-/
import proofs.«205364_g71897752535391_cont_9to1_m_950_21_alg».proof.Proof.KI.Base

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The TensorCore's unscoped buffers at some contents, read at a TensorCore reference. -/
abbrev rd (W : Valuation τ sig (Elt F)) (c : Dev nD) (b : Ref sig .tc) : Buf (Elt F) ((c.tc : Thread nD τ).loc b) := W (Proc.devRef .tc b)

section Region0

variable (W : Valuation τ sig (Elt F)) (n : ℕ)

/-- Window `w`'s block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (rd W c (Pipeline.arrRef spec0 w))

/-- The proof data of the table's call on core `c`, entered at the contents `W` before SparseCore call `n`: after the
    body each input's buffer holds its array and the result's the table; the invariant is the scoped rest; the core owes
    what it owes the launch throughout, its recorded pairs at or below level 8·n. -/
def dat0 (c : Dev nD) : Dat τ (Elt F) (HIx 1) ℕ UU ℕ cfg0 c where
  A w := rd W c (Pipeline.arrRef spec0 w)
  after w t := match w with
    | ⟨0, _⟩ => iblk0 W c 0 t
    | ⟨1, _⟩ => iblk0 W c 1 t
    | ⟨2, _⟩ => iblk0 W c 2 t
    | ⟨3, _⟩ => outTab (iblk0 W c 0 t) (iblk0 W c 1 t) (iblk0 W c 2 t)
  Φ _ := Pipeline.scopedRest (Ix := HIx 1) (Name := ℕ) (U := UU) (Lvl := ℕ) (Val := Elt F) spec0 c
  q _ := fullShare
  owed _ := (K (F := F)).Otc c n
  recorded _ := {p | (K (F := F)).lev ((c.tc : Thread nD τ), p.1) p.2 ≤ 8 * n}

theorem A0_eq (c : Dev nD) (w : Fin cfg0.W) : (dat0 W n c).A w = rd W c (Pipeline.arrRef spec0 w) := by dsimp only [dat0]
theorem after0_0 (c : Dev nD) (t : Fin cfg0.N) : (dat0 W n c).after 0 t = iblk0 W c 0 t := by dsimp only [dat0]
theorem after0_1 (c : Dev nD) (t : Fin cfg0.N) : (dat0 W n c).after 1 t = iblk0 W c 1 t := by dsimp only [dat0]
theorem after0_2 (c : Dev nD) (t : Fin cfg0.N) : (dat0 W n c).after 2 t = iblk0 W c 2 t := by dsimp only [dat0]
theorem after0_3 (c : Dev nD) (t : Fin cfg0.N) : (dat0 W n c).after 3 t = outTab (iblk0 W c 0 t) (iblk0 W c 1 t) (iblk0 W c 2 t) := by dsimp only [dat0]

/-- Each input's staging buffer holds its array at the point, fetched there. -/
theorem before0_0 (c : Dev nD) (t : Fin cfg0.N) (d) : (dat0 W n c).before 0 t d = iblk0 W c 0 t :=
  ((dat0 W n c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 W n c).before 1 t d = iblk0 W c 1 t :=
  ((dat0 W n c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 W n c).before 2 t d = iblk0 W c 2 t :=
  ((dat0 W n c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

theorem cover0 (p0 : Vec F S10x5 .f32) (y : S10x5.Idx) :
    ∃ pc ∈ ([⟨r0w, p0⟩] : List (View.Piece (Elt F) S10x5 .f32)), y ∈ pc.1.set :=
  View.cover_of_tiled [⟨r0w, p0⟩] S10x5.size (by rfl) y

set_option maxHeartbeats 1000000 in
/-- The table's body on whole staging memrefs: the three inputs read, the table stored. -/
theorem sound_table (c : Dev nD) (E : Set ℕ) (arg0 : Memref sig .tc .vmem S10x4 .f32) (harg0 : arg0.IsWhole) (arg1 : Memref sig .tc .vmem S5x4 .f32) (harg1 : arg1.IsWhole)
    (arg2 : Memref sig .tc .vmem S5 .f32) (harg2 : arg2.IsWhole) (arg3 : Memref sig .tc .vmem S10x5 .f32) (harg3 : arg3.IsWhole)
    (x0 : Vec F S10x4 .f32) (x1 : Vec F S5x4 .f32) (x2 : Vec F S5 .f32) (Kk : PUnit → sProp 𝕄) :
    iprop(owns (c.tc : Thread nD τ) arg0 fullShare x0 ∗ owns (c.tc : Thread nD τ) arg1 fullShare x1 ∗ owns (c.tc : Thread nD τ) arg2 fullShare x2 ∗ (∃ d, owns (c.tc : Thread nD τ) arg3 fullShare d)
        ∗ (iprop(owns (c.tc : Thread nD τ) arg0 fullShare x0 ∗ owns (c.tc : Thread nD τ) arg1 fullShare x1 ∗ owns (c.tc : Thread nD τ) arg2 fullShare x2
            ∗ owns (c.tc : Thread nD τ) arg3 fullShare (outTab x0 x1 x2)) -∗ Kk ⟨⟩))
      ⊢ wp frame (wpE (defs₀ (F := F)) Variants.none (c.tc : Thread nD τ) none) E (cc0_table_body arg0 harg0 arg1 harg1 arg2 harg2 arg3 harg3) Kk := by
  simp only [cc0_table_body_eq_skeleton]; unfold cc0_table_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- What the body is called with at the point, the windows one by one, -/
def bodyPre0 (c : Dev nD) (t : Fin cfg0.N) : sProp 𝕄 :=
  iprop((dat0 W n c).Φ t.castSucc ∗ (dat0 W n c).owesAt (none : HIx 1) t.castSucc
    ∗ (∃ d, owns (c.tc : Thread nD τ) (st0_0 t) fullShare ((dat0 W n c).before 0 t d))
    ∗ (∃ d, owns (c.tc : Thread nD τ) (st0_1 t) fullShare ((dat0 W n c).before 1 t d))
    ∗ (∃ d, owns (c.tc : Thread nD τ) (st0_2 t) fullShare ((dat0 W n c).before 2 t d))
    ∗ (∃ d, owns (c.tc : Thread nD τ) (st0_3 t) fullShare ((dat0 W n c).before 3 t d)))

/-- and what it returns. -/
def bodyPost0 (c : Dev nD) (t : Fin cfg0.N) : sProp 𝕄 :=
  iprop((dat0 W n c).Φ t.succ ∗ (dat0 W n c).owesAt (none : HIx 1) t.succ
    ∗ owns (c.tc : Thread nD τ) (st0_0 t) fullShare ((dat0 W n c).after 0 t)
    ∗ owns (c.tc : Thread nD τ) (st0_1 t) fullShare ((dat0 W n c).after 1 t)
    ∗ owns (c.tc : Thread nD τ) (st0_2 t) fullShare ((dat0 W n c).after 2 t)
    ∗ owns (c.tc : Thread nD τ) (st0_3 t) fullShare ((dat0 W n c).after 3 t))

/-- The body at the point: the inputs' buffers hold their arrays, so the body's triple applies; the invariant and what
    the core owes pass through unread. -/
theorem sound_body0 (c : Dev nD) (t : Fin cfg0.N) :
    bodyPre0 W n c t ⊢ wp frame (wpE (defs₀ (F := F)) Variants.none (c.tc : Thread nD τ) none) Set.univ (bodyAt0 t) (fun _ => bodyPost0 W n c t) := by
  unfold bodyPre0 bodyPost0 bodyAt0
  simp only [before0_0, before0_1, before0_2]
  rw [show (dat0 W n c).Φ t.succ = (dat0 W n c).Φ t.castSucc from rfl,
    show (dat0 W n c).owesAt (none : HIx 1) t.succ = (dat0 W n c).owesAt (none : HIx 1) t.castSucc from rfl,
    after0_0, after0_1, after0_2, after0_3]
  iintro ⟨HΦ, Ho, ⟨%d0, H0⟩, ⟨%d1, H1⟩, ⟨%d2, H2⟩, ⟨%d3, H3⟩⟩
  iapply (sound_table c Set.univ _ _ _ _ _ _ _ _ (iblk0 W c 0 t) (iblk0 W c 1 t) (iblk0 W c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the one point. -/
theorem body_obligation0 (c : Dev nD) : BodyObligation (dat0 (F := F) W n c) (defs₀ (F := F)) Variants.none (none : HIx 1) Set.univ := fun t => by
  rw [bigSep_W0, bigSep_W0]
  exact sound_body0 W n c t

end Region0

end Cert.Proof.KI

end
-- ==== Proof.KI.Region1.lean ====
/-
  The last TensorCore call (the mean): its proof data on a core whose TensorCore owes the launch nothing more, and the
  body's triple — one whole load of the 512 partial sums, one store of their sum over the token count.
-/
import proofs.«205364_g71897752535391_cont_9to1_m_950_21_alg».proof.Proof.KI.Region0

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region1

variable (W : Valuation τ sig (Elt F)) (n : ℕ)

/-- Window `w`'s block at the one point, read off its array as the region finds it. -/
def iblk1 (c : Dev nD) (w : Fin cfg2.W) (t : Fin cfg2.N) : ((cfg2.win w).xblock (cfg2.grid.coords t)).Idx → Elt F (cfg2.win w).elt :=
  ((cfg2.win w).blk t).view.read (Elt F) (rd W c (Pipeline.arrRef spec2 w))

/-- The proof data of the mean's call on core `c`, entered at the contents `W` before SparseCore call `n`. -/
def dat1 (c : Dev nD) : Dat τ (Elt F) (HIx 1) ℕ UU ℕ cfg2 c where
  A w := rd W c (Pipeline.arrRef spec2 w)
  after w t := match w with
    | ⟨0, _⟩ => iblk1 W c 0 t
    | ⟨1, _⟩ => outRes (iblk1 W c 0 t)
  Φ _ := Pipeline.scopedRest (Ix := HIx 1) (Name := ℕ) (U := UU) (Lvl := ℕ) (Val := Elt F) spec2 c
  q _ := fullShare
  owed _ := (K (F := F)).Otc c n
  recorded _ := {p | (K (F := F)).lev ((c.tc : Thread nD τ), p.1) p.2 ≤ 8 * n}

theorem A1_eq (c : Dev nD) (w : Fin cfg2.W) : (dat1 W n c).A w = rd W c (Pipeline.arrRef spec2 w) := by dsimp only [dat1]
theorem after1_0 (c : Dev nD) (t : Fin cfg2.N) : (dat1 W n c).after 0 t = iblk1 W c 0 t := by dsimp only [dat1]
theorem after1_1 (c : Dev nD) (t : Fin cfg2.N) : (dat1 W n c).after 1 t = outRes (iblk1 W c 0 t) := by dsimp only [dat1]

theorem before1_0 (c : Dev nD) (t : Fin cfg2.N) (d) : (dat1 W n c).before 0 t d = iblk1 W c 0 t :=
  ((dat1 W n c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)

theorem cover1 (p0 : Vec F S1x1 .f32) (y : S1x1.Idx) :
    ∃ pc ∈ ([⟨r2r, p0⟩] : List (View.Piece (Elt F) S1x1 .f32)), y ∈ pc.1.set :=
  View.cover_of_tiled [⟨r2r, p0⟩] S1x1.size (by rfl) y

set_option maxHeartbeats 1000000 in
/-- The mean's body on whole staging memrefs: the partial sums read, their mean stored. -/
theorem sound_mean (c : Dev nD) (E : Set ℕ) (arg0 : Memref sig .tc .vmem S512 .f32) (harg0 : arg0.IsWhole) (arg1 : Memref sig .tc .vmem S1x1 .f32) (harg1 : arg1.IsWhole)
    (x0 : Vec F S512 .f32) (Kk : PUnit → sProp 𝕄) :
    iprop(owns (c.tc : Thread nD τ) arg0 fullShare x0 ∗ (∃ d, owns (c.tc : Thread nD τ) arg1 fullShare d)
        ∗ (iprop(owns (c.tc : Thread nD τ) arg0 fullShare x0 ∗ owns (c.tc : Thread nD τ) arg1 fullShare (outRes x0)) -∗ Kk ⟨⟩))
      ⊢ wp frame (wpE (defs₀ (F := F)) Variants.none (c.tc : Thread nD τ) none) E (cc2_combine_body arg0 harg0 arg1 harg1) Kk := by
  simp only [cc2_combine_body_eq_skeleton]; unfold cc2_combine_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

def bodyPre1 (c : Dev nD) (t : Fin cfg2.N) : sProp 𝕄 :=
  iprop((dat1 W n c).Φ t.castSucc ∗ (dat1 W n c).owesAt (none : HIx 1) t.castSucc
    ∗ (∃ d, owns (c.tc : Thread nD τ) (st2_0 t) fullShare ((dat1 W n c).before 0 t d))
    ∗ (∃ d, owns (c.tc : Thread nD τ) (st2_1 t) fullShare ((dat1 W n c).before 1 t d)))

def bodyPost1 (c : Dev nD) (t : Fin cfg2.N) : sProp 𝕄 :=
  iprop((dat1 W n c).Φ t.succ ∗ (dat1 W n c).owesAt (none : HIx 1) t.succ
    ∗ owns (c.tc : Thread nD τ) (st2_0 t) fullShare ((dat1 W n c).after 0 t)
    ∗ owns (c.tc : Thread nD τ) (st2_1 t) fullShare ((dat1 W n c).after 1 t))

theorem sound_body1 (c : Dev nD) (t : Fin cfg2.N) :
    bodyPre1 W n c t ⊢ wp frame (wpE (defs₀ (F := F)) Variants.none (c.tc : Thread nD τ) none) Set.univ (bodyAt2 t) (fun _ => bodyPost1 W n c t) := by
  unfold bodyPre1 bodyPost1 bodyAt2
  simp only [before1_0]
  rw [show (dat1 W n c).Φ t.succ = (dat1 W n c).Φ t.castSucc from rfl,
    show (dat1 W n c).owesAt (none : HIx 1) t.succ = (dat1 W n c).owesAt (none : HIx 1) t.castSucc from rfl,
    after1_0, after1_1]
  iintro ⟨HΦ, Ho, ⟨%d0, H0⟩, ⟨%d1, H1⟩⟩
  iapply (sound_mean c Set.univ _ _ _ _ (iblk1 W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) W n c) (defs₀ (F := F)) Variants.none (none : HIx 1) Set.univ := fun t => by
  rw [bigSep_W2, bigSep_W2]
  exact sound_body1 W n c t

end Region1

end Cert.Proof.KI

end
-- ==== Proof.KI.Segs.lean ====
/-
  The two TensorCore calls as regions of @main entered while the TensorCore owes the SparseCore call's handshakes: each
  region's record — layout, body obligation, wait evidence from the level facts (everything the TensorCore owes sits
  above the staging cells' level), and the four entailments between the thread state around the region (the unscoped
  buffers held at a valuation, what the core owes) and the pipeline's own terms.
-/
import proofs.«205364_g71897752535391_cont_9to1_m_950_21_alg».proof.Proof.KI.Region1

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

variable (W0 W1 : Valuation τ sig (Elt F)) (n0 n1 : ℕ)

/-- Both calls' proof data, by the pipeline's index. -/
def pdats : (p : Fin 2) → (c : Dev nD) → Dat τ (Elt F) (HIx 1) ℕ UU ℕ (Pipeline.pin (pcfgs (F := F)) adm p) c
  | ⟨0, _⟩ => fun c => dat0 W0 n0 c
  | ⟨1, _⟩ => fun c => dat1 W1 n1 c

/-- The TensorCore's state between segments before SparseCore call `n`: its unscoped buffers held at `Wv`, and what it
    owes the launch, its recorded pairs at or below level 8·n. -/
def TS (Wv : Valuation τ sig (Elt F)) (n : ℕ) (c : Dev nD) : sProp 𝕄 :=
  iprop(held (c.tc : Thread nD τ) (Pipeline.ucRefs τ sig) Wv
    ∗ ∃ Wt, ⌜(K (F := F)).WBelow (T c) Wt (8 * n)⌝ ∗ owes (T c) ((K (F := F)).Otc c n) Wt)

set_option quotPrecheck false in
local notation "ℝ𝕊" => Pipeline.RegionSeg (pcfgs (F := F)) adm (pdats W0 W1 n0 n1) (none : HIx 1) defs₀ 𝒱₀ (K (F := F)).L (K (F := F)).lev

theorem Otc_none (c : Dev nD) (n : ℕ) (g : GSem nD τ sig) : (K (F := F)).Otc c n g none = 0 := by
  by_contra h
  have := (K (F := F)).lev_of_Otc_pos (Nat.pos_of_ne_zero h); rw [SparseCore.Cfg.lev_none] at this; omega

/-- The contents after the first call: the table where its result array was. -/
def W0' (c : Dev nD) : Valuation τ sig (Elt F) :=
  Function.update W0 (Proc.devRef .tc main_v0) ((dat0 W0 n0 c).arrAt 3 cfg0.N)

/-- The wait evidence of a call's staging cells: everything the TensorCore owes the launch sits above level 0. -/
theorem hwaits (p : Fin 2) (c : Dev nD) (howed : ∀ t, ∃ n, (pdats W0 W1 n0 n1 p c).owed t = (K (F := F)).Otc c n) :
    (levAts (K (F := F)).L (K (F := F)).lev : sProp 𝕄) ⊢ Pipeline.cellsWaits (Pipeline.pin (pcfgs (F := F)) adm) (pdats W0 W1 n0 n1) (none : HIx 1) p c :=
  Pipeline.cellsWaits_intro (Pipeline.pin (pcfgs (F := F)) adm) (pdats W0 W1 n0 n1) (none : HIx 1) p c fun w s t => by
    obtain ⟨n, hn⟩ := howed t
    rw [hn]
    exact (K (F := F)).mayWait_none _ (Otc_none c n)

omit [FloatOps F] in
theorem bigSep_Fin0 (Φ : Fin 0 → sProp 𝕄) : bigSep Finset.univ Φ = (BI.emp : sProp 𝕄) :=
  bigSep_univ_eq_bigSepL [] (by decide) (by decide) Φ
theorem prefHeld0 (c : Dev nD) (q) (pf) : (Pipeline.prefHeld (Ix := HIx 1) (Name := ℕ) (U := UU) (Lvl := ℕ) (Val := Elt F) (pcfgs (F := F) 0).pre c q pf : sProp 𝕄) = BI.emp :=
  bigSep_Fin0 _
theorem prefHeld1 (c : Dev nD) (q) (pf) : (Pipeline.prefHeld (Ix := HIx 1) (Name := ℕ) (U := UU) (Lvl := ℕ) (Val := Elt F) (pcfgs (F := F) 1).pre c q pf : sProp 𝕄) = BI.emp :=
  bigSep_Fin0 _

/-- After the call every array of the first pipeline holds what the new contents say: the inputs as before, the result the table. -/
theorem arrAt0_eq (c : Dev nD) : ∀ w : Fin cfg0.W, (dat0 W0 n0 c).arrAt w cfg0.N = rd (W0' W0 n0 c) c (Pipeline.arrRef spec0 w)
  | ⟨0, h⟩ => ((dat0 W0 n0 c).arrAt_in ⟨0, h⟩ rfl _).trans ((A0_eq W0 n0 c _).trans (by
      show W0 (Proc.devRef .tc main_arg2) = Function.update W0 (Proc.devRef .tc main_v0) _ (Proc.devRef .tc main_arg2)
      rw [Function.update_of_ne (by decide)]))
  | ⟨1, h⟩ => ((dat0 W0 n0 c).arrAt_in ⟨1, h⟩ rfl _).trans ((A0_eq W0 n0 c _).trans (by
      show W0 (Proc.devRef .tc main_arg3) = Function.update W0 (Proc.devRef .tc main_v0) _ (Proc.devRef .tc main_arg3)
      rw [Function.update_of_ne (by decide)]))
  | ⟨2, h⟩ => ((dat0 W0 n0 c).arrAt_in ⟨2, h⟩ rfl _).trans ((A0_eq W0 n0 c _).trans (by
      show W0 (Proc.devRef .tc main_arg4) = Function.update W0 (Proc.devRef .tc main_v0) _ (Proc.devRef .tc main_arg4)
      rw [Function.update_of_ne (by decide)]))
  | ⟨3, h⟩ => by
    show _ = Function.update W0 (Proc.devRef .tc main_v0) ((dat0 W0 n0 c).arrAt 3 cfg0.N) (Proc.devRef .tc main_v0)
    rw [Function.update_self]; rfl

omit [FloatOps F] in
/-- The unscoped rest of a pipeline reads a valuation only off the pipeline's arrays. -/
theorem unscopedRest_congr {gr : Nat} {Wn : Nat} (win : Fin Wn → Pipeline.WinSpec sig gr) (c : Dev nD)
    (V V' : (b : Ref sig .tc) → Buf (Elt F) ((c.tc : Thread nD τ).loc b)) (h : ∀ b, b ∉ Finset.univ.image (Pipeline.arrRef win) → V b = V' b) :
    (Pipeline.unscopedRest win c V : sProp 𝕄) = Pipeline.unscopedRest win c V' := by
  unfold Pipeline.unscopedRest
  exact bigSep_congr fun b hb => by rw [h b (Finset.mem_sdiff.mp hb).2]

/-- The table's call as a region. -/
def reg0 : ℝ𝕊 0 where
  win := winFacts0.to₀
  block_pos := block_pos0
  stage_whole := stage_whole0
  K := PEmpty
  osem k := k.elim
  ho := Pipeline.OwnSemFacts.none _
  hbody c := (body_obligation0 W0 n0 c).loose
  hwaits c := hwaits W0 W1 n0 n1 0 c fun _ => ⟨n0, rfl⟩
  pre c := TS W0 n0 c
  post c := TS (W0' W0 n0 c) n0 c
  X _ := iprop(emp)
  Y _ := iprop(emp)
  Z c := Pipeline.unscopedRest spec0 c (rd W0 c)
  hentry c := by
    show iprop(TS W0 n0 c ∗ Pipeline.ownSems0 (fun k : PEmpty => k.elim) c ∗ levAts (K (F := F)).L (K (F := F)).lev)
      ⊢ |={Set.univ}=> iprop((dat0 W0 n0 c).arrays ((dat0 W0 n0 c).arrAt · 0) ∗ Pipeline.prefHeld (pcfgs (F := F) 0).pre c (fun _ => fullShare) (adm (F := F) 0).1
        ∗ (dat0 W0 n0 c).owesAt (none : HIx 1) 0 ∗ emp ∗ Pipeline.unscopedRest spec0 c (rd W0 c))
    unfold TS
    rw [← Pipeline.unscopedBufs_held c W0]
    iintro ⟨⟨Hu, %Wt, %hWt, HO⟩, -, -⟩
    ihave H := (Pipeline.arrays_of_unscopedBufs (pcfgs (F := F)) adm (pdats W0 W1 n0 n1) (p := 0) winFacts0 arr_whole0 c ((dat0 W0 n0 c).share_full fun _ => rfl) (rd W0 c) (fun w => A0_eq W0 n0 c w)) $$ Hu
    icases H with ⟨Harr, Hrest⟩
    imodintro
    isplitl [Harr]; · iexact Harr
    isplitr
    · rw [prefHeld0]; iempintro
    isplitl [HO]
    · unfold Dat.owesAt Pipeline.owesWithin Dat.bound
      iexists Wt; isplitr
      · ipureintro; exact fun p hp => Or.inl (hWt p hp)
      · iexact HO
    isplitr; · iempintro
    iexact Hrest
  hin c := by
    show iprop(emp ∗ Pipeline.prefHeld (pcfgs (F := F) 0).pre c (fun _ => fullShare) (adm (F := F) 0).1 ∗ Pipeline.scopedRest (Ix := HIx 1) (Name := ℕ) (U := UU) (Lvl := ℕ) (Val := Elt F) spec0 c) ⊢ (Pipeline.scopedRest (Ix := HIx 1) (Name := ℕ) (U := UU) (Lvl := ℕ) (Val := Elt F) spec0 c : sProp 𝕄)
    iintro ⟨-, -, H⟩; iexact H
  hout c := by
    show (Pipeline.scopedRest (Ix := HIx 1) (Name := ℕ) (U := UU) (Lvl := ℕ) (Val := Elt F) spec0 c : sProp 𝕄) ⊢ iprop(emp ∗ Pipeline.ownSems0 (fun k : PEmpty => k.elim) c ∗ Pipeline.scopedRest (Ix := HIx 1) (Name := ℕ) (U := UU) (Lvl := ℕ) (Val := Elt F) spec0 c)
    rw [Pipeline.ownSems0_none]
    iintro H
    isplitr; · iempintro
    isplitr; · iempintro
    iexact H
  hexit c := by
    show iprop((dat0 W0 n0 c).arrays ((dat0 W0 n0 c).arrAt · cfg0.N) ∗ (dat0 W0 n0 c).owesAt (none : HIx 1) (Fin.last cfg0.N) ∗ emp ∗ Pipeline.unscopedRest spec0 c (rd W0 c))
      ⊢ |={Set.univ}=> TS (W0' W0 n0 c) n0 c
    have harr : (dat0 W0 n0 c).arrays (fun w => (dat0 W0 n0 c).arrAt w cfg0.N)
        = bigSep Finset.univ fun w : Fin (Pipeline.pin (pcfgs (F := F)) adm 0).W => (((c.tc : Thread nD τ).loc (Pipeline.arrRef (Pipeline.pin (pcfgs (F := F)) adm 0).spec w)) ↦{fullShare} rd (W0' W0 n0 c) c (Pipeline.arrRef (Pipeline.pin (pcfgs (F := F)) adm 0).spec w) : sProp 𝕄) :=
      (Pipeline.arrays_eq (Pipeline.pin (pcfgs (F := F)) adm) (pdats W0 W1 n0 n1) 0 c arr_whole0 ((dat0 W0 n0 c).share_full fun _ => rfl) (fun w => (dat0 W0 n0 c).arrAt w cfg0.N)).trans
        (bigSep_congr fun w _ => by rw [arrAt0_eq W0 n0 c w]; rfl)
    have hrest : (Pipeline.unscopedRest spec0 c (rd (W0' W0 n0 c) c) : sProp 𝕄) = Pipeline.unscopedRest spec0 c (rd W0 c) :=
      unscopedRest_congr spec0 c _ _ fun b hb => by
        show Function.update W0 (Proc.devRef .tc main_v0) _ (Proc.devRef .tc b) = W0 (Proc.devRef .tc b)
        refine Function.update_of_ne (fun e => hb ?_) _ _
        rw [Proc.devRef_injective _ e]
        exact Finset.mem_image.mpr ⟨3, Finset.mem_univ _, rfl⟩
    unfold TS
    rw [← Pipeline.unscopedBufs_held c (W0' W0 n0 c),
      Pipeline.unscopedBufs_split (Pipeline.pin (pcfgs (F := F)) adm) 0 winFacts0.arr_unscoped winFacts0.arr_inj c (rd (W0' W0 n0 c) c), harr]
    iintro ⟨Harr, HO, -, Hrest⟩
    imodintro
    isplitl [Harr Hrest]
    · isplitl [Harr]
      · iexact Harr
      · iapply (Entails.of_eq hrest.symm); iexact Hrest
    · unfold Dat.owesAt Pipeline.owesWithin Dat.bound
      icases HO with ⟨%Wt, %hWt, HO⟩
      iexists Wt; isplitr
      · ipureintro
        intro p hp
        rcases hWt hp with h | ⟨w, s, rfl⟩
        · exact h
        · show (K (F := F)).lev _ none ≤ _
          rw [SparseCore.Cfg.lev_none]; exact Nat.zero_le _
      · iexact HO

/-- The contents after the last call: the mean where its result array was. -/
def W1' (c : Dev nD) : Valuation τ sig (Elt F) :=
  Function.update W1 (Proc.devRef .tc main_v4) ((dat1 W1 n1 c).arrAt 1 cfg2.N)

theorem arrAt1_eq (c : Dev nD) : ∀ w : Fin cfg2.W, (dat1 W1 n1 c).arrAt w cfg2.N = rd (W1' W1 n1 c) c (Pipeline.arrRef spec2 w)
  | ⟨0, h⟩ => ((dat1 W1 n1 c).arrAt_in ⟨0, h⟩ rfl _).trans ((A1_eq W1 n1 c _).trans (by
      show W1 (Proc.devRef .tc main_v3) = Function.update W1 (Proc.devRef .tc main_v4) _ (Proc.devRef .tc main_v3)
      rw [Function.update_of_ne (by decide)]))
  | ⟨1, h⟩ => by
    show _ = Function.update W1 (Proc.devRef .tc main_v4) ((dat1 W1 n1 c).arrAt 1 cfg2.N) (Proc.devRef .tc main_v4)
    rw [Function.update_self]; rfl

/-- The mean's call as a region. -/
def reg1 : ℝ𝕊 1 where
  win := winFacts2.to₀
  block_pos := block_pos2
  stage_whole := stage_whole2
  K := PEmpty
  osem k := k.elim
  ho := Pipeline.OwnSemFacts.none _
  hbody c := (body_obligation1 W1 n1 c).loose
  hwaits c := hwaits W0 W1 n0 n1 1 c fun _ => ⟨n1, rfl⟩
  pre c := TS W1 n1 c
  post c := TS (W1' W1 n1 c) n1 c
  X _ := iprop(emp)
  Y _ := iprop(emp)
  Z c := Pipeline.unscopedRest spec2 c (rd W1 c)
  hentry c := by
    show iprop(TS W1 n1 c ∗ Pipeline.ownSems0 (fun k : PEmpty => k.elim) c ∗ levAts (K (F := F)).L (K (F := F)).lev)
      ⊢ |={Set.univ}=> iprop((dat1 W1 n1 c).arrays ((dat1 W1 n1 c).arrAt · 0) ∗ Pipeline.prefHeld (pcfgs (F := F) 1).pre c (fun _ => fullShare) (adm (F := F) 1).1
        ∗ (dat1 W1 n1 c).owesAt (none : HIx 1) 0 ∗ emp ∗ Pipeline.unscopedRest spec2 c (rd W1 c))
    unfold TS
    rw [← Pipeline.unscopedBufs_held c W1]
    iintro ⟨⟨Hu, %Wt, %hWt, HO⟩, -, -⟩
    ihave H := (Pipeline.arrays_of_unscopedBufs (pcfgs (F := F)) adm (pdats W0 W1 n0 n1) (p := 1) winFacts2 arr_whole2 c ((dat1 W1 n1 c).share_full fun _ => rfl) (rd W1 c) (fun w => A1_eq W1 n1 c w)) $$ Hu
    icases H with ⟨Harr, Hrest⟩
    imodintro
    isplitl [Harr]; · iexact Harr
    isplitr
    · rw [prefHeld1]; iempintro
    isplitl [HO]
    · unfold Dat.owesAt Pipeline.owesWithin Dat.bound
      iexists Wt; isplitr
      · ipureintro; exact fun p hp => Or.inl (hWt p hp)
      · iexact HO
    isplitr; · iempintro
    iexact Hrest
  hin c := by
    show iprop(emp ∗ Pipeline.prefHeld (pcfgs (F := F) 1).pre c (fun _ => fullShare) (adm (F := F) 1).1 ∗ Pipeline.scopedRest (Ix := HIx 1) (Name := ℕ) (U := UU) (Lvl := ℕ) (Val := Elt F) spec2 c) ⊢ (Pipeline.scopedRest (Ix := HIx 1) (Name := ℕ) (U := UU) (Lvl := ℕ) (Val := Elt F) spec2 c : sProp 𝕄)
    iintro ⟨-, -, H⟩; iexact H
  hout c := by
    show (Pipeline.scopedRest (Ix := HIx 1) (Name := ℕ) (U := UU) (Lvl := ℕ) (Val := Elt F) spec2 c : sProp 𝕄) ⊢ iprop(emp ∗ Pipeline.ownSems0 (fun k : PEmpty => k.elim) c ∗ Pipeline.scopedRest (Ix := HIx 1) (Name := ℕ) (U := UU) (Lvl := ℕ) (Val := Elt F) spec2 c)
    rw [Pipeline.ownSems0_none]
    iintro H
    isplitr; · iempintro
    isplitr; · iempintro
    iexact H
  hexit c := by
    show iprop((dat1 W1 n1 c).arrays ((dat1 W1 n1 c).arrAt · cfg2.N) ∗ (dat1 W1 n1 c).owesAt (none : HIx 1) (Fin.last cfg2.N) ∗ emp ∗ Pipeline.unscopedRest spec2 c (rd W1 c))
      ⊢ |={Set.univ}=> TS (W1' W1 n1 c) n1 c
    have harr : (dat1 W1 n1 c).arrays (fun w => (dat1 W1 n1 c).arrAt w cfg2.N)
        = bigSep Finset.univ fun w : Fin (Pipeline.pin (pcfgs (F := F)) adm 1).W => (((c.tc : Thread nD τ).loc (Pipeline.arrRef (Pipeline.pin (pcfgs (F := F)) adm 1).spec w)) ↦{fullShare} rd (W1' W1 n1 c) c (Pipeline.arrRef (Pipeline.pin (pcfgs (F := F)) adm 1).spec w) : sProp 𝕄) :=
      (Pipeline.arrays_eq (Pipeline.pin (pcfgs (F := F)) adm) (pdats W0 W1 n0 n1) 1 c arr_whole2 ((dat1 W1 n1 c).share_full fun _ => rfl) (fun w => (dat1 W1 n1 c).arrAt w cfg2.N)).trans
        (bigSep_congr fun w _ => by rw [arrAt1_eq W1 n1 c w]; rfl)
    have hrest : (Pipeline.unscopedRest spec2 c (rd (W1' W1 n1 c) c) : sProp 𝕄) = Pipeline.unscopedRest spec2 c (rd W1 c) :=
      unscopedRest_congr spec2 c _ _ fun b hb => by
        show Function.update W1 (Proc.devRef .tc main_v4) _ (Proc.devRef .tc b) = W1 (Proc.devRef .tc b)
        refine Function.update_of_ne (fun e => hb ?_) _ _
        rw [Proc.devRef_injective _ e]
        exact Finset.mem_image.mpr ⟨1, Finset.mem_univ _, rfl⟩
    unfold TS
    rw [← Pipeline.unscopedBufs_held c (W1' W1 n1 c),
      Pipeline.unscopedBufs_split (Pipeline.pin (pcfgs (F := F)) adm) 1 winFacts2.arr_unscoped winFacts2.arr_inj c (rd (W1' W1 n1 c) c), harr]
    iintro ⟨Harr, HO, -, Hrest⟩
    imodintro
    isplitl [Harr Hrest]
    · isplitl [Harr]
      · iexact Harr
      · iapply (Entails.of_eq hrest.symm); iexact Hrest
    · unfold Dat.owesAt Pipeline.owesWithin Dat.bound
      icases HO with ⟨%Wt, %hWt, HO⟩
      iexists Wt; isplitr
      · ipureintro
        intro p hp
        rcases hWt hp with h | ⟨w, s, rfl⟩
        · exact h
        · show (K (F := F)).lev _ none ≤ _
          rw [SparseCore.Cfg.lev_none]; exact Nat.zero_le _
      · iexact HO

/-! ## The regions as steps of @main under the extended body table -/

set_option maxHeartbeats 1000000 in
/-- A pipeline's entry call, lifted to the extended signature, is the call @main makes. -/
theorem lift_entry (p : Fin 2) :
    (SparseCore.liftProg (Q := 1) (Prog.lift (.customCall (Pipeline.entry p) ()) : Prog (TpuEff nD τ sig (Elt F) (ΛP (F := F)) .tc) PUnit))
      = Prog.lift (.customCall (SparseCore.inner (Pipeline.entry p)) ()) := rfl

theorem pin_cellOf_inj : Function.Injective (Pipeline.cellOf (nD := nD) (τ := τ) (Pipeline.pin (pcfgs (F := F)) adm)) := cellOf_inj

theorem reg0_pre (c : Dev nD) : (reg0 W0 W1 n0 n1).pre c = TS W0 n0 c := rfl
theorem reg0_post (c : Dev nD) : (reg0 W0 W1 n0 n1).post c = TS (W0' W0 n0 c) n0 c := rfl
theorem reg1_pre (c : Dev nD) : (reg1 W0 W1 n0 n1).pre c = TS W1 n1 c := rfl
theorem reg1_post (c : Dev nD) : (reg1 W0 W1 n0 n1).post c = TS (W1' W1 n1 c) n1 c := rfl

set_option backward.isDefEq.respectTransparency.types false in
/-- The table's call under the pipelines' body table, by the region rule. -/
def wp_region0_raw [∀ e, Nonempty (Elt F e)] (c : Dev nD) (Φ : PUnit → sProp 𝕄) :=
  Pipeline.RegionSeg.wp (pcfgs (F := F)) adm (pdats W0 W1 n0 n1) (none : HIx 1) pin_cellOf_inj EP defs₀ 𝒱₀ (K (F := F)).L (K (F := F)).lev
    (reg0 W0 W1 n0 n1) c none (fun _ h => nomatch h) (fun _ => .ret ⟨⟩) Φ

set_option backward.isDefEq.respectTransparency.types false in
/-- The mean's call under the pipelines' body table, by the region rule. -/
def wp_region1_raw [∀ e, Nonempty (Elt F e)] (c : Dev nD) (Φ : PUnit → sProp 𝕄) :=
  Pipeline.RegionSeg.wp (pcfgs (F := F)) adm (pdats W0 W1 n0 n1) (none : HIx 1) pin_cellOf_inj EP defs₀ 𝒱₀ (K (F := F)).L (K (F := F)).lev
    (reg1 W0 W1 n0 n1) c none (fun _ h => nomatch h) (fun _ => .ret ⟨⟩) Φ

include W1 n1 in
set_option backward.isDefEq.respectTransparency.types false in
/-- The table's call in @main: from the boundary, the thread state, the level facts and the first pipeline's ghost state. -/
theorem wp_region0 [∀ e, Nonempty (Elt F e)] (c : Dev nD) (Φ : PUnit.{1} → sProp 𝕄) :
    iprop((iprop(boundary (c.tc : Thread nD τ) ∗ TS (W0' W0 n0 c) n0 c) -∗ Φ ⟨⟩)
        ∗ boundary (c.tc : Thread nD τ) ∗ TS W0 n0 c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (c.tc : Thread nD τ) none) Set.univ
          (Prog.lift (.customCall (SparseCore.inner (Pipeline.entry 0)) ())) Φ := by
  have h1 : iprop((iprop(boundary (c.tc : Thread nD τ) ∗ TS (W0' W0 n0 c) n0 c) -∗ Φ ⟨⟩)
        ∗ boundary (c.tc : Thread nD τ) ∗ TS W0 n0 c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ iprop((iprop(boundary (c.tc : Thread nD τ) ∗ TS (W0' W0 n0 c) n0 c)
            -∗ wp frame (wpE (Pipeline.defs (pcfgs (F := F)) defs₀) (Variants.lift 𝒱₀) (c.tc : Thread nD τ) none) Set.univ (Prog.ret PUnit.unit) Φ)
        ∗ boundary (c.tc : Thread nD τ) ∗ TS W0 n0 c ∗ levAts (K (F := F)).L (K (F := F)).lev
        ∗ Pipeline.cellsGhost (Pipeline.pin (pcfgs (F := F)) adm) EP 0 c ∗ Pipeline.toksInit (Pipeline.pin (pcfgs (F := F)) adm) EP 0 c) := by
    iintro ⟨Hk, Hrest⟩
    isplitl [Hk]
    · iintro H; rw [wp_ret]; imodintro; iapply Hk; iexact H
    · iexact Hrest
  have h2 := wp_region0_raw W0 W1 n0 n1 c Φ
  rw [reg0_pre, reg0_post] at h2
  rw [← lift_entry (F := F) 0]
  exact BI.Entails.trans (BI.Entails.trans h1 h2) ((K (F := F)).wp_liftProg (D (F := F)) 𝒱 (c.tc : Thread nD τ) Set.univ none (Prog.lift (.customCall (Pipeline.entry 0) ())) Φ)

include W0 n0 in
set_option backward.isDefEq.respectTransparency.types false in
/-- The mean's call in @main. -/
theorem wp_region1 [∀ e, Nonempty (Elt F e)] (c : Dev nD) (Φ : PUnit.{1} → sProp 𝕄) :
    iprop((iprop(boundary (c.tc : Thread nD τ) ∗ TS (W1' W1 n1 c) n1 c) -∗ Φ ⟨⟩)
        ∗ boundary (c.tc : Thread nD τ) ∗ TS W1 n1 c ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE ((K (F := F)).defs (D (F := F))) 𝒱 (c.tc : Thread nD τ) none) Set.univ
          (Prog.lift (.customCall (SparseCore.inner (Pipeline.entry 1)) ())) Φ := by
  have h1 : iprop((iprop(boundary (c.tc : Thread nD τ) ∗ TS (W1' W1 n1 c) n1 c) -∗ Φ ⟨⟩)
        ∗ boundary (c.tc : Thread nD τ) ∗ TS W1 n1 c ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ iprop((iprop(boundary (c.tc : Thread nD τ) ∗ TS (W1' W1 n1 c) n1 c)
            -∗ wp frame (wpE (Pipeline.defs (pcfgs (F := F)) defs₀) (Variants.lift 𝒱₀) (c.tc : Thread nD τ) none) Set.univ (Prog.ret PUnit.unit) Φ)
        ∗ boundary (c.tc : Thread nD τ) ∗ TS W1 n1 c ∗ levAts (K (F := F)).L (K (F := F)).lev
        ∗ Pipeline.cellsGhost (Pipeline.pin (pcfgs (F := F)) adm) EP 1 c ∗ Pipeline.toksInit (Pipeline.pin (pcfgs (F := F)) adm) EP 1 c) := by
    iintro ⟨Hk, Hrest⟩
    isplitl [Hk]
    · iintro H; rw [wp_ret]; imodintro; iapply Hk; iexact H
    · iexact Hrest
  have h2 := wp_region1_raw W0 W1 n0 n1 c Φ
  rw [reg1_pre, reg1_post] at h2
  rw [← lift_entry (F := F) 1]
  exact BI.Entails.trans (BI.Entails.trans h1 h2) ((K (F := F)).wp_liftProg (D (F := F)) 𝒱 (c.tc : Thread nD τ) Set.univ none (Prog.lift (.customCall (Pipeline.entry 1) ())) Φ)

end Cert.Proof.KI

end
-- ==== Proof.KI.Call.lean ====
/-
  The SparseCore call's operands: the four arrays it touches out of the TensorCore's unscoped buffers, x, y and the
  result cut into the thirty-two blocks, the table into thirty-two read tokens, one quadruple per tile; and back.
-/
import proofs.«205364_g71897752535391_cont_9to1_m_950_21_alg».proof.Proof.KI.Base

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

abbrev x' : DevRef τ sig := Proc.devRef .tc (main_arg0 : Ref sig .tc)
abbrev y' : DevRef τ sig := Proc.devRef .tc (main_arg1 : Ref sig .tc)
abbrev e' : DevRef τ sig := Proc.devRef .tc (main_arg2 : Ref sig .tc)
abbrev f' : DevRef τ sig := Proc.devRef .tc (main_arg3 : Ref sig .tc)
abbrev b' : DevRef τ sig := Proc.devRef .tc (main_arg4 : Ref sig .tc)
abbrev w' : DevRef τ sig := Proc.devRef .tc (main_v2 : Ref sig .tc)
abbrev o' : DevRef τ sig := Proc.devRef .tc (main_v3 : Ref sig .tc)

/-- The arrays the SparseCore call touches. -/
abbrev T4 : Finset (DevRef τ sig) := {x', y', w', o'}
/-- The arguments. -/
abbrev A5 : Finset (DevRef τ sig) := {x', y', e', f', b'}

theorem held_T4 (d : Dev nD) (Vv : Valuation τ sig (Elt F)) :
    (held (T d) T4 Vv : sProp 𝕄) = iprop((xLoc d ↦{fullShare} Vv x') ∗ (yLoc d ↦{fullShare} Vv y') ∗ (wLoc d ↦{fullShare} Vv w') ∗ (oLoc d ↦{fullShare} Vv o')) := by
  unfold held T4
  rw [SparseCore.bigSep_insert' (by decide), SparseCore.bigSep_insert' (by decide), SparseCore.bigSep_insert' (by decide), bigSep_singleton]

theorem held_A5 (d : Dev nD) (Vv : Valuation τ sig (Elt F)) :
    (held (T d) A5 Vv : sProp 𝕄) = iprop((xLoc d ↦{fullShare} Vv x') ∗ (yLoc d ↦{fullShare} Vv y') ∗ (eLoc d ↦{fullShare} Vv e') ∗ (fLoc d ↦{fullShare} Vv f') ∗ (bLoc d ↦{fullShare} Vv b')) := by
  unfold held A5
  rw [SparseCore.bigSep_insert' (by decide), SparseCore.bigSep_insert' (by decide), SparseCore.bigSep_insert' (by decide), SparseCore.bigSep_insert' (by decide), bigSep_singleton]

/-! ## The thirty-two blocks -/

theorem xdisj : ∀ i ∈ (Finset.univ : Finset (Fin 32)), ∀ j ∈ (Finset.univ : Finset (Fin 32)), i ≠ j → Disjoint (xBlk i) (xBlk j) :=
  fun i _ j _ h => Rect.part_disjoint hdivx h
theorem ydisj : ∀ i ∈ (Finset.univ : Finset (Fin 32)), ∀ j ∈ (Finset.univ : Finset (Fin 32)), i ≠ j → Disjoint (yBlk i) (yBlk j) :=
  fun i _ j _ h => Rect.part_disjoint hdivy h
theorem odisj : ∀ i ∈ (Finset.univ : Finset (Fin 32)), ∀ j ∈ (Finset.univ : Finset (Fin 32)), i ≠ j → Disjoint (oBlk i) (oBlk j) :=
  fun i _ j _ h => Rect.part_disjoint hdivo h
theorem xcover : (Finset.univ : Finset (Fin 32)).biUnion xBlk = Finset.univ := Rect.biUnion_part hdivx
theorem ycover : (Finset.univ : Finset (Fin 32)).biUnion yBlk = Finset.univ := Rect.biUnion_part hdivy
theorem ocover : (Finset.univ : Finset (Fin 32)).biUnion oBlk = Finset.univ := Rect.biUnion_part hdivo

theorem x_blocks (d : Dev nD) (f : Buf (Elt F) (xLoc d)) :
    (xLoc d ↦{fullShare} f : sProp 𝕄) = bigSep Finset.univ fun k : Fin 32 => xLoc d ↦[xBlk k]{fullShare} f := by
  rw [← pointsTo_biUnion Finset.univ (ℓ := xLoc d) xBlk xdisj, xcover]; try rfl
theorem y_blocks (d : Dev nD) (f : Buf (Elt F) (yLoc d)) :
    (yLoc d ↦{fullShare} f : sProp 𝕄) = bigSep Finset.univ fun k : Fin 32 => yLoc d ↦[yBlk k]{fullShare} f := by
  rw [← pointsTo_biUnion Finset.univ (ℓ := yLoc d) yBlk ydisj, ycover]; try rfl
theorem o_blocks (d : Dev nD) (f : Buf (Elt F) (oLoc d)) :
    (oLoc d ↦{fullShare} f : sProp 𝕄) = bigSep Finset.univ fun k : Fin 32 => oLoc d ↦[oBlk k]{fullShare} f := by
  rw [← pointsTo_biUnion Finset.univ (ℓ := oLoc d) oBlk odisj, ocover]; try rfl

/-- The tiles' numbers are the thirty-two blocks, once each. -/
def widEquiv : Fin 2 × Fin 16 ≃ Fin 32 where
  toFun p := wid p.1 p.2
  invFun k := (⟨k.val % 2, Nat.mod_lt _ (by decide)⟩, ⟨k.val / 2, by have := k.isLt; omega⟩)
  left_inv p := by
    obtain ⟨⟨c, hc⟩, ⟨s, hs⟩⟩ := p
    simp only [wid, Prod.mk.injEq, Fin.mk.injEq]
    constructor <;> omega
  right_inv k := by
    apply Fin.ext
    simp only [wid]
    omega

theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-! ## What a tile is handed, and hands back -/

section Pay

variable (d : Dev nD) (fx : Buf (Elt F) (xLoc d)) (fy : Buf (Elt F) (yLoc d)) (fw : Buf (Elt F) (wLoc d)) (fo : Buf (Elt F) (oLoc d))

/-- What tile number `k` is handed: read token `k` of x, of y and of the table (it only reads them), and its block of the result. -/
def tileIn (k : Fin 32) : sProp 𝕄 :=
  iprop((xLoc d ↦{Transfers.shareTok fullShare 32 k} fx) ∗ (yLoc d ↦{Transfers.shareTok fullShare 32 k} fy)
    ∗ (wLoc d ↦{Transfers.shareTok fullShare 32 k} fw) ∗ (oLoc d ↦[oBlk k]{fullShare} fo))
/-- What it hands back: the same, its block of the result at what it wrote. -/
def tileOut (k : Fin 32) : sProp 𝕄 :=
  iprop((xLoc d ↦{Transfers.shareTok fullShare 32 k} fx) ∗ (yLoc d ↦{Transfers.shareTok fullShare 32 k} fy)
    ∗ (wLoc d ↦{Transfers.shareTok fullShare 32 k} fw) ∗ ∃ f, oLoc d ↦[oBlk k]{fullShare} f)

/-- What the TensorCore keeps of x, y and the table while the tiles hold their read tokens. -/
def kept : sProp 𝕄 :=
  iprop((xLoc d ↦{Transfers.shareDrop fullShare 32} fx) ∗ (yLoc d ↦{Transfers.shareDrop fullShare 32} fy) ∗ (wLoc d ↦{Transfers.shareDrop fullShare 32} fw))

/-- The four arrays whole are the tiles' quadruples and the shares of x, y and the table no tile holds. -/
theorem tiles_split :
    iprop((xLoc d ↦{fullShare} fx) ∗ (yLoc d ↦{fullShare} fy) ∗ (wLoc d ↦{fullShare} fw) ∗ (oLoc d ↦{fullShare} fo))
      ⊢ (iprop(kept d fx fy fw ∗ bigSep Finset.univ fun c : Fin 2 => bigSep Finset.univ fun s : Fin 16 => tileIn d fx fy fw fo (wid c s)) : sProp 𝕄) := by
  rw [← bigSep_wid (F := F) (fun k => tileIn d fx fy fw fo k)]
  unfold tileIn kept
  rw [bigSep_sep', bigSep_sep', bigSep_sep', o_blocks]
  iintro ⟨Hx, Hy, Hw, Ho⟩
  ihave Hx' := (Transfers.pointsTo_toks_split (ℓ := xLoc d) (S := Finset.univ) (f := fx) fullShare 32) $$ Hx
  icases Hx' with ⟨Hdx, Htx⟩
  ihave Hy' := (Transfers.pointsTo_toks_split (ℓ := yLoc d) (S := Finset.univ) (f := fy) fullShare 32) $$ Hy
  icases Hy' with ⟨Hdy, Hty⟩
  ihave Hw' := (Transfers.pointsTo_toks_split (ℓ := wLoc d) (S := Finset.univ) (f := fw) fullShare 32) $$ Hw
  icases Hw' with ⟨Hdw, Htw⟩
  isplitl [Hdx Hdy Hdw]
  · isplitl [Hdx]; · iexact Hdx
    isplitl [Hdy] <;> iassumption
  isplitl [Htx]; · iexact Htx
  isplitl [Hty]; · iexact Hty
  isplitl [Htw]; · iexact Htw
  iexact Ho

/-- Back: the quadruples and the kept shares are x, y and the table whole as they were, and the result whole at some contents. -/
theorem tiles_join (f₀ : Buf (Elt F) (oLoc d)) :
    iprop(kept d fx fy fw ∗ bigSep Finset.univ fun c : Fin 2 => bigSep Finset.univ fun s : Fin 16 => tileOut d fx fy fw (wid c s))
      ⊢ (iprop((xLoc d ↦{fullShare} fx) ∗ (yLoc d ↦{fullShare} fy) ∗ (wLoc d ↦{fullShare} fw) ∗ ∃ g, oLoc d ↦{fullShare} g) : sProp 𝕄) := by
  rw [← bigSep_wid (F := F) (fun k => tileOut d fx fy fw k)]
  unfold tileOut kept
  rw [bigSep_sep', bigSep_sep', bigSep_sep']
  iintro ⟨⟨Hdx, Hdy, Hdw⟩, Htx, Hty, Htw, Ho⟩
  isplitl [Hdx Htx]
  · iapply (Transfers.pointsTo_toks_join (ℓ := xLoc d) (S := Finset.univ) (f := fx) fullShare 32)
    isplitl [Hdx] <;> iassumption
  isplitl [Hdy Hty]
  · iapply (Transfers.pointsTo_toks_join (ℓ := yLoc d) (S := Finset.univ) (f := fy) fullShare 32)
    isplitl [Hdy] <;> iassumption
  isplitl [Hdw Htw]
  · iapply (Transfers.pointsTo_toks_join (ℓ := wLoc d) (S := Finset.univ) (f := fw) fullShare 32)
    isplitl [Hdw] <;> iassumption
  haveI : Nonempty (Buf (Elt F) (oLoc d)) := ⟨f₀⟩
  ihave Ho' := (bigSep_exists_pi Finset.univ (fun k (f : Buf (Elt F) (oLoc d)) => (oLoc d ↦[oBlk k]{fullShare} f : sProp 𝕄))) $$ Ho
  icases Ho' with ⟨%fs, H⟩
  ihave H' := (pointsTo_biUnion_join Finset.univ oBlk fs (fs 0) odisj) $$ H
  icases H' with ⟨%g, -, Hg⟩
  rw [ocover]
  iexists g; iexact Hg

end Pay

end Cert.Proof.KI

end
-- ==== Proof.KI.TileRes.lean ====
/-
  The tile's own memory opened: its six scratch buffers and its six DMA semaphores by name, out of the subcore's
  scoped buffers and semaphores, and the operands as the kernel function spells them.
-/
import proofs.«205364_g71897752535391_cont_9to1_m_950_21_alg».proof.Proof.KI.Call

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The six DMA semaphores of a tile: the table's, the two x slots', the two y slots', the result's. -/
abbrev cell_r0 (thr : Thread nD τ) : GSem nD τ sig := (thr, SemLoc.dma (SemArray.sem cc1_scoped0))
abbrev cell_x0 (thr : Thread nD τ) : GSem nD τ sig := (thr, SemLoc.dma (SemArray.sem (SemArray.squeeze (SemArray.slice cc1_scratch6 (Rect.unit (s := S2) ![0] S1.size inb_S2_S1_0)) S_ squeezes_S1_S_)))
abbrev cell_x1 (thr : Thread nD τ) : GSem nD τ sig := (thr, SemLoc.dma (SemArray.sem (SemArray.squeeze (SemArray.slice cc1_scratch6 (Rect.unit (s := S2) ![1] S1.size inb_S2_S1_1)) S_ squeezes_S1_S_)))
abbrev cell_y0 (thr : Thread nD τ) : GSem nD τ sig := (thr, SemLoc.dma (SemArray.sem (SemArray.squeeze (SemArray.slice cc1_scratch7 (Rect.unit (s := S2) ![0] S1.size inb_S2_S1_0)) S_ squeezes_S1_S_)))
abbrev cell_y1 (thr : Thread nD τ) : GSem nD τ sig := (thr, SemLoc.dma (SemArray.sem (SemArray.squeeze (SemArray.slice cc1_scratch7 (Rect.unit (s := S2) ![1] S1.size inb_S2_S1_1)) S_ squeezes_S1_S_)))
abbrev cell_r1 (thr : Thread nD τ) : GSem nD τ sig := (thr, SemLoc.dma (SemArray.sem cc1_scoped1))

variable (d : Dev nD) (c : Fin τ.nSC) (i : Fin τ.nSub)

theorem ownSems0_V :
    (ownSems0 (V d c i) : sProp 𝕄)
      = iprop(semVal (cell_r0 (V d c i)) 0 ∗ semVal (cell_x0 (V d c i)) 0 ∗ semVal (cell_x1 (V d c i)) 0 ∗ semVal (cell_y0 (V d c i)) 0
          ∗ semVal (cell_y1 (V d c i)) 0 ∗ semVal (cell_r1 (V d c i)) 0
          ∗ bigSep (((((((ownCells (V d c i)).erase (cell_r0 (V d c i))).erase (cell_x0 (V d c i))).erase (cell_x1 (V d c i))).erase (cell_y0 (V d c i))).erase (cell_y1 (V d c i))).erase (cell_r1 (V d c i))) fun g => semVal g 0) := by
  unfold SparseCore.Cfg.ownSems0
  rw [SparseCore.bigSep_erase' ((mem_ownCells (g := cell_r0 (V d c i))).mpr ⟨rfl, by show (SemLoc.dma (SemArray.sem cc1_scoped0) : SemLoc sig).isScoped .scVector = true; decide⟩),
    SparseCore.bigSep_erase' (Finset.mem_erase.mpr ⟨fun e => absurd (congrArg Prod.snd e) (show (SemLoc.dma (SemArray.sem (SemArray.squeeze (SemArray.slice cc1_scratch6 (Rect.unit (s := S2) ![0] S1.size inb_S2_S1_0)) S_ squeezes_S1_S_)) : SemLoc sig) ≠ SemLoc.dma (SemArray.sem cc1_scoped0) by decide), (mem_ownCells (g := cell_x0 (V d c i))).mpr ⟨rfl, by show (SemLoc.dma (SemArray.sem (SemArray.squeeze (SemArray.slice cc1_scratch6 (Rect.unit (s := S2) ![0] S1.size inb_S2_S1_0)) S_ squeezes_S1_S_)) : SemLoc sig).isScoped .scVector = true; decide⟩⟩),
    SparseCore.bigSep_erase' (Finset.mem_erase.mpr ⟨fun e => absurd (congrArg Prod.snd e) (show (SemLoc.dma (SemArray.sem (SemArray.squeeze (SemArray.slice cc1_scratch6 (Rect.unit (s := S2) ![1] S1.size inb_S2_S1_1)) S_ squeezes_S1_S_)) : SemLoc sig) ≠ SemLoc.dma (SemArray.sem (SemArray.squeeze (SemArray.slice cc1_scratch6 (Rect.unit (s := S2) ![0] S1.size inb_S2_S1_0)) S_ squeezes_S1_S_)) by decide), Finset.mem_erase.mpr ⟨fun e => absurd (congrArg Prod.snd e) (show (SemLoc.dma (SemArray.sem (SemArray.squeeze (SemArray.slice cc1_scratch6 (Rect.unit (s := S2) ![1] S1.size inb_S2_S1_1)) S_ squeezes_S1_S_)) : SemLoc sig) ≠ SemLoc.dma (SemArray.sem cc1_scoped0) by decide), (mem_ownCells (g := cell_x1 (V d c i))).mpr ⟨rfl, by show (SemLoc.dma (SemArray.sem (SemArray.squeeze (SemArray.slice cc1_scratch6 (Rect.unit (s := S2) ![1] S1.size inb_S2_S1_1)) S_ squeezes_S1_S_)) : SemLoc sig).isScoped .scVector = true; decide⟩⟩⟩),
    SparseCore.bigSep_erase' (Finset.mem_erase.mpr ⟨fun e => absurd (congrArg Prod.snd e) (show (SemLoc.dma (SemArray.sem (SemArray.squeeze (SemArray.slice cc1_scratch7 (Rect.unit (s := S2) ![0] S1.size inb_S2_S1_0)) S_ squeezes_S1_S_)) : SemLoc sig) ≠ SemLoc.dma (SemArray.sem (SemArray.squeeze (SemArray.slice cc1_scratch6 (Rect.unit (s := S2) ![1] S1.size inb_S2_S1_1)) S_ squeezes_S1_S_)) by decide), Finset.mem_erase.mpr ⟨fun e => absurd (congrArg Prod.snd e) (show (SemLoc.dma (SemArray.sem (SemArray.squeeze (SemArray.slice cc1_scratch7 (Rect.unit (s := S2) ![0] S1.size inb_S2_S1_0)) S_ squeezes_S1_S_)) : SemLoc sig) ≠ SemLoc.dma (SemArray.sem (SemArray.squeeze (SemArray.slice cc1_scratch6 (Rect.unit (s := S2) ![0] S1.size inb_S2_S1_0)) S_ squeezes_S1_S_)) by decide), Finset.mem_erase.mpr ⟨fun e => absurd (congrArg Prod.snd e) (show (SemLoc.dma (SemArray.sem (SemArray.squeeze (SemArray.slice cc1_scratch7 (Rect.unit (s := S2) ![0] S1.size inb_S2_S1_0)) S_ squeezes_S1_S_)) : SemLoc sig) ≠ SemLoc.dma (SemArray.sem cc1_scoped0) by decide), (mem_ownCells (g := cell_y0 (V d c i))).mpr ⟨rfl, by show (SemLoc.dma (SemArray.sem (SemArray.squeeze (SemArray.slice cc1_scratch7 (Rect.unit (s := S2) ![0] S1.size inb_S2_S1_0)) S_ squeezes_S1_S_)) : SemLoc sig).isScoped .scVector = true; decide⟩⟩⟩⟩),
    SparseCore.bigSep_erase' (Finset.mem_erase.mpr ⟨fun e => absurd (congrArg Prod.snd e) (show (SemLoc.dma (SemArray.sem (SemArray.squeeze (SemArray.slice cc1_scratch7 (Rect.unit (s := S2) ![1] S1.size inb_S2_S1_1)) S_ squeezes_S1_S_)) : SemLoc sig) ≠ SemLoc.dma (SemArray.sem (SemArray.squeeze (SemArray.slice cc1_scratch7 (Rect.unit (s := S2) ![0] S1.size inb_S2_S1_0)) S_ squeezes_S1_S_)) by decide), Finset.mem_erase.mpr ⟨fun e => absurd (congrArg Prod.snd e) (show (SemLoc.dma (SemArray.sem (SemArray.squeeze (SemArray.slice cc1_scratch7 (Rect.unit (s := S2) ![1] S1.size inb_S2_S1_1)) S_ squeezes_S1_S_)) : SemLoc sig) ≠ SemLoc.dma (SemArray.sem (SemArray.squeeze (SemArray.slice cc1_scratch6 (Rect.unit (s := S2) ![1] S1.size inb_S2_S1_1)) S_ squeezes_S1_S_)) by decide), Finset.mem_erase.mpr ⟨fun e => absurd (congrArg Prod.snd e) (show (SemLoc.dma (SemArray.sem (SemArray.squeeze (SemArray.slice cc1_scratch7 (Rect.unit (s := S2) ![1] S1.size inb_S2_S1_1)) S_ squeezes_S1_S_)) : SemLoc sig) ≠ SemLoc.dma (SemArray.sem (SemArray.squeeze (SemArray.slice cc1_scratch6 (Rect.unit (s := S2) ![0] S1.size inb_S2_S1_0)) S_ squeezes_S1_S_)) by decide), Finset.mem_erase.mpr ⟨fun e => absurd (congrArg Prod.snd e) (show (SemLoc.dma (SemArray.sem (SemArray.squeeze (SemArray.slice cc1_scratch7 (Rect.unit (s := S2) ![1] S1.size inb_S2_S1_1)) S_ squeezes_S1_S_)) : SemLoc sig) ≠ SemLoc.dma (SemArray.sem cc1_scoped0) by decide), (mem_ownCells (g := cell_y1 (V d c i))).mpr ⟨rfl, by show (SemLoc.dma (SemArray.sem (SemArray.squeeze (SemArray.slice cc1_scratch7 (Rect.unit (s := S2) ![1] S1.size inb_S2_S1_1)) S_ squeezes_S1_S_)) : SemLoc sig).isScoped .scVector = true; decide⟩⟩⟩⟩⟩),
    SparseCore.bigSep_erase' (Finset.mem_erase.mpr ⟨fun e => absurd (congrArg Prod.snd e) (show (SemLoc.dma (SemArray.sem cc1_scoped1) : SemLoc sig) ≠ SemLoc.dma (SemArray.sem (SemArray.squeeze (SemArray.slice cc1_scratch7 (Rect.unit (s := S2) ![1] S1.size inb_S2_S1_1)) S_ squeezes_S1_S_)) by decide), Finset.mem_erase.mpr ⟨fun e => absurd (congrArg Prod.snd e) (show (SemLoc.dma (SemArray.sem cc1_scoped1) : SemLoc sig) ≠ SemLoc.dma (SemArray.sem (SemArray.squeeze (SemArray.slice cc1_scratch7 (Rect.unit (s := S2) ![0] S1.size inb_S2_S1_0)) S_ squeezes_S1_S_)) by decide), Finset.mem_erase.mpr ⟨fun e => absurd (congrArg Prod.snd e) (show (SemLoc.dma (SemArray.sem cc1_scoped1) : SemLoc sig) ≠ SemLoc.dma (SemArray.sem (SemArray.squeeze (SemArray.slice cc1_scratch6 (Rect.unit (s := S2) ![1] S1.size inb_S2_S1_1)) S_ squeezes_S1_S_)) by decide), Finset.mem_erase.mpr ⟨fun e => absurd (congrArg Prod.snd e) (show (SemLoc.dma (SemArray.sem cc1_scoped1) : SemLoc sig) ≠ SemLoc.dma (SemArray.sem (SemArray.squeeze (SemArray.slice cc1_scratch6 (Rect.unit (s := S2) ![0] S1.size inb_S2_S1_0)) S_ squeezes_S1_S_)) by decide), Finset.mem_erase.mpr ⟨fun e => absurd (congrArg Prod.snd e) (show (SemLoc.dma (SemArray.sem cc1_scoped1) : SemLoc sig) ≠ SemLoc.dma (SemArray.sem cc1_scoped0) by decide), (mem_ownCells (g := cell_r1 (V d c i))).mpr ⟨rfl, by show (SemLoc.dma (SemArray.sem cc1_scoped1) : SemLoc sig).isScoped .scVector = true; decide⟩⟩⟩⟩⟩⟩)]

/-- The six scratch buffers are among the subcore's own: they are them, at some contents, and the rest. -/
theorem ownBufs_V :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f) ∗ (∃ f, (V d c i).loc cc1_scratch5 ↦{fullShare} f)
          ∗ bigSep ((((((((ownRefs (τ := τ) (.scVector c i)).erase ((Proc.scVector c i).devRef cc1_scratch0)).erase
              ((Proc.scVector c i).devRef cc1_scratch1)).erase ((Proc.scVector c i).devRef cc1_scratch2)).erase
              ((Proc.scVector c i).devRef cc1_scratch3)).erase ((Proc.scVector c i).devRef cc1_scratch4)).erase
              ((Proc.scVector c i).devRef cc1_scratch5)))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector c i) (b := (Proc.scVector c i).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector c i) (b := (Proc.scVector c i).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector c i) (b := (Proc.scVector c i).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector c i) (b := (Proc.scVector c i).devRef cc1_scratch5) rfl⟩⟩⟩⟩⟩)]

/-! ## What the loops' trips share -/

/-- The word 5·a + b of a token with a ≤ 9 and b ≤ 4 is below 64. -/
theorem pay_lt (A B : IVec S16 32) (hA : ∀ x, (A x).toNat ≤ 9) (hB : ∀ x, (B x).toNat ≤ 4) (x : S16.Idx) :
    (IntOp.addi (IntOp.muli (A x) 5#32) (B x)).toNat < 64 := by
  have h1 := hA x
  have h2 := hB x
  have hm : ((A x) * 5#32).toNat = (A x).toNat * 5 := by
    rw [BitVec.toNat_mul]
    exact Nat.mod_eq_of_lt (by show (A x).toNat * 5 < 2 ^ 32; omega)
  have ha : ((A x) * 5#32 + B x).toNat = (A x).toNat * 5 + (B x).toNat := by
    rw [BitVec.toNat_add, hm]
    exact Nat.mod_eq_of_lt (by omega)
  show ((A x) * 5#32 + B x).toNat < 64
  rw [ha]
  omega

/-- The loops' invariant: the table's scratch and the chunk's x and y scratches, each whole at fixed contents. -/
def invL (thr : Thread nD τ) (a : Memref sig thr.2.kind .vmem S64 .f32) (b : Memref sig thr.2.kind .vmem S64x200 .i32)
    (cc : Memref sig thr.2.kind .vmem S12800 .i32)
    (g0 : Buf (Elt F) (a.view.loc thr)) (g1 : Buf (Elt F) (b.view.loc thr)) (g3 : Buf (Elt F) (cc.view.loc thr))
    (_ : Nat) (_ : FVec F S16 .f32 × FVec F S16 .f32 × FVec F S16 .f32 × FVec F S16 .f32) : sProp 𝕄 :=
  iprop((a.view.loc thr ↦{fullShare} g0) ∗ (b.view.loc thr ↦{fullShare} g1) ∗ (cc.view.loc thr ↦{fullShare} g3))

/-- An indexed vector load is a load of the whole scratch, gathered. -/
theorem vli_bind' [FloatOps F] {α : Type} {p : Proc τ} {s t : Shape} {e : EltTy} (base : Memref sig p.kind .vmem s e) (idxs : Fin s.rank → IVec t 32)
    (h : ∀ a x, (idxs a x).toNat < s.size a) (hl : base.view.Loads) (k : Vec F t e → Prog (TpuEff nD τ sig (Elt F) Λ₀ p) α) :
    SparseCore.vectorLoadIdx base idxs h hl >>= k = .op (.load base (.whole s) (View.loadsAt_whole hl)) fun f => k (loadIdx f idxs h) := rfl

end Cert.Proof.KI

end
-- ==== Proof.KI.TileTrip1.lean ====
/-
  One trip of the tile's loop 1 (chunk 0): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KI.TileRes

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 1 keeps the three scratches as they are. -/
theorem trip_1 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch1 : Memref sig .scVector .vmem S64x200 .i32).view.loc (V d ((i 0).castLE hcore1) ((i 1).castLE hsub1))))
    (g3 : Buf (Elt F) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t1_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t1_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KI

end
-- ==== Proof.KI.TileTrip2.lean ====
/-
  One trip of the tile's loop 2 (chunk 1): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KI.TileRes

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 2 keeps the three scratches as they are. -/
theorem trip_2 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch2 : Memref sig .scVector .vmem S64x200 .i32).view.loc (V d ((i 0).castLE hcore1) ((i 1).castLE hsub1))))
    (g3 : Buf (Elt F) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t2_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t2_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KI

end
-- ==== Proof.KI.TileTrip3.lean ====
/-
  One trip of the tile's loop 3 (chunk 2): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KI.TileRes

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 3 keeps the three scratches as they are. -/
theorem trip_3 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch1 : Memref sig .scVector .vmem S64x200 .i32).view.loc (V d ((i 0).castLE hcore1) ((i 1).castLE hsub1))))
    (g3 : Buf (Elt F) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t3_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t3_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KI

end
-- ==== Proof.KI.TileTrip4.lean ====
/-
  One trip of the tile's loop 4 (chunk 3): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KI.TileRes

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 4 keeps the three scratches as they are. -/
theorem trip_4 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch2 : Memref sig .scVector .vmem S64x200 .i32).view.loc (V d ((i 0).castLE hcore1) ((i 1).castLE hsub1))))
    (g3 : Buf (Elt F) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t4_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t4_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KI

end
-- ==== Proof.KI.TileTrip5.lean ====
/-
  One trip of the tile's loop 5 (chunk 4): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KI.TileRes

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 5 keeps the three scratches as they are. -/
theorem trip_5 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch1 : Memref sig .scVector .vmem S64x200 .i32).view.loc (V d ((i 0).castLE hcore1) ((i 1).castLE hsub1))))
    (g3 : Buf (Elt F) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t5_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t5_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 0#32 1#32 k acc)
          fun r => invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KI

end
-- ==== Proof.KI.TileTrip6.lean ====
/-
  One trip of the tile's loop 6 (chunk 5): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KI.TileRes

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 6 keeps the three scratches as they are. -/
theorem trip_6 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch2 : Memref sig .scVector .vmem S64x200 .i32).view.loc (V d ((i 0).castLE hcore1) ((i 1).castLE hsub1))))
    (g3 : Buf (Elt F) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t6_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t6_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 0#32 1#32 k acc)
          fun r => invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KI

end
-- ==== Proof.KI.TileTrip7.lean ====
/-
  One trip of the tile's loop 7 (chunk 6): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KI.TileRes

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 7 keeps the three scratches as they are. -/
theorem trip_7 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch1 : Memref sig .scVector .vmem S64x200 .i32).view.loc (V d ((i 0).castLE hcore1) ((i 1).castLE hsub1))))
    (g3 : Buf (Elt F) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
     (k : Fin k1_t7_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t7_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 (iota .scVector S16 32 [0] iota_S16_d0_w32_scVector) k1_pay576 k1_pay577 k acc)
          fun r => invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KI

end
-- ==== Proof.KI.TileTrip8.lean ====
/-
  One trip of the tile's loop 8 (chunk 7): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KI.TileRes

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 8 keeps the three scratches as they are. -/
theorem trip_8 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch2 : Memref sig .scVector .vmem S64x200 .i32).view.loc (V d ((i 0).castLE hcore1) ((i 1).castLE hsub1))))
    (g3 : Buf (Elt F) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
     (k : Fin k1_t8_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t8_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 (iota .scVector S16 32 [0] iota_S16_d0_w32_scVector) k1_pay576 k1_pay577 k acc)
          fun r => invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KI

end
-- ==== Proof.KI.TileBody.lean ====
/-
  The task of one tile of the SparseCore call: the 64-word table fetched into the tile's memory, eight chunks of 64 rows
  of x and 12800 words of y fetched two deep on two pairs of DMA semaphores, each chunk's 32 trips summing table[5·x + y]
  over 25 lane-vectors of tokens into four accumulators, the accumulators' sum stored and copied to the tile's 16 words
  of the result.
-/
import proofs.«205364_g71897752535391_cont_9to1_m_950_21_alg».proof.Proof.KI.TileRes
import proofs.«205364_g71897752535391_cont_9to1_m_950_21_alg».proof.Proof.KI.TileTrip1
import proofs.«205364_g71897752535391_cont_9to1_m_950_21_alg».proof.Proof.KI.TileTrip2
import proofs.«205364_g71897752535391_cont_9to1_m_950_21_alg».proof.Proof.KI.TileTrip3
import proofs.«205364_g71897752535391_cont_9to1_m_950_21_alg».proof.Proof.KI.TileTrip4
import proofs.«205364_g71897752535391_cont_9to1_m_950_21_alg».proof.Proof.KI.TileTrip5
import proofs.«205364_g71897752535391_cont_9to1_m_950_21_alg».proof.Proof.KI.TileTrip6
import proofs.«205364_g71897752535391_cont_9to1_m_950_21_alg».proof.Proof.KI.TileTrip7
import proofs.«205364_g71897752535391_cont_9to1_m_950_21_alg».proof.Proof.KI.TileTrip8

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (wC : (d : Dev nD) → Buf (Elt F) (wLoc d))

def coordsV (c : Fin (grid1.bound 0)) (s : Fin (grid1.bound 1)) : grid1.Coords :=
  fun | 0 => c | 1 => s | ⟨_ + 2, h⟩ => absurd h (Nat.not_lt.2 (Nat.le_add_left _ _))

/-- The kernel function as the body table calls it on tile (c, s). -/
abbrev tileProg (c : Fin (grid1.bound 0)) (s : Fin (grid1.bound 1)) :=
  cc1_lookup_sum (F := F) (coordsV c s) (Memref.whole main_arg0_scv) (Memref.isWhole_whole _) (Memref.whole main_arg1_scv) (Memref.isWhole_whole _)
    (Memref.whole main_v2_scv) (Memref.isWhole_whole _) (Memref.whole main_v3_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3) (Memref.isWhole_whole _)
    (Memref.whole cc1_scratch4) (Memref.isWhole_whole _) (Memref.whole cc1_scratch5) (Memref.isWhole_whole _) cc1_scratch6 cc1_scratch7 cc1_scoped0 cc1_scoped1

/-- What the proof asks of the launch memory: every word of x is at most 9 and every word of y at most 4 (as unsigned words). -/
def PreOK : Prop := ∀ d : Dev nD, (∀ j, (m (xLoc d) j).toNat ≤ 9) ∧ (∀ j, (m (yLoc d) j).toNat ≤ 4)

/-- The tile's number from its grid coordinates. -/
abbrev widV (c : Fin (grid1.bound 0)) (s : Fin (grid1.bound 1)) : Fin 32 := wid (Fin.cast (by rfl) c) (Fin.cast (by rfl) s)

/-- The tile's sixteen words of the partial sums, as the kernel slices them. -/
abbrev rO (c : Fin (grid1.bound 0)) (s : Fin (grid1.bound 1)) : Rect S512 := Rect.unit (s := S512) (k1_off205 (coordsV c s)) S16.size (k1_off205_inb (coordsV c s))
abbrev oSl (c : Fin (grid1.bound 0)) (s : Fin (grid1.bound 1)) : Memref sig .scVector .hbm S16 .f32 :=
  (Memref.whole main_v3_scv).slice (rO c s) (fun _ => rfl)

omit [FloatOps F] in
theorem wid_lt (c : Fin (grid1.bound 0)) (s : Fin (grid1.bound 1)) : 2 * s.val + c.val < 32 := by
  have h1 : c.val < 2 := c.isLt
  have h2 : s.val < 16 := s.isLt
  omega

omit [FloatOps F] in
theorem rO_eq (c : Fin (grid1.bound 0)) (s : Fin (grid1.bound 1)) :
    rO c s = Rect.part (s := S512) (a₀ := 0) hdivo (⟨2 * s.val + c.val, wid_lt c s⟩ : Fin 32) := by
  unfold rO Rect.part Rect.block
  congr 1 <;> funext a
  · rw [k1_off205_eq]
    match a with
    | 0 => simp [Shape.partIx, Shape.partSize, coordsV]; omega
  · match a with
    | 0 => simp [Shape.partSize]

omit [FloatOps F] in
/-- The slice is the tile's block of the thirty-two. -/
theorem set_oSl (c : Fin (grid1.bound 0)) (s : Fin (grid1.bound 1)) : (oSl c s).view.set = oBlk (widV c s) := by
  show ((View.whole (main_v3_scv : Ref sig .scVector)).slice (rO c s)).set = (Rect.part (s := S512) (a₀ := 0) hdivo (⟨2 * s.val + c.val, wid_lt c s⟩ : Fin 32)).set
  rw [View.set_slice, rO_eq]; exact Finset.map_refl

set_option sl_exec.dischHeartbeats 200000 in
set_option maxHeartbeats 4000000 in
/-- The task on tile (c, s) of device `d`. -/
theorem tile_body (d : Dev nD) (hpre : PreOK m) (c : Fin (grid1.bound 0)) (s : Fin (grid1.bound 1)) (O : CellTallies nD τ sig (HIx 1)) (W : Waits sig (HIx 1)) (hO : ∀ g, O g none = 0) :
    iprop(levAts (K (F := F)).L (K (F := F)).lev ∗ emp ∗ tileIn d (m (xLoc d)) (m (yLoc d)) (wC d) (m (oLoc d)) (widV c s)
        ∗ scopedBufs (V d (c.castLE hcore1) (s.castLE hsub1)) ∗ scopedSems0 (V d (c.castLE hcore1) (s.castLE hsub1)) ∗ owes (V d (c.castLE hcore1) (s.castLE hsub1)) O W)
      ⊢ wp frame (wpE (defs₀ (F := F)) 𝒱₀ (V d (c.castLE hcore1) (s.castLE hsub1)) none) Set.univ (tileProg (F := F) c s)
          fun _ => iprop(tileOut d (m (xLoc d)) (m (yLoc d)) (wC d) (widV c s) ∗ scopedBufs (V d (c.castLE hcore1) (s.castLE hsub1)) ∗ scopedSems0 (V d (c.castLE hcore1) (s.castLE hsub1))
            ∗ ∃ W', ⌜∀ p ∈ W', p ∈ W ∨ p.2 = none⌝ ∗ owes (V d (c.castLE hcore1) (s.castLE hsub1)) O W') := by
  unfold tileProg
  simp only [cc1_lookup_sum_eq_skeleton]; unfold cc1_lookup_sum_skel
  rw [(K (F := F)).scopedBufs_V facts d (c.castLE hcore1) (s.castLE hsub1), SparseCore.Cfg.scopedSems0_V (Val := Elt F) d (c.castLE hcore1) (s.castLE hsub1),
    ownSems0_V, ownBufs_V]
  unfold tileIn
  iintro ⟨#Hlv, -, ⟨Hx, Hy, Hw, Ho⟩, ⟨⟨%f0, Hs0⟩, ⟨%f1, Hs1⟩, ⟨%f2, Hs2⟩, ⟨%f3, Hs3⟩, ⟨%f4, Hs4⟩, ⟨%f5, Hs5⟩, Hbufs⟩, ⟨Hr0, Hx0, Hx1, Hy0, Hy1, Hr1, Hsems⟩, HO⟩
  ihave Hmw := ((K (F := F)).mayWaits_none (thr := (V d (c.castLE hcore1) (s.castLE hsub1))) hO) $$ Hlv
  ihave Hx' := (Entails.of_eq (show ((Memref.whole main_arg0_scv : Memref sig .scVector .hbm S16384x200 .i32).view.loc (V d (c.castLE hcore1) (s.castLE hsub1)) ↦{Transfers.shareTok fullShare 32 (widV c s)} m (xLoc d) : sProp 𝕄) = _ from rfl).symm) $$ Hx
  ihave Hy' := (Entails.of_eq (show ((Memref.whole main_arg1_scv : Memref sig .scVector .hbm S3276800 .i32).view.loc (V d (c.castLE hcore1) (s.castLE hsub1)) ↦{Transfers.shareTok fullShare 32 (widV c s)} m (yLoc d) : sProp 𝕄) = _ from rfl).symm) $$ Hy
  ihave Hw' := (Entails.of_eq (show ((Memref.whole main_v2_scv : Memref sig .scVector .hbm S64 .f32).view.loc (V d (c.castLE hcore1) (s.castLE hsub1)) ↦{Transfers.shareTok fullShare 32 (widV c s)} wC d : sProp 𝕄) = _ from rfl).symm) $$ Hw
  ihave Hs0' := (Entails.of_eq (show ((Memref.whole cc1_scratch0 : Memref sig .scVector .vmem S64 .f32).view.loc (V d (c.castLE hcore1) (s.castLE hsub1)) ↦{fullShare} f0 : sProp 𝕄) = _ from rfl).symm) $$ Hs0
  ihave Hs1' := (Entails.of_eq (show ((Memref.whole cc1_scratch1 : Memref sig .scVector .vmem S64x200 .i32).view.loc (V d (c.castLE hcore1) (s.castLE hsub1)) ↦{fullShare} f1 : sProp 𝕄) = _ from rfl).symm) $$ Hs1
  ihave Hs2' := (Entails.of_eq (show ((Memref.whole cc1_scratch2 : Memref sig .scVector .vmem S64x200 .i32).view.loc (V d (c.castLE hcore1) (s.castLE hsub1)) ↦{fullShare} f2 : sProp 𝕄) = _ from rfl).symm) $$ Hs2
  ihave Hs3' := (Entails.of_eq (show ((Memref.whole cc1_scratch3 : Memref sig .scVector .vmem S12800 .i32).view.loc (V d (c.castLE hcore1) (s.castLE hsub1)) ↦{fullShare} f3 : sProp 𝕄) = _ from rfl).symm) $$ Hs3
  ihave Hs4' := (Entails.of_eq (show ((Memref.whole cc1_scratch4 : Memref sig .scVector .vmem S12800 .i32).view.loc (V d (c.castLE hcore1) (s.castLE hsub1)) ↦{fullShare} f4 : sProp 𝕄) = _ from rfl).symm) $$ Hs4
  ihave Hs5' := (Entails.of_eq (show ((Memref.whole cc1_scratch5 : Memref sig .scVector .vmem S16 .f32).view.loc (V d (c.castLE hcore1) (s.castLE hsub1)) ↦{fullShare} f5 : sProp 𝕄) = _ from rfl).symm) $$ Hs5
  ihave Ho' := (Entails.of_eq (show ((oSl c s).view.loc (V d (c.castLE hcore1) (s.castLE hsub1)) ↦[(oSl c s).view.set]{fullShare} m (oLoc d) : sProp 𝕄) = (oLoc d ↦[oBlk (widV c s)]{fullShare} m (oLoc d)) from by rw [set_oSl]).symm) $$ Ho
  sl_exec_parts
  have hx9_1 : ∀ j, BitVec.toNat ((View.write (Elt F) (Memref.whole cc1_scratch1).view f1 (tile_body.sl.dma0_1 m d c s) Finset.univ) j) ≤ 9 := fun j =>
    le_of_eq_of_le (congrArg BitVec.toNat (congrFun (View.write_whole_univ (Val := Elt F) cc1_scratch1 f1 (tile_body.sl.dma0_1 m d c s)) j)) ((hpre d).1 _)
  have hy4_1 : ∀ j, BitVec.toNat ((View.write (Elt F) (Memref.whole cc1_scratch3).view f3 (tile_body.sl.dma0_2 m d c s) Finset.univ) j) ≤ 4 := fun j =>
    le_of_eq_of_le (congrArg BitVec.toNat (congrFun (View.write_whole_univ (Val := Elt F) cc1_scratch3 f3 (tile_body.sl.dma0_2 m d c s)) j)) ((hpre d).2 _)
  sl_for (invL (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt F) (Memref.whole cc1_scratch0).view f0 (tile_body.sl.dma0 wC d) Finset.univ) (View.write (Elt F) (Memref.whole cc1_scratch1).view f1 (tile_body.sl.dma0_1 m d c s) Finset.univ) (View.write (Elt F) (Memref.whole cc1_scratch3).view f3 (tile_body.sl.dma0_2 m d c s) Finset.univ)) $$ [Hs0' Hs1' Hs3']
  case region =>
    intro k acc
    exact trip_1 (F := F) d (coordsV c s) _ _ _ hx9_1 hy4_1 _ _ _ _ _ _ k acc
  · unfold invL
    isplitl [Hs0']; · iexact Hs0'
    isplitl [Hs1']; · iexact Hs1'
    iexact Hs3'
  iintro %acc1 HI
  unfold invL
  icases HI with ⟨Hs0', Hs1', Hs3'⟩
  sl_exec_parts
  have hx9_2 : ∀ j, BitVec.toNat ((View.write (Elt F) (Memref.whole cc1_scratch2).view f2 (tile_body.sl.dma0_3 m d c s) Finset.univ) j) ≤ 9 := fun j =>
    le_of_eq_of_le (congrArg BitVec.toNat (congrFun (View.write_whole_univ (Val := Elt F) cc1_scratch2 f2 (tile_body.sl.dma0_3 m d c s)) j)) ((hpre d).1 _)
  have hy4_2 : ∀ j, BitVec.toNat ((View.write (Elt F) (Memref.whole cc1_scratch4).view f4 (tile_body.sl.dma0_4 m d c s) Finset.univ) j) ≤ 4 := fun j =>
    le_of_eq_of_le (congrArg BitVec.toNat (congrFun (View.write_whole_univ (Val := Elt F) cc1_scratch4 f4 (tile_body.sl.dma0_4 m d c s)) j)) ((hpre d).2 _)
  sl_for (invL (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt F) (Memref.whole cc1_scratch0).view f0 (tile_body.sl.dma0 wC d) Finset.univ) (View.write (Elt F) (Memref.whole cc1_scratch2).view f2 (tile_body.sl.dma0_3 m d c s) Finset.univ) (View.write (Elt F) (Memref.whole cc1_scratch4).view f4 (tile_body.sl.dma0_4 m d c s) Finset.univ)) $$ [Hs0' Hs2' Hs4']
  case region =>
    intro k acc
    exact trip_2 (F := F) d (coordsV c s) _ _ _ hx9_2 hy4_2 _ _ _ _ _ _ k acc
  · unfold invL
    isplitl [Hs0']; · iexact Hs0'
    isplitl [Hs2']; · iexact Hs2'
    iexact Hs4'
  iintro %acc2 HI
  unfold invL
  icases HI with ⟨Hs0', Hs2', Hs4'⟩
  sl_exec_parts
  have hx9_3 : ∀ j, BitVec.toNat ((View.write (Elt F) (Memref.whole cc1_scratch1).view (View.write (Elt F) (Memref.whole cc1_scratch1).view f1 (tile_body.sl.dma0_1 m d c s) Finset.univ) (tile_body.sl.dma0_5 m d c s) Finset.univ) j) ≤ 9 := fun j =>
    le_of_eq_of_le (congrArg BitVec.toNat (congrFun (View.write_whole_univ (Val := Elt F) cc1_scratch1 (View.write (Elt F) (Memref.whole cc1_scratch1).view f1 (tile_body.sl.dma0_1 m d c s) Finset.univ) (tile_body.sl.dma0_5 m d c s)) j)) ((hpre d).1 _)
  have hy4_3 : ∀ j, BitVec.toNat ((View.write (Elt F) (Memref.whole cc1_scratch3).view (View.write (Elt F) (Memref.whole cc1_scratch3).view f3 (tile_body.sl.dma0_2 m d c s) Finset.univ) (tile_body.sl.dma0_6 m d c s) Finset.univ) j) ≤ 4 := fun j =>
    le_of_eq_of_le (congrArg BitVec.toNat (congrFun (View.write_whole_univ (Val := Elt F) cc1_scratch3 (View.write (Elt F) (Memref.whole cc1_scratch3).view f3 (tile_body.sl.dma0_2 m d c s) Finset.univ) (tile_body.sl.dma0_6 m d c s)) j)) ((hpre d).2 _)
  sl_for (invL (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt F) (Memref.whole cc1_scratch0).view f0 (tile_body.sl.dma0 wC d) Finset.univ) (View.write (Elt F) (Memref.whole cc1_scratch1).view (View.write (Elt F) (Memref.whole cc1_scratch1).view f1 (tile_body.sl.dma0_1 m d c s) Finset.univ) (tile_body.sl.dma0_5 m d c s) Finset.univ) (View.write (Elt F) (Memref.whole cc1_scratch3).view (View.write (Elt F) (Memref.whole cc1_scratch3).view f3 (tile_body.sl.dma0_2 m d c s) Finset.univ) (tile_body.sl.dma0_6 m d c s) Finset.univ)) $$ [Hs0' Hs1' Hs3']
  case region =>
    intro k acc
    exact trip_3 (F := F) d (coordsV c s) _ _ _ hx9_3 hy4_3 _ _ _ _ _ _ k acc
  · unfold invL
    isplitl [Hs0']; · iexact Hs0'
    isplitl [Hs1']; · iexact Hs1'
    iexact Hs3'
  iintro %acc3 HI
  unfold invL
  icases HI with ⟨Hs0', Hs1', Hs3'⟩
  sl_exec_parts
  have hx9_4 : ∀ j, BitVec.toNat ((View.write (Elt F) (Memref.whole cc1_scratch2).view (View.write (Elt F) (Memref.whole cc1_scratch2).view f2 (tile_body.sl.dma0_3 m d c s) Finset.univ) (tile_body.sl.dma0_7 m d c s) Finset.univ) j) ≤ 9 := fun j =>
    le_of_eq_of_le (congrArg BitVec.toNat (congrFun (View.write_whole_univ (Val := Elt F) cc1_scratch2 (View.write (Elt F) (Memref.whole cc1_scratch2).view f2 (tile_body.sl.dma0_3 m d c s) Finset.univ) (tile_body.sl.dma0_7 m d c s)) j)) ((hpre d).1 _)
  have hy4_4 : ∀ j, BitVec.toNat ((View.write (Elt F) (Memref.whole cc1_scratch4).view (View.write (Elt F) (Memref.whole cc1_scratch4).view f4 (tile_body.sl.dma0_4 m d c s) Finset.univ) (tile_body.sl.dma0_8 m d c s) Finset.univ) j) ≤ 4 := fun j =>
    le_of_eq_of_le (congrArg BitVec.toNat (congrFun (View.write_whole_univ (Val := Elt F) cc1_scratch4 (View.write (Elt F) (Memref.whole cc1_scratch4).view f4 (tile_body.sl.dma0_4 m d c s) Finset.univ) (tile_body.sl.dma0_8 m d c s)) j)) ((hpre d).2 _)
  sl_for (invL (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt F) (Memref.whole cc1_scratch0).view f0 (tile_body.sl.dma0 wC d) Finset.univ) (View.write (Elt F) (Memref.whole cc1_scratch2).view (View.write (Elt F) (Memref.whole cc1_scratch2).view f2 (tile_body.sl.dma0_3 m d c s) Finset.univ) (tile_body.sl.dma0_7 m d c s) Finset.univ) (View.write (Elt F) (Memref.whole cc1_scratch4).view (View.write (Elt F) (Memref.whole cc1_scratch4).view f4 (tile_body.sl.dma0_4 m d c s) Finset.univ) (tile_body.sl.dma0_8 m d c s) Finset.univ)) $$ [Hs0' Hs2' Hs4']
  case region =>
    intro k acc
    exact trip_4 (F := F) d (coordsV c s) _ _ _ hx9_4 hy4_4 _ _ _ _ _ _ k acc
  · unfold invL
    isplitl [Hs0']; · iexact Hs0'
    isplitl [Hs2']; · iexact Hs2'
    iexact Hs4'
  iintro %acc4 HI
  unfold invL
  icases HI with ⟨Hs0', Hs2', Hs4'⟩
  sl_exec_parts
  have hx9_5 : ∀ j, BitVec.toNat ((View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) j) ≤ 9 := fun j =>
    le_of_eq_of_le (congrArg BitVec.toNat (congrFun (View.write_whole_univ (Val := Elt F) cc1_scratch1 (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s)) j)) ((hpre d).1 _)
  have hy4_5 : ∀ j, BitVec.toNat ((View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ) j) ≤ 4 := fun j =>
    le_of_eq_of_le (congrArg BitVec.toNat (congrFun (View.write_whole_univ (Val := Elt F) cc1_scratch3 (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s)) j)) ((hpre d).2 _)
  sl_for (invL (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt F) (Memref.whole cc1_scratch0).view f0 (tile_body.sl.dma0 wC d) Finset.univ) (View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) (View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ)) $$ [Hs0' Hs1' Hs3']
  case region =>
    intro k acc
    exact trip_5 (F := F) d (coordsV c s) _ _ _ hx9_5 hy4_5 _ _ _ _ _ _ k acc
  · unfold invL
    isplitl [Hs0']; · iexact Hs0'
    isplitl [Hs1']; · iexact Hs1'
    iexact Hs3'
  iintro %acc5 HI
  unfold invL
  icases HI with ⟨Hs0', Hs1', Hs3'⟩
  sl_exec_parts
  have hx9_6 : ∀ j, BitVec.toNat ((View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) j) ≤ 9 := fun j =>
    le_of_eq_of_le (congrArg BitVec.toNat (congrFun (View.write_whole_univ (Val := Elt F) cc1_scratch2 (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s)) j)) ((hpre d).1 _)
  have hy4_6 : ∀ j, BitVec.toNat ((View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ) j) ≤ 4 := fun j =>
    le_of_eq_of_le (congrArg BitVec.toNat (congrFun (View.write_whole_univ (Val := Elt F) cc1_scratch4 (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s)) j)) ((hpre d).2 _)
  sl_for (invL (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt F) (Memref.whole cc1_scratch0).view f0 (tile_body.sl.dma0 wC d) Finset.univ) (View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) (View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ)) $$ [Hs0' Hs2' Hs4']
  case region =>
    intro k acc
    exact trip_6 (F := F) d (coordsV c s) _ _ _ hx9_6 hy4_6 _ _ _ _ _ _ k acc
  · unfold invL
    isplitl [Hs0']; · iexact Hs0'
    isplitl [Hs2']; · iexact Hs2'
    iexact Hs4'
  iintro %acc6 HI
  unfold invL
  icases HI with ⟨Hs0', Hs2', Hs4'⟩
  sl_exec_parts
  have hx9_7 : ∀ j, BitVec.toNat ((View.write (Elt F) (Memref.whole cc1_scratch1).view (View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) (tile_body.sl.dma0_13 m d c s) Finset.univ) j) ≤ 9 := fun j =>
    le_of_eq_of_le (congrArg BitVec.toNat (congrFun (View.write_whole_univ (Val := Elt F) cc1_scratch1 (View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) (tile_body.sl.dma0_13 m d c s)) j)) ((hpre d).1 _)
  have hy4_7 : ∀ j, BitVec.toNat ((View.write (Elt F) (Memref.whole cc1_scratch3).view (View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ) (tile_body.sl.dma0_14 m d c s) Finset.univ) j) ≤ 4 := fun j =>
    le_of_eq_of_le (congrArg BitVec.toNat (congrFun (View.write_whole_univ (Val := Elt F) cc1_scratch3 (View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ) (tile_body.sl.dma0_14 m d c s)) j)) ((hpre d).2 _)
  sl_for (invL (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt F) (Memref.whole cc1_scratch0).view f0 (tile_body.sl.dma0 wC d) Finset.univ) (View.write (Elt F) (Memref.whole cc1_scratch1).view (View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) (tile_body.sl.dma0_13 m d c s) Finset.univ) (View.write (Elt F) (Memref.whole cc1_scratch3).view (View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ) (tile_body.sl.dma0_14 m d c s) Finset.univ)) $$ [Hs0' Hs1' Hs3']
  case region =>
    intro k acc
    exact trip_7 (F := F) d (coordsV c s) _ _ _ hx9_7 hy4_7 k acc
  · unfold invL
    isplitl [Hs0']; · iexact Hs0'
    isplitl [Hs1']; · iexact Hs1'
    iexact Hs3'
  iintro %acc7 HI
  unfold invL
  icases HI with ⟨Hs0', Hs1', Hs3'⟩
  sl_exec_parts
  have hx9_8 : ∀ j, BitVec.toNat ((View.write (Elt F) (Memref.whole cc1_scratch2).view (View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) (tile_body.sl.dma0_15 m d c s) Finset.univ) j) ≤ 9 := fun j =>
    le_of_eq_of_le (congrArg BitVec.toNat (congrFun (View.write_whole_univ (Val := Elt F) cc1_scratch2 (View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) (tile_body.sl.dma0_15 m d c s)) j)) ((hpre d).1 _)
  have hy4_8 : ∀ j, BitVec.toNat ((View.write (Elt F) (Memref.whole cc1_scratch4).view (View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ) (tile_body.sl.dma0_16 m d c s) Finset.univ) j) ≤ 4 := fun j =>
    le_of_eq_of_le (congrArg BitVec.toNat (congrFun (View.write_whole_univ (Val := Elt F) cc1_scratch4 (View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ) (tile_body.sl.dma0_16 m d c s)) j)) ((hpre d).2 _)
  sl_for (invL (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt F) (Memref.whole cc1_scratch0).view f0 (tile_body.sl.dma0 wC d) Finset.univ) (View.write (Elt F) (Memref.whole cc1_scratch2).view (View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) (tile_body.sl.dma0_15 m d c s) Finset.univ) (View.write (Elt F) (Memref.whole cc1_scratch4).view (View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ) (tile_body.sl.dma0_16 m d c s) Finset.univ)) $$ [Hs0' Hs2' Hs4']
  case region =>
    intro k acc
    exact trip_8 (F := F) d (coordsV c s) _ _ _ hx9_8 hy4_8 k acc
  · unfold invL
    isplitl [Hs0']; · iexact Hs0'
    isplitl [Hs2']; · iexact Hs2'
    iexact Hs4'
  iintro %acc8 HI
  unfold invL
  icases HI with ⟨Hs0', Hs2', Hs4'⟩
  sl_exec_parts
  rw [wp_ret]; imodintro
  unfold tileOut
  isplitl [Hx' Hy' Hw' Ho']
  · isplitl [Hx']
    · iapply (Entails.of_eq (show ((Memref.whole main_arg0_scv : Memref sig .scVector .hbm S16384x200 .i32).view.loc (V d (c.castLE hcore1) (s.castLE hsub1)) ↦{Transfers.shareTok fullShare 32 (widV c s)} m (xLoc d) : sProp 𝕄) = _ from rfl))
      iexact Hx'
    isplitl [Hy']
    · iapply (Entails.of_eq (show ((Memref.whole main_arg1_scv : Memref sig .scVector .hbm S3276800 .i32).view.loc (V d (c.castLE hcore1) (s.castLE hsub1)) ↦{Transfers.shareTok fullShare 32 (widV c s)} m (yLoc d) : sProp 𝕄) = _ from rfl))
      iexact Hy'
    isplitl [Hw']
    · iapply (Entails.of_eq (show ((Memref.whole main_v2_scv : Memref sig .scVector .hbm S64 .f32).view.loc (V d (c.castLE hcore1) (s.castLE hsub1)) ↦{Transfers.shareTok fullShare 32 (widV c s)} wC d : sProp 𝕄) = _ from rfl))
      iexact Hw'
    iexists _
    iapply (Entails.of_eq (show ((oSl c s).view.loc (V d (c.castLE hcore1) (s.castLE hsub1)) ↦[(oSl c s).view.set]{fullShare} _ : sProp 𝕄) = (oLoc d ↦[oBlk (widV c s)]{fullShare} _) from by rw [set_oSl]))
    iexact Ho'
  isplitl [Hs0' Hs1' Hs2' Hs3' Hs4' Hs5' Hbufs]
  · isplitl [Hs0']
    · iexists _
      iapply (Entails.of_eq (show ((Memref.whole cc1_scratch0 : Memref sig .scVector .vmem S64 .f32).view.loc (V d (c.castLE hcore1) (s.castLE hsub1)) ↦{fullShare} _ : sProp 𝕄) = ((V d (c.castLE hcore1) (s.castLE hsub1)).loc cc1_scratch0 ↦{fullShare} _) from rfl))
      iexact Hs0'
    isplitl [Hs1']
    · iexists _
      iapply (Entails.of_eq (show ((Memref.whole cc1_scratch1 : Memref sig .scVector .vmem S64x200 .i32).view.loc (V d (c.castLE hcore1) (s.castLE hsub1)) ↦{fullShare} _ : sProp 𝕄) = ((V d (c.castLE hcore1) (s.castLE hsub1)).loc cc1_scratch1 ↦{fullShare} _) from rfl))
      iexact Hs1'
    isplitl [Hs2']
    · iexists _
      iapply (Entails.of_eq (show ((Memref.whole cc1_scratch2 : Memref sig .scVector .vmem S64x200 .i32).view.loc (V d (c.castLE hcore1) (s.castLE hsub1)) ↦{fullShare} _ : sProp 𝕄) = ((V d (c.castLE hcore1) (s.castLE hsub1)).loc cc1_scratch2 ↦{fullShare} _) from rfl))
      iexact Hs2'
    isplitl [Hs3']
    · iexists _
      iapply (Entails.of_eq (show ((Memref.whole cc1_scratch3 : Memref sig .scVector .vmem S12800 .i32).view.loc (V d (c.castLE hcore1) (s.castLE hsub1)) ↦{fullShare} _ : sProp 𝕄) = ((V d (c.castLE hcore1) (s.castLE hsub1)).loc cc1_scratch3 ↦{fullShare} _) from rfl))
      iexact Hs3'
    isplitl [Hs4']
    · iexists _
      iapply (Entails.of_eq (show ((Memref.whole cc1_scratch4 : Memref sig .scVector .vmem S12800 .i32).view.loc (V d (c.castLE hcore1) (s.castLE hsub1)) ↦{fullShare} _ : sProp 𝕄) = ((V d (c.castLE hcore1) (s.castLE hsub1)).loc cc1_scratch4 ↦{fullShare} _) from rfl))
      iexact Hs4'
    isplitl [Hs5']
    · iexists _
      iapply (Entails.of_eq (show ((Memref.whole cc1_scratch5 : Memref sig .scVector .vmem S16 .f32).view.loc (V d (c.castLE hcore1) (s.castLE hsub1)) ↦{fullShare} _ : sProp 𝕄) = ((V d (c.castLE hcore1) (s.castLE hsub1)).loc cc1_scratch5 ↦{fullShare} _) from rfl))
      iexact Hs5'
    iexact Hbufs
  isplitl [Hr0 Hx0 Hx1 Hy0 Hy1 Hr1 Hsems]
  · isplitl [Hr0]; · iexact Hr0
    isplitl [Hx0]; · iexact Hx0
    isplitl [Hx1]; · iexact Hx1
    isplitl [Hy0]; · iexact Hy0
    isplitl [Hy1]; · iexact Hy1
    isplitl [Hr1]; · iexact Hr1
    iexact Hsems
  iexists _; isplitr
  swap; · iexact HO
  ipureintro
  repeat' (first
    | exact fun p hp => Or.inl hp
    | refine (Finset.forall_mem_insert _ _ _).mpr ⟨Or.inr rfl, ?_⟩)

end Cert.Proof.KI

end
-- ==== Proof.KI.Main.lean ====
/-
  The idealized kernel program's run: the SparseCore launch theorem applied to the one vector-subcore call, with @main's
  two TensorCore calls entered as regions while the TensorCore owes the launch's handshakes.
-/
import proofs.«205364_g71897752535391_cont_9to1_m_950_21_alg».proof.Proof.KI.Segs
import proofs.«205364_g71897752535391_cont_9to1_m_950_21_alg».proof.Proof.KI.TileBody

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)
variable (wC : (d : Dev nD) → Buf (Elt F) (wLoc d))

/-! ## What the handshakes carry -/

def P : (K (F := F)).Pay (nD := nD) (Val := Elt F) (Name := ℕ) (U := UU) where
  st := fun q d c => match q with | 0 => bigSep Finset.univ fun s : Fin 16 => tileIn d (m (xLoc d)) (m (yLoc d)) (wC d) (m (oLoc d)) (wid (Fin.cast nCore_zero c) s)
  dn := fun q d c => match q with | 0 => bigSep Finset.univ fun s : Fin 16 => tileOut d (m (xLoc d)) (m (yLoc d)) (wC d) (wid (Fin.cast nCore_zero c) s)
  go := fun q d c s => match q with | 0 => tileIn d (m (xLoc d)) (m (yLoc d)) (wC d) (m (oLoc d)) (wid (Fin.cast nCore_zero c) (Fin.cast nSub_zero s))
  td := fun q d c s => match q with | 0 => tileOut d (m (xLoc d)) (m (yLoc d)) (wC d) (wid (Fin.cast nCore_zero c) (Fin.cast nSub_zero s))
  x := fun _ _ => iprop(emp)

instance P_storable : (P (F := F) m wC).IsStorable where
  st q d c := match q with | 0 => by unfold P tileIn; infer_instance
  dn q d c := match q with | 0 => by unfold P tileOut; infer_instance
  go q d c s := match q with | 0 => by unfold P tileIn; infer_instance
  td q d c s := match q with | 0 => by unfold P tileOut; infer_instance

/-! ## The tile's obligation and a SparseCore's operands among its tiles -/

theorem defs₀_vector (c : Fin τ.nSC) (s : Fin τ.nSub) :
    defs₀ (F := F) (.scVector c s) 1 () = SparseCore.onTile hcore1 hsub1 (fun c s => tileProg (F := F) c s) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m wC) v₀ 0 := by
  intro d c i O W hO _ _
  simp only [show (P m wC).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m wC d hpre ⟨_, hc.1⟩ ⟨_, hc.2⟩ O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m wC) 0 := by
  intro d c
  show (bigSep Finset.univ fun s : Fin 16 => tileIn d (m (xLoc d)) (m (yLoc d)) (wC d) (m (oLoc d)) (wid (Fin.cast nCore_zero c) s)) ⊢ |={Set.univ}=> iprop(
      (bigSep Finset.univ fun i : Fin ((K (F := F)).nSub 0) => tileIn d (m (xLoc d)) (m (yLoc d)) (wC d) (m (oLoc d)) (wid (Fin.cast nCore_zero c) (Fin.cast nSub_zero i)))
      ∗ ((bigSep Finset.univ fun i : Fin ((K (F := F)).nSub 0) => tileOut d (m (xLoc d)) (m (yLoc d)) (wC d) (wid (Fin.cast nCore_zero c) (Fin.cast nSub_zero i)))
          -∗ (bigSep Finset.univ fun s : Fin 16 => tileOut d (m (xLoc d)) (m (yLoc d)) (wC d) (wid (Fin.cast nCore_zero c) s))))
  rw [bigSep_tasks (F := F) (fun s => tileIn d (m (xLoc d)) (m (yLoc d)) (wC d) (m (oLoc d)) (wid (Fin.cast nCore_zero c) s)),
    bigSep_tasks (F := F) (fun s => tileOut d (m (xLoc d)) (m (yLoc d)) (wC d) (wid (Fin.cast nCore_zero c) s))]
  iintro H; imodintro
  isplitl [H]; · iexact H
  iintro H; iexact H

/-! ## The launch element: the handshakes' rounds and the pipelines' staging cells' -/

def u₀ : UU := (initOf (K (F := F)).hsCells (K (F := F)).hsToks,
  (initOf (Pipeline.cells (Pipeline.pin (pcfgs (F := F)) adm) pin_cellOf_inj) (Pipeline.launchToks (Pipeline.pin (pcfgs (F := F)) adm) pin_cellOf_inj), 1))

/-- What @main starts from beyond the launch's deal: both pipelines' cells' ghost state and duty tokens. -/
def G (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m wC).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (Pipeline.pin (pcfgs (F := F)) adm) ((Emb.inl : Emb UP (UP × Counters)).trans (embR : Emb (UP × Counters) 𝕄)) pin_cellOf_inj) $$ HP with ⟨Hg, Ht⟩
  imodintro
  isplitl [HH]; · iexact HH
  isplitl [Hg Ht]
  · unfold G EP
    rw [bigSep_congr (fun d _ => bigSep_sep' Finset.univ _ _), bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The host operations between the calls, as @main spells them. -/
abbrev opFlat : HloOp τ sig (Elt F) := StableHlo.reshape main_v0 main_v1 rfl shapeCasts_S10x5_S50
abbrev opZero : HloOp τ sig (Elt F) := StableHlo.nullary main_c (constantI S_ 32 0#32)
abbrev opCvt : HloOp τ sig (Elt F) :=
  StableHlo.TRef.unary (.of main_c : StableHlo.TRef sig ⟨S_, .i32⟩) (.of main_call0_v0 : StableHlo.TRef sig ⟨S_, .f32⟩) (sitofp .f32)
abbrev opPad : HloOp τ sig (Elt F) :=
  StableHlo.TRef.binary (.of main_v1 : StableHlo.TRef sig ⟨S50, .f32⟩) (.of main_call0_v0 : StableHlo.TRef sig ⟨S_, .f32⟩) (.of main_v2 : StableHlo.TRef sig ⟨S64, .f32⟩)
    (fun x v => pad S64 ![0] ![14] ![0] x v pads_S50_S64_0140 h_S_)
abbrev opOut : HloOp τ sig (Elt F) := StableHlo.reshape main_v4 main_v5 rfl shapeCasts_S1x1_S_

/-- The TensorCore's unscoped buffers: at launch; after the table's call; after the flattening and padding; after the
    SparseCore call left `g` in the partial sums; after the mean's call; after the last reshape. -/
def V0 (d : Dev nD) : Valuation τ sig (Elt F) := fun b => m (d, b)
def V1 (d : Dev nD) : Valuation τ sig (Elt F) := W0' (V0 m d) 0 d
def V2 (d : Dev nD) : Valuation τ sig (Elt F) := (opPad (F := F)).result ((opCvt (F := F)).result ((opZero (F := F)).result ((opFlat (F := F)).result (V1 m d))))
def V3 (d : Dev nD) (g : Buf (Elt F) (oLoc d)) : Valuation τ sig (Elt F) := Function.update (V2 m d) o' g
def V4 (d : Dev nD) (g : Buf (Elt F) (oLoc d)) : Valuation τ sig (Elt F) := W1' (V3 m d g) 1 d
def V5 (d : Dev nD) (g : Buf (Elt F) (oLoc d)) : Valuation τ sig (Elt F) := (opOut (F := F)).result (V4 m d g)

/-- The padded table, as the SparseCore call finds it. -/
def wCof (d : Dev nD) : Buf (Elt F) (wLoc d) := V2 m d w'

/-- A buffer none of the calls and host operations writes keeps its launch contents up to the SparseCore call, -/
theorem V2_keep (d : Dev nD) (r : Ref sig .tc) (h0 : r ≠ main_v0) (h1 : r ≠ main_v1) (hc : r ≠ main_c) (hv : r ≠ main_call0_v0) (h2 : r ≠ main_v2) :
    V2 m d (Proc.devRef .tc r) = m (d, Proc.devRef .tc r) := by
  unfold V2 V1 W0' V0
  rw [HloOp.result_of_not_mem _ _ (by show Proc.devRef .tc r ∉ ({Proc.devRef .tc main_v2} : Finset (DevRef τ sig)); rw [Finset.mem_singleton]; exact StableHlo.devRef_ne_of_ne h2),
    HloOp.result_of_not_mem _ _ (by show Proc.devRef .tc r ∉ ({Proc.devRef .tc main_call0_v0} : Finset (DevRef τ sig)); rw [Finset.mem_singleton]; exact StableHlo.devRef_ne_of_ne hv),
    HloOp.result_of_not_mem _ _ (by show Proc.devRef .tc r ∉ ({Proc.devRef .tc main_c} : Finset (DevRef τ sig)); rw [Finset.mem_singleton]; exact StableHlo.devRef_ne_of_ne hc),
    HloOp.result_of_not_mem _ _ (by show Proc.devRef .tc r ∉ ({Proc.devRef .tc main_v1} : Finset (DevRef τ sig)); rw [Finset.mem_singleton]; exact StableHlo.devRef_ne_of_ne h1),
    Function.update_of_ne (StableHlo.devRef_ne_of_ne h0)]

/-- and to the end. -/
theorem V5_keep (d : Dev nD) (g : Buf (Elt F) (oLoc d)) (r : Ref sig .tc) (h0 : r ≠ main_v0) (h1 : r ≠ main_v1) (hc : r ≠ main_c) (hv : r ≠ main_call0_v0) (h2 : r ≠ main_v2)
    (h3 : r ≠ main_v3) (h4 : r ≠ main_v4) (h5 : r ≠ main_v5) :
    V5 m d g (Proc.devRef .tc r) = m (d, Proc.devRef .tc r) := by
  unfold V5 V4 W1' V3
  rw [HloOp.result_of_not_mem _ _ (by show Proc.devRef .tc r ∉ ({Proc.devRef .tc main_v5} : Finset (DevRef τ sig)); rw [Finset.mem_singleton]; exact StableHlo.devRef_ne_of_ne h5),
    Function.update_of_ne (StableHlo.devRef_ne_of_ne h4), Function.update_of_ne (StableHlo.devRef_ne_of_ne h3)]
  exact V2_keep m d r h0 h1 hc hv h2

/-- What @main leaves the claim: the five arguments at their launch contents. -/
abbrev FIN (d : Dev nD) : sProp 𝕄 :=
  iprop((xLoc d ↦{fullShare} m (xLoc d)) ∗ (yLoc d ↦{fullShare} m (yLoc d)) ∗ (eLoc d ↦{fullShare} m (eLoc d))
    ∗ (fLoc d ↦{fullShare} m (fLoc d)) ∗ (bLoc d ↦{fullShare} m (bLoc d)))

theorem hFlat : (opFlat (F := F)).bufs ⊆ Pipeline.ucRefs τ sig := by
  show ({Proc.devRef .tc main_v0, Proc.devRef .tc main_v1} : Finset (DevRef τ sig)) ⊆ _; decide
theorem hZero : (opZero (F := F)).bufs ⊆ Pipeline.ucRefs τ sig := by
  show ({Proc.devRef .tc main_c} : Finset (DevRef τ sig)) ⊆ _; decide
theorem hCvt : (opCvt (F := F)).bufs ⊆ Pipeline.ucRefs τ sig := by
  show ({Proc.devRef .tc main_c, Proc.devRef .tc main_call0_v0} : Finset (DevRef τ sig)) ⊆ _; decide
theorem hPad : (opPad (F := F)).bufs ⊆ Pipeline.ucRefs τ sig := by
  show ({Proc.devRef .tc main_v1, Proc.devRef .tc main_call0_v0, Proc.devRef .tc main_v2} : Finset (DevRef τ sig)) ⊆ _; decide
theorem hOut : (opOut (F := F)).bufs ⊆ Pipeline.ucRefs τ sig := by
  show ({Proc.devRef .tc main_v4, Proc.devRef .tc main_v5} : Finset (DevRef τ sig)) ⊆ _; decide

theorem hT4 : (T4 : Finset (DevRef τ sig)) ⊆ Pipeline.ucRefs τ sig := by decide
theorem hA5 : (A5 : Finset (DevRef τ sig)) ⊆ Pipeline.ucRefs τ sig := by decide

/-- The call's four arrays as it finds them: x, y and the partial sums as launched, the table padded. -/
theorem held_T4_V2 (d : Dev nD) :
    (held (T d) T4 (V2 m d) : sProp 𝕄) = iprop((xLoc d ↦{fullShare} m (xLoc d)) ∗ (yLoc d ↦{fullShare} m (yLoc d)) ∗ (wLoc d ↦{fullShare} wCof m d) ∗ (oLoc d ↦{fullShare} m (oLoc d))) := by
  rw [held_T4, V2_keep m d main_arg0 (by decide) (by decide) (by decide) (by decide) (by decide),
    V2_keep m d main_arg1 (by decide) (by decide) (by decide) (by decide) (by decide),
    V2_keep m d main_v3 (by decide) (by decide) (by decide) (by decide) (by decide)]
  try rfl

/-- and as it leaves them, the partial sums at `g`. -/
theorem held_T4_V3 (d : Dev nD) (g : Buf (Elt F) (oLoc d)) :
    (held (T d) T4 (V3 m d g) : sProp 𝕄) = iprop((xLoc d ↦{fullShare} m (xLoc d)) ∗ (yLoc d ↦{fullShare} m (yLoc d)) ∗ (wLoc d ↦{fullShare} wCof m d) ∗ (oLoc d ↦{fullShare} g)) := by
  rw [held_T4]
  unfold V3
  rw [Function.update_of_ne (show x' ≠ o' by decide), Function.update_of_ne (show y' ≠ o' by decide), Function.update_of_ne (show w' ≠ o' by decide), Function.update_self,
    V2_keep m d main_arg0 (by decide) (by decide) (by decide) (by decide) (by decide),
    V2_keep m d main_arg1 (by decide) (by decide) (by decide) (by decide) (by decide)]
  try rfl

theorem held_rest_V3 (d : Dev nD) (g : Buf (Elt F) (oLoc d)) :
    (held (T d) (Pipeline.ucRefs τ sig \ T4) (V3 m d g) : sProp 𝕄) = held (T d) (Pipeline.ucRefs τ sig \ T4) (V2 m d) := by
  unfold held V3
  refine bigSep_congr fun b hb => ?_
  rw [Function.update_of_ne fun e => (Finset.mem_sdiff.mp hb).2 (by rw [e]; decide)]

/-- At the end the arguments are as launched. -/
theorem held_A5_V5 (d : Dev nD) (g : Buf (Elt F) (oLoc d)) : (held (T d) A5 (V5 m d g) : sProp 𝕄) = FIN m d := by
  rw [held_A5,
    V5_keep m d g main_arg0 (by decide) (by decide) (by decide) (by decide) (by decide) (by decide) (by decide) (by decide),
    V5_keep m d g main_arg1 (by decide) (by decide) (by decide) (by decide) (by decide) (by decide) (by decide) (by decide),
    V5_keep m d g main_arg2 (by decide) (by decide) (by decide) (by decide) (by decide) (by decide) (by decide) (by decide),
    V5_keep m d g main_arg3 (by decide) (by decide) (by decide) (by decide) (by decide) (by decide) (by decide) (by decide),
    V5_keep m d g main_arg4 (by decide) (by decide) (by decide) (by decide) (by decide) (by decide) (by decide) (by decide)]
  try rfl

/-- The tail of the TensorCore's handshake state before call `n`: its position on its done cell and the later calls' tokens and credit. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) :
    (K (F := F)).tcSt EH d n = iprop((∃ Wt, ⌜(K (F := F)).WBelow (T d) Wt (8 * n)⌝ ∗ owes (T d) ((K (F := F)).Otc d n) Wt) ∗ tcTail (F := F) d n) := rfl

/-- @main on device `d`'s TensorCore. -/
theorem hmain [∀ e, Nonempty (Elt F e)] (κ : GSem nD τ sig → ℕ) (d : Dev nD) :
    iprop((K (F := F)).ctx EH (P m (wCof m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [show (unscopedBufs d (fun b => m ((SparseCore.T d).loc b)) : sProp 𝕄) = held (SparseCore.T d) (Pipeline.ucRefs τ sig) (V0 m d) from
    Pipeline.unscopedBufs_held d (V0 m d), bigSep_univ_two]
  simp only [main, fn_pad.body, wp_bind, wp_pure]
  rw [tcSt_eq (F := F) d 0]
  iintro ⟨#Hctx, ⟨HOw, Htail⟩, ⟨Hb, Hheld, Hs0, Hprng⟩, ⟨Hg0, Ht0⟩, ⟨Hg1, Ht1⟩⟩
  ihave #Hlev := (SparseCore.Cfg.ctx_levAts κ) $$ Hctx
  -- the table's call
  iapply (wp_region0 (V0 m d) (V0 m d) 0 1 d _) $$ [Hb Hheld HOw Hg0 Ht0 Htail Hg1 Ht1]
  isplitl [Htail Hg1 Ht1]
  swap
  · isplitl [Hb]; · iexact Hb
    isplitl [Hheld HOw]
    · unfold TS
      isplitl [Hheld]; · iexact Hheld
      iexact HOw
    isplitr; · iexact Hlev
    isplitl [Hg0] <;> iassumption
  iintro ⟨Hb, HTS⟩
  unfold TS
  icases HTS with ⟨Hheld, HOw⟩
  -- the table flattened, the pad value made and converted, the table padded
  iapply (wp_hlo_within 𝒱 (SparseCore.T d) none Set.univ (op := opFlat) (S := Pipeline.ucRefs τ sig) hFlat (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opZero) (S := Pipeline.ucRefs τ sig) hZero (V := (opFlat (F := F)).result (V1 m d))) $$ [Hb Hheld]
  · isplitl [Hb]; · iexact Hb
    iexact Hheld
  iintro ⟨Hb, Hheld⟩
  rw [wp_ret]; imodintro
  iapply (wp_hlo_within 𝒱 (SparseCore.T d) none Set.univ (op := opCvt) (S := Pipeline.ucRefs τ sig) hCvt (V := (opZero (F := F)).result ((opFlat (F := F)).result (V1 m d)))) $$ [Hb Hheld]
  · isplitl [Hb]; · iexact Hb
    iexact Hheld
  iintro ⟨Hb, Hheld⟩
  rw [wp_ret]; imodintro
  iapply (wp_hlo_within 𝒱 (SparseCore.T d) none Set.univ (op := opPad) (S := Pipeline.ucRefs τ sig) hPad (V := (opCvt (F := F)).result ((opZero (F := F)).result ((opFlat (F := F)).result (V1 m d))))) $$ [Hb Hheld]
  · isplitl [Hb]; · iexact Hb
    iexact Hheld
  iintro ⟨Hb, Hheld⟩
  rw [wp_ret]; imodintro
  imodintro
  -- the SparseCore call: x, y, the table and the partial sums out of the held buffers, cut among the tiles
  ihave Hheld := (Entails.of_eq (show (held (SparseCore.T d) (Pipeline.ucRefs τ sig) ((opPad (F := F)).result ((opCvt (F := F)).result ((opZero (F := F)).result ((opFlat (F := F)).result (V1 m d))))) : sProp 𝕄)
      = held (SparseCore.T d) (Pipeline.ucRefs τ sig) (V2 m d) from rfl)) $$ Hheld
  ihave Hh := (Entails.of_eq (held_sub_split (SparseCore.T d) hT4 (V2 m d))) $$ Hheld
  icases Hh with ⟨H4, Hrest⟩
  ihave H4' := (Entails.of_eq (held_T4_V2 m d)) $$ H4
  ihave Hsp := (tiles_split d (m (xLoc d)) (m (yLoc d)) (wCof m d) (m (oLoc d))) $$ H4'
  icases Hsp with ⟨Hdrop, Htiles⟩
  iapply ((K (F := F)).wp_run (D (F := F)) 𝒱 (EH := EH) (P := P m (wCof m)) κ d 0) $$ [HOw Htail Htiles Hdrop Hrest Hb Hg1 Ht1]
  isplitr; · iexact Hctx
  isplitl [HOw Htail]
  · iapply (Entails.of_eq (tcSt_eq (F := F) d 0).symm)
    isplitl [HOw] <;> iassumption
  isplitl [Htiles]
  · iexact Htiles
  iintro ⟨Hst, Hdn⟩
  -- back: the tiles' quadruples rejoined, the partial sums at what the tiles left
  ihave Hj := (tiles_join d (m (xLoc d)) (m (yLoc d)) (wCof m d) (m (oLoc d))) $$ [Hdrop Hdn]
  · isplitl [Hdrop]; · iexact Hdrop
    iexact Hdn
  icases Hj with ⟨Hx, Hy, Hw, %g, Ho⟩
  ihave H4 := (Entails.of_eq (held_T4_V3 m d g).symm) $$ [Hx Hy Hw Ho]
  · isplitl [Hx]; · iexact Hx
    isplitl [Hy]; · iexact Hy
    isplitl [Hw] <;> iassumption
  ihave Hrest' := (Entails.of_eq (held_rest_V3 m d g).symm) $$ Hrest
  ihave Hheld := (Entails.of_eq (held_sub_split (SparseCore.T d) hT4 (V3 m d g)).symm) $$ [H4 Hrest']
  · isplitl [H4] <;> iassumption
  ihave Hst' := (Entails.of_eq (show (K (F := F)).tcSt EH d ((0 : Fin 1).val + 1) = _ from tcSt_eq (F := F) d 1)) $$ Hst
  icases Hst' with ⟨HOw, Htail⟩
  -- the mean's call
  iapply (wp_region1 (V0 m d) (V3 m d g) 0 1 d _) $$ [Hb Hheld HOw Hg1 Ht1 Htail]
  isplitl [Htail]
  swap
  · isplitl [Hb]; · iexact Hb
    isplitl [Hheld HOw]
    · unfold TS
      isplitl [Hheld]; · iexact Hheld
      iexact HOw
    isplitr; · iexact Hlev
    isplitl [Hg1] <;> iassumption
  iintro ⟨Hb, HTS⟩
  unfold TS
  icases HTS with ⟨Hheld, HOw⟩
  -- the result reshaped to a scalar
  iapply (wp_hlo_within 𝒱 (SparseCore.T d) none Set.univ (op := opOut) (S := Pipeline.ucRefs τ sig) hOut (V := V4 m d g)) $$ [Hb Hheld]
  · isplitl [Hb]; · iexact Hb
    iexact Hheld
  iintro ⟨Hb, Hheld⟩
  rw [wp_ret]; imodintro; imodintro
  isplitl [HOw Htail]
  · iapply (Entails.of_eq (tcSt_eq (F := F) d 1).symm)
    isplitl [HOw] <;> iassumption
  ihave Hheld := (Entails.of_eq (show (held (SparseCore.T d) (Pipeline.ucRefs τ sig) ((opOut (F := F)).result (V4 m d g)) : sProp 𝕄)
      = held (SparseCore.T d) (Pipeline.ucRefs τ sig) (V5 m d g) from rfl)) $$ Hheld
  ihave Hh := (Entails.of_eq (held_sub_split (SparseCore.T d) hA5 (V5 m d g))) $$ Hheld
  icases Hh with ⟨HA, -⟩
  iapply (Entails.of_eq (held_A5_V5 m d g)); iexact HA

def fq (d : Dev nD) (s' : Phys nD τ sig (Elt F)) : Prop :=
  s'.mem.mem (xLoc d) = m (xLoc d) ∧ s'.mem.mem (yLoc d) = m (yLoc d) ∧ s'.mem.mem (eLoc d) = m (eLoc d)
    ∧ s'.mem.mem (fLoc d) = m (fLoc d) ∧ s'.mem.mem (bLoc d) = m (bLoc d)

omit [FloatOps F] in
theorem agree_whole {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨Hx, Hy, He, Hf, Hb⟩, HSI⟩
  ihave H := (agree_whole (F := F) _ s') $$ [Hx HSI]
  · isplitl [Hx] <;> iassumption
  icases H with ⟨%h1, HSI⟩
  ihave H := (agree_whole (F := F) _ s') $$ [Hy HSI]
  · isplitl [Hy] <;> iassumption
  icases H with ⟨%h2, HSI⟩
  ihave H := (agree_whole (F := F) _ s') $$ [He HSI]
  · isplitl [He] <;> iassumption
  icases H with ⟨%h3, HSI⟩
  ihave H := (agree_whole (F := F) _ s') $$ [Hf HSI]
  · isplitl [Hf] <;> iassumption
  icases H with ⟨%h4, HSI⟩
  ihave H := (agree_whole (F := F) _ s') $$ [Hb HSI]
  · isplitl [Hb] <;> iassumption
  icases H with ⟨%h5, HSI⟩
  ipureintro; exact ⟨h1, h2, h3, h4, h5⟩

/-! ## The program's run -/

def QC : PUnit × MemSt nD τ sig (Elt F) → Prop := fun r => ∀ c : Dev nD,
  r.2.mem (xLoc c) = m (xLoc c) ∧ r.2.mem (yLoc c) = m (yLoc c) ∧ r.2.mem (eLoc c) = m (eLoc c) ∧ r.2.mem (fLoc c) = m (fLoc c) ∧ r.2.mem (bLoc c) = m (bLoc c)

/-- From a memory whose x and y are in range: every weakly fair execution of the threads terminates, nothing faulting,
    the five arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (wCof m)) facts v₀
    (fun q hq => match q with | 0 => nomatch hq)
    (fun q _ => match q with | 0 => tileObl m (wCof m) hpre)
    (fun q _ => match q with | 0 => SparseCore.Cfg.VecSplit.of_plain (vecSplit m (wCof m)))
    m ρ main (G (F := F)) (FIN m) (u₀ (F := F)) (sep_elim_left.trans (hu₀ m (wCof m))) (hmain m ρ) (fq m) (hfin m) (QC m) (fun _ h => h)

end Cert.Proof.KI

end
-- ==== Proof.KI.Frame.lean ====
/-
  The idealized kernel program's frame claim from its run: the precondition's integer part — every word of x in 0..9 and
  of y in 0..4, read signed — gives the unsigned bounds the tiles' checks need.
-/
import proofs.«205364_g71897752535391_cont_9to1_m_950_21_alg».proof.Proof.KI.Main
import proofs.«205364_g71897752535391_cont_9to1_m_950_21_alg».proof.Proof.Gen.Pre_input_domain
import Idealize.ShloMosaic.Lib.ReduceAll
import Idealize.ShloMosaic.Lib.ValueIdx

noncomputable section

namespace Cert.Proof.KI

open Cert.KernelIdeal Cert.KernelIdeal.Gen
open Idealize.ShloMosaic Idealize.ShloMosaic.ValueIdx Idealize.SL.Sem

variable {F : FTy → Type} [FloatOps F]

instance subsingleton_scalarIdx : Subsingleton Cert.Pre_input_domain.S_.Idx := ⟨fun a b => funext fun d => d.elim0⟩

/-- The integer part of the precondition, at any float instance. -/
theorem pre_ints (x : IVec Cert.Pre_input_domain.S16384x200 32) (y : IVec Cert.Pre_input_domain.S3276800 32)
    (e : FVec F Cert.Pre_input_domain.S10x4 .f32) (w : FVec F Cert.Pre_input_domain.S5x4 .f32) (b : FVec F Cert.Pre_input_domain.S5 .f32)
    (h : Cert.Pre_input_domain.fn (F := F) x y e w b = fun _ => 1#1) :
    (∀ i, 0 ≤ (x i).toInt ∧ (x i).toInt ≤ 9) ∧ (∀ i, 0 ≤ (y i).toInt ∧ (y i).toInt ≤ 4) := by
  have h0 := congrFun h ix0
  dsimp only [Cert.Pre_input_domain.fn, Cert.Pre_input_domain.fn_part1] at h0
  obtain ⟨h1, hy⟩ := IntOp.andi_eq_one.1 h0
  obtain ⟨h2, hx⟩ := IntOp.andi_eq_one.1 h1
  refine ⟨fun i => ?_, fun i => ?_⟩
  · obtain ⟨ha, hc⟩ := IntOp.andi_eq_one.1 (Host.reduce_andi_all _ _ _ _ ix0 hx i)
    exact ⟨IntOp.cmpi_sge.1 ha, IntOp.cmpi_sle.1 hc⟩
  · obtain ⟨ha, hc⟩ := IntOp.andi_eq_one.1 (Host.reduce_andi_all _ _ _ _ ix0 hy i)
    exact ⟨IntOp.cmpi_sge.1 ha, IntOp.cmpi_sle.1 hc⟩

/-- A 32-bit word that is between 0 and `n` read signed is at most `n` read unsigned. -/
theorem toNat_le_of_toInt (v : BitVec 32) (n : ℕ) (h0 : 0 ≤ v.toInt) (h1 : v.toInt ≤ n) : v.toNat ≤ n := by
  rw [BitVec.toInt_eq_toNat_cond] at h0 h1
  split at h0 <;> omega

/-- The precondition gives what the run asks of the launch memory. -/
theorem ok_of_pre (m : (ℓ : Loc nD τ sig) → Buf (Elt Ideal) ℓ) (h : Cert.Pre_KernelIdeal m) : PreOK (F := Ideal) m := by
  intro d
  obtain ⟨hx, hy⟩ := pre_ints (F := Ideal) _ _ _ _ _ (h d)
  exact ⟨fun j => toNat_le_of_toInt _ 9 (hx j).1 (hx j).2, fun j => toNat_le_of_toInt _ 4 (hy j).1 (hy j).2⟩

/-- `Cert.frame_KernelIdeal` (Defs.lean). -/
theorem frame : Cert.frame_KernelIdeal := fun m ρ hpre =>
  (θ_run Cert.KernelIdeal.defs _ _).mono (fun _ h c => h c) (run_main (F := Ideal) m ρ (ok_of_pre m hpre))

end Cert.Proof.KI

end
-- ==== Proof.KB.Base.lean ====
/-
  The kernel program as printed as the SparseCore launch theorem sees it: its label signature with the two TensorCore
  pipelines, the ghost state (the launch handshakes' rounds, the pipelines' staging cells' rounds, the local
  transfers' counters), the arrays' names and the thirty-two blocks the tiles work on.
-/
import proofs.«205364_g71897752535391_cont_9to1_m_950_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic
import proofs.«205364_g71897752535391_cont_9to1_m_950_21_alg».proof.Proof.Gen.Kernel
import proofs.«205364_g71897752535391_cont_9to1_m_950_21_alg».proof.Proof.Gen.Kernel.Skeleton
import proofs.«205364_g71897752535391_cont_9to1_m_950_21_alg».proof.Proof.Gen.Kernel.Launch
import proofs.«205364_g71897752535391_cont_9to1_m_950_21_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- No pipeline has a prefetched table. -/
abbrev adm : (p : Fin 2) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor; -/
abbrev EH : Emb UH (MT nD τ sig (HIx 1) (Elt F) ℕ UU ℕ) := embL
/-- the staging cells' rounds, the left of the right factor (the counters, its right, are found by instance). -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP embR; infer_instance

/-! ## The launch memory and the arrays -/

abbrev xLoc (d : Dev nD) : Loc nD τ sig := (SparseCore.T d).loc main_arg0
abbrev yLoc (d : Dev nD) : Loc nD τ sig := (SparseCore.T d).loc main_arg1
abbrev eLoc (d : Dev nD) : Loc nD τ sig := (SparseCore.T d).loc main_arg2
abbrev fLoc (d : Dev nD) : Loc nD τ sig := (SparseCore.T d).loc main_arg3
abbrev bLoc (d : Dev nD) : Loc nD τ sig := (SparseCore.T d).loc main_arg4
abbrev tLoc (d : Dev nD) : Loc nD τ sig := (SparseCore.T d).loc main_v0
abbrev wLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

theorem hdivx : 32 ∣ S16384x200.size 0 := ⟨512, rfl⟩
theorem hdivy : 32 ∣ S3276800.size 0 := ⟨102400, rfl⟩
theorem hdivo : 32 ∣ S512.size 0 := ⟨16, rfl⟩

/-- Block `k` of the thirty-two: 512 rows of x, 102400 words of y, 16 words of the result. -/
abbrev xBlk (k : Fin 32) : Finset S16384x200.Idx := (Rect.part (s := S16384x200) (a₀ := 0) hdivx k).set
abbrev yBlk (k : Fin 32) : Finset S3276800.Idx := (Rect.part (s := S3276800) (a₀ := 0) hdivy k).set
abbrev oBlk (k : Fin 32) : Finset S512.Idx := (Rect.part (s := S512) (a₀ := 0) hdivo k).set

/-- The number of tile `s` of SparseCore `c`: 2·s + c. -/
def wid (c : Fin 2) (s : Fin 16) : Fin 32 := ⟨2 * s.val + c.val, by omega⟩

/-! ## The two TensorCore calls' proof data -/

section Dats

variable [FloatOps F]
variable (d : Dev nD)

abbrev r0w : Rect S10x5 := Rect.unit (s := S10x5) ![0, 0] S10x5.size inb_S10x5_S10x5_0_0
abbrev r0e : Rect S10x4 := Rect.unit (s := S10x4) ![0, 0] S10x4.size inb_S10x4_S10x4_0_0
abbrev r0f : Rect S5x4 := Rect.unit (s := S5x4) ![0, 0] S5x4.size inb_S5x4_S5x4_0_0
abbrev r0b : Rect S5 := Rect.unit (s := S5) ![0] S5.size inb_S5_S5_0
abbrev r2p : Rect S512 := Rect.unit (s := S512) ![0] S512.size inb_S512_S512_0
abbrev r2r : Rect S1x1 := Rect.unit (s := S1x1) ![0, 0] S1x1.size inb_S1x1_S1x1_0_0

/-- The table's staging buffer after the first call's body: its one store over the three loads. -/
def outTab (x0 : Vec F S10x4 .f32) (x1 : Vec F S5x4 .f32) (x2 : Vec F S5 .f32) : Vec F S10x5 .f32 :=
  View.canon [⟨r0w, k0_pay1 (View.ld x0 r0e) (View.ld x1 r0f) (View.ld x2 r0b)⟩]
/-- The result's staging buffer after the last call's body. -/
def outRes (x0 : Vec F S512 .f32) : Vec F S1x1 .f32 :=
  View.canon [⟨r2r, k2_pay1 (View.ld x0 r2p)⟩]

end Dats

end Cert.Proof.KB

end
-- ==== Proof.KB.Region0.lean ====
/-
  The first TensorCore call (the table): its proof data on a core whose TensorCore still owes the SparseCore call's
  start signals, and the body's triple — three whole loads, one whole store of the table's payload.
-/
import proofs.«205364_g71897752535391_cont_9to1_m_950_21_alg».proof.Proof.KB.Base

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The TensorCore's unscoped buffers at some contents, read at a TensorCore reference. -/
abbrev rd (W : Valuation τ sig (Elt F)) (c : Dev nD) (b : Ref sig .tc) : Buf (Elt F) ((c.tc : Thread nD τ).loc b) := W (Proc.devRef .tc b)

section Region0

variable (W : Valuation τ sig (Elt F)) (n : ℕ)

/-- Window `w`'s block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (rd W c (Pipeline.arrRef spec0 w))

/-- The proof data of the table's call on core `c`, entered at the contents `W` before SparseCore call `n`: after the
    body each input's buffer holds its array and the result's the table; the invariant is the scoped rest; the core owes
    what it owes the launch throughout, its recorded pairs at or below level 8·n. -/
def dat0 (c : Dev nD) : Dat τ (Elt F) (HIx 1) ℕ UU ℕ cfg0 c where
  A w := rd W c (Pipeline.arrRef spec0 w)
  after w t := match w with
    | ⟨0, _⟩ => iblk0 W c 0 t
    | ⟨1, _⟩ => iblk0 W c 1 t
    | ⟨2, _⟩ => iblk0 W c 2 t
    | ⟨3, _⟩ => outTab (iblk0 W c 0 t) (iblk0 W c 1 t) (iblk0 W c 2 t)
  Φ _ := Pipeline.scopedRest (Ix := HIx 1) (Name := ℕ) (U := UU) (Lvl := ℕ) (Val := Elt F) spec0 c
  q _ := fullShare
  owed _ := (K (F := F)).Otc c n
  recorded _ := {p | (K (F := F)).lev ((c.tc : Thread nD τ), p.1) p.2 ≤ 8 * n}

theorem A0_eq (c : Dev nD) (w : Fin cfg0.W) : (dat0 W n c).A w = rd W c (Pipeline.arrRef spec0 w) := by dsimp only [dat0]
theorem after0_0 (c : Dev nD) (t : Fin cfg0.N) : (dat0 W n c).after 0 t = iblk0 W c 0 t := by dsimp only [dat0]
theorem after0_1 (c : Dev nD) (t : Fin cfg0.N) : (dat0 W n c).after 1 t = iblk0 W c 1 t := by dsimp only [dat0]
theorem after0_2 (c : Dev nD) (t : Fin cfg0.N) : (dat0 W n c).after 2 t = iblk0 W c 2 t := by dsimp only [dat0]
theorem after0_3 (c : Dev nD) (t : Fin cfg0.N) : (dat0 W n c).after 3 t = outTab (iblk0 W c 0 t) (iblk0 W c 1 t) (iblk0 W c 2 t) := by dsimp only [dat0]

/-- Each input's staging buffer holds its array at the point, fetched there. -/
theorem before0_0 (c : Dev nD) (t : Fin cfg0.N) (d) : (dat0 W n c).before 0 t d = iblk0 W c 0 t :=
  ((dat0 W n c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 W n c).before 1 t d = iblk0 W c 1 t :=
  ((dat0 W n c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 W n c).before 2 t d = iblk0 W c 2 t :=
  ((dat0 W n c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

theorem cover0 (p0 : Vec F S10x5 .f32) (y : S10x5.Idx) :
    ∃ pc ∈ ([⟨r0w, p0⟩] : List (View.Piece (Elt F) S10x5 .f32)), y ∈ pc.1.set :=
  View.cover_of_tiled [⟨r0w, p0⟩] S10x5.size (by rfl) y

set_option maxHeartbeats 1000000 in
/-- The table's body on whole staging memrefs: the three inputs read, the table stored. -/
theorem sound_table (c : Dev nD) (E : Set ℕ) (arg0 : Memref sig .tc .vmem S10x4 .f32) (harg0 : arg0.IsWhole) (arg1 : Memref sig .tc .vmem S5x4 .f32) (harg1 : arg1.IsWhole)
    (arg2 : Memref sig .tc .vmem S5 .f32) (harg2 : arg2.IsWhole) (arg3 : Memref sig .tc .vmem S10x5 .f32) (harg3 : arg3.IsWhole)
    (x0 : Vec F S10x4 .f32) (x1 : Vec F S5x4 .f32) (x2 : Vec F S5 .f32) (Kk : PUnit → sProp 𝕄) :
    iprop(owns (c.tc : Thread nD τ) arg0 fullShare x0 ∗ owns (c.tc : Thread nD τ) arg1 fullShare x1 ∗ owns (c.tc : Thread nD τ) arg2 fullShare x2 ∗ (∃ d, owns (c.tc : Thread nD τ) arg3 fullShare d)
        ∗ (iprop(owns (c.tc : Thread nD τ) arg0 fullShare x0 ∗ owns (c.tc : Thread nD τ) arg1 fullShare x1 ∗ owns (c.tc : Thread nD τ) arg2 fullShare x2
            ∗ owns (c.tc : Thread nD τ) arg3 fullShare (outTab x0 x1 x2)) -∗ Kk ⟨⟩))
      ⊢ wp frame (wpE (defs₀ (F := F)) Variants.none (c.tc : Thread nD τ) none) E (cc0_table_body arg0 harg0 arg1 harg1 arg2 harg2 arg3 harg3) Kk := by
  simp only [cc0_table_body_eq_skeleton]; unfold cc0_table_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- What the body is called with at the point, the windows one by one, -/
def bodyPre0 (c : Dev nD) (t : Fin cfg0.N) : sProp 𝕄 :=
  iprop((dat0 W n c).Φ t.castSucc ∗ (dat0 W n c).owesAt (none : HIx 1) t.castSucc
    ∗ (∃ d, owns (c.tc : Thread nD τ) (st0_0 t) fullShare ((dat0 W n c).before 0 t d))
    ∗ (∃ d, owns (c.tc : Thread nD τ) (st0_1 t) fullShare ((dat0 W n c).before 1 t d))
    ∗ (∃ d, owns (c.tc : Thread nD τ) (st0_2 t) fullShare ((dat0 W n c).before 2 t d))
    ∗ (∃ d, owns (c.tc : Thread nD τ) (st0_3 t) fullShare ((dat0 W n c).before 3 t d)))

/-- and what it returns. -/
def bodyPost0 (c : Dev nD) (t : Fin cfg0.N) : sProp 𝕄 :=
  iprop((dat0 W n c).Φ t.succ ∗ (dat0 W n c).owesAt (none : HIx 1) t.succ
    ∗ owns (c.tc : Thread nD τ) (st0_0 t) fullShare ((dat0 W n c).after 0 t)
    ∗ owns (c.tc : Thread nD τ) (st0_1 t) fullShare ((dat0 W n c).after 1 t)
    ∗ owns (c.tc : Thread nD τ) (st0_2 t) fullShare ((dat0 W n c).after 2 t)
    ∗ owns (c.tc : Thread nD τ) (st0_3 t) fullShare ((dat0 W n c).after 3 t))

/-- The body at the point: the inputs' buffers hold their arrays, so the body's triple applies; the invariant and what
    the core owes pass through unread. -/
theorem sound_body0 (c : Dev nD) (t : Fin cfg0.N) :
    bodyPre0 W n c t ⊢ wp frame (wpE (defs₀ (F := F)) Variants.none (c.tc : Thread nD τ) none) Set.univ (bodyAt0 t) (fun _ => bodyPost0 W n c t) := by
  unfold bodyPre0 bodyPost0 bodyAt0
  simp only [before0_0, before0_1, before0_2]
  rw [show (dat0 W n c).Φ t.succ = (dat0 W n c).Φ t.castSucc from rfl,
    show (dat0 W n c).owesAt (none : HIx 1) t.succ = (dat0 W n c).owesAt (none : HIx 1) t.castSucc from rfl,
    after0_0, after0_1, after0_2, after0_3]
  iintro ⟨HΦ, Ho, ⟨%d0, H0⟩, ⟨%d1, H1⟩, ⟨%d2, H2⟩, ⟨%d3, H3⟩⟩
  iapply (sound_table c Set.univ _ _ _ _ _ _ _ _ (iblk0 W c 0 t) (iblk0 W c 1 t) (iblk0 W c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the one point. -/
theorem body_obligation0 (c : Dev nD) : BodyObligation (dat0 (F := F) W n c) (defs₀ (F := F)) Variants.none (none : HIx 1) Set.univ := fun t => by
  rw [bigSep_W0, bigSep_W0]
  exact sound_body0 W n c t

end Region0

end Cert.Proof.KB

end
-- ==== Proof.KB.Region1.lean ====
/-
  The last TensorCore call (the mean): its proof data on a core whose TensorCore owes the launch nothing more, and the
  body's triple — one whole load of the 512 partial sums, one store of their sum over the token count.
-/
import proofs.«205364_g71897752535391_cont_9to1_m_950_21_alg».proof.Proof.KB.Region0

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region1

variable (W : Valuation τ sig (Elt F)) (n : ℕ)

/-- Window `w`'s block at the one point, read off its array as the region finds it. -/
def iblk1 (c : Dev nD) (w : Fin cfg2.W) (t : Fin cfg2.N) : ((cfg2.win w).xblock (cfg2.grid.coords t)).Idx → Elt F (cfg2.win w).elt :=
  ((cfg2.win w).blk t).view.read (Elt F) (rd W c (Pipeline.arrRef spec2 w))

/-- The proof data of the mean's call on core `c`, entered at the contents `W` before SparseCore call `n`. -/
def dat1 (c : Dev nD) : Dat τ (Elt F) (HIx 1) ℕ UU ℕ cfg2 c where
  A w := rd W c (Pipeline.arrRef spec2 w)
  after w t := match w with
    | ⟨0, _⟩ => iblk1 W c 0 t
    | ⟨1, _⟩ => outRes (iblk1 W c 0 t)
  Φ _ := Pipeline.scopedRest (Ix := HIx 1) (Name := ℕ) (U := UU) (Lvl := ℕ) (Val := Elt F) spec2 c
  q _ := fullShare
  owed _ := (K (F := F)).Otc c n
  recorded _ := {p | (K (F := F)).lev ((c.tc : Thread nD τ), p.1) p.2 ≤ 8 * n}

theorem A1_eq (c : Dev nD) (w : Fin cfg2.W) : (dat1 W n c).A w = rd W c (Pipeline.arrRef spec2 w) := by dsimp only [dat1]
theorem after1_0 (c : Dev nD) (t : Fin cfg2.N) : (dat1 W n c).after 0 t = iblk1 W c 0 t := by dsimp only [dat1]
theorem after1_1 (c : Dev nD) (t : Fin cfg2.N) : (dat1 W n c).after 1 t = outRes (iblk1 W c 0 t) := by dsimp only [dat1]

theorem before1_0 (c : Dev nD) (t : Fin cfg2.N) (d) : (dat1 W n c).before 0 t d = iblk1 W c 0 t :=
  ((dat1 W n c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)

theorem cover1 (p0 : Vec F S1x1 .f32) (y : S1x1.Idx) :
    ∃ pc ∈ ([⟨r2r, p0⟩] : List (View.Piece (Elt F) S1x1 .f32)), y ∈ pc.1.set :=
  View.cover_of_tiled [⟨r2r, p0⟩] S1x1.size (by rfl) y

set_option maxHeartbeats 1000000 in
/-- The mean's body on whole staging memrefs: the partial sums read, their mean stored. -/
theorem sound_mean (c : Dev nD) (E : Set ℕ) (arg0 : Memref sig .tc .vmem S512 .f32) (harg0 : arg0.IsWhole) (arg1 : Memref sig .tc .vmem S1x1 .f32) (harg1 : arg1.IsWhole)
    (x0 : Vec F S512 .f32) (Kk : PUnit → sProp 𝕄) :
    iprop(owns (c.tc : Thread nD τ) arg0 fullShare x0 ∗ (∃ d, owns (c.tc : Thread nD τ) arg1 fullShare d)
        ∗ (iprop(owns (c.tc : Thread nD τ) arg0 fullShare x0 ∗ owns (c.tc : Thread nD τ) arg1 fullShare (outRes x0)) -∗ Kk ⟨⟩))
      ⊢ wp frame (wpE (defs₀ (F := F)) Variants.none (c.tc : Thread nD τ) none) E (cc2_combine_body arg0 harg0 arg1 harg1) Kk := by
  simp only [cc2_combine_body_eq_skeleton]; unfold cc2_combine_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

def bodyPre1 (c : Dev nD) (t : Fin cfg2.N) : sProp 𝕄 :=
  iprop((dat1 W n c).Φ t.castSucc ∗ (dat1 W n c).owesAt (none : HIx 1) t.castSucc
    ∗ (∃ d, owns (c.tc : Thread nD τ) (st2_0 t) fullShare ((dat1 W n c).before 0 t d))
    ∗ (∃ d, owns (c.tc : Thread nD τ) (st2_1 t) fullShare ((dat1 W n c).before 1 t d)))

def bodyPost1 (c : Dev nD) (t : Fin cfg2.N) : sProp 𝕄 :=
  iprop((dat1 W n c).Φ t.succ ∗ (dat1 W n c).owesAt (none : HIx 1) t.succ
    ∗ owns (c.tc : Thread nD τ) (st2_0 t) fullShare ((dat1 W n c).after 0 t)
    ∗ owns (c.tc : Thread nD τ) (st2_1 t) fullShare ((dat1 W n c).after 1 t))

theorem sound_body1 (c : Dev nD) (t : Fin cfg2.N) :
    bodyPre1 W n c t ⊢ wp frame (wpE (defs₀ (F := F)) Variants.none (c.tc : Thread nD τ) none) Set.univ (bodyAt2 t) (fun _ => bodyPost1 W n c t) := by
  unfold bodyPre1 bodyPost1 bodyAt2
  simp only [before1_0]
  rw [show (dat1 W n c).Φ t.succ = (dat1 W n c).Φ t.castSucc from rfl,
    show (dat1 W n c).owesAt (none : HIx 1) t.succ = (dat1 W n c).owesAt (none : HIx 1) t.castSucc from rfl,
    after1_0, after1_1]
  iintro ⟨HΦ, Ho, ⟨%d0, H0⟩, ⟨%d1, H1⟩⟩
  iapply (sound_mean c Set.univ _ _ _ _ (iblk1 W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) W n c) (defs₀ (F := F)) Variants.none (none : HIx 1) Set.univ := fun t => by
  rw [bigSep_W2, bigSep_W2]
  exact sound_body1 W n c t

end Region1

end Cert.Proof.KB

end
-- ==== Proof.KB.Segs.lean ====
/-
  The two TensorCore calls as regions of @main entered while the TensorCore owes the SparseCore call's handshakes: each
  region's record — layout, body obligation, wait evidence from the level facts (everything the TensorCore owes sits
  above the staging cells' level), and the four entailments between the thread state around the region (the unscoped
  buffers held at a valuation, what the core owes) and the pipeline's own terms.
-/
import proofs.«205364_g71897752535391_cont_9to1_m_950_21_alg».proof.Proof.KB.Region1

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

variable (W0 W1 : Valuation τ sig (Elt F)) (n0 n1 : ℕ)

/-- Both calls' proof data, by the pipeline's index. -/
def pdats : (p : Fin 2) → (c : Dev nD) → Dat τ (Elt F) (HIx 1) ℕ UU ℕ (Pipeline.pin (pcfgs (F := F)) adm p) c
  | ⟨0, _⟩ => fun c => dat0 W0 n0 c
  | ⟨1, _⟩ => fun c => dat1 W1 n1 c

/-- The TensorCore's state between segments before SparseCore call `n`: its unscoped buffers held at `Wv`, and what it
    owes the launch, its recorded pairs at or below level 8·n. -/
def TS (Wv : Valuation τ sig (Elt F)) (n : ℕ) (c : Dev nD) : sProp 𝕄 :=
  iprop(held (c.tc : Thread nD τ) (Pipeline.ucRefs τ sig) Wv
    ∗ ∃ Wt, ⌜(K (F := F)).WBelow (T c) Wt (8 * n)⌝ ∗ owes (T c) ((K (F := F)).Otc c n) Wt)

set_option quotPrecheck false in
local notation "ℝ𝕊" => Pipeline.RegionSeg (pcfgs (F := F)) adm (pdats W0 W1 n0 n1) (none : HIx 1) defs₀ 𝒱₀ (K (F := F)).L (K (F := F)).lev

theorem Otc_none (c : Dev nD) (n : ℕ) (g : GSem nD τ sig) : (K (F := F)).Otc c n g none = 0 := by
  by_contra h
  have := (K (F := F)).lev_of_Otc_pos (Nat.pos_of_ne_zero h); rw [SparseCore.Cfg.lev_none] at this; omega

/-- The contents after the first call: the table where its result array was. -/
def W0' (c : Dev nD) : Valuation τ sig (Elt F) :=
  Function.update W0 (Proc.devRef .tc main_v0) ((dat0 W0 n0 c).arrAt 3 cfg0.N)

/-- The wait evidence of a call's staging cells: everything the TensorCore owes the launch sits above level 0. -/
theorem hwaits (p : Fin 2) (c : Dev nD) (howed : ∀ t, ∃ n, (pdats W0 W1 n0 n1 p c).owed t = (K (F := F)).Otc c n) :
    (levAts (K (F := F)).L (K (F := F)).lev : sProp 𝕄) ⊢ Pipeline.cellsWaits (Pipeline.pin (pcfgs (F := F)) adm) (pdats W0 W1 n0 n1) (none : HIx 1) p c :=
  Pipeline.cellsWaits_intro (Pipeline.pin (pcfgs (F := F)) adm) (pdats W0 W1 n0 n1) (none : HIx 1) p c fun w s t => by
    obtain ⟨n, hn⟩ := howed t
    rw [hn]
    exact (K (F := F)).mayWait_none _ (Otc_none c n)

omit [FloatOps F] in
theorem bigSep_Fin0 (Φ : Fin 0 → sProp 𝕄) : bigSep Finset.univ Φ = (BI.emp : sProp 𝕄) :=
  bigSep_univ_eq_bigSepL [] (by decide) (by decide) Φ
theorem prefHeld0 (c : Dev nD) (q) (pf) : (Pipeline.prefHeld (Ix := HIx 1) (Name := ℕ) (U := UU) (Lvl := ℕ) (Val := Elt F) (pcfgs (F := F) 0).pre c q pf : sProp 𝕄) = BI.emp :=
  bigSep_Fin0 _
theorem prefHeld1 (c : Dev nD) (q) (pf) : (Pipeline.prefHeld (Ix := HIx 1) (Name := ℕ) (U := UU) (Lvl := ℕ) (Val := Elt F) (pcfgs (F := F) 1).pre c q pf : sProp 𝕄) = BI.emp :=
  bigSep_Fin0 _

/-- After the call every array of the first pipeline holds what the new contents say: the inputs as before, the result the table. -/
theorem arrAt0_eq (c : Dev nD) : ∀ w : Fin cfg0.W, (dat0 W0 n0 c).arrAt w cfg0.N = rd (W0' W0 n0 c) c (Pipeline.arrRef spec0 w)
  | ⟨0, h⟩ => ((dat0 W0 n0 c).arrAt_in ⟨0, h⟩ rfl _).trans ((A0_eq W0 n0 c _).trans (by
      show W0 (Proc.devRef .tc main_arg2) = Function.update W0 (Proc.devRef .tc main_v0) _ (Proc.devRef .tc main_arg2)
      rw [Function.update_of_ne (by decide)]))
  | ⟨1, h⟩ => ((dat0 W0 n0 c).arrAt_in ⟨1, h⟩ rfl _).trans ((A0_eq W0 n0 c _).trans (by
      show W0 (Proc.devRef .tc main_arg3) = Function.update W0 (Proc.devRef .tc main_v0) _ (Proc.devRef .tc main_arg3)
      rw [Function.update_of_ne (by decide)]))
  | ⟨2, h⟩ => ((dat0 W0 n0 c).arrAt_in ⟨2, h⟩ rfl _).trans ((A0_eq W0 n0 c _).trans (by
      show W0 (Proc.devRef .tc main_arg4) = Function.update W0 (Proc.devRef .tc main_v0) _ (Proc.devRef .tc main_arg4)
      rw [Function.update_of_ne (by decide)]))
  | ⟨3, h⟩ => by
    show _ = Function.update W0 (Proc.devRef .tc main_v0) ((dat0 W0 n0 c).arrAt 3 cfg0.N) (Proc.devRef .tc main_v0)
    rw [Function.update_self]; rfl

omit [FloatOps F] in
/-- The unscoped rest of a pipeline reads a valuation only off the pipeline's arrays. -/
theorem unscopedRest_congr {gr : Nat} {Wn : Nat} (win : Fin Wn → Pipeline.WinSpec sig gr) (c : Dev nD)
    (V V' : (b : Ref sig .tc) → Buf (Elt F) ((c.tc : Thread nD τ).loc b)) (h : ∀ b, b ∉ Finset.univ.image (Pipeline.arrRef win) → V b = V' b) :
    (Pipeline.unscopedRest win c V : sProp 𝕄) = Pipeline.unscopedRest win c V' := by
  unfold Pipeline.unscopedRest
  exact bigSep_congr fun b hb => by rw [h b (Finset.mem_sdiff.mp hb).2]

/-- The table's call as a region. -/
def reg0 : ℝ𝕊 0 where
  win := winFacts0.to₀
  block_pos := block_pos0
  stage_whole := stage_whole0
  K := PEmpty
  osem k := k.elim
  ho := Pipeline.OwnSemFacts.none _
  hbody c := (body_obligation0 W0 n0 c).loose
  hwaits c := hwaits W0 W1 n0 n1 0 c fun _ => ⟨n0, rfl⟩
  pre c := TS W0 n0 c
  post c := TS (W0' W0 n0 c) n0 c
  X _ := iprop(emp)
  Y _ := iprop(emp)
  Z c := Pipeline.unscopedRest spec0 c (rd W0 c)
  hentry c := by
    show iprop(TS W0 n0 c ∗ Pipeline.ownSems0 (fun k : PEmpty => k.elim) c ∗ levAts (K (F := F)).L (K (F := F)).lev)
      ⊢ |={Set.univ}=> iprop((dat0 W0 n0 c).arrays ((dat0 W0 n0 c).arrAt · 0) ∗ Pipeline.prefHeld (pcfgs (F := F) 0).pre c (fun _ => fullShare) (adm (F := F) 0).1
        ∗ (dat0 W0 n0 c).owesAt (none : HIx 1) 0 ∗ emp ∗ Pipeline.unscopedRest spec0 c (rd W0 c))
    unfold TS
    rw [← Pipeline.unscopedBufs_held c W0]
    iintro ⟨⟨Hu, %Wt, %hWt, HO⟩, -, -⟩
    ihave H := (Pipeline.arrays_of_unscopedBufs (pcfgs (F := F)) adm (pdats W0 W1 n0 n1) (p := 0) winFacts0 arr_whole0 c ((dat0 W0 n0 c).share_full fun _ => rfl) (rd W0 c) (fun w => A0_eq W0 n0 c w)) $$ Hu
    icases H with ⟨Harr, Hrest⟩
    imodintro
    isplitl [Harr]; · iexact Harr
    isplitr
    · rw [prefHeld0]; iempintro
    isplitl [HO]
    · unfold Dat.owesAt Pipeline.owesWithin Dat.bound
      iexists Wt; isplitr
      · ipureintro; exact fun p hp => Or.inl (hWt p hp)
      · iexact HO
    isplitr; · iempintro
    iexact Hrest
  hin c := by
    show iprop(emp ∗ Pipeline.prefHeld (pcfgs (F := F) 0).pre c (fun _ => fullShare) (adm (F := F) 0).1 ∗ Pipeline.scopedRest (Ix := HIx 1) (Name := ℕ) (U := UU) (Lvl := ℕ) (Val := Elt F) spec0 c) ⊢ (Pipeline.scopedRest (Ix := HIx 1) (Name := ℕ) (U := UU) (Lvl := ℕ) (Val := Elt F) spec0 c : sProp 𝕄)
    iintro ⟨-, -, H⟩; iexact H
  hout c := by
    show (Pipeline.scopedRest (Ix := HIx 1) (Name := ℕ) (U := UU) (Lvl := ℕ) (Val := Elt F) spec0 c : sProp 𝕄) ⊢ iprop(emp ∗ Pipeline.ownSems0 (fun k : PEmpty => k.elim) c ∗ Pipeline.scopedRest (Ix := HIx 1) (Name := ℕ) (U := UU) (Lvl := ℕ) (Val := Elt F) spec0 c)
    rw [Pipeline.ownSems0_none]
    iintro H
    isplitr; · iempintro
    isplitr; · iempintro
    iexact H
  hexit c := by
    show iprop((dat0 W0 n0 c).arrays ((dat0 W0 n0 c).arrAt · cfg0.N) ∗ (dat0 W0 n0 c).owesAt (none : HIx 1) (Fin.last cfg0.N) ∗ emp ∗ Pipeline.unscopedRest spec0 c (rd W0 c))
      ⊢ |={Set.univ}=> TS (W0' W0 n0 c) n0 c
    have harr : (dat0 W0 n0 c).arrays (fun w => (dat0 W0 n0 c).arrAt w cfg0.N)
        = bigSep Finset.univ fun w : Fin (Pipeline.pin (pcfgs (F := F)) adm 0).W => (((c.tc : Thread nD τ).loc (Pipeline.arrRef (Pipeline.pin (pcfgs (F := F)) adm 0).spec w)) ↦{fullShare} rd (W0' W0 n0 c) c (Pipeline.arrRef (Pipeline.pin (pcfgs (F := F)) adm 0).spec w) : sProp 𝕄) :=
      (Pipeline.arrays_eq (Pipeline.pin (pcfgs (F := F)) adm) (pdats W0 W1 n0 n1) 0 c arr_whole0 ((dat0 W0 n0 c).share_full fun _ => rfl) (fun w => (dat0 W0 n0 c).arrAt w cfg0.N)).trans
        (bigSep_congr fun w _ => by rw [arrAt0_eq W0 n0 c w]; rfl)
    have hrest : (Pipeline.unscopedRest spec0 c (rd (W0' W0 n0 c) c) : sProp 𝕄) = Pipeline.unscopedRest spec0 c (rd W0 c) :=
      unscopedRest_congr spec0 c _ _ fun b hb => by
        show Function.update W0 (Proc.devRef .tc main_v0) _ (Proc.devRef .tc b) = W0 (Proc.devRef .tc b)
        refine Function.update_of_ne (fun e => hb ?_) _ _
        rw [Proc.devRef_injective _ e]
        exact Finset.mem_image.mpr ⟨3, Finset.mem_univ _, rfl⟩
    unfold TS
    rw [← Pipeline.unscopedBufs_held c (W0' W0 n0 c),
      Pipeline.unscopedBufs_split (Pipeline.pin (pcfgs (F := F)) adm) 0 winFacts0.arr_unscoped winFacts0.arr_inj c (rd (W0' W0 n0 c) c), harr]
    iintro ⟨Harr, HO, -, Hrest⟩
    imodintro
    isplitl [Harr Hrest]
    · isplitl [Harr]
      · iexact Harr
      · iapply (Entails.of_eq hrest.symm); iexact Hrest
    · unfold Dat.owesAt Pipeline.owesWithin Dat.bound
      icases HO with ⟨%Wt, %hWt, HO⟩
      iexists Wt; isplitr
      · ipureintro
        intro p hp
        rcases hWt hp with h | ⟨w, s, rfl⟩
        · exact h
        · show (K (F := F)).lev _ none ≤ _
          rw [SparseCore.Cfg.lev_none]; exact Nat.zero_le _
      · iexact HO

/-- The contents after the last call: the mean where its result array was. -/
def W1' (c : Dev nD) : Valuation τ sig (Elt F) :=
  Function.update W1 (Proc.devRef .tc main_v4) ((dat1 W1 n1 c).arrAt 1 cfg2.N)

theorem arrAt1_eq (c : Dev nD) : ∀ w : Fin cfg2.W, (dat1 W1 n1 c).arrAt w cfg2.N = rd (W1' W1 n1 c) c (Pipeline.arrRef spec2 w)
  | ⟨0, h⟩ => ((dat1 W1 n1 c).arrAt_in ⟨0, h⟩ rfl _).trans ((A1_eq W1 n1 c _).trans (by
      show W1 (Proc.devRef .tc main_v3) = Function.update W1 (Proc.devRef .tc main_v4) _ (Proc.devRef .tc main_v3)
      rw [Function.update_of_ne (by decide)]))
  | ⟨1, h⟩ => by
    show _ = Function.update W1 (Proc.devRef .tc main_v4) ((dat1 W1 n1 c).arrAt 1 cfg2.N) (Proc.devRef .tc main_v4)
    rw [Function.update_self]; rfl

/-- The mean's call as a region. -/
def reg1 : ℝ𝕊 1 where
  win := winFacts2.to₀
  block_pos := block_pos2
  stage_whole := stage_whole2
  K := PEmpty
  osem k := k.elim
  ho := Pipeline.OwnSemFacts.none _
  hbody c := (body_obligation1 W1 n1 c).loose
  hwaits c := hwaits W0 W1 n0 n1 1 c fun _ => ⟨n1, rfl⟩
  pre c := TS W1 n1 c
  post c := TS (W1' W1 n1 c) n1 c
  X _ := iprop(emp)
  Y _ := iprop(emp)
  Z c := Pipeline.unscopedRest spec2 c (rd W1 c)
  hentry c := by
    show iprop(TS W1 n1 c ∗ Pipeline.ownSems0 (fun k : PEmpty => k.elim) c ∗ levAts (K (F := F)).L (K (F := F)).lev)
      ⊢ |={Set.univ}=> iprop((dat1 W1 n1 c).arrays ((dat1 W1 n1 c).arrAt · 0) ∗ Pipeline.prefHeld (pcfgs (F := F) 1).pre c (fun _ => fullShare) (adm (F := F) 1).1
        ∗ (dat1 W1 n1 c).owesAt (none : HIx 1) 0 ∗ emp ∗ Pipeline.unscopedRest spec2 c (rd W1 c))
    unfold TS
    rw [← Pipeline.unscopedBufs_held c W1]
    iintro ⟨⟨Hu, %Wt, %hWt, HO⟩, -, -⟩
    ihave H := (Pipeline.arrays_of_unscopedBufs (pcfgs (F := F)) adm (pdats W0 W1 n0 n1) (p := 1) winFacts2 arr_whole2 c ((dat1 W1 n1 c).share_full fun _ => rfl) (rd W1 c) (fun w => A1_eq W1 n1 c w)) $$ Hu
    icases H with ⟨Harr, Hrest⟩
    imodintro
    isplitl [Harr]; · iexact Harr
    isplitr
    · rw [prefHeld1]; iempintro
    isplitl [HO]
    · unfold Dat.owesAt Pipeline.owesWithin Dat.bound
      iexists Wt; isplitr
      · ipureintro; exact fun p hp => Or.inl (hWt p hp)
      · iexact HO
    isplitr; · iempintro
    iexact Hrest
  hin c := by
    show iprop(emp ∗ Pipeline.prefHeld (pcfgs (F := F) 1).pre c (fun _ => fullShare) (adm (F := F) 1).1 ∗ Pipeline.scopedRest (Ix := HIx 1) (Name := ℕ) (U := UU) (Lvl := ℕ) (Val := Elt F) spec2 c) ⊢ (Pipeline.scopedRest (Ix := HIx 1) (Name := ℕ) (U := UU) (Lvl := ℕ) (Val := Elt F) spec2 c : sProp 𝕄)
    iintro ⟨-, -, H⟩; iexact H
  hout c := by
    show (Pipeline.scopedRest (Ix := HIx 1) (Name := ℕ) (U := UU) (Lvl := ℕ) (Val := Elt F) spec2 c : sProp 𝕄) ⊢ iprop(emp ∗ Pipeline.ownSems0 (fun k : PEmpty => k.elim) c ∗ Pipeline.scopedRest (Ix := HIx 1) (Name := ℕ) (U := UU) (Lvl := ℕ) (Val := Elt F) spec2 c)
    rw [Pipeline.ownSems0_none]
    iintro H
    isplitr; · iempintro
    isplitr; · iempintro
    iexact H
  hexit c := by
    show iprop((dat1 W1 n1 c).arrays ((dat1 W1 n1 c).arrAt · cfg2.N) ∗ (dat1 W1 n1 c).owesAt (none : HIx 1) (Fin.last cfg2.N) ∗ emp ∗ Pipeline.unscopedRest spec2 c (rd W1 c))
      ⊢ |={Set.univ}=> TS (W1' W1 n1 c) n1 c
    have harr : (dat1 W1 n1 c).arrays (fun w => (dat1 W1 n1 c).arrAt w cfg2.N)
        = bigSep Finset.univ fun w : Fin (Pipeline.pin (pcfgs (F := F)) adm 1).W => (((c.tc : Thread nD τ).loc (Pipeline.arrRef (Pipeline.pin (pcfgs (F := F)) adm 1).spec w)) ↦{fullShare} rd (W1' W1 n1 c) c (Pipeline.arrRef (Pipeline.pin (pcfgs (F := F)) adm 1).spec w) : sProp 𝕄) :=
      (Pipeline.arrays_eq (Pipeline.pin (pcfgs (F := F)) adm) (pdats W0 W1 n0 n1) 1 c arr_whole2 ((dat1 W1 n1 c).share_full fun _ => rfl) (fun w => (dat1 W1 n1 c).arrAt w cfg2.N)).trans
        (bigSep_congr fun w _ => by rw [arrAt1_eq W1 n1 c w]; rfl)
    have hrest : (Pipeline.unscopedRest spec2 c (rd (W1' W1 n1 c) c) : sProp 𝕄) = Pipeline.unscopedRest spec2 c (rd W1 c) :=
      unscopedRest_congr spec2 c _ _ fun b hb => by
        show Function.update W1 (Proc.devRef .tc main_v4) _ (Proc.devRef .tc b) = W1 (Proc.devRef .tc b)
        refine Function.update_of_ne (fun e => hb ?_) _ _
        rw [Proc.devRef_injective _ e]
        exact Finset.mem_image.mpr ⟨1, Finset.mem_univ _, rfl⟩
    unfold TS
    rw [← Pipeline.unscopedBufs_held c (W1' W1 n1 c),
      Pipeline.unscopedBufs_split (Pipeline.pin (pcfgs (F := F)) adm) 1 winFacts2.arr_unscoped winFacts2.arr_inj c (rd (W1' W1 n1 c) c), harr]
    iintro ⟨Harr, HO, -, Hrest⟩
    imodintro
    isplitl [Harr Hrest]
    · isplitl [Harr]
      · iexact Harr
      · iapply (Entails.of_eq hrest.symm); iexact Hrest
    · unfold Dat.owesAt Pipeline.owesWithin Dat.bound
      icases HO with ⟨%Wt, %hWt, HO⟩
      iexists Wt; isplitr
      · ipureintro
        intro p hp
        rcases hWt hp with h | ⟨w, s, rfl⟩
        · exact h
        · show (K (F := F)).lev _ none ≤ _
          rw [SparseCore.Cfg.lev_none]; exact Nat.zero_le _
      · iexact HO

/-! ## The regions as steps of @main under the extended body table -/

set_option maxHeartbeats 1000000 in
/-- A pipeline's entry call, lifted to the extended signature, is the call @main makes. -/
theorem lift_entry (p : Fin 2) :
    (SparseCore.liftProg (Q := 1) (Prog.lift (.customCall (Pipeline.entry p) ()) : Prog (TpuEff nD τ sig (Elt F) (ΛP (F := F)) .tc) PUnit))
      = Prog.lift (.customCall (SparseCore.inner (Pipeline.entry p)) ()) := rfl

theorem pin_cellOf_inj : Function.Injective (Pipeline.cellOf (nD := nD) (τ := τ) (Pipeline.pin (pcfgs (F := F)) adm)) := cellOf_inj

theorem reg0_pre (c : Dev nD) : (reg0 W0 W1 n0 n1).pre c = TS W0 n0 c := rfl
theorem reg0_post (c : Dev nD) : (reg0 W0 W1 n0 n1).post c = TS (W0' W0 n0 c) n0 c := rfl
theorem reg1_pre (c : Dev nD) : (reg1 W0 W1 n0 n1).pre c = TS W1 n1 c := rfl
theorem reg1_post (c : Dev nD) : (reg1 W0 W1 n0 n1).post c = TS (W1' W1 n1 c) n1 c := rfl

set_option backward.isDefEq.respectTransparency.types false in
/-- The table's call under the pipelines' body table, by the region rule. -/
def wp_region0_raw [∀ e, Nonempty (Elt F e)] (c : Dev nD) (Φ : PUnit → sProp 𝕄) :=
  Pipeline.RegionSeg.wp (pcfgs (F := F)) adm (pdats W0 W1 n0 n1) (none : HIx 1) pin_cellOf_inj EP defs₀ 𝒱₀ (K (F := F)).L (K (F := F)).lev
    (reg0 W0 W1 n0 n1) c none (fun _ h => nomatch h) (fun _ => .ret ⟨⟩) Φ

set_option backward.isDefEq.respectTransparency.types false in
/-- The mean's call under the pipelines' body table, by the region rule. -/
def wp_region1_raw [∀ e, Nonempty (Elt F e)] (c : Dev nD) (Φ : PUnit → sProp 𝕄) :=
  Pipeline.RegionSeg.wp (pcfgs (F := F)) adm (pdats W0 W1 n0 n1) (none : HIx 1) pin_cellOf_inj EP defs₀ 𝒱₀ (K (F := F)).L (K (F := F)).lev
    (reg1 W0 W1 n0 n1) c none (fun _ h => nomatch h) (fun _ => .ret ⟨⟩) Φ

include W1 n1 in
set_option backward.isDefEq.respectTransparency.types false in
/-- The table's call in @main: from the boundary, the thread state, the level facts and the first pipeline's ghost state. -/
theorem wp_region0 [∀ e, Nonempty (Elt F e)] (c : Dev nD) (Φ : PUnit.{1} → sProp 𝕄) :
    iprop((iprop(boundary (c.tc : Thread nD τ) ∗ TS (W0' W0 n0 c) n0 c) -∗ Φ ⟨⟩)
        ∗ boundary (c.tc : Thread nD τ) ∗ TS W0 n0 c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (c.tc : Thread nD τ) none) Set.univ
          (Prog.lift (.customCall (SparseCore.inner (Pipeline.entry 0)) ())) Φ := by
  have h1 : iprop((iprop(boundary (c.tc : Thread nD τ) ∗ TS (W0' W0 n0 c) n0 c) -∗ Φ ⟨⟩)
        ∗ boundary (c.tc : Thread nD τ) ∗ TS W0 n0 c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ iprop((iprop(boundary (c.tc : Thread nD τ) ∗ TS (W0' W0 n0 c) n0 c)
            -∗ wp frame (wpE (Pipeline.defs (pcfgs (F := F)) defs₀) (Variants.lift 𝒱₀) (c.tc : Thread nD τ) none) Set.univ (Prog.ret PUnit.unit) Φ)
        ∗ boundary (c.tc : Thread nD τ) ∗ TS W0 n0 c ∗ levAts (K (F := F)).L (K (F := F)).lev
        ∗ Pipeline.cellsGhost (Pipeline.pin (pcfgs (F := F)) adm) EP 0 c ∗ Pipeline.toksInit (Pipeline.pin (pcfgs (F := F)) adm) EP 0 c) := by
    iintro ⟨Hk, Hrest⟩
    isplitl [Hk]
    · iintro H; rw [wp_ret]; imodintro; iapply Hk; iexact H
    · iexact Hrest
  have h2 := wp_region0_raw W0 W1 n0 n1 c Φ
  rw [reg0_pre, reg0_post] at h2
  rw [← lift_entry (F := F) 0]
  exact BI.Entails.trans (BI.Entails.trans h1 h2) ((K (F := F)).wp_liftProg (D (F := F)) 𝒱 (c.tc : Thread nD τ) Set.univ none (Prog.lift (.customCall (Pipeline.entry 0) ())) Φ)

include W0 n0 in
set_option backward.isDefEq.respectTransparency.types false in
/-- The mean's call in @main. -/
theorem wp_region1 [∀ e, Nonempty (Elt F e)] (c : Dev nD) (Φ : PUnit.{1} → sProp 𝕄) :
    iprop((iprop(boundary (c.tc : Thread nD τ) ∗ TS (W1' W1 n1 c) n1 c) -∗ Φ ⟨⟩)
        ∗ boundary (c.tc : Thread nD τ) ∗ TS W1 n1 c ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE ((K (F := F)).defs (D (F := F))) 𝒱 (c.tc : Thread nD τ) none) Set.univ
          (Prog.lift (.customCall (SparseCore.inner (Pipeline.entry 1)) ())) Φ := by
  have h1 : iprop((iprop(boundary (c.tc : Thread nD τ) ∗ TS (W1' W1 n1 c) n1 c) -∗ Φ ⟨⟩)
        ∗ boundary (c.tc : Thread nD τ) ∗ TS W1 n1 c ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ iprop((iprop(boundary (c.tc : Thread nD τ) ∗ TS (W1' W1 n1 c) n1 c)
            -∗ wp frame (wpE (Pipeline.defs (pcfgs (F := F)) defs₀) (Variants.lift 𝒱₀) (c.tc : Thread nD τ) none) Set.univ (Prog.ret PUnit.unit) Φ)
        ∗ boundary (c.tc : Thread nD τ) ∗ TS W1 n1 c ∗ levAts (K (F := F)).L (K (F := F)).lev
        ∗ Pipeline.cellsGhost (Pipeline.pin (pcfgs (F := F)) adm) EP 1 c ∗ Pipeline.toksInit (Pipeline.pin (pcfgs (F := F)) adm) EP 1 c) := by
    iintro ⟨Hk, Hrest⟩
    isplitl [Hk]
    · iintro H; rw [wp_ret]; imodintro; iapply Hk; iexact H
    · iexact Hrest
  have h2 := wp_region1_raw W0 W1 n0 n1 c Φ
  rw [reg1_pre, reg1_post] at h2
  rw [← lift_entry (F := F) 1]
  exact BI.Entails.trans (BI.Entails.trans h1 h2) ((K (F := F)).wp_liftProg (D (F := F)) 𝒱 (c.tc : Thread nD τ) Set.univ none (Prog.lift (.customCall (Pipeline.entry 1) ())) Φ)

end Cert.Proof.KB

end
-- ==== Proof.KB.Call.lean ====
/-
  The SparseCore call's operands: the four arrays it touches out of the TensorCore's unscoped buffers, x, y and the
  result cut into the thirty-two blocks, the table into thirty-two read tokens, one quadruple per tile; and back.
-/
import proofs.«205364_g71897752535391_cont_9to1_m_950_21_alg».proof.Proof.KB.Base

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

abbrev x' : DevRef τ sig := Proc.devRef .tc (main_arg0 : Ref sig .tc)
abbrev y' : DevRef τ sig := Proc.devRef .tc (main_arg1 : Ref sig .tc)
abbrev e' : DevRef τ sig := Proc.devRef .tc (main_arg2 : Ref sig .tc)
abbrev f' : DevRef τ sig := Proc.devRef .tc (main_arg3 : Ref sig .tc)
abbrev b' : DevRef τ sig := Proc.devRef .tc (main_arg4 : Ref sig .tc)
abbrev w' : DevRef τ sig := Proc.devRef .tc (main_v2 : Ref sig .tc)
abbrev o' : DevRef τ sig := Proc.devRef .tc (main_v3 : Ref sig .tc)

/-- The arrays the SparseCore call touches. -/
abbrev T4 : Finset (DevRef τ sig) := {x', y', w', o'}
/-- The arguments. -/
abbrev A5 : Finset (DevRef τ sig) := {x', y', e', f', b'}

theorem held_T4 (d : Dev nD) (Vv : Valuation τ sig (Elt F)) :
    (held (T d) T4 Vv : sProp 𝕄) = iprop((xLoc d ↦{fullShare} Vv x') ∗ (yLoc d ↦{fullShare} Vv y') ∗ (wLoc d ↦{fullShare} Vv w') ∗ (oLoc d ↦{fullShare} Vv o')) := by
  unfold held T4
  rw [SparseCore.bigSep_insert' (by decide), SparseCore.bigSep_insert' (by decide), SparseCore.bigSep_insert' (by decide), bigSep_singleton]

theorem held_A5 (d : Dev nD) (Vv : Valuation τ sig (Elt F)) :
    (held (T d) A5 Vv : sProp 𝕄) = iprop((xLoc d ↦{fullShare} Vv x') ∗ (yLoc d ↦{fullShare} Vv y') ∗ (eLoc d ↦{fullShare} Vv e') ∗ (fLoc d ↦{fullShare} Vv f') ∗ (bLoc d ↦{fullShare} Vv b')) := by
  unfold held A5
  rw [SparseCore.bigSep_insert' (by decide), SparseCore.bigSep_insert' (by decide), SparseCore.bigSep_insert' (by decide), SparseCore.bigSep_insert' (by decide), bigSep_singleton]

/-! ## The thirty-two blocks -/

theorem xdisj : ∀ i ∈ (Finset.univ : Finset (Fin 32)), ∀ j ∈ (Finset.univ : Finset (Fin 32)), i ≠ j → Disjoint (xBlk i) (xBlk j) :=
  fun i _ j _ h => Rect.part_disjoint hdivx h
theorem ydisj : ∀ i ∈ (Finset.univ : Finset (Fin 32)), ∀ j ∈ (Finset.univ : Finset (Fin 32)), i ≠ j → Disjoint (yBlk i) (yBlk j) :=
  fun i _ j _ h => Rect.part_disjoint hdivy h
theorem odisj : ∀ i ∈ (Finset.univ : Finset (Fin 32)), ∀ j ∈ (Finset.univ : Finset (Fin 32)), i ≠ j → Disjoint (oBlk i) (oBlk j) :=
  fun i _ j _ h => Rect.part_disjoint hdivo h
theorem xcover : (Finset.univ : Finset (Fin 32)).biUnion xBlk = Finset.univ := Rect.biUnion_part hdivx
theorem ycover : (Finset.univ : Finset (Fin 32)).biUnion yBlk = Finset.univ := Rect.biUnion_part hdivy
theorem ocover : (Finset.univ : Finset (Fin 32)).biUnion oBlk = Finset.univ := Rect.biUnion_part hdivo

theorem x_blocks (d : Dev nD) (f : Buf (Elt F) (xLoc d)) :
    (xLoc d ↦{fullShare} f : sProp 𝕄) = bigSep Finset.univ fun k : Fin 32 => xLoc d ↦[xBlk k]{fullShare} f := by
  rw [← pointsTo_biUnion Finset.univ (ℓ := xLoc d) xBlk xdisj, xcover]; try rfl
theorem y_blocks (d : Dev nD) (f : Buf (Elt F) (yLoc d)) :
    (yLoc d ↦{fullShare} f : sProp 𝕄) = bigSep Finset.univ fun k : Fin 32 => yLoc d ↦[yBlk k]{fullShare} f := by
  rw [← pointsTo_biUnion Finset.univ (ℓ := yLoc d) yBlk ydisj, ycover]; try rfl
theorem o_blocks (d : Dev nD) (f : Buf (Elt F) (oLoc d)) :
    (oLoc d ↦{fullShare} f : sProp 𝕄) = bigSep Finset.univ fun k : Fin 32 => oLoc d ↦[oBlk k]{fullShare} f := by
  rw [← pointsTo_biUnion Finset.univ (ℓ := oLoc d) oBlk odisj, ocover]; try rfl

/-- The tiles' numbers are the thirty-two blocks, once each. -/
def widEquiv : Fin 2 × Fin 16 ≃ Fin 32 where
  toFun p := wid p.1 p.2
  invFun k := (⟨k.val % 2, Nat.mod_lt _ (by decide)⟩, ⟨k.val / 2, by have := k.isLt; omega⟩)
  left_inv p := by
    obtain ⟨⟨c, hc⟩, ⟨s, hs⟩⟩ := p
    simp only [wid, Prod.mk.injEq, Fin.mk.injEq]
    constructor <;> omega
  right_inv k := by
    apply Fin.ext
    simp only [wid]
    omega

theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-! ## What a tile is handed, and hands back -/

section Pay

variable (d : Dev nD) (fx : Buf (Elt F) (xLoc d)) (fy : Buf (Elt F) (yLoc d)) (fw : Buf (Elt F) (wLoc d)) (fo : Buf (Elt F) (oLoc d))

/-- What tile number `k` is handed: read token `k` of x, of y and of the table (it only reads them), and its block of the result. -/
def tileIn (k : Fin 32) : sProp 𝕄 :=
  iprop((xLoc d ↦{Transfers.shareTok fullShare 32 k} fx) ∗ (yLoc d ↦{Transfers.shareTok fullShare 32 k} fy)
    ∗ (wLoc d ↦{Transfers.shareTok fullShare 32 k} fw) ∗ (oLoc d ↦[oBlk k]{fullShare} fo))
/-- What it hands back: the same, its block of the result at what it wrote. -/
def tileOut (k : Fin 32) : sProp 𝕄 :=
  iprop((xLoc d ↦{Transfers.shareTok fullShare 32 k} fx) ∗ (yLoc d ↦{Transfers.shareTok fullShare 32 k} fy)
    ∗ (wLoc d ↦{Transfers.shareTok fullShare 32 k} fw) ∗ ∃ f, oLoc d ↦[oBlk k]{fullShare} f)

/-- What the TensorCore keeps of x, y and the table while the tiles hold their read tokens. -/
def kept : sProp 𝕄 :=
  iprop((xLoc d ↦{Transfers.shareDrop fullShare 32} fx) ∗ (yLoc d ↦{Transfers.shareDrop fullShare 32} fy) ∗ (wLoc d ↦{Transfers.shareDrop fullShare 32} fw))

/-- The four arrays whole are the tiles' quadruples and the shares of x, y and the table no tile holds. -/
theorem tiles_split :
    iprop((xLoc d ↦{fullShare} fx) ∗ (yLoc d ↦{fullShare} fy) ∗ (wLoc d ↦{fullShare} fw) ∗ (oLoc d ↦{fullShare} fo))
      ⊢ (iprop(kept d fx fy fw ∗ bigSep Finset.univ fun c : Fin 2 => bigSep Finset.univ fun s : Fin 16 => tileIn d fx fy fw fo (wid c s)) : sProp 𝕄) := by
  rw [← bigSep_wid (F := F) (fun k => tileIn d fx fy fw fo k)]
  unfold tileIn kept
  rw [bigSep_sep', bigSep_sep', bigSep_sep', o_blocks]
  iintro ⟨Hx, Hy, Hw, Ho⟩
  ihave Hx' := (Transfers.pointsTo_toks_split (ℓ := xLoc d) (S := Finset.univ) (f := fx) fullShare 32) $$ Hx
  icases Hx' with ⟨Hdx, Htx⟩
  ihave Hy' := (Transfers.pointsTo_toks_split (ℓ := yLoc d) (S := Finset.univ) (f := fy) fullShare 32) $$ Hy
  icases Hy' with ⟨Hdy, Hty⟩
  ihave Hw' := (Transfers.pointsTo_toks_split (ℓ := wLoc d) (S := Finset.univ) (f := fw) fullShare 32) $$ Hw
  icases Hw' with ⟨Hdw, Htw⟩
  isplitl [Hdx Hdy Hdw]
  · isplitl [Hdx]; · iexact Hdx
    isplitl [Hdy] <;> iassumption
  isplitl [Htx]; · iexact Htx
  isplitl [Hty]; · iexact Hty
  isplitl [Htw]; · iexact Htw
  iexact Ho

/-- Back: the quadruples and the kept shares are x, y and the table whole as they were, and the result whole at some contents. -/
theorem tiles_join (f₀ : Buf (Elt F) (oLoc d)) :
    iprop(kept d fx fy fw ∗ bigSep Finset.univ fun c : Fin 2 => bigSep Finset.univ fun s : Fin 16 => tileOut d fx fy fw (wid c s))
      ⊢ (iprop((xLoc d ↦{fullShare} fx) ∗ (yLoc d ↦{fullShare} fy) ∗ (wLoc d ↦{fullShare} fw) ∗ ∃ g, oLoc d ↦{fullShare} g) : sProp 𝕄) := by
  rw [← bigSep_wid (F := F) (fun k => tileOut d fx fy fw k)]
  unfold tileOut kept
  rw [bigSep_sep', bigSep_sep', bigSep_sep']
  iintro ⟨⟨Hdx, Hdy, Hdw⟩, Htx, Hty, Htw, Ho⟩
  isplitl [Hdx Htx]
  · iapply (Transfers.pointsTo_toks_join (ℓ := xLoc d) (S := Finset.univ) (f := fx) fullShare 32)
    isplitl [Hdx] <;> iassumption
  isplitl [Hdy Hty]
  · iapply (Transfers.pointsTo_toks_join (ℓ := yLoc d) (S := Finset.univ) (f := fy) fullShare 32)
    isplitl [Hdy] <;> iassumption
  isplitl [Hdw Htw]
  · iapply (Transfers.pointsTo_toks_join (ℓ := wLoc d) (S := Finset.univ) (f := fw) fullShare 32)
    isplitl [Hdw] <;> iassumption
  haveI : Nonempty (Buf (Elt F) (oLoc d)) := ⟨f₀⟩
  ihave Ho' := (bigSep_exists_pi Finset.univ (fun k (f : Buf (Elt F) (oLoc d)) => (oLoc d ↦[oBlk k]{fullShare} f : sProp 𝕄))) $$ Ho
  icases Ho' with ⟨%fs, H⟩
  ihave H' := (pointsTo_biUnion_join Finset.univ oBlk fs (fs 0) odisj) $$ H
  icases H' with ⟨%g, -, Hg⟩
  rw [ocover]
  iexists g; iexact Hg

end Pay

end Cert.Proof.KB

end
-- ==== Proof.KB.TileRes.lean ====
/-
  The tile's own memory opened: its six scratch buffers and its six DMA semaphores by name, out of the subcore's
  scoped buffers and semaphores, and the operands as the kernel function spells them.
-/
import proofs.«205364_g71897752535391_cont_9to1_m_950_21_alg».proof.Proof.KB.Call

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The six DMA semaphores of a tile: the table's, the two x slots', the two y slots', the result's. -/
abbrev cell_r0 (thr : Thread nD τ) : GSem nD τ sig := (thr, SemLoc.dma (SemArray.sem cc1_scoped0))
abbrev cell_x0 (thr : Thread nD τ) : GSem nD τ sig := (thr, SemLoc.dma (SemArray.sem (SemArray.squeeze (SemArray.slice cc1_scratch6 (Rect.unit (s := S2) ![0] S1.size inb_S2_S1_0)) S_ squeezes_S1_S_)))
abbrev cell_x1 (thr : Thread nD τ) : GSem nD τ sig := (thr, SemLoc.dma (SemArray.sem (SemArray.squeeze (SemArray.slice cc1_scratch6 (Rect.unit (s := S2) ![1] S1.size inb_S2_S1_1)) S_ squeezes_S1_S_)))
abbrev cell_y0 (thr : Thread nD τ) : GSem nD τ sig := (thr, SemLoc.dma (SemArray.sem (SemArray.squeeze (SemArray.slice cc1_scratch7 (Rect.unit (s := S2) ![0] S1.size inb_S2_S1_0)) S_ squeezes_S1_S_)))
abbrev cell_y1 (thr : Thread nD τ) : GSem nD τ sig := (thr, SemLoc.dma (SemArray.sem (SemArray.squeeze (SemArray.slice cc1_scratch7 (Rect.unit (s := S2) ![1] S1.size inb_S2_S1_1)) S_ squeezes_S1_S_)))
abbrev cell_r1 (thr : Thread nD τ) : GSem nD τ sig := (thr, SemLoc.dma (SemArray.sem cc1_scoped1))

variable (d : Dev nD) (c : Fin τ.nSC) (i : Fin τ.nSub)

theorem ownSems0_V :
    (ownSems0 (V d c i) : sProp 𝕄)
      = iprop(semVal (cell_r0 (V d c i)) 0 ∗ semVal (cell_x0 (V d c i)) 0 ∗ semVal (cell_x1 (V d c i)) 0 ∗ semVal (cell_y0 (V d c i)) 0
          ∗ semVal (cell_y1 (V d c i)) 0 ∗ semVal (cell_r1 (V d c i)) 0
          ∗ bigSep (((((((ownCells (V d c i)).erase (cell_r0 (V d c i))).erase (cell_x0 (V d c i))).erase (cell_x1 (V d c i))).erase (cell_y0 (V d c i))).erase (cell_y1 (V d c i))).erase (cell_r1 (V d c i))) fun g => semVal g 0) := by
  unfold SparseCore.Cfg.ownSems0
  rw [SparseCore.bigSep_erase' ((mem_ownCells (g := cell_r0 (V d c i))).mpr ⟨rfl, by show (SemLoc.dma (SemArray.sem cc1_scoped0) : SemLoc sig).isScoped .scVector = true; decide⟩),
    SparseCore.bigSep_erase' (Finset.mem_erase.mpr ⟨fun e => absurd (congrArg Prod.snd e) (show (SemLoc.dma (SemArray.sem (SemArray.squeeze (SemArray.slice cc1_scratch6 (Rect.unit (s := S2) ![0] S1.size inb_S2_S1_0)) S_ squeezes_S1_S_)) : SemLoc sig) ≠ SemLoc.dma (SemArray.sem cc1_scoped0) by decide), (mem_ownCells (g := cell_x0 (V d c i))).mpr ⟨rfl, by show (SemLoc.dma (SemArray.sem (SemArray.squeeze (SemArray.slice cc1_scratch6 (Rect.unit (s := S2) ![0] S1.size inb_S2_S1_0)) S_ squeezes_S1_S_)) : SemLoc sig).isScoped .scVector = true; decide⟩⟩),
    SparseCore.bigSep_erase' (Finset.mem_erase.mpr ⟨fun e => absurd (congrArg Prod.snd e) (show (SemLoc.dma (SemArray.sem (SemArray.squeeze (SemArray.slice cc1_scratch6 (Rect.unit (s := S2) ![1] S1.size inb_S2_S1_1)) S_ squeezes_S1_S_)) : SemLoc sig) ≠ SemLoc.dma (SemArray.sem (SemArray.squeeze (SemArray.slice cc1_scratch6 (Rect.unit (s := S2) ![0] S1.size inb_S2_S1_0)) S_ squeezes_S1_S_)) by decide), Finset.mem_erase.mpr ⟨fun e => absurd (congrArg Prod.snd e) (show (SemLoc.dma (SemArray.sem (SemArray.squeeze (SemArray.slice cc1_scratch6 (Rect.unit (s := S2) ![1] S1.size inb_S2_S1_1)) S_ squeezes_S1_S_)) : SemLoc sig) ≠ SemLoc.dma (SemArray.sem cc1_scoped0) by decide), (mem_ownCells (g := cell_x1 (V d c i))).mpr ⟨rfl, by show (SemLoc.dma (SemArray.sem (SemArray.squeeze (SemArray.slice cc1_scratch6 (Rect.unit (s := S2) ![1] S1.size inb_S2_S1_1)) S_ squeezes_S1_S_)) : SemLoc sig).isScoped .scVector = true; decide⟩⟩⟩),
    SparseCore.bigSep_erase' (Finset.mem_erase.mpr ⟨fun e => absurd (congrArg Prod.snd e) (show (SemLoc.dma (SemArray.sem (SemArray.squeeze (SemArray.slice cc1_scratch7 (Rect.unit (s := S2) ![0] S1.size inb_S2_S1_0)) S_ squeezes_S1_S_)) : SemLoc sig) ≠ SemLoc.dma (SemArray.sem (SemArray.squeeze (SemArray.slice cc1_scratch6 (Rect.unit (s := S2) ![1] S1.size inb_S2_S1_1)) S_ squeezes_S1_S_)) by decide), Finset.mem_erase.mpr ⟨fun e => absurd (congrArg Prod.snd e) (show (SemLoc.dma (SemArray.sem (SemArray.squeeze (SemArray.slice cc1_scratch7 (Rect.unit (s := S2) ![0] S1.size inb_S2_S1_0)) S_ squeezes_S1_S_)) : SemLoc sig) ≠ SemLoc.dma (SemArray.sem (SemArray.squeeze (SemArray.slice cc1_scratch6 (Rect.unit (s := S2) ![0] S1.size inb_S2_S1_0)) S_ squeezes_S1_S_)) by decide), Finset.mem_erase.mpr ⟨fun e => absurd (congrArg Prod.snd e) (show (SemLoc.dma (SemArray.sem (SemArray.squeeze (SemArray.slice cc1_scratch7 (Rect.unit (s := S2) ![0] S1.size inb_S2_S1_0)) S_ squeezes_S1_S_)) : SemLoc sig) ≠ SemLoc.dma (SemArray.sem cc1_scoped0) by decide), (mem_ownCells (g := cell_y0 (V d c i))).mpr ⟨rfl, by show (SemLoc.dma (SemArray.sem (SemArray.squeeze (SemArray.slice cc1_scratch7 (Rect.unit (s := S2) ![0] S1.size inb_S2_S1_0)) S_ squeezes_S1_S_)) : SemLoc sig).isScoped .scVector = true; decide⟩⟩⟩⟩),
    SparseCore.bigSep_erase' (Finset.mem_erase.mpr ⟨fun e => absurd (congrArg Prod.snd e) (show (SemLoc.dma (SemArray.sem (SemArray.squeeze (SemArray.slice cc1_scratch7 (Rect.unit (s := S2) ![1] S1.size inb_S2_S1_1)) S_ squeezes_S1_S_)) : SemLoc sig) ≠ SemLoc.dma (SemArray.sem (SemArray.squeeze (SemArray.slice cc1_scratch7 (Rect.unit (s := S2) ![0] S1.size inb_S2_S1_0)) S_ squeezes_S1_S_)) by decide), Finset.mem_erase.mpr ⟨fun e => absurd (congrArg Prod.snd e) (show (SemLoc.dma (SemArray.sem (SemArray.squeeze (SemArray.slice cc1_scratch7 (Rect.unit (s := S2) ![1] S1.size inb_S2_S1_1)) S_ squeezes_S1_S_)) : SemLoc sig) ≠ SemLoc.dma (SemArray.sem (SemArray.squeeze (SemArray.slice cc1_scratch6 (Rect.unit (s := S2) ![1] S1.size inb_S2_S1_1)) S_ squeezes_S1_S_)) by decide), Finset.mem_erase.mpr ⟨fun e => absurd (congrArg Prod.snd e) (show (SemLoc.dma (SemArray.sem (SemArray.squeeze (SemArray.slice cc1_scratch7 (Rect.unit (s := S2) ![1] S1.size inb_S2_S1_1)) S_ squeezes_S1_S_)) : SemLoc sig) ≠ SemLoc.dma (SemArray.sem (SemArray.squeeze (SemArray.slice cc1_scratch6 (Rect.unit (s := S2) ![0] S1.size inb_S2_S1_0)) S_ squeezes_S1_S_)) by decide), Finset.mem_erase.mpr ⟨fun e => absurd (congrArg Prod.snd e) (show (SemLoc.dma (SemArray.sem (SemArray.squeeze (SemArray.slice cc1_scratch7 (Rect.unit (s := S2) ![1] S1.size inb_S2_S1_1)) S_ squeezes_S1_S_)) : SemLoc sig) ≠ SemLoc.dma (SemArray.sem cc1_scoped0) by decide), (mem_ownCells (g := cell_y1 (V d c i))).mpr ⟨rfl, by show (SemLoc.dma (SemArray.sem (SemArray.squeeze (SemArray.slice cc1_scratch7 (Rect.unit (s := S2) ![1] S1.size inb_S2_S1_1)) S_ squeezes_S1_S_)) : SemLoc sig).isScoped .scVector = true; decide⟩⟩⟩⟩⟩),
    SparseCore.bigSep_erase' (Finset.mem_erase.mpr ⟨fun e => absurd (congrArg Prod.snd e) (show (SemLoc.dma (SemArray.sem cc1_scoped1) : SemLoc sig) ≠ SemLoc.dma (SemArray.sem (SemArray.squeeze (SemArray.slice cc1_scratch7 (Rect.unit (s := S2) ![1] S1.size inb_S2_S1_1)) S_ squeezes_S1_S_)) by decide), Finset.mem_erase.mpr ⟨fun e => absurd (congrArg Prod.snd e) (show (SemLoc.dma (SemArray.sem cc1_scoped1) : SemLoc sig) ≠ SemLoc.dma (SemArray.sem (SemArray.squeeze (SemArray.slice cc1_scratch7 (Rect.unit (s := S2) ![0] S1.size inb_S2_S1_0)) S_ squeezes_S1_S_)) by decide), Finset.mem_erase.mpr ⟨fun e => absurd (congrArg Prod.snd e) (show (SemLoc.dma (SemArray.sem cc1_scoped1) : SemLoc sig) ≠ SemLoc.dma (SemArray.sem (SemArray.squeeze (SemArray.slice cc1_scratch6 (Rect.unit (s := S2) ![1] S1.size inb_S2_S1_1)) S_ squeezes_S1_S_)) by decide), Finset.mem_erase.mpr ⟨fun e => absurd (congrArg Prod.snd e) (show (SemLoc.dma (SemArray.sem cc1_scoped1) : SemLoc sig) ≠ SemLoc.dma (SemArray.sem (SemArray.squeeze (SemArray.slice cc1_scratch6 (Rect.unit (s := S2) ![0] S1.size inb_S2_S1_0)) S_ squeezes_S1_S_)) by decide), Finset.mem_erase.mpr ⟨fun e => absurd (congrArg Prod.snd e) (show (SemLoc.dma (SemArray.sem cc1_scoped1) : SemLoc sig) ≠ SemLoc.dma (SemArray.sem cc1_scoped0) by decide), (mem_ownCells (g := cell_r1 (V d c i))).mpr ⟨rfl, by show (SemLoc.dma (SemArray.sem cc1_scoped1) : SemLoc sig).isScoped .scVector = true; decide⟩⟩⟩⟩⟩⟩)]

/-- The six scratch buffers are among the subcore's own: they are them, at some contents, and the rest. -/
theorem ownBufs_V :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f) ∗ (∃ f, (V d c i).loc cc1_scratch5 ↦{fullShare} f)
          ∗ bigSep ((((((((ownRefs (τ := τ) (.scVector c i)).erase ((Proc.scVector c i).devRef cc1_scratch0)).erase
              ((Proc.scVector c i).devRef cc1_scratch1)).erase ((Proc.scVector c i).devRef cc1_scratch2)).erase
              ((Proc.scVector c i).devRef cc1_scratch3)).erase ((Proc.scVector c i).devRef cc1_scratch4)).erase
              ((Proc.scVector c i).devRef cc1_scratch5)))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector c i) (b := (Proc.scVector c i).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector c i) (b := (Proc.scVector c i).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector c i) (b := (Proc.scVector c i).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector c i) (b := (Proc.scVector c i).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector c i) (b := (Proc.scVector c i).devRef cc1_scratch5) rfl⟩⟩⟩⟩⟩)]

/-! ## What the loops' trips share -/

/-- The word 5·a + b of a token with a ≤ 9 and b ≤ 4 is below 64. -/
theorem pay_lt (A B : IVec S16 32) (hA : ∀ x, (A x).toNat ≤ 9) (hB : ∀ x, (B x).toNat ≤ 4) (x : S16.Idx) :
    (IntOp.addi (IntOp.muli (A x) 5#32) (B x)).toNat < 64 := by
  have h1 := hA x
  have h2 := hB x
  have hm : ((A x) * 5#32).toNat = (A x).toNat * 5 := by
    rw [BitVec.toNat_mul]
    exact Nat.mod_eq_of_lt (by show (A x).toNat * 5 < 2 ^ 32; omega)
  have ha : ((A x) * 5#32 + B x).toNat = (A x).toNat * 5 + (B x).toNat := by
    rw [BitVec.toNat_add, hm]
    exact Nat.mod_eq_of_lt (by omega)
  show ((A x) * 5#32 + B x).toNat < 64
  rw [ha]
  omega

/-- The loops' invariant: the table's scratch and the chunk's x and y scratches, each whole at fixed contents. -/
def invL (thr : Thread nD τ) (a : Memref sig thr.2.kind .vmem S64 .f32) (b : Memref sig thr.2.kind .vmem S64x200 .i32)
    (cc : Memref sig thr.2.kind .vmem S12800 .i32)
    (g0 : Buf (Elt F) (a.view.loc thr)) (g1 : Buf (Elt F) (b.view.loc thr)) (g3 : Buf (Elt F) (cc.view.loc thr))
    (_ : Nat) (_ : FVec F S16 .f32 × FVec F S16 .f32 × FVec F S16 .f32 × FVec F S16 .f32) : sProp 𝕄 :=
  iprop((a.view.loc thr ↦{fullShare} g0) ∗ (b.view.loc thr ↦{fullShare} g1) ∗ (cc.view.loc thr ↦{fullShare} g3))

/-- An indexed vector load is a load of the whole scratch, gathered. -/
theorem vli_bind' [FloatOps F] {α : Type} {p : Proc τ} {s t : Shape} {e : EltTy} (base : Memref sig p.kind .vmem s e) (idxs : Fin s.rank → IVec t 32)
    (h : ∀ a x, (idxs a x).toNat < s.size a) (hl : base.view.Loads) (k : Vec F t e → Prog (TpuEff nD τ sig (Elt F) Λ₀ p) α) :
    SparseCore.vectorLoadIdx base idxs h hl >>= k = .op (.load base (.whole s) (View.loadsAt_whole hl)) fun f => k (loadIdx f idxs h) := rfl

end Cert.Proof.KB

end
-- ==== Proof.KB.TileTrip1.lean ====
/-
  One trip of the tile's loop 1 (chunk 0): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KB.TileRes

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 1 keeps the three scratches as they are. -/
theorem trip_1 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch1 : Memref sig .scVector .vmem S64x200 .i32).view.loc (V d ((i 0).castLE hcore1) ((i 1).castLE hsub1))))
    (g3 : Buf (Elt F) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t1_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t1_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KB

end
-- ==== Proof.KB.TileTrip2.lean ====
/-
  One trip of the tile's loop 2 (chunk 1): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KB.TileRes

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 2 keeps the three scratches as they are. -/
theorem trip_2 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch2 : Memref sig .scVector .vmem S64x200 .i32).view.loc (V d ((i 0).castLE hcore1) ((i 1).castLE hsub1))))
    (g3 : Buf (Elt F) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t2_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t2_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KB

end
-- ==== Proof.KB.TileTrip3.lean ====
/-
  One trip of the tile's loop 3 (chunk 2): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KB.TileRes

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 3 keeps the three scratches as they are. -/
theorem trip_3 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch1 : Memref sig .scVector .vmem S64x200 .i32).view.loc (V d ((i 0).castLE hcore1) ((i 1).castLE hsub1))))
    (g3 : Buf (Elt F) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t3_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t3_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KB

end
-- ==== Proof.KB.TileTrip4.lean ====
/-
  One trip of the tile's loop 4 (chunk 3): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KB.TileRes

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 4 keeps the three scratches as they are. -/
theorem trip_4 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch2 : Memref sig .scVector .vmem S64x200 .i32).view.loc (V d ((i 0).castLE hcore1) ((i 1).castLE hsub1))))
    (g3 : Buf (Elt F) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t4_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t4_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KB

end
-- ==== Proof.KB.TileTrip5.lean ====
/-
  One trip of the tile's loop 5 (chunk 4): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KB.TileRes

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 5 keeps the three scratches as they are. -/
theorem trip_5 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch1 : Memref sig .scVector .vmem S64x200 .i32).view.loc (V d ((i 0).castLE hcore1) ((i 1).castLE hsub1))))
    (g3 : Buf (Elt F) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t5_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t5_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 0#32 1#32 k acc)
          fun r => invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KB

end
-- ==== Proof.KB.TileTrip6.lean ====
/-
  One trip of the tile's loop 6 (chunk 5): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KB.TileRes

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 6 keeps the three scratches as they are. -/
theorem trip_6 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch2 : Memref sig .scVector .vmem S64x200 .i32).view.loc (V d ((i 0).castLE hcore1) ((i 1).castLE hsub1))))
    (g3 : Buf (Elt F) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
    (v2 : BitVec 32) (v3 : BitVec 32) (a0 : FVec F S16 .f32) (a1 : FVec F S16 .f32) (a2 : FVec F S16 .f32) (a3 : FVec F S16 .f32) (k : Fin k1_t6_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t6_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 0#32 1#32 k acc)
          fun r => invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KB

end
-- ==== Proof.KB.TileTrip7.lean ====
/-
  One trip of the tile's loop 7 (chunk 6): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KB.TileRes

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 7 keeps the three scratches as they are. -/
theorem trip_7 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch1 : Memref sig .scVector .vmem S64x200 .i32).view.loc (V d ((i 0).castLE hcore1) ((i 1).castLE hsub1))))
    (g3 : Buf (Elt F) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
     (k : Fin k1_t7_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t7_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 (iota .scVector S16 32 [0] iota_S16_d0_w32_scVector) k1_pay576 k1_pay577 k acc)
          fun r => invL (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KB

end
-- ==== Proof.KB.TileTrip8.lean ====
/-
  One trip of the tile's loop 8 (chunk 7): twenty-five lane-vectors of tokens, each an indexed load of the chunk's x
  scratch at row and column vectors in range by the trip's arithmetic, a load of sixteen words of the chunk's y scratch,
  the word 5·x + y below 64 because x ≤ 9 and y ≤ 4 hold of what the scratches hold, and the indexed load of the table.
-/
import proofs.«205364_g71897752535391_cont_9to1_m_950_21_alg».proof.Proof.KB.TileRes

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local sl_canon] vli_bind'

set_option sl_exec.dischHeartbeats 200000 in
/-- One trip of loop 8 keeps the three scratches as they are. -/
theorem trip_8 (d : Dev nD) (i : grid1.Coords)
    (g0 : Buf (Elt F) ((Memref.whole cc1_scratch0 : Memref sig .scVector .vmem S64 .f32).view.loc (V d ((i 0).castLE hcore1) ((i 1).castLE hsub1))))
    (g1 : Buf (Elt F) ((Memref.whole cc1_scratch2 : Memref sig .scVector .vmem S64x200 .i32).view.loc (V d ((i 0).castLE hcore1) ((i 1).castLE hsub1))))
    (g3 : Buf (Elt F) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4)
     (k : Fin k1_t8_loop.trips) (acc : FVec F S16 .f32 × FVec F S16 .f32 × FVec F S16 .f32 × FVec F S16 .f32) :
    (invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 k.val acc : sProp 𝕄)
      ⊢ wp frame (wpE (defs₀ (F := F)) 𝒱₀ (V d ((i 0).castLE hcore1) ((i 1).castLE hsub1)) none) Set.univ
          (k1_t8_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 (iota .scVector S16 32 [0] iota_S16_d0_w32_scVector) k1_pay576 k1_pay577 k acc)
          fun r => invL (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 (k.val + 1) r := by
  unfold invL
  iintro ⟨H0, H1, H3⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0]; · iexact H0
  isplitl [H1]; · iexact H1
  iexact H3

end Cert.Proof.KB

end
-- ==== Proof.KB.TileBody.lean ====
/-
  The task of one tile of the SparseCore call: the 64-word table fetched into the tile's memory, eight chunks of 64 rows
  of x and 12800 words of y fetched two deep on two pairs of DMA semaphores, each chunk's 32 trips summing table[5·x + y]
  over 25 lane-vectors of tokens into four accumulators, the accumulators' sum stored and copied to the tile's 16 words
  of the result.
-/
import proofs.«205364_g71897752535391_cont_9to1_m_950_21_alg».proof.Proof.KB.TileRes
import proofs.«205364_g71897752535391_cont_9to1_m_950_21_alg».proof.Proof.KB.TileTrip1
import proofs.«205364_g71897752535391_cont_9to1_m_950_21_alg».proof.Proof.KB.TileTrip2
import proofs.«205364_g71897752535391_cont_9to1_m_950_21_alg».proof.Proof.KB.TileTrip3
import proofs.«205364_g71897752535391_cont_9to1_m_950_21_alg».proof.Proof.KB.TileTrip4
import proofs.«205364_g71897752535391_cont_9to1_m_950_21_alg».proof.Proof.KB.TileTrip5
import proofs.«205364_g71897752535391_cont_9to1_m_950_21_alg».proof.Proof.KB.TileTrip6
import proofs.«205364_g71897752535391_cont_9to1_m_950_21_alg».proof.Proof.KB.TileTrip7
import proofs.«205364_g71897752535391_cont_9to1_m_950_21_alg».proof.Proof.KB.TileTrip8

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (wC : (d : Dev nD) → Buf (Elt F) (wLoc d))

def coordsV (c : Fin (grid1.bound 0)) (s : Fin (grid1.bound 1)) : grid1.Coords :=
  fun | 0 => c | 1 => s | ⟨_ + 2, h⟩ => absurd h (Nat.not_lt.2 (Nat.le_add_left _ _))

/-- The kernel function as the body table calls it on tile (c, s). -/
abbrev tileProg (c : Fin (grid1.bound 0)) (s : Fin (grid1.bound 1)) :=
  cc1_lookup_sum (F := F) (coordsV c s) (Memref.whole main_arg0_scv) (Memref.isWhole_whole _) (Memref.whole main_arg1_scv) (Memref.isWhole_whole _)
    (Memref.whole main_v2_scv) (Memref.isWhole_whole _) (Memref.whole main_v3_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3) (Memref.isWhole_whole _)
    (Memref.whole cc1_scratch4) (Memref.isWhole_whole _) (Memref.whole cc1_scratch5) (Memref.isWhole_whole _) cc1_scratch6 cc1_scratch7 cc1_scoped0 cc1_scoped1

/-- What the proof asks of the launch memory: every word of x is at most 9 and every word of y at most 4 (as unsigned words). -/
def PreOK : Prop := ∀ d : Dev nD, (∀ j, (m (xLoc d) j).toNat ≤ 9) ∧ (∀ j, (m (yLoc d) j).toNat ≤ 4)

/-- The tile's number from its grid coordinates. -/
abbrev widV (c : Fin (grid1.bound 0)) (s : Fin (grid1.bound 1)) : Fin 32 := wid (Fin.cast (by rfl) c) (Fin.cast (by rfl) s)

/-- The tile's sixteen words of the partial sums, as the kernel slices them. -/
abbrev rO (c : Fin (grid1.bound 0)) (s : Fin (grid1.bound 1)) : Rect S512 := Rect.unit (s := S512) (k1_off205 (coordsV c s)) S16.size (k1_off205_inb (coordsV c s))
abbrev oSl (c : Fin (grid1.bound 0)) (s : Fin (grid1.bound 1)) : Memref sig .scVector .hbm S16 .f32 :=
  (Memref.whole main_v3_scv).slice (rO c s) (fun _ => rfl)

omit [FloatOps F] in
theorem wid_lt (c : Fin (grid1.bound 0)) (s : Fin (grid1.bound 1)) : 2 * s.val + c.val < 32 := by
  have h1 : c.val < 2 := c.isLt
  have h2 : s.val < 16 := s.isLt
  omega

omit [FloatOps F] in
theorem rO_eq (c : Fin (grid1.bound 0)) (s : Fin (grid1.bound 1)) :
    rO c s = Rect.part (s := S512) (a₀ := 0) hdivo (⟨2 * s.val + c.val, wid_lt c s⟩ : Fin 32) := by
  unfold rO Rect.part Rect.block
  congr 1 <;> funext a
  · rw [k1_off205_eq]
    match a with
    | 0 => simp [Shape.partIx, Shape.partSize, coordsV]; omega
  · match a with
    | 0 => simp [Shape.partSize]

omit [FloatOps F] in
/-- The slice is the tile's block of the thirty-two. -/
theorem set_oSl (c : Fin (grid1.bound 0)) (s : Fin (grid1.bound 1)) : (oSl c s).view.set = oBlk (widV c s) := by
  show ((View.whole (main_v3_scv : Ref sig .scVector)).slice (rO c s)).set = (Rect.part (s := S512) (a₀ := 0) hdivo (⟨2 * s.val + c.val, wid_lt c s⟩ : Fin 32)).set
  rw [View.set_slice, rO_eq]; exact Finset.map_refl

set_option sl_exec.dischHeartbeats 200000 in
set_option maxHeartbeats 4000000 in
/-- The task on tile (c, s) of device `d`. -/
theorem tile_body (d : Dev nD) (hpre : PreOK m) (c : Fin (grid1.bound 0)) (s : Fin (grid1.bound 1)) (O : CellTallies nD τ sig (HIx 1)) (W : Waits sig (HIx 1)) (hO : ∀ g, O g none = 0) :
    iprop(levAts (K (F := F)).L (K (F := F)).lev ∗ emp ∗ tileIn d (m (xLoc d)) (m (yLoc d)) (wC d) (m (oLoc d)) (widV c s)
        ∗ scopedBufs (V d (c.castLE hcore1) (s.castLE hsub1)) ∗ scopedSems0 (V d (c.castLE hcore1) (s.castLE hsub1)) ∗ owes (V d (c.castLE hcore1) (s.castLE hsub1)) O W)
      ⊢ wp frame (wpE (defs₀ (F := F)) 𝒱₀ (V d (c.castLE hcore1) (s.castLE hsub1)) none) Set.univ (tileProg (F := F) c s)
          fun _ => iprop(tileOut d (m (xLoc d)) (m (yLoc d)) (wC d) (widV c s) ∗ scopedBufs (V d (c.castLE hcore1) (s.castLE hsub1)) ∗ scopedSems0 (V d (c.castLE hcore1) (s.castLE hsub1))
            ∗ ∃ W', ⌜∀ p ∈ W', p ∈ W ∨ p.2 = none⌝ ∗ owes (V d (c.castLE hcore1) (s.castLE hsub1)) O W') := by
  unfold tileProg
  simp only [cc1_lookup_sum_eq_skeleton]; unfold cc1_lookup_sum_skel
  rw [(K (F := F)).scopedBufs_V facts d (c.castLE hcore1) (s.castLE hsub1), SparseCore.Cfg.scopedSems0_V (Val := Elt F) d (c.castLE hcore1) (s.castLE hsub1),
    ownSems0_V, ownBufs_V]
  unfold tileIn
  iintro ⟨#Hlv, -, ⟨Hx, Hy, Hw, Ho⟩, ⟨⟨%f0, Hs0⟩, ⟨%f1, Hs1⟩, ⟨%f2, Hs2⟩, ⟨%f3, Hs3⟩, ⟨%f4, Hs4⟩, ⟨%f5, Hs5⟩, Hbufs⟩, ⟨Hr0, Hx0, Hx1, Hy0, Hy1, Hr1, Hsems⟩, HO⟩
  ihave Hmw := ((K (F := F)).mayWaits_none (thr := (V d (c.castLE hcore1) (s.castLE hsub1))) hO) $$ Hlv
  ihave Hx' := (Entails.of_eq (show ((Memref.whole main_arg0_scv : Memref sig .scVector .hbm S16384x200 .i32).view.loc (V d (c.castLE hcore1) (s.castLE hsub1)) ↦{Transfers.shareTok fullShare 32 (widV c s)} m (xLoc d) : sProp 𝕄) = _ from rfl).symm) $$ Hx
  ihave Hy' := (Entails.of_eq (show ((Memref.whole main_arg1_scv : Memref sig .scVector .hbm S3276800 .i32).view.loc (V d (c.castLE hcore1) (s.castLE hsub1)) ↦{Transfers.shareTok fullShare 32 (widV c s)} m (yLoc d) : sProp 𝕄) = _ from rfl).symm) $$ Hy
  ihave Hw' := (Entails.of_eq (show ((Memref.whole main_v2_scv : Memref sig .scVector .hbm S64 .f32).view.loc (V d (c.castLE hcore1) (s.castLE hsub1)) ↦{Transfers.shareTok fullShare 32 (widV c s)} wC d : sProp 𝕄) = _ from rfl).symm) $$ Hw
  ihave Hs0' := (Entails.of_eq (show ((Memref.whole cc1_scratch0 : Memref sig .scVector .vmem S64 .f32).view.loc (V d (c.castLE hcore1) (s.castLE hsub1)) ↦{fullShare} f0 : sProp 𝕄) = _ from rfl).symm) $$ Hs0
  ihave Hs1' := (Entails.of_eq (show ((Memref.whole cc1_scratch1 : Memref sig .scVector .vmem S64x200 .i32).view.loc (V d (c.castLE hcore1) (s.castLE hsub1)) ↦{fullShare} f1 : sProp 𝕄) = _ from rfl).symm) $$ Hs1
  ihave Hs2' := (Entails.of_eq (show ((Memref.whole cc1_scratch2 : Memref sig .scVector .vmem S64x200 .i32).view.loc (V d (c.castLE hcore1) (s.castLE hsub1)) ↦{fullShare} f2 : sProp 𝕄) = _ from rfl).symm) $$ Hs2
  ihave Hs3' := (Entails.of_eq (show ((Memref.whole cc1_scratch3 : Memref sig .scVector .vmem S12800 .i32).view.loc (V d (c.castLE hcore1) (s.castLE hsub1)) ↦{fullShare} f3 : sProp 𝕄) = _ from rfl).symm) $$ Hs3
  ihave Hs4' := (Entails.of_eq (show ((Memref.whole cc1_scratch4 : Memref sig .scVector .vmem S12800 .i32).view.loc (V d (c.castLE hcore1) (s.castLE hsub1)) ↦{fullShare} f4 : sProp 𝕄) = _ from rfl).symm) $$ Hs4
  ihave Hs5' := (Entails.of_eq (show ((Memref.whole cc1_scratch5 : Memref sig .scVector .vmem S16 .f32).view.loc (V d (c.castLE hcore1) (s.castLE hsub1)) ↦{fullShare} f5 : sProp 𝕄) = _ from rfl).symm) $$ Hs5
  ihave Ho' := (Entails.of_eq (show ((oSl c s).view.loc (V d (c.castLE hcore1) (s.castLE hsub1)) ↦[(oSl c s).view.set]{fullShare} m (oLoc d) : sProp 𝕄) = (oLoc d ↦[oBlk (widV c s)]{fullShare} m (oLoc d)) from by rw [set_oSl]).symm) $$ Ho
  sl_exec_parts
  have hx9_1 : ∀ j, BitVec.toNat ((View.write (Elt F) (Memref.whole cc1_scratch1).view f1 (tile_body.sl.dma0_1 m d c s) Finset.univ) j) ≤ 9 := fun j =>
    le_of_eq_of_le (congrArg BitVec.toNat (congrFun (View.write_whole_univ (Val := Elt F) cc1_scratch1 f1 (tile_body.sl.dma0_1 m d c s)) j)) ((hpre d).1 _)
  have hy4_1 : ∀ j, BitVec.toNat ((View.write (Elt F) (Memref.whole cc1_scratch3).view f3 (tile_body.sl.dma0_2 m d c s) Finset.univ) j) ≤ 4 := fun j =>
    le_of_eq_of_le (congrArg BitVec.toNat (congrFun (View.write_whole_univ (Val := Elt F) cc1_scratch3 f3 (tile_body.sl.dma0_2 m d c s)) j)) ((hpre d).2 _)
  sl_for (invL (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt F) (Memref.whole cc1_scratch0).view f0 (tile_body.sl.dma0 wC d) Finset.univ) (View.write (Elt F) (Memref.whole cc1_scratch1).view f1 (tile_body.sl.dma0_1 m d c s) Finset.univ) (View.write (Elt F) (Memref.whole cc1_scratch3).view f3 (tile_body.sl.dma0_2 m d c s) Finset.univ)) $$ [Hs0' Hs1' Hs3']
  case region =>
    intro k acc
    exact trip_1 (F := F) d (coordsV c s) _ _ _ hx9_1 hy4_1 _ _ _ _ _ _ k acc
  · unfold invL
    isplitl [Hs0']; · iexact Hs0'
    isplitl [Hs1']; · iexact Hs1'
    iexact Hs3'
  iintro %acc1 HI
  unfold invL
  icases HI with ⟨Hs0', Hs1', Hs3'⟩
  sl_exec_parts
  have hx9_2 : ∀ j, BitVec.toNat ((View.write (Elt F) (Memref.whole cc1_scratch2).view f2 (tile_body.sl.dma0_3 m d c s) Finset.univ) j) ≤ 9 := fun j =>
    le_of_eq_of_le (congrArg BitVec.toNat (congrFun (View.write_whole_univ (Val := Elt F) cc1_scratch2 f2 (tile_body.sl.dma0_3 m d c s)) j)) ((hpre d).1 _)
  have hy4_2 : ∀ j, BitVec.toNat ((View.write (Elt F) (Memref.whole cc1_scratch4).view f4 (tile_body.sl.dma0_4 m d c s) Finset.univ) j) ≤ 4 := fun j =>
    le_of_eq_of_le (congrArg BitVec.toNat (congrFun (View.write_whole_univ (Val := Elt F) cc1_scratch4 f4 (tile_body.sl.dma0_4 m d c s)) j)) ((hpre d).2 _)
  sl_for (invL (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt F) (Memref.whole cc1_scratch0).view f0 (tile_body.sl.dma0 wC d) Finset.univ) (View.write (Elt F) (Memref.whole cc1_scratch2).view f2 (tile_body.sl.dma0_3 m d c s) Finset.univ) (View.write (Elt F) (Memref.whole cc1_scratch4).view f4 (tile_body.sl.dma0_4 m d c s) Finset.univ)) $$ [Hs0' Hs2' Hs4']
  case region =>
    intro k acc
    exact trip_2 (F := F) d (coordsV c s) _ _ _ hx9_2 hy4_2 _ _ _ _ _ _ k acc
  · unfold invL
    isplitl [Hs0']; · iexact Hs0'
    isplitl [Hs2']; · iexact Hs2'
    iexact Hs4'
  iintro %acc2 HI
  unfold invL
  icases HI with ⟨Hs0', Hs2', Hs4'⟩
  sl_exec_parts
  have hx9_3 : ∀ j, BitVec.toNat ((View.write (Elt F) (Memref.whole cc1_scratch1).view (View.write (Elt F) (Memref.whole cc1_scratch1).view f1 (tile_body.sl.dma0_1 m d c s) Finset.univ) (tile_body.sl.dma0_5 m d c s) Finset.univ) j) ≤ 9 := fun j =>
    le_of_eq_of_le (congrArg BitVec.toNat (congrFun (View.write_whole_univ (Val := Elt F) cc1_scratch1 (View.write (Elt F) (Memref.whole cc1_scratch1).view f1 (tile_body.sl.dma0_1 m d c s) Finset.univ) (tile_body.sl.dma0_5 m d c s)) j)) ((hpre d).1 _)
  have hy4_3 : ∀ j, BitVec.toNat ((View.write (Elt F) (Memref.whole cc1_scratch3).view (View.write (Elt F) (Memref.whole cc1_scratch3).view f3 (tile_body.sl.dma0_2 m d c s) Finset.univ) (tile_body.sl.dma0_6 m d c s) Finset.univ) j) ≤ 4 := fun j =>
    le_of_eq_of_le (congrArg BitVec.toNat (congrFun (View.write_whole_univ (Val := Elt F) cc1_scratch3 (View.write (Elt F) (Memref.whole cc1_scratch3).view f3 (tile_body.sl.dma0_2 m d c s) Finset.univ) (tile_body.sl.dma0_6 m d c s)) j)) ((hpre d).2 _)
  sl_for (invL (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt F) (Memref.whole cc1_scratch0).view f0 (tile_body.sl.dma0 wC d) Finset.univ) (View.write (Elt F) (Memref.whole cc1_scratch1).view (View.write (Elt F) (Memref.whole cc1_scratch1).view f1 (tile_body.sl.dma0_1 m d c s) Finset.univ) (tile_body.sl.dma0_5 m d c s) Finset.univ) (View.write (Elt F) (Memref.whole cc1_scratch3).view (View.write (Elt F) (Memref.whole cc1_scratch3).view f3 (tile_body.sl.dma0_2 m d c s) Finset.univ) (tile_body.sl.dma0_6 m d c s) Finset.univ)) $$ [Hs0' Hs1' Hs3']
  case region =>
    intro k acc
    exact trip_3 (F := F) d (coordsV c s) _ _ _ hx9_3 hy4_3 _ _ _ _ _ _ k acc
  · unfold invL
    isplitl [Hs0']; · iexact Hs0'
    isplitl [Hs1']; · iexact Hs1'
    iexact Hs3'
  iintro %acc3 HI
  unfold invL
  icases HI with ⟨Hs0', Hs1', Hs3'⟩
  sl_exec_parts
  have hx9_4 : ∀ j, BitVec.toNat ((View.write (Elt F) (Memref.whole cc1_scratch2).view (View.write (Elt F) (Memref.whole cc1_scratch2).view f2 (tile_body.sl.dma0_3 m d c s) Finset.univ) (tile_body.sl.dma0_7 m d c s) Finset.univ) j) ≤ 9 := fun j =>
    le_of_eq_of_le (congrArg BitVec.toNat (congrFun (View.write_whole_univ (Val := Elt F) cc1_scratch2 (View.write (Elt F) (Memref.whole cc1_scratch2).view f2 (tile_body.sl.dma0_3 m d c s) Finset.univ) (tile_body.sl.dma0_7 m d c s)) j)) ((hpre d).1 _)
  have hy4_4 : ∀ j, BitVec.toNat ((View.write (Elt F) (Memref.whole cc1_scratch4).view (View.write (Elt F) (Memref.whole cc1_scratch4).view f4 (tile_body.sl.dma0_4 m d c s) Finset.univ) (tile_body.sl.dma0_8 m d c s) Finset.univ) j) ≤ 4 := fun j =>
    le_of_eq_of_le (congrArg BitVec.toNat (congrFun (View.write_whole_univ (Val := Elt F) cc1_scratch4 (View.write (Elt F) (Memref.whole cc1_scratch4).view f4 (tile_body.sl.dma0_4 m d c s) Finset.univ) (tile_body.sl.dma0_8 m d c s)) j)) ((hpre d).2 _)
  sl_for (invL (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt F) (Memref.whole cc1_scratch0).view f0 (tile_body.sl.dma0 wC d) Finset.univ) (View.write (Elt F) (Memref.whole cc1_scratch2).view (View.write (Elt F) (Memref.whole cc1_scratch2).view f2 (tile_body.sl.dma0_3 m d c s) Finset.univ) (tile_body.sl.dma0_7 m d c s) Finset.univ) (View.write (Elt F) (Memref.whole cc1_scratch4).view (View.write (Elt F) (Memref.whole cc1_scratch4).view f4 (tile_body.sl.dma0_4 m d c s) Finset.univ) (tile_body.sl.dma0_8 m d c s) Finset.univ)) $$ [Hs0' Hs2' Hs4']
  case region =>
    intro k acc
    exact trip_4 (F := F) d (coordsV c s) _ _ _ hx9_4 hy4_4 _ _ _ _ _ _ k acc
  · unfold invL
    isplitl [Hs0']; · iexact Hs0'
    isplitl [Hs2']; · iexact Hs2'
    iexact Hs4'
  iintro %acc4 HI
  unfold invL
  icases HI with ⟨Hs0', Hs2', Hs4'⟩
  sl_exec_parts
  have hx9_5 : ∀ j, BitVec.toNat ((View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) j) ≤ 9 := fun j =>
    le_of_eq_of_le (congrArg BitVec.toNat (congrFun (View.write_whole_univ (Val := Elt F) cc1_scratch1 (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s)) j)) ((hpre d).1 _)
  have hy4_5 : ∀ j, BitVec.toNat ((View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ) j) ≤ 4 := fun j =>
    le_of_eq_of_le (congrArg BitVec.toNat (congrFun (View.write_whole_univ (Val := Elt F) cc1_scratch3 (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s)) j)) ((hpre d).2 _)
  sl_for (invL (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt F) (Memref.whole cc1_scratch0).view f0 (tile_body.sl.dma0 wC d) Finset.univ) (View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) (View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ)) $$ [Hs0' Hs1' Hs3']
  case region =>
    intro k acc
    exact trip_5 (F := F) d (coordsV c s) _ _ _ hx9_5 hy4_5 _ _ _ _ _ _ k acc
  · unfold invL
    isplitl [Hs0']; · iexact Hs0'
    isplitl [Hs1']; · iexact Hs1'
    iexact Hs3'
  iintro %acc5 HI
  unfold invL
  icases HI with ⟨Hs0', Hs1', Hs3'⟩
  sl_exec_parts
  have hx9_6 : ∀ j, BitVec.toNat ((View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) j) ≤ 9 := fun j =>
    le_of_eq_of_le (congrArg BitVec.toNat (congrFun (View.write_whole_univ (Val := Elt F) cc1_scratch2 (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s)) j)) ((hpre d).1 _)
  have hy4_6 : ∀ j, BitVec.toNat ((View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ) j) ≤ 4 := fun j =>
    le_of_eq_of_le (congrArg BitVec.toNat (congrFun (View.write_whole_univ (Val := Elt F) cc1_scratch4 (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s)) j)) ((hpre d).2 _)
  sl_for (invL (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt F) (Memref.whole cc1_scratch0).view f0 (tile_body.sl.dma0 wC d) Finset.univ) (View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) (View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ)) $$ [Hs0' Hs2' Hs4']
  case region =>
    intro k acc
    exact trip_6 (F := F) d (coordsV c s) _ _ _ hx9_6 hy4_6 _ _ _ _ _ _ k acc
  · unfold invL
    isplitl [Hs0']; · iexact Hs0'
    isplitl [Hs2']; · iexact Hs2'
    iexact Hs4'
  iintro %acc6 HI
  unfold invL
  icases HI with ⟨Hs0', Hs2', Hs4'⟩
  sl_exec_parts
  have hx9_7 : ∀ j, BitVec.toNat ((View.write (Elt F) (Memref.whole cc1_scratch1).view (View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) (tile_body.sl.dma0_13 m d c s) Finset.univ) j) ≤ 9 := fun j =>
    le_of_eq_of_le (congrArg BitVec.toNat (congrFun (View.write_whole_univ (Val := Elt F) cc1_scratch1 (View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) (tile_body.sl.dma0_13 m d c s)) j)) ((hpre d).1 _)
  have hy4_7 : ∀ j, BitVec.toNat ((View.write (Elt F) (Memref.whole cc1_scratch3).view (View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ) (tile_body.sl.dma0_14 m d c s) Finset.univ) j) ≤ 4 := fun j =>
    le_of_eq_of_le (congrArg BitVec.toNat (congrFun (View.write_whole_univ (Val := Elt F) cc1_scratch3 (View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ) (tile_body.sl.dma0_14 m d c s)) j)) ((hpre d).2 _)
  sl_for (invL (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt F) (Memref.whole cc1_scratch0).view f0 (tile_body.sl.dma0 wC d) Finset.univ) (View.write (Elt F) (Memref.whole cc1_scratch1).view (View.write (Elt F) (Memref.whole cc1_scratch1).view (View.write (Elt F) (Memref.whole cc1_scratch1).view (View.write (Elt F) (Memref.whole cc1_scratch1).view f1 (tile_body.sl.dma0_1 m d c s) Finset.univ) (tile_body.sl.dma0_5 m d c s) Finset.univ) (tile_body.sl.dma0_9 m d c s) Finset.univ) (tile_body.sl.dma0_13 m d c s) Finset.univ) (View.write (Elt F) (Memref.whole cc1_scratch3).view (View.write (Elt F) (Memref.whole cc1_scratch3).view (View.write (Elt F) (Memref.whole cc1_scratch3).view (View.write (Elt F) (Memref.whole cc1_scratch3).view f3 (tile_body.sl.dma0_2 m d c s) Finset.univ) (tile_body.sl.dma0_6 m d c s) Finset.univ) (tile_body.sl.dma0_10 m d c s) Finset.univ) (tile_body.sl.dma0_14 m d c s) Finset.univ)) $$ [Hs0' Hs1' Hs3']
  case region =>
    intro k acc
    exact trip_7 (F := F) d (coordsV c s) _ _ _ hx9_7 hy4_7 k acc
  · unfold invL
    isplitl [Hs0']; · iexact Hs0'
    isplitl [Hs1']; · iexact Hs1'
    iexact Hs3'
  iintro %acc7 HI
  unfold invL
  icases HI with ⟨Hs0', Hs1', Hs3'⟩
  sl_exec_parts
  have hx9_8 : ∀ j, BitVec.toNat ((View.write (Elt F) (Memref.whole cc1_scratch2).view (View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) (tile_body.sl.dma0_15 m d c s) Finset.univ) j) ≤ 9 := fun j =>
    le_of_eq_of_le (congrArg BitVec.toNat (congrFun (View.write_whole_univ (Val := Elt F) cc1_scratch2 (View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) (tile_body.sl.dma0_15 m d c s)) j)) ((hpre d).1 _)
  have hy4_8 : ∀ j, BitVec.toNat ((View.write (Elt F) (Memref.whole cc1_scratch4).view (View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ) (tile_body.sl.dma0_16 m d c s) Finset.univ) j) ≤ 4 := fun j =>
    le_of_eq_of_le (congrArg BitVec.toNat (congrFun (View.write_whole_univ (Val := Elt F) cc1_scratch4 (View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ) (tile_body.sl.dma0_16 m d c s)) j)) ((hpre d).2 _)
  sl_for (invL (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt F) (Memref.whole cc1_scratch0).view f0 (tile_body.sl.dma0 wC d) Finset.univ) (View.write (Elt F) (Memref.whole cc1_scratch2).view (View.write (Elt F) (Memref.whole cc1_scratch2).view (View.write (Elt F) (Memref.whole cc1_scratch2).view (View.write (Elt F) (Memref.whole cc1_scratch2).view f2 (tile_body.sl.dma0_3 m d c s) Finset.univ) (tile_body.sl.dma0_7 m d c s) Finset.univ) (tile_body.sl.dma0_11 m d c s) Finset.univ) (tile_body.sl.dma0_15 m d c s) Finset.univ) (View.write (Elt F) (Memref.whole cc1_scratch4).view (View.write (Elt F) (Memref.whole cc1_scratch4).view (View.write (Elt F) (Memref.whole cc1_scratch4).view (View.write (Elt F) (Memref.whole cc1_scratch4).view f4 (tile_body.sl.dma0_4 m d c s) Finset.univ) (tile_body.sl.dma0_8 m d c s) Finset.univ) (tile_body.sl.dma0_12 m d c s) Finset.univ) (tile_body.sl.dma0_16 m d c s) Finset.univ)) $$ [Hs0' Hs2' Hs4']
  case region =>
    intro k acc
    exact trip_8 (F := F) d (coordsV c s) _ _ _ hx9_8 hy4_8 k acc
  · unfold invL
    isplitl [Hs0']; · iexact Hs0'
    isplitl [Hs2']; · iexact Hs2'
    iexact Hs4'
  iintro %acc8 HI
  unfold invL
  icases HI with ⟨Hs0', Hs2', Hs4'⟩
  sl_exec_parts
  rw [wp_ret]; imodintro
  unfold tileOut
  isplitl [Hx' Hy' Hw' Ho']
  · isplitl [Hx']
    · iapply (Entails.of_eq (show ((Memref.whole main_arg0_scv : Memref sig .scVector .hbm S16384x200 .i32).view.loc (V d (c.castLE hcore1) (s.castLE hsub1)) ↦{Transfers.shareTok fullShare 32 (widV c s)} m (xLoc d) : sProp 𝕄) = _ from rfl))
      iexact Hx'
    isplitl [Hy']
    · iapply (Entails.of_eq (show ((Memref.whole main_arg1_scv : Memref sig .scVector .hbm S3276800 .i32).view.loc (V d (c.castLE hcore1) (s.castLE hsub1)) ↦{Transfers.shareTok fullShare 32 (widV c s)} m (yLoc d) : sProp 𝕄) = _ from rfl))
      iexact Hy'
    isplitl [Hw']
    · iapply (Entails.of_eq (show ((Memref.whole main_v2_scv : Memref sig .scVector .hbm S64 .f32).view.loc (V d (c.castLE hcore1) (s.castLE hsub1)) ↦{Transfers.shareTok fullShare 32 (widV c s)} wC d : sProp 𝕄) = _ from rfl))
      iexact Hw'
    iexists _
    iapply (Entails.of_eq (show ((oSl c s).view.loc (V d (c.castLE hcore1) (s.castLE hsub1)) ↦[(oSl c s).view.set]{fullShare} _ : sProp 𝕄) = (oLoc d ↦[oBlk (widV c s)]{fullShare} _) from by rw [set_oSl]))
    iexact Ho'
  isplitl [Hs0' Hs1' Hs2' Hs3' Hs4' Hs5' Hbufs]
  · isplitl [Hs0']
    · iexists _
      iapply (Entails.of_eq (show ((Memref.whole cc1_scratch0 : Memref sig .scVector .vmem S64 .f32).view.loc (V d (c.castLE hcore1) (s.castLE hsub1)) ↦{fullShare} _ : sProp 𝕄) = ((V d (c.castLE hcore1) (s.castLE hsub1)).loc cc1_scratch0 ↦{fullShare} _) from rfl))
      iexact Hs0'
    isplitl [Hs1']
    · iexists _
      iapply (Entails.of_eq (show ((Memref.whole cc1_scratch1 : Memref sig .scVector .vmem S64x200 .i32).view.loc (V d (c.castLE hcore1) (s.castLE hsub1)) ↦{fullShare} _ : sProp 𝕄) = ((V d (c.castLE hcore1) (s.castLE hsub1)).loc cc1_scratch1 ↦{fullShare} _) from rfl))
      iexact Hs1'
    isplitl [Hs2']
    · iexists _
      iapply (Entails.of_eq (show ((Memref.whole cc1_scratch2 : Memref sig .scVector .vmem S64x200 .i32).view.loc (V d (c.castLE hcore1) (s.castLE hsub1)) ↦{fullShare} _ : sProp 𝕄) = ((V d (c.castLE hcore1) (s.castLE hsub1)).loc cc1_scratch2 ↦{fullShare} _) from rfl))
      iexact Hs2'
    isplitl [Hs3']
    · iexists _
      iapply (Entails.of_eq (show ((Memref.whole cc1_scratch3 : Memref sig .scVector .vmem S12800 .i32).view.loc (V d (c.castLE hcore1) (s.castLE hsub1)) ↦{fullShare} _ : sProp 𝕄) = ((V d (c.castLE hcore1) (s.castLE hsub1)).loc cc1_scratch3 ↦{fullShare} _) from rfl))
      iexact Hs3'
    isplitl [Hs4']
    · iexists _
      iapply (Entails.of_eq (show ((Memref.whole cc1_scratch4 : Memref sig .scVector .vmem S12800 .i32).view.loc (V d (c.castLE hcore1) (s.castLE hsub1)) ↦{fullShare} _ : sProp 𝕄) = ((V d (c.castLE hcore1) (s.castLE hsub1)).loc cc1_scratch4 ↦{fullShare} _) from rfl))
      iexact Hs4'
    isplitl [Hs5']
    · iexists _
      iapply (Entails.of_eq (show ((Memref.whole cc1_scratch5 : Memref sig .scVector .vmem S16 .f32).view.loc (V d (c.castLE hcore1) (s.castLE hsub1)) ↦{fullShare} _ : sProp 𝕄) = ((V d (c.castLE hcore1) (s.castLE hsub1)).loc cc1_scratch5 ↦{fullShare} _) from rfl))
      iexact Hs5'
    iexact Hbufs
  isplitl [Hr0 Hx0 Hx1 Hy0 Hy1 Hr1 Hsems]
  · isplitl [Hr0]; · iexact Hr0
    isplitl [Hx0]; · iexact Hx0
    isplitl [Hx1]; · iexact Hx1
    isplitl [Hy0]; · iexact Hy0
    isplitl [Hy1]; · iexact Hy1
    isplitl [Hr1]; · iexact Hr1
    iexact Hsems
  iexists _; isplitr
  swap; · iexact HO
  ipureintro
  repeat' (first
    | exact fun p hp => Or.inl hp
    | refine (Finset.forall_mem_insert _ _ _).mpr ⟨Or.inr rfl, ?_⟩)

end Cert.Proof.KB

end
-- ==== Proof.KB.Main.lean ====
/-
  The kernel program as printed's run: the SparseCore launch theorem applied to the one vector-subcore call, with @main's
  two TensorCore calls entered as regions while the TensorCore owes the launch's handshakes.
-/
import proofs.«205364_g71897752535391_cont_9to1_m_950_21_alg».proof.Proof.KB.Segs
import proofs.«205364_g71897752535391_cont_9to1_m_950_21_alg».proof.Proof.KB.TileBody

set_option maxRecDepth 16384

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)
variable (wC : (d : Dev nD) → Buf (Elt F) (wLoc d))

/-! ## What the handshakes carry -/

def P : (K (F := F)).Pay (nD := nD) (Val := Elt F) (Name := ℕ) (U := UU) where
  st := fun q d c => match q with | 0 => bigSep Finset.univ fun s : Fin 16 => tileIn d (m (xLoc d)) (m (yLoc d)) (wC d) (m (oLoc d)) (wid (Fin.cast nCore_zero c) s)
  dn := fun q d c => match q with | 0 => bigSep Finset.univ fun s : Fin 16 => tileOut d (m (xLoc d)) (m (yLoc d)) (wC d) (wid (Fin.cast nCore_zero c) s)
  go := fun q d c s => match q with | 0 => tileIn d (m (xLoc d)) (m (yLoc d)) (wC d) (m (oLoc d)) (wid (Fin.cast nCore_zero c) (Fin.cast nSub_zero s))
  td := fun q d c s => match q with | 0 => tileOut d (m (xLoc d)) (m (yLoc d)) (wC d) (wid (Fin.cast nCore_zero c) (Fin.cast nSub_zero s))
  x := fun _ _ => iprop(emp)

instance P_storable : (P (F := F) m wC).IsStorable where
  st q d c := match q with | 0 => by unfold P tileIn; infer_instance
  dn q d c := match q with | 0 => by unfold P tileOut; infer_instance
  go q d c s := match q with | 0 => by unfold P tileIn; infer_instance
  td q d c s := match q with | 0 => by unfold P tileOut; infer_instance

/-! ## The tile's obligation and a SparseCore's operands among its tiles -/

theorem defs₀_vector (c : Fin τ.nSC) (s : Fin τ.nSub) :
    defs₀ (F := F) (.scVector c s) 1 () = SparseCore.onTile hcore1 hsub1 (fun c s => tileProg (F := F) c s) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m wC) v₀ 0 := by
  intro d c i O W hO _ _
  simp only [show (P m wC).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m wC d hpre ⟨_, hc.1⟩ ⟨_, hc.2⟩ O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m wC) 0 := by
  intro d c
  show (bigSep Finset.univ fun s : Fin 16 => tileIn d (m (xLoc d)) (m (yLoc d)) (wC d) (m (oLoc d)) (wid (Fin.cast nCore_zero c) s)) ⊢ |={Set.univ}=> iprop(
      (bigSep Finset.univ fun i : Fin ((K (F := F)).nSub 0) => tileIn d (m (xLoc d)) (m (yLoc d)) (wC d) (m (oLoc d)) (wid (Fin.cast nCore_zero c) (Fin.cast nSub_zero i)))
      ∗ ((bigSep Finset.univ fun i : Fin ((K (F := F)).nSub 0) => tileOut d (m (xLoc d)) (m (yLoc d)) (wC d) (wid (Fin.cast nCore_zero c) (Fin.cast nSub_zero i)))
          -∗ (bigSep Finset.univ fun s : Fin 16 => tileOut d (m (xLoc d)) (m (yLoc d)) (wC d) (wid (Fin.cast nCore_zero c) s))))
  rw [bigSep_tasks (F := F) (fun s => tileIn d (m (xLoc d)) (m (yLoc d)) (wC d) (m (oLoc d)) (wid (Fin.cast nCore_zero c) s)),
    bigSep_tasks (F := F) (fun s => tileOut d (m (xLoc d)) (m (yLoc d)) (wC d) (wid (Fin.cast nCore_zero c) s))]
  iintro H; imodintro
  isplitl [H]; · iexact H
  iintro H; iexact H

/-! ## The launch element: the handshakes' rounds and the pipelines' staging cells' -/

def u₀ : UU := (initOf (K (F := F)).hsCells (K (F := F)).hsToks,
  (initOf (Pipeline.cells (Pipeline.pin (pcfgs (F := F)) adm) pin_cellOf_inj) (Pipeline.launchToks (Pipeline.pin (pcfgs (F := F)) adm) pin_cellOf_inj), 1))

/-- What @main starts from beyond the launch's deal: both pipelines' cells' ghost state and duty tokens. -/
def G (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m wC).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (Pipeline.pin (pcfgs (F := F)) adm) ((Emb.inl : Emb UP (UP × Counters)).trans (embR : Emb (UP × Counters) 𝕄)) pin_cellOf_inj) $$ HP with ⟨Hg, Ht⟩
  imodintro
  isplitl [HH]; · iexact HH
  isplitl [Hg Ht]
  · unfold G EP
    rw [bigSep_congr (fun d _ => bigSep_sep' Finset.univ _ _), bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The host operations between the calls, as @main spells them. -/
abbrev opFlat : HloOp τ sig (Elt F) := StableHlo.reshape main_v0 main_v1 rfl shapeCasts_S10x5_S50
abbrev opZero : HloOp τ sig (Elt F) := StableHlo.nullary main_c (constantI S_ 32 0#32)
abbrev opCvt : HloOp τ sig (Elt F) :=
  StableHlo.TRef.unary (.of main_c : StableHlo.TRef sig ⟨S_, .i32⟩) (.of main_call0_v0 : StableHlo.TRef sig ⟨S_, .f32⟩) (sitofp .f32)
abbrev opPad : HloOp τ sig (Elt F) :=
  StableHlo.TRef.binary (.of main_v1 : StableHlo.TRef sig ⟨S50, .f32⟩) (.of main_call0_v0 : StableHlo.TRef sig ⟨S_, .f32⟩) (.of main_v2 : StableHlo.TRef sig ⟨S64, .f32⟩)
    (fun x v => pad S64 ![0] ![14] ![0] x v pads_S50_S64_0140 h_S_)
abbrev opOut : HloOp τ sig (Elt F) := StableHlo.reshape main_v4 main_v5 rfl shapeCasts_S1x1_S_

/-- The TensorCore's unscoped buffers: at launch; after the table's call; after the flattening and padding; after the
    SparseCore call left `g` in the partial sums; after the mean's call; after the last reshape. -/
def V0 (d : Dev nD) : Valuation τ sig (Elt F) := fun b => m (d, b)
def V1 (d : Dev nD) : Valuation τ sig (Elt F) := W0' (V0 m d) 0 d
def V2 (d : Dev nD) : Valuation τ sig (Elt F) := (opPad (F := F)).result ((opCvt (F := F)).result ((opZero (F := F)).result ((opFlat (F := F)).result (V1 m d))))
def V3 (d : Dev nD) (g : Buf (Elt F) (oLoc d)) : Valuation τ sig (Elt F) := Function.update (V2 m d) o' g
def V4 (d : Dev nD) (g : Buf (Elt F) (oLoc d)) : Valuation τ sig (Elt F) := W1' (V3 m d g) 1 d
def V5 (d : Dev nD) (g : Buf (Elt F) (oLoc d)) : Valuation τ sig (Elt F) := (opOut (F := F)).result (V4 m d g)

/-- The padded table, as the SparseCore call finds it. -/
def wCof (d : Dev nD) : Buf (Elt F) (wLoc d) := V2 m d w'

/-- A buffer none of the calls and host operations writes keeps its launch contents up to the SparseCore call, -/
theorem V2_keep (d : Dev nD) (r : Ref sig .tc) (h0 : r ≠ main_v0) (h1 : r ≠ main_v1) (hc : r ≠ main_c) (hv : r ≠ main_call0_v0) (h2 : r ≠ main_v2) :
    V2 m d (Proc.devRef .tc r) = m (d, Proc.devRef .tc r) := by
  unfold V2 V1 W0' V0
  rw [HloOp.result_of_not_mem _ _ (by show Proc.devRef .tc r ∉ ({Proc.devRef .tc main_v2} : Finset (DevRef τ sig)); rw [Finset.mem_singleton]; exact StableHlo.devRef_ne_of_ne h2),
    HloOp.result_of_not_mem _ _ (by show Proc.devRef .tc r ∉ ({Proc.devRef .tc main_call0_v0} : Finset (DevRef τ sig)); rw [Finset.mem_singleton]; exact StableHlo.devRef_ne_of_ne hv),
    HloOp.result_of_not_mem _ _ (by show Proc.devRef .tc r ∉ ({Proc.devRef .tc main_c} : Finset (DevRef τ sig)); rw [Finset.mem_singleton]; exact StableHlo.devRef_ne_of_ne hc),
    HloOp.result_of_not_mem _ _ (by show Proc.devRef .tc r ∉ ({Proc.devRef .tc main_v1} : Finset (DevRef τ sig)); rw [Finset.mem_singleton]; exact StableHlo.devRef_ne_of_ne h1),
    Function.update_of_ne (StableHlo.devRef_ne_of_ne h0)]

/-- and to the end. -/
theorem V5_keep (d : Dev nD) (g : Buf (Elt F) (oLoc d)) (r : Ref sig .tc) (h0 : r ≠ main_v0) (h1 : r ≠ main_v1) (hc : r ≠ main_c) (hv : r ≠ main_call0_v0) (h2 : r ≠ main_v2)
    (h3 : r ≠ main_v3) (h4 : r ≠ main_v4) (h5 : r ≠ main_v5) :
    V5 m d g (Proc.devRef .tc r) = m (d, Proc.devRef .tc r) := by
  unfold V5 V4 W1' V3
  rw [HloOp.result_of_not_mem _ _ (by show Proc.devRef .tc r ∉ ({Proc.devRef .tc main_v5} : Finset (DevRef τ sig)); rw [Finset.mem_singleton]; exact StableHlo.devRef_ne_of_ne h5),
    Function.update_of_ne (StableHlo.devRef_ne_of_ne h4), Function.update_of_ne (StableHlo.devRef_ne_of_ne h3)]
  exact V2_keep m d r h0 h1 hc hv h2

/-- What @main leaves the claim: the five arguments at their launch contents. -/
abbrev FIN (d : Dev nD) : sProp 𝕄 :=
  iprop((xLoc d ↦{fullShare} m (xLoc d)) ∗ (yLoc d ↦{fullShare} m (yLoc d)) ∗ (eLoc d ↦{fullShare} m (eLoc d))
    ∗ (fLoc d ↦{fullShare} m (fLoc d)) ∗ (bLoc d ↦{fullShare} m (bLoc d)))

theorem hFlat : (opFlat (F := F)).bufs ⊆ Pipeline.ucRefs τ sig := by
  show ({Proc.devRef .tc main_v0, Proc.devRef .tc main_v1} : Finset (DevRef τ sig)) ⊆ _; decide
theorem hZero : (opZero (F := F)).bufs ⊆ Pipeline.ucRefs τ sig := by
  show ({Proc.devRef .tc main_c} : Finset (DevRef τ sig)) ⊆ _; decide
theorem hCvt : (opCvt (F := F)).bufs ⊆ Pipeline.ucRefs τ sig := by
  show ({Proc.devRef .tc main_c, Proc.devRef .tc main_call0_v0} : Finset (DevRef τ sig)) ⊆ _; decide
theorem hPad : (opPad (F := F)).bufs ⊆ Pipeline.ucRefs τ sig := by
  show ({Proc.devRef .tc main_v1, Proc.devRef .tc main_call0_v0, Proc.devRef .tc main_v2} : Finset (DevRef τ sig)) ⊆ _; decide
theorem hOut : (opOut (F := F)).bufs ⊆ Pipeline.ucRefs τ sig := by
  show ({Proc.devRef .tc main_v4, Proc.devRef .tc main_v5} : Finset (DevRef τ sig)) ⊆ _; decide

theorem hT4 : (T4 : Finset (DevRef τ sig)) ⊆ Pipeline.ucRefs τ sig := by decide
theorem hA5 : (A5 : Finset (DevRef τ sig)) ⊆ Pipeline.ucRefs τ sig := by decide

/-- The call's four arrays as it finds them: x, y and the partial sums as launched, the table padded. -/
theorem held_T4_V2 (d : Dev nD) :
    (held (T d) T4 (V2 m d) : sProp 𝕄) = iprop((xLoc d ↦{fullShare} m (xLoc d)) ∗ (yLoc d ↦{fullShare} m (yLoc d)) ∗ (wLoc d ↦{fullShare} wCof m d) ∗ (oLoc d ↦{fullShare} m (oLoc d))) := by
  rw [held_T4, V2_keep m d main_arg0 (by decide) (by decide) (by decide) (by decide) (by decide),
    V2_keep m d main_arg1 (by decide) (by decide) (by decide) (by decide) (by decide),
    V2_keep m d main_v3 (by decide) (by decide) (by decide) (by decide) (by decide)]
  try rfl

/-- and as it leaves them, the partial sums at `g`. -/
theorem held_T4_V3 (d : Dev nD) (g : Buf (Elt F) (oLoc d)) :
    (held (T d) T4 (V3 m d g) : sProp 𝕄) = iprop((xLoc d ↦{fullShare} m (xLoc d)) ∗ (yLoc d ↦{fullShare} m (yLoc d)) ∗ (wLoc d ↦{fullShare} wCof m d) ∗ (oLoc d ↦{fullShare} g)) := by
  rw [held_T4]
  unfold V3
  rw [Function.update_of_ne (show x' ≠ o' by decide), Function.update_of_ne (show y' ≠ o' by decide), Function.update_of_ne (show w' ≠ o' by decide), Function.update_self,
    V2_keep m d main_arg0 (by decide) (by decide) (by decide) (by decide) (by decide),
    V2_keep m d main_arg1 (by decide) (by decide) (by decide) (by decide) (by decide)]
  try rfl

theorem held_rest_V3 (d : Dev nD) (g : Buf (Elt F) (oLoc d)) :
    (held (T d) (Pipeline.ucRefs τ sig \ T4) (V3 m d g) : sProp 𝕄) = held (T d) (Pipeline.ucRefs τ sig \ T4) (V2 m d) := by
  unfold held V3
  refine bigSep_congr fun b hb => ?_
  rw [Function.update_of_ne fun e => (Finset.mem_sdiff.mp hb).2 (by rw [e]; decide)]

/-- At the end the arguments are as launched. -/
theorem held_A5_V5 (d : Dev nD) (g : Buf (Elt F) (oLoc d)) : (held (T d) A5 (V5 m d g) : sProp 𝕄) = FIN m d := by
  rw [held_A5,
    V5_keep m d g main_arg0 (by decide) (by decide) (by decide) (by decide) (by decide) (by decide) (by decide) (by decide),
    V5_keep m d g main_arg1 (by decide) (by decide) (by decide) (by decide) (by decide) (by decide) (by decide) (by decide),
    V5_keep m d g main_arg2 (by decide) (by decide) (by decide) (by decide) (by decide) (by decide) (by decide) (by decide),
    V5_keep m d g main_arg3 (by decide) (by decide) (by decide) (by decide) (by decide) (by decide) (by decide) (by decide),
    V5_keep m d g main_arg4 (by decide) (by decide) (by decide) (by decide) (by decide) (by decide) (by decide) (by decide)]
  try rfl

/-- The tail of the TensorCore's handshake state before call `n`: its position on its done cell and the later calls' tokens and credit. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) :
    (K (F := F)).tcSt EH d n = iprop((∃ Wt, ⌜(K (F := F)).WBelow (T d) Wt (8 * n)⌝ ∗ owes (T d) ((K (F := F)).Otc d n) Wt) ∗ tcTail (F := F) d n) := rfl

/-- @main on device `d`'s TensorCore. -/
theorem hmain [∀ e, Nonempty (Elt F e)] (κ : GSem nD τ sig → ℕ) (d : Dev nD) :
    iprop((K (F := F)).ctx EH (P m (wCof m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [show (unscopedBufs d (fun b => m ((SparseCore.T d).loc b)) : sProp 𝕄) = held (SparseCore.T d) (Pipeline.ucRefs τ sig) (V0 m d) from
    Pipeline.unscopedBufs_held d (V0 m d), bigSep_univ_two]
  simp only [main, fn_pad.body, wp_bind, wp_pure]
  rw [tcSt_eq (F := F) d 0]
  iintro ⟨#Hctx, ⟨HOw, Htail⟩, ⟨Hb, Hheld, Hs0, Hprng⟩, ⟨Hg0, Ht0⟩, ⟨Hg1, Ht1⟩⟩
  ihave #Hlev := (SparseCore.Cfg.ctx_levAts κ) $$ Hctx
  -- the table's call
  iapply (wp_region0 (V0 m d) (V0 m d) 0 1 d _) $$ [Hb Hheld HOw Hg0 Ht0 Htail Hg1 Ht1]
  isplitl [Htail Hg1 Ht1]
  swap
  · isplitl [Hb]; · iexact Hb
    isplitl [Hheld HOw]
    · unfold TS
      isplitl [Hheld]; · iexact Hheld
      iexact HOw
    isplitr; · iexact Hlev
    isplitl [Hg0] <;> iassumption
  iintro ⟨Hb, HTS⟩
  unfold TS
  icases HTS with ⟨Hheld, HOw⟩
  -- the table flattened, the pad value made and converted, the table padded
  iapply (wp_hlo_within 𝒱 (SparseCore.T d) none Set.univ (op := opFlat) (S := Pipeline.ucRefs τ sig) hFlat (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opZero) (S := Pipeline.ucRefs τ sig) hZero (V := (opFlat (F := F)).result (V1 m d))) $$ [Hb Hheld]
  · isplitl [Hb]; · iexact Hb
    iexact Hheld
  iintro ⟨Hb, Hheld⟩
  rw [wp_ret]; imodintro
  iapply (wp_hlo_within 𝒱 (SparseCore.T d) none Set.univ (op := opCvt) (S := Pipeline.ucRefs τ sig) hCvt (V := (opZero (F := F)).result ((opFlat (F := F)).result (V1 m d)))) $$ [Hb Hheld]
  · isplitl [Hb]; · iexact Hb
    iexact Hheld
  iintro ⟨Hb, Hheld⟩
  rw [wp_ret]; imodintro
  iapply (wp_hlo_within 𝒱 (SparseCore.T d) none Set.univ (op := opPad) (S := Pipeline.ucRefs τ sig) hPad (V := (opCvt (F := F)).result ((opZero (F := F)).result ((opFlat (F := F)).result (V1 m d))))) $$ [Hb Hheld]
  · isplitl [Hb]; · iexact Hb
    iexact Hheld
  iintro ⟨Hb, Hheld⟩
  rw [wp_ret]; imodintro
  imodintro
  -- the SparseCore call: x, y, the table and the partial sums out of the held buffers, cut among the tiles
  ihave Hheld := (Entails.of_eq (show (held (SparseCore.T d) (Pipeline.ucRefs τ sig) ((opPad (F := F)).result ((opCvt (F := F)).result ((opZero (F := F)).result ((opFlat (F := F)).result (V1 m d))))) : sProp 𝕄)
      = held (SparseCore.T d) (Pipeline.ucRefs τ sig) (V2 m d) from rfl)) $$ Hheld
  ihave Hh := (Entails.of_eq (held_sub_split (SparseCore.T d) hT4 (V2 m d))) $$ Hheld
  icases Hh with ⟨H4, Hrest⟩
  ihave H4' := (Entails.of_eq (held_T4_V2 m d)) $$ H4
  ihave Hsp := (tiles_split d (m (xLoc d)) (m (yLoc d)) (wCof m d) (m (oLoc d))) $$ H4'
  icases Hsp with ⟨Hdrop, Htiles⟩
  iapply ((K (F := F)).wp_run (D (F := F)) 𝒱 (EH := EH) (P := P m (wCof m)) κ d 0) $$ [HOw Htail Htiles Hdrop Hrest Hb Hg1 Ht1]
  isplitr; · iexact Hctx
  isplitl [HOw Htail]
  · iapply (Entails.of_eq (tcSt_eq (F := F) d 0).symm)
    isplitl [HOw] <;> iassumption
  isplitl [Htiles]
  · iexact Htiles
  iintro ⟨Hst, Hdn⟩
  -- back: the tiles' quadruples rejoined, the partial sums at what the tiles left
  ihave Hj := (tiles_join d (m (xLoc d)) (m (yLoc d)) (wCof m d) (m (oLoc d))) $$ [Hdrop Hdn]
  · isplitl [Hdrop]; · iexact Hdrop
    iexact Hdn
  icases Hj with ⟨Hx, Hy, Hw, %g, Ho⟩
  ihave H4 := (Entails.of_eq (held_T4_V3 m d g).symm) $$ [Hx Hy Hw Ho]
  · isplitl [Hx]; · iexact Hx
    isplitl [Hy]; · iexact Hy
    isplitl [Hw] <;> iassumption
  ihave Hrest' := (Entails.of_eq (held_rest_V3 m d g).symm) $$ Hrest
  ihave Hheld := (Entails.of_eq (held_sub_split (SparseCore.T d) hT4 (V3 m d g)).symm) $$ [H4 Hrest']
  · isplitl [H4] <;> iassumption
  ihave Hst' := (Entails.of_eq (show (K (F := F)).tcSt EH d ((0 : Fin 1).val + 1) = _ from tcSt_eq (F := F) d 1)) $$ Hst
  icases Hst' with ⟨HOw, Htail⟩
  -- the mean's call
  iapply (wp_region1 (V0 m d) (V3 m d g) 0 1 d _) $$ [Hb Hheld HOw Hg1 Ht1 Htail]
  isplitl [Htail]
  swap
  · isplitl [Hb]; · iexact Hb
    isplitl [Hheld HOw]
    · unfold TS
      isplitl [Hheld]; · iexact Hheld
      iexact HOw
    isplitr; · iexact Hlev
    isplitl [Hg1] <;> iassumption
  iintro ⟨Hb, HTS⟩
  unfold TS
  icases HTS with ⟨Hheld, HOw⟩
  -- the result reshaped to a scalar
  iapply (wp_hlo_within 𝒱 (SparseCore.T d) none Set.univ (op := opOut) (S := Pipeline.ucRefs τ sig) hOut (V := V4 m d g)) $$ [Hb Hheld]
  · isplitl [Hb]; · iexact Hb
    iexact Hheld
  iintro ⟨Hb, Hheld⟩
  rw [wp_ret]; imodintro; imodintro
  isplitl [HOw Htail]
  · iapply (Entails.of_eq (tcSt_eq (F := F) d 1).symm)
    isplitl [HOw] <;> iassumption
  ihave Hheld := (Entails.of_eq (show (held (SparseCore.T d) (Pipeline.ucRefs τ sig) ((opOut (F := F)).result (V4 m d g)) : sProp 𝕄)
      = held (SparseCore.T d) (Pipeline.ucRefs τ sig) (V5 m d g) from rfl)) $$ Hheld
  ihave Hh := (Entails.of_eq (held_sub_split (SparseCore.T d) hA5 (V5 m d g))) $$ Hheld
  icases Hh with ⟨HA, -⟩
  iapply (Entails.of_eq (held_A5_V5 m d g)); iexact HA

def fq (d : Dev nD) (s' : Phys nD τ sig (Elt F)) : Prop :=
  s'.mem.mem (xLoc d) = m (xLoc d) ∧ s'.mem.mem (yLoc d) = m (yLoc d) ∧ s'.mem.mem (eLoc d) = m (eLoc d)
    ∧ s'.mem.mem (fLoc d) = m (fLoc d) ∧ s'.mem.mem (bLoc d) = m (bLoc d)

omit [FloatOps F] in
theorem agree_whole {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨Hx, Hy, He, Hf, Hb⟩, HSI⟩
  ihave H := (agree_whole (F := F) _ s') $$ [Hx HSI]
  · isplitl [Hx] <;> iassumption
  icases H with ⟨%h1, HSI⟩
  ihave H := (agree_whole (F := F) _ s') $$ [Hy HSI]
  · isplitl [Hy] <;> iassumption
  icases H with ⟨%h2, HSI⟩
  ihave H := (agree_whole (F := F) _ s') $$ [He HSI]
  · isplitl [He] <;> iassumption
  icases H with ⟨%h3, HSI⟩
  ihave H := (agree_whole (F := F) _ s') $$ [Hf HSI]
  · isplitl [Hf] <;> iassumption
  icases H with ⟨%h4, HSI⟩
  ihave H := (agree_whole (F := F) _ s') $$ [Hb HSI]
  · isplitl [Hb] <;> iassumption
  icases H with ⟨%h5, HSI⟩
  ipureintro; exact ⟨h1, h2, h3, h4, h5⟩

/-! ## The program's run -/

def QC : PUnit × MemSt nD τ sig (Elt F) → Prop := fun r => ∀ c : Dev nD,
  r.2.mem (xLoc c) = m (xLoc c) ∧ r.2.mem (yLoc c) = m (yLoc c) ∧ r.2.mem (eLoc c) = m (eLoc c) ∧ r.2.mem (fLoc c) = m (fLoc c) ∧ r.2.mem (bLoc c) = m (bLoc c)

/-- From a memory whose x and y are in range: every weakly fair execution of the threads terminates, nothing faulting,
    the five arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (wCof m)) facts v₀
    (fun q hq => match q with | 0 => nomatch hq)
    (fun q _ => match q with | 0 => tileObl m (wCof m) hpre)
    (fun q _ => match q with | 0 => SparseCore.Cfg.VecSplit.of_plain (vecSplit m (wCof m)))
    m ρ main (G (F := F)) (FIN m) (u₀ (F := F)) (sep_elim_left.trans (hu₀ m (wCof m))) (hmain m ρ) (fq m) (hfin m) (QC m) (fun _ h => h)

end Cert.Proof.KB

end
-- ==== Proof.KB.Frame.lean ====
/-
  The kernel program as printed's frame claim from its run: the precondition's integer part — every word of x in 0..9 and
  of y in 0..4, read signed — gives the unsigned bounds the tiles' checks need.
-/
import proofs.«205364_g71897752535391_cont_9to1_m_950_21_alg».proof.Proof.KB.Main
import proofs.«205364_g71897752535391_cont_9to1_m_950_21_alg».proof.Proof.Gen.Pre_input_domain
import Idealize.ShloMosaic.Lib.ReduceAll
import Idealize.ShloMosaic.Lib.ValueIdx

noncomputable section

namespace Cert.Proof.KB

open Cert.Kernel Cert.Kernel.Gen
open Idealize.ShloMosaic Idealize.ShloMosaic.ValueIdx Idealize.SL.Sem

variable {F : FTy → Type} [FloatOps F]

instance subsingleton_scalarIdx : Subsingleton Cert.Pre_input_domain.S_.Idx := ⟨fun a b => funext fun d => d.elim0⟩

/-- The integer part of the precondition, at any float instance. -/
theorem pre_ints (x : IVec Cert.Pre_input_domain.S16384x200 32) (y : IVec Cert.Pre_input_domain.S3276800 32)
    (e : FVec F Cert.Pre_input_domain.S10x4 .f32) (w : FVec F Cert.Pre_input_domain.S5x4 .f32) (b : FVec F Cert.Pre_input_domain.S5 .f32)
    (h : Cert.Pre_input_domain.fn (F := F) x y e w b = fun _ => 1#1) :
    (∀ i, 0 ≤ (x i).toInt ∧ (x i).toInt ≤ 9) ∧ (∀ i, 0 ≤ (y i).toInt ∧ (y i).toInt ≤ 4) := by
  have h0 := congrFun h ix0
  dsimp only [Cert.Pre_input_domain.fn, Cert.Pre_input_domain.fn_part1] at h0
  obtain ⟨h1, hy⟩ := IntOp.andi_eq_one.1 h0
  obtain ⟨h2, hx⟩ := IntOp.andi_eq_one.1 h1
  refine ⟨fun i => ?_, fun i => ?_⟩
  · obtain ⟨ha, hc⟩ := IntOp.andi_eq_one.1 (Host.reduce_andi_all _ _ _ _ ix0 hx i)
    exact ⟨IntOp.cmpi_sge.1 ha, IntOp.cmpi_sle.1 hc⟩
  · obtain ⟨ha, hc⟩ := IntOp.andi_eq_one.1 (Host.reduce_andi_all _ _ _ _ ix0 hy i)
    exact ⟨IntOp.cmpi_sge.1 ha, IntOp.cmpi_sle.1 hc⟩

/-- A 32-bit word that is between 0 and `n` read signed is at most `n` read unsigned. -/
theorem toNat_le_of_toInt (v : BitVec 32) (n : ℕ) (h0 : 0 ≤ v.toInt) (h1 : v.toInt ≤ n) : v.toNat ≤ n := by
  rw [BitVec.toInt_eq_toNat_cond] at h0 h1
  split at h0 <;> omega

/-- The precondition gives what the run asks of the launch memory. -/
theorem ok_of_pre (m : (ℓ : Loc nD τ sig) → Buf (Elt Bits) ℓ) (h : Cert.Pre_Kernel m) : PreOK (F := Bits) m := by
  intro d
  obtain ⟨hx, hy⟩ := pre_ints (F := Bits) _ _ _ _ _ (h d)
  exact ⟨fun j => toNat_le_of_toInt _ 9 (hx j).1 (hx j).2, fun j => toNat_le_of_toInt _ 4 (hy j).1 (hy j).2⟩

/-- `Cert.frame_Kernel` (Defs.lean). -/
theorem frame : Cert.frame_Kernel := fun m ρ hpre =>
  (θ_run Cert.Kernel.defs _ _).mono (fun _ h c => h c) (run_main (F := Bits) m ρ (ok_of_pre m hpre))

end Cert.Proof.KB

end
-- ==== Proof.RefRun.lean ====
import proofs.«205364_g71897752535391_cont_9to1_m_950_21_alg».proof.Defs
import proofs.«205364_g71897752535391_cont_9to1_m_950_21_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- An array of the given shape and element type over the float values `F`. -/
abbrev Arr (F : FTy → Type) (S : Shape) (e : EltTy) : Type := (⟨S, e⟩ : BufTy).Contents (Elt F)

/-! ## The stages, as pure functions of arrays -/

/-- The embedding lookup's index column: an index below zero moved up by the table's ten rows, then a trailing unit axis. -/
def takeIdx (x : Arr F S16384x200 .i32) : Arr F S16384x200x1 .i32 :=
  broadcastInDim S16384x200x1 ![0, 1] bcast_S16384x200_S16384x200x1_0_1
    (select (cmpi .slt x (broadcastInDim S16384x200 ![] bcast_S_S16384x200 (constantI S_ 32 0#32)))
      (addi x (broadcastInDim S16384x200 ![] bcast_S_S16384x200 (constantI S_ 32 10#32))) x)

/-- Whether the moved index lies in 0..9, per token. -/
def takeOk (x : Arr F S16384x200 .i32) : Arr F S16384x200 .i1 :=
  Host.reduce IntOp.andi
    (andi (cmpi .sge (takeIdx x) (broadcastInDim S16384x200x1 ![] bcast_S_S16384x200x1 (constantI S_ 32 0#32)))
      (cmpi .sle (takeIdx x) (broadcastInDim S16384x200x1 ![0, 1, 2] bcast_S1x1x1_S16384x200x1_0_1_2
        (broadcastInDim S1x1x1 ![2] bcast_S1_S1x1x1_2 (constantI S1 32 9#32)))))
    (constantI S_ 1 1#1) reducesTo_S16384x200x1_S16384x200_d2 h_S_

/-- The embedding rows of the tokens: the table's row at the index where it is in range, the filler word elsewhere. -/
def embed (x : Arr F S16384x200 .i32) (e : Arr F S10x4 .f32) : Arr F S16384x200x4 .f32 :=
  select (broadcastInDim S16384x200x4 ![0, 1] bcast_S16384x200_S16384x200x4_0_1 (takeOk x))
    (Host.gather gather_S10x4_S16384x200x1_S16384x200x4_2_0_n_n_0_2_14 e (takeIdx x))
    (broadcastInDim S16384x200x4 ![] bcast_S_S16384x200x4 (constant S_ .f32 0x7FC00000#32))

/-- The class scores: the embedding rows against the transposed weights, plus the bias. -/
def logits (emb : Arr F S16384x200x4 .f32) (w : Arr F S5x4 .f32) (b : Arr F S5 .f32) : Arr F S16384x200x5 .f32 :=
  addf (Host.dotGeneral dot_S16384x200x4_S4x5_S16384x200x5_2_0_01_1_n_n none emb (transpose S4x5 [1, 0] w transposes_S5x4_S4x5_1_0))
    (broadcastInDim S16384x200x5 ![0, 1, 2] bcast_S1x1x5_S16384x200x5_0_1_2 (broadcastInDim S1x1x5 ![2] bcast_S5_S1x1x5_2 b))

/-- The largest score of each token, from minus infinity. -/
def rowMax3 (z : Arr F S16384x200x5 .f32) : Arr F S16384x200 .f32 :=
  maximumf (broadcastInDim S16384x200 ![] bcast_S_S16384x200 (constant S_ .f32 0xFF800000#32))
    (Host.reduce FloatOps.maximumf z (constant S_ .f32 0xFF800000#32) reducesTo_S16384x200x5_S16384x200_d2 h_S_)

/-- The exponentials of the scores less their largest. -/
def shifted3 (z : Arr F S16384x200x5 .f32) : Arr F S16384x200x5 .f32 :=
  Host.exp (subf z (broadcastInDim S16384x200x5 ![0, 1, 2] bcast_S16384x200x1_S16384x200x5_0_1_2
    (broadcastInDim S16384x200x1 ![0, 1] bcast_S16384x200_S16384x200x1_0_1 (rowMax3 z))))

/-- The softmax of each token's scores. -/
def softmax3 (z : Arr F S16384x200x5 .f32) : Arr F S16384x200x5 .f32 :=
  Host.divf (shifted3 z) (broadcastInDim S16384x200x5 ![0, 1, 2] bcast_S16384x200x1_S16384x200x5_0_1_2
    (broadcastInDim S16384x200x1 ![0, 1] bcast_S16384x200_S16384x200x1_0_1
      (Host.reduceAdd (shifted3 z) (constant S_ .f32 0x00000000#32) reducesTo_S16384x200x5_S16384x200_d2 h_S_)))

/-- The tokens laid out in one axis. -/
def flat (p : Arr F S16384x200x5 .f32) : Arr F S3276800x5 .f32 :=
  shapeCast S3276800x5 p shapeCasts_S16384x200x5_S3276800x5

/-- The largest entry of each row, from minus infinity. -/
def rowMax2 (p : Arr F S3276800x5 .f32) : Arr F S3276800 .f32 :=
  maximumf (broadcastInDim S3276800 ![] bcast_S_S3276800 (constant S_ .f32 0xFF800000#32))
    (Host.reduce FloatOps.maximumf p (constant S_ .f32 0xFF800000#32) reducesTo_S3276800x5_S3276800_d1 h_S_)

/-- Each row less its largest entry. -/
def centred2 (p : Arr F S3276800x5 .f32) : Arr F S3276800x5 .f32 :=
  subf p (broadcastInDim S3276800x5 ![0, 1] bcast_S3276800x1_S3276800x5_0_1
    (broadcastInDim S3276800x1 ![0] bcast_S3276800_S3276800x1_0 (rowMax2 p)))

/-- The log-softmax of each row: the centred row less the logarithm of the sum of its exponentials. -/
def logSoftmax2 (p : Arr F S3276800x5 .f32) : Arr F S3276800x5 .f32 :=
  subf (centred2 p) (broadcastInDim S3276800x5 ![0, 1] bcast_S3276800x1_S3276800x5_0_1
    (Host.log (broadcastInDim S3276800x1 ![0] bcast_S3276800_S3276800x1_0
      (Host.reduceAdd (Host.exp (centred2 p)) (constant S_ .f32 0x00000000#32) reducesTo_S3276800x5_S3276800_d1 h_S_))))

/-- The labels as a column. -/
def yCol (y : Arr F S3276800 .i32) : Arr F S3276800x1 .i32 :=
  broadcastInDim S3276800x1 ![0] bcast_S3276800_S3276800x1_0 y

/-- The class lookup's index: a label below zero moved up by the five classes, with two trailing unit axes. -/
def pickIdx (y : Arr F S3276800 .i32) : Arr F S3276800x1x1 .i32 :=
  shapeCast S3276800x1x1
    (select (cmpi .slt (yCol y) (broadcastInDim S3276800x1 ![] bcast_S_S3276800x1 (constantI S_ 32 0#32)))
      (addi (yCol y) (broadcastInDim S3276800x1 ![] bcast_S_S3276800x1 (constantI S_ 32 5#32))) (yCol y))
    shapeCasts_S3276800x1_S3276800x1x1

/-- Whether the moved label lies in 0..4, per token. -/
def pickOk (y : Arr F S3276800 .i32) : Arr F S3276800x1 .i1 :=
  Host.reduce IntOp.andi
    (andi (cmpi .sge (pickIdx y) (broadcastInDim S3276800x1x1 ![] bcast_S_S3276800x1x1 (constantI S_ 32 0#32)))
      (cmpi .sle (pickIdx y) (broadcastInDim S3276800x1x1 ![0, 1, 2] bcast_S1x1x1_S3276800x1x1_0_1_2
        (broadcastInDim S1x1x1 ![2] bcast_S1_S1x1x1_2 (constantI S1 32 4#32)))))
    (constantI S_ 1 1#1) reducesTo_S3276800x1x1_S3276800x1_d2 h_S_

/-- Each row's entry at its label where that is in range, the filler word elsewhere. -/
def picked (lp : Arr F S3276800x5 .f32) (y : Arr F S3276800 .i32) : Arr F S3276800x1 .f32 :=
  select (pickOk y) (Host.gather gather_S3276800x5_S3276800x1x1_S3276800x1_n_1_0_0_1_2_11 lp (pickIdx y))
    (broadcastInDim S3276800x1 ![] bcast_S_S3276800x1 (constant S_ .f32 0x7FC00000#32))

/-- The sum of the negated entries over the token count. -/
def meanNeg (q : Arr F S3276800x1 .f32) : Arr F S_ .f32 :=
  Host.divf (Host.reduceAdd (Host.negf (shapeCast S3276800 q shapeCasts_S3276800x1_S3276800)) (constant S_ .f32 0x00000000#32) reducesTo_S3276800_S_d0 h_S_)
    (constant S_ .f32 0x4A480000#32)

/-- The reference's result as one pure function of its five arguments, at any float values. -/
def refValF (x : Arr F S16384x200 .i32) (y : Arr F S3276800 .i32) (e : Arr F S10x4 .f32) (w : Arr F S5x4 .f32) (b : Arr F S5 .f32) :
    Arr F S_ .f32 :=
  meanNeg (picked (logSoftmax2 (flat (softmax3 (logits (embed x e) w b)))) y)

/-! ## The operations and the run -/

/-- The reference's operations in order, the three outlined calls unfolded at their call sites: the
    embedding lookup's twenty-three (with the nested select of the index wrap), the scores and their
    softmax, the log-softmax's fifteen, the class lookup's twenty-two after the labels' column, and the
    mean of the negated picks. -/
abbrev ops : List (HloOp τ sig (Elt F)) :=
  [ StableHlo.TRef.nullary main_call0.c (constantI S_ 32 0#32),
    StableHlo.TRef.unary main_call0.c main_call0.v0 (broadcastInDim S16384x200 ![] bcast_S_S16384x200),
    StableHlo.TRef.binary (.of main_arg0 : TRef sig ⟨S16384x200, .i32⟩) main_call0.v0 main_call0.v1 (cmpi .slt),
    StableHlo.TRef.nullary main_call0.c_0 (constantI S_ 32 10#32),
    StableHlo.TRef.unary main_call0.c_0 main_call0.v2 (broadcastInDim S16384x200 ![] bcast_S_S16384x200),
    StableHlo.TRef.binary (.of main_arg0 : TRef sig ⟨S16384x200, .i32⟩) main_call0.v2 main_call0.v3 addi,
    StableHlo.TRef.ternary main_call0.v1 main_call0.v3 (.of main_arg0 : TRef sig ⟨S16384x200, .i32⟩) main_call0.call0.v0 select,
    StableHlo.TRef.unary main_call0.call0.v0 main_call0.v5 (broadcastInDim S16384x200x1 ![0, 1] bcast_S16384x200_S16384x200x1_0_1),
    StableHlo.TRef.nullary main_call0.c_1 (constantI S1 32 9#32),
    StableHlo.TRef.nullary main_call0.c_2 (constantI S_ 32 0#32),
    StableHlo.TRef.unary main_call0.c_2 main_call0.v6 (broadcastInDim S16384x200x1 ![] bcast_S_S16384x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S16384x200x1 ![0, 1, 2] bcast_S1x1x1_S16384x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x200x1_S16384x200_d2 h_S_),
    StableHlo.TRef.binary (.of main_arg2 : TRef sig ⟨S10x4, .f32⟩) main_call0.v5 main_call0.v13 (fun x i => Host.gather gather_S10x4_S16384x200x1_S16384x200x4_2_0_n_n_0_2_14 x i),
    StableHlo.TRef.unary main_call0.v12 main_call0.v14 (broadcastInDim S16384x200x4 ![0, 1] bcast_S16384x200_S16384x200x4_0_1),
    StableHlo.TRef.nullary main_call0.cst (constant S_ .f32 0x7FC00000#32),
    StableHlo.TRef.unary main_call0.cst main_call0.v15 (broadcastInDim S16384x200x4 ![] bcast_S_S16384x200x4),
    StableHlo.TRef.ternary main_call0.v14 main_call0.v13 main_call0.v15 main_call0.v16 select,
    StableHlo.unary main_arg3 main_v1 ((transpose S4x5 [1, 0] · transposes_S5x4_S4x5_1_0) : (⟨S5x4, .f32⟩ : BufTy).Contents (Elt F) → (⟨S4x5, .f32⟩ : BufTy).Contents (Elt F)),
    StableHlo.binary main_v0 main_v1 main_v2 ((fun l r => Host.dotGeneral dot_S16384x200x4_S4x5_S16384x200x5_2_0_01_1_n_n none l r) : (⟨S16384x200x4, .f32⟩ : BufTy).Contents (Elt F) → (⟨S4x5, .f32⟩ : BufTy).Contents (Elt F) → (⟨S16384x200x5, .f32⟩ : BufTy).Contents (Elt F)),
    StableHlo.unary main_arg4 main_v3 (broadcastInDim S1x1x5 ![2] bcast_S5_S1x1x5_2 : (⟨S5, .f32⟩ : BufTy).Contents (Elt F) → (⟨S1x1x5, .f32⟩ : BufTy).Contents (Elt F)),
    StableHlo.unary main_v3 main_v4 (broadcastInDim S16384x200x5 ![0, 1, 2] bcast_S1x1x5_S16384x200x5_0_1_2 : (⟨S1x1x5, .f32⟩ : BufTy).Contents (Elt F) → (⟨S16384x200x5, .f32⟩ : BufTy).Contents (Elt F)),
    StableHlo.binary main_v2 main_v4 main_v5 (addf : (⟨S16384x200x5, .f32⟩ : BufTy).Contents (Elt F) → (⟨S16384x200x5, .f32⟩ : BufTy).Contents (Elt F) → (⟨S16384x200x5, .f32⟩ : BufTy).Contents (Elt F)),
    StableHlo.nullary main_cst (constant S_ .f32 0xFF800000#32),
    StableHlo.binary main_v5 main_cst main_v6 ((fun x v => Host.reduce FloatOps.maximumf x v reducesTo_S16384x200x5_S16384x200_d2 h_S_) : (⟨S16384x200x5, .f32⟩ : BufTy).Contents (Elt F) → (⟨S_, .f32⟩ : BufTy).Contents (Elt F) → (⟨S16384x200, .f32⟩ : BufTy).Contents (Elt F)),
    StableHlo.nullary main_cst_0 (constant S_ .f32 0xFF800000#32),
    StableHlo.unary main_cst_0 main_v7 (broadcastInDim S16384x200 ![] bcast_S_S16384x200 : (⟨S_, .f32⟩ : BufTy).Contents (Elt F) → (⟨S16384x200, .f32⟩ : BufTy).Contents (Elt F)),
    StableHlo.binary main_v7 main_v6 main_v8 (maximumf : (⟨S16384x200, .f32⟩ : BufTy).Contents (Elt F) → (⟨S16384x200, .f32⟩ : BufTy).Contents (Elt F) → (⟨S16384x200, .f32⟩ : BufTy).Contents (Elt F)),
    StableHlo.unary main_v8 main_v9 (broadcastInDim S16384x200x1 ![0, 1] bcast_S16384x200_S16384x200x1_0_1 : (⟨S16384x200, .f32⟩ : BufTy).Contents (Elt F) → (⟨S16384x200x1, .f32⟩ : BufTy).Contents (Elt F)),
    StableHlo.unary main_v9 main_v10 (broadcastInDim S16384x200x5 ![0, 1, 2] bcast_S16384x200x1_S16384x200x5_0_1_2 : (⟨S16384x200x1, .f32⟩ : BufTy).Contents (Elt F) → (⟨S16384x200x5, .f32⟩ : BufTy).Contents (Elt F)),
    StableHlo.binary main_v5 main_v10 main_v11 (subf : (⟨S16384x200x5, .f32⟩ : BufTy).Contents (Elt F) → (⟨S16384x200x5, .f32⟩ : BufTy).Contents (Elt F) → (⟨S16384x200x5, .f32⟩ : BufTy).Contents (Elt F)),
    StableHlo.unary main_v11 main_v12 (Host.exp : (⟨S16384x200x5, .f32⟩ : BufTy).Contents (Elt F) → (⟨S16384x200x5, .f32⟩ : BufTy).Contents (Elt F)),
    StableHlo.nullary main_cst_1 (constant S_ .f32 0x00000000#32),
    StableHlo.binary main_v12 main_cst_1 main_v13 ((fun x v => Host.reduceAdd x v reducesTo_S16384x200x5_S16384x200_d2 h_S_) : (⟨S16384x200x5, .f32⟩ : BufTy).Contents (Elt F) → (⟨S_, .f32⟩ : BufTy).Contents (Elt F) → (⟨S16384x200, .f32⟩ : BufTy).Contents (Elt F)),
    StableHlo.unary main_v13 main_v14 (broadcastInDim S16384x200x1 ![0, 1] bcast_S16384x200_S16384x200x1_0_1 : (⟨S16384x200, .f32⟩ : BufTy).Contents (Elt F) → (⟨S16384x200x1, .f32⟩ : BufTy).Contents (Elt F)),
    StableHlo.unary main_v14 main_v15 (broadcastInDim S16384x200x5 ![0, 1, 2] bcast_S16384x200x1_S16384x200x5_0_1_2 : (⟨S16384x200x1, .f32⟩ : BufTy).Contents (Elt F) → (⟨S16384x200x5, .f32⟩ : BufTy).Contents (Elt F)),
    StableHlo.binary main_v12 main_v15 main_v16 (Host.divf : (⟨S16384x200x5, .f32⟩ : BufTy).Contents (Elt F) → (⟨S16384x200x5, .f32⟩ : BufTy).Contents (Elt F) → (⟨S16384x200x5, .f32⟩ : BufTy).Contents (Elt F)),
    StableHlo.reshape main_v16 main_v17 rfl shapeCasts_S16384x200x5_S3276800x5,
    StableHlo.TRef.nullary main_call1.cst (constant S_ .f32 0xFF800000#32),
    StableHlo.TRef.binary (.of main_v17 : TRef sig ⟨S3276800x5, .f32⟩) main_call1.cst main_call1.v0 (fun x v => Host.reduce FloatOps.maximumf x v reducesTo_S3276800x5_S3276800_d1 h_S_),
    StableHlo.TRef.nullary main_call1.cst_0 (constant S_ .f32 0xFF800000#32),
    StableHlo.TRef.unary main_call1.cst_0 main_call1.v1 (broadcastInDim S3276800 ![] bcast_S_S3276800),
    StableHlo.TRef.binary main_call1.v1 main_call1.v0 main_call1.v2 maximumf,
    StableHlo.TRef.unary main_call1.v2 main_call1.v3 (broadcastInDim S3276800x1 ![0] bcast_S3276800_S3276800x1_0),
    StableHlo.TRef.unary main_call1.v3 main_call1.v4 (broadcastInDim S3276800x5 ![0, 1] bcast_S3276800x1_S3276800x5_0_1),
    StableHlo.TRef.binary (.of main_v17 : TRef sig ⟨S3276800x5, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S3276800x5_S3276800_d1 h_S_),
    StableHlo.TRef.unary main_call1.v7 main_call1.v8 (broadcastInDim S3276800x1 ![0] bcast_S3276800_S3276800x1_0),
    StableHlo.TRef.unary main_call1.v8 main_call1.v9 Host.log,
    StableHlo.TRef.unary main_call1.v9 main_call1.v10 (broadcastInDim S3276800x5 ![0, 1] bcast_S3276800x1_S3276800x5_0_1),
    StableHlo.TRef.binary main_call1.v5 main_call1.v10 main_call1.v11 subf,
    StableHlo.unary main_arg1 main_v19 (broadcastInDim S3276800x1 ![0] bcast_S3276800_S3276800x1_0 : (⟨S3276800, .i32⟩ : BufTy).Contents (Elt F) → (⟨S3276800x1, .i32⟩ : BufTy).Contents (Elt F)),
    StableHlo.TRef.nullary main_call2.c (constantI S_ 32 0#32),
    StableHlo.TRef.unary main_call2.c main_call2.v0 (broadcastInDim S3276800x1 ![] bcast_S_S3276800x1),
    StableHlo.TRef.binary (.of main_v19 : TRef sig ⟨S3276800x1, .i32⟩) main_call2.v0 main_call2.v1 (cmpi .slt),
    StableHlo.TRef.nullary main_call2.c_0 (constantI S_ 32 5#32),
    StableHlo.TRef.unary main_call2.c_0 main_call2.v2 (broadcastInDim S3276800x1 ![] bcast_S_S3276800x1),
    StableHlo.TRef.binary (.of main_v19 : TRef sig ⟨S3276800x1, .i32⟩) main_call2.v2 main_call2.v3 addi,
    StableHlo.TRef.ternary main_call2.v1 main_call2.v3 (.of main_v19 : TRef sig ⟨S3276800x1, .i32⟩) main_call2.v4 select,
    StableHlo.TRef.reshape main_call2.v4 main_call2.v5 rfl shapeCasts_S3276800x1_S3276800x1x1,
    StableHlo.TRef.nullary main_call2.c_1 (constantI S1 32 4#32),
    StableHlo.TRef.nullary main_call2.c_2 (constantI S_ 32 0#32),
    StableHlo.TRef.unary main_call2.c_2 main_call2.v6 (broadcastInDim S3276800x1x1 ![] bcast_S_S3276800x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S3276800x1x1 ![0, 1, 2] bcast_S1x1x1_S3276800x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S3276800x1x1_S3276800x1_d2 h_S_),
    StableHlo.TRef.binary (.of main_v18 : TRef sig ⟨S3276800x5, .f32⟩) main_call2.v5 main_call2.v13 (fun x i => Host.gather gather_S3276800x5_S3276800x1x1_S3276800x1_n_1_0_0_1_2_11 x i),
    StableHlo.TRef.nullary main_call2.cst (constant S_ .f32 0x7FC00000#32),
    StableHlo.TRef.unary main_call2.cst main_call2.v14 (broadcastInDim S3276800x1 ![] bcast_S_S3276800x1),
    StableHlo.TRef.ternary main_call2.v12 main_call2.v13 main_call2.v14 main_call2.v15 select,
    StableHlo.reshape main_v20 main_v21 rfl shapeCasts_S3276800x1_S3276800,
    StableHlo.unary main_v21 main_v22 (Host.negf : (⟨S3276800, .f32⟩ : BufTy).Contents (Elt F) → (⟨S3276800, .f32⟩ : BufTy).Contents (Elt F)),
    StableHlo.nullary main_cst_2 (constant S_ .f32 0x00000000#32),
    StableHlo.binary main_v22 main_cst_2 main_v23 ((fun x v => Host.reduceAdd x v reducesTo_S3276800_S_d0 h_S_) : (⟨S3276800, .f32⟩ : BufTy).Contents (Elt F) → (⟨S_, .f32⟩ : BufTy).Contents (Elt F) → (⟨S_, .f32⟩ : BufTy).Contents (Elt F)),
    StableHlo.nullary main_cst_3 (constant S_ .f32 0x4A480000#32),
    StableHlo.binary main_v23 main_cst_3 main_v24 (Host.divf : (⟨S_, .f32⟩ : BufTy).Contents (Elt F) → (⟨S_, .f32⟩ : BufTy).Contents (Elt F) → (⟨S_, .f32⟩ : BufTy).Contents (Elt F)) ]

/-- The embedding lookup's operations. -/
abbrev opsA : List (HloOp τ sig (Elt F)) :=
  [ StableHlo.TRef.nullary main_call0.c (constantI S_ 32 0#32),
    StableHlo.TRef.unary main_call0.c main_call0.v0 (broadcastInDim S16384x200 ![] bcast_S_S16384x200),
    StableHlo.TRef.binary (.of main_arg0 : TRef sig ⟨S16384x200, .i32⟩) main_call0.v0 main_call0.v1 (cmpi .slt),
    StableHlo.TRef.nullary main_call0.c_0 (constantI S_ 32 10#32),
    StableHlo.TRef.unary main_call0.c_0 main_call0.v2 (broadcastInDim S16384x200 ![] bcast_S_S16384x200),
    StableHlo.TRef.binary (.of main_arg0 : TRef sig ⟨S16384x200, .i32⟩) main_call0.v2 main_call0.v3 addi,
    StableHlo.TRef.ternary main_call0.v1 main_call0.v3 (.of main_arg0 : TRef sig ⟨S16384x200, .i32⟩) main_call0.call0.v0 select,
    StableHlo.TRef.unary main_call0.call0.v0 main_call0.v5 (broadcastInDim S16384x200x1 ![0, 1] bcast_S16384x200_S16384x200x1_0_1),
    StableHlo.TRef.nullary main_call0.c_1 (constantI S1 32 9#32),
    StableHlo.TRef.nullary main_call0.c_2 (constantI S_ 32 0#32),
    StableHlo.TRef.unary main_call0.c_2 main_call0.v6 (broadcastInDim S16384x200x1 ![] bcast_S_S16384x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S16384x200x1 ![0, 1, 2] bcast_S1x1x1_S16384x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x200x1_S16384x200_d2 h_S_),
    StableHlo.TRef.binary (.of main_arg2 : TRef sig ⟨S10x4, .f32⟩) main_call0.v5 main_call0.v13 (fun x i => Host.gather gather_S10x4_S16384x200x1_S16384x200x4_2_0_n_n_0_2_14 x i),
    StableHlo.TRef.unary main_call0.v12 main_call0.v14 (broadcastInDim S16384x200x4 ![0, 1] bcast_S16384x200_S16384x200x4_0_1),
    StableHlo.TRef.nullary main_call0.cst (constant S_ .f32 0x7FC00000#32),
    StableHlo.TRef.unary main_call0.cst main_call0.v15 (broadcastInDim S16384x200x4 ![] bcast_S_S16384x200x4),
    StableHlo.TRef.ternary main_call0.v14 main_call0.v13 main_call0.v15 main_call0.v16 select ]

/-- The scores' and the softmax's operations, to the flattened probabilities. -/
abbrev opsB : List (HloOp τ sig (Elt F)) :=
  [ StableHlo.unary main_arg3 main_v1 ((transpose S4x5 [1, 0] · transposes_S5x4_S4x5_1_0) : (⟨S5x4, .f32⟩ : BufTy).Contents (Elt F) → (⟨S4x5, .f32⟩ : BufTy).Contents (Elt F)),
    StableHlo.binary main_v0 main_v1 main_v2 ((fun l r => Host.dotGeneral dot_S16384x200x4_S4x5_S16384x200x5_2_0_01_1_n_n none l r) : (⟨S16384x200x4, .f32⟩ : BufTy).Contents (Elt F) → (⟨S4x5, .f32⟩ : BufTy).Contents (Elt F) → (⟨S16384x200x5, .f32⟩ : BufTy).Contents (Elt F)),
    StableHlo.unary main_arg4 main_v3 (broadcastInDim S1x1x5 ![2] bcast_S5_S1x1x5_2 : (⟨S5, .f32⟩ : BufTy).Contents (Elt F) → (⟨S1x1x5, .f32⟩ : BufTy).Contents (Elt F)),
    StableHlo.unary main_v3 main_v4 (broadcastInDim S16384x200x5 ![0, 1, 2] bcast_S1x1x5_S16384x200x5_0_1_2 : (⟨S1x1x5, .f32⟩ : BufTy).Contents (Elt F) → (⟨S16384x200x5, .f32⟩ : BufTy).Contents (Elt F)),
    StableHlo.binary main_v2 main_v4 main_v5 (addf : (⟨S16384x200x5, .f32⟩ : BufTy).Contents (Elt F) → (⟨S16384x200x5, .f32⟩ : BufTy).Contents (Elt F) → (⟨S16384x200x5, .f32⟩ : BufTy).Contents (Elt F)),
    StableHlo.nullary main_cst (constant S_ .f32 0xFF800000#32),
    StableHlo.binary main_v5 main_cst main_v6 ((fun x v => Host.reduce FloatOps.maximumf x v reducesTo_S16384x200x5_S16384x200_d2 h_S_) : (⟨S16384x200x5, .f32⟩ : BufTy).Contents (Elt F) → (⟨S_, .f32⟩ : BufTy).Contents (Elt F) → (⟨S16384x200, .f32⟩ : BufTy).Contents (Elt F)),
    StableHlo.nullary main_cst_0 (constant S_ .f32 0xFF800000#32),
    StableHlo.unary main_cst_0 main_v7 (broadcastInDim S16384x200 ![] bcast_S_S16384x200 : (⟨S_, .f32⟩ : BufTy).Contents (Elt F) → (⟨S16384x200, .f32⟩ : BufTy).Contents (Elt F)),
    StableHlo.binary main_v7 main_v6 main_v8 (maximumf : (⟨S16384x200, .f32⟩ : BufTy).Contents (Elt F) → (⟨S16384x200, .f32⟩ : BufTy).Contents (Elt F) → (⟨S16384x200, .f32⟩ : BufTy).Contents (Elt F)),
    StableHlo.unary main_v8 main_v9 (broadcastInDim S16384x200x1 ![0, 1] bcast_S16384x200_S16384x200x1_0_1 : (⟨S16384x200, .f32⟩ : BufTy).Contents (Elt F) → (⟨S16384x200x1, .f32⟩ : BufTy).Contents (Elt F)),
    StableHlo.unary main_v9 main_v10 (broadcastInDim S16384x200x5 ![0, 1, 2] bcast_S16384x200x1_S16384x200x5_0_1_2 : (⟨S16384x200x1, .f32⟩ : BufTy).Contents (Elt F) → (⟨S16384x200x5, .f32⟩ : BufTy).Contents (Elt F)),
    StableHlo.binary main_v5 main_v10 main_v11 (subf : (⟨S16384x200x5, .f32⟩ : BufTy).Contents (Elt F) → (⟨S16384x200x5, .f32⟩ : BufTy).Contents (Elt F) → (⟨S16384x200x5, .f32⟩ : BufTy).Contents (Elt F)),
    StableHlo.unary main_v11 main_v12 (Host.exp : (⟨S16384x200x5, .f32⟩ : BufTy).Contents (Elt F) → (⟨S16384x200x5, .f32⟩ : BufTy).Contents (Elt F)),
    StableHlo.nullary main_cst_1 (constant S_ .f32 0x00000000#32),
    StableHlo.binary main_v12 main_cst_1 main_v13 ((fun x v => Host.reduceAdd x v reducesTo_S16384x200x5_S16384x200_d2 h_S_) : (⟨S16384x200x5, .f32⟩ : BufTy).Contents (Elt F) → (⟨S_, .f32⟩ : BufTy).Contents (Elt F) → (⟨S16384x200, .f32⟩ : BufTy).Contents (Elt F)),
    StableHlo.unary main_v13 main_v14 (broadcastInDim S16384x200x1 ![0, 1] bcast_S16384x200_S16384x200x1_0_1 : (⟨S16384x200, .f32⟩ : BufTy).Contents (Elt F) → (⟨S16384x200x1, .f32⟩ : BufTy).Contents (Elt F)),
    StableHlo.unary main_v14 main_v15 (broadcastInDim S16384x200x5 ![0, 1, 2] bcast_S16384x200x1_S16384x200x5_0_1_2 : (⟨S16384x200x1, .f32⟩ : BufTy).Contents (Elt F) → (⟨S16384x200x5, .f32⟩ : BufTy).Contents (Elt F)),
    StableHlo.binary main_v12 main_v15 main_v16 (Host.divf : (⟨S16384x200x5, .f32⟩ : BufTy).Contents (Elt F) → (⟨S16384x200x5, .f32⟩ : BufTy).Contents (Elt F) → (⟨S16384x200x5, .f32⟩ : BufTy).Contents (Elt F)),
    StableHlo.reshape main_v16 main_v17 rfl shapeCasts_S16384x200x5_S3276800x5 ]

/-- The log-softmax's operations. -/
abbrev opsC : List (HloOp τ sig (Elt F)) :=
  [ StableHlo.TRef.nullary main_call1.cst (constant S_ .f32 0xFF800000#32),
    StableHlo.TRef.binary (.of main_v17 : TRef sig ⟨S3276800x5, .f32⟩) main_call1.cst main_call1.v0 (fun x v => Host.reduce FloatOps.maximumf x v reducesTo_S3276800x5_S3276800_d1 h_S_),
    StableHlo.TRef.nullary main_call1.cst_0 (constant S_ .f32 0xFF800000#32),
    StableHlo.TRef.unary main_call1.cst_0 main_call1.v1 (broadcastInDim S3276800 ![] bcast_S_S3276800),
    StableHlo.TRef.binary main_call1.v1 main_call1.v0 main_call1.v2 maximumf,
    StableHlo.TRef.unary main_call1.v2 main_call1.v3 (broadcastInDim S3276800x1 ![0] bcast_S3276800_S3276800x1_0),
    StableHlo.TRef.unary main_call1.v3 main_call1.v4 (broadcastInDim S3276800x5 ![0, 1] bcast_S3276800x1_S3276800x5_0_1),
    StableHlo.TRef.binary (.of main_v17 : TRef sig ⟨S3276800x5, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S3276800x5_S3276800_d1 h_S_),
    StableHlo.TRef.unary main_call1.v7 main_call1.v8 (broadcastInDim S3276800x1 ![0] bcast_S3276800_S3276800x1_0),
    StableHlo.TRef.unary main_call1.v8 main_call1.v9 Host.log,
    StableHlo.TRef.unary main_call1.v9 main_call1.v10 (broadcastInDim S3276800x5 ![0, 1] bcast_S3276800x1_S3276800x5_0_1),
    StableHlo.TRef.binary main_call1.v5 main_call1.v10 main_call1.v11 subf ]

/-- The labels' column and the class lookup's operations. -/
abbrev opsD : List (HloOp τ sig (Elt F)) :=
  [ StableHlo.unary main_arg1 main_v19 (broadcastInDim S3276800x1 ![0] bcast_S3276800_S3276800x1_0 : (⟨S3276800, .i32⟩ : BufTy).Contents (Elt F) → (⟨S3276800x1, .i32⟩ : BufTy).Contents (Elt F)),
    StableHlo.TRef.nullary main_call2.c (constantI S_ 32 0#32),
    StableHlo.TRef.unary main_call2.c main_call2.v0 (broadcastInDim S3276800x1 ![] bcast_S_S3276800x1),
    StableHlo.TRef.binary (.of main_v19 : TRef sig ⟨S3276800x1, .i32⟩) main_call2.v0 main_call2.v1 (cmpi .slt),
    StableHlo.TRef.nullary main_call2.c_0 (constantI S_ 32 5#32),
    StableHlo.TRef.unary main_call2.c_0 main_call2.v2 (broadcastInDim S3276800x1 ![] bcast_S_S3276800x1),
    StableHlo.TRef.binary (.of main_v19 : TRef sig ⟨S3276800x1, .i32⟩) main_call2.v2 main_call2.v3 addi,
    StableHlo.TRef.ternary main_call2.v1 main_call2.v3 (.of main_v19 : TRef sig ⟨S3276800x1, .i32⟩) main_call2.v4 select,
    StableHlo.TRef.reshape main_call2.v4 main_call2.v5 rfl shapeCasts_S3276800x1_S3276800x1x1,
    StableHlo.TRef.nullary main_call2.c_1 (constantI S1 32 4#32),
    StableHlo.TRef.nullary main_call2.c_2 (constantI S_ 32 0#32),
    StableHlo.TRef.unary main_call2.c_2 main_call2.v6 (broadcastInDim S3276800x1x1 ![] bcast_S_S3276800x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S3276800x1x1 ![0, 1, 2] bcast_S1x1x1_S3276800x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S3276800x1x1_S3276800x1_d2 h_S_),
    StableHlo.TRef.binary (.of main_v18 : TRef sig ⟨S3276800x5, .f32⟩) main_call2.v5 main_call2.v13 (fun x i => Host.gather gather_S3276800x5_S3276800x1x1_S3276800x1_n_1_0_0_1_2_11 x i),
    StableHlo.TRef.nullary main_call2.cst (constant S_ .f32 0x7FC00000#32),
    StableHlo.TRef.unary main_call2.cst main_call2.v14 (broadcastInDim S3276800x1 ![] bcast_S_S3276800x1),
    StableHlo.TRef.ternary main_call2.v12 main_call2.v13 main_call2.v14 main_call2.v15 select ]

/-- The mean's operations. -/
abbrev opsE : List (HloOp τ sig (Elt F)) :=
  [ StableHlo.reshape main_v20 main_v21 rfl shapeCasts_S3276800x1_S3276800,
    StableHlo.unary main_v21 main_v22 (Host.negf : (⟨S3276800, .f32⟩ : BufTy).Contents (Elt F) → (⟨S3276800, .f32⟩ : BufTy).Contents (Elt F)),
    StableHlo.nullary main_cst_2 (constant S_ .f32 0x00000000#32),
    StableHlo.binary main_v22 main_cst_2 main_v23 ((fun x v => Host.reduceAdd x v reducesTo_S3276800_S_d0 h_S_) : (⟨S3276800, .f32⟩ : BufTy).Contents (Elt F) → (⟨S_, .f32⟩ : BufTy).Contents (Elt F) → (⟨S_, .f32⟩ : BufTy).Contents (Elt F)),
    StableHlo.nullary main_cst_3 (constant S_ .f32 0x4A480000#32),
    StableHlo.binary main_v23 main_cst_3 main_v24 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    reshape_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., reshape_bufs_sub .., unary_bufs_sub .., nullary_bufs_sub ..,
    binary_bufs_sub .., nullary_bufs_sub .., binary_bufs_sub ..⟩

/-- Every weakly fair execution of @main terminates with every buffer at the fold of the operations'
    results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem ops_eq : (ops : List (HloOp τ sig (Elt F))) = opsA ++ (opsB ++ (opsC ++ (opsD ++ opsE))) := rfl

/-- Contents moved to a typed reference's buffer type and back are unchanged. -/
theorem ofBuf_toBuf {T : BufTy} (x : TRef sig T) (v : T.Contents (Elt F)) : x.ofBuf (x.toBuf v) = v := by
  obtain ⟨r, h, h1, h2⟩ := x
  subst h
  rfl

theorem ofBuf_main_arg0 (p1 p2 p3) (v : (main_arg0 : Ref sig .tc).ty.Contents (Elt F)) :
    (TRef.of main_arg0 p1 p2 p3 : TRef sig ⟨S16384x200, .i32⟩).ofBuf v = v := rfl

theorem ofBuf_main_arg2 (p1 p2 p3) (v : (main_arg2 : Ref sig .tc).ty.Contents (Elt F)) :
    (TRef.of main_arg2 p1 p2 p3 : TRef sig ⟨S10x4, .f32⟩).ofBuf v = v := rfl

theorem ofBuf_main_v17 (p1 p2 p3) (v : (main_v17 : Ref sig .tc).ty.Contents (Elt F)) :
    (TRef.of main_v17 p1 p2 p3 : TRef sig ⟨S3276800x5, .f32⟩).ofBuf v = v := rfl

theorem ofBuf_main_v18 (p1 p2 p3) (v : (main_v18 : Ref sig .tc).ty.Contents (Elt F)) :
    (TRef.of main_v18 p1 p2 p3 : TRef sig ⟨S3276800x5, .f32⟩).ofBuf v = v := rfl

theorem ofBuf_main_v19 (p1 p2 p3) (v : (main_v19 : Ref sig .tc).ty.Contents (Elt F)) :
    (TRef.of main_v19 p1 p2 p3 : TRef sig ⟨S3276800x1, .i32⟩).ofBuf v = v := rfl

theorem toBuf_main_v0 (p1 p2 p3) (v : Arr F S16384x200x4 .f32) :
    (TRef.of main_v0 p1 p2 p3 : TRef sig ⟨S16384x200x4, .f32⟩).toBuf v = v := rfl

theorem toBuf_main_v18 (p1 p2 p3) (v : Arr F S3276800x5 .f32) :
    (TRef.of main_v18 p1 p2 p3 : TRef sig ⟨S3276800x5, .f32⟩).toBuf v = v := rfl

theorem toBuf_main_v20 (p1 p2 p3) (v : Arr F S3276800x1 .f32) :
    (TRef.of main_v20 p1 p2 p3 : TRef sig ⟨S3276800x1, .f32⟩).toBuf v = v := rfl

set_option maxRecDepth 16384 in
/-- The embedding lookup's operations leave the tokens' embedding rows. -/
theorem A_val (V : Valuation τ sig (Elt F)) :
    after opsA V (main_v0 : DevRef τ sig) = embed (V (main_arg0 : DevRef τ sig)) (V (main_arg2 : DevRef τ sig)) := by
  after_results_simp
  simp only [ofBuf_toBuf, ofBuf_main_arg0, ofBuf_main_arg2, toBuf_main_v0]
  unfold embed takeOk takeIdx
  rfl
theorem A_keep_arg1 (V : Valuation τ sig (Elt F)) : after opsA V (main_arg1 : DevRef τ sig) = V (main_arg1 : DevRef τ sig) := by
  after_results_simp
theorem A_keep_arg3 (V : Valuation τ sig (Elt F)) : after opsA V (main_arg3 : DevRef τ sig) = V (main_arg3 : DevRef τ sig) := by
  after_results_simp
theorem A_keep_arg4 (V : Valuation τ sig (Elt F)) : after opsA V (main_arg4 : DevRef τ sig) = V (main_arg4 : DevRef τ sig) := by
  after_results_simp

set_option maxRecDepth 16384 in
/-- The scores' and the softmax's operations leave the flattened probabilities. -/
theorem B_val (V : Valuation τ sig (Elt F)) :
    after opsB V (main_v17 : DevRef τ sig) = flat (softmax3 (logits (V (main_v0 : DevRef τ sig)) (V (main_arg3 : DevRef τ sig)) (V (main_arg4 : DevRef τ sig)))) := by
  after_results_simp
  unfold flat softmax3 shifted3 rowMax3 logits
  rfl
theorem B_keep_arg1 (V : Valuation τ sig (Elt F)) : after opsB V (main_arg1 : DevRef τ sig) = V (main_arg1 : DevRef τ sig) := by
  after_results_simp

set_option maxRecDepth 16384 in
/-- The log-softmax's operations. -/
theorem C_val (V : Valuation τ sig (Elt F)) :
    after opsC V (main_v18 : DevRef τ sig) = logSoftmax2 (V (main_v17 : DevRef τ sig)) := by
  after_results_simp
  simp only [ofBuf_toBuf, ofBuf_main_v17, toBuf_main_v18]
  unfold logSoftmax2 centred2 rowMax2
  rfl
theorem C_keep_arg1 (V : Valuation τ sig (Elt F)) : after opsC V (main_arg1 : DevRef τ sig) = V (main_arg1 : DevRef τ sig) := by
  after_results_simp

set_option maxRecDepth 16384 in
/-- The class lookup's operations. -/
theorem D_val (V : Valuation τ sig (Elt F)) :
    after opsD V (main_v20 : DevRef τ sig) = picked (V (main_v18 : DevRef τ sig)) (V (main_arg1 : DevRef τ sig)) := by
  after_results_simp
  simp only [ofBuf_toBuf, ofBuf_main_v18, ofBuf_main_v19, toBuf_main_v20]
  unfold picked pickOk pickIdx yCol
  rfl

set_option maxRecDepth 16384 in
/-- The mean's operations. -/
theorem E_val (V : Valuation τ sig (Elt F)) :
    after opsE V (main_v24 : DevRef τ sig) = meanNeg (V (main_v20 : DevRef τ sig)) := by
  after_results_simp
  unfold meanNeg
  rfl

/-- The fold at the result buffer is the stages' composition. -/
theorem out_eq (V : Valuation τ sig (Elt F)) :
    after ops V (main_v24 : DevRef τ sig)
      = refValF (V (main_arg0 : DevRef τ sig)) (V (main_arg1 : DevRef τ sig)) (V (main_arg2 : DevRef τ sig))
          (V (main_arg3 : DevRef τ sig)) (V (main_arg4 : DevRef τ sig)) := by
  rw [ops_eq, after_app, after_app, after_app, after_app, E_val, D_val, C_val, C_keep_arg1, B_val, B_keep_arg1, A_val, A_keep_arg1,
    A_keep_arg3, A_keep_arg4]
  rfl

set_option maxRecDepth 16384 in
set_option maxHeartbeats 1600000 in
theorem arg0_eq (V : Valuation τ sig (Elt F)) : after ops V (main_arg0 : DevRef τ sig) = V (main_arg0 : DevRef τ sig) := by
  after_results_simp

set_option maxRecDepth 16384 in
set_option maxHeartbeats 1600000 in
theorem arg1_eq (V : Valuation τ sig (Elt F)) : after ops V (main_arg1 : DevRef τ sig) = V (main_arg1 : DevRef τ sig) := by
  after_results_simp

set_option maxRecDepth 16384 in
set_option maxHeartbeats 1600000 in
theorem arg2_eq (V : Valuation τ sig (Elt F)) : after ops V (main_arg2 : DevRef τ sig) = V (main_arg2 : DevRef τ sig) := by
  after_results_simp

set_option maxRecDepth 16384 in
set_option maxHeartbeats 1600000 in
theorem arg3_eq (V : Valuation τ sig (Elt F)) : after ops V (main_arg3 : DevRef τ sig) = V (main_arg3 : DevRef τ sig) := by
  after_results_simp

set_option maxRecDepth 16384 in
set_option maxHeartbeats 1600000 in
theorem arg4_eq (V : Valuation τ sig (Elt F)) : after ops V (main_arg4 : DevRef τ sig) = V (main_arg4 : DevRef τ sig) := by
  after_results_simp

/-- The reference's result as one pure function of its arguments' contents, at the ideal values. -/
def refVal (x : (⟨S16384x200, .i32⟩ : BufTy).Contents (Elt Ideal)) (y : (⟨S3276800, .i32⟩ : BufTy).Contents (Elt Ideal))
    (e : (⟨S10x4, .f32⟩ : BufTy).Contents (Elt Ideal)) (w : (⟨S5x4, .f32⟩ : BufTy).Contents (Elt Ideal))
    (b : (⟨S5, .f32⟩ : BufTy).Contents (Elt Ideal)) : (⟨S_, .f32⟩ : BufTy).Contents (Elt Ideal) :=
  refValF (F := Ideal) x y e w b

/-- On every device, from any memory with zero counters: every weakly fair execution of @main terminates with the
    result at `refVal` of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v24) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v24).trans (out_eq _), (h c main_arg0).trans (arg0_eq _),
      (h c main_arg1).trans (arg1_eq _), (h c main_arg2).trans (arg2_eq _), (h c main_arg3).trans (arg3_eq _),
      (h c main_arg4).trans (arg4_eq _)⟩)
    (run_all m ρ)

/-- The reference runs and leaves its arguments unchanged. -/
theorem frame_ri [hP : Cert.Pre_input_domain.Facts] : Cert.frame_ReferenceIdeal (hPre_input_domain := hP) :=
  fun m ρ _ => (θ_run Cert.ReferenceIdeal.defs _ _).mono (fun _ h c => (h c).2) (run m ρ)

end Cert.RefSide

end
-- ==== Proof.Spec.lean ====
import Idealize.ShloMosaic.PureOps.Ideal
import Idealize.ShloMosaic.Lib.ValueIdx

noncomputable section

namespace Cert.Spec

open Idealize.ShloMosaic

/-- The score of class `c` for embedding row `e`: the row against the class's weights, plus its bias. -/
def score (E : Fin 10 → Fin 4 → EReal) (W : Fin 5 → Fin 4 → EReal) (b : Fin 5 → EReal) (e : Fin 10) (c : Fin 5) : EReal :=
  (∑ k : Fin 4, E e k * W c k) + b c

/-- The largest of five values (minus infinity bounds them below). -/
def top5 (f : Fin 5 → EReal) : EReal := Finset.univ.sup f

/-- The softmax of five values, each shifted by the largest. -/
def softmax5 (f : Fin 5 → EReal) (c : Fin 5) : EReal :=
  Ideal.div (Ideal.exp (f c - top5 f)) (∑ j : Fin 5, Ideal.exp (f j - top5 f))

/-- The log-sum-exp of five values, shifted by the largest. -/
def lse5 (f : Fin 5 → EReal) : EReal := Ideal.log (∑ j : Fin 5, Ideal.exp (f j - top5 f)) + top5 f

/-- The loss of a token with embedding row `e` and label `c`: the log-sum-exp of the row's class
    probabilities less the label's probability. -/
def entry (E : Fin 10 → Fin 4 → EReal) (W : Fin 5 → Fin 4 → EReal) (b : Fin 5 → EReal) (e : Fin 10) (c : Fin 5) : EReal :=
  lse5 (softmax5 (score E W b e)) - softmax5 (score E W b e) c

/-- The same over natural numbers, zero off the table. -/
def entryN (E : Fin 10 → Fin 4 → EReal) (W : Fin 5 → Fin 4 → EReal) (b : Fin 5 → EReal) (e c : Nat) : EReal :=
  if h : e < 10 ∧ c < 5 then entry E W b ⟨e, h.1⟩ ⟨c, h.2⟩ else 0

/-- The mean loss over the 16384 × 200 tokens, token `t` being row `t / 200`, column `t % 200`. -/
def loss (x : Fin 16384 → Fin 200 → Nat) (y : Fin 3276800 → Nat) (E : Fin 10 → Fin 4 → EReal) (W : Fin 5 → Fin 4 → EReal)
    (b : Fin 5 → EReal) : EReal :=
  Ideal.div (∑ t : Fin 3276800, entryN E W b (x ⟨t.val / 200, by have := t.isLt; omega⟩ ⟨t.val % 200, by have := t.isLt; omega⟩) (y t))
    (Ideal.ofBits .f32 0x4A480000#32)

end Cert.Spec

end
-- ==== Proof.RefIdx.lean ====
import proofs.«205364_g71897752535391_cont_9to1_m_950_21_alg».proof.Proof.RefRun
import proofs.«205364_g71897752535391_cont_9to1_m_950_21_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx

/-! ## The host's pointwise operations at an index, at the ideal values -/

theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl
theorem hostDivf_apply {s : Shape} (x y : FVec Ideal s .f32) (i : s.Idx) : Host.divf x y i = Ideal.div (x i) (y i) := rfl
theorem hostNegf_apply {s : Shape} (x : FVec Ideal s .f32) (i : s.Idx) : Host.negf x i = -(x i) := rfl

/-! ## The scores at an index -/

theorem lhs_0 (i : S16384x200x5.Idx) (q : dot_S16384x200x4_S4x5_S16384x200x5_2_0_01_1_n_n.contr.Idx) : (dot_S16384x200x4_S4x5_S16384x200x5_2_0_01_1_n_n.lhsIdx i q 0).val = (i 0).val := by
  unfold DotDims.lhsIdx
  rw [dif_neg (show ¬(0 : Fin S16384x200x4.rank) ∈ dot_S16384x200x4_S4x5_S16384x200x5_2_0_01_1_n_n.lhsBatch by decide), dif_pos (show (0 : Fin S16384x200x4.rank) ∈ dot_S16384x200x4_S4x5_S16384x200x5_2_0_01_1_n_n.lhsNonContracting by decide)]
  rfl
theorem lhs_1 (i : S16384x200x5.Idx) (q : dot_S16384x200x4_S4x5_S16384x200x5_2_0_01_1_n_n.contr.Idx) : (dot_S16384x200x4_S4x5_S16384x200x5_2_0_01_1_n_n.lhsIdx i q 1).val = (i 1).val := by
  unfold DotDims.lhsIdx
  rw [dif_neg (show ¬(1 : Fin S16384x200x4.rank) ∈ dot_S16384x200x4_S4x5_S16384x200x5_2_0_01_1_n_n.lhsBatch by decide), dif_pos (show (1 : Fin S16384x200x4.rank) ∈ dot_S16384x200x4_S4x5_S16384x200x5_2_0_01_1_n_n.lhsNonContracting by decide)]
  rfl
theorem lhs_2 (i : S16384x200x5.Idx) (q : dot_S16384x200x4_S4x5_S16384x200x5_2_0_01_1_n_n.contr.Idx) : (dot_S16384x200x4_S4x5_S16384x200x5_2_0_01_1_n_n.lhsIdx i q 2).val = (q ⟨0, by decide⟩).val :=
  dot_S16384x200x4_S4x5_S16384x200x5_2_0_01_1_n_n.lhsIdx_val_of_single rfl i q
theorem rhs_0 (i : S16384x200x5.Idx) (q : dot_S16384x200x4_S4x5_S16384x200x5_2_0_01_1_n_n.contr.Idx) : (dot_S16384x200x4_S4x5_S16384x200x5_2_0_01_1_n_n.rhsIdx i q 0).val = (q ⟨0, by decide⟩).val :=
  dot_S16384x200x4_S4x5_S16384x200x5_2_0_01_1_n_n.rhsIdx_val_of_single rfl i q
theorem rhs_1 (i : S16384x200x5.Idx) (q : dot_S16384x200x4_S4x5_S16384x200x5_2_0_01_1_n_n.contr.Idx) : (dot_S16384x200x4_S4x5_S16384x200x5_2_0_01_1_n_n.rhsIdx i q 1).val = (i 2).val := by
  unfold DotDims.rhsIdx
  rw [dif_neg (show ¬(1 : Fin S4x5.rank) ∈ dot_S16384x200x4_S4x5_S16384x200x5_2_0_01_1_n_n.rhsBatch by decide), dif_pos (show (1 : Fin S4x5.rank) ∈ dot_S16384x200x4_S4x5_S16384x200x5_2_0_01_1_n_n.rhsNonContracting by decide)]
  rfl

/-- A token's score for class `c`: its embedding row against the class's weights, plus the class's bias. -/
theorem logits_apply (emb : Arr Ideal S16384x200x4 .f32) (w : Arr Ideal S5x4 .f32) (b : Arr Ideal S5 .f32)
    (i : Fin 16384) (j : Fin 200) (c : Fin 5) :
    logits emb w b (ix3 i j c) = (∑ k : Fin 4, emb (ix3 i j k) * w (ix2 c k)) + b (ix1 c) := by
  unfold logits
  rw [addf_apply]
  congr 1
  · simp only [Host.dotGeneral]
    rw [Ideal.dotGeneral_apply, ← Equiv.sum_comp (contrEquiv1 dot_S16384x200x4_S4x5_S16384x200x5_2_0_01_1_n_n 4 rfl rfl).symm]
    refine Finset.sum_congr rfl fun k _ => ?_
    have hk := contrEquiv1_symm_val dot_S16384x200x4_S4x5_S16384x200x5_2_0_01_1_n_n 4 rfl rfl k
    congr 1
    · refine congrArg emb (funext fun a => Fin.ext ?_)
      match a with
      | ⟨0, _⟩ => exact lhs_0 _ _
      | ⟨1, _⟩ => exact lhs_1 _ _
      | ⟨2, _⟩ => exact (lhs_2 _ _).trans hk
    · refine transpose_apply [1, 0] w _ _ (ix2 c k) fun a => ?_
      match a with
      | ⟨0, _⟩ => exact ((rhs_0 _ _).trans hk).symm
      | ⟨1, _⟩ => exact (rhs_1 (ix3 i j c) _).symm
  · refine (broadcastInDim_apply _ _ _ _ (ix3 (0 : Fin 1) (0 : Fin 1) c) fun a => ?_).trans
      (broadcastInDim_apply _ _ _ _ (ix1 c) fun a => ?_)
    · match a with
      | ⟨0, _⟩ => rfl
      | ⟨1, _⟩ => rfl
      | ⟨2, _⟩ => rfl
    · match a with
      | ⟨0, _⟩ => rfl

/-! ## The softmax at an index -/

/-- The format's minus infinity. -/
theorem ofBits_neg_inf : Ideal.ofBits .f32 0xFF800000#32 = ⊥ := by simp [Ideal.ofBits, Ideal.ieee]

/-- A fold of `max` from minus infinity is the supremum. -/
theorem fold_max_bot (f : Fin 5 → EReal) : (Finset.univ : Finset (Fin 5)).fold max ⊥ f = Spec.top5 f := rfl

/-- A token's largest score. -/
theorem rowMax3_apply (z : Arr Ideal S16384x200x5 .f32) (i : Fin 16384) (j : Fin 200) :
    rowMax3 z (ix2 i j) = Spec.top5 (fun c => z (ix3 i j c)) := by
  unfold rowMax3
  rw [maximumf_apply, Host.reduce_eq_fold_single (α := EReal) (FloatOps.maximumf (F := Ideal) (φ := .f32)) z _ reducesTo_S16384x200x5_S16384x200_d2 (by decide) h_S_ (ix2 i j)]
  show max (Ideal.ofBits .f32 0xFF800000#32) ((Finset.univ : Finset (Fin 5)).fold max (Ideal.ofBits .f32 0xFF800000#32) _) = _
  rw [ofBits_neg_inf, max_eq_right bot_le]
  refine (fold_max_bot _).trans (congrArg Spec.top5 (funext fun c => congrArg z (funext fun a => Fin.ext ?_)))
  match a with
  | ⟨0, _⟩ => rfl
  | ⟨1, _⟩ => rfl
  | ⟨2, _⟩ => rfl

/-- The exponential of a token's score less its largest. -/
theorem shifted3_apply (z : Arr Ideal S16384x200x5 .f32) (i : Fin 16384) (j : Fin 200) (c : Fin 5) :
    shifted3 z (ix3 i j c) = Ideal.exp (z (ix3 i j c) - Spec.top5 (fun c' => z (ix3 i j c'))) := by
  unfold shifted3
  rw [hostExp_apply, subf_apply, ← rowMax3_apply]
  refine congrArg (fun v => Ideal.exp (z (ix3 i j c) - v)) ?_
  refine (broadcastInDim_apply _ _ _ _ (ix3 i j (0 : Fin 1)) fun a => ?_).trans
    (broadcastInDim_apply _ _ _ _ (ix2 i j) fun a => ?_)
  · match a with
    | ⟨0, _⟩ => rfl
    | ⟨1, _⟩ => rfl
    | ⟨2, _⟩ => rfl
  · match a with
    | ⟨0, _⟩ => rfl
    | ⟨1, _⟩ => rfl

/-- A token's class probabilities are the softmax of its scores. -/
theorem softmax3_apply (z : Arr Ideal S16384x200x5 .f32) (i : Fin 16384) (j : Fin 200) (c : Fin 5) :
    softmax3 z (ix3 i j c) = Spec.softmax5 (fun c' => z (ix3 i j c')) c := by
  unfold softmax3 Spec.softmax5
  rw [hostDivf_apply, shifted3_apply]
  refine congrArg (Ideal.div _) ?_
  refine ((broadcastInDim_apply _ _ _ _ (ix3 i j (0 : Fin 1)) fun a => ?_).trans
    (broadcastInDim_apply _ _ _ _ (ix2 i j) fun a => ?_)).trans ?_
  · match a with
    | ⟨0, _⟩ => rfl
    | ⟨1, _⟩ => rfl
    | ⟨2, _⟩ => rfl
  · match a with
    | ⟨0, _⟩ => rfl
    | ⟨1, _⟩ => rfl
  · simp only [Host.reduceAdd, Ideal.hostReduceAdd_def]
    rw [Ideal.hostReduceAdd_single reducesTo_S16384x200x5_S16384x200_d2 (by decide)]
    show Ideal.ofBits .f32 0x00000000#32 + _ = _
    rw [Ideal.ofBits_zero_f32, zero_add]
    refine Finset.sum_congr rfl fun k _ => ?_
    refine (congrArg (shifted3 z) (funext fun a => Fin.ext ?_)).trans (shifted3_apply z i j k)
    match a with
    | ⟨0, _⟩ => rfl
    | ⟨1, _⟩ => rfl
    | ⟨2, _⟩ => rfl

/-- The flattened array at token `t` is the three-axis one at row `t / 200`, column `t % 200`. -/
theorem flat_apply (p : Arr Ideal S16384x200x5 .f32) (t : Fin 3276800) (c : Fin 5) :
    flat p (ix2 t c) = p (ix3 (⟨t.val / 200, by have := t.isLt; omega⟩ : Fin 16384) (⟨t.val % 200, Nat.mod_lt _ (by decide)⟩ : Fin 200) c) := by
  unfold flat
  refine shapeCast_apply p _ _ _ ?_
  rw [Shape.rowMajor_val_three, Shape.rowMajor_val_two]
  show (t.val / 200 * 200 + t.val % 200) * 5 + c.val = t.val * 5 + c.val
  have := Nat.div_add_mod t.val 200
  omega

/-! ## The log-softmax at an index -/

/-- A row's largest entry. -/
theorem rowMax2_apply (p : Arr Ideal S3276800x5 .f32) (t : Fin 3276800) :
    rowMax2 p (ix1 t) = Spec.top5 (fun c => p (ix2 t c)) := by
  unfold rowMax2
  rw [maximumf_apply, Host.reduce_eq_fold_single (α := EReal) (FloatOps.maximumf (F := Ideal) (φ := .f32)) p _ reducesTo_S3276800x5_S3276800_d1 (by decide) h_S_ (ix1 t)]
  show max (Ideal.ofBits .f32 0xFF800000#32) ((Finset.univ : Finset (Fin 5)).fold max (Ideal.ofBits .f32 0xFF800000#32) _) = _
  rw [ofBits_neg_inf, max_eq_right bot_le]
  refine (fold_max_bot _).trans (congrArg Spec.top5 (funext fun c => congrArg p (funext fun a => Fin.ext ?_)))
  match a with
  | ⟨0, _⟩ => rfl
  | ⟨1, _⟩ => rfl

/-- A row's entry less the row's largest. -/
theorem centred2_apply (p : Arr Ideal S3276800x5 .f32) (t : Fin 3276800) (c : Fin 5) :
    centred2 p (ix2 t c) = p (ix2 t c) - Spec.top5 (fun c' => p (ix2 t c')) := by
  unfold centred2
  rw [subf_apply, ← rowMax2_apply]
  refine congrArg (fun v => p (ix2 t c) - v) ?_
  refine (broadcastInDim_apply _ _ _ _ (ix2 t (0 : Fin 1)) fun a => ?_).trans
    (broadcastInDim_apply _ _ _ _ (ix1 t) fun a => ?_)
  · match a with
    | ⟨0, _⟩ => rfl
    | ⟨1, _⟩ => rfl
  · match a with
    | ⟨0, _⟩ => rfl

/-- The log-softmax of a row: the centred entry less the logarithm of the sum of the centred entries' exponentials. -/
theorem logSoftmax2_apply (p : Arr Ideal S3276800x5 .f32) (t : Fin 3276800) (c : Fin 5) :
    logSoftmax2 p (ix2 t c) = (p (ix2 t c) - Spec.top5 (fun c' => p (ix2 t c')))
      - Ideal.log (∑ k : Fin 5, Ideal.exp (p (ix2 t k) - Spec.top5 (fun c' => p (ix2 t c')))) := by
  unfold logSoftmax2
  rw [subf_apply, centred2_apply]
  refine congrArg (fun v => (p (ix2 t c) - Spec.top5 (fun c' => p (ix2 t c'))) - v) ?_
  refine (broadcastInDim_apply _ _ _ _ (ix2 t (0 : Fin 1)) fun a => ?_).trans ?_
  · match a with
    | ⟨0, _⟩ => rfl
    | ⟨1, _⟩ => rfl
  rw [hostLog_apply]
  refine congrArg Ideal.log ?_
  refine (broadcastInDim_apply _ _ _ _ (ix1 t) fun a => ?_).trans ?_
  · match a with
    | ⟨0, _⟩ => rfl
  have hR : S3276800x5.Reduces [(1 : Fin S3276800x5.rank)] S3276800 := by decide
  simp only [Host.reduceAdd, Ideal.hostReduceAdd_def]
  rw [Ideal.hostReduceAdd_single reducesTo_S3276800x5_S3276800_d1 hR]
  show Ideal.ofBits .f32 0x00000000#32 + _ = _
  rw [Ideal.ofBits_zero_f32, zero_add]
  refine Finset.sum_congr rfl fun k _ => ?_
  rw [hostExp_apply]
  refine (congrArg (fun idx => Ideal.exp (centred2 p idx)) (funext fun a => Fin.ext ?_)).trans
    (congrArg Ideal.exp (centred2_apply p t k))
  match a with
  | ⟨0, _⟩ => rfl
  | ⟨1, _⟩ => rfl

/-! ## The mean -/

/-- A rank-1 index set is its coordinate's range. -/
def idxEquiv1 {n : Nat} : (⟨1, ![n]⟩ : Shape).Idx ≃ Fin n where
  toFun i := i 0
  invFun := ix1
  left_inv i := (eq_ix1 i).symm
  right_inv _ := rfl

/-- The mean of the negated picks. -/
theorem meanNeg_apply (q : Arr Ideal S3276800x1 .f32) (i0 : S_.Idx) :
    meanNeg q i0 = Ideal.div (∑ t : Fin 3276800, -(q (ix2 t (0 : Fin 1)))) (Ideal.ofBits .f32 0x4A480000#32) := by
  unfold meanNeg
  rw [hostDivf_apply]
  refine congrArg (fun v => Ideal.div v (Ideal.ofBits .f32 0x4A480000#32)) ?_
  simp only [Host.reduceAdd, Ideal.hostReduceAdd_def]
  rw [Ideal.hostReduceAdd_total reducesTo_S3276800_S_d0 (fun b => b.elim0)]
  show Ideal.ofBits .f32 0x00000000#32 + _ = _
  rw [Ideal.ofBits_zero_f32, zero_add, ← Equiv.sum_comp (idxEquiv1 (n := 3276800)).symm]
  refine Finset.sum_congr rfl fun t _ => ?_
  show Host.negf _ (ix1 t) = _
  rw [hostNegf_apply]
  refine congrArg (fun v => -v) ?_
  refine shapeCast_apply q _ _ (ix2 t (0 : Fin 1)) ?_
  rw [Shape.rowMajor_val_two, Shape.rowMajor_val_one]
  show t.val * 1 + 0 = t.val
  omega

end Cert.RefSide

end
-- ==== Proof.RefLook.lean ====
import proofs.«205364_g71897752535391_cont_9to1_m_950_21_alg».proof.Proof.RefRun
import proofs.«205364_g71897752535391_cont_9to1_m_950_21_alg».proof.Proof.Spec
import Idealize.ShloMosaic.Lib.Affine
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx

/-! ## The two lookups at an index -/

/-- The embedding lookup reads the table's row at the token's start index, read signed and kept inside the table. -/
theorem gather1_apply (e : S10x4.Idx → EReal) (idx : IVec S16384x200x1 32) (i : Fin 16384) (j : Fin 200) (k : Fin 4) :
    Host.gather gather_S10x4_S16384x200x1_S16384x200x4_2_0_n_n_0_2_14 e idx (ix3 i j k)
      = e (ix2 (⟨min (idx (ix3 i j (0 : Fin 1))).toInt.toNat 9, by omega⟩ : Fin 10) k) := by
  unfold Host.gather
  refine congrArg e (funext fun a => Fin.ext ?_)
  match a with
  | ⟨0, _⟩ =>
    show gather_S10x4_S16384x200x1_S16384x200x4_2_0_n_n_0_2_14.start (ix3 i j k) idx 0 + gather_S10x4_S16384x200x1_S16384x200x4_2_0_n_n_0_2_14.batchCoord (ix3 i j k) 0 + gather_S10x4_S16384x200x1_S16384x200x4_2_0_n_n_0_2_14.offCoord (ix3 i j k) 0 = _
    rw [GatherDims.batchCoord_eq_zero gather_S10x4_S16384x200x1_S16384x200x4_2_0_n_n_0_2_14 (ix3 i j k) 0 (by decide),
      GatherDims.offCoord_eq_zero gather_S10x4_S16384x200x1_S16384x200x4_2_0_n_n_0_2_14 (ix3 i j k) 0 (fun h => ((GatherDims.mem_sKept gather_S10x4_S16384x200x1_S16384x200x4_2_0_n_n_0_2_14 0).mp h).1 (by decide))]
    unfold GatherDims.start
    rw [dif_pos (show (0 : Fin S10x4.rank) ∈ gather_S10x4_S16384x200x1_S16384x200x4_2_0_n_n_0_2_14.startIndexMap by decide)]
    have hsi : gather_S10x4_S16384x200x1_S16384x200x4_2_0_n_n_0_2_14.siIdx (ix3 i j k) ⟨List.idxOf (0 : Fin S10x4.rank) gather_S10x4_S16384x200x1_S16384x200x4_2_0_n_n_0_2_14.startIndexMap,
        List.idxOf_lt_length_iff.2 (by decide)⟩ = ix3 i j (0 : Fin 1) := by
      funext b
      refine Fin.ext ?_
      match b with
      | ⟨0, _⟩ => rfl
      | ⟨1, _⟩ => rfl
      | ⟨2, _⟩ => rfl
    rw [hsi]
    rfl
  | ⟨1, _⟩ =>
    show gather_S10x4_S16384x200x1_S16384x200x4_2_0_n_n_0_2_14.start (ix3 i j k) idx 1 + gather_S10x4_S16384x200x1_S16384x200x4_2_0_n_n_0_2_14.batchCoord (ix3 i j k) 1 + gather_S10x4_S16384x200x1_S16384x200x4_2_0_n_n_0_2_14.offCoord (ix3 i j k) 1 = k.val
    rw [GatherDims.batchCoord_eq_zero gather_S10x4_S16384x200x1_S16384x200x4_2_0_n_n_0_2_14 (ix3 i j k) 1 (by decide)]
    unfold GatherDims.start GatherDims.offCoord
    rw [dif_neg (show ¬(1 : Fin S10x4.rank) ∈ gather_S10x4_S16384x200x1_S16384x200x4_2_0_n_n_0_2_14.startIndexMap by decide), dif_pos (show (1 : Fin S10x4.rank) ∈ gather_S10x4_S16384x200x1_S16384x200x4_2_0_n_n_0_2_14.sKept by decide)]
    show 0 + 0 + k.val = k.val
    omega

/-- The class lookup reads the row's entry at the row's start index, read signed and kept inside the row. -/
theorem gather2_apply (lp : S3276800x5.Idx → EReal) (idx : IVec S3276800x1x1 32) (t : Fin 3276800) :
    Host.gather gather_S3276800x5_S3276800x1x1_S3276800x1_n_1_0_0_1_2_11 lp idx (ix2 t (0 : Fin 1))
      = lp (ix2 t (⟨min (idx (ix3 t (0 : Fin 1) (0 : Fin 1))).toInt.toNat 4, by omega⟩ : Fin 5)) := by
  unfold Host.gather
  refine congrArg lp (funext fun a => Fin.ext ?_)
  match a with
  | ⟨0, _⟩ =>
    show gather_S3276800x5_S3276800x1x1_S3276800x1_n_1_0_0_1_2_11.start (ix2 t (0 : Fin 1)) idx 0 + gather_S3276800x5_S3276800x1x1_S3276800x1_n_1_0_0_1_2_11.batchCoord (ix2 t (0 : Fin 1)) 0 + gather_S3276800x5_S3276800x1x1_S3276800x1_n_1_0_0_1_2_11.offCoord (ix2 t (0 : Fin 1)) 0 = t.val
    rw [GatherDims.start_batching gather_S3276800x5_S3276800x1x1_S3276800x1_n_1_0_0_1_2_11 (ix2 t (0 : Fin 1)) idx 0 (by decide),
      GatherDims.offCoord_eq_zero gather_S3276800x5_S3276800x1x1_S3276800x1_n_1_0_0_1_2_11 (ix2 t (0 : Fin 1)) 0 (fun h => ((GatherDims.mem_sKept gather_S3276800x5_S3276800x1x1_S3276800x1_n_1_0_0_1_2_11 0).mp h).2 (by decide))]
    unfold GatherDims.batchCoord
    rw [dif_pos (show (0 : Fin S3276800x5.rank) ∈ gather_S3276800x5_S3276800x1x1_S3276800x1_n_1_0_0_1_2_11.operandBatchingDims by decide), Nat.add_zero, Nat.zero_add]
    rfl
  | ⟨1, _⟩ =>
    show gather_S3276800x5_S3276800x1x1_S3276800x1_n_1_0_0_1_2_11.start (ix2 t (0 : Fin 1)) idx 1 + gather_S3276800x5_S3276800x1x1_S3276800x1_n_1_0_0_1_2_11.batchCoord (ix2 t (0 : Fin 1)) 1 + gather_S3276800x5_S3276800x1x1_S3276800x1_n_1_0_0_1_2_11.offCoord (ix2 t (0 : Fin 1)) 1 = _
    rw [GatherDims.batchCoord_eq_zero gather_S3276800x5_S3276800x1x1_S3276800x1_n_1_0_0_1_2_11 (ix2 t (0 : Fin 1)) 1 (by decide),
      GatherDims.offCoord_eq_zero gather_S3276800x5_S3276800x1x1_S3276800x1_n_1_0_0_1_2_11 (ix2 t (0 : Fin 1)) 1 (fun h => ((GatherDims.mem_sKept gather_S3276800x5_S3276800x1x1_S3276800x1_n_1_0_0_1_2_11 1).mp h).1 (by decide))]
    unfold GatherDims.start
    rw [dif_pos (show (1 : Fin S3276800x5.rank) ∈ gather_S3276800x5_S3276800x1x1_S3276800x1_n_1_0_0_1_2_11.startIndexMap by decide)]
    have hsi : gather_S3276800x5_S3276800x1x1_S3276800x1_n_1_0_0_1_2_11.siIdx (ix2 t (0 : Fin 1)) ⟨List.idxOf (1 : Fin S3276800x5.rank) gather_S3276800x5_S3276800x1x1_S3276800x1_n_1_0_0_1_2_11.startIndexMap,
        List.idxOf_lt_length_iff.2 (by decide)⟩ = ix3 t (0 : Fin 1) (0 : Fin 1) := by
      funext b
      refine Fin.ext ?_
      match b with
      | ⟨0, _⟩ => rfl
      | ⟨1, _⟩ => rfl
      | ⟨2, _⟩ => rfl
    rw [hsi]
    rfl

/-! ## The lookups under the precondition's ranges -/

/-- A 32-bit word whose signed value lies in `0..n` has that value as its natural value. -/
theorem toInt_range (v : BitVec 32) (n : Nat) (hn : n < 2147483648) (h0 : 0 ≤ v.toInt) (h1 : v.toInt ≤ n) :
    v.toInt = (v.toNat : Int) ∧ v.toNat ≤ n := by
  have hlt := v.isLt
  rw [BitVec.toInt_eq_toNat_cond] at h0 h1 ⊢
  split_ifs at h0 h1 ⊢ with hc
  · exact ⟨rfl, by omega⟩
  · omega

/-- A fold of `and` over one element. -/
theorem fold_andi_fin1 (f : Fin 1 → BitVec 1) (b : BitVec 1) :
    (Finset.univ : Finset (Fin 1)).fold IntOp.andi b f = IntOp.andi (f 0) b := by
  rw [show (Finset.univ : Finset (Fin 1)) = {0} from rfl, Finset.fold_singleton]

/-- A token index that is not negative is not moved. -/
theorem takeIdx_apply (x : Arr Ideal S16384x200 .i32) (i : Fin 16384) (j : Fin 200) (h0 : 0 ≤ BitVec.toInt (x (ix2 i j))) :
    takeIdx (F := Ideal) x (ix3 i j (0 : Fin 1)) = x (ix2 i j) := by
  unfold takeIdx
  refine (broadcastInDim_apply _ _ _ _ (ix2 i j) fun a => ?_).trans ?_
  · match a with
    | ⟨0, _⟩ => rfl
    | ⟨1, _⟩ => rfl
  rw [select_apply]
  have hc : cmpi .slt x (broadcastInDim S16384x200 ![] bcast_S_S16384x200 (constantI S_ 32 0#32)) (ix2 i j) = 0#1 := by
    refine eq_zero_of_ne_one fun hc => ?_
    exact absurd (IntOp.cmpi_slt.1 hc) (not_lt.mpr h0)
  rw [hc, select_zero]

/-- A token index in 0..9 passes the range test. -/
theorem takeOk_apply (x : Arr Ideal S16384x200 .i32) (i : Fin 16384) (j : Fin 200)
    (h : 0 ≤ BitVec.toInt (x (ix2 i j)) ∧ BitVec.toInt (x (ix2 i j)) ≤ 9) : takeOk (F := Ideal) x (ix2 i j) = 1#1 := by
  unfold takeOk
  have hR : S16384x200x1.Reduces [(2 : Fin S16384x200x1.rank)] S16384x200 := by decide
  rw [Host.reduce_eq_fold_single (α := BitVec 1) IntOp.andi _ _ reducesTo_S16384x200x1_S16384x200_d2 hR h_S_ (ix2 i j)]
  refine (fold_andi_fin1 _ _).trans ?_
  have hidx : hR.lift (ix2 i j) (0 : Fin 1) = ix3 i j (0 : Fin 1) := funext fun a => Fin.ext (by
    match a with
    | ⟨0, _⟩ => rfl
    | ⟨1, _⟩ => rfl
    | ⟨2, _⟩ => rfl)
  refine IntOp.andi_eq_one.2 ⟨?_, rfl⟩
  show andi _ _ (hR.lift (ix2 i j) (0 : Fin 1)) = 1#1
  rw [hidx]
  refine IntOp.andi_eq_one.2 ⟨IntOp.cmpi_sge.2 ?_, IntOp.cmpi_sle.2 ?_⟩
  · show (0 : Int) ≤ BitVec.toInt (takeIdx (F := Ideal) x (ix3 i j (0 : Fin 1)))
    rw [takeIdx_apply x i j h.1]
    exact h.1
  · show BitVec.toInt (takeIdx (F := Ideal) x (ix3 i j (0 : Fin 1))) ≤ (9 : Int)
    rw [takeIdx_apply x i j h.1]
    exact h.2

/-- Under the range, a token's embedding row is the table's row at its index. -/
theorem embed_apply (x : Arr Ideal S16384x200 .i32) (e : Arr Ideal S10x4 .f32) (i : Fin 16384) (j : Fin 200) (k : Fin 4)
    (h : 0 ≤ BitVec.toInt (x (ix2 i j)) ∧ BitVec.toInt (x (ix2 i j)) ≤ 9) (r : Fin 10) (hr : r.val = BitVec.toNat (x (ix2 i j))) :
    embed (F := Ideal) x e (ix3 i j k) = e (ix2 r k) := by
  unfold embed
  rw [select_apply]
  have hok : broadcastInDim S16384x200x4 ![0, 1] bcast_S16384x200_S16384x200x4_0_1 (takeOk (F := Ideal) x) (ix3 i j k) = 1#1 :=
    (broadcastInDim_apply _ _ _ _ (ix2 i j) fun a => by
      match a with
      | ⟨0, _⟩ => rfl
      | ⟨1, _⟩ => rfl).trans (takeOk_apply x i j h)
  rw [hok, select_one, gather1_apply]
  refine congrArg e (funext fun a => Fin.ext ?_)
  obtain ⟨h1, h2⟩ := toInt_range _ 9 (by decide) h.1 h.2
  match a with
  | ⟨0, _⟩ =>
    show min (BitVec.toInt (takeIdx (F := Ideal) x (ix3 i j (0 : Fin 1)))).toNat 9 = r.val
    rw [takeIdx_apply x i j h.1, h1, Int.toNat_natCast, hr]
    omega
  | ⟨1, _⟩ => rfl

/-- A label that is not negative is not moved. -/
theorem pickIdx_apply (y : Arr Ideal S3276800 .i32) (t : Fin 3276800) (h0 : 0 ≤ BitVec.toInt (y (ix1 t))) :
    pickIdx (F := Ideal) y (ix3 t (0 : Fin 1) (0 : Fin 1)) = y (ix1 t) := by
  unfold pickIdx
  refine (shapeCast_apply _ _ _ (ix2 t (0 : Fin 1)) ?_).trans ?_
  · rw [Shape.rowMajor_val_two, Shape.rowMajor_val_three]
    show t.val * 1 + 0 = (t.val * 1 + 0) * 1 + 0
    omega
  have hy : yCol (F := Ideal) y (ix2 t (0 : Fin 1)) = y (ix1 t) := by
    unfold yCol
    exact broadcastInDim_apply _ _ _ _ (ix1 t) fun a => by
      match a with
      | ⟨0, _⟩ => rfl
  rw [select_apply]
  have hc : cmpi .slt (yCol (F := Ideal) y) (broadcastInDim S3276800x1 ![] bcast_S_S3276800x1 (constantI S_ 32 0#32)) (ix2 t (0 : Fin 1)) = 0#1 := by
    refine eq_zero_of_ne_one fun hc => ?_
    have hlt := IntOp.cmpi_slt.1 hc
    rw [hy] at hlt
    exact absurd hlt (not_lt.mpr h0)
  rw [hc, select_zero, hy]

/-- A label in 0..4 passes the range test. -/
theorem pickOk_apply (y : Arr Ideal S3276800 .i32) (t : Fin 3276800)
    (h : 0 ≤ BitVec.toInt (y (ix1 t)) ∧ BitVec.toInt (y (ix1 t)) ≤ 4) : pickOk (F := Ideal) y (ix2 t (0 : Fin 1)) = 1#1 := by
  unfold pickOk
  have hR : S3276800x1x1.Reduces [(2 : Fin S3276800x1x1.rank)] S3276800x1 := by decide
  rw [Host.reduce_eq_fold_single (α := BitVec 1) IntOp.andi _ _ reducesTo_S3276800x1x1_S3276800x1_d2 hR h_S_ (ix2 t (0 : Fin 1))]
  refine (fold_andi_fin1 _ _).trans ?_
  have hidx : hR.lift (ix2 t (0 : Fin 1)) (0 : Fin 1) = ix3 t (0 : Fin 1) (0 : Fin 1) := funext fun a => Fin.ext (by
    match a with
    | ⟨0, _⟩ => rfl
    | ⟨1, _⟩ => rfl
    | ⟨2, _⟩ => rfl)
  refine IntOp.andi_eq_one.2 ⟨?_, rfl⟩
  show andi _ _ (hR.lift (ix2 t (0 : Fin 1)) (0 : Fin 1)) = 1#1
  rw [hidx]
  refine IntOp.andi_eq_one.2 ⟨IntOp.cmpi_sge.2 ?_, IntOp.cmpi_sle.2 ?_⟩
  · show (0 : Int) ≤ BitVec.toInt (pickIdx (F := Ideal) y (ix3 t (0 : Fin 1) (0 : Fin 1)))
    rw [pickIdx_apply y t h.1]
    exact h.1
  · show BitVec.toInt (pickIdx (F := Ideal) y (ix3 t (0 : Fin 1) (0 : Fin 1))) ≤ (4 : Int)
    rw [pickIdx_apply y t h.1]
    exact h.2

/-- Under the range, a token's pick is its row's entry at its label. -/
theorem picked_apply (lp : Arr Ideal S3276800x5 .f32) (y : Arr Ideal S3276800 .i32) (t : Fin 3276800)
    (h : 0 ≤ BitVec.toInt (y (ix1 t)) ∧ BitVec.toInt (y (ix1 t)) ≤ 4) (c : Fin 5) (hc : c.val = BitVec.toNat (y (ix1 t))) :
    picked (F := Ideal) lp y (ix2 t (0 : Fin 1)) = lp (ix2 t c) := by
  unfold picked
  rw [select_apply, pickOk_apply y t h, select_one, gather2_apply]
  refine congrArg lp (funext fun a => Fin.ext ?_)
  obtain ⟨h1, h2⟩ := toInt_range _ 4 (by decide) h.1 h.2
  match a with
  | ⟨0, _⟩ => rfl
  | ⟨1, _⟩ =>
    show min (BitVec.toInt (pickIdx (F := Ideal) y (ix3 t (0 : Fin 1) (0 : Fin 1)))).toNat 4 = c.val
    rw [pickIdx_apply y t h.1, h1, Int.toNat_natCast, hc]
    omega

end Cert.RefSide

end
-- ==== Proof.SpecReal.lean ====
import proofs.«205364_g71897752535391_cont_9to1_m_950_21_alg».proof.Proof.Spec

noncomputable section

namespace Cert.Spec

open Idealize.ShloMosaic

/-- An extended real that is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- The quotient of two reals, the divisor not zero. -/
theorem div_coe_coe (a b : ℝ) (hb : b ≠ 0) : Ideal.div (a : EReal) (b : EReal) = ((a / b : ℝ) : EReal) := by
  rw [Ideal.div_coe hb, ← EReal.coe_mul]
  congr 1
  ring

/-- The logarithm of a positive real. -/
theorem log_coe_pos (r : ℝ) (h : 0 < r) : Ideal.log (r : EReal) = ((Real.log r : ℝ) : EReal) := by
  rw [Ideal.log_coe, if_neg (not_le.mpr h)]

/-- The largest of five values is one of them. -/
theorem top5_mem (f : Fin 5 → EReal) : ∃ c, top5 f = f c := by
  obtain ⟨c, -, h⟩ := Finset.exists_mem_eq_sup Finset.univ ⟨0, Finset.mem_univ _⟩ f
  exact ⟨c, h⟩

/-- A sum of five reals is their real sum. -/
theorem coe_sum5 (g : Fin 5 → ℝ) : (∑ j : Fin 5, ((g j : ℝ) : EReal)) = ((∑ j : Fin 5, g j : ℝ) : EReal) := by
  rw [Fin.sum_univ_five, Fin.sum_univ_five]
  simp only [EReal.coe_add]

/-- A sum of four reals is their real sum. -/
theorem coe_sum4 (g : Fin 4 → ℝ) : (∑ j : Fin 4, ((g j : ℝ) : EReal)) = ((∑ j : Fin 4, g j : ℝ) : EReal) := by
  rw [Fin.sum_univ_four, Fin.sum_univ_four]
  simp only [EReal.coe_add]

/-- Over real values the shifted exponentials sum to a positive real. -/
theorem sumExp_pos (f : Fin 5 → EReal) (hf : ∀ c, IsR (f c)) :
    ∃ r : ℝ, 0 < r ∧ (∑ j : Fin 5, Ideal.exp (f j - top5 f)) = (r : EReal) := by
  obtain ⟨c0, hc0⟩ := top5_mem f
  obtain ⟨m, hm⟩ := hf c0
  choose g hg using hf
  refine ⟨∑ j : Fin 5, Real.exp (g j - m), Finset.sum_pos (fun j _ => Real.exp_pos _) ⟨0, Finset.mem_univ _⟩, ?_⟩
  rw [hc0, hm, ← coe_sum5]
  refine Finset.sum_congr rfl fun j _ => ?_
  rw [hg j, ← EReal.coe_sub, Ideal.exp_coe]

/-- Over real values the softmax is real. -/
theorem softmax5_isR (f : Fin 5 → EReal) (hf : ∀ c, IsR (f c)) (c : Fin 5) : IsR (softmax5 f c) := by
  obtain ⟨c0, hc0⟩ := top5_mem f
  obtain ⟨r, hr, hs⟩ := sumExp_pos f hf
  obtain ⟨a, ha⟩ := hf c
  obtain ⟨m, hm⟩ := hf c0
  unfold softmax5
  rw [hs, hc0, hm, ha, ← EReal.coe_sub, Ideal.exp_coe, div_coe_coe _ _ hr.ne']
  exact ⟨_, rfl⟩

/-- Over real values, the negated log-softmax at `c` is the log-sum-exp less the value at `c`. -/
theorem neg_logSoftmax (f : Fin 5 → EReal) (hf : ∀ c, IsR (f c)) (c : Fin 5) :
    -((f c - top5 f) - Ideal.log (∑ j : Fin 5, Ideal.exp (f j - top5 f))) = lse5 f - f c := by
  obtain ⟨c0, hc0⟩ := top5_mem f
  obtain ⟨r, hr, hs⟩ := sumExp_pos f hf
  obtain ⟨a, ha⟩ := hf c
  obtain ⟨m, hm⟩ := hf c0
  unfold lse5
  rw [hs, log_coe_pos r hr, hc0, hm, ha, ← EReal.coe_sub, ← EReal.coe_sub, ← EReal.coe_neg, ← EReal.coe_add, ← EReal.coe_sub]
  congr 1
  ring

/-- Over real tables the scores are real. -/
theorem score_isR (E : Fin 10 → Fin 4 → EReal) (W : Fin 5 → Fin 4 → EReal) (b : Fin 5 → EReal)
    (hE : ∀ r k, IsR (E r k)) (hW : ∀ c k, IsR (W c k)) (hb : ∀ c, IsR (b c)) (e : Fin 10) (c : Fin 5) :
    IsR (score E W b e c) := by
  unfold score
  rw [Fin.sum_univ_four]
  exact ((((hE e 0).mul (hW c 0)).add ((hE e 1).mul (hW c 1))).add ((hE e 2).mul (hW c 2))).add ((hE e 3).mul (hW c 3)) |>.add (hb c)

/-- Over real tables, a token's negated log-softmax of its class probabilities at its label is the table's entry. -/
theorem entry_eq (E : Fin 10 → Fin 4 → EReal) (W : Fin 5 → Fin 4 → EReal) (b : Fin 5 → EReal)
    (hE : ∀ r k, IsR (E r k)) (hW : ∀ c k, IsR (W c k)) (hb : ∀ c, IsR (b c)) (e : Fin 10) (c : Fin 5) :
    -((softmax5 (score E W b e) c - top5 (softmax5 (score E W b e)))
        - Ideal.log (∑ j : Fin 5, Ideal.exp (softmax5 (score E W b e) j - top5 (softmax5 (score E W b e)))))
      = entry E W b e c :=
  neg_logSoftmax _ (fun c' => softmax5_isR _ (fun c'' => score_isR E W b hE hW hb e c'') c') c

end Cert.Spec

end
-- ==== Proof.RefPre.lean ====
import proofs.«205364_g71897752535391_cont_9to1_m_950_21_alg».proof.Proof.SpecReal
import proofs.«205364_g71897752535391_cont_9to1_m_950_21_alg».proof.Pre_input_domain
import proofs.«205364_g71897752535391_cont_9to1_m_950_21_alg».proof.Proof.Gen.Pre_input_domain
import Idealize.ShloMosaic.Lib.ReduceAll
import Idealize.ShloMosaic.Lib.ValueIdx
import Idealize.ShloMosaic.PureOps.Ideal.Laws

noncomputable section

namespace Cert.RefSide

open Idealize.ShloMosaic Idealize.ShloMosaic.ValueIdx Cert.Pre_input_domain

instance : Subsingleton S_.Idx := ⟨fun a b => funext fun d => d.elim0⟩

/-- The format's plus infinity. -/
theorem ofBits_pos_inf : Ideal.ofBits .f32 0x7F800000#32 = ⊤ := by simp [Ideal.ofBits, Ideal.ieee]

/-- An extended real whose absolute value is below plus infinity is a real number. -/
theorem isR_of_abs_lt (v : EReal) (h : Ideal.cmp .olt (max v (-v)) (Ideal.ofBits .f32 0x7F800000#32) = 1#1) : Spec.IsR v := by
  rw [ofBits_pos_inf] at h
  induction v using EReal.rec with
  | bot => simp [Ideal.cmp] at h
  | coe r => exact ⟨r, rfl⟩
  | top => simp [Ideal.cmp] at h

/-- What the precondition says of the arguments: the three float arrays hold real numbers, the token
    indices lie in 0..9 and the labels in 0..4 (read signed). -/
theorem pre_facts (x : IVec S16384x200 32) (y : IVec S3276800 32) (e : FVec Ideal S10x4 .f32) (w : FVec Ideal S5x4 .f32)
    (b : FVec Ideal S5 .f32) (h : Cert.Pre_input_domain.fn (F := Ideal) x y e w b = fun _ => 1#1) :
    (∀ i, Spec.IsR (e i)) ∧ (∀ i, Spec.IsR (w i)) ∧ (∀ i, Spec.IsR (b i))
      ∧ (∀ i, 0 ≤ (x i).toInt ∧ (x i).toInt ≤ 9) ∧ (∀ i, 0 ≤ (y i).toInt ∧ (y i).toInt ≤ 4) := by
  have h0 := congrFun h ix0
  dsimp only [fn, fn_part1] at h0
  obtain ⟨h1, hy⟩ := IntOp.andi_eq_one.1 h0
  obtain ⟨h2, hx⟩ := IntOp.andi_eq_one.1 h1
  obtain ⟨h3, hb⟩ := IntOp.andi_eq_one.1 h2
  obtain ⟨he, hw⟩ := IntOp.andi_eq_one.1 h3
  refine ⟨fun i => isR_of_abs_lt _ (Host.reduce_andi_all _ _ _ _ ix0 he i),
    fun i => isR_of_abs_lt _ (Host.reduce_andi_all _ _ _ _ ix0 hw i),
    fun i => isR_of_abs_lt _ (Host.reduce_andi_all _ _ _ _ ix0 hb i), fun i => ?_, fun i => ?_⟩
  · obtain ⟨ha, hc⟩ := IntOp.andi_eq_one.1 (Host.reduce_andi_all _ _ _ _ ix0 hx i)
    exact ⟨IntOp.cmpi_sge.1 ha, IntOp.cmpi_sle.1 hc⟩
  · obtain ⟨ha, hc⟩ := IntOp.andi_eq_one.1 (Host.reduce_andi_all _ _ _ _ ix0 hy i)
    exact ⟨IntOp.cmpi_sge.1 ha, IntOp.cmpi_sle.1 hc⟩

end Cert.RefSide

end
-- ==== Proof.RefValue.lean ====
import proofs.«205364_g71897752535391_cont_9to1_m_950_21_alg».proof.Proof.RefRun
import proofs.«205364_g71897752535391_cont_9to1_m_950_21_alg».proof.Proof.RefIdx
import proofs.«205364_g71897752535391_cont_9to1_m_950_21_alg».proof.Proof.RefLook
import proofs.«205364_g71897752535391_cont_9to1_m_950_21_alg».proof.Proof.RefPre
import proofs.«205364_g71897752535391_cont_9to1_m_950_21_alg».proof.Proof.SpecReal

noncomputable section

namespace Cert.RefSide

open Cert.ReferenceIdeal Cert.ReferenceIdeal.Gen Idealize.ShloMosaic Idealize.ShloMosaic.ValueIdx

/-- Under the precondition the reference's result is the mean table-entry loss of the specification: each token's
    negated log-softmax of its class probabilities at its label is the table's entry for its embedding row and
    label, the class probabilities and their log-sum-exp being real numbers because the inputs are. -/
theorem refVal_eq (x : (⟨S16384x200, .i32⟩ : BufTy).Contents (Elt Ideal)) (y : (⟨S3276800, .i32⟩ : BufTy).Contents (Elt Ideal))
    (e : (⟨S10x4, .f32⟩ : BufTy).Contents (Elt Ideal)) (w : (⟨S5x4, .f32⟩ : BufTy).Contents (Elt Ideal))
    (b : (⟨S5, .f32⟩ : BufTy).Contents (Elt Ideal))
    (hpre : Cert.Pre_input_domain.fn (F := Ideal) x y e w b = fun _ => 1#1) :
    refVal x y e w b = fun _ => Cert.Spec.loss (fun i j => BitVec.toNat (x (ix2 i j))) (fun t => BitVec.toNat (y (ix1 t)))
      (fun r k => e (ix2 r k)) (fun c k => w (ix2 c k)) (fun c => b (ix1 c)) := by
  obtain ⟨he, hw, hb, hx, hy⟩ := pre_facts x y e w b hpre
  funext i0
  unfold refVal refValF
  rw [meanNeg_apply]
  unfold Spec.loss
  refine congrArg (fun v => Ideal.div v (Ideal.ofBits .f32 0x4A480000#32)) (Finset.sum_congr rfl fun t _ => ?_)
  have hxt := hx (ix2 (⟨t.val / 200, by have := t.isLt; omega⟩ : Fin 16384) (⟨t.val % 200, Nat.mod_lt _ (by decide)⟩ : Fin 200))
  have hyt := hy (ix1 t)
  obtain ⟨hx1, hx2⟩ := toInt_range _ 9 (by decide) hxt.1 hxt.2
  obtain ⟨hy1, hy2⟩ := toInt_range _ 4 (by decide) hyt.1 hyt.2
  have hscore : (fun c'' => logits (F := Ideal) (embed x e) w b
        (ix3 (⟨t.val / 200, by have := t.isLt; omega⟩ : Fin 16384) (⟨t.val % 200, Nat.mod_lt _ (by decide)⟩ : Fin 200) c''))
      = Spec.score (fun r k => e (ix2 r k)) (fun c k => w (ix2 c k)) (fun c => b (ix1 c))
          ⟨BitVec.toNat (x (ix2 (⟨t.val / 200, by have := t.isLt; omega⟩ : Fin 16384) (⟨t.val % 200, Nat.mod_lt _ (by decide)⟩ : Fin 200))), by omega⟩ :=
    funext fun c'' => by
      rw [logits_apply]
      unfold Spec.score
      refine congrArg (fun v => v + b (ix1 c'')) (Finset.sum_congr rfl fun k _ => ?_)
      rw [embed_apply x e _ _ k hxt ⟨BitVec.toNat (x (ix2 (⟨t.val / 200, by have := t.isLt; omega⟩ : Fin 16384) (⟨t.val % 200, Nat.mod_lt _ (by decide)⟩ : Fin 200))), by omega⟩ rfl]
  have hrow : (fun c' => flat (F := Ideal) (softmax3 (logits (embed x e) w b)) (ix2 t c'))
      = Spec.softmax5 (Spec.score (fun r k => e (ix2 r k)) (fun c k => w (ix2 c k)) (fun c => b (ix1 c))
          ⟨BitVec.toNat (x (ix2 (⟨t.val / 200, by have := t.isLt; omega⟩ : Fin 16384) (⟨t.val % 200, Nat.mod_lt _ (by decide)⟩ : Fin 200))), by omega⟩) :=
    funext fun c' => by rw [flat_apply, softmax3_apply, hscore]
  rw [picked_apply _ y t hyt ⟨BitVec.toNat (y (ix1 t)), by omega⟩ rfl, logSoftmax2_apply]
  change -(((fun c' => flat (F := Ideal) (softmax3 (logits (embed x e) w b)) (ix2 t c')) ⟨BitVec.toNat (y (ix1 t)), by omega⟩
        - Spec.top5 (fun c' => flat (F := Ideal) (softmax3 (logits (embed x e) w b)) (ix2 t c')))
      - Ideal.log (∑ k : Fin 5, Ideal.exp ((fun c' => flat (F := Ideal) (softmax3 (logits (embed x e) w b)) (ix2 t c')) k
        - Spec.top5 (fun c' => flat (F := Ideal) (softmax3 (logits (embed x e) w b)) (ix2 t c'))))) = _
  rw [hrow, Spec.entry_eq _ _ _ (fun r k => he (ix2 r k)) (fun c k => hw (ix2 c k)) (fun c => hb (ix1 c))]
  unfold Spec.entryN
  rw [dif_pos ⟨Nat.lt_succ_of_le hx2, Nat.lt_succ_of_le hy2⟩]

/-- The specification's value at five argument arrays. -/
def specVal (x : (⟨S16384x200, .i32⟩ : BufTy).Contents (Elt Ideal)) (y : (⟨S3276800, .i32⟩ : BufTy).Contents (Elt Ideal))
    (e : (⟨S10x4, .f32⟩ : BufTy).Contents (Elt Ideal)) (w : (⟨S5x4, .f32⟩ : BufTy).Contents (Elt Ideal))
    (b : (⟨S5, .f32⟩ : BufTy).Contents (Elt Ideal)) : (⟨S_, .f32⟩ : BufTy).Contents (Elt Ideal) :=
  fun _ => Cert.Spec.loss (fun i j => BitVec.toNat (x (ix2 i j))) (fun t => BitVec.toNat (y (ix1 t)))
    (fun r k => e (ix2 r k)) (fun c k => w (ix2 c k)) (fun c => b (ix1 c))

/-- Under the precondition the reference's result is the specification's value. -/
theorem refVal_eq_specVal (x : (⟨S16384x200, .i32⟩ : BufTy).Contents (Elt Ideal)) (y : (⟨S3276800, .i32⟩ : BufTy).Contents (Elt Ideal))
    (e : (⟨S10x4, .f32⟩ : BufTy).Contents (Elt Ideal)) (w : (⟨S5x4, .f32⟩ : BufTy).Contents (Elt Ideal))
    (b : (⟨S5, .f32⟩ : BufTy).Contents (Elt Ideal))
    (hpre : Cert.Pre_input_domain.fn (F := Ideal) x y e w b = fun _ => 1#1) : refVal x y e w b = specVal x y e w b :=
  refVal_eq x y e w b hpre

open Idealize.ShloMosaic.TcCoe Idealize.SL.Sem in
/-- From a memory of which the precondition holds, the reference runs, ends with the specification's value of its
    arguments' launch contents in its result, and leaves its arguments unchanged. -/
theorem run_spec (m : (ℓ : Loc nD τ sig) → Buf (Elt Ideal) ℓ) (ρ : Dev nD → PrngReg) (hpre : Cert.Pre_ReferenceIdeal m) :
    θ_run (Cert.ReferenceIdeal.defs (F := Ideal)) (onTc (τ := τ) (main (F := Ideal))) ⟨m, fun _ => 0, ρ⟩ (fun r => ∀ c : Dev nD,
      r.2.mem ((c.tc : Thread nD τ).loc main_v24) = specVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run Cert.ReferenceIdeal.defs _ _).mono
    (fun _ h c => ⟨(h c).1.trans (refVal_eq_specVal _ _ _ _ _ (hpre c)), (h c).2⟩) (run m ρ)

end Cert.RefSide

end
-- ==== Proof.KI.ValueMain.lean ====
/-
  The idealized kernel program's run with its value: if every tile leaves a given array pv on its sixteen words of the
  partial sums, @main leaves the result array at what the last call and the reshape make of pv, the arguments kept.
-/
import proofs.«205364_g71897752535391_cont_9to1_m_950_21_alg».proof.Proof.KI.Main

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)
variable (wC : (d : Dev nD) → Buf (Elt F) (wLoc d))
/- what the tiles are to leave in the partial sums -/
variable (pv : (d : Dev nD) → Buf (Elt F) (oLoc d))

/-- What a tile hands back when it leaves `fo'` on its block. -/
def tileOutV (d : Dev nD) (fx : Buf (Elt F) (xLoc d)) (fy : Buf (Elt F) (yLoc d)) (fw : Buf (Elt F) (wLoc d)) (fo' : Buf (Elt F) (oLoc d)) (k : Fin 32) : sProp 𝕄 :=
  iprop((xLoc d ↦{Transfers.shareTok fullShare 32 k} fx) ∗ (yLoc d ↦{Transfers.shareTok fullShare 32 k} fy)
    ∗ (wLoc d ↦{Transfers.shareTok fullShare 32 k} fw) ∗ (oLoc d ↦[oBlk k]{fullShare} fo'))

omit [FloatOps F] in
theorem tiles_joinV (d : Dev nD) (fx : Buf (Elt F) (xLoc d)) (fy : Buf (Elt F) (yLoc d)) (fw : Buf (Elt F) (wLoc d)) (fo' : Buf (Elt F) (oLoc d)) :
    iprop(kept d fx fy fw ∗ bigSep Finset.univ fun c : Fin 2 => bigSep Finset.univ fun s : Fin 16 => tileOutV d fx fy fw fo' (wid c s))
      ⊢ (iprop((xLoc d ↦{fullShare} fx) ∗ (yLoc d ↦{fullShare} fy) ∗ (wLoc d ↦{fullShare} fw) ∗ (oLoc d ↦{fullShare} fo')) : sProp 𝕄) := by
  rw [← bigSep_wid (F := F) (fun k => tileOutV d fx fy fw fo' k)]
  unfold tileOutV kept
  rw [bigSep_sep', bigSep_sep', bigSep_sep', o_blocks]
  iintro ⟨⟨Hdx, Hdy, Hdw⟩, Htx, Hty, Htw, Ho⟩
  isplitl [Hdx Htx]
  · iapply (Transfers.pointsTo_toks_join (ℓ := xLoc d) (S := Finset.univ) (f := fx) fullShare 32)
    isplitl [Hdx] <;> iassumption
  isplitl [Hdy Hty]
  · iapply (Transfers.pointsTo_toks_join (ℓ := yLoc d) (S := Finset.univ) (f := fy) fullShare 32)
    isplitl [Hdy] <;> iassumption
  isplitl [Hdw Htw]
  · iapply (Transfers.pointsTo_toks_join (ℓ := wLoc d) (S := Finset.univ) (f := fw) fullShare 32)
    isplitl [Hdw] <;> iassumption
  iexact Ho

def PV : (K (F := F)).Pay (nD := nD) (Val := Elt F) (Name := ℕ) (U := UU) where
  st := fun q d c => match q with | 0 => bigSep Finset.univ fun s : Fin 16 => tileIn d (m (xLoc d)) (m (yLoc d)) (wC d) (m (oLoc d)) (wid (Fin.cast nCore_zero c) s)
  dn := fun q d c => match q with | 0 => bigSep Finset.univ fun s : Fin 16 => tileOutV d (m (xLoc d)) (m (yLoc d)) (wC d) (pv d) (wid (Fin.cast nCore_zero c) s)
  go := fun q d c s => match q with | 0 => tileIn d (m (xLoc d)) (m (yLoc d)) (wC d) (m (oLoc d)) (wid (Fin.cast nCore_zero c) (Fin.cast nSub_zero s))
  td := fun q d c s => match q with | 0 => tileOutV d (m (xLoc d)) (m (yLoc d)) (wC d) (pv d) (wid (Fin.cast nCore_zero c) (Fin.cast nSub_zero s))
  x := fun _ _ => iprop(emp)

instance PV_storable : (PV (F := F) m wC pv).IsStorable where
  st q d c := match q with | 0 => by unfold PV tileIn; infer_instance
  dn q d c := match q with | 0 => by unfold PV tileOutV; infer_instance
  go q d c s := match q with | 0 => by unfold PV tileIn; infer_instance
  td q d c s := match q with | 0 => by unfold PV tileOutV; infer_instance

/-- The tile's task with its value: tile (c, s) leaves `pv d` on its block. -/
def TileVal : Prop :=
  ∀ (d : Dev nD) (c : Fin (grid1.bound 0)) (s : Fin (grid1.bound 1)) (O : CellTallies nD τ sig (HIx 1)) (W : Waits sig (HIx 1)), (∀ g, O g none = 0) →
    iprop(levAts (K (F := F)).L (K (F := F)).lev ∗ emp ∗ tileIn d (m (xLoc d)) (m (yLoc d)) (wC d) (m (oLoc d)) (widV c s)
        ∗ scopedBufs (V d (c.castLE hcore1) (s.castLE hsub1)) ∗ scopedSems0 (V d (c.castLE hcore1) (s.castLE hsub1)) ∗ owes (V d (c.castLE hcore1) (s.castLE hsub1)) O W)
      ⊢ wp frame (wpE (defs₀ (F := F)) 𝒱₀ (V d (c.castLE hcore1) (s.castLE hsub1)) none) Set.univ (tileProg (F := F) c s)
          fun _ => iprop(tileOutV d (m (xLoc d)) (m (yLoc d)) (wC d) (pv d) (widV c s) ∗ scopedBufs (V d (c.castLE hcore1) (s.castLE hsub1)) ∗ scopedSems0 (V d (c.castLE hcore1) (s.castLE hsub1))
            ∗ ∃ W', ⌜∀ p ∈ W', p ∈ W ∨ p.2 = none⌝ ∗ owes (V d (c.castLE hcore1) (s.castLE hsub1)) O W')

theorem tileOblV (hval : TileVal m wC pv) : (K (F := F)).TileObl (D (F := F)) 𝒱 (PV m wC pv) v₀ 0 := by
  intro d c i O W hO _ _
  simp only [show (PV m wC pv).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hval d ⟨_, hc.1⟩ ⟨_, hc.2⟩ O W hO).trans (wp_mono frame _ _ fun _ => obl_post)

theorem vecSplitV : (K (F := F)).VecSplit' (PV m wC pv) 0 := by
  intro d c
  show (bigSep Finset.univ fun s : Fin 16 => tileIn d (m (xLoc d)) (m (yLoc d)) (wC d) (m (oLoc d)) (wid (Fin.cast nCore_zero c) s)) ⊢ |={Set.univ}=> iprop(
      (bigSep Finset.univ fun i : Fin ((K (F := F)).nSub 0) => tileIn d (m (xLoc d)) (m (yLoc d)) (wC d) (m (oLoc d)) (wid (Fin.cast nCore_zero c) (Fin.cast nSub_zero i)))
      ∗ ((bigSep Finset.univ fun i : Fin ((K (F := F)).nSub 0) => tileOutV d (m (xLoc d)) (m (yLoc d)) (wC d) (pv d) (wid (Fin.cast nCore_zero c) (Fin.cast nSub_zero i)))
          -∗ (bigSep Finset.univ fun s : Fin 16 => tileOutV d (m (xLoc d)) (m (yLoc d)) (wC d) (pv d) (wid (Fin.cast nCore_zero c) s))))
  rw [bigSep_tasks (F := F) (fun s => tileIn d (m (xLoc d)) (m (yLoc d)) (wC d) (m (oLoc d)) (wid (Fin.cast nCore_zero c) s)),
    bigSep_tasks (F := F) (fun s => tileOutV d (m (xLoc d)) (m (yLoc d)) (wC d) (pv d) (wid (Fin.cast nCore_zero c) s))]
  iintro H; imodintro
  isplitl [H]; · iexact H
  iintro H; iexact H

theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PV m wC pv).x q thr) :=
  hu₀ m wC

abbrev r5' : DevRef τ sig := Proc.devRef .tc (main_v5 : Ref sig .tc)
abbrev A6 : Finset (DevRef τ sig) := {x', y', e', f', b', r5'}
theorem hA6 : (A6 : Finset (DevRef τ sig)) ⊆ Pipeline.ucRefs τ sig := by decide

/-- What @main leaves the claim: the five arguments at their launch contents and the result array at what the last call
    and the reshape made of the partial sums. -/
abbrev FINV (d : Dev nD) : sProp 𝕄 :=
  iprop(FIN m d ∗ ((SparseCore.T d).loc main_v5 ↦{fullShare} V5 m d (pv d) r5'))

theorem held_A6_V5 (d : Dev nD) (g : Buf (Elt F) (oLoc d)) : (held (T d) A6 (V5 m d g) : sProp 𝕄) ⊢ iprop(FIN m d ∗ ((SparseCore.T d).loc main_v5 ↦{fullShare} V5 m d g r5')) := by
  unfold held A6
  rw [SparseCore.bigSep_insert' (by decide), SparseCore.bigSep_insert' (by decide), SparseCore.bigSep_insert' (by decide), SparseCore.bigSep_insert' (by decide), SparseCore.bigSep_insert' (by decide), bigSep_singleton,
    V5_keep m d g main_arg0 (by decide) (by decide) (by decide) (by decide) (by decide) (by decide) (by decide) (by decide),
    V5_keep m d g main_arg1 (by decide) (by decide) (by decide) (by decide) (by decide) (by decide) (by decide) (by decide),
    V5_keep m d g main_arg2 (by decide) (by decide) (by decide) (by decide) (by decide) (by decide) (by decide) (by decide),
    V5_keep m d g main_arg3 (by decide) (by decide) (by decide) (by decide) (by decide) (by decide) (by decide) (by decide),
    V5_keep m d g main_arg4 (by decide) (by decide) (by decide) (by decide) (by decide) (by decide) (by decide) (by decide)]
  iintro ⟨Hx, Hy, He, Hf, Hb, Hr⟩
  isplitl [Hx Hy He Hf Hb]
  · isplitl [Hx]; · iexact Hx
    isplitl [Hy]; · iexact Hy
    isplitl [He]; · iexact He
    isplitl [Hf]; · iexact Hf
    iexact Hb
  iexact Hr

set_option maxHeartbeats 2000000 in
/-- @main on device `d`'s TensorCore, with the result's value. -/
theorem hmainV [∀ e, Nonempty (Elt F e)] (κ : GSem nD τ sig → ℕ) (d : Dev nD) :
    iprop((K (F := F)).ctx EH (PV m (wCof m) pv) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m pv d) := by
  unfold SparseCore.Cfg.tcRes G
  rw [show (unscopedBufs d (fun b => m ((SparseCore.T d).loc b)) : sProp 𝕄) = held (SparseCore.T d) (Pipeline.ucRefs τ sig) (V0 m d) from
    Pipeline.unscopedBufs_held d (V0 m d), bigSep_univ_two]
  simp only [main, fn_pad.body, wp_bind, wp_pure]
  rw [tcSt_eq (F := F) d 0]
  iintro ⟨#Hctx, ⟨HOw, Htail⟩, ⟨Hb, Hheld, Hs0, Hprng⟩, ⟨Hg0, Ht0⟩, ⟨Hg1, Ht1⟩⟩
  ihave #Hlev := (SparseCore.Cfg.ctx_levAts κ) $$ Hctx
  -- the table's call
  iapply (wp_region0 (V0 m d) (V0 m d) 0 1 d _) $$ [Hb Hheld HOw Hg0 Ht0 Htail Hg1 Ht1]
  isplitl [Htail Hg1 Ht1]
  swap
  · isplitl [Hb]; · iexact Hb
    isplitl [Hheld HOw]
    · unfold TS
      isplitl [Hheld]; · iexact Hheld
      iexact HOw
    isplitr; · iexact Hlev
    isplitl [Hg0] <;> iassumption
  iintro ⟨Hb, HTS⟩
  unfold TS
  icases HTS with ⟨Hheld, HOw⟩
  -- the table flattened, the pad value made and converted, the table padded
  iapply (wp_hlo_within 𝒱 (SparseCore.T d) none Set.univ (op := opFlat) (S := Pipeline.ucRefs τ sig) hFlat (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opZero) (S := Pipeline.ucRefs τ sig) hZero (V := (opFlat (F := F)).result (V1 m d))) $$ [Hb Hheld]
  · isplitl [Hb]; · iexact Hb
    iexact Hheld
  iintro ⟨Hb, Hheld⟩
  rw [wp_ret]; imodintro
  iapply (wp_hlo_within 𝒱 (SparseCore.T d) none Set.univ (op := opCvt) (S := Pipeline.ucRefs τ sig) hCvt (V := (opZero (F := F)).result ((opFlat (F := F)).result (V1 m d)))) $$ [Hb Hheld]
  · isplitl [Hb]; · iexact Hb
    iexact Hheld
  iintro ⟨Hb, Hheld⟩
  rw [wp_ret]; imodintro
  iapply (wp_hlo_within 𝒱 (SparseCore.T d) none Set.univ (op := opPad) (S := Pipeline.ucRefs τ sig) hPad (V := (opCvt (F := F)).result ((opZero (F := F)).result ((opFlat (F := F)).result (V1 m d))))) $$ [Hb Hheld]
  · isplitl [Hb]; · iexact Hb
    iexact Hheld
  iintro ⟨Hb, Hheld⟩
  rw [wp_ret]; imodintro
  imodintro
  -- the SparseCore call: x, y, the table and the partial sums out of the held buffers, cut among the tiles
  ihave Hheld := (Entails.of_eq (show (held (SparseCore.T d) (Pipeline.ucRefs τ sig) ((opPad (F := F)).result ((opCvt (F := F)).result ((opZero (F := F)).result ((opFlat (F := F)).result (V1 m d))))) : sProp 𝕄)
      = held (SparseCore.T d) (Pipeline.ucRefs τ sig) (V2 m d) from rfl)) $$ Hheld
  ihave Hh := (Entails.of_eq (held_sub_split (SparseCore.T d) hT4 (V2 m d))) $$ Hheld
  icases Hh with ⟨H4, Hrest⟩
  ihave H4' := (Entails.of_eq (held_T4_V2 m d)) $$ H4
  ihave Hsp := (tiles_split d (m (xLoc d)) (m (yLoc d)) (wCof m d) (m (oLoc d))) $$ H4'
  icases Hsp with ⟨Hdrop, Htiles⟩
  iapply ((K (F := F)).wp_run (D (F := F)) 𝒱 (EH := EH) (P := PV m (wCof m) pv) κ d 0) $$ [HOw Htail Htiles Hdrop Hrest Hb Hg1 Ht1]
  isplitr; · iexact Hctx
  isplitl [HOw Htail]
  · iapply (Entails.of_eq (tcSt_eq (F := F) d 0).symm)
    isplitl [HOw] <;> iassumption
  isplitl [Htiles]
  · iexact Htiles
  iintro ⟨Hst, Hdn⟩
  -- back: the tiles' quadruples rejoined, the partial sums at what the tiles left
  ihave Hj := (tiles_joinV d (m (xLoc d)) (m (yLoc d)) (wCof m d) (pv d)) $$ [Hdrop Hdn]
  · isplitl [Hdrop]; · iexact Hdrop
    iexact Hdn
  icases Hj with ⟨Hx, Hy, Hw, Ho⟩
  ihave H4 := (Entails.of_eq (held_T4_V3 m d (pv d)).symm) $$ [Hx Hy Hw Ho]
  · isplitl [Hx]; · iexact Hx
    isplitl [Hy]; · iexact Hy
    isplitl [Hw] <;> iassumption
  ihave Hrest' := (Entails.of_eq (held_rest_V3 m d (pv d)).symm) $$ Hrest
  ihave Hheld := (Entails.of_eq (held_sub_split (SparseCore.T d) hT4 (V3 m d (pv d))).symm) $$ [H4 Hrest']
  · isplitl [H4] <;> iassumption
  ihave Hst' := (Entails.of_eq (show (K (F := F)).tcSt EH d ((0 : Fin 1).val + 1) = _ from tcSt_eq (F := F) d 1)) $$ Hst
  icases Hst' with ⟨HOw, Htail⟩
  -- the mean's call
  iapply (wp_region1 (V0 m d) (V3 m d (pv d)) 0 1 d _) $$ [Hb Hheld HOw Hg1 Ht1 Htail]
  isplitl [Htail]
  swap
  · isplitl [Hb]; · iexact Hb
    isplitl [Hheld HOw]
    · unfold TS
      isplitl [Hheld]; · iexact Hheld
      iexact HOw
    isplitr; · iexact Hlev
    isplitl [Hg1] <;> iassumption
  iintro ⟨Hb, HTS⟩
  unfold TS
  icases HTS with ⟨Hheld, HOw⟩
  -- the result reshaped to a scalar
  iapply (wp_hlo_within 𝒱 (SparseCore.T d) none Set.univ (op := opOut) (S := Pipeline.ucRefs τ sig) hOut (V := V4 m d (pv d))) $$ [Hb Hheld]
  · isplitl [Hb]; · iexact Hb
    iexact Hheld
  iintro ⟨Hb, Hheld⟩
  rw [wp_ret]; imodintro; imodintro
  isplitl [HOw Htail]
  · iapply (Entails.of_eq (tcSt_eq (F := F) d 1).symm)
    isplitl [HOw] <;> iassumption
  ihave Hheld := (Entails.of_eq (show (held (SparseCore.T d) (Pipeline.ucRefs τ sig) ((opOut (F := F)).result (V4 m d (pv d))) : sProp 𝕄)
      = held (SparseCore.T d) (Pipeline.ucRefs τ sig) (V5 m d (pv d)) from rfl)) $$ Hheld
  ihave Hh := (Entails.of_eq (held_sub_split (SparseCore.T d) hA6 (V5 m d (pv d)))) $$ Hheld
  icases Hh with ⟨HA, -⟩
  iapply (held_A6_V5 m d (pv d)); iexact HA

def fqV (d : Dev nD) (s' : Phys nD τ sig (Elt F)) : Prop :=
  fq m d s' ∧ s'.mem.mem ((SparseCore.T d).loc main_v5) = V5 m d (pv d) r5'

theorem hfinV (d : Dev nD) (s' : Phys nD τ sig (Elt F)) : iprop(FINV m pv d ∗ SI s') ⊢ (⌜fqV m pv d s'⌝ : sProp 𝕄) := by
  iintro ⟨⟨HF, Hr⟩, HSI⟩
  ihave H := (agree_whole (F := F) _ s') $$ [Hr HSI]
  · isplitl [Hr] <;> iassumption
  icases H with ⟨%h6, HSI⟩
  ihave H := (hfin m d s') $$ [HF HSI]
  · isplitl [HF] <;> iassumption
  icases H with %h
  ipureintro; exact ⟨h, h6⟩

def QCV : PUnit × MemSt nD τ sig (Elt F) → Prop := fun r => ∀ c : Dev nD,
  (r.2.mem (xLoc c) = m (xLoc c) ∧ r.2.mem (yLoc c) = m (yLoc c) ∧ r.2.mem (eLoc c) = m (eLoc c) ∧ r.2.mem (fLoc c) = m (fLoc c) ∧ r.2.mem (bLoc c) = m (bLoc c))
    ∧ r.2.mem ((SparseCore.T c).loc main_v5) = V5 m c (pv c) r5'

/-- If every tile leaves `pv` on its block: every weakly fair execution terminates, the arguments unchanged, the result
    array at what the last call and the reshape make of `pv`. -/
theorem run_main_val [∀ e, Nonempty (Elt F e)] (hval : TileVal m (wCof m) pv) :
    θ_run (Cert.KernelIdeal.defs (F := F)) (Cert.KernelIdeal.threads (F := F)) ⟨m, fun _ => 0, ρ⟩ (QCV m pv) :=
  SparseCore.Cfg.θ_run_sc (K := K (F := F)) (D := D (F := F)) (𝒱 := 𝒱) (EH := EH) (P := PV m (wCof m) pv) facts v₀
    (fun q hq => match q with | 0 => nomatch hq)
    (fun q _ => match q with | 0 => tileOblV m (wCof m) pv hval)
    (fun q _ => match q with | 0 => SparseCore.Cfg.VecSplit.of_plain (vecSplitV m (wCof m) pv))
    m ρ main (G (F := F)) (FINV m pv) (u₀ (F := F)) (sep_elim_left.trans (hu₀V m (wCof m) pv)) (hmainV m ρ pv) (fqV m pv) (hfinV m pv) (QCV m pv) (fun _ h => h)

end Cert.Proof.KI

end
-- ==== Proof.KI.ValueRead.lean ====
/-
  The two TensorCore calls' results read: after the table's call its array holds the table's payload of the three
  argument arrays, after the mean's call its array holds the mean's payload of the partial sums.
-/
import proofs.«205364_g71897752535391_cont_9to1_m_950_21_alg».proof.Proof.KI.ValueMain
import Idealize.ShloMosaic.Lib.Pipeline.Value
import Idealize.ShloMosaic.Lib.ValueIdx
import Idealize.ShloMosaic.Lib.StableHlo.Run

set_option maxRecDepth 16384

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.Sem
open Idealize.ShloMosaic.Pipeline (Dat Cfg Window)
open Idealize.ShloMosaic.ValueIdx (ix1 ix2)
open Idealize.ShloMosaic.StableHlo (after after_cons after_nil)

variable {F : FTy → Type} [FloatOps F] [∀ e, Nonempty (Elt F e)]

variable (W : Valuation τ sig (Elt F)) (n : ℕ)

theorem hz2 : (![0, 0] : Fin 2 → Nat) = fun _ => 0 := funext fun a => by fin_cases a <;> rfl
theorem hz1 : (![0] : Fin 1 → Nat) = fun _ => 0 := funext fun a => by fin_cases a; rfl

/-- After the table's call its array holds the table. -/
theorem arr0_final (c : Dev nD) :
    (dat0 W n c).arrAt 3 cfg0.N = k0_pay1 (rd W c main_arg2) (rd W c main_arg3) (rd W c main_arg4) := by
  refine (dat0 W n c).arrAt_eq_of_cover 3 _ (fun t _ => ?_) (fun i => ?_)
  · show (cfg0.win 3).cut (grid0.coords t) ((dat0 W n c).after 3 t) = _
    rw [after0_3]
    unfold outTab
    rw [View.canon_unit_zero hz2]
    simp only [View.ld_unit_zero (S := S10x4) hz2, View.ld_unit_zero (S := S5x4) hz2, View.ld_unit_zero (S := S5) hz1]
    obtain rfl := fin_N0 t
    have e0 : iblk0 W c 0 t0_0 = rd W c main_arg2 := by
      funext i
      unfold iblk0
      rw [View.read_apply]
      show rd W c main_arg2 (((cfg0.win 0).blk t0_0).view.emb i) = rd W c main_arg2 i
      congr 1
      funext a; apply Fin.ext
      match a with
      | ⟨0, _⟩ => show win0_0.index t0_0 (0 : Fin 2) * 10 + 1 * (i 0).val = (i 0).val; have : win0_0.index t0_0 (0 : Fin 2) = 0 := rfl; omega
      | ⟨1, _⟩ => show win0_0.index t0_0 (1 : Fin 2) * 4 + 1 * (i 1).val = (i 1).val; have : win0_0.index t0_0 (1 : Fin 2) = 0 := rfl; omega
    have e1 : iblk0 W c 1 t0_0 = rd W c main_arg3 := by
      funext i
      unfold iblk0
      rw [View.read_apply]
      show rd W c main_arg3 (((cfg0.win 1).blk t0_0).view.emb i) = rd W c main_arg3 i
      congr 1
      funext a; apply Fin.ext
      match a with
      | ⟨0, _⟩ => show win0_1.index t0_0 (0 : Fin 2) * 5 + 1 * (i 0).val = (i 0).val; have : win0_1.index t0_0 (0 : Fin 2) = 0 := rfl; omega
      | ⟨1, _⟩ => show win0_1.index t0_0 (1 : Fin 2) * 4 + 1 * (i 1).val = (i 1).val; have : win0_1.index t0_0 (1 : Fin 2) = 0 := rfl; omega
    have e2 : iblk0 W c 2 t0_0 = rd W c main_arg4 := by
      funext i
      unfold iblk0
      rw [View.read_apply]
      show rd W c main_arg4 (((cfg0.win 2).blk t0_0).view.emb i) = rd W c main_arg4 i
      congr 1
      funext a; apply Fin.ext
      match a with
      | ⟨0, _⟩ => show win0_2.index t0_0 (0 : Fin 1) * 5 + 1 * (i 0).val = (i 0).val; have : win0_2.index t0_0 (0 : Fin 1) = 0 := rfl; omega
    rw [e0, e1, e2]
    funext j
    rw [View.read_apply]
    show k0_pay1 (rd W c main_arg2) (rd W c main_arg3) (rd W c main_arg4) ((win0 3).xinj (grid0.coords t0_0) j) = k0_pay1 (rd W c main_arg2) (rd W c main_arg3) (rd W c main_arg4) (((View.whole main_v0).slice ((win0 3).rect t0_0)).emb j)
    congr 1
    funext a; apply Fin.ext
    match a with
    | ⟨0, _⟩ => show (j 0).val = win0_3.index t0_0 (0 : Fin 2) * 10 + 1 * (j 0).val; have : win0_3.index t0_0 (0 : Fin 2) = 0 := rfl; omega
    | ⟨1, _⟩ => show (j 1).val = win0_3.index t0_0 (1 : Fin 2) * 5 + 1 * (j 1).val; have : win0_3.index t0_0 (1 : Fin 2) = 0 := rfl; omega
  · refine ⟨t0_0, rfl, ?_⟩
    show i ∈ ((View.whole main_v0).slice (win0_3.rect t0_0)).set
    rw [View.set_slice_whole, Rect.mem_set_unit]
    intro a
    match a with
    | ⟨0, _⟩ => show win0_3.index t0_0 (0 : Fin 2) * 10 ≤ (i 0).val ∧ (i 0).val < win0_3.index t0_0 (0 : Fin 2) * 10 + 10; have : win0_3.index t0_0 (0 : Fin 2) = 0 := rfl; have hi : (i 0).val < 10 := (i 0).isLt; omega
    | ⟨1, _⟩ => show win0_3.index t0_0 (1 : Fin 2) * 5 ≤ (i 1).val ∧ (i 1).val < win0_3.index t0_0 (1 : Fin 2) * 5 + 5; have : win0_3.index t0_0 (1 : Fin 2) = 0 := rfl; have hi : (i 1).val < 5 := (i 1).isLt; omega

/-- After the mean's call its array holds the mean. -/
theorem arr1_final (c : Dev nD) :
    (dat1 W n c).arrAt 1 cfg2.N = k2_pay1 (rd W c main_v3) := by
  refine (dat1 W n c).arrAt_eq_of_cover 1 _ (fun t _ => ?_) (fun i => ?_)
  · show (cfg2.win 1).cut (grid2.coords t) ((dat1 W n c).after 1 t) = _
    rw [after1_1]
    unfold outRes
    rw [View.canon_unit_zero hz2]
    simp only [View.ld_unit_zero (S := S512) hz1]
    obtain rfl := fin_N2 t
    have e0 : iblk1 W c 0 t2_0 = rd W c main_v3 := by
      funext i
      unfold iblk1
      rw [View.read_apply]
      show rd W c main_v3 (((cfg2.win 0).blk t2_0).view.emb i) = rd W c main_v3 i
      congr 1
      funext a; apply Fin.ext
      match a with
      | ⟨0, _⟩ => show win2_0.index t2_0 (0 : Fin 1) * 512 + 1 * (i 0).val = (i 0).val; have : win2_0.index t2_0 (0 : Fin 1) = 0 := rfl; omega
    rw [e0]
    funext j
    rw [View.read_apply]
    show k2_pay1 (rd W c main_v3) ((win2 1).xinj (grid2.coords t2_0) j) = k2_pay1 (rd W c main_v3) (((View.whole main_v4).slice ((win2 1).rect t2_0)).emb j)
    congr 1
    funext a; apply Fin.ext
    match a with
    | ⟨0, _⟩ => show (j 0).val = win2_1.index t2_0 (0 : Fin 2) * 1 + 1 * (j 0).val; have : win2_1.index t2_0 (0 : Fin 2) = 0 := rfl; omega
    | ⟨1, _⟩ => show (j 1).val = win2_1.index t2_0 (1 : Fin 2) * 1 + 1 * (j 1).val; have : win2_1.index t2_0 (1 : Fin 2) = 0 := rfl; omega
  · refine ⟨t2_0, rfl, ?_⟩
    show i ∈ ((View.whole main_v4).slice (win2_1.rect t2_0)).set
    rw [View.set_slice_whole, Rect.mem_set_unit]
    intro a
    match a with
    | ⟨0, _⟩ => show win2_1.index t2_0 (0 : Fin 2) * 1 ≤ (i 0).val ∧ (i 0).val < win2_1.index t2_0 (0 : Fin 2) * 1 + 1; have : win2_1.index t2_0 (0 : Fin 2) = 0 := rfl; have hi : (i 0).val < 1 := (i 0).isLt; omega
    | ⟨1, _⟩ => show win2_1.index t2_0 (1 : Fin 2) * 1 ≤ (i 1).val ∧ (i 1).val < win2_1.index t2_0 (1 : Fin 2) * 1 + 1; have : win2_1.index t2_0 (1 : Fin 2) = 0 := rfl; have hi : (i 1).val < 1 := (i 1).isLt; omega

/-! ## The padded table and the result, through the host operations -/

variable (m : (ℓ : Loc nD τ sig) → Buf (Elt F) ℓ)

/-- The table as the SparseCore call finds it: the first call's payload of the three argument arrays, flattened and
    padded to 64 words with zeros. -/
theorem wCof_eq (d : Dev nD) :
    wCof (F := F) m d = (pad S64 ![0] ![14] ![0] (shapeCast S50 (k0_pay1 (F := F) (m (eLoc d)) (m (fLoc d)) (m (bLoc d))) shapeCasts_S10x5_S50)
      (sitofp (F := F) .f32 (constantI S_ 32 0#32)) pads_S50_S64_0140 h_S_ : S64.Idx → F .f32) := by
  have h0 : V1 (F := F) m d (Proc.devRef .tc main_v0) = k0_pay1 (F := F) (m (eLoc d)) (m (fLoc d)) (m (bLoc d)) := by
    unfold V1 W0'
    rw [Function.update_self]
    exact arr0_final (V0 (F := F) m d) 0 d
  unfold wCof V2
  show after [opFlat (F := F), opZero, opCvt, opPad] (V1 (F := F) m d) (Proc.devRef .tc main_v2) = _
  after_results_simp
  rw [h0]
  rfl

/-- The result after the last reshape: the mean's payload of what the tiles left, at its one entry. -/
theorem V5_eq (d : Dev nD) (g : Buf (Elt F) (oLoc d)) :
    V5 (F := F) m d g (Proc.devRef .tc main_v5) = (fun _ => k2_pay1 (F := F) g (ix2 (0 : Fin 1) (0 : Fin 1)) : S_.Idx → F .f32) := by
  have h4 : V4 (F := F) m d g (Proc.devRef .tc main_v4) = k2_pay1 (F := F) g := by
    unfold V4 W1'
    rw [Function.update_self]
    refine (arr1_final (V3 (F := F) m d g) 1 d).trans (congrArg (k2_pay1 (F := F)) ?_)
    show V3 (F := F) m d g o' = g
    unfold V3
    exact Function.update_self _ _ _
  unfold V5
  show after [opOut (F := F)] (V4 (F := F) m d g) (Proc.devRef .tc main_v5) = _
  after_results_simp
  rw [h4]
  funext i
  exact shapeCast_apply (k2_pay1 (F := F) g) shapeCasts_S1x1_S_ i (ValueIdx.ix2 (0 : Fin 1) (0 : Fin 1)) (by
    rw [Shape.rowMajor_val_two]
    show 0 * 1 + 0 = (S_.rowMajor i).val
    have := (S_.rowMajor i).isLt
    have hn : S_.numel = 1 := rfl
    omega)

end Cert.Proof.KI

end
-- ==== Proof.KI.TableValue.lean ====
/-
  The two TensorCore payloads of the idealized kernel read at an entry: the table the first call stores is the
  specification's table entry by entry, and the word the last call stores is the sum of the 512 partial sums over the
  token count.
-/
import proofs.«205364_g71897752535391_cont_9to1_m_950_21_alg».proof.Proof.Gen.KernelIdeal.Skeleton
import proofs.«205364_g71897752535391_cont_9to1_m_950_21_alg».proof.Proof.SpecReal
import Idealize.ShloMosaic.Lib.ValueIdx
import Idealize.ShloMosaic.Lib.Pipeline.Value
import Idealize.ShloMosaic.PureOps.Ideal.Laws

noncomputable section

namespace Cert.Proof.KI

open Cert.KernelIdeal Cert.KernelIdeal.Gen Idealize.ShloMosaic Idealize.ShloMosaic.ValueIdx

/-! ## The mean -/

/-- The last call's word: the 512 partial sums added, over the token count. -/
theorem k2_pay1_apply (P : Vec Ideal S512 .f32) :
    k2_pay1 (F := Ideal) P (ix2 (0 : Fin 1) (0 : Fin 1)) = Ideal.div (∑ j : Fin 512, P (ix1 j)) (Ideal.ofBits .f32 0x4A480000#32) := by
  unfold k2_pay1
  dsimp only
  rw [broadcast_apply, Ideal.scalar_divf_def]
  refine congrArg (fun v => Ideal.div v (Ideal.ofBits .f32 0x4A480000#32)) ?_
  unfold extractAt
  refine (shapeCast_apply _ _ _ (ix1 (0 : Fin 1)) ?_).trans ?_
  · rw [Shape.rowMajor_val_one, Shape.rowMajor_val_two]
    rfl
  refine (Ideal.multiReduction_add_single _ _ _ _ _ _).trans ?_
  refine Finset.sum_congr rfl fun k _ => ?_
  refine (shapeCast_apply _ _ _ (ix1 k) ?_).trans (congrFun (shapeCast_self P _) _)
  rw [Shape.rowMajor_val_one, Shape.rowMajor_val_two]
  show k.val = 0 * 512 + k.val
  omega

/-! ## The table -/

/-- The format's minus infinity. -/
theorem ofBits_neg_inf : Ideal.ofBits .f32 0xFF800000#32 = ⊥ := by simp [Ideal.ofBits, Ideal.ieee]

/-- A fold of `max` from minus infinity is the supremum. -/
theorem fold_max_bot (f : Fin 5 → EReal) : (Finset.univ : Finset (Fin 5)).fold max ⊥ f = Spec.top5 f := rfl

/-- A column of ten laid out [10, 1] and broadcast along the rows reads its row's entry. -/
theorem colB_apply (v : FVec Ideal S10 .f32) (h1 : S10.ShapeCasts S10x1) (h2 : S10x1.Broadcasts S10x5) (r : Fin 10) (c : Fin 5) :
    broadcastTo S10x5 (shapeCast S10x1 v h1) h2 (ix2 r c) = v (ix1 r) := by
  refine (broadcastTo_apply _ h2 _ (ix2 r (0 : Fin 1)) fun a => ?_).trans (shapeCast_apply v h1 _ (ix1 r) ?_)
  · match a with
    | ⟨0, _⟩ => rfl
    | ⟨1, _⟩ => rfl
  · rw [Shape.rowMajor_val_one, Shape.rowMajor_val_two]
    show r.val = r.val * 1 + 0
    omega

/-- The bias laid out [1, 5] and broadcast down the columns reads its column's entry. -/
theorem rowB_apply (B : FVec Ideal S5 .f32) (h1 : S5.ShapeCasts S1x5) (h2 : S1x5.Broadcasts S10x5) (r : Fin 10) (c : Fin 5) :
    broadcastTo S10x5 (shapeCast S1x5 B h1) h2 (ix2 r c) = B (ix1 c) := by
  refine (broadcastTo_apply _ h2 _ (ix2 (0 : Fin 1) c) fun a => ?_).trans (shapeCast_apply B h1 _ (ix1 c) ?_)
  · match a with
    | ⟨0, _⟩ => rfl
    | ⟨1, _⟩ => rfl
  · rw [Shape.rowMajor_val_one, Shape.rowMajor_val_two]
    show c.val = 0 * 5 + c.val
    omega

/-- A row's maximum from minus infinity. -/
theorem rowMaxK_apply (z : FVec Ideal S10x5 .f32) (h : S10x5.Reduces [(1 : Fin S10x5.rank)] S10) (hφ : FKind.Formats .f32)
    (hacc : (0xFF800000#32 : BitVec FTy.f32.bits) = FKind.maximumf.neutral .f32 hφ) (r : Fin 10) :
    multiReduction (F := Ideal) .maximumf [1] S10 z 0xFF800000#32 h hφ hacc (ix1 r) = Spec.top5 (fun c => z (ix2 r c)) := by
  rw [Ideal.multiReduction_maximumf_single]
  show (Finset.univ : Finset (Fin 5)).fold max (Ideal.ofBits .f32 0xFF800000#32) _ = _
  rw [ofBits_neg_inf]
  refine (fold_max_bot _).trans (congrArg Spec.top5 (funext fun c => congrArg z (funext fun a => Fin.ext ?_)))
  match a with
  | ⟨0, _⟩ => rfl
  | ⟨1, _⟩ => rfl

/-- A row's sum. -/
theorem rowSumK_apply (z : FVec Ideal S10x5 .f32) (h : S10x5.Reduces [(1 : Fin S10x5.rank)] S10) (hφ : FKind.Formats .f32)
    (hacc : (0x00000000#32 : BitVec FTy.f32.bits) = FKind.add.neutral .f32 hφ) (r : Fin 10) :
    multiReduction (F := Ideal) .add [1] S10 z 0x00000000#32 h hφ hacc (ix1 r) = ∑ k : Fin 5, z (ix2 r k) := by
  rw [Ideal.multiReduction_add_single]
  refine Finset.sum_congr rfl fun k _ => congrArg z (funext fun a => Fin.ext ?_)
  match a with
  | ⟨0, _⟩ => rfl
  | ⟨1, _⟩ => rfl

theorem lhsK_0 (i : S10x5.Idx) (q : dot_S10x4_S5x4_S10x5_1_1_0_0_n_n.contr.Idx) : (dot_S10x4_S5x4_S10x5_1_1_0_0_n_n.lhsIdx i q 0).val = (i 0).val := by
  unfold DotDims.lhsIdx
  rw [dif_neg (show ¬(0 : Fin S10x4.rank) ∈ dot_S10x4_S5x4_S10x5_1_1_0_0_n_n.lhsBatch by decide), dif_pos (show (0 : Fin S10x4.rank) ∈ dot_S10x4_S5x4_S10x5_1_1_0_0_n_n.lhsNonContracting by decide)]
  rfl
theorem lhsK_1 (i : S10x5.Idx) (q : dot_S10x4_S5x4_S10x5_1_1_0_0_n_n.contr.Idx) : (dot_S10x4_S5x4_S10x5_1_1_0_0_n_n.lhsIdx i q 1).val = (q ⟨0, by decide⟩).val :=
  dot_S10x4_S5x4_S10x5_1_1_0_0_n_n.lhsIdx_val_of_single rfl i q
theorem rhsK_0 (i : S10x5.Idx) (q : dot_S10x4_S5x4_S10x5_1_1_0_0_n_n.contr.Idx) : (dot_S10x4_S5x4_S10x5_1_1_0_0_n_n.rhsIdx i q 0).val = (i 1).val := by
  unfold DotDims.rhsIdx
  rw [dif_neg (show ¬(0 : Fin S5x4.rank) ∈ dot_S10x4_S5x4_S10x5_1_1_0_0_n_n.rhsBatch by decide), dif_pos (show (0 : Fin S5x4.rank) ∈ dot_S10x4_S5x4_S10x5_1_1_0_0_n_n.rhsNonContracting by decide)]
  rfl
theorem rhsK_1 (i : S10x5.Idx) (q : dot_S10x4_S5x4_S10x5_1_1_0_0_n_n.contr.Idx) : (dot_S10x4_S5x4_S10x5_1_1_0_0_n_n.rhsIdx i q 1).val = (q ⟨0, by decide⟩).val :=
  dot_S10x4_S5x4_S10x5_1_1_0_0_n_n.rhsIdx_val_of_single rfl i q

/-- The matrix product into a zero accumulator at an entry: the row of the embedding against the class's weights. -/
theorem matmulK_apply (E : FVec Ideal S10x4 .f32) (W : FVec Ideal S5x4 .f32) (r : Fin 10) (c : Fin 5) :
    matmul (F := Ideal) dot_S10x4_S5x4_S10x5_1_1_0_0_n_n none E W (constant S10x5 .f32 0x00000000#32) (ix2 r c) = ∑ k : Fin 4, E (ix2 r k) * W (ix2 c k) := by
  refine (Ideal.matmul_constant_zero_apply _ _ _ _ _).trans ?_
  rw [← Equiv.sum_comp (contrEquiv1 dot_S10x4_S5x4_S10x5_1_1_0_0_n_n 4 rfl rfl).symm]
  refine Finset.sum_congr rfl fun k _ => ?_
  have hk := contrEquiv1_symm_val dot_S10x4_S5x4_S10x5_1_1_0_0_n_n 4 rfl rfl k
  refine congrArg₂ (· * ·) (congrArg E (funext fun a => Fin.ext ?_)) (congrArg W (funext fun a => Fin.ext ?_))
  · match a with
    | ⟨0, _⟩ => exact lhsK_0 (ix2 r c) _
    | ⟨1, _⟩ => exact (lhsK_1 _ _).trans hk
  · match a with
    | ⟨0, _⟩ => exact rhsK_0 (ix2 r c) _
    | ⟨1, _⟩ => exact (rhsK_1 _ _).trans hk

/-- The scores: the embedding against the weights, plus the bias along the rows. -/
def scoresK (E : FVec Ideal S10x4 .f32) (W : FVec Ideal S5x4 .f32) (B : FVec Ideal S5 .f32) : FVec Ideal S10x5 .f32 :=
  addf (matmul (F := Ideal) dot_S10x4_S5x4_S10x5_1_1_0_0_n_n none E W (constant S10x5 .f32 0x00000000#32))
    (broadcastTo S10x5 (shapeCast S1x5 B shapeCasts_S5_S1x5) broadcasts_S1x5_S10x5)

/-- Each row's exponentials of its entries less the row's largest. -/
def shiftK (z : FVec Ideal S10x5 .f32) : FVec Ideal S10x5 .f32 := exp (subf z (broadcastTo S10x5 (shapeCast S10x1 (multiReduction (F := Ideal) .maximumf [1] S10 z 0xFF800000#32 reduces_S10x5_S10 (.inl rfl) rfl) shapeCasts_S10_S10x1) broadcasts_S10x1_S10x5))

/-- Each row's softmax. -/
def softK (z : FVec Ideal S10x5 .f32) : FVec Ideal S10x5 .f32 :=
  divf (shiftK z) (broadcastTo S10x5 (shapeCast S10x1 (multiReduction (F := Ideal) .add [1] S10 (shiftK z) 0x00000000#32 reduces_S10x5_S10 (.inl rfl) rfl) shapeCasts_S10_S10x1) broadcasts_S10x1_S10x5)

/-- Each row's log-sum-exp less its entries. -/
def lseK (p : FVec Ideal S10x5 .f32) : FVec Ideal S10x5 .f32 :=
  subf (broadcastTo S10x5
      (addf (log (shapeCast S10x1 (multiReduction (F := Ideal) .add [1] S10 (shiftK p) 0x00000000#32 reduces_S10x5_S10 (.inl rfl) rfl) shapeCasts_S10_S10x1))
        (shapeCast S10x1 (multiReduction (F := Ideal) .maximumf [1] S10 p 0xFF800000#32 reduces_S10x5_S10 (.inl rfl) rfl) shapeCasts_S10_S10x1))
      broadcasts_S10x1_S10x5) p

/-- The first call's payload is those three stages composed. -/
theorem k0_pay1_eq (E : FVec Ideal S10x4 .f32) (W : FVec Ideal S5x4 .f32) (B : FVec Ideal S5 .f32) :
    k0_pay1 (F := Ideal) E W B = lseK (softK (scoresK E W B)) := by
  unfold k0_pay1 lseK softK shiftK scoresK
  rfl

theorem expV_apply {s : Shape} (v : FVec Ideal s .f32) (i : s.Idx) : exp (F := Ideal) v i = Ideal.exp (v i) := rfl
theorem logV_apply {s : Shape} (v : FVec Ideal s .f32) (i : s.Idx) : log (F := Ideal) v i = Ideal.log (v i) := rfl

theorem scoresK_apply (E : FVec Ideal S10x4 .f32) (W : FVec Ideal S5x4 .f32) (B : FVec Ideal S5 .f32) (r : Fin 10) (c : Fin 5) :
    scoresK E W B (ix2 r c) = Cert.Spec.score (fun r k => E (ix2 r k)) (fun c k => W (ix2 c k)) (fun c => B (ix1 c)) r c := by
  unfold scoresK
  rw [addf_apply, matmulK_apply, rowB_apply]
  rfl

theorem shiftK_apply (z : FVec Ideal S10x5 .f32) (r : Fin 10) (c : Fin 5) :
    shiftK z (ix2 r c) = Ideal.exp (z (ix2 r c) - Cert.Spec.top5 (fun c' => z (ix2 r c'))) := by
  unfold shiftK
  rw [expV_apply, subf_apply, colB_apply]
  exact congrArg (fun v => Ideal.exp (z (ix2 r c) - v)) (rowMaxK_apply z _ _ _ r)

theorem softK_apply (z : FVec Ideal S10x5 .f32) (r : Fin 10) (c : Fin 5) :
    softK z (ix2 r c) = Cert.Spec.softmax5 (fun c' => z (ix2 r c')) c := by
  unfold softK Cert.Spec.softmax5
  rw [divf_apply, shiftK_apply, colB_apply]
  exact congrArg (Ideal.div _) ((rowSumK_apply (shiftK z) _ _ _ r).trans (Finset.sum_congr rfl fun k _ => shiftK_apply z r k))

theorem lseK_apply (p : FVec Ideal S10x5 .f32) (r : Fin 10) (c : Fin 5) :
    lseK p (ix2 r c) = Cert.Spec.lse5 (fun c' => p (ix2 r c')) - p (ix2 r c) := by
  unfold lseK Cert.Spec.lse5
  rw [subf_apply]
  refine congrArg (fun v => v - p (ix2 r c)) ?_
  refine (broadcastTo_apply _ broadcasts_S10x1_S10x5 _ (ix2 r (0 : Fin 1)) fun a => ?_).trans ?_
  · match a with
    | ⟨0, _⟩ => rfl
    | ⟨1, _⟩ => rfl
  have hrm : (S10.rowMajor (ix1 r)).val = (S10x1.rowMajor (ix2 r (0 : Fin 1))).val := by
    rw [Shape.rowMajor_val_one, Shape.rowMajor_val_two]
    show r.val = r.val * 1 + 0
    omega
  rw [addf_apply, logV_apply]
  refine congrArg₂ (· + ·) (congrArg Ideal.log ?_) ?_
  · refine (shapeCast_apply _ shapeCasts_S10_S10x1 _ (ix1 r) hrm).trans ?_
    exact (rowSumK_apply (shiftK p) _ _ _ r).trans (Finset.sum_congr rfl fun k _ => shiftK_apply p r k)
  · exact (shapeCast_apply _ shapeCasts_S10_S10x1 _ (ix1 r) hrm).trans (rowMaxK_apply _ _ _ _ r)

/-- The first call's table entry by entry is the specification's: the log-sum-exp of row `r`'s class probabilities
    less the probability of class `c`. -/
theorem k0_pay1_apply (E : FVec Ideal S10x4 .f32) (W : FVec Ideal S5x4 .f32) (B : FVec Ideal S5 .f32) (r : Fin 10) (c : Fin 5) :
    k0_pay1 (F := Ideal) E W B (ix2 r c)
      = Cert.Spec.entry (fun r k => E (ix2 r k)) (fun c k => W (ix2 c k)) (fun c => B (ix1 c)) r c := by
  have hp : (fun c' => softK (scoresK E W B) (ix2 r c'))
      = Cert.Spec.softmax5 (Cert.Spec.score (fun r k => E (ix2 r k)) (fun c k => W (ix2 c k)) (fun c => B (ix1 c)) r) :=
    funext fun c' => (softK_apply _ r c').trans (congrArg (fun f => Cert.Spec.softmax5 f c') (funext fun c'' => scoresK_apply E W B r c''))
  rw [k0_pay1_eq, lseK_apply]
  unfold Cert.Spec.entry
  rw [hp, congrFun hp c]

end Cert.Proof.KI

end
-- ==== Proof.KI.SumRegroup.lean ====
/-
  Two pure facts for the value of the idealized kernel: the tiles' lane-vectors of tokens, taken tile by tile and lane
  by lane, are all the tokens once each; and the host's padded, flattened table reads the table's entry at 5·x + y.
-/
import proofs.«205364_g71897752535391_cont_9to1_m_950_21_alg».proof.KernelIdeal
import Idealize.ShloMosaic.Lib.ValueIdx
import Idealize.ShloMosaic.Lib.Pipeline.Value
import Idealize.ShloMosaic.Lib.KernelVsHost

noncomputable section

namespace Cert.Proof.KI

open Cert.KernelIdeal Idealize.ShloMosaic Idealize.ShloMosaic.ValueIdx

/-! ## The tokens regrouped -/

/-- Output word `j` (tile `j / 16`, lane `j % 16`) and lane-vector `n` of the tile's 102400 tokens name token
    `102400 · (j / 16) + 16 · n + j % 16`: a bijection onto the tokens. -/
def regroupEquiv : Fin 512 × Fin 6400 ≃ Fin 3276800 where
  toFun p := ⟨102400 * (p.1.val / 16) + 16 * p.2.val + p.1.val % 16, by
    have := p.1.isLt
    have := p.2.isLt
    omega⟩
  invFun t := (⟨16 * (t.val / 102400) + t.val % 16, by
      have := t.isLt
      omega⟩, ⟨t.val % 102400 / 16, by
      have := t.isLt
      omega⟩)
  left_inv p := by
    obtain ⟨⟨j, hj⟩, ⟨n, hn⟩⟩ := p
    simp only [Prod.mk.injEq, Fin.mk.injEq]
    constructor <;> omega
  right_inv t := by
    apply Fin.ext
    have := t.isLt
    simp only
    omega

/-- A sum over the tiles' output words and lane-vectors is the sum over the tokens. -/
theorem sum_regroup {M : Type*} [AddCommMonoid M] (g : Fin 3276800 → M) :
    ∑ j : Fin 512, ∑ n : Fin 6400, g ⟨102400 * (j.val / 16) + 16 * n.val + j.val % 16, by
        have := j.isLt
        have := n.isLt
        omega⟩ = ∑ t : Fin 3276800, g t := by
  rw [← Equiv.sum_comp regroupEquiv g, Fintype.sum_prod_type]
  rfl

/-! ## The padded table -/

/-- The table flattened to 50 words and padded to 64 reads, at word `5 · x + y`, the table's entry `(x, y)`. -/
theorem padTable_apply {α : Type} (T : S10x5.Idx → α) {u : Shape} (v : u.Idx → α) (h1 : S10x5.ShapeCasts S50)
    (h2 : S50.Pads (![0] : Fin 1 → Nat) ![14] ![0] S64) (hu : 0 < u.numel) (x : Fin 10) (y : Fin 5) :
    pad S64 ![0] ![14] ![0] (shapeCast S50 T h1) v h2 hu (ix1 (⟨5 * x.val + y.val, by
        have := x.isLt
        have := y.isLt
        omega⟩ : Fin 64)) = T (ix2 x y) := by
  have hb : 5 * x.val + y.val < 50 := by
    have := x.isLt
    have := y.isLt
    omega
  refine (pad_apply_of_inside ![0] ![14] ![0] _ v h2 hu _ (ix1 (⟨5 * x.val + y.val, hb⟩ : Fin 50)) fun a => ?_).trans
    (shapeCast_apply T h1 _ (ix2 x y) ?_)
  · match a with
    | ⟨0, _⟩ =>
      show 5 * x.val + y.val = 0 + (5 * x.val + y.val) * (0 + 1)
      omega
  · rw [Shape.rowMajor_val_two, Shape.rowMajor_val_one]
    show x.val * 5 + y.val = 5 * x.val + y.val
    omega

end Cert.Proof.KI

end
-- ==== Proof.KI.ValueMath.lean ====
/-
  The kernel's formula is the specification: if each output word holds the sum, over its tile's tokens of its lane, of
  the padded table at 5·x + y, then the mean the last call takes of the 512 words is the specification's loss.
-/
import proofs.«205364_g71897752535391_cont_9to1_m_950_21_alg».proof.Proof.KI.TableValue
import proofs.«205364_g71897752535391_cont_9to1_m_950_21_alg».proof.Proof.KI.SumRegroup

noncomputable section

namespace Cert.Proof.KI

open Cert.KernelIdeal Cert.KernelIdeal.Gen Idealize.ShloMosaic Idealize.ShloMosaic.ValueIdx

variable (x : IVec S16384x200 32) (y : IVec S3276800 32) (E : FVec Ideal S10x4 .f32) (W : FVec Ideal S5x4 .f32) (B : FVec Ideal S5 .f32)

/-- The table the first call stores, flattened to 50 words and padded to 64 with zeros. -/
def wT : Vec Ideal S64 .f32 :=
  pad S64 ![0] ![14] ![0] (shapeCast S50 (k0_pay1 (F := Ideal) E W B) shapeCasts_S10x5_S50)
    (sitofp (F := Ideal) .f32 (constantI S_ 32 0#32)) pads_S50_S64_0140 h_S_

/-- The padded table at a natural number, zero past its 64 words. -/
def wTN (k : Nat) : EReal := if h : k < 64 then wT E W B (ix1 (⟨k, h⟩ : Fin 64)) else 0

/-- The token that output word `j` (tile `j / 16`, lane `j % 16`) meets in its `n`-th lane-vector. -/
def tokOf (j : Fin 512) (n : Fin 6400) : Fin 3276800 := regroupEquiv (j, n)

/-- What the tiles are to leave: output word `j` sums the padded table at 5·x + y over its tile's tokens of its lane. -/
def pvS : Vec Ideal S512 .f32 := fun i =>
  ∑ n : Fin 6400, wTN E W B
    (5 * (x (ix2 (⟨(tokOf (i 0) n).val / 200, by have := (tokOf (i 0) n).isLt; omega⟩ : Fin 16384)
        (⟨(tokOf (i 0) n).val % 200, Nat.mod_lt _ (by decide)⟩ : Fin 200))).toNat
      + (y (ix1 (tokOf (i 0) n))).toNat)

/-- With x ≤ 9 and y ≤ 4 everywhere, the mean of those 512 words is the specification's loss. -/
theorem value_math (hx : ∀ i, (x i).toNat ≤ 9) (hy : ∀ i, (y i).toNat ≤ 4) :
    k2_pay1 (F := Ideal) (pvS x y E W B) (ix2 (0 : Fin 1) (0 : Fin 1))
      = Cert.Spec.loss (fun i j => (x (ix2 i j)).toNat) (fun t => (y (ix1 t)).toNat)
          (fun r k => E (ix2 r k)) (fun c k => W (ix2 c k)) (fun c => B (ix1 c)) := by
  rw [k2_pay1_apply]
  unfold Cert.Spec.loss
  refine congrArg (fun v => Ideal.div v (Ideal.ofBits .f32 0x4A480000#32)) ?_
  obtain ⟨g, hg⟩ : ∃ g : Fin 3276800 → EReal, g = (fun t : Fin 3276800 => wTN E W B
          (5 * (x (ix2 (⟨t.val / 200, by have := t.isLt; omega⟩ : Fin 16384) (⟨t.val % 200, Nat.mod_lt _ (by decide)⟩ : Fin 200))).toNat
            + (y (ix1 t)).toNat)) := ⟨_, rfl⟩
  have hL : (∑ j : Fin 512, pvS x y E W B (ix1 j)) = ∑ p : Fin 512 × Fin 6400, g (regroupEquiv p) := by
    rw [Fintype.sum_prod_type, hg]
    rfl
  rw [hL, Equiv.sum_comp regroupEquiv g, hg]
  refine Finset.sum_congr rfl fun t _ => ?_
  have hxt := hx (ix2 (⟨t.val / 200, by have := t.isLt; omega⟩ : Fin 16384) (⟨t.val % 200, Nat.mod_lt _ (by decide)⟩ : Fin 200))
  have hyt := hy (ix1 t)
  unfold wTN Cert.Spec.entryN
  beta_reduce
  rw [dif_pos (show 5 * (x (ix2 (⟨t.val / 200, by have := t.isLt; omega⟩ : Fin 16384) (⟨t.val % 200, Nat.mod_lt _ (by decide)⟩ : Fin 200))).toNat
      + (y (ix1 t)).toNat < 64 by omega), dif_pos ⟨Nat.lt_succ_of_le hxt, Nat.lt_succ_of_le hyt⟩]
  unfold wT
  exact (padTable_apply _ _ _ _ _ ⟨_, Nat.lt_succ_of_le hxt⟩ ⟨_, Nat.lt_succ_of_le hyt⟩).trans (k0_pay1_apply E W B _ _)

end Cert.Proof.KI

end
-- ==== Proof.KI.ValueFinal.lean ====
/-
  The idealized kernel's result from the tiles' values: if every tile leaves on its sixteen words the lane-wise sums of
  the padded table at 5·x + y over its tokens, the run's result is the specification's loss of the arguments.
-/
import proofs.«205364_g71897752535391_cont_9to1_m_950_21_alg».proof.Proof.KI.ValueRead
import proofs.«205364_g71897752535391_cont_9to1_m_950_21_alg».proof.Proof.KI.ValueMath
import proofs.«205364_g71897752535391_cont_9to1_m_950_21_alg».proof.Proof.KI.Frame
import proofs.«205364_g71897752535391_cont_9to1_m_950_21_alg».proof.Proof.RefValue

noncomputable section

namespace Cert.Proof.KI

open Cert.KernelIdeal Cert.KernelIdeal.Gen
open Idealize.ShloMosaic Idealize.ShloMosaic.ValueIdx Idealize.SL.Sem
open Idealize.ShloMosaic.SparseCore (S V T)

/-- What the tiles are to leave in the partial sums, from the launch memory. -/
def pvBuf (m : (ℓ : Loc nD τ sig) → Buf (Elt Ideal) ℓ) (d : Dev nD) : Buf (Elt Ideal) (oLoc d) :=
  pvS (m (xLoc d)) (m (yLoc d)) (m (eLoc d)) (m (fLoc d)) (m (bLoc d))

/-- From the tiles' values to the program's: under the precondition, if every tile leaves `pvBuf m` on its block, every
    weakly fair execution terminates with the result array at the specification's loss of the arguments, the arguments kept. -/
theorem kernel_value_of_tile (m : (ℓ : Loc nD τ sig) → Buf (Elt Ideal) ℓ) (ρ : Dev nD → PrngReg) (hpre : Cert.Pre_KernelIdeal m)
    (hval : TileVal (F := Ideal) m (wCof m) (pvBuf m)) :
    θ_run (Cert.KernelIdeal.defs (F := Ideal)) (Cert.KernelIdeal.threads (F := Ideal)) ⟨m, fun _ => 0, ρ⟩
      (fun r => ∀ c : Dev nD,
        r.2.mem ((c.tc : Thread nD τ).loc main_v5)
            = Cert.RefSide.specVal (m ((c.tc : Thread nD τ).loc main_arg0)) (m ((c.tc : Thread nD τ).loc main_arg1))
                (m ((c.tc : Thread nD τ).loc main_arg2)) (m ((c.tc : Thread nD τ).loc main_arg3)) (m ((c.tc : Thread nD τ).loc main_arg4))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)) := by
  have hok := ok_of_pre m hpre
  refine (θ_run Cert.KernelIdeal.defs _ _).mono (fun r h c => ?_) (run_main_val (F := Ideal) m ρ (pvBuf m) hval)
  obtain ⟨⟨k0, k1, k2, k3, k4⟩, hv⟩ := h c
  refine ⟨?_, k0, k1, k2, k3, k4⟩
  rw [show r.2.mem ((c.tc : Thread nD τ).loc main_v5) = V5 m c (pvBuf m c) r5' from hv, V5_eq]
  unfold Cert.RefSide.specVal pvBuf
  funext _
  exact value_math (m (xLoc c)) (m (yLoc c)) (m (eLoc c)) (m (fLoc c)) (m (bLoc c)) (hok c).1 (hok c).2

end Cert.Proof.KI

end
-- ==== Proof.KI.TileValDefs.lean ====
/-
  The tile's accumulated value, named: the four accumulators' lane-wise sum, the table and the chunk's words read at
  natural numbers, and the sum one trip adds to a lane.
-/
import proofs.«205364_g71897752535391_cont_9to1_m_950_21_alg».proof.Proof.KI.TileRes
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

/-- The four accumulators' sum at a lane. -/
def sum4 (a : FVec Ideal S16 .f32 × FVec Ideal S16 .f32 × FVec Ideal S16 .f32 × FVec Ideal S16 .f32) (l : Fin 16) : EReal :=
  a.1 (ix1 l) + a.2.1 (ix1 l) + a.2.2.1 (ix1 l) + a.2.2.2 (ix1 l)

/-- The table's scratch at a natural number, zero past its 64 words. -/
def tabN (g0 : S64.Idx → EReal) (k : Nat) : EReal := if h : k < 64 then g0 (ix1 (⟨k, h⟩ : Fin 64)) else 0

/-- The chunk's x word of token `j` of the chunk's 12800, as a natural number. -/
def xw (g1 : S64x200.Idx → BitVec 32) (j : Nat) : Nat :=
  if h : j < 12800 then (g1 (ix2 (⟨j / 200, by omega⟩ : Fin 64) (⟨j % 200, Nat.mod_lt _ (by decide)⟩ : Fin 200))).toNat else 0

/-- The chunk's y word of token `j`. -/
def yw (g3 : S12800.Idx → BitVec 32) (j : Nat) : Nat := if h : j < 12800 then (g3 (ix1 (⟨j, h⟩ : Fin 12800))).toNat else 0

/-- What trip `i` adds to lane `l`: the table at 5·x + y over the trip's 25 lane-vectors. -/
def tripSum (g0 : S64.Idx → EReal) (g1 : S64x200.Idx → BitVec 32) (g3 : S12800.Idx → BitVec 32) (i : Nat) (l : Fin 16) : EReal :=
  ∑ u : Fin 25, tabN g0 (5 * xw g1 (400 * i + 16 * u.val + l.val) + yw g3 (400 * i + 16 * u.val + l.val))

/-- The loops' invariant with the value: the scratches as they are, and the accumulators' lane sums so far. -/
def invLV (thr : Thread nD τ) (a : Memref sig thr.2.kind .vmem S64 .f32) (b : Memref sig thr.2.kind .vmem S64x200 .i32)
    (cc : Memref sig thr.2.kind .vmem S12800 .i32)
    (g0 : Buf (Elt Ideal) (a.view.loc thr)) (g1 : Buf (Elt Ideal) (b.view.loc thr)) (g3 : Buf (Elt Ideal) (cc.view.loc thr))
    (G0 : S64.Idx → EReal) (G1 : S64x200.Idx → BitVec 32) (G3 : S12800.Idx → BitVec 32)
    (base : Fin 16 → EReal) (k : Nat) (acc : FVec Ideal S16 .f32 × FVec Ideal S16 .f32 × FVec Ideal S16 .f32 × FVec Ideal S16 .f32) : sProp 𝕄 :=
  iprop(invL (F := Ideal) thr a b cc g0 g1 g3 k acc ∗ ⌜∀ l, sum4 acc l = base l + ∑ i ∈ Finset.range k, tripSum G0 G1 G3 i l⌝)

end Cert.Proof.KI

end
-- ==== Proof.KI.BlockMath.lean ====
/-
  The eight chunks' trip sums of one tile and lane are the word the tiles are to leave there: the chunks, trips and
  lane-vectors of a tile are its 6400 lane-vectors once each.
-/
import proofs.«205364_g71897752535391_cont_9to1_m_950_21_alg».proof.Proof.KI.TileValDefs
import proofs.«205364_g71897752535391_cont_9to1_m_950_21_alg».proof.Proof.KI.ValueMath

noncomputable section

namespace Cert.Proof.KI

open Cert.KernelIdeal Cert.KernelIdeal.Gen Idealize.ShloMosaic Idealize.ShloMosaic.ValueIdx

/-- Chunk `n`, trip `i`, lane-vector `u` of a tile is its lane-vector `800 · n + 25 · i + u`. -/
def chunkEquiv : (Fin 8 × Fin 32) × Fin 25 ≃ Fin 6400 where
  toFun p := ⟨800 * p.1.1.val + 25 * p.1.2.val + p.2.val, by
    have := p.1.1.isLt
    have := p.1.2.isLt
    have := p.2.isLt
    omega⟩
  invFun t := ((⟨t.val / 800, by have := t.isLt; omega⟩, ⟨t.val % 800 / 25, by have := t.isLt; omega⟩), ⟨t.val % 25, Nat.mod_lt _ (by decide)⟩)
  left_inv p := by
    obtain ⟨⟨⟨n, hn⟩, ⟨i, hi⟩⟩, ⟨u, hu⟩⟩ := p
    simp only [Prod.mk.injEq, Fin.mk.injEq]
    refine ⟨⟨?_, ?_⟩, ?_⟩ <;> omega
  right_inv t := by
    apply Fin.ext
    have := t.isLt
    simp only
    omega

/-- The table's scratch holding the padded table, read at a natural number. -/
theorem tabN_wT (E : FVec Ideal S10x4 .f32) (W : FVec Ideal S5x4 .f32) (B : FVec Ideal S5 .f32) (k : Nat) :
    tabN (wT E W B) k = wTN E W B k := rfl

theorem block_math (x : IVec S16384x200 32) (y : IVec S3276800 32) (E : FVec Ideal S10x4 .f32) (W : FVec Ideal S5x4 .f32) (B : FVec Ideal S5 .f32) (w : Fin 32)
    (G0 : S64.Idx → EReal) (GX : Fin 8 → S64x200.Idx → BitVec 32) (GY : Fin 8 → S12800.Idx → BitVec 32)
    (hG0 : G0 = wT E W B)
    (hGX : ∀ (n : Fin 8) (j : Nat) (hj : j < 12800), xw (GX n) j
      = (x (ix2 (⟨(102400 * w.val + 12800 * n.val + j) / 200, by have := w.isLt; have := n.isLt; omega⟩ : Fin 16384)
          (⟨(102400 * w.val + 12800 * n.val + j) % 200, Nat.mod_lt _ (by decide)⟩ : Fin 200))).toNat)
    (hGY : ∀ (n : Fin 8) (j : Nat) (hj : j < 12800), yw (GY n) j
      = (y (ix1 (⟨102400 * w.val + 12800 * n.val + j, by have := w.isLt; have := n.isLt; omega⟩ : Fin 3276800))).toNat)
    (l : Fin 16) :
    ∑ n : Fin 8, ∑ i ∈ Finset.range 32, tripSum G0 (GX n) (GY n) i l
      = pvS x y E W B (ix1 (⟨16 * w.val + l.val, by have := w.isLt; have := l.isLt; omega⟩ : Fin 512)) := by
  subst hG0
  obtain ⟨Φ, hΦ⟩ : ∃ Φ : Fin 3276800 → EReal, Φ = fun t => wTN E W B
      (5 * (x (ix2 (⟨t.val / 200, by have := t.isLt; omega⟩ : Fin 16384) (⟨t.val % 200, Nat.mod_lt _ (by decide)⟩ : Fin 200))).toNat
        + (y (ix1 t)).toNat) := ⟨_, rfl⟩
  have hR : pvS x y E W B (ix1 (⟨16 * w.val + l.val, by have := w.isLt; have := l.isLt; omega⟩ : Fin 512))
      = ∑ n' : Fin 6400, Φ (tokOf (⟨16 * w.val + l.val, by have := w.isLt; have := l.isLt; omega⟩ : Fin 512) n') := by
    rw [hΦ]
    rfl
  have hF : ∀ (n : Fin 8) (i : Fin 32) (u : Fin 25),
      tabN (wT E W B) (5 * xw (GX n) (400 * i.val + 16 * u.val + l.val) + yw (GY n) (400 * i.val + 16 * u.val + l.val))
        = Φ (tokOf (⟨16 * w.val + l.val, by have := w.isLt; have := l.isLt; omega⟩ : Fin 512) (chunkEquiv ((n, i), u))) := by
    intro n i u
    have hJ : 400 * i.val + 16 * u.val + l.val < 12800 := by
      have := i.isLt
      have := u.isLt
      have := l.isLt
      omega
    rw [hGX n _ hJ, hGY n _ hJ, tabN_wT, hΦ]
    have ht : (⟨102400 * w.val + 12800 * n.val + (400 * i.val + 16 * u.val + l.val), by
        have := w.isLt; have := n.isLt; omega⟩ : Fin 3276800)
        = tokOf (⟨16 * w.val + l.val, by have := w.isLt; have := l.isLt; omega⟩ : Fin 512) (chunkEquiv ((n, i), u)) := by
      apply Fin.ext
      show 102400 * w.val + 12800 * n.val + (400 * i.val + 16 * u.val + l.val)
        = 102400 * ((16 * w.val + l.val) / 16) + 16 * (800 * n.val + 25 * i.val + u.val) + (16 * w.val + l.val) % 16
      have := l.isLt
      omega
    rw [← ht]
  rw [hR, ← Equiv.sum_comp chunkEquiv, Fintype.sum_prod_type, Fintype.sum_prod_type]
  refine Finset.sum_congr rfl fun n _ => ?_
  rw [← Fin.sum_univ_eq_sum_range (fun i => tripSum (wT E W B) (GX n) (GY n) i l) 32]
  refine Finset.sum_congr rfl fun i _ => ?_
  unfold tripSum
  exact Finset.sum_congr rfl fun u _ => hF n i u

end Cert.Proof.KI

end
-- ==== Proof.KI.ChunkRead.lean ====
/-
  A landed chunk read against the arrays: what the x and y scratches hold after a chunk's copy, word by word, and the
  arithmetic that places a tile's chunk in the arrays.
-/
import proofs.«205364_g71897752535391_cont_9to1_m_950_21_alg».proof.Proof.KI.TileValDefs

noncomputable section

namespace Cert.Proof.KI

open Cert.KernelIdeal Cert.KernelIdeal.Gen Idealize.ShloMosaic Idealize.ShloMosaic.ValueIdx

/-- What the x scratch 1 holds after a chunk of 64 rows from row `R` of x has landed: token `j` of the chunk is x at
    row `R + j / 200`, column `j % 200`. -/
theorem chunk_x1 (mx : (main_arg0_scv : Ref sig .scVector).ty.Contents (Elt Ideal)) (off : Fin 2 → Nat) (R : Nat) (hoff : off = ![R, 0])
    (hR : R + 64 ≤ 16384) (inb : ∀ a, off a + S64x200.size a ≤ S16384x200.size a)
    (hw : ∀ a, (Rect.unit (s := S16384x200) off S64x200.size inb).stride a = 1)
    (prev : (cc1_scratch1 : Ref sig .scVector).ty.Contents (Elt Ideal)) (j : Nat) (hj : j < 12800) :
    xw (View.write (Elt Ideal) (Memref.whole cc1_scratch1).view prev
        (ReadAs.same.apply (View.read (Elt Ideal) ((Memref.whole main_arg0_scv).slice (Rect.unit (s := S16384x200) off S64x200.size inb) hw).view mx)) Finset.univ) j
      = (mx (ix2 (⟨R + j / 200, by omega⟩ : Fin 16384) (⟨j % 200, Nat.mod_lt _ (by decide)⟩ : Fin 200))).toNat := by
  subst hoff
  unfold xw
  rw [dif_pos hj]
  refine congrArg BitVec.toNat ?_
  refine (congrFun (View.write_whole_univ (Val := Elt Ideal) cc1_scratch1 prev _) _).trans ?_
  show mx _ = mx _
  refine congrArg mx (funext fun a => Fin.ext ?_)
  match a with
  | ⟨0, _⟩ =>
    show R + 1 * (j / 200) = R + j / 200
    omega
  | ⟨1, _⟩ =>
    show 0 + 1 * (j % 200) = j % 200
    omega

/-- What the x scratch 2 holds after a chunk of 64 rows from row `R` of x has landed: token `j` of the chunk is x at
    row `R + j / 200`, column `j % 200`. -/
theorem chunk_x2 (mx : (main_arg0_scv : Ref sig .scVector).ty.Contents (Elt Ideal)) (off : Fin 2 → Nat) (R : Nat) (hoff : off = ![R, 0])
    (hR : R + 64 ≤ 16384) (inb : ∀ a, off a + S64x200.size a ≤ S16384x200.size a)
    (hw : ∀ a, (Rect.unit (s := S16384x200) off S64x200.size inb).stride a = 1)
    (prev : (cc1_scratch2 : Ref sig .scVector).ty.Contents (Elt Ideal)) (j : Nat) (hj : j < 12800) :
    xw (View.write (Elt Ideal) (Memref.whole cc1_scratch2).view prev
        (ReadAs.same.apply (View.read (Elt Ideal) ((Memref.whole main_arg0_scv).slice (Rect.unit (s := S16384x200) off S64x200.size inb) hw).view mx)) Finset.univ) j
      = (mx (ix2 (⟨R + j / 200, by omega⟩ : Fin 16384) (⟨j % 200, Nat.mod_lt _ (by decide)⟩ : Fin 200))).toNat := by
  subst hoff
  unfold xw
  rw [dif_pos hj]
  refine congrArg BitVec.toNat ?_
  refine (congrFun (View.write_whole_univ (Val := Elt Ideal) cc1_scratch2 prev _) _).trans ?_
  show mx _ = mx _
  refine congrArg mx (funext fun a => Fin.ext ?_)
  match a with
  | ⟨0, _⟩ =>
    show R + 1 * (j / 200) = R + j / 200
    omega
  | ⟨1, _⟩ =>
    show 0 + 1 * (j % 200) = j % 200
    omega

/-- What the y scratch 3 holds after a chunk of 12800 words from word `R` of y has landed: token `j` of the chunk is y
    at `R + j`. -/
theorem chunk_y3 (my : (main_arg1_scv : Ref sig .scVector).ty.Contents (Elt Ideal)) (off : Fin 1 → Nat) (R : Nat) (hoff : off = ![R])
    (hR : R + 12800 ≤ 3276800) (inb : ∀ a, off a + S12800.size a ≤ S3276800.size a)
    (hw : ∀ a, (Rect.unit (s := S3276800) off S12800.size inb).stride a = 1)
    (prev : (cc1_scratch3 : Ref sig .scVector).ty.Contents (Elt Ideal)) (j : Nat) (hj : j < 12800) :
    yw (View.write (Elt Ideal) (Memref.whole cc1_scratch3).view prev
        (ReadAs.same.apply (View.read (Elt Ideal) ((Memref.whole main_arg1_scv).slice (Rect.unit (s := S3276800) off S12800.size inb) hw).view my)) Finset.univ) j
      = (my (ix1 (⟨R + j, by omega⟩ : Fin 3276800))).toNat := by
  subst hoff
  unfold yw
  rw [dif_pos hj]
  refine congrArg BitVec.toNat ?_
  refine (congrFun (View.write_whole_univ (Val := Elt Ideal) cc1_scratch3 prev _) _).trans ?_
  show my _ = my _
  refine congrArg my (funext fun a => Fin.ext ?_)
  match a with
  | ⟨0, _⟩ =>
    show R + 1 * j = R + j
    omega

/-- What the y scratch 4 holds after a chunk of 12800 words from word `R` of y has landed: token `j` of the chunk is y
    at `R + j`. -/
theorem chunk_y4 (my : (main_arg1_scv : Ref sig .scVector).ty.Contents (Elt Ideal)) (off : Fin 1 → Nat) (R : Nat) (hoff : off = ![R])
    (hR : R + 12800 ≤ 3276800) (inb : ∀ a, off a + S12800.size a ≤ S3276800.size a)
    (hw : ∀ a, (Rect.unit (s := S3276800) off S12800.size inb).stride a = 1)
    (prev : (cc1_scratch4 : Ref sig .scVector).ty.Contents (Elt Ideal)) (j : Nat) (hj : j < 12800) :
    yw (View.write (Elt Ideal) (Memref.whole cc1_scratch4).view prev
        (ReadAs.same.apply (View.read (Elt Ideal) ((Memref.whole main_arg1_scv).slice (Rect.unit (s := S3276800) off S12800.size inb) hw).view my)) Finset.univ) j
      = (my (ix1 (⟨R + j, by omega⟩ : Fin 3276800))).toNat := by
  subst hoff
  unfold yw
  rw [dif_pos hj]
  refine congrArg BitVec.toNat ?_
  refine (congrFun (View.write_whole_univ (Val := Elt Ideal) cc1_scratch4 prev _) _).trans ?_
  show my _ = my _
  refine congrArg my (funext fun a => Fin.ext ?_)
  match a with
  | ⟨0, _⟩ =>
    show R + 1 * j = R + j
    omega

/-- Tile `w = 2·s + c`, chunk `t`, token `j` of the chunk: its row and column in x and its place in y. -/
theorem chunk_place (w c s t j : Nat) (hw : w = 2 * s + c) (hj : j < 12800) :
    (102400 * w + 12800 * t + j) / 200 = 1024 * s + 512 * c + 64 * t + j / 200
      ∧ (102400 * w + 12800 * t + j) % 200 = j % 200
      ∧ 102400 * w + 12800 * t + j = 204800 * s + 102400 * c + 12800 * t + j := by
  subst hw
  refine ⟨?_, ?_, ?_⟩ <;> omega

end Cert.Proof.KI

end
-- ==== Proof.KI.BlockFinal.lean ====
/-
  The word a tile leaves at a lane is the word the tiles are to leave there: the accumulators' sums telescope over the
  eight chunks to the chunks' trip sums, which are the tile's tokens of that lane.
-/
import proofs.«205364_g71897752535391_cont_9to1_m_950_21_alg».proof.Proof.KI.BlockMath
import proofs.«205364_g71897752535391_cont_9to1_m_950_21_alg».proof.Proof.KI.ChunkRead
import proofs.«205364_g71897752535391_cont_9to1_m_950_21_alg».proof.Proof.KI.ValueFinal

noncomputable section

namespace Cert.Proof.KI

open Cert.KernelIdeal Cert.KernelIdeal.Gen Idealize.ShloMosaic Idealize.ShloMosaic.ValueIdx
open Idealize.ShloMosaic.SparseCore (S V T)

/-- Lane `l` of what tile `w = 2·s + c` stores is word `16·w + l` of what the tiles are to leave. -/
theorem block_value_lane (m : (ℓ : Loc nD τ sig) → Buf (Elt Ideal) ℓ) (d : Dev nD) (c : Fin 2) (s : Fin 16) (w : Fin 32) (hw : w.val = 2 * s.val + c.val)
    (p : FVec Ideal S16 .f32)
    (a0 a1 a2 a3 a4 a5 a6 a7 a8 : FVec Ideal S16 .f32 × FVec Ideal S16 .f32 × FVec Ideal S16 .f32 × FVec Ideal S16 .f32)
    (hp : ∀ l : Fin 16, p (ix1 l) = sum4 a8 l) (h0 : ∀ l, sum4 a0 l = 0)
    (G0 : S64.Idx → EReal) (hG0 : G0 = wT (m (eLoc d)) (m (fLoc d)) (m (bLoc d)))
    (GX : Fin 8 → S64x200.Idx → BitVec 32) (GY : Fin 8 → S12800.Idx → BitVec 32)
    (hs : ∀ (n : Fin 8) (l : Fin 16), sum4 (![a1, a2, a3, a4, a5, a6, a7, a8] n) l
      = sum4 (![a0, a1, a2, a3, a4, a5, a6, a7] n) l + ∑ i ∈ Finset.range 32, tripSum G0 (GX n) (GY n) i l)
    (hX : ∀ (n : Fin 8) (j : Nat) (hj : j < 12800), xw (GX n) j
      = BitVec.toNat (m (xLoc d) (ix2 (⟨1024 * s.val + 512 * c.val + 64 * n.val + j / 200, by
          have := s.isLt; have := c.isLt; have := n.isLt; omega⟩ : Fin 16384) (⟨j % 200, Nat.mod_lt _ (by decide)⟩ : Fin 200))))
    (hY : ∀ (n : Fin 8) (j : Nat) (hj : j < 12800), yw (GY n) j
      = BitVec.toNat (m (yLoc d) (ix1 (⟨204800 * s.val + 102400 * c.val + 12800 * n.val + j, by
          have := s.isLt; have := c.isLt; have := n.isLt; omega⟩ : Fin 3276800))))
    (l : Fin 16) :
    p (ix1 l) = pvBuf m d (ix1 (⟨16 * w.val + l.val, by have := w.isLt; have := l.isLt; omega⟩ : Fin 512)) := by
  have e1 : sum4 a1 l = sum4 a0 l + _ := hs 0 l
  have e2 : sum4 a2 l = sum4 a1 l + _ := hs 1 l
  have e3 : sum4 a3 l = sum4 a2 l + _ := hs 2 l
  have e4 : sum4 a4 l = sum4 a3 l + _ := hs 3 l
  have e5 : sum4 a5 l = sum4 a4 l + _ := hs 4 l
  have e6 : sum4 a6 l = sum4 a5 l + _ := hs 5 l
  have e7 : sum4 a7 l = sum4 a6 l + _ := hs 6 l
  have e8 : sum4 a8 l = sum4 a7 l + _ := hs 7 l
  have hB := block_math (m (xLoc d)) (m (yLoc d)) (m (eLoc d)) (m (fLoc d)) (m (bLoc d)) w G0 GX GY hG0
    (fun n j hj => by
      rw [hX n j hj]
      obtain ⟨q1, q2, -⟩ := chunk_place w.val c.val s.val n.val j hw hj
      refine congrArg (fun i => BitVec.toNat (m (xLoc d) i)) (funext fun a => Fin.ext ?_)
      match a with
      | ⟨0, _⟩ => exact q1.symm
      | ⟨1, _⟩ => exact q2.symm)
    (fun n j hj => by
      rw [hY n j hj]
      obtain ⟨-, -, q3⟩ := chunk_place w.val c.val s.val n.val j hw hj
      refine congrArg (fun i => BitVec.toNat (m (yLoc d) i)) (funext fun a => Fin.ext ?_)
      match a with
      | ⟨0, _⟩ => exact q3.symm) l
  unfold pvBuf
  rw [← hB, Fin.sum_univ_eight, hp l, e8, e7, e6, e5, e4, e3, e2, e1, h0 l, zero_add]

end Cert.Proof.KI

end
-- ==== Proof.KI.WritesBlock.lean ====
/-
  The tile's slice of the partial sums written whole: its indices are the tile's sixteen words, word l holding lane l.
-/
import proofs.«205364_g71897752535391_cont_9to1_m_950_21_alg».proof.Proof.KI.TileBody
import Idealize.ShloMosaic.Lib.ValueIdx
import Idealize.ShloMosaic.Lib.Pipeline.FrameBody
import Idealize.ShloMosaic.Lib.Pipeline.Value
noncomputable section
namespace Cert.Proof.KI
open Cert.KernelIdeal Cert.KernelIdeal.Gen
open Idealize.ShloMosaic Idealize.ShloMosaic.ValueIdx
open Idealize.ShloMosaic.SparseCore (S V T)
open Idealize.SL Idealize.SL.Sem

/-- The tile's slice written whole with `p` holds `p`'s lane l at the block's l-th word, and the slice's indices are those words. -/
theorem writes_block (d : Dev nD) (c : Fin (grid1.bound 0)) (s : Fin (grid1.bound 1)) (f : Buf (Elt Ideal) (oLoc d)) (p : FVec Ideal S16 .f32)
    (idx : S512.Idx) (hidx : idx ∈ (oSl c s).view.set) :
    ∃ (l : Fin 16) (h : 32 * s.val + 16 * c.val + l.val < 512), idx = ix1 (⟨32 * s.val + 16 * c.val + l.val, h⟩ : Fin 512)
      ∧ (oSl c s).view.writes (Elt Ideal) f [⟨Rect.whole S16, p⟩] idx = p (ix1 l) := by
  have hset : (oSl c s).view.set = (rO c s).set := View.set_slice_whole _ _
  rw [hset, Rect.mem_set_unit] at hidx
  have h0 := hidx 0
  rw [k1_off205_eq] at h0
  simp only [coordsV] at h0
  simp only [Matrix.cons_val_zero] at h0
  have hc : c.val < 2 := c.isLt
  have hs : s.val < 16 := s.isLt
  refine ⟨⟨(idx 0).val - (32 * s.val + 16 * c.val), by omega⟩, by simp only; omega, ?_, ?_⟩
  · funext a
    obtain rfl : a = 0 := Subsingleton.elim _ _
    apply Fin.ext
    show (idx 0).val = 32 * s.val + 16 * c.val + ((idx 0).val - (32 * s.val + 16 * c.val))
    omega
  · have hr := congrFun (View.read_writes_eq_canon (oSl c s).view f [⟨Rect.whole S16, p⟩]
      (fun y => ⟨_, List.mem_singleton.mpr rfl, by rw [Rect.set_whole]; exact Finset.mem_univ y⟩)) (ix1 ⟨(idx 0).val - (32 * s.val + 16 * c.val), by omega⟩)
    rw [View.read_apply] at hr
    have hemb : (oSl c s).view.emb (ix1 (⟨(idx 0).val - (32 * s.val + 16 * c.val), by omega⟩ : Fin 16)) = idx := by
      funext a
      apply Fin.ext
      match a with
      | ⟨0, _⟩ =>
      show k1_off205 (coordsV c s) 0 + 1 * ((idx 0).val - (32 * s.val + 16 * c.val)) = (idx 0).val
      rw [k1_off205_eq]
      simp only [coordsV, Matrix.cons_val_zero]
      omega
    have hcan : View.canon [(⟨Rect.whole S16, p⟩ : View.Piece (Elt Ideal) S16 .f32)] = p := by
      show View.canon [(⟨Rect.unit (fun _ => 0) S16.size (fun _ => by simp), p⟩ : View.Piece (Elt Ideal) S16 .f32)] = p
      exact View.canon_unit_zero (Val := Elt Ideal) (S := S16) (e := .f32) rfl _ p
    rw [hemb, hcan] at hr
    exact hr

end Cert.Proof.KI
end
-- ==== Proof.KI.TileTripV1.lean ====
/-
  One trip of the tile's loop 1 at the ideal values, with the value: the four accumulators' lane sums grow by the
  table at 5·x + y over the trip's 25 lane-vectors of tokens.
-/
import proofs.«205364_g71897752535391_cont_9to1_m_950_21_alg».proof.Proof.KI.TileValDefs

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

open Lean Elab Tactic Meta in
/-- The names the run gave (`….sl.…`) and the payloads `k1_pay…`. -/
def isRunName (n : Name) : Bool :=
  n.components.contains `sl || (match n with | .str _ s => s.startsWith "k1_pay" | _ => false)

open Lean Elab Tactic Meta in
/-- `e` with every application of a run name or payload unfolded; a proof inside is kept, restated at its unfolded
    proposition. -/
partial def unfoldRunNames (e : Expr) : MetaM Expr :=
  Meta.transform e (pre := fun e => do
    if e.isApp || e.isConst then
      if ← (try Meta.isProof e catch _ => pure false) then
        let ty ← inferType e
        let ty' ← unfoldRunNames ty
        if ty' == ty then return .done e
        return .done (← mkExpectedTypeHint e ty')
      let f := e.getAppFn
      if let .const n _ := f then
        if isRunName n then
          if let some e' ← Meta.unfoldDefinition? e then
            return .visit e'.headBeta
    return .continue)

open Lean Elab Tactic Meta in
elab "unfold_run_names" : tactic => do
  let g ← getMainGoal
  let t ← instantiateMVars (← g.getType)
  let t' ← unfoldRunNames t
  let g' ← g.replaceTargetDefEq t'
  replaceMainGoal [g']

/-- The word 5·a + b of a token with a ≤ 9 and b ≤ 4, as a natural number. -/
theorem kv_toNat (a b : BitVec 32) (ha : a.toNat ≤ 9) (hb : b.toNat ≤ 4) :
    (IntOp.addi (IntOp.muli a 5#32) b).toNat = 5 * a.toNat + b.toNat := by
  have hm : (a * 5#32).toNat = a.toNat * 5 := by
    rw [BitVec.toNat_mul]
    exact Nat.mod_eq_of_lt (by show a.toNat * 5 < 2 ^ 32; omega)
  show (a * 5#32 + b).toNat = _
  rw [BitVec.toNat_add, hm]
  rw [Nat.mod_eq_of_lt (by omega)]
  omega

/-- One lane of one token vector: the table read at 5·x + y of the token the lane meets, given that the row and column
    vectors name that token's place in the chunk. -/
theorem tok_lane (g0 : (cc1_scratch0 : Ref sig .scVector).ty.Contents (Elt Ideal)) (g1 : (cc1_scratch1 : Ref sig .scVector).ty.Contents (Elt Ideal))
    (g3 : (cc1_scratch3 : Ref sig .scVector).ty.Contents (Elt Ideal))
    (hx9 : ∀ j, BitVec.toNat (g1 j) ≤ 9) (hy4 : ∀ j, BitVec.toNat (g3 j) ≤ 4)
    (row col : IVec S16 32) (hrc : ∀ a x, ((![row, col] : Fin 2 → IVec S16 32) a x).toNat < S64x200.size a)
    (off : Fin 1 → Nat) (hoff : ∀ a, off a + (![16] : Fin 1 → Nat) a ≤ S12800.size a)
    (h64 : ∀ a x, ((![addi (muli (loadIdx g1 ![row, col] hrc) (broadcast S16 5#32))
        (View.readAt (Elt Ideal) (View.whole cc1_scratch3) (Rect.unit (s := S12800) off (![16] : Fin 1 → Nat) hoff).toLoadRect g3)] : Fin 1 → IVec S16 32) a x).toNat < S64.size a)
    (l : Fin 16) (hj : off 0 + l.val < 12800)
    (hR : (row (ix1 l)).toNat = (off 0 + l.val) / 200) (hC : (col (ix1 l)).toNat = (off 0 + l.val) % 200) :
    loadIdx g0 ![addi (muli (loadIdx g1 ![row, col] hrc) (broadcast S16 5#32))
        (View.readAt (Elt Ideal) (View.whole cc1_scratch3) (Rect.unit (s := S12800) off (![16] : Fin 1 → Nat) hoff).toLoadRect g3)] h64 (ix1 l)
      = tabN g0 (5 * xw g1 (off 0 + l.val) + yw g3 (off 0 + l.val)) := by
  have hX : loadIdx g1 ![row, col] hrc (ix1 l)
      = g1 (ix2 (⟨(off 0 + l.val) / 200, by omega⟩ : Fin 64) (⟨(off 0 + l.val) % 200, Nat.mod_lt _ (by decide)⟩ : Fin 200)) := by
    unfold loadIdx
    refine congrArg g1 (funext fun a => Fin.ext ?_)
    match a with
    | ⟨0, _⟩ => exact hR
    | ⟨1, _⟩ => exact hC
  have hYv : View.readAt (Elt Ideal) (View.whole cc1_scratch3) (Rect.unit (s := S12800) off (![16] : Fin 1 → Nat) hoff).toLoadRect g3 (ix1 l)
      = g3 (ix1 (⟨off 0 + l.val, hj⟩ : Fin 12800)) := by
    rw [View.readAt_apply]
    show g3 _ = _
    refine congrArg g3 (funext fun a => Fin.ext ?_)
    match a with
    | ⟨0, _⟩ =>
      show off 0 + 1 * l.val = off 0 + l.val
      omega
  have hk : (addi (muli (loadIdx g1 ![row, col] hrc) (broadcast S16 5#32))
        (View.readAt (Elt Ideal) (View.whole cc1_scratch3) (Rect.unit (s := S12800) off (![16] : Fin 1 → Nat) hoff).toLoadRect g3) (ix1 l)).toNat
      = 5 * xw g1 (off 0 + l.val) + yw g3 (off 0 + l.val) := by
    show (IntOp.addi (IntOp.muli (loadIdx g1 ![row, col] hrc (ix1 l)) 5#32) (View.readAt (Elt Ideal) (View.whole cc1_scratch3) (Rect.unit (s := S12800) off (![16] : Fin 1 → Nat) hoff).toLoadRect g3 (ix1 l))).toNat = _
    rw [hX, hYv, kv_toNat _ _ (hx9 _) (hy4 _)]
    unfold xw yw
    rw [dif_pos hj, dif_pos hj]
  have hlt : 5 * xw g1 (off 0 + l.val) + yw g3 (off 0 + l.val) < 64 := by
    rw [← hk]
    exact h64 0 (ix1 l)
  unfold tabN
  rw [dif_pos hlt]
  unfold loadIdx
  refine congrArg g0 (funext fun a => Fin.ext ?_)
  match a with
  | ⟨0, _⟩ => exact hk

theorem readAt_whole0 (g : (cc1_scratch0 : Ref sig .scVector).ty.Contents (Elt Ideal)) :
    View.readAt (Elt Ideal) (View.whole cc1_scratch0) (LoadRect.whole S64) g = g := Memref.readAt_whole _ _ _
theorem readAt_wholeX (g : (cc1_scratch1 : Ref sig .scVector).ty.Contents (Elt Ideal)) :
    View.readAt (Elt Ideal) (View.whole cc1_scratch1) (LoadRect.whole S64x200) g = g := Memref.readAt_whole _ _ _

attribute [local sl_canon] vli_bind'

set_option sl_exec.dischHeartbeats 200000 in
set_option maxHeartbeats 8000000 in
/-- One trip of loop 1 keeps the three scratches and adds the trip's sum to the accumulators' lane sums. -/
theorem tripV_1 (d : Dev nD) (i : grid1.Coords)
    (g0 : Buf (Elt Ideal) ((Memref.whole cc1_scratch0 : Memref sig .scVector .vmem S64 .f32).view.loc (V d ((i 0).castLE hcore1) ((i 1).castLE hsub1))))
    (g1 : Buf (Elt Ideal) ((Memref.whole cc1_scratch1 : Memref sig .scVector .vmem S64x200 .i32).view.loc (V d ((i 0).castLE hcore1) ((i 1).castLE hsub1))))
    (g3 : Buf (Elt Ideal) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4) (base : Fin 16 → EReal)
    (v2 : BitVec 32) (v3 : BitVec 32) (a0 : FVec Ideal S16 .f32) (a1 : FVec Ideal S16 .f32) (a2 : FVec Ideal S16 .f32) (a3 : FVec Ideal S16 .f32) (k : Fin k1_t1_loop.trips) (acc : FVec Ideal S16 .f32 × FVec Ideal S16 .f32 × FVec Ideal S16 .f32 × FVec Ideal S16 .f32) :
    (invLV (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 g0 g1 g3 base k.val acc : sProp 𝕄)
      ⊢ wp frame (wpE (defs₀ (F := Ideal)) 𝒱₀ (V d ((i 0).castLE hcore1) ((i 1).castLE hsub1)) none) Set.univ
          (k1_t1_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invLV (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 g0 g1 g3 base (k.val + 1) r := by
  unfold invLV invL
  iintro ⟨⟨H0, H1, H3⟩, %hsum⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0 H1 H3]
  · isplitl [H0]; · iexact H0
    isplitl [H1]; · iexact H1
    iexact H3
  ipureintro
  intro l
  rw [Finset.sum_range_succ, ← add_assoc, ← hsum l]
  unfold_run_names
  simp only [readAt_whole0, readAt_wholeX, sum4, addf_apply]
  iterate 25 rw [tok_lane g0 g1 g3 hx9 hy4]
  · simp only [k1_off3_eq, k1_off4_eq, k1_off5_eq, k1_off6_eq, k1_off7_eq, k1_off8_eq, k1_off9_eq, k1_off10_eq, k1_off11_eq, k1_off12_eq, k1_off13_eq, k1_off14_eq, k1_off15_eq, k1_off16_eq, k1_off17_eq, k1_off18_eq, k1_off19_eq, k1_off20_eq, k1_off21_eq, k1_off22_eq, k1_off23_eq, k1_off24_eq, k1_off25_eq, k1_off26_eq, k1_off27_eq, Matrix.cons_val_zero]
    unfold tripSum
    rw [Fin.sum_univ_eq_sum_range (fun u => tabN g0 (5 * xw g1 (400 * k.val + 16 * u + l.val) + yw g3 (400 * k.val + 16 * u + l.val))) 25]
    simp only [Finset.sum_range_succ, Finset.sum_range_zero, Nat.reduceMul, Nat.add_zero, zero_add]
    ac_rfl
  all_goals (clear * - k l; revert k l; decide +kernel)

end Cert.Proof.KI

end
-- ==== Proof.KI.TileTripV2.lean ====
/-
  One trip of the tile's loop 2 at the ideal values, with the value: the four accumulators' lane sums grow by the
  table at 5·x + y over the trip's 25 lane-vectors of tokens.
-/
import proofs.«205364_g71897752535391_cont_9to1_m_950_21_alg».proof.Proof.KI.TileValDefs

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

namespace TV2

open Lean Elab Tactic Meta in
/-- The names the run gave (`….sl.…`) and the payloads `k1_pay…`. -/
def isRunName (n : Name) : Bool :=
  n.components.contains `sl || (match n with | .str _ s => s.startsWith "k1_pay" | _ => false)

open Lean Elab Tactic Meta in
/-- `e` with every application of a run name or payload unfolded; a proof inside is kept, restated at its unfolded
    proposition. -/
partial def unfoldRunNames (e : Expr) : MetaM Expr :=
  Meta.transform e (pre := fun e => do
    if e.isApp || e.isConst then
      if ← (try Meta.isProof e catch _ => pure false) then
        let ty ← inferType e
        let ty' ← unfoldRunNames ty
        if ty' == ty then return .done e
        return .done (← mkExpectedTypeHint e ty')
      let f := e.getAppFn
      if let .const n _ := f then
        if isRunName n then
          if let some e' ← Meta.unfoldDefinition? e then
            return .visit e'.headBeta
    return .continue)

open Lean Elab Tactic Meta in
elab "unfold_run_names" : tactic => do
  let g ← getMainGoal
  let t ← instantiateMVars (← g.getType)
  let t' ← unfoldRunNames t
  let g' ← g.replaceTargetDefEq t'
  replaceMainGoal [g']

/-- The word 5·a + b of a token with a ≤ 9 and b ≤ 4, as a natural number. -/
theorem kv_toNat (a b : BitVec 32) (ha : a.toNat ≤ 9) (hb : b.toNat ≤ 4) :
    (IntOp.addi (IntOp.muli a 5#32) b).toNat = 5 * a.toNat + b.toNat := by
  have hm : (a * 5#32).toNat = a.toNat * 5 := by
    rw [BitVec.toNat_mul]
    exact Nat.mod_eq_of_lt (by show a.toNat * 5 < 2 ^ 32; omega)
  show (a * 5#32 + b).toNat = _
  rw [BitVec.toNat_add, hm]
  rw [Nat.mod_eq_of_lt (by omega)]
  omega

/-- One lane of one token vector: the table read at 5·x + y of the token the lane meets, given that the row and column
    vectors name that token's place in the chunk. -/
theorem tok_lane (g0 : (cc1_scratch0 : Ref sig .scVector).ty.Contents (Elt Ideal)) (g1 : (cc1_scratch2 : Ref sig .scVector).ty.Contents (Elt Ideal))
    (g3 : (cc1_scratch4 : Ref sig .scVector).ty.Contents (Elt Ideal))
    (hx9 : ∀ j, BitVec.toNat (g1 j) ≤ 9) (hy4 : ∀ j, BitVec.toNat (g3 j) ≤ 4)
    (row col : IVec S16 32) (hrc : ∀ a x, ((![row, col] : Fin 2 → IVec S16 32) a x).toNat < S64x200.size a)
    (off : Fin 1 → Nat) (hoff : ∀ a, off a + (![16] : Fin 1 → Nat) a ≤ S12800.size a)
    (h64 : ∀ a x, ((![addi (muli (loadIdx g1 ![row, col] hrc) (broadcast S16 5#32))
        (View.readAt (Elt Ideal) (View.whole cc1_scratch4) (Rect.unit (s := S12800) off (![16] : Fin 1 → Nat) hoff).toLoadRect g3)] : Fin 1 → IVec S16 32) a x).toNat < S64.size a)
    (l : Fin 16) (hj : off 0 + l.val < 12800)
    (hR : (row (ix1 l)).toNat = (off 0 + l.val) / 200) (hC : (col (ix1 l)).toNat = (off 0 + l.val) % 200) :
    loadIdx g0 ![addi (muli (loadIdx g1 ![row, col] hrc) (broadcast S16 5#32))
        (View.readAt (Elt Ideal) (View.whole cc1_scratch4) (Rect.unit (s := S12800) off (![16] : Fin 1 → Nat) hoff).toLoadRect g3)] h64 (ix1 l)
      = tabN g0 (5 * xw g1 (off 0 + l.val) + yw g3 (off 0 + l.val)) := by
  have hX : loadIdx g1 ![row, col] hrc (ix1 l)
      = g1 (ix2 (⟨(off 0 + l.val) / 200, by omega⟩ : Fin 64) (⟨(off 0 + l.val) % 200, Nat.mod_lt _ (by decide)⟩ : Fin 200)) := by
    unfold loadIdx
    refine congrArg g1 (funext fun a => Fin.ext ?_)
    match a with
    | ⟨0, _⟩ => exact hR
    | ⟨1, _⟩ => exact hC
  have hYv : View.readAt (Elt Ideal) (View.whole cc1_scratch4) (Rect.unit (s := S12800) off (![16] : Fin 1 → Nat) hoff).toLoadRect g3 (ix1 l)
      = g3 (ix1 (⟨off 0 + l.val, hj⟩ : Fin 12800)) := by
    rw [View.readAt_apply]
    show g3 _ = _
    refine congrArg g3 (funext fun a => Fin.ext ?_)
    match a with
    | ⟨0, _⟩ =>
      show off 0 + 1 * l.val = off 0 + l.val
      omega
  have hk : (addi (muli (loadIdx g1 ![row, col] hrc) (broadcast S16 5#32))
        (View.readAt (Elt Ideal) (View.whole cc1_scratch4) (Rect.unit (s := S12800) off (![16] : Fin 1 → Nat) hoff).toLoadRect g3) (ix1 l)).toNat
      = 5 * xw g1 (off 0 + l.val) + yw g3 (off 0 + l.val) := by
    show (IntOp.addi (IntOp.muli (loadIdx g1 ![row, col] hrc (ix1 l)) 5#32) (View.readAt (Elt Ideal) (View.whole cc1_scratch4) (Rect.unit (s := S12800) off (![16] : Fin 1 → Nat) hoff).toLoadRect g3 (ix1 l))).toNat = _
    rw [hX, hYv, kv_toNat _ _ (hx9 _) (hy4 _)]
    unfold xw yw
    rw [dif_pos hj, dif_pos hj]
  have hlt : 5 * xw g1 (off 0 + l.val) + yw g3 (off 0 + l.val) < 64 := by
    rw [← hk]
    exact h64 0 (ix1 l)
  unfold tabN
  rw [dif_pos hlt]
  unfold loadIdx
  refine congrArg g0 (funext fun a => Fin.ext ?_)
  match a with
  | ⟨0, _⟩ => exact hk

theorem readAt_whole0 (g : (cc1_scratch0 : Ref sig .scVector).ty.Contents (Elt Ideal)) :
    View.readAt (Elt Ideal) (View.whole cc1_scratch0) (LoadRect.whole S64) g = g := Memref.readAt_whole _ _ _
theorem readAt_wholeX (g : (cc1_scratch2 : Ref sig .scVector).ty.Contents (Elt Ideal)) :
    View.readAt (Elt Ideal) (View.whole cc1_scratch2) (LoadRect.whole S64x200) g = g := Memref.readAt_whole _ _ _

end TV2
open TV2

attribute [local sl_canon] vli_bind'

set_option sl_exec.dischHeartbeats 200000 in
set_option maxHeartbeats 8000000 in
/-- One trip of loop 2 keeps the three scratches and adds the trip's sum to the accumulators' lane sums. -/
theorem tripV_2 (d : Dev nD) (i : grid1.Coords)
    (g0 : Buf (Elt Ideal) ((Memref.whole cc1_scratch0 : Memref sig .scVector .vmem S64 .f32).view.loc (V d ((i 0).castLE hcore1) ((i 1).castLE hsub1))))
    (g1 : Buf (Elt Ideal) ((Memref.whole cc1_scratch2 : Memref sig .scVector .vmem S64x200 .i32).view.loc (V d ((i 0).castLE hcore1) ((i 1).castLE hsub1))))
    (g3 : Buf (Elt Ideal) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4) (base : Fin 16 → EReal)
    (v2 : BitVec 32) (v3 : BitVec 32) (a0 : FVec Ideal S16 .f32) (a1 : FVec Ideal S16 .f32) (a2 : FVec Ideal S16 .f32) (a3 : FVec Ideal S16 .f32) (k : Fin k1_t2_loop.trips) (acc : FVec Ideal S16 .f32 × FVec Ideal S16 .f32 × FVec Ideal S16 .f32 × FVec Ideal S16 .f32) :
    (invLV (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 g0 g1 g3 base k.val acc : sProp 𝕄)
      ⊢ wp frame (wpE (defs₀ (F := Ideal)) 𝒱₀ (V d ((i 0).castLE hcore1) ((i 1).castLE hsub1)) none) Set.univ
          (k1_t2_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invLV (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 g0 g1 g3 base (k.val + 1) r := by
  unfold invLV invL
  iintro ⟨⟨H0, H1, H3⟩, %hsum⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0 H1 H3]
  · isplitl [H0]; · iexact H0
    isplitl [H1]; · iexact H1
    iexact H3
  ipureintro
  intro l
  rw [Finset.sum_range_succ, ← add_assoc, ← hsum l]
  unfold_run_names
  simp only [readAt_whole0, readAt_wholeX, sum4, addf_apply]
  iterate 25 rw [tok_lane g0 g1 g3 hx9 hy4]
  · simp only [k1_off30_eq, k1_off31_eq, k1_off32_eq, k1_off33_eq, k1_off34_eq, k1_off35_eq, k1_off36_eq, k1_off37_eq, k1_off38_eq, k1_off39_eq, k1_off40_eq, k1_off41_eq, k1_off42_eq, k1_off43_eq, k1_off44_eq, k1_off45_eq, k1_off46_eq, k1_off47_eq, k1_off48_eq, k1_off49_eq, k1_off50_eq, k1_off51_eq, k1_off52_eq, k1_off53_eq, k1_off54_eq, Matrix.cons_val_zero]
    unfold tripSum
    rw [Fin.sum_univ_eq_sum_range (fun u => tabN g0 (5 * xw g1 (400 * k.val + 16 * u + l.val) + yw g3 (400 * k.val + 16 * u + l.val))) 25]
    simp only [Finset.sum_range_succ, Finset.sum_range_zero, Nat.reduceMul, Nat.add_zero, zero_add]
    ac_rfl
  all_goals (clear * - k l; revert k l; decide +kernel)

end Cert.Proof.KI

end
-- ==== Proof.KI.TileTripV3.lean ====
/-
  One trip of the tile's loop 3 at the ideal values, with the value: the four accumulators' lane sums grow by the
  table at 5·x + y over the trip's 25 lane-vectors of tokens.
-/
import proofs.«205364_g71897752535391_cont_9to1_m_950_21_alg».proof.Proof.KI.TileValDefs

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

namespace TV3

open Lean Elab Tactic Meta in
/-- The names the run gave (`….sl.…`) and the payloads `k1_pay…`. -/
def isRunName (n : Name) : Bool :=
  n.components.contains `sl || (match n with | .str _ s => s.startsWith "k1_pay" | _ => false)

open Lean Elab Tactic Meta in
/-- `e` with every application of a run name or payload unfolded; a proof inside is kept, restated at its unfolded
    proposition. -/
partial def unfoldRunNames (e : Expr) : MetaM Expr :=
  Meta.transform e (pre := fun e => do
    if e.isApp || e.isConst then
      if ← (try Meta.isProof e catch _ => pure false) then
        let ty ← inferType e
        let ty' ← unfoldRunNames ty
        if ty' == ty then return .done e
        return .done (← mkExpectedTypeHint e ty')
      let f := e.getAppFn
      if let .const n _ := f then
        if isRunName n then
          if let some e' ← Meta.unfoldDefinition? e then
            return .visit e'.headBeta
    return .continue)

open Lean Elab Tactic Meta in
elab "unfold_run_names" : tactic => do
  let g ← getMainGoal
  let t ← instantiateMVars (← g.getType)
  let t' ← unfoldRunNames t
  let g' ← g.replaceTargetDefEq t'
  replaceMainGoal [g']

/-- The word 5·a + b of a token with a ≤ 9 and b ≤ 4, as a natural number. -/
theorem kv_toNat (a b : BitVec 32) (ha : a.toNat ≤ 9) (hb : b.toNat ≤ 4) :
    (IntOp.addi (IntOp.muli a 5#32) b).toNat = 5 * a.toNat + b.toNat := by
  have hm : (a * 5#32).toNat = a.toNat * 5 := by
    rw [BitVec.toNat_mul]
    exact Nat.mod_eq_of_lt (by show a.toNat * 5 < 2 ^ 32; omega)
  show (a * 5#32 + b).toNat = _
  rw [BitVec.toNat_add, hm]
  rw [Nat.mod_eq_of_lt (by omega)]
  omega

/-- One lane of one token vector: the table read at 5·x + y of the token the lane meets, given that the row and column
    vectors name that token's place in the chunk. -/
theorem tok_lane (g0 : (cc1_scratch0 : Ref sig .scVector).ty.Contents (Elt Ideal)) (g1 : (cc1_scratch1 : Ref sig .scVector).ty.Contents (Elt Ideal))
    (g3 : (cc1_scratch3 : Ref sig .scVector).ty.Contents (Elt Ideal))
    (hx9 : ∀ j, BitVec.toNat (g1 j) ≤ 9) (hy4 : ∀ j, BitVec.toNat (g3 j) ≤ 4)
    (row col : IVec S16 32) (hrc : ∀ a x, ((![row, col] : Fin 2 → IVec S16 32) a x).toNat < S64x200.size a)
    (off : Fin 1 → Nat) (hoff : ∀ a, off a + (![16] : Fin 1 → Nat) a ≤ S12800.size a)
    (h64 : ∀ a x, ((![addi (muli (loadIdx g1 ![row, col] hrc) (broadcast S16 5#32))
        (View.readAt (Elt Ideal) (View.whole cc1_scratch3) (Rect.unit (s := S12800) off (![16] : Fin 1 → Nat) hoff).toLoadRect g3)] : Fin 1 → IVec S16 32) a x).toNat < S64.size a)
    (l : Fin 16) (hj : off 0 + l.val < 12800)
    (hR : (row (ix1 l)).toNat = (off 0 + l.val) / 200) (hC : (col (ix1 l)).toNat = (off 0 + l.val) % 200) :
    loadIdx g0 ![addi (muli (loadIdx g1 ![row, col] hrc) (broadcast S16 5#32))
        (View.readAt (Elt Ideal) (View.whole cc1_scratch3) (Rect.unit (s := S12800) off (![16] : Fin 1 → Nat) hoff).toLoadRect g3)] h64 (ix1 l)
      = tabN g0 (5 * xw g1 (off 0 + l.val) + yw g3 (off 0 + l.val)) := by
  have hX : loadIdx g1 ![row, col] hrc (ix1 l)
      = g1 (ix2 (⟨(off 0 + l.val) / 200, by omega⟩ : Fin 64) (⟨(off 0 + l.val) % 200, Nat.mod_lt _ (by decide)⟩ : Fin 200)) := by
    unfold loadIdx
    refine congrArg g1 (funext fun a => Fin.ext ?_)
    match a with
    | ⟨0, _⟩ => exact hR
    | ⟨1, _⟩ => exact hC
  have hYv : View.readAt (Elt Ideal) (View.whole cc1_scratch3) (Rect.unit (s := S12800) off (![16] : Fin 1 → Nat) hoff).toLoadRect g3 (ix1 l)
      = g3 (ix1 (⟨off 0 + l.val, hj⟩ : Fin 12800)) := by
    rw [View.readAt_apply]
    show g3 _ = _
    refine congrArg g3 (funext fun a => Fin.ext ?_)
    match a with
    | ⟨0, _⟩ =>
      show off 0 + 1 * l.val = off 0 + l.val
      omega
  have hk : (addi (muli (loadIdx g1 ![row, col] hrc) (broadcast S16 5#32))
        (View.readAt (Elt Ideal) (View.whole cc1_scratch3) (Rect.unit (s := S12800) off (![16] : Fin 1 → Nat) hoff).toLoadRect g3) (ix1 l)).toNat
      = 5 * xw g1 (off 0 + l.val) + yw g3 (off 0 + l.val) := by
    show (IntOp.addi (IntOp.muli (loadIdx g1 ![row, col] hrc (ix1 l)) 5#32) (View.readAt (Elt Ideal) (View.whole cc1_scratch3) (Rect.unit (s := S12800) off (![16] : Fin 1 → Nat) hoff).toLoadRect g3 (ix1 l))).toNat = _
    rw [hX, hYv, kv_toNat _ _ (hx9 _) (hy4 _)]
    unfold xw yw
    rw [dif_pos hj, dif_pos hj]
  have hlt : 5 * xw g1 (off 0 + l.val) + yw g3 (off 0 + l.val) < 64 := by
    rw [← hk]
    exact h64 0 (ix1 l)
  unfold tabN
  rw [dif_pos hlt]
  unfold loadIdx
  refine congrArg g0 (funext fun a => Fin.ext ?_)
  match a with
  | ⟨0, _⟩ => exact hk

theorem readAt_whole0 (g : (cc1_scratch0 : Ref sig .scVector).ty.Contents (Elt Ideal)) :
    View.readAt (Elt Ideal) (View.whole cc1_scratch0) (LoadRect.whole S64) g = g := Memref.readAt_whole _ _ _
theorem readAt_wholeX (g : (cc1_scratch1 : Ref sig .scVector).ty.Contents (Elt Ideal)) :
    View.readAt (Elt Ideal) (View.whole cc1_scratch1) (LoadRect.whole S64x200) g = g := Memref.readAt_whole _ _ _

end TV3
open TV3

attribute [local sl_canon] vli_bind'

set_option sl_exec.dischHeartbeats 200000 in
set_option maxHeartbeats 8000000 in
/-- One trip of loop 3 keeps the three scratches and adds the trip's sum to the accumulators' lane sums. -/
theorem tripV_3 (d : Dev nD) (i : grid1.Coords)
    (g0 : Buf (Elt Ideal) ((Memref.whole cc1_scratch0 : Memref sig .scVector .vmem S64 .f32).view.loc (V d ((i 0).castLE hcore1) ((i 1).castLE hsub1))))
    (g1 : Buf (Elt Ideal) ((Memref.whole cc1_scratch1 : Memref sig .scVector .vmem S64x200 .i32).view.loc (V d ((i 0).castLE hcore1) ((i 1).castLE hsub1))))
    (g3 : Buf (Elt Ideal) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4) (base : Fin 16 → EReal)
    (v2 : BitVec 32) (v3 : BitVec 32) (a0 : FVec Ideal S16 .f32) (a1 : FVec Ideal S16 .f32) (a2 : FVec Ideal S16 .f32) (a3 : FVec Ideal S16 .f32) (k : Fin k1_t3_loop.trips) (acc : FVec Ideal S16 .f32 × FVec Ideal S16 .f32 × FVec Ideal S16 .f32 × FVec Ideal S16 .f32) :
    (invLV (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 g0 g1 g3 base k.val acc : sProp 𝕄)
      ⊢ wp frame (wpE (defs₀ (F := Ideal)) 𝒱₀ (V d ((i 0).castLE hcore1) ((i 1).castLE hsub1)) none) Set.univ
          (k1_t3_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invLV (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 g0 g1 g3 base (k.val + 1) r := by
  unfold invLV invL
  iintro ⟨⟨H0, H1, H3⟩, %hsum⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0 H1 H3]
  · isplitl [H0]; · iexact H0
    isplitl [H1]; · iexact H1
    iexact H3
  ipureintro
  intro l
  rw [Finset.sum_range_succ, ← add_assoc, ← hsum l]
  unfold_run_names
  simp only [readAt_whole0, readAt_wholeX, sum4, addf_apply]
  iterate 25 rw [tok_lane g0 g1 g3 hx9 hy4]
  · simp only [k1_off55_eq, k1_off56_eq, k1_off57_eq, k1_off58_eq, k1_off59_eq, k1_off60_eq, k1_off61_eq, k1_off62_eq, k1_off63_eq, k1_off64_eq, k1_off65_eq, k1_off66_eq, k1_off67_eq, k1_off68_eq, k1_off69_eq, k1_off70_eq, k1_off71_eq, k1_off72_eq, k1_off73_eq, k1_off74_eq, k1_off75_eq, k1_off76_eq, k1_off77_eq, k1_off78_eq, k1_off79_eq, Matrix.cons_val_zero]
    unfold tripSum
    rw [Fin.sum_univ_eq_sum_range (fun u => tabN g0 (5 * xw g1 (400 * k.val + 16 * u + l.val) + yw g3 (400 * k.val + 16 * u + l.val))) 25]
    simp only [Finset.sum_range_succ, Finset.sum_range_zero, Nat.reduceMul, Nat.add_zero, zero_add]
    ac_rfl
  all_goals (clear * - k l; revert k l; decide +kernel)

end Cert.Proof.KI

end
-- ==== Proof.KI.TileTripV4.lean ====
/-
  One trip of the tile's loop 4 at the ideal values, with the value: the four accumulators' lane sums grow by the
  table at 5·x + y over the trip's 25 lane-vectors of tokens.
-/
import proofs.«205364_g71897752535391_cont_9to1_m_950_21_alg».proof.Proof.KI.TileValDefs

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

namespace TV4

open Lean Elab Tactic Meta in
/-- The names the run gave (`….sl.…`) and the payloads `k1_pay…`. -/
def isRunName (n : Name) : Bool :=
  n.components.contains `sl || (match n with | .str _ s => s.startsWith "k1_pay" | _ => false)

open Lean Elab Tactic Meta in
/-- `e` with every application of a run name or payload unfolded; a proof inside is kept, restated at its unfolded
    proposition. -/
partial def unfoldRunNames (e : Expr) : MetaM Expr :=
  Meta.transform e (pre := fun e => do
    if e.isApp || e.isConst then
      if ← (try Meta.isProof e catch _ => pure false) then
        let ty ← inferType e
        let ty' ← unfoldRunNames ty
        if ty' == ty then return .done e
        return .done (← mkExpectedTypeHint e ty')
      let f := e.getAppFn
      if let .const n _ := f then
        if isRunName n then
          if let some e' ← Meta.unfoldDefinition? e then
            return .visit e'.headBeta
    return .continue)

open Lean Elab Tactic Meta in
elab "unfold_run_names" : tactic => do
  let g ← getMainGoal
  let t ← instantiateMVars (← g.getType)
  let t' ← unfoldRunNames t
  let g' ← g.replaceTargetDefEq t'
  replaceMainGoal [g']

/-- The word 5·a + b of a token with a ≤ 9 and b ≤ 4, as a natural number. -/
theorem kv_toNat (a b : BitVec 32) (ha : a.toNat ≤ 9) (hb : b.toNat ≤ 4) :
    (IntOp.addi (IntOp.muli a 5#32) b).toNat = 5 * a.toNat + b.toNat := by
  have hm : (a * 5#32).toNat = a.toNat * 5 := by
    rw [BitVec.toNat_mul]
    exact Nat.mod_eq_of_lt (by show a.toNat * 5 < 2 ^ 32; omega)
  show (a * 5#32 + b).toNat = _
  rw [BitVec.toNat_add, hm]
  rw [Nat.mod_eq_of_lt (by omega)]
  omega

/-- One lane of one token vector: the table read at 5·x + y of the token the lane meets, given that the row and column
    vectors name that token's place in the chunk. -/
theorem tok_lane (g0 : (cc1_scratch0 : Ref sig .scVector).ty.Contents (Elt Ideal)) (g1 : (cc1_scratch2 : Ref sig .scVector).ty.Contents (Elt Ideal))
    (g3 : (cc1_scratch4 : Ref sig .scVector).ty.Contents (Elt Ideal))
    (hx9 : ∀ j, BitVec.toNat (g1 j) ≤ 9) (hy4 : ∀ j, BitVec.toNat (g3 j) ≤ 4)
    (row col : IVec S16 32) (hrc : ∀ a x, ((![row, col] : Fin 2 → IVec S16 32) a x).toNat < S64x200.size a)
    (off : Fin 1 → Nat) (hoff : ∀ a, off a + (![16] : Fin 1 → Nat) a ≤ S12800.size a)
    (h64 : ∀ a x, ((![addi (muli (loadIdx g1 ![row, col] hrc) (broadcast S16 5#32))
        (View.readAt (Elt Ideal) (View.whole cc1_scratch4) (Rect.unit (s := S12800) off (![16] : Fin 1 → Nat) hoff).toLoadRect g3)] : Fin 1 → IVec S16 32) a x).toNat < S64.size a)
    (l : Fin 16) (hj : off 0 + l.val < 12800)
    (hR : (row (ix1 l)).toNat = (off 0 + l.val) / 200) (hC : (col (ix1 l)).toNat = (off 0 + l.val) % 200) :
    loadIdx g0 ![addi (muli (loadIdx g1 ![row, col] hrc) (broadcast S16 5#32))
        (View.readAt (Elt Ideal) (View.whole cc1_scratch4) (Rect.unit (s := S12800) off (![16] : Fin 1 → Nat) hoff).toLoadRect g3)] h64 (ix1 l)
      = tabN g0 (5 * xw g1 (off 0 + l.val) + yw g3 (off 0 + l.val)) := by
  have hX : loadIdx g1 ![row, col] hrc (ix1 l)
      = g1 (ix2 (⟨(off 0 + l.val) / 200, by omega⟩ : Fin 64) (⟨(off 0 + l.val) % 200, Nat.mod_lt _ (by decide)⟩ : Fin 200)) := by
    unfold loadIdx
    refine congrArg g1 (funext fun a => Fin.ext ?_)
    match a with
    | ⟨0, _⟩ => exact hR
    | ⟨1, _⟩ => exact hC
  have hYv : View.readAt (Elt Ideal) (View.whole cc1_scratch4) (Rect.unit (s := S12800) off (![16] : Fin 1 → Nat) hoff).toLoadRect g3 (ix1 l)
      = g3 (ix1 (⟨off 0 + l.val, hj⟩ : Fin 12800)) := by
    rw [View.readAt_apply]
    show g3 _ = _
    refine congrArg g3 (funext fun a => Fin.ext ?_)
    match a with
    | ⟨0, _⟩ =>
      show off 0 + 1 * l.val = off 0 + l.val
      omega
  have hk : (addi (muli (loadIdx g1 ![row, col] hrc) (broadcast S16 5#32))
        (View.readAt (Elt Ideal) (View.whole cc1_scratch4) (Rect.unit (s := S12800) off (![16] : Fin 1 → Nat) hoff).toLoadRect g3) (ix1 l)).toNat
      = 5 * xw g1 (off 0 + l.val) + yw g3 (off 0 + l.val) := by
    show (IntOp.addi (IntOp.muli (loadIdx g1 ![row, col] hrc (ix1 l)) 5#32) (View.readAt (Elt Ideal) (View.whole cc1_scratch4) (Rect.unit (s := S12800) off (![16] : Fin 1 → Nat) hoff).toLoadRect g3 (ix1 l))).toNat = _
    rw [hX, hYv, kv_toNat _ _ (hx9 _) (hy4 _)]
    unfold xw yw
    rw [dif_pos hj, dif_pos hj]
  have hlt : 5 * xw g1 (off 0 + l.val) + yw g3 (off 0 + l.val) < 64 := by
    rw [← hk]
    exact h64 0 (ix1 l)
  unfold tabN
  rw [dif_pos hlt]
  unfold loadIdx
  refine congrArg g0 (funext fun a => Fin.ext ?_)
  match a with
  | ⟨0, _⟩ => exact hk

theorem readAt_whole0 (g : (cc1_scratch0 : Ref sig .scVector).ty.Contents (Elt Ideal)) :
    View.readAt (Elt Ideal) (View.whole cc1_scratch0) (LoadRect.whole S64) g = g := Memref.readAt_whole _ _ _
theorem readAt_wholeX (g : (cc1_scratch2 : Ref sig .scVector).ty.Contents (Elt Ideal)) :
    View.readAt (Elt Ideal) (View.whole cc1_scratch2) (LoadRect.whole S64x200) g = g := Memref.readAt_whole _ _ _

end TV4
open TV4

attribute [local sl_canon] vli_bind'

set_option sl_exec.dischHeartbeats 200000 in
set_option maxHeartbeats 8000000 in
/-- One trip of loop 4 keeps the three scratches and adds the trip's sum to the accumulators' lane sums. -/
theorem tripV_4 (d : Dev nD) (i : grid1.Coords)
    (g0 : Buf (Elt Ideal) ((Memref.whole cc1_scratch0 : Memref sig .scVector .vmem S64 .f32).view.loc (V d ((i 0).castLE hcore1) ((i 1).castLE hsub1))))
    (g1 : Buf (Elt Ideal) ((Memref.whole cc1_scratch2 : Memref sig .scVector .vmem S64x200 .i32).view.loc (V d ((i 0).castLE hcore1) ((i 1).castLE hsub1))))
    (g3 : Buf (Elt Ideal) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4) (base : Fin 16 → EReal)
    (v2 : BitVec 32) (v3 : BitVec 32) (a0 : FVec Ideal S16 .f32) (a1 : FVec Ideal S16 .f32) (a2 : FVec Ideal S16 .f32) (a3 : FVec Ideal S16 .f32) (k : Fin k1_t4_loop.trips) (acc : FVec Ideal S16 .f32 × FVec Ideal S16 .f32 × FVec Ideal S16 .f32 × FVec Ideal S16 .f32) :
    (invLV (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 g0 g1 g3 base k.val acc : sProp 𝕄)
      ⊢ wp frame (wpE (defs₀ (F := Ideal)) 𝒱₀ (V d ((i 0).castLE hcore1) ((i 1).castLE hsub1)) none) Set.univ
          (k1_t4_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 k acc)
          fun r => invLV (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 g0 g1 g3 base (k.val + 1) r := by
  unfold invLV invL
  iintro ⟨⟨H0, H1, H3⟩, %hsum⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0 H1 H3]
  · isplitl [H0]; · iexact H0
    isplitl [H1]; · iexact H1
    iexact H3
  ipureintro
  intro l
  rw [Finset.sum_range_succ, ← add_assoc, ← hsum l]
  unfold_run_names
  simp only [readAt_whole0, readAt_wholeX, sum4, addf_apply]
  iterate 25 rw [tok_lane g0 g1 g3 hx9 hy4]
  · simp only [k1_off80_eq, k1_off81_eq, k1_off82_eq, k1_off83_eq, k1_off84_eq, k1_off85_eq, k1_off86_eq, k1_off87_eq, k1_off88_eq, k1_off89_eq, k1_off90_eq, k1_off91_eq, k1_off92_eq, k1_off93_eq, k1_off94_eq, k1_off95_eq, k1_off96_eq, k1_off97_eq, k1_off98_eq, k1_off99_eq, k1_off100_eq, k1_off101_eq, k1_off102_eq, k1_off103_eq, k1_off104_eq, Matrix.cons_val_zero]
    unfold tripSum
    rw [Fin.sum_univ_eq_sum_range (fun u => tabN g0 (5 * xw g1 (400 * k.val + 16 * u + l.val) + yw g3 (400 * k.val + 16 * u + l.val))) 25]
    simp only [Finset.sum_range_succ, Finset.sum_range_zero, Nat.reduceMul, Nat.add_zero, zero_add]
    ac_rfl
  all_goals (clear * - k l; revert k l; decide +kernel)

end Cert.Proof.KI

end
-- ==== Proof.KI.TileTripV5.lean ====
/-
  One trip of the tile's loop 5 at the ideal values, with the value: the four accumulators' lane sums grow by the
  table at 5·x + y over the trip's 25 lane-vectors of tokens.
-/
import proofs.«205364_g71897752535391_cont_9to1_m_950_21_alg».proof.Proof.KI.TileValDefs

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

namespace TV5

open Lean Elab Tactic Meta in
/-- The names the run gave (`….sl.…`) and the payloads `k1_pay…`. -/
def isRunName (n : Name) : Bool :=
  n.components.contains `sl || (match n with | .str _ s => s.startsWith "k1_pay" | _ => false)

open Lean Elab Tactic Meta in
/-- `e` with every application of a run name or payload unfolded; a proof inside is kept, restated at its unfolded
    proposition. -/
partial def unfoldRunNames (e : Expr) : MetaM Expr :=
  Meta.transform e (pre := fun e => do
    if e.isApp || e.isConst then
      if ← (try Meta.isProof e catch _ => pure false) then
        let ty ← inferType e
        let ty' ← unfoldRunNames ty
        if ty' == ty then return .done e
        return .done (← mkExpectedTypeHint e ty')
      let f := e.getAppFn
      if let .const n _ := f then
        if isRunName n then
          if let some e' ← Meta.unfoldDefinition? e then
            return .visit e'.headBeta
    return .continue)

open Lean Elab Tactic Meta in
elab "unfold_run_names" : tactic => do
  let g ← getMainGoal
  let t ← instantiateMVars (← g.getType)
  let t' ← unfoldRunNames t
  let g' ← g.replaceTargetDefEq t'
  replaceMainGoal [g']

/-- The word 5·a + b of a token with a ≤ 9 and b ≤ 4, as a natural number. -/
theorem kv_toNat (a b : BitVec 32) (ha : a.toNat ≤ 9) (hb : b.toNat ≤ 4) :
    (IntOp.addi (IntOp.muli a 5#32) b).toNat = 5 * a.toNat + b.toNat := by
  have hm : (a * 5#32).toNat = a.toNat * 5 := by
    rw [BitVec.toNat_mul]
    exact Nat.mod_eq_of_lt (by show a.toNat * 5 < 2 ^ 32; omega)
  show (a * 5#32 + b).toNat = _
  rw [BitVec.toNat_add, hm]
  rw [Nat.mod_eq_of_lt (by omega)]
  omega

/-- One lane of one token vector: the table read at 5·x + y of the token the lane meets, given that the row and column
    vectors name that token's place in the chunk. -/
theorem tok_lane (g0 : (cc1_scratch0 : Ref sig .scVector).ty.Contents (Elt Ideal)) (g1 : (cc1_scratch1 : Ref sig .scVector).ty.Contents (Elt Ideal))
    (g3 : (cc1_scratch3 : Ref sig .scVector).ty.Contents (Elt Ideal))
    (hx9 : ∀ j, BitVec.toNat (g1 j) ≤ 9) (hy4 : ∀ j, BitVec.toNat (g3 j) ≤ 4)
    (row col : IVec S16 32) (hrc : ∀ a x, ((![row, col] : Fin 2 → IVec S16 32) a x).toNat < S64x200.size a)
    (off : Fin 1 → Nat) (hoff : ∀ a, off a + (![16] : Fin 1 → Nat) a ≤ S12800.size a)
    (h64 : ∀ a x, ((![addi (muli (loadIdx g1 ![row, col] hrc) (broadcast S16 5#32))
        (View.readAt (Elt Ideal) (View.whole cc1_scratch3) (Rect.unit (s := S12800) off (![16] : Fin 1 → Nat) hoff).toLoadRect g3)] : Fin 1 → IVec S16 32) a x).toNat < S64.size a)
    (l : Fin 16) (hj : off 0 + l.val < 12800)
    (hR : (row (ix1 l)).toNat = (off 0 + l.val) / 200) (hC : (col (ix1 l)).toNat = (off 0 + l.val) % 200) :
    loadIdx g0 ![addi (muli (loadIdx g1 ![row, col] hrc) (broadcast S16 5#32))
        (View.readAt (Elt Ideal) (View.whole cc1_scratch3) (Rect.unit (s := S12800) off (![16] : Fin 1 → Nat) hoff).toLoadRect g3)] h64 (ix1 l)
      = tabN g0 (5 * xw g1 (off 0 + l.val) + yw g3 (off 0 + l.val)) := by
  have hX : loadIdx g1 ![row, col] hrc (ix1 l)
      = g1 (ix2 (⟨(off 0 + l.val) / 200, by omega⟩ : Fin 64) (⟨(off 0 + l.val) % 200, Nat.mod_lt _ (by decide)⟩ : Fin 200)) := by
    unfold loadIdx
    refine congrArg g1 (funext fun a => Fin.ext ?_)
    match a with
    | ⟨0, _⟩ => exact hR
    | ⟨1, _⟩ => exact hC
  have hYv : View.readAt (Elt Ideal) (View.whole cc1_scratch3) (Rect.unit (s := S12800) off (![16] : Fin 1 → Nat) hoff).toLoadRect g3 (ix1 l)
      = g3 (ix1 (⟨off 0 + l.val, hj⟩ : Fin 12800)) := by
    rw [View.readAt_apply]
    show g3 _ = _
    refine congrArg g3 (funext fun a => Fin.ext ?_)
    match a with
    | ⟨0, _⟩ =>
      show off 0 + 1 * l.val = off 0 + l.val
      omega
  have hk : (addi (muli (loadIdx g1 ![row, col] hrc) (broadcast S16 5#32))
        (View.readAt (Elt Ideal) (View.whole cc1_scratch3) (Rect.unit (s := S12800) off (![16] : Fin 1 → Nat) hoff).toLoadRect g3) (ix1 l)).toNat
      = 5 * xw g1 (off 0 + l.val) + yw g3 (off 0 + l.val) := by
    show (IntOp.addi (IntOp.muli (loadIdx g1 ![row, col] hrc (ix1 l)) 5#32) (View.readAt (Elt Ideal) (View.whole cc1_scratch3) (Rect.unit (s := S12800) off (![16] : Fin 1 → Nat) hoff).toLoadRect g3 (ix1 l))).toNat = _
    rw [hX, hYv, kv_toNat _ _ (hx9 _) (hy4 _)]
    unfold xw yw
    rw [dif_pos hj, dif_pos hj]
  have hlt : 5 * xw g1 (off 0 + l.val) + yw g3 (off 0 + l.val) < 64 := by
    rw [← hk]
    exact h64 0 (ix1 l)
  unfold tabN
  rw [dif_pos hlt]
  unfold loadIdx
  refine congrArg g0 (funext fun a => Fin.ext ?_)
  match a with
  | ⟨0, _⟩ => exact hk

theorem readAt_whole0 (g : (cc1_scratch0 : Ref sig .scVector).ty.Contents (Elt Ideal)) :
    View.readAt (Elt Ideal) (View.whole cc1_scratch0) (LoadRect.whole S64) g = g := Memref.readAt_whole _ _ _
theorem readAt_wholeX (g : (cc1_scratch1 : Ref sig .scVector).ty.Contents (Elt Ideal)) :
    View.readAt (Elt Ideal) (View.whole cc1_scratch1) (LoadRect.whole S64x200) g = g := Memref.readAt_whole _ _ _

end TV5
open TV5

attribute [local sl_canon] vli_bind'

set_option sl_exec.dischHeartbeats 200000 in
set_option maxHeartbeats 8000000 in
/-- One trip of loop 5 keeps the three scratches and adds the trip's sum to the accumulators' lane sums. -/
theorem tripV_5 (d : Dev nD) (i : grid1.Coords)
    (g0 : Buf (Elt Ideal) ((Memref.whole cc1_scratch0 : Memref sig .scVector .vmem S64 .f32).view.loc (V d ((i 0).castLE hcore1) ((i 1).castLE hsub1))))
    (g1 : Buf (Elt Ideal) ((Memref.whole cc1_scratch1 : Memref sig .scVector .vmem S64x200 .i32).view.loc (V d ((i 0).castLE hcore1) ((i 1).castLE hsub1))))
    (g3 : Buf (Elt Ideal) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4) (base : Fin 16 → EReal)
    (v2 : BitVec 32) (v3 : BitVec 32) (a0 : FVec Ideal S16 .f32) (a1 : FVec Ideal S16 .f32) (a2 : FVec Ideal S16 .f32) (a3 : FVec Ideal S16 .f32) (k : Fin k1_t5_loop.trips) (acc : FVec Ideal S16 .f32 × FVec Ideal S16 .f32 × FVec Ideal S16 .f32 × FVec Ideal S16 .f32) :
    (invLV (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 g0 g1 g3 base k.val acc : sProp 𝕄)
      ⊢ wp frame (wpE (defs₀ (F := Ideal)) 𝒱₀ (V d ((i 0).castLE hcore1) ((i 1).castLE hsub1)) none) Set.univ
          (k1_t5_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 0#32 1#32 k acc)
          fun r => invLV (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 g0 g1 g3 base (k.val + 1) r := by
  unfold invLV invL
  iintro ⟨⟨H0, H1, H3⟩, %hsum⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0 H1 H3]
  · isplitl [H0]; · iexact H0
    isplitl [H1]; · iexact H1
    iexact H3
  ipureintro
  intro l
  rw [Finset.sum_range_succ, ← add_assoc, ← hsum l]
  unfold_run_names
  simp only [readAt_whole0, readAt_wholeX, sum4, addf_apply]
  iterate 25 rw [tok_lane g0 g1 g3 hx9 hy4]
  · simp only [k1_off105_eq, k1_off106_eq, k1_off107_eq, k1_off108_eq, k1_off109_eq, k1_off110_eq, k1_off111_eq, k1_off112_eq, k1_off113_eq, k1_off114_eq, k1_off115_eq, k1_off116_eq, k1_off117_eq, k1_off118_eq, k1_off119_eq, k1_off120_eq, k1_off121_eq, k1_off122_eq, k1_off123_eq, k1_off124_eq, k1_off125_eq, k1_off126_eq, k1_off127_eq, k1_off128_eq, k1_off129_eq, Matrix.cons_val_zero]
    unfold tripSum
    rw [Fin.sum_univ_eq_sum_range (fun u => tabN g0 (5 * xw g1 (400 * k.val + 16 * u + l.val) + yw g3 (400 * k.val + 16 * u + l.val))) 25]
    simp only [Finset.sum_range_succ, Finset.sum_range_zero, Nat.reduceMul, Nat.add_zero, zero_add]
    ac_rfl
  all_goals (clear * - k l; revert k l; decide +kernel)

end Cert.Proof.KI

end
-- ==== Proof.KI.TileTripV6.lean ====
/-
  One trip of the tile's loop 6 at the ideal values, with the value: the four accumulators' lane sums grow by the
  table at 5·x + y over the trip's 25 lane-vectors of tokens.
-/
import proofs.«205364_g71897752535391_cont_9to1_m_950_21_alg».proof.Proof.KI.TileValDefs

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

namespace TV6

open Lean Elab Tactic Meta in
/-- The names the run gave (`….sl.…`) and the payloads `k1_pay…`. -/
def isRunName (n : Name) : Bool :=
  n.components.contains `sl || (match n with | .str _ s => s.startsWith "k1_pay" | _ => false)

open Lean Elab Tactic Meta in
/-- `e` with every application of a run name or payload unfolded; a proof inside is kept, restated at its unfolded
    proposition. -/
partial def unfoldRunNames (e : Expr) : MetaM Expr :=
  Meta.transform e (pre := fun e => do
    if e.isApp || e.isConst then
      if ← (try Meta.isProof e catch _ => pure false) then
        let ty ← inferType e
        let ty' ← unfoldRunNames ty
        if ty' == ty then return .done e
        return .done (← mkExpectedTypeHint e ty')
      let f := e.getAppFn
      if let .const n _ := f then
        if isRunName n then
          if let some e' ← Meta.unfoldDefinition? e then
            return .visit e'.headBeta
    return .continue)

open Lean Elab Tactic Meta in
elab "unfold_run_names" : tactic => do
  let g ← getMainGoal
  let t ← instantiateMVars (← g.getType)
  let t' ← unfoldRunNames t
  let g' ← g.replaceTargetDefEq t'
  replaceMainGoal [g']

/-- The word 5·a + b of a token with a ≤ 9 and b ≤ 4, as a natural number. -/
theorem kv_toNat (a b : BitVec 32) (ha : a.toNat ≤ 9) (hb : b.toNat ≤ 4) :
    (IntOp.addi (IntOp.muli a 5#32) b).toNat = 5 * a.toNat + b.toNat := by
  have hm : (a * 5#32).toNat = a.toNat * 5 := by
    rw [BitVec.toNat_mul]
    exact Nat.mod_eq_of_lt (by show a.toNat * 5 < 2 ^ 32; omega)
  show (a * 5#32 + b).toNat = _
  rw [BitVec.toNat_add, hm]
  rw [Nat.mod_eq_of_lt (by omega)]
  omega

/-- One lane of one token vector: the table read at 5·x + y of the token the lane meets, given that the row and column
    vectors name that token's place in the chunk. -/
theorem tok_lane (g0 : (cc1_scratch0 : Ref sig .scVector).ty.Contents (Elt Ideal)) (g1 : (cc1_scratch2 : Ref sig .scVector).ty.Contents (Elt Ideal))
    (g3 : (cc1_scratch4 : Ref sig .scVector).ty.Contents (Elt Ideal))
    (hx9 : ∀ j, BitVec.toNat (g1 j) ≤ 9) (hy4 : ∀ j, BitVec.toNat (g3 j) ≤ 4)
    (row col : IVec S16 32) (hrc : ∀ a x, ((![row, col] : Fin 2 → IVec S16 32) a x).toNat < S64x200.size a)
    (off : Fin 1 → Nat) (hoff : ∀ a, off a + (![16] : Fin 1 → Nat) a ≤ S12800.size a)
    (h64 : ∀ a x, ((![addi (muli (loadIdx g1 ![row, col] hrc) (broadcast S16 5#32))
        (View.readAt (Elt Ideal) (View.whole cc1_scratch4) (Rect.unit (s := S12800) off (![16] : Fin 1 → Nat) hoff).toLoadRect g3)] : Fin 1 → IVec S16 32) a x).toNat < S64.size a)
    (l : Fin 16) (hj : off 0 + l.val < 12800)
    (hR : (row (ix1 l)).toNat = (off 0 + l.val) / 200) (hC : (col (ix1 l)).toNat = (off 0 + l.val) % 200) :
    loadIdx g0 ![addi (muli (loadIdx g1 ![row, col] hrc) (broadcast S16 5#32))
        (View.readAt (Elt Ideal) (View.whole cc1_scratch4) (Rect.unit (s := S12800) off (![16] : Fin 1 → Nat) hoff).toLoadRect g3)] h64 (ix1 l)
      = tabN g0 (5 * xw g1 (off 0 + l.val) + yw g3 (off 0 + l.val)) := by
  have hX : loadIdx g1 ![row, col] hrc (ix1 l)
      = g1 (ix2 (⟨(off 0 + l.val) / 200, by omega⟩ : Fin 64) (⟨(off 0 + l.val) % 200, Nat.mod_lt _ (by decide)⟩ : Fin 200)) := by
    unfold loadIdx
    refine congrArg g1 (funext fun a => Fin.ext ?_)
    match a with
    | ⟨0, _⟩ => exact hR
    | ⟨1, _⟩ => exact hC
  have hYv : View.readAt (Elt Ideal) (View.whole cc1_scratch4) (Rect.unit (s := S12800) off (![16] : Fin 1 → Nat) hoff).toLoadRect g3 (ix1 l)
      = g3 (ix1 (⟨off 0 + l.val, hj⟩ : Fin 12800)) := by
    rw [View.readAt_apply]
    show g3 _ = _
    refine congrArg g3 (funext fun a => Fin.ext ?_)
    match a with
    | ⟨0, _⟩ =>
      show off 0 + 1 * l.val = off 0 + l.val
      omega
  have hk : (addi (muli (loadIdx g1 ![row, col] hrc) (broadcast S16 5#32))
        (View.readAt (Elt Ideal) (View.whole cc1_scratch4) (Rect.unit (s := S12800) off (![16] : Fin 1 → Nat) hoff).toLoadRect g3) (ix1 l)).toNat
      = 5 * xw g1 (off 0 + l.val) + yw g3 (off 0 + l.val) := by
    show (IntOp.addi (IntOp.muli (loadIdx g1 ![row, col] hrc (ix1 l)) 5#32) (View.readAt (Elt Ideal) (View.whole cc1_scratch4) (Rect.unit (s := S12800) off (![16] : Fin 1 → Nat) hoff).toLoadRect g3 (ix1 l))).toNat = _
    rw [hX, hYv, kv_toNat _ _ (hx9 _) (hy4 _)]
    unfold xw yw
    rw [dif_pos hj, dif_pos hj]
  have hlt : 5 * xw g1 (off 0 + l.val) + yw g3 (off 0 + l.val) < 64 := by
    rw [← hk]
    exact h64 0 (ix1 l)
  unfold tabN
  rw [dif_pos hlt]
  unfold loadIdx
  refine congrArg g0 (funext fun a => Fin.ext ?_)
  match a with
  | ⟨0, _⟩ => exact hk

theorem readAt_whole0 (g : (cc1_scratch0 : Ref sig .scVector).ty.Contents (Elt Ideal)) :
    View.readAt (Elt Ideal) (View.whole cc1_scratch0) (LoadRect.whole S64) g = g := Memref.readAt_whole _ _ _
theorem readAt_wholeX (g : (cc1_scratch2 : Ref sig .scVector).ty.Contents (Elt Ideal)) :
    View.readAt (Elt Ideal) (View.whole cc1_scratch2) (LoadRect.whole S64x200) g = g := Memref.readAt_whole _ _ _

end TV6
open TV6

attribute [local sl_canon] vli_bind'

set_option sl_exec.dischHeartbeats 200000 in
set_option maxHeartbeats 8000000 in
/-- One trip of loop 6 keeps the three scratches and adds the trip's sum to the accumulators' lane sums. -/
theorem tripV_6 (d : Dev nD) (i : grid1.Coords)
    (g0 : Buf (Elt Ideal) ((Memref.whole cc1_scratch0 : Memref sig .scVector .vmem S64 .f32).view.loc (V d ((i 0).castLE hcore1) ((i 1).castLE hsub1))))
    (g1 : Buf (Elt Ideal) ((Memref.whole cc1_scratch2 : Memref sig .scVector .vmem S64x200 .i32).view.loc (V d ((i 0).castLE hcore1) ((i 1).castLE hsub1))))
    (g3 : Buf (Elt Ideal) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4) (base : Fin 16 → EReal)
    (v2 : BitVec 32) (v3 : BitVec 32) (a0 : FVec Ideal S16 .f32) (a1 : FVec Ideal S16 .f32) (a2 : FVec Ideal S16 .f32) (a3 : FVec Ideal S16 .f32) (k : Fin k1_t6_loop.trips) (acc : FVec Ideal S16 .f32 × FVec Ideal S16 .f32 × FVec Ideal S16 .f32 × FVec Ideal S16 .f32) :
    (invLV (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 g0 g1 g3 base k.val acc : sProp 𝕄)
      ⊢ wp frame (wpE (defs₀ (F := Ideal)) 𝒱₀ (V d ((i 0).castLE hcore1) ((i 1).castLE hsub1)) none) Set.univ
          (k1_t6_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 v2 v3 (iota .scVector S16 32 [0] iota_S16_d0_w32_scVector) k1_pay576 k1_pay577 a0 a1 a2 a3 0#32 1#32 k acc)
          fun r => invLV (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 g0 g1 g3 base (k.val + 1) r := by
  unfold invLV invL
  iintro ⟨⟨H0, H1, H3⟩, %hsum⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0 H1 H3]
  · isplitl [H0]; · iexact H0
    isplitl [H1]; · iexact H1
    iexact H3
  ipureintro
  intro l
  rw [Finset.sum_range_succ, ← add_assoc, ← hsum l]
  unfold_run_names
  simp only [readAt_whole0, readAt_wholeX, sum4, addf_apply]
  iterate 25 rw [tok_lane g0 g1 g3 hx9 hy4]
  · simp only [k1_off130_eq, k1_off131_eq, k1_off132_eq, k1_off133_eq, k1_off134_eq, k1_off135_eq, k1_off136_eq, k1_off137_eq, k1_off138_eq, k1_off139_eq, k1_off140_eq, k1_off141_eq, k1_off142_eq, k1_off143_eq, k1_off144_eq, k1_off145_eq, k1_off146_eq, k1_off147_eq, k1_off148_eq, k1_off149_eq, k1_off150_eq, k1_off151_eq, k1_off152_eq, k1_off153_eq, k1_off154_eq, Matrix.cons_val_zero]
    unfold tripSum
    rw [Fin.sum_univ_eq_sum_range (fun u => tabN g0 (5 * xw g1 (400 * k.val + 16 * u + l.val) + yw g3 (400 * k.val + 16 * u + l.val))) 25]
    simp only [Finset.sum_range_succ, Finset.sum_range_zero, Nat.reduceMul, Nat.add_zero, zero_add]
    ac_rfl
  all_goals (clear * - k l; revert k l; decide +kernel)

end Cert.Proof.KI

end
-- ==== Proof.KI.TileTripV7.lean ====
/-
  One trip of the tile's loop 7 at the ideal values, with the value: the four accumulators' lane sums grow by the
  table at 5·x + y over the trip's 25 lane-vectors of tokens.
-/
import proofs.«205364_g71897752535391_cont_9to1_m_950_21_alg».proof.Proof.KI.TileValDefs

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

namespace TV7

open Lean Elab Tactic Meta in
/-- The names the run gave (`….sl.…`) and the payloads `k1_pay…`. -/
def isRunName (n : Name) : Bool :=
  n.components.contains `sl || (match n with | .str _ s => s.startsWith "k1_pay" | _ => false)

open Lean Elab Tactic Meta in
/-- `e` with every application of a run name or payload unfolded; a proof inside is kept, restated at its unfolded
    proposition. -/
partial def unfoldRunNames (e : Expr) : MetaM Expr :=
  Meta.transform e (pre := fun e => do
    if e.isApp || e.isConst then
      if ← (try Meta.isProof e catch _ => pure false) then
        let ty ← inferType e
        let ty' ← unfoldRunNames ty
        if ty' == ty then return .done e
        return .done (← mkExpectedTypeHint e ty')
      let f := e.getAppFn
      if let .const n _ := f then
        if isRunName n then
          if let some e' ← Meta.unfoldDefinition? e then
            return .visit e'.headBeta
    return .continue)

open Lean Elab Tactic Meta in
elab "unfold_run_names" : tactic => do
  let g ← getMainGoal
  let t ← instantiateMVars (← g.getType)
  let t' ← unfoldRunNames t
  let g' ← g.replaceTargetDefEq t'
  replaceMainGoal [g']

/-- The word 5·a + b of a token with a ≤ 9 and b ≤ 4, as a natural number. -/
theorem kv_toNat (a b : BitVec 32) (ha : a.toNat ≤ 9) (hb : b.toNat ≤ 4) :
    (IntOp.addi (IntOp.muli a 5#32) b).toNat = 5 * a.toNat + b.toNat := by
  have hm : (a * 5#32).toNat = a.toNat * 5 := by
    rw [BitVec.toNat_mul]
    exact Nat.mod_eq_of_lt (by show a.toNat * 5 < 2 ^ 32; omega)
  show (a * 5#32 + b).toNat = _
  rw [BitVec.toNat_add, hm]
  rw [Nat.mod_eq_of_lt (by omega)]
  omega

/-- One lane of one token vector: the table read at 5·x + y of the token the lane meets, given that the row and column
    vectors name that token's place in the chunk. -/
theorem tok_lane (g0 : (cc1_scratch0 : Ref sig .scVector).ty.Contents (Elt Ideal)) (g1 : (cc1_scratch1 : Ref sig .scVector).ty.Contents (Elt Ideal))
    (g3 : (cc1_scratch3 : Ref sig .scVector).ty.Contents (Elt Ideal))
    (hx9 : ∀ j, BitVec.toNat (g1 j) ≤ 9) (hy4 : ∀ j, BitVec.toNat (g3 j) ≤ 4)
    (row col : IVec S16 32) (hrc : ∀ a x, ((![row, col] : Fin 2 → IVec S16 32) a x).toNat < S64x200.size a)
    (off : Fin 1 → Nat) (hoff : ∀ a, off a + (![16] : Fin 1 → Nat) a ≤ S12800.size a)
    (h64 : ∀ a x, ((![addi (muli (loadIdx g1 ![row, col] hrc) (broadcast S16 5#32))
        (View.readAt (Elt Ideal) (View.whole cc1_scratch3) (Rect.unit (s := S12800) off (![16] : Fin 1 → Nat) hoff).toLoadRect g3)] : Fin 1 → IVec S16 32) a x).toNat < S64.size a)
    (l : Fin 16) (hj : off 0 + l.val < 12800)
    (hR : (row (ix1 l)).toNat = (off 0 + l.val) / 200) (hC : (col (ix1 l)).toNat = (off 0 + l.val) % 200) :
    loadIdx g0 ![addi (muli (loadIdx g1 ![row, col] hrc) (broadcast S16 5#32))
        (View.readAt (Elt Ideal) (View.whole cc1_scratch3) (Rect.unit (s := S12800) off (![16] : Fin 1 → Nat) hoff).toLoadRect g3)] h64 (ix1 l)
      = tabN g0 (5 * xw g1 (off 0 + l.val) + yw g3 (off 0 + l.val)) := by
  have hX : loadIdx g1 ![row, col] hrc (ix1 l)
      = g1 (ix2 (⟨(off 0 + l.val) / 200, by omega⟩ : Fin 64) (⟨(off 0 + l.val) % 200, Nat.mod_lt _ (by decide)⟩ : Fin 200)) := by
    unfold loadIdx
    refine congrArg g1 (funext fun a => Fin.ext ?_)
    match a with
    | ⟨0, _⟩ => exact hR
    | ⟨1, _⟩ => exact hC
  have hYv : View.readAt (Elt Ideal) (View.whole cc1_scratch3) (Rect.unit (s := S12800) off (![16] : Fin 1 → Nat) hoff).toLoadRect g3 (ix1 l)
      = g3 (ix1 (⟨off 0 + l.val, hj⟩ : Fin 12800)) := by
    rw [View.readAt_apply]
    show g3 _ = _
    refine congrArg g3 (funext fun a => Fin.ext ?_)
    match a with
    | ⟨0, _⟩ =>
      show off 0 + 1 * l.val = off 0 + l.val
      omega
  have hk : (addi (muli (loadIdx g1 ![row, col] hrc) (broadcast S16 5#32))
        (View.readAt (Elt Ideal) (View.whole cc1_scratch3) (Rect.unit (s := S12800) off (![16] : Fin 1 → Nat) hoff).toLoadRect g3) (ix1 l)).toNat
      = 5 * xw g1 (off 0 + l.val) + yw g3 (off 0 + l.val) := by
    show (IntOp.addi (IntOp.muli (loadIdx g1 ![row, col] hrc (ix1 l)) 5#32) (View.readAt (Elt Ideal) (View.whole cc1_scratch3) (Rect.unit (s := S12800) off (![16] : Fin 1 → Nat) hoff).toLoadRect g3 (ix1 l))).toNat = _
    rw [hX, hYv, kv_toNat _ _ (hx9 _) (hy4 _)]
    unfold xw yw
    rw [dif_pos hj, dif_pos hj]
  have hlt : 5 * xw g1 (off 0 + l.val) + yw g3 (off 0 + l.val) < 64 := by
    rw [← hk]
    exact h64 0 (ix1 l)
  unfold tabN
  rw [dif_pos hlt]
  unfold loadIdx
  refine congrArg g0 (funext fun a => Fin.ext ?_)
  match a with
  | ⟨0, _⟩ => exact hk

theorem readAt_whole0 (g : (cc1_scratch0 : Ref sig .scVector).ty.Contents (Elt Ideal)) :
    View.readAt (Elt Ideal) (View.whole cc1_scratch0) (LoadRect.whole S64) g = g := Memref.readAt_whole _ _ _
theorem readAt_wholeX (g : (cc1_scratch1 : Ref sig .scVector).ty.Contents (Elt Ideal)) :
    View.readAt (Elt Ideal) (View.whole cc1_scratch1) (LoadRect.whole S64x200) g = g := Memref.readAt_whole _ _ _

end TV7
open TV7

attribute [local sl_canon] vli_bind'

set_option sl_exec.dischHeartbeats 200000 in
set_option maxHeartbeats 8000000 in
/-- One trip of loop 7 keeps the three scratches and adds the trip's sum to the accumulators' lane sums. -/
theorem tripV_7 (d : Dev nD) (i : grid1.Coords)
    (g0 : Buf (Elt Ideal) ((Memref.whole cc1_scratch0 : Memref sig .scVector .vmem S64 .f32).view.loc (V d ((i 0).castLE hcore1) ((i 1).castLE hsub1))))
    (g1 : Buf (Elt Ideal) ((Memref.whole cc1_scratch1 : Memref sig .scVector .vmem S64x200 .i32).view.loc (V d ((i 0).castLE hcore1) ((i 1).castLE hsub1))))
    (g3 : Buf (Elt Ideal) ((Memref.whole cc1_scratch3 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4) (base : Fin 16 → EReal)
     (k : Fin k1_t7_loop.trips) (acc : FVec Ideal S16 .f32 × FVec Ideal S16 .f32 × FVec Ideal S16 .f32 × FVec Ideal S16 .f32) :
    (invLV (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 g0 g1 g3 base k.val acc : sProp 𝕄)
      ⊢ wp frame (wpE (defs₀ (F := Ideal)) 𝒱₀ (V d ((i 0).castLE hcore1) ((i 1).castLE hsub1)) none) Set.univ
          (k1_t7_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 (iota .scVector S16 32 [0] iota_S16_d0_w32_scVector) k1_pay576 k1_pay577 k acc)
          fun r => invLV (V d ((i 0).castLE hcore1) ((i 1).castLE hsub1)) (Memref.whole cc1_scratch0 : Memref sig .scVector .vmem S64 .f32) (Memref.whole cc1_scratch1 : Memref sig .scVector .vmem S64x200 .i32) (Memref.whole cc1_scratch3 : Memref sig .scVector .vmem S12800 .i32) g0 g1 g3 g0 g1 g3 base (k.val + 1) r := by
  unfold invLV invL
  iintro ⟨⟨H0, H1, H3⟩, %hsum⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0 H1 H3]
  · isplitl [H0]; · iexact H0
    isplitl [H1]; · iexact H1
    iexact H3
  ipureintro
  intro l
  rw [Finset.sum_range_succ, ← add_assoc, ← hsum l]
  unfold_run_names
  simp only [readAt_whole0, readAt_wholeX, sum4, addf_apply]
  iterate 25 rw [tok_lane g0 g1 g3 hx9 hy4]
  · simp only [k1_off155_eq, k1_off156_eq, k1_off157_eq, k1_off158_eq, k1_off159_eq, k1_off160_eq, k1_off161_eq, k1_off162_eq, k1_off163_eq, k1_off164_eq, k1_off165_eq, k1_off166_eq, k1_off167_eq, k1_off168_eq, k1_off169_eq, k1_off170_eq, k1_off171_eq, k1_off172_eq, k1_off173_eq, k1_off174_eq, k1_off175_eq, k1_off176_eq, k1_off177_eq, k1_off178_eq, k1_off179_eq, Matrix.cons_val_zero]
    unfold tripSum
    rw [Fin.sum_univ_eq_sum_range (fun u => tabN g0 (5 * xw g1 (400 * k.val + 16 * u + l.val) + yw g3 (400 * k.val + 16 * u + l.val))) 25]
    simp only [Finset.sum_range_succ, Finset.sum_range_zero, Nat.reduceMul, Nat.add_zero, zero_add]
    ac_rfl
  all_goals (clear * - k l; revert k l; decide +kernel)

end Cert.Proof.KI

end
-- ==== Proof.KI.TileTripV8.lean ====
/-
  One trip of the tile's loop 8 at the ideal values, with the value: the four accumulators' lane sums grow by the
  table at 5·x + y over the trip's 25 lane-vectors of tokens.
-/
import proofs.«205364_g71897752535391_cont_9to1_m_950_21_alg».proof.Proof.KI.TileValDefs

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

namespace TV8

open Lean Elab Tactic Meta in
/-- The names the run gave (`….sl.…`) and the payloads `k1_pay…`. -/
def isRunName (n : Name) : Bool :=
  n.components.contains `sl || (match n with | .str _ s => s.startsWith "k1_pay" | _ => false)

open Lean Elab Tactic Meta in
/-- `e` with every application of a run name or payload unfolded; a proof inside is kept, restated at its unfolded
    proposition. -/
partial def unfoldRunNames (e : Expr) : MetaM Expr :=
  Meta.transform e (pre := fun e => do
    if e.isApp || e.isConst then
      if ← (try Meta.isProof e catch _ => pure false) then
        let ty ← inferType e
        let ty' ← unfoldRunNames ty
        if ty' == ty then return .done e
        return .done (← mkExpectedTypeHint e ty')
      let f := e.getAppFn
      if let .const n _ := f then
        if isRunName n then
          if let some e' ← Meta.unfoldDefinition? e then
            return .visit e'.headBeta
    return .continue)

open Lean Elab Tactic Meta in
elab "unfold_run_names" : tactic => do
  let g ← getMainGoal
  let t ← instantiateMVars (← g.getType)
  let t' ← unfoldRunNames t
  let g' ← g.replaceTargetDefEq t'
  replaceMainGoal [g']

/-- The word 5·a + b of a token with a ≤ 9 and b ≤ 4, as a natural number. -/
theorem kv_toNat (a b : BitVec 32) (ha : a.toNat ≤ 9) (hb : b.toNat ≤ 4) :
    (IntOp.addi (IntOp.muli a 5#32) b).toNat = 5 * a.toNat + b.toNat := by
  have hm : (a * 5#32).toNat = a.toNat * 5 := by
    rw [BitVec.toNat_mul]
    exact Nat.mod_eq_of_lt (by show a.toNat * 5 < 2 ^ 32; omega)
  show (a * 5#32 + b).toNat = _
  rw [BitVec.toNat_add, hm]
  rw [Nat.mod_eq_of_lt (by omega)]
  omega

/-- One lane of one token vector: the table read at 5·x + y of the token the lane meets, given that the row and column
    vectors name that token's place in the chunk. -/
theorem tok_lane (g0 : (cc1_scratch0 : Ref sig .scVector).ty.Contents (Elt Ideal)) (g1 : (cc1_scratch2 : Ref sig .scVector).ty.Contents (Elt Ideal))
    (g3 : (cc1_scratch4 : Ref sig .scVector).ty.Contents (Elt Ideal))
    (hx9 : ∀ j, BitVec.toNat (g1 j) ≤ 9) (hy4 : ∀ j, BitVec.toNat (g3 j) ≤ 4)
    (row col : IVec S16 32) (hrc : ∀ a x, ((![row, col] : Fin 2 → IVec S16 32) a x).toNat < S64x200.size a)
    (off : Fin 1 → Nat) (hoff : ∀ a, off a + (![16] : Fin 1 → Nat) a ≤ S12800.size a)
    (h64 : ∀ a x, ((![addi (muli (loadIdx g1 ![row, col] hrc) (broadcast S16 5#32))
        (View.readAt (Elt Ideal) (View.whole cc1_scratch4) (Rect.unit (s := S12800) off (![16] : Fin 1 → Nat) hoff).toLoadRect g3)] : Fin 1 → IVec S16 32) a x).toNat < S64.size a)
    (l : Fin 16) (hj : off 0 + l.val < 12800)
    (hR : (row (ix1 l)).toNat = (off 0 + l.val) / 200) (hC : (col (ix1 l)).toNat = (off 0 + l.val) % 200) :
    loadIdx g0 ![addi (muli (loadIdx g1 ![row, col] hrc) (broadcast S16 5#32))
        (View.readAt (Elt Ideal) (View.whole cc1_scratch4) (Rect.unit (s := S12800) off (![16] : Fin 1 → Nat) hoff).toLoadRect g3)] h64 (ix1 l)
      = tabN g0 (5 * xw g1 (off 0 + l.val) + yw g3 (off 0 + l.val)) := by
  have hX : loadIdx g1 ![row, col] hrc (ix1 l)
      = g1 (ix2 (⟨(off 0 + l.val) / 200, by omega⟩ : Fin 64) (⟨(off 0 + l.val) % 200, Nat.mod_lt _ (by decide)⟩ : Fin 200)) := by
    unfold loadIdx
    refine congrArg g1 (funext fun a => Fin.ext ?_)
    match a with
    | ⟨0, _⟩ => exact hR
    | ⟨1, _⟩ => exact hC
  have hYv : View.readAt (Elt Ideal) (View.whole cc1_scratch4) (Rect.unit (s := S12800) off (![16] : Fin 1 → Nat) hoff).toLoadRect g3 (ix1 l)
      = g3 (ix1 (⟨off 0 + l.val, hj⟩ : Fin 12800)) := by
    rw [View.readAt_apply]
    show g3 _ = _
    refine congrArg g3 (funext fun a => Fin.ext ?_)
    match a with
    | ⟨0, _⟩ =>
      show off 0 + 1 * l.val = off 0 + l.val
      omega
  have hk : (addi (muli (loadIdx g1 ![row, col] hrc) (broadcast S16 5#32))
        (View.readAt (Elt Ideal) (View.whole cc1_scratch4) (Rect.unit (s := S12800) off (![16] : Fin 1 → Nat) hoff).toLoadRect g3) (ix1 l)).toNat
      = 5 * xw g1 (off 0 + l.val) + yw g3 (off 0 + l.val) := by
    show (IntOp.addi (IntOp.muli (loadIdx g1 ![row, col] hrc (ix1 l)) 5#32) (View.readAt (Elt Ideal) (View.whole cc1_scratch4) (Rect.unit (s := S12800) off (![16] : Fin 1 → Nat) hoff).toLoadRect g3 (ix1 l))).toNat = _
    rw [hX, hYv, kv_toNat _ _ (hx9 _) (hy4 _)]
    unfold xw yw
    rw [dif_pos hj, dif_pos hj]
  have hlt : 5 * xw g1 (off 0 + l.val) + yw g3 (off 0 + l.val) < 64 := by
    rw [← hk]
    exact h64 0 (ix1 l)
  unfold tabN
  rw [dif_pos hlt]
  unfold loadIdx
  refine congrArg g0 (funext fun a => Fin.ext ?_)
  match a with
  | ⟨0, _⟩ => exact hk

theorem readAt_whole0 (g : (cc1_scratch0 : Ref sig .scVector).ty.Contents (Elt Ideal)) :
    View.readAt (Elt Ideal) (View.whole cc1_scratch0) (LoadRect.whole S64) g = g := Memref.readAt_whole _ _ _
theorem readAt_wholeX (g : (cc1_scratch2 : Ref sig .scVector).ty.Contents (Elt Ideal)) :
    View.readAt (Elt Ideal) (View.whole cc1_scratch2) (LoadRect.whole S64x200) g = g := Memref.readAt_whole _ _ _

end TV8
open TV8

attribute [local sl_canon] vli_bind'

set_option sl_exec.dischHeartbeats 200000 in
set_option maxHeartbeats 8000000 in
/-- One trip of loop 8 keeps the three scratches and adds the trip's sum to the accumulators' lane sums. -/
theorem tripV_8 (d : Dev nD) (i : grid1.Coords)
    (g0 : Buf (Elt Ideal) ((Memref.whole cc1_scratch0 : Memref sig .scVector .vmem S64 .f32).view.loc (V d ((i 0).castLE hcore1) ((i 1).castLE hsub1))))
    (g1 : Buf (Elt Ideal) ((Memref.whole cc1_scratch2 : Memref sig .scVector .vmem S64x200 .i32).view.loc (V d ((i 0).castLE hcore1) ((i 1).castLE hsub1))))
    (g3 : Buf (Elt Ideal) ((Memref.whole cc1_scratch4 : Memref sig .scVector .vmem S12800 .i32).view.loc (V d ((i 0).castLE hcore1) ((i 1).castLE hsub1))))
    (hx9 : ∀ j, BitVec.toNat (g1 j) ≤ 9) (hy4 : ∀ j, BitVec.toNat (g3 j) ≤ 4) (base : Fin 16 → EReal)
     (k : Fin k1_t8_loop.trips) (acc : FVec Ideal S16 .f32 × FVec Ideal S16 .f32 × FVec Ideal S16 .f32 × FVec Ideal S16 .f32) :
    (invLV (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 g0 g1 g3 base k.val acc : sProp 𝕄)
      ⊢ wp frame (wpE (defs₀ (F := Ideal)) 𝒱₀ (V d ((i 0).castLE hcore1) ((i 1).castLE hsub1)) none) Set.univ
          (k1_t8_body i (Memref.whole main_arg0_scv) (Memref.isWhole_whole _) (Memref.whole main_arg1_scv) (Memref.isWhole_whole _) (Memref.whole main_v2_scv) (Memref.isWhole_whole _) (Memref.whole main_v3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scoped0 cc1_scoped1 (iota .scVector S16 32 [0] iota_S16_d0_w32_scVector) k1_pay576 k1_pay577 k acc)
          fun r => invLV (V d ((i 0).castLE hcore1) ((i 1).castLE hsub1)) (Memref.whole cc1_scratch0 : Memref sig .scVector .vmem S64 .f32) (Memref.whole cc1_scratch2 : Memref sig .scVector .vmem S64x200 .i32) (Memref.whole cc1_scratch4 : Memref sig .scVector .vmem S12800 .i32) g0 g1 g3 g0 g1 g3 base (k.val + 1) r := by
  unfold invLV invL
  iintro ⟨⟨H0, H1, H3⟩, %hsum⟩
  sl_exec_parts (disch := first
      | (refine fun a x => ?_
         obtain rfl : a = 0 := Subsingleton.elim _ _
         exact pay_lt _ _ (fun y => hx9 _) (fun y => hy4 _) x)
      | (clear * - k; decide +kernel +revert))
  sl_step
  isplitl [H0 H1 H3]
  · isplitl [H0]; · iexact H0
    isplitl [H1]; · iexact H1
    iexact H3
  ipureintro
  intro l
  rw [Finset.sum_range_succ, ← add_assoc, ← hsum l]
  unfold_run_names
  simp only [readAt_whole0, readAt_wholeX, sum4, addf_apply]
  iterate 25 rw [tok_lane g0 g1 g3 hx9 hy4]
  · simp only [k1_off180_eq, k1_off181_eq, k1_off182_eq, k1_off183_eq, k1_off184_eq, k1_off185_eq, k1_off186_eq, k1_off187_eq, k1_off188_eq, k1_off189_eq, k1_off190_eq, k1_off191_eq, k1_off192_eq, k1_off193_eq, k1_off194_eq, k1_off195_eq, k1_off196_eq, k1_off197_eq, k1_off198_eq, k1_off199_eq, k1_off200_eq, k1_off201_eq, k1_off202_eq, k1_off203_eq, k1_off204_eq, Matrix.cons_val_zero]
    unfold tripSum
    rw [Fin.sum_univ_eq_sum_range (fun u => tabN g0 (5 * xw g1 (400 * k.val + 16 * u + l.val) + yw g3 (400 * k.val + 16 * u + l.val))) 25]
    simp only [Finset.sum_range_succ, Finset.sum_range_zero, Nat.reduceMul, Nat.add_zero, zero_add]
    ac_rfl
  all_goals (clear * - k l; revert k l; decide +kernel)

end Cert.Proof.KI

end
-- ==== Proof.KI.TileBodyV.lean ====
/-
  The tile's task with its value, at the idealized float instance: as the tile's task, the loops' invariant carrying the four
  accumulators' lane-wise sums — after chunk n the sums of the padded table at 5·x + y over the chunks' tokens so far —, the
  last store and copy leaving them on the tile's sixteen words.
-/
import proofs.«205364_g71897752535391_cont_9to1_m_950_21_alg».proof.Proof.KI.ValueFinal
import proofs.«205364_g71897752535391_cont_9to1_m_950_21_alg».proof.Proof.KI.TileValDefs
import proofs.«205364_g71897752535391_cont_9to1_m_950_21_alg».proof.Proof.KI.BlockFinal
import proofs.«205364_g71897752535391_cont_9to1_m_950_21_alg».proof.Proof.KI.WritesBlock
import proofs.«205364_g71897752535391_cont_9to1_m_950_21_alg».proof.Proof.KI.TileTripV1
import proofs.«205364_g71897752535391_cont_9to1_m_950_21_alg».proof.Proof.KI.TileTripV2
import proofs.«205364_g71897752535391_cont_9to1_m_950_21_alg».proof.Proof.KI.TileTripV3
import proofs.«205364_g71897752535391_cont_9to1_m_950_21_alg».proof.Proof.KI.TileTripV4
import proofs.«205364_g71897752535391_cont_9to1_m_950_21_alg».proof.Proof.KI.TileTripV5
import proofs.«205364_g71897752535391_cont_9to1_m_950_21_alg».proof.Proof.KI.TileTripV6
import proofs.«205364_g71897752535391_cont_9to1_m_950_21_alg».proof.Proof.KI.TileTripV7
import proofs.«205364_g71897752535391_cont_9to1_m_950_21_alg».proof.Proof.KI.TileTripV8

set_option maxRecDepth 16384

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

variable (m : (ℓ : Loc nD τ sig) → Buf (Elt Ideal) ℓ) (wC : (d : Dev nD) → Buf (Elt Ideal) (wLoc d))

set_option sl_exec.dischHeartbeats 200000 in
set_option maxHeartbeats 8000000 in
/-- Every tile leaves `pvBuf m` on its block, the table being the padded table of the arguments. -/
theorem tile_bodyV (hwC : ∀ d, wC d = wT (m (eLoc d)) (m (fLoc d)) (m (bLoc d))) (hpre : PreOK m) : TileVal (F := Ideal) m wC (pvBuf m) := by
  intro d c s O W hO
  unfold tileProg
  simp only [cc1_lookup_sum_eq_skeleton]; unfold cc1_lookup_sum_skel
  rw [(K (F := Ideal)).scopedBufs_V facts d (c.castLE hcore1) (s.castLE hsub1), SparseCore.Cfg.scopedSems0_V (Val := Elt Ideal) d (c.castLE hcore1) (s.castLE hsub1),
    ownSems0_V, ownBufs_V]
  unfold tileIn
  iintro ⟨#Hlv, -, ⟨Hx, Hy, Hw, Ho⟩, ⟨⟨%f0, Hs0⟩, ⟨%f1, Hs1⟩, ⟨%f2, Hs2⟩, ⟨%f3, Hs3⟩, ⟨%f4, Hs4⟩, ⟨%f5, Hs5⟩, Hbufs⟩, ⟨Hr0, Hx0, Hx1, Hy0, Hy1, Hr1, Hsems⟩, HO⟩
  ihave Hmw := ((K (F := Ideal)).mayWaits_none (thr := (V d (c.castLE hcore1) (s.castLE hsub1))) hO) $$ Hlv
  ihave Hx' := (Entails.of_eq (show ((Memref.whole main_arg0_scv : Memref sig .scVector .hbm S16384x200 .i32).view.loc (V d (c.castLE hcore1) (s.castLE hsub1)) ↦{Transfers.shareTok fullShare 32 (widV c s)} m (xLoc d) : sProp 𝕄) = _ from rfl).symm) $$ Hx
  ihave Hy' := (Entails.of_eq (show ((Memref.whole main_arg1_scv : Memref sig .scVector .hbm S3276800 .i32).view.loc (V d (c.castLE hcore1) (s.castLE hsub1)) ↦{Transfers.shareTok fullShare 32 (widV c s)} m (yLoc d) : sProp 𝕄) = _ from rfl).symm) $$ Hy
  ihave Hw' := (Entails.of_eq (show ((Memref.whole main_v2_scv : Memref sig .scVector .hbm S64 .f32).view.loc (V d (c.castLE hcore1) (s.castLE hsub1)) ↦{Transfers.shareTok fullShare 32 (widV c s)} wC d : sProp 𝕄) = _ from rfl).symm) $$ Hw
  ihave Hs0' := (Entails.of_eq (show ((Memref.whole cc1_scratch0 : Memref sig .scVector .vmem S64 .f32).view.loc (V d (c.castLE hcore1) (s.castLE hsub1)) ↦{fullShare} f0 : sProp 𝕄) = _ from rfl).symm) $$ Hs0
  ihave Hs1' := (Entails.of_eq (show ((Memref.whole cc1_scratch1 : Memref sig .scVector .vmem S64x200 .i32).view.loc (V d (c.castLE hcore1) (s.castLE hsub1)) ↦{fullShare} f1 : sProp 𝕄) = _ from rfl).symm) $$ Hs1
  ihave Hs2' := (Entails.of_eq (show ((Memref.whole cc1_scratch2 : Memref sig .scVector .vmem S64x200 .i32).view.loc (V d (c.castLE hcore1) (s.castLE hsub1)) ↦{fullShare} f2 : sProp 𝕄) = _ from rfl).symm) $$ Hs2
  ihave Hs3' := (Entails.of_eq (show ((Memref.whole cc1_scratch3 : Memref sig .scVector .vmem S12800 .i32).view.loc (V d (c.castLE hcore1) (s.castLE hsub1)) ↦{fullShare} f3 : sProp 𝕄) = _ from rfl).symm) $$ Hs3
  ihave Hs4' := (Entails.of_eq (show ((Memref.whole cc1_scratch4 : Memref sig .scVector .vmem S12800 .i32).view.loc (V d (c.castLE hcore1) (s.castLE hsub1)) ↦{fullShare} f4 : sProp 𝕄) = _ from rfl).symm) $$ Hs4
  ihave Hs5' := (Entails.of_eq (show ((Memref.whole cc1_scratch5 : Memref sig .scVector .vmem S16 .f32).view.loc (V d (c.castLE hcore1) (s.castLE hsub1)) ↦{fullShare} f5 : sProp 𝕄) = _ from rfl).symm) $$ Hs5
  ihave Ho' := (Entails.of_eq (show ((oSl c s).view.loc (V d (c.castLE hcore1) (s.castLE hsub1)) ↦[(oSl c s).view.set]{fullShare} m (oLoc d) : sProp 𝕄) = (oLoc d ↦[oBlk (widV c s)]{fullShare} m (oLoc d)) from by rw [set_oSl]).symm) $$ Ho
  sl_exec_parts
  have hx9_1 : ∀ j, BitVec.toNat ((View.write (Elt Ideal) (Memref.whole cc1_scratch1).view f1 (tile_bodyV.sl.dma0_1 m d c s) Finset.univ) j) ≤ 9 := fun j =>
    le_of_eq_of_le (congrArg BitVec.toNat (congrFun (View.write_whole_univ (Val := Elt Ideal) cc1_scratch1 f1 (tile_bodyV.sl.dma0_1 m d c s)) j)) ((hpre d).1 _)
  have hy4_1 : ∀ j, BitVec.toNat ((View.write (Elt Ideal) (Memref.whole cc1_scratch3).view f3 (tile_bodyV.sl.dma0_2 m d c s) Finset.univ) j) ≤ 4 := fun j =>
    le_of_eq_of_le (congrArg BitVec.toNat (congrFun (View.write_whole_univ (Val := Elt Ideal) cc1_scratch3 f3 (tile_bodyV.sl.dma0_2 m d c s)) j)) ((hpre d).2 _)
  sl_for (invLV (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt Ideal) (Memref.whole cc1_scratch0).view f0 (tile_bodyV.sl.dma0 wC d) Finset.univ) (View.write (Elt Ideal) (Memref.whole cc1_scratch1).view f1 (tile_bodyV.sl.dma0_1 m d c s) Finset.univ) (View.write (Elt Ideal) (Memref.whole cc1_scratch3).view f3 (tile_bodyV.sl.dma0_2 m d c s) Finset.univ) (View.write (Elt Ideal) (Memref.whole cc1_scratch0).view f0 (tile_bodyV.sl.dma0 wC d) Finset.univ) (View.write (Elt Ideal) (Memref.whole cc1_scratch1).view f1 (tile_bodyV.sl.dma0_1 m d c s) Finset.univ) (View.write (Elt Ideal) (Memref.whole cc1_scratch3).view f3 (tile_bodyV.sl.dma0_2 m d c s) Finset.univ) (fun l => sum4 (k1_pay578, k1_pay579, k1_pay580, k1_pay581) l)) $$ [Hs0' Hs1' Hs3']
  case region =>
    intro k acc
    exact tripV_1 d (coordsV c s) _ _ _ hx9_1 hy4_1 _ _ _ _ _ _ _ k acc
  · unfold invLV invL
    isplitl [Hs0' Hs1' Hs3']
    · isplitl [Hs0']; · iexact Hs0'
      isplitl [Hs1']; · iexact Hs1'
      iexact Hs3'
    ipureintro
    intro l
    rw [Finset.range_zero, Finset.sum_empty, add_zero]
    try rfl
  iintro %acc1 HI
  unfold invLV invL
  icases HI with ⟨⟨Hs0', Hs1', Hs3'⟩, %hsum1⟩
  sl_exec_parts
  have hx9_2 : ∀ j, BitVec.toNat ((View.write (Elt Ideal) (Memref.whole cc1_scratch2).view f2 (tile_bodyV.sl.dma0_3 m d c s) Finset.univ) j) ≤ 9 := fun j =>
    le_of_eq_of_le (congrArg BitVec.toNat (congrFun (View.write_whole_univ (Val := Elt Ideal) cc1_scratch2 f2 (tile_bodyV.sl.dma0_3 m d c s)) j)) ((hpre d).1 _)
  have hy4_2 : ∀ j, BitVec.toNat ((View.write (Elt Ideal) (Memref.whole cc1_scratch4).view f4 (tile_bodyV.sl.dma0_4 m d c s) Finset.univ) j) ≤ 4 := fun j =>
    le_of_eq_of_le (congrArg BitVec.toNat (congrFun (View.write_whole_univ (Val := Elt Ideal) cc1_scratch4 f4 (tile_bodyV.sl.dma0_4 m d c s)) j)) ((hpre d).2 _)
  sl_for (invLV (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt Ideal) (Memref.whole cc1_scratch0).view f0 (tile_bodyV.sl.dma0 wC d) Finset.univ) (View.write (Elt Ideal) (Memref.whole cc1_scratch2).view f2 (tile_bodyV.sl.dma0_3 m d c s) Finset.univ) (View.write (Elt Ideal) (Memref.whole cc1_scratch4).view f4 (tile_bodyV.sl.dma0_4 m d c s) Finset.univ) (View.write (Elt Ideal) (Memref.whole cc1_scratch0).view f0 (tile_bodyV.sl.dma0 wC d) Finset.univ) (View.write (Elt Ideal) (Memref.whole cc1_scratch2).view f2 (tile_bodyV.sl.dma0_3 m d c s) Finset.univ) (View.write (Elt Ideal) (Memref.whole cc1_scratch4).view f4 (tile_bodyV.sl.dma0_4 m d c s) Finset.univ) (fun l => sum4 acc1 l)) $$ [Hs0' Hs2' Hs4']
  case region =>
    intro k acc
    exact tripV_2 d (coordsV c s) _ _ _ hx9_2 hy4_2 _ _ _ _ _ _ _ k acc
  · unfold invLV invL
    isplitl [Hs0' Hs2' Hs4']
    · isplitl [Hs0']; · iexact Hs0'
      isplitl [Hs2']; · iexact Hs2'
      iexact Hs4'
    ipureintro
    intro l
    rw [Finset.range_zero, Finset.sum_empty, add_zero]
    try rfl
  iintro %acc2 HI
  unfold invLV invL
  icases HI with ⟨⟨Hs0', Hs2', Hs4'⟩, %hsum2⟩
  sl_exec_parts
  have hx9_3 : ∀ j, BitVec.toNat ((View.write (Elt Ideal) (Memref.whole cc1_scratch1).view (View.write (Elt Ideal) (Memref.whole cc1_scratch1).view f1 (tile_bodyV.sl.dma0_1 m d c s) Finset.univ) (tile_bodyV.sl.dma0_5 m d c s) Finset.univ) j) ≤ 9 := fun j =>
    le_of_eq_of_le (congrArg BitVec.toNat (congrFun (View.write_whole_univ (Val := Elt Ideal) cc1_scratch1 (View.write (Elt Ideal) (Memref.whole cc1_scratch1).view f1 (tile_bodyV.sl.dma0_1 m d c s) Finset.univ) (tile_bodyV.sl.dma0_5 m d c s)) j)) ((hpre d).1 _)
  have hy4_3 : ∀ j, BitVec.toNat ((View.write (Elt Ideal) (Memref.whole cc1_scratch3).view (View.write (Elt Ideal) (Memref.whole cc1_scratch3).view f3 (tile_bodyV.sl.dma0_2 m d c s) Finset.univ) (tile_bodyV.sl.dma0_6 m d c s) Finset.univ) j) ≤ 4 := fun j =>
    le_of_eq_of_le (congrArg BitVec.toNat (congrFun (View.write_whole_univ (Val := Elt Ideal) cc1_scratch3 (View.write (Elt Ideal) (Memref.whole cc1_scratch3).view f3 (tile_bodyV.sl.dma0_2 m d c s) Finset.univ) (tile_bodyV.sl.dma0_6 m d c s)) j)) ((hpre d).2 _)
  sl_for (invLV (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt Ideal) (Memref.whole cc1_scratch0).view f0 (tile_bodyV.sl.dma0 wC d) Finset.univ) (View.write (Elt Ideal) (Memref.whole cc1_scratch1).view (View.write (Elt Ideal) (Memref.whole cc1_scratch1).view f1 (tile_bodyV.sl.dma0_1 m d c s) Finset.univ) (tile_bodyV.sl.dma0_5 m d c s) Finset.univ) (View.write (Elt Ideal) (Memref.whole cc1_scratch3).view (View.write (Elt Ideal) (Memref.whole cc1_scratch3).view f3 (tile_bodyV.sl.dma0_2 m d c s) Finset.univ) (tile_bodyV.sl.dma0_6 m d c s) Finset.univ) (View.write (Elt Ideal) (Memref.whole cc1_scratch0).view f0 (tile_bodyV.sl.dma0 wC d) Finset.univ) (View.write (Elt Ideal) (Memref.whole cc1_scratch1).view (View.write (Elt Ideal) (Memref.whole cc1_scratch1).view f1 (tile_bodyV.sl.dma0_1 m d c s) Finset.univ) (tile_bodyV.sl.dma0_5 m d c s) Finset.univ) (View.write (Elt Ideal) (Memref.whole cc1_scratch3).view (View.write (Elt Ideal) (Memref.whole cc1_scratch3).view f3 (tile_bodyV.sl.dma0_2 m d c s) Finset.univ) (tile_bodyV.sl.dma0_6 m d c s) Finset.univ) (fun l => sum4 acc2 l)) $$ [Hs0' Hs1' Hs3']
  case region =>
    intro k acc
    exact tripV_3 d (coordsV c s) _ _ _ hx9_3 hy4_3 _ _ _ _ _ _ _ k acc
  · unfold invLV invL
    isplitl [Hs0' Hs1' Hs3']
    · isplitl [Hs0']; · iexact Hs0'
      isplitl [Hs1']; · iexact Hs1'
      iexact Hs3'
    ipureintro
    intro l
    rw [Finset.range_zero, Finset.sum_empty, add_zero]
    try rfl
  iintro %acc3 HI
  unfold invLV invL
  icases HI with ⟨⟨Hs0', Hs1', Hs3'⟩, %hsum3⟩
  sl_exec_parts
  have hx9_4 : ∀ j, BitVec.toNat ((View.write (Elt Ideal) (Memref.whole cc1_scratch2).view (View.write (Elt Ideal) (Memref.whole cc1_scratch2).view f2 (tile_bodyV.sl.dma0_3 m d c s) Finset.univ) (tile_bodyV.sl.dma0_7 m d c s) Finset.univ) j) ≤ 9 := fun j =>
    le_of_eq_of_le (congrArg BitVec.toNat (congrFun (View.write_whole_univ (Val := Elt Ideal) cc1_scratch2 (View.write (Elt Ideal) (Memref.whole cc1_scratch2).view f2 (tile_bodyV.sl.dma0_3 m d c s) Finset.univ) (tile_bodyV.sl.dma0_7 m d c s)) j)) ((hpre d).1 _)
  have hy4_4 : ∀ j, BitVec.toNat ((View.write (Elt Ideal) (Memref.whole cc1_scratch4).view (View.write (Elt Ideal) (Memref.whole cc1_scratch4).view f4 (tile_bodyV.sl.dma0_4 m d c s) Finset.univ) (tile_bodyV.sl.dma0_8 m d c s) Finset.univ) j) ≤ 4 := fun j =>
    le_of_eq_of_le (congrArg BitVec.toNat (congrFun (View.write_whole_univ (Val := Elt Ideal) cc1_scratch4 (View.write (Elt Ideal) (Memref.whole cc1_scratch4).view f4 (tile_bodyV.sl.dma0_4 m d c s) Finset.univ) (tile_bodyV.sl.dma0_8 m d c s)) j)) ((hpre d).2 _)
  sl_for (invLV (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt Ideal) (Memref.whole cc1_scratch0).view f0 (tile_bodyV.sl.dma0 wC d) Finset.univ) (View.write (Elt Ideal) (Memref.whole cc1_scratch2).view (View.write (Elt Ideal) (Memref.whole cc1_scratch2).view f2 (tile_bodyV.sl.dma0_3 m d c s) Finset.univ) (tile_bodyV.sl.dma0_7 m d c s) Finset.univ) (View.write (Elt Ideal) (Memref.whole cc1_scratch4).view (View.write (Elt Ideal) (Memref.whole cc1_scratch4).view f4 (tile_bodyV.sl.dma0_4 m d c s) Finset.univ) (tile_bodyV.sl.dma0_8 m d c s) Finset.univ) (View.write (Elt Ideal) (Memref.whole cc1_scratch0).view f0 (tile_bodyV.sl.dma0 wC d) Finset.univ) (View.write (Elt Ideal) (Memref.whole cc1_scratch2).view (View.write (Elt Ideal) (Memref.whole cc1_scratch2).view f2 (tile_bodyV.sl.dma0_3 m d c s) Finset.univ) (tile_bodyV.sl.dma0_7 m d c s) Finset.univ) (View.write (Elt Ideal) (Memref.whole cc1_scratch4).view (View.write (Elt Ideal) (Memref.whole cc1_scratch4).view f4 (tile_bodyV.sl.dma0_4 m d c s) Finset.univ) (tile_bodyV.sl.dma0_8 m d c s) Finset.univ) (fun l => sum4 acc3 l)) $$ [Hs0' Hs2' Hs4']
  case region =>
    intro k acc
    exact tripV_4 d (coordsV c s) _ _ _ hx9_4 hy4_4 _ _ _ _ _ _ _ k acc
  · unfold invLV invL
    isplitl [Hs0' Hs2' Hs4']
    · isplitl [Hs0']; · iexact Hs0'
      isplitl [Hs2']; · iexact Hs2'
      iexact Hs4'
    ipureintro
    intro l
    rw [Finset.range_zero, Finset.sum_empty, add_zero]
    try rfl
  iintro %acc4 HI
  unfold invLV invL
  icases HI with ⟨⟨Hs0', Hs2', Hs4'⟩, %hsum4⟩
  sl_exec_parts
  have hx9_5 : ∀ j, BitVec.toNat ((View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) j) ≤ 9 := fun j =>
    le_of_eq_of_le (congrArg BitVec.toNat (congrFun (View.write_whole_univ (Val := Elt Ideal) cc1_scratch1 (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s)) j)) ((hpre d).1 _)
  have hy4_5 : ∀ j, BitVec.toNat ((View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) j) ≤ 4 := fun j =>
    le_of_eq_of_le (congrArg BitVec.toNat (congrFun (View.write_whole_univ (Val := Elt Ideal) cc1_scratch3 (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s)) j)) ((hpre d).2 _)
  sl_for (invLV (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt Ideal) (Memref.whole cc1_scratch0).view f0 (tile_bodyV.sl.dma0 wC d) Finset.univ) (View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) (View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) (View.write (Elt Ideal) (Memref.whole cc1_scratch0).view f0 (tile_bodyV.sl.dma0 wC d) Finset.univ) (View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) (View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) (fun l => sum4 acc4 l)) $$ [Hs0' Hs1' Hs3']
  case region =>
    intro k acc
    exact tripV_5 d (coordsV c s) _ _ _ hx9_5 hy4_5 _ _ _ _ _ _ _ k acc
  · unfold invLV invL
    isplitl [Hs0' Hs1' Hs3']
    · isplitl [Hs0']; · iexact Hs0'
      isplitl [Hs1']; · iexact Hs1'
      iexact Hs3'
    ipureintro
    intro l
    rw [Finset.range_zero, Finset.sum_empty, add_zero]
    try rfl
  iintro %acc5 HI
  unfold invLV invL
  icases HI with ⟨⟨Hs0', Hs1', Hs3'⟩, %hsum5⟩
  sl_exec_parts
  have hx9_6 : ∀ j, BitVec.toNat ((View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) j) ≤ 9 := fun j =>
    le_of_eq_of_le (congrArg BitVec.toNat (congrFun (View.write_whole_univ (Val := Elt Ideal) cc1_scratch2 (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s)) j)) ((hpre d).1 _)
  have hy4_6 : ∀ j, BitVec.toNat ((View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) j) ≤ 4 := fun j =>
    le_of_eq_of_le (congrArg BitVec.toNat (congrFun (View.write_whole_univ (Val := Elt Ideal) cc1_scratch4 (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s)) j)) ((hpre d).2 _)
  sl_for (invLV (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt Ideal) (Memref.whole cc1_scratch0).view f0 (tile_bodyV.sl.dma0 wC d) Finset.univ) (View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) (View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) (View.write (Elt Ideal) (Memref.whole cc1_scratch0).view f0 (tile_bodyV.sl.dma0 wC d) Finset.univ) (View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) (View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) (fun l => sum4 acc5 l)) $$ [Hs0' Hs2' Hs4']
  case region =>
    intro k acc
    exact tripV_6 d (coordsV c s) _ _ _ hx9_6 hy4_6 _ _ _ _ _ _ _ k acc
  · unfold invLV invL
    isplitl [Hs0' Hs2' Hs4']
    · isplitl [Hs0']; · iexact Hs0'
      isplitl [Hs2']; · iexact Hs2'
      iexact Hs4'
    ipureintro
    intro l
    rw [Finset.range_zero, Finset.sum_empty, add_zero]
    try rfl
  iintro %acc6 HI
  unfold invLV invL
  icases HI with ⟨⟨Hs0', Hs2', Hs4'⟩, %hsum6⟩
  sl_exec_parts
  have hx9_7 : ∀ j, BitVec.toNat ((View.write (Elt Ideal) (Memref.whole cc1_scratch1).view (View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) (tile_bodyV.sl.dma0_13 m d c s) Finset.univ) j) ≤ 9 := fun j =>
    le_of_eq_of_le (congrArg BitVec.toNat (congrFun (View.write_whole_univ (Val := Elt Ideal) cc1_scratch1 (View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) (tile_bodyV.sl.dma0_13 m d c s)) j)) ((hpre d).1 _)
  have hy4_7 : ∀ j, BitVec.toNat ((View.write (Elt Ideal) (Memref.whole cc1_scratch3).view (View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) (tile_bodyV.sl.dma0_14 m d c s) Finset.univ) j) ≤ 4 := fun j =>
    le_of_eq_of_le (congrArg BitVec.toNat (congrFun (View.write_whole_univ (Val := Elt Ideal) cc1_scratch3 (View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) (tile_bodyV.sl.dma0_14 m d c s)) j)) ((hpre d).2 _)
  sl_for (invLV (V d (c.castLE hcore1) (s.castLE hsub1)) (Memref.whole cc1_scratch0 : Memref sig .scVector .vmem S64 .f32) (Memref.whole cc1_scratch1 : Memref sig .scVector .vmem S64x200 .i32) (Memref.whole cc1_scratch3 : Memref sig .scVector .vmem S12800 .i32) (View.write (Elt Ideal) (Memref.whole cc1_scratch0).view f0 (tile_bodyV.sl.dma0 wC d) Finset.univ) (View.write (Elt Ideal) (Memref.whole cc1_scratch1).view (View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) (tile_bodyV.sl.dma0_13 m d c s) Finset.univ) (View.write (Elt Ideal) (Memref.whole cc1_scratch3).view (View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) (tile_bodyV.sl.dma0_14 m d c s) Finset.univ) (View.write (Elt Ideal) (Memref.whole cc1_scratch0).view f0 (tile_bodyV.sl.dma0 wC d) Finset.univ) (View.write (Elt Ideal) (Memref.whole cc1_scratch1).view (View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) (tile_bodyV.sl.dma0_13 m d c s) Finset.univ) (View.write (Elt Ideal) (Memref.whole cc1_scratch3).view (View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) (tile_bodyV.sl.dma0_14 m d c s) Finset.univ) (fun l => sum4 acc6 l)) $$ [Hs0' Hs1' Hs3']
  case region =>
    intro k acc
    exact tripV_7 d (coordsV c s) _ _ _ hx9_7 hy4_7 _ k acc
  · unfold invLV invL
    isplitl [Hs0' Hs1' Hs3']
    · isplitl [Hs0']; · iexact Hs0'
      isplitl [Hs1']; · iexact Hs1'
      iexact Hs3'
    ipureintro
    intro l
    rw [Finset.range_zero, Finset.sum_empty, add_zero]
    try rfl
  iintro %acc7 HI
  unfold invLV invL
  icases HI with ⟨⟨Hs0', Hs1', Hs3'⟩, %hsum7⟩
  sl_exec_parts
  have hx9_8 : ∀ j, BitVec.toNat ((View.write (Elt Ideal) (Memref.whole cc1_scratch2).view (View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) (tile_bodyV.sl.dma0_15 m d c s) Finset.univ) j) ≤ 9 := fun j =>
    le_of_eq_of_le (congrArg BitVec.toNat (congrFun (View.write_whole_univ (Val := Elt Ideal) cc1_scratch2 (View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) (tile_bodyV.sl.dma0_15 m d c s)) j)) ((hpre d).1 _)
  have hy4_8 : ∀ j, BitVec.toNat ((View.write (Elt Ideal) (Memref.whole cc1_scratch4).view (View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) (tile_bodyV.sl.dma0_16 m d c s) Finset.univ) j) ≤ 4 := fun j =>
    le_of_eq_of_le (congrArg BitVec.toNat (congrFun (View.write_whole_univ (Val := Elt Ideal) cc1_scratch4 (View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) (tile_bodyV.sl.dma0_16 m d c s)) j)) ((hpre d).2 _)
  sl_for (invLV (V d (c.castLE hcore1) (s.castLE hsub1)) (Memref.whole cc1_scratch0 : Memref sig .scVector .vmem S64 .f32) (Memref.whole cc1_scratch2 : Memref sig .scVector .vmem S64x200 .i32) (Memref.whole cc1_scratch4 : Memref sig .scVector .vmem S12800 .i32) (View.write (Elt Ideal) (Memref.whole cc1_scratch0).view f0 (tile_bodyV.sl.dma0 wC d) Finset.univ) (View.write (Elt Ideal) (Memref.whole cc1_scratch2).view (View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) (tile_bodyV.sl.dma0_15 m d c s) Finset.univ) (View.write (Elt Ideal) (Memref.whole cc1_scratch4).view (View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) (tile_bodyV.sl.dma0_16 m d c s) Finset.univ) (View.write (Elt Ideal) (Memref.whole cc1_scratch0).view f0 (tile_bodyV.sl.dma0 wC d) Finset.univ) (View.write (Elt Ideal) (Memref.whole cc1_scratch2).view (View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) (tile_bodyV.sl.dma0_15 m d c s) Finset.univ) (View.write (Elt Ideal) (Memref.whole cc1_scratch4).view (View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) (tile_bodyV.sl.dma0_16 m d c s) Finset.univ) (fun l => sum4 acc7 l)) $$ [Hs0' Hs2' Hs4']
  case region =>
    intro k acc
    exact tripV_8 d (coordsV c s) _ _ _ hx9_8 hy4_8 _ k acc
  · unfold invLV invL
    isplitl [Hs0' Hs2' Hs4']
    · isplitl [Hs0']; · iexact Hs0'
      isplitl [Hs2']; · iexact Hs2'
      iexact Hs4'
    ipureintro
    intro l
    rw [Finset.range_zero, Finset.sum_empty, add_zero]
    try rfl
  iintro %acc8 HI
  unfold invLV invL
  icases HI with ⟨⟨Hs0', Hs2', Hs4'⟩, %hsum8⟩
  sl_exec_parts
  rw [wp_ret]; imodintro
  unfold tileOutV
  isplitl [Hx' Hy' Hw' Ho']
  · isplitl [Hx']
    · iapply (Entails.of_eq (show ((Memref.whole main_arg0_scv : Memref sig .scVector .hbm S16384x200 .i32).view.loc (V d (c.castLE hcore1) (s.castLE hsub1)) ↦{Transfers.shareTok fullShare 32 (widV c s)} m (xLoc d) : sProp 𝕄) = _ from rfl))
      iexact Hx'
    isplitl [Hy']
    · iapply (Entails.of_eq (show ((Memref.whole main_arg1_scv : Memref sig .scVector .hbm S3276800 .i32).view.loc (V d (c.castLE hcore1) (s.castLE hsub1)) ↦{Transfers.shareTok fullShare 32 (widV c s)} m (yLoc d) : sProp 𝕄) = _ from rfl))
      iexact Hy'
    isplitl [Hw']
    · iapply (Entails.of_eq (show ((Memref.whole main_v2_scv : Memref sig .scVector .hbm S64 .f32).view.loc (V d (c.castLE hcore1) (s.castLE hsub1)) ↦{Transfers.shareTok fullShare 32 (widV c s)} wC d : sProp 𝕄) = _ from rfl))
      iexact Hw'
    iapply (Entails.of_eq (show ((oSl c s).view.loc (V d (c.castLE hcore1) (s.castLE hsub1)) ↦[(oSl c s).view.set]{fullShare} pvBuf m d : sProp 𝕄) = (oLoc d ↦[oBlk (widV c s)]{fullShare} pvBuf m d) from by rw [set_oSl]))
    have hz1 : (![0] : Fin 1 → Nat) = fun _ => 0 := funext fun a => by fin_cases a; rfl
    have hp : ∀ l : Fin 16, tile_bodyV.sl.dma2 d c s f5 acc8 (ix1 l) = sum4 acc8 l := by
      intro l
      unfold tile_bodyV.sl.dma2 tile_bodyV.sl.Hs5'_1
      have hrw := congrFun (View.read_writes_eq_canon (Memref.whole cc1_scratch5).view f5 [⟨Rect.unit ![0] S16.size inb_S16_S16_0, k1_pay15 acc8.1 acc8.2.1 acc8.2.2.1 acc8.2.2.2⟩]
        (fun y => View.cover_of_tiled _ S16.size (by rfl) y)) (ix1 l)
      rw [View.canon_unit_zero (Val := Elt Ideal) (S := S16) (e := .f32) hz1] at hrw
      exact hrw.trans rfl
    have h0 : ∀ l : Fin 16, sum4 (k1_pay578 (F := Ideal), k1_pay579 (F := Ideal), k1_pay580 (F := Ideal), k1_pay581 (F := Ideal)) l = 0 := by
      intro l
      show Ideal.ofBits .f32 0x00000000#32 + Ideal.ofBits .f32 0x00000000#32 + Ideal.ofBits .f32 0x00000000#32 + Ideal.ofBits .f32 0x00000000#32 = (0 : EReal)
      simp
    have ht1 : Scf.trips k1_t1_loop.lb k1_t1_loop.ub k1_t1_loop.st = 32 := by decide
    have ht2 : Scf.trips k1_t2_loop.lb k1_t2_loop.ub k1_t2_loop.st = 32 := by decide
    have ht3 : Scf.trips k1_t3_loop.lb k1_t3_loop.ub k1_t3_loop.st = 32 := by decide
    have ht4 : Scf.trips k1_t4_loop.lb k1_t4_loop.ub k1_t4_loop.st = 32 := by decide
    have ht5 : Scf.trips k1_t5_loop.lb k1_t5_loop.ub k1_t5_loop.st = 32 := by decide
    have ht6 : Scf.trips k1_t6_loop.lb k1_t6_loop.ub k1_t6_loop.st = 32 := by decide
    have ht7 : Scf.trips k1_t7_loop.lb k1_t7_loop.ub k1_t7_loop.st = 32 := by decide
    have ht8 : Scf.trips k1_t8_loop.lb k1_t8_loop.ub k1_t8_loop.st = 32 := by decide
    have hG0 : (View.write (Elt Ideal) (Memref.whole cc1_scratch0).view f0 (tile_bodyV.sl.dma0 wC d) Finset.univ : S64.Idx → EReal) = wT (m (eLoc d)) (m (fLoc d)) (m (bLoc d)) := by
      rw [View.write_whole_univ (Val := Elt Ideal) cc1_scratch0 f0 _]
      exact (funext fun i => rfl : (tile_bodyV.sl.dma0 wC d : S64.Idx → EReal) = wC d).trans (hwC d)
    have hfix : ∀ (a b : Nat) (ha : a < 16384) (hb : b < 16384) (e : a = b) (q : Fin 200), m (xLoc d) (ix2 (⟨a, ha⟩ : Fin 16384) q) = m (xLoc d) (ix2 (⟨b, hb⟩ : Fin 16384) q) := by
      intro a b ha hb e q; subst e; rfl
    have hfiy : ∀ (a b : Nat) (ha : a < 3276800) (hb : b < 3276800) (e : a = b), m (yLoc d) (ix1 (⟨a, ha⟩ : Fin 3276800)) = m (yLoc d) (ix1 (⟨b, hb⟩ : Fin 3276800)) := by
      intro a b ha hb e; subst e; rfl
    have hcc : c.val < 2 := c.isLt
    have hss : s.val < 16 := s.isLt
    have hs : ∀ (n : Fin 8) (l : Fin 16), sum4 (![acc1, acc2, acc3, acc4, acc5, acc6, acc7, acc8] n) l
        = sum4 (![(k1_pay578 (F := Ideal), k1_pay579 (F := Ideal), k1_pay580 (F := Ideal), k1_pay581 (F := Ideal)), acc1, acc2, acc3, acc4, acc5, acc6, acc7] n) l
          + ∑ i ∈ Finset.range 32, tripSum (View.write (Elt Ideal) (Memref.whole cc1_scratch0).view f0 (tile_bodyV.sl.dma0 wC d) Finset.univ) ((![View.write (Elt Ideal) (Memref.whole cc1_scratch1).view f1 (tile_bodyV.sl.dma0_1 m d c s) Finset.univ, View.write (Elt Ideal) (Memref.whole cc1_scratch2).view f2 (tile_bodyV.sl.dma0_3 m d c s) Finset.univ, View.write (Elt Ideal) (Memref.whole cc1_scratch1).view (View.write (Elt Ideal) (Memref.whole cc1_scratch1).view f1 (tile_bodyV.sl.dma0_1 m d c s) Finset.univ) (tile_bodyV.sl.dma0_5 m d c s) Finset.univ, View.write (Elt Ideal) (Memref.whole cc1_scratch2).view (View.write (Elt Ideal) (Memref.whole cc1_scratch2).view f2 (tile_bodyV.sl.dma0_3 m d c s) Finset.univ) (tile_bodyV.sl.dma0_7 m d c s) Finset.univ, View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ, View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ, View.write (Elt Ideal) (Memref.whole cc1_scratch1).view (View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) (tile_bodyV.sl.dma0_13 m d c s) Finset.univ, View.write (Elt Ideal) (Memref.whole cc1_scratch2).view (View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) (tile_bodyV.sl.dma0_15 m d c s) Finset.univ] : Fin 8 → S64x200.Idx → BitVec 32) n) ((![View.write (Elt Ideal) (Memref.whole cc1_scratch3).view f3 (tile_bodyV.sl.dma0_2 m d c s) Finset.univ, View.write (Elt Ideal) (Memref.whole cc1_scratch4).view f4 (tile_bodyV.sl.dma0_4 m d c s) Finset.univ, View.write (Elt Ideal) (Memref.whole cc1_scratch3).view (View.write (Elt Ideal) (Memref.whole cc1_scratch3).view f3 (tile_bodyV.sl.dma0_2 m d c s) Finset.univ) (tile_bodyV.sl.dma0_6 m d c s) Finset.univ, View.write (Elt Ideal) (Memref.whole cc1_scratch4).view (View.write (Elt Ideal) (Memref.whole cc1_scratch4).view f4 (tile_bodyV.sl.dma0_4 m d c s) Finset.univ) (tile_bodyV.sl.dma0_8 m d c s) Finset.univ, View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ, View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ, View.write (Elt Ideal) (Memref.whole cc1_scratch3).view (View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) (tile_bodyV.sl.dma0_14 m d c s) Finset.univ, View.write (Elt Ideal) (Memref.whole cc1_scratch4).view (View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) (tile_bodyV.sl.dma0_16 m d c s) Finset.univ] : Fin 8 → S12800.Idx → BitVec 32) n) i l := by
      intro n l
      fin_cases n
      · have := hsum1 l; rw [ht1] at this; exact this
      · have := hsum2 l; rw [ht2] at this; exact this
      · have := hsum3 l; rw [ht3] at this; exact this
      · have := hsum4 l; rw [ht4] at this; exact this
      · have := hsum5 l; rw [ht5] at this; exact this
      · have := hsum6 l; rw [ht6] at this; exact this
      · have := hsum7 l; rw [ht7] at this; exact this
      · have := hsum8 l; rw [ht8] at this; exact this
    have hX : ∀ (n : Fin 8) (j : Nat) (hj : j < 12800), xw ((![View.write (Elt Ideal) (Memref.whole cc1_scratch1).view f1 (tile_bodyV.sl.dma0_1 m d c s) Finset.univ, View.write (Elt Ideal) (Memref.whole cc1_scratch2).view f2 (tile_bodyV.sl.dma0_3 m d c s) Finset.univ, View.write (Elt Ideal) (Memref.whole cc1_scratch1).view (View.write (Elt Ideal) (Memref.whole cc1_scratch1).view f1 (tile_bodyV.sl.dma0_1 m d c s) Finset.univ) (tile_bodyV.sl.dma0_5 m d c s) Finset.univ, View.write (Elt Ideal) (Memref.whole cc1_scratch2).view (View.write (Elt Ideal) (Memref.whole cc1_scratch2).view f2 (tile_bodyV.sl.dma0_3 m d c s) Finset.univ) (tile_bodyV.sl.dma0_7 m d c s) Finset.univ, View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ, View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ, View.write (Elt Ideal) (Memref.whole cc1_scratch1).view (View.write (Elt Ideal) (Memref.whole cc1_scratch1).view (View.write (Elt Ideal) (Memref.whole cc1_scratch1).view (View.write (Elt Ideal) (Memref.whole cc1_scratch1).view f1 (tile_bodyV.sl.dma0_1 m d c s) Finset.univ) (tile_bodyV.sl.dma0_5 m d c s) Finset.univ) (tile_bodyV.sl.dma0_9 m d c s) Finset.univ) (tile_bodyV.sl.dma0_13 m d c s) Finset.univ, View.write (Elt Ideal) (Memref.whole cc1_scratch2).view (View.write (Elt Ideal) (Memref.whole cc1_scratch2).view (View.write (Elt Ideal) (Memref.whole cc1_scratch2).view (View.write (Elt Ideal) (Memref.whole cc1_scratch2).view f2 (tile_bodyV.sl.dma0_3 m d c s) Finset.univ) (tile_bodyV.sl.dma0_7 m d c s) Finset.univ) (tile_bodyV.sl.dma0_11 m d c s) Finset.univ) (tile_bodyV.sl.dma0_15 m d c s) Finset.univ] : Fin 8 → S64x200.Idx → BitVec 32) n) j
        = BitVec.toNat (m (xLoc d) (ix2 (⟨1024 * s.val + 512 * c.val + 64 * n.val + j / 200, by omega⟩ : Fin 16384) (⟨j % 200, Nat.mod_lt _ (by decide)⟩ : Fin 200))) := by
      intro n j hj
      fin_cases n
      · exact (chunk_x1 (m (xLoc d)) (k1_off1 (coordsV c s) 0#32) _ (k1_off1_eq (coordsV c s) ⟨0, by decide⟩) (by first | omega | (simp only [coordsV]; omega) | simp only [coordsV]) _ _ _ j hj).trans
          (congrArg BitVec.toNat (hfix _ _ _ _ (by first | omega | (simp only [coordsV]; omega) | simp only [coordsV]) _))
      · exact (chunk_x2 (m (xLoc d)) (k1_off1 (coordsV c s) 64#32) _ (k1_off1_eq (coordsV c s) ⟨1, by decide⟩) (by first | omega | (simp only [coordsV]; omega) | simp only [coordsV]) _ _ _ j hj).trans
          (congrArg BitVec.toNat (hfix _ _ _ _ (by first | omega | (simp only [coordsV]; omega) | simp only [coordsV]) _))
      · exact (chunk_x1 (m (xLoc d)) (k1_off28 (coordsV c s) 128#32) _ (k1_off28_eq (coordsV c s) ⟨1, by decide⟩) (by first | omega | (simp only [coordsV]; omega) | simp only [coordsV]) _ _ _ j hj).trans
          (congrArg BitVec.toNat (hfix _ _ _ _ (by first | omega | (simp only [coordsV]; omega) | simp only [coordsV]) _))
      · exact (chunk_x2 (m (xLoc d)) (k1_off28 (coordsV c s) 192#32) _ (k1_off28_eq (coordsV c s) ⟨2, by decide⟩) (by first | omega | (simp only [coordsV]; omega) | simp only [coordsV]) _ _ _ j hj).trans
          (congrArg BitVec.toNat (hfix _ _ _ _ (by first | omega | (simp only [coordsV]; omega) | simp only [coordsV]) _))
      · exact (chunk_x1 (m (xLoc d)) (k1_off28 (coordsV c s) 256#32) _ (k1_off28_eq (coordsV c s) ⟨3, by decide⟩) (by first | omega | (simp only [coordsV]; omega) | simp only [coordsV]) _ _ _ j hj).trans
          (congrArg BitVec.toNat (hfix _ _ _ _ (by first | omega | (simp only [coordsV]; omega) | simp only [coordsV]) _))
      · exact (chunk_x2 (m (xLoc d)) (k1_off28 (coordsV c s) 320#32) _ (k1_off28_eq (coordsV c s) ⟨4, by decide⟩) (by first | omega | (simp only [coordsV]; omega) | simp only [coordsV]) _ _ _ j hj).trans
          (congrArg BitVec.toNat (hfix _ _ _ _ (by first | omega | (simp only [coordsV]; omega) | simp only [coordsV]) _))
      · exact (chunk_x1 (m (xLoc d)) (k1_off28 (coordsV c s) 384#32) _ (k1_off28_eq (coordsV c s) ⟨5, by decide⟩) (by first | omega | (simp only [coordsV]; omega) | simp only [coordsV]) _ _ _ j hj).trans
          (congrArg BitVec.toNat (hfix _ _ _ _ (by first | omega | (simp only [coordsV]; omega) | simp only [coordsV]) _))
      · exact (chunk_x2 (m (xLoc d)) (k1_off28 (coordsV c s) 448#32) _ (k1_off28_eq (coordsV c s) ⟨6, by decide⟩) (by first | omega | (simp only [coordsV]; omega) | simp only [coordsV]) _ _ _ j hj).trans
          (congrArg BitVec.toNat (hfix _ _ _ _ (by first | omega | (simp only [coordsV]; omega) | simp only [coordsV]) _))
    have hY : ∀ (n : Fin 8) (j : Nat) (hj : j < 12800), yw ((![View.write (Elt Ideal) (Memref.whole cc1_scratch3).view f3 (tile_bodyV.sl.dma0_2 m d c s) Finset.univ, View.write (Elt Ideal) (Memref.whole cc1_scratch4).view f4 (tile_bodyV.sl.dma0_4 m d c s) Finset.univ, View.write (Elt Ideal) (Memref.whole cc1_scratch3).view (View.write (Elt Ideal) (Memref.whole cc1_scratch3).view f3 (tile_bodyV.sl.dma0_2 m d c s) Finset.univ) (tile_bodyV.sl.dma0_6 m d c s) Finset.univ, View.write (Elt Ideal) (Memref.whole cc1_scratch4).view (View.write (Elt Ideal) (Memref.whole cc1_scratch4).view f4 (tile_bodyV.sl.dma0_4 m d c s) Finset.univ) (tile_bodyV.sl.dma0_8 m d c s) Finset.univ, View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ, View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ, View.write (Elt Ideal) (Memref.whole cc1_scratch3).view (View.write (Elt Ideal) (Memref.whole cc1_scratch3).view (View.write (Elt Ideal) (Memref.whole cc1_scratch3).view (View.write (Elt Ideal) (Memref.whole cc1_scratch3).view f3 (tile_bodyV.sl.dma0_2 m d c s) Finset.univ) (tile_bodyV.sl.dma0_6 m d c s) Finset.univ) (tile_bodyV.sl.dma0_10 m d c s) Finset.univ) (tile_bodyV.sl.dma0_14 m d c s) Finset.univ, View.write (Elt Ideal) (Memref.whole cc1_scratch4).view (View.write (Elt Ideal) (Memref.whole cc1_scratch4).view (View.write (Elt Ideal) (Memref.whole cc1_scratch4).view (View.write (Elt Ideal) (Memref.whole cc1_scratch4).view f4 (tile_bodyV.sl.dma0_4 m d c s) Finset.univ) (tile_bodyV.sl.dma0_8 m d c s) Finset.univ) (tile_bodyV.sl.dma0_12 m d c s) Finset.univ) (tile_bodyV.sl.dma0_16 m d c s) Finset.univ] : Fin 8 → S12800.Idx → BitVec 32) n) j
        = BitVec.toNat (m (yLoc d) (ix1 (⟨204800 * s.val + 102400 * c.val + 12800 * n.val + j, by omega⟩ : Fin 3276800))) := by
      intro n j hj
      fin_cases n
      · exact (chunk_y3 (m (yLoc d)) (k1_off2 (coordsV c s) 0#32) _ (k1_off2_eq (coordsV c s) ⟨0, by decide⟩) (by first | omega | (simp only [coordsV]; omega) | simp only [coordsV]) _ _ _ j hj).trans
          (congrArg BitVec.toNat (hfiy _ _ _ _ (by first | omega | (simp only [coordsV]; omega) | simp only [coordsV])))
      · exact (chunk_y4 (m (yLoc d)) (k1_off2 (coordsV c s) 12800#32) _ (k1_off2_eq (coordsV c s) ⟨1, by decide⟩) (by first | omega | (simp only [coordsV]; omega) | simp only [coordsV]) _ _ _ j hj).trans
          (congrArg BitVec.toNat (hfiy _ _ _ _ (by first | omega | (simp only [coordsV]; omega) | simp only [coordsV])))
      · exact (chunk_y3 (m (yLoc d)) (k1_off29 (coordsV c s) 25600#32) _ (k1_off29_eq (coordsV c s) ⟨1, by decide⟩) (by first | omega | (simp only [coordsV]; omega) | simp only [coordsV]) _ _ _ j hj).trans
          (congrArg BitVec.toNat (hfiy _ _ _ _ (by first | omega | (simp only [coordsV]; omega) | simp only [coordsV])))
      · exact (chunk_y4 (m (yLoc d)) (k1_off29 (coordsV c s) 38400#32) _ (k1_off29_eq (coordsV c s) ⟨2, by decide⟩) (by first | omega | (simp only [coordsV]; omega) | simp only [coordsV]) _ _ _ j hj).trans
          (congrArg BitVec.toNat (hfiy _ _ _ _ (by first | omega | (simp only [coordsV]; omega) | simp only [coordsV])))
      · exact (chunk_y3 (m (yLoc d)) (k1_off29 (coordsV c s) 51200#32) _ (k1_off29_eq (coordsV c s) ⟨3, by decide⟩) (by first | omega | (simp only [coordsV]; omega) | simp only [coordsV]) _ _ _ j hj).trans
          (congrArg BitVec.toNat (hfiy _ _ _ _ (by first | omega | (simp only [coordsV]; omega) | simp only [coordsV])))
      · exact (chunk_y4 (m (yLoc d)) (k1_off29 (coordsV c s) 64000#32) _ (k1_off29_eq (coordsV c s) ⟨4, by decide⟩) (by first | omega | (simp only [coordsV]; omega) | simp only [coordsV]) _ _ _ j hj).trans
          (congrArg BitVec.toNat (hfiy _ _ _ _ (by first | omega | (simp only [coordsV]; omega) | simp only [coordsV])))
      · exact (chunk_y3 (m (yLoc d)) (k1_off29 (coordsV c s) 76800#32) _ (k1_off29_eq (coordsV c s) ⟨5, by decide⟩) (by first | omega | (simp only [coordsV]; omega) | simp only [coordsV]) _ _ _ j hj).trans
          (congrArg BitVec.toNat (hfiy _ _ _ _ (by first | omega | (simp only [coordsV]; omega) | simp only [coordsV])))
      · exact (chunk_y4 (m (yLoc d)) (k1_off29 (coordsV c s) 89600#32) _ (k1_off29_eq (coordsV c s) ⟨6, by decide⟩) (by first | omega | (simp only [coordsV]; omega) | simp only [coordsV]) _ _ _ j hj).trans
          (congrArg BitVec.toNat (hfiy _ _ _ _ (by first | omega | (simp only [coordsV]; omega) | simp only [coordsV])))
    iapply (Entails.of_eq (pointsTo_congr (ℓ := (oSl c s).view.loc (V d (c.castLE hcore1) (s.castLE hsub1))) (I := (oSl c s).view.set) (q := fullShare)
      (f := (oSl c s).view.writes (Elt Ideal) (m (oLoc d)) [⟨Rect.whole S16, tile_bodyV.sl.dma2 d c s f5 acc8⟩]) (g := pvBuf m d) (fun idx hidx => by
        obtain ⟨l, h, rfl, hwv⟩ := writes_block d c s (m (oLoc d)) (tile_bodyV.sl.dma2 d c s f5 acc8) idx hidx
        rw [hwv]
        have hb := block_value_lane m d (Fin.cast rfl c) (Fin.cast rfl s) (widV c s) rfl (tile_bodyV.sl.dma2 d c s f5 acc8)
          (k1_pay578 (F := Ideal), k1_pay579 (F := Ideal), k1_pay580 (F := Ideal), k1_pay581 (F := Ideal)) acc1 acc2 acc3 acc4 acc5 acc6 acc7 acc8 hp h0 _ hG0 _ _ hs hX hY l
        rw [hb]
        exact congrArg (pvBuf m d) (congrArg ix1 (Fin.ext (by show 16 * (widV c s).val + l.val = 32 * s.val + 16 * c.val + l.val; have hwid : (widV c s).val = 2 * s.val + c.val := rfl; omega))))))
    iexact Ho'
  isplitl [Hs0' Hs1' Hs2' Hs3' Hs4' Hs5' Hbufs]
  · isplitl [Hs0']
    · iexists _
      iapply (Entails.of_eq (show ((Memref.whole cc1_scratch0 : Memref sig .scVector .vmem S64 .f32).view.loc (V d (c.castLE hcore1) (s.castLE hsub1)) ↦{fullShare} _ : sProp 𝕄) = ((V d (c.castLE hcore1) (s.castLE hsub1)).loc cc1_scratch0 ↦{fullShare} _) from rfl))
      iexact Hs0'
    isplitl [Hs1']
    · iexists _
      iapply (Entails.of_eq (show ((Memref.whole cc1_scratch1 : Memref sig .scVector .vmem S64x200 .i32).view.loc (V d (c.castLE hcore1) (s.castLE hsub1)) ↦{fullShare} _ : sProp 𝕄) = ((V d (c.castLE hcore1) (s.castLE hsub1)).loc cc1_scratch1 ↦{fullShare} _) from rfl))
      iexact Hs1'
    isplitl [Hs2']
    · iexists _
      iapply (Entails.of_eq (show ((Memref.whole cc1_scratch2 : Memref sig .scVector .vmem S64x200 .i32).view.loc (V d (c.castLE hcore1) (s.castLE hsub1)) ↦{fullShare} _ : sProp 𝕄) = ((V d (c.castLE hcore1) (s.castLE hsub1)).loc cc1_scratch2 ↦{fullShare} _) from rfl))
      iexact Hs2'
    isplitl [Hs3']
    · iexists _
      iapply (Entails.of_eq (show ((Memref.whole cc1_scratch3 : Memref sig .scVector .vmem S12800 .i32).view.loc (V d (c.castLE hcore1) (s.castLE hsub1)) ↦{fullShare} _ : sProp 𝕄) = ((V d (c.castLE hcore1) (s.castLE hsub1)).loc cc1_scratch3 ↦{fullShare} _) from rfl))
      iexact Hs3'
    isplitl [Hs4']
    · iexists _
      iapply (Entails.of_eq (show ((Memref.whole cc1_scratch4 : Memref sig .scVector .vmem S12800 .i32).view.loc (V d (c.castLE hcore1) (s.castLE hsub1)) ↦{fullShare} _ : sProp 𝕄) = ((V d (c.castLE hcore1) (s.castLE hsub1)).loc cc1_scratch4 ↦{fullShare} _) from rfl))
      iexact Hs4'
    isplitl [Hs5']
    · iexists _
      iapply (Entails.of_eq (show ((Memref.whole cc1_scratch5 : Memref sig .scVector .vmem S16 .f32).view.loc (V d (c.castLE hcore1) (s.castLE hsub1)) ↦{fullShare} _ : sProp 𝕄) = ((V d (c.castLE hcore1) (s.castLE hsub1)).loc cc1_scratch5 ↦{fullShare} _) from rfl))
      iexact Hs5'
    iexact Hbufs
  isplitl [Hr0 Hx0 Hx1 Hy0 Hy1 Hr1 Hsems]
  · isplitl [Hr0]; · iexact Hr0
    isplitl [Hx0]; · iexact Hx0
    isplitl [Hx1]; · iexact Hx1
    isplitl [Hy0]; · iexact Hy0
    isplitl [Hy1]; · iexact Hy1
    isplitl [Hr1]; · iexact Hr1
    iexact Hsems
  iexists _; isplitr
  swap; · iexact HO
  ipureintro
  repeat' (first
    | exact fun p hp => Or.inl hp
    | refine (Finset.forall_mem_insert _ _ _).mpr ⟨Or.inr rfl, ?_⟩)

end Cert.Proof.KI

end
-- ==== Proof.lean ====
/-
  The kernel computes, on the SparseCore, the mean over 3,276,800 tokens of the cross-entropy of a softmax: a first
  TensorCore call tabulates, for each of the 10 embedding rows e and 5 classes c, T[e, c] = logsumexp(p_e) - p_e[c] with
  p_e the softmax of the row's five scores emb[e]·fc_w[c] + fc_b[c]; the table is flattened and padded to 64 words; each of
  the 32 vector subcores sums T[5·x + y] over its 102,400 tokens (sixteen lanes, four accumulators, eight chunks fetched two
  deep); a last TensorCore call sums the 512 partial sums and divides by the token count. The reference gathers the
  embedding rows, applies the same softmax and a log-softmax of it, picks the class y, negates and averages: token by token
  -((p_c - m) - L) against (L + m) - p_c with m the greatest p and L = log Σ exp(p - m), equal where p, m and L are real —
  which finite inputs give (the scores are real, an exponential of a real is a positive real, so p is a real in (0, 1] and
  Σ exp(p - m) ≥ 1).
  The three frames: the reference's by its run written operation by operation; the two kernel programs' by the SparseCore
  launch theorem — @main on the TensorCore enters each TensorCore call as a region while it owes the SparseCore call's
  handshakes (everything it owes sits above the staging cells' level, so the pipeline's waits are admissible), runs the host
  operations between them over the unscoped buffers held at a valuation, and hands each tile a read token of x, of y and of
  the padded table and its sixteen words of the partial sums.
-/
import proofs.«205364_g71897752535391_cont_9to1_m_950_21_alg».proof.Defs
import proofs.«205364_g71897752535391_cont_9to1_m_950_21_alg».proof.Proof.Gen.Kernel
import proofs.«205364_g71897752535391_cont_9to1_m_950_21_alg».proof.Proof.Gen.KernelIdeal
import proofs.«205364_g71897752535391_cont_9to1_m_950_21_alg».proof.Proof.Gen.ReferenceIdeal
import proofs.«205364_g71897752535391_cont_9to1_m_950_21_alg».proof.Proof.Gen.Pre_input_domain
import proofs.«205364_g71897752535391_cont_9to1_m_950_21_alg».proof.Proof.KI.Frame
import proofs.«205364_g71897752535391_cont_9to1_m_950_21_alg».proof.Proof.KB.Frame
import proofs.«205364_g71897752535391_cont_9to1_m_950_21_alg».proof.Proof.RefValue
import proofs.«205364_g71897752535391_cont_9to1_m_950_21_alg».proof.Proof.KI.ValueFinal
import proofs.«205364_g71897752535391_cont_9to1_m_950_21_alg».proof.Proof.KI.TileBodyV
import Idealize.ShloMosaic.Adequacy
import Idealize.ShloMosaic.Init

noncomputable section

namespace Cert.Proof

open Idealize.ShloMosaic Idealize.SL.Sem

/-- Every tile of the SparseCore call leaves on its sixteen words of the partial sums the lane-wise sums of the padded table
    at 5·x + y over its tokens (`Cert.Proof.KI.pvBuf`: word j of the 512 sums over the 6400 tokens
    102400·(j / 16) + 16·n + j % 16): the four accumulators' values through the eight loops of thirty-two trips of
    twenty-five indexed loads. -/
theorem tile_value (m : (ℓ : Loc Cert.KernelIdeal.nD Cert.KernelIdeal.τ Cert.KernelIdeal.sig) → Buf (Elt Ideal) ℓ)
    (hpre : Cert.Pre_KernelIdeal m) :
    Cert.Proof.KI.TileVal (F := Ideal) m (Cert.Proof.KI.wCof m) (Cert.Proof.KI.pvBuf m) :=
  Cert.Proof.KI.tile_bodyV m (Cert.Proof.KI.wCof m) (fun d => (Cert.Proof.KI.wCof_eq m d).trans rfl) (Cert.Proof.KI.ok_of_pre m hpre)

/-- Under the precondition the idealized kernel's result is the specification's loss of the arguments: the table
    (`k0_pay1_apply`), the tiles' sums, their mean (`k2_pay1_apply`) and the regrouping of the sums over the tokens
    (`value_math`), through the launch that carries the values (`run_main_val`). -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩
      (fun r => ∀ c : Dev Cert.KernelIdeal.nD,
        r.2.mem ((c.tc : Thread _ _).loc Cert.KernelIdeal.main_v5)
            = Cert.RefSide.specVal (m ((c.tc : Thread _ _).loc Cert.KernelIdeal.main_arg0)) (m ((c.tc : Thread _ _).loc Cert.KernelIdeal.main_arg1))
                (m ((c.tc : Thread _ _).loc Cert.KernelIdeal.main_arg2)) (m ((c.tc : Thread _ _).loc Cert.KernelIdeal.main_arg3)) (m ((c.tc : Thread _ _).loc Cert.KernelIdeal.main_arg4))
          ∧ r.2.mem ((c.tc : Thread _ _).loc Cert.KernelIdeal.main_arg0) = m ((c.tc : Thread _ _).loc Cert.KernelIdeal.main_arg0)
          ∧ r.2.mem ((c.tc : Thread _ _).loc Cert.KernelIdeal.main_arg1) = m ((c.tc : Thread _ _).loc Cert.KernelIdeal.main_arg1)
          ∧ r.2.mem ((c.tc : Thread _ _).loc Cert.KernelIdeal.main_arg2) = m ((c.tc : Thread _ _).loc Cert.KernelIdeal.main_arg2)
          ∧ r.2.mem ((c.tc : Thread _ _).loc Cert.KernelIdeal.main_arg3) = m ((c.tc : Thread _ _).loc Cert.KernelIdeal.main_arg3)
          ∧ r.2.mem ((c.tc : Thread _ _).loc Cert.KernelIdeal.main_arg4) = m ((c.tc : Thread _ _).loc Cert.KernelIdeal.main_arg4)) :=
  Cert.Proof.KI.kernel_value_of_tile m ρ hpre (tile_value m hpre)

/-- The two idealized programs agree: both results are the specification's loss of the arguments. -/
theorem algebraic : Cert.algebraic_KernelIdeal_ReferenceIdeal := by
  intro m g m' g' hpre hagree
  have hpre' : Cert.Pre_ReferenceIdeal m' := fun c => by
    obtain ⟨h0, h1, h2, h3, h4⟩ := hagree c
    show Cert.Pre_input_domain.fn (F := Ideal) _ _ _ _ _ = _
    rw [h0, h1, h2, h3, h4]
    exact hpre c
  refine ⟨fun c => Cert.RefSide.specVal (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)) (m ((c.tc : Thread _ _).loc Cert.KernelIdeal.main_arg4)),
    kernel_value m g hpre, ?_⟩
  refine (θ_run Cert.ReferenceIdeal.defs _ _).mono (fun r h c => ?_) (Cert.RefSide.run_spec m' g' hpre')
  obtain ⟨h0, h1, h2, h3, h4⟩ := hagree c
  obtain ⟨hv, k0, k1, k2, k3, k4⟩ := h c
  refine ⟨?_, k0, k1, k2, k3, k4⟩
  rw [hv]
  show Cert.RefSide.specVal _ _ _ _ _ = Cert.RefSide.specVal _ _ _ _ _
  rw [h0, h1, h2, h3, h4]

theorem claim : Cert.Claim := ⟨Cert.Kernel.Gen.facts, Cert.KernelIdeal.Gen.facts, Cert.ReferenceIdeal.Gen.facts, Cert.Pre_input_domain.Gen.facts,
  Cert.Proof.KB.frame, Cert.Proof.KI.frame, Cert.RefSide.frame_ri, trivial, algebraic⟩

end Cert.Proof

end
